-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S64x32 : Shape := ⟨2, ![64, 32]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S288x512 : Shape := ⟨2, ![288, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S3x256 : S_.BroadcastsInDim S3x256 (![] : Fin 0 → Fin S3x256.rank)
  reducesTo_S3x256_S_d0_1 : S3x256.ReducesTo [0, 1] S_
  bcast_S_S288x512 : S_.BroadcastsInDim S288x512 (![] : Fin 0 → Fin S288x512.rank)
  reducesTo_S288x512_S_d0_1 : S288x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S512x10 .f32) (main_arg17 : FVec F S10 .f32) (main_v63 : IVec S_ 1) (main_v67 : IVec S_ 1) : IVec S_ 1 :=
  let main_v68 : IVec S_ 1 := andi main_v63 main_v67
  let main_v69 : FVec F S512x10 .f32 := Host.absf main_arg16
  let main_cst_26 : FVec F S_ .f32 := constant S_ .f32 0x7F800000#32
  let main_v70 : FVec F S512x10 .f32 := broadcastInDim S512x10 ![] bcast_S_S512x10 main_cst_26
  let main_v71 : IVec S512x10 1 := cmpf .olt main_v69 main_v70
  let main_c_27 : IVec S_ 1 := constantI S_ 1 1#1
  let main_v72 : IVec S_ 1 := (fun x v => Host.reduce IntOp.andi x v reducesTo_S512x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S512 .f32) (main_arg14 : FVec F S512x512 .f32) (main_arg15 : FVec F S512 .f32) (main_arg16 : FVec F S512x10 .f32) (main_arg17 : FVec F S10 .f32) (main_v48 : IVec S_ 1) (main_v49 : FVec F S288x512 .f32) (main_v50 : FVec F S288x512 .f32) : IVec S_ 1 :=
  let main_v51 : IVec S288x512 1 := cmpf .olt main_v49 main_v50
  let main_c_19 : IVec S_ 1 := constantI S_ 1 1#1
  let main_v52 : IVec S_ 1 := (fun x v => Host.reduce IntOp.andi x v reducesTo_S288x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg14
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg15
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg16 main_arg17 main_v63 main_v67

def fn_part2 {F : FTy → Type} [FloatOps F] (main_arg9 : FVec F S2x256 .f32) (main_arg10 : FVec F S3x256 .f32) (main_arg11 : FVec F S3x256 .f32) (main_arg12 : FVec F S288x512 .f32) (main_arg13 : FVec F S512 .f32) (main_arg14 : FVec F S512x512 .f32) (main_arg15 : FVec F S512 .f32) (main_arg16 : FVec F S512x10 .f32) (main_arg17 : FVec F S10 .f32) (main_v33 : IVec S_ 1) : IVec S_ 1 :=
  let main_v34 : FVec F S2x256 .f32 := Host.absf main_arg9
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S288x512 .f32 := Host.absf main_arg12
  let main_cst_18 : FVec F S_ .f32 := constant S_ .f32 0x7F800000#32
  let main_v50 : FVec F S288x512 .f32 := broadcastInDim S288x512 ![] bcast_S_S288x512 main_cst_18
  fn_part3 (F := F) main_arg13 main_arg14 main_arg15 main_arg16 main_arg17 main_v48 main_v49 main_v50

def fn_part1 {F : FTy → Type} [FloatOps F] (main_arg6 : FVec F S256 .f32) (main_arg7 : FVec F S2x256x256 .f32) (main_arg8 : FVec F S2x256x256 .f32) (main_arg9 : FVec F S2x256 .f32) (main_arg10 : FVec F S3x256 .f32) (main_arg11 : FVec F S3x256 .f32) (main_arg12 : FVec F S288x512 .f32) (main_arg13 : FVec F S512 .f32) (main_arg14 : FVec F S512x512 .f32) (main_arg15 : FVec F S512 .f32) (main_arg16 : FVec F S512x10 .f32) (main_arg17 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S2x256x256 .f32 := Host.absf main_arg7
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256x256 .f32 := Host.absf main_arg8
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S64x32 .f32) (main_arg4 : FVec F S128x256 .f32) (main_arg5 : FVec F S128x256 .f32) (main_arg6 : FVec F S256 .f32) (main_arg7 : FVec F S2x256x256 .f32) (main_arg8 : FVec F S2x256x256 .f32) (main_arg9 : FVec F S2x256 .f32) (main_arg10 : FVec F S3x256 .f32) (main_arg11 : FVec F S3x256 .f32) (main_arg12 : FVec F S288x512 .f32) (main_arg13 : FVec F S512 .f32) (main_arg14 : FVec F S512x512 .f32) (main_arg15 : FVec F S512 .f32) (main_arg16 : FVec F S512x10 .f32) (main_arg17 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S64x32 : Shape := ⟨2, ![64, 32]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S288x512 : Shape := ⟨2, ![288, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256 : Shape := ⟨2, ![1, 256]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S1x256x256 : Shape := ⟨3, ![1, 256, 256]⟩
abbrev S256x256 : Shape := ⟨2, ![256, 256]⟩
abbrev S800000x256 : Shape := ⟨2, ![800000, 256]⟩
abbrev S64 : Shape := ⟨1, ![64]⟩
abbrev S64x256 : Shape := ⟨2, ![64, 256]⟩
abbrev S64x1 : Shape := ⟨2, ![64, 1]⟩
abbrev S64x288 : Shape := ⟨2, ![64, 288]⟩
abbrev S1x512 : Shape := ⟨2, ![1, 512]⟩
abbrev S1x10 : Shape := ⟨2, ![1, 10]⟩
abbrev S64x10 : Shape := ⟨2, ![64, 10]⟩
abbrev S64x512 : Shape := ⟨2, ![64, 512]⟩

abbrev nBuf : Space → Nat
  | .hbm => 146
  | .vmem => 71
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S64x32, .f32⟩
  | 4 => ⟨S128x256, .f32⟩
  | 5 => ⟨S128x256, .f32⟩
  | 6 => ⟨S256, .f32⟩
  | 7 => ⟨S2x256x256, .f32⟩
  | 8 => ⟨S2x256x256, .f32⟩
  | 9 => ⟨S2x256, .f32⟩
  | 10 => ⟨S3x256, .f32⟩
  | 11 => ⟨S3x256, .f32⟩
  | 12 => ⟨S288x512, .f32⟩
  | 13 => ⟨S512, .f32⟩
  | 14 => ⟨S512x512, .f32⟩
  | 15 => ⟨S512, .f32⟩
  | 16 => ⟨S512x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S1x256, .f32⟩
  | 36 => ⟨S256, .f32⟩
  | 37 => ⟨S1x256, .f32⟩
  | 38 => ⟨S256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S50000x128, .f32⟩
  | 54 => ⟨S1x256, .f32⟩
  | 55 => ⟨S50000x256, .f32⟩
  | 56 => ⟨S1x256, .f32⟩
  | 57 => ⟨S1x256, .f32⟩
  | 58 => ⟨S1x256, .f32⟩
  | 59 => ⟨S1x256, .f32⟩
  | 60 => ⟨S50000x256, .f32⟩
  | 61 => ⟨S1x256x256, .f32⟩
  | 62 => ⟨S256x256, .f32⟩
  | 63 => ⟨S1x256, .f32⟩
  | 64 => ⟨S256, .f32⟩
  | 65 => ⟨S1x256x256, .f32⟩
  | 66 => ⟨S256x256, .f32⟩
  | 67 => ⟨S1x256, .f32⟩
  | 68 => ⟨S256, .f32⟩
  | 69 => ⟨S1x256, .f32⟩
  | 70 => ⟨S256, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x256, .f32⟩
  | 80 => ⟨S_, .f32⟩
  | 81 => ⟨S50000x256, .f32⟩
  | 82 => ⟨S800000x1, .i32⟩
  | 83 => ⟨S50000x256, .f32⟩
  | 84 => ⟨S50000x256, .f32⟩
  | 85 => ⟨S50000x256, .f32⟩
  | 86 => ⟨S1x256, .f32⟩
  | 87 => ⟨S50000x256, .f32⟩
  | 88 => ⟨S1x256, .f32⟩
  | 89 => ⟨S1x256, .f32⟩
  | 90 => ⟨S1x256, .f32⟩
  | 91 => ⟨S1x256, .f32⟩
  | 92 => ⟨S50000x256, .f32⟩
  | 93 => ⟨S1x256x256, .f32⟩
  | 94 => ⟨S256x256, .f32⟩
  | 95 => ⟨S1x256, .f32⟩
  | 96 => ⟨S256, .f32⟩
  | 97 => ⟨S1x256x256, .f32⟩
  | 98 => ⟨S256x256, .f32⟩
  | 99 => ⟨S1x256, .f32⟩
  | 100 => ⟨S256, .f32⟩
  | 101 => ⟨S1x256, .f32⟩
  | 102 => ⟨S256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S50000x256, .f32⟩
  | 117 => ⟨S50000x256, .f32⟩
  | 118 => ⟨S1x256, .f32⟩
  | 119 => ⟨S50000x256, .f32⟩
  | 120 => ⟨S1x256, .f32⟩
  | 121 => ⟨S1x256, .f32⟩
  | 122 => ⟨S1x256, .f32⟩
  | 123 => ⟨S1x256, .f32⟩
  | 124 => ⟨S50000x256, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S64, .f32⟩
  | 1 => ⟨S50000x1, .i32⟩
  | 2 => ⟨S64, .f32⟩
  | 3 => ⟨S_, .f32⟩
  | 4 => ⟨S64x256, .f32⟩
  | 5 => ⟨S50000x1, .i32⟩
  | 6 => ⟨S64x256, .f32⟩
  | 7 => ⟨S_, .f32⟩
  | 8 => ⟨S64, .f32⟩
  | 9 => ⟨S64, .f32⟩
  | 10 => ⟨S64x1, .f32⟩
  | 11 => ⟨S64x256, .f32⟩
  | 12 => ⟨S64x256, .f32⟩
  | 13 => ⟨S64x288, .f32⟩
  | 14 => ⟨S1x512, .f32⟩
  | 15 => ⟨S1x512, .f32⟩
  | 16 => ⟨S1x10, .f32⟩
  | 17 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S256x256, .f32⟩
  | .local _ .vmem, ⟨26, _⟩ => ⟨S256x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S5000x256, .f32⟩
  | .local _ .vmem, ⟨35, _⟩ => ⟨S5000x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S5000x256, .f32⟩
  | .local _ .vmem, ⟨41, _⟩ => ⟨S5000x256, .f32⟩
  | .local _ .vmem, ⟨42, _⟩ => ⟨S5000x256, .f32⟩
  | .local _ .vmem, ⟨43, _⟩ => ⟨S5000x256, .f32⟩
  | .local _ .vmem, ⟨44, _⟩ => ⟨S5000x256, .f32⟩
  | .local _ .vmem, ⟨45, _⟩ => ⟨S5000x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S5000x256, .f32⟩
  | .local _ .vmem, ⟨50, _⟩ => ⟨S5000x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S5000x256, .f32⟩
  | .local _ .vmem, ⟨56, _⟩ => ⟨S5000x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S5000x256, .f32⟩
  | .local _ .vmem, ⟨62, _⟩ => ⟨S5000x256, .f32⟩
  | .local _ .vmem, ⟨63, _⟩ => ⟨S64x288, .f32⟩
  | .local _ .vmem, ⟨64, _⟩ => ⟨S288x512, .f32⟩
  | .local _ .vmem, ⟨65, _⟩ => ⟨S1x512, .f32⟩
  | .local _ .vmem, ⟨66, _⟩ => ⟨S512x512, .f32⟩
  | .local _ .vmem, ⟨67, _⟩ => ⟨S1x512, .f32⟩
  | .local _ .vmem, ⟨68, _⟩ => ⟨S512x10, .f32⟩
  | .local _ .vmem, ⟨69, _⟩ => ⟨S1x10, .f32⟩
  | .local _ .vmem, ⟨70, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v57_2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_8 : Ref sig .tc := ⟨.hbm, 103, rfl⟩
abbrev main_v71 : Ref sig .tc := ⟨.hbm, 104, rfl⟩
abbrev main_v72 : Ref sig .tc := ⟨.hbm, 105, rfl⟩
abbrev main_c_9 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84_0 : Ref sig .tc := ⟨.hbm, 119, rfl⟩
abbrev main_v84_1 : Ref sig .tc := ⟨.hbm, 120, rfl⟩
abbrev main_v84_2 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_14 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg7_0 : Ref sig .tc := ⟨.vmem, 52, rfl⟩
abbrev cc4_scratch0 : Ref sig .tc := ⟨.vmem, 53, rfl⟩
abbrev cc4_scratch1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_23 : BitVec 32 := 0#32
  let v36 : BitVec 1 := Scalar.cmpi .ne v35 c0_i32_23
  v36

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_23 : BitVec 32 := 0#32
  let v36 : BitVec 1 := Scalar.cmpi .ne v35 c0_i32_23
  v36

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x288 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S288x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256_S1x256_0_0 : S3x256.Slices ![0, 0] S1x256
  shapeCasts_S1x256_S256 : S1x256.ShapeCasts S256
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  shapeCasts_S5000x256_S5000x256 : S5000x256.ShapeCasts S5000x256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  slices_S3x256_S1x256_1_0 : S3x256.Slices ![1, 0] S1x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x256x256_S1x256x256_1_0_0 : S2x256x256.Slices ![1, 0, 0] S1x256x256
  slices_S2x256_S1x256_1_0 : S2x256.Slices ![1, 0] S1x256
  slices_S3x256_S1x256_2_0 : S3x256.Slices ![2, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x32_S64x288_d1 : Shape.Concatenates [S64x256, S64x32] S64x288 1
  shapeCasts_S512_S1x512 : S512.ShapeCasts S1x512
  shapeCasts_S10_S1x10 : S10.ShapeCasts S1x10
  inb_S64x288_S64x288_0_0 : ∀ a, (![0, 0] : Fin 2 → Nat) a + S64x288.size a ≤ S64x288.size a
  h_S64x288 : 0 < S64x288.numel
  shapeCasts_S64x288_S64x288 : S64x288.ShapeCasts S64x288
  inb_S288x512_S288x512_0_0 : ∀ a, (![0, 0] : Fin 2 → Nat) a + S288x512.size a ≤ S288x512.size a
  h_S288x512 : 0 < S288x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x512_S512x512_0_0 : ∀ a, (![0, 0] : Fin 2 → Nat) a + S512x512.size a ≤ S512x512.size a
  h_S512x512 : 0 < S512x512.numel
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x288_S288x512_S64x512_1_0_0_1_n_n_wf : DotDims.WF S64x288 S288x512 S64x512 [1] [0] [0] [1] [] []
  dot_S64x512_S512x512_S64x512_1_0_0_1_n_n_wf : DotDims.WF S64x512 S512x512 S64x512 [1] [0] [0] [1] [] []
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x256.size a ≤ S50000x256.size a
  hwx4_5 : ∀ i : grid4.Coords, EltTy.bits .f32 = 32 ∨ (Rect.block (s := S50000x256) S5000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S50000x256.size a
  hwx5_5 : ∀ i : grid5.Coords, EltTy.bits .f32 = 32 ∨ (Rect.block (s := S50000x256) S5000x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x288.size a ≤ S64x288.size a
  hwx6_0 : ∀ i : grid6.Coords, EltTy.bits .f32 = 32 ∨ (Rect.block (s := S64x288) S64x288.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S288x512.size a ≤ S288x512.size a
  hwx6_1 : ∀ i : grid6.Coords, EltTy.bits .f32 = 32 ∨ (Rect.block (s := S288x512) S288x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .f32 = 32 ∨ (Rect.block (s := S512x512) S512x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x10.size a ≤ S1x10.size a
  hwx6_6 : ∀ i : grid6.Coords, EltTy.bits .f32 = 32 ∨ (Rect.block (s := S1x10) S1x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x10.size a ≤ S64x10.size a
  hwx6_7 : ∀ i : grid6.Coords, EltTy.bits .f32 = 32 ∨ (Rect.block (s := S64x10) S64x10.size (cc6_transform_7 i) (hinb6_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x288_S288x512_S64x512_1_0_0_1_n_n : DotDims S64x288 S288x512 S64x512 where
  lhsContracting := [1]
  rhsContracting := [0]
  lhsNonContracting := [0]
  rhsNonContracting := [1]
  lhsBatch := []
  rhsBatch := []
  wf := dot_S64x288_S288x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S5000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v30_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30_2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57_0) S5000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v57_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v57_0) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57_1) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57_2) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v82) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84_0) S5000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v84_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v84_0) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84_1) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84_2) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S64x288.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S288x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v102) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg16) S512x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v103) S1x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v104) S64x10.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S64x32 : Shape := ⟨2, ![64, 32]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S288x512 : Shape := ⟨2, ![288, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256 : Shape := ⟨2, ![1, 256]⟩
abbrev S800000x128 : Shape := ⟨2, ![800000, 128]⟩
abbrev S50000x256 : Shape := ⟨2, ![50000, 256]⟩
abbrev S1x256x256 : Shape := ⟨3, ![1, 256, 256]⟩
abbrev S256x256 : Shape := ⟨2, ![256, 256]⟩
abbrev S800000x256 : Shape := ⟨2, ![800000, 256]⟩
abbrev S64 : Shape := ⟨1, ![64]⟩
abbrev S64x256 : Shape := ⟨2, ![64, 256]⟩
abbrev S64x1 : Shape := ⟨2, ![64, 1]⟩
abbrev S64x288 : Shape := ⟨2, ![64, 288]⟩
abbrev S64x512 : Shape := ⟨2, ![64, 512]⟩
abbrev S1x512 : Shape := ⟨2, ![1, 512]⟩
abbrev S64x10 : Shape := ⟨2, ![64, 10]⟩
abbrev S1x10 : Shape := ⟨2, ![1, 10]⟩

abbrev nBuf : Space → Nat
  | .hbm => 312
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S64x32, .f32⟩
  | 4 => ⟨S128x256, .f32⟩
  | 5 => ⟨S128x256, .f32⟩
  | 6 => ⟨S256, .f32⟩
  | 7 => ⟨S2x256x256, .f32⟩
  | 8 => ⟨S2x256x256, .f32⟩
  | 9 => ⟨S2x256, .f32⟩
  | 10 => ⟨S3x256, .f32⟩
  | 11 => ⟨S3x256, .f32⟩
  | 12 => ⟨S288x512, .f32⟩
  | 13 => ⟨S512, .f32⟩
  | 14 => ⟨S512x512, .f32⟩
  | 15 => ⟨S512, .f32⟩
  | 16 => ⟨S512x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S1x256, .f32⟩
  | 36 => ⟨S256, .f32⟩
  | 37 => ⟨S1x256, .f32⟩
  | 38 => ⟨S256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S50000x128, .f32⟩
  | 54 => ⟨S50000x256, .f32⟩
  | 55 => ⟨S1x256, .f32⟩
  | 56 => ⟨S50000x256, .f32⟩
  | 57 => ⟨S50000x256, .f32⟩
  | 58 => ⟨S50000x256, .f32⟩
  | 59 => ⟨S50000x256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S50000x256, .f32⟩
  | 73 => ⟨S50000x256, .f32⟩
  | 74 => ⟨S50000x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S50000x256, .f32⟩
  | 90 => ⟨S50000x256, .f32⟩
  | 91 => ⟨S_, .f32⟩
  | 92 => ⟨S256, .f32⟩
  | 93 => ⟨S256, .f32⟩
  | 94 => ⟨S256, .f32⟩
  | 95 => ⟨S256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .i1⟩
  | 105 => ⟨S_, .f32⟩
  | 106 => ⟨S50000x256, .f32⟩
  | 107 => ⟨S50000x256, .f32⟩
  | 108 => ⟨S50000x256, .f32⟩
  | 109 => ⟨S1x256x256, .f32⟩
  | 110 => ⟨S256x256, .f32⟩
  | 111 => ⟨S1x256, .f32⟩
  | 112 => ⟨S256, .f32⟩
  | 113 => ⟨S1x256x256, .f32⟩
  | 114 => ⟨S256x256, .f32⟩
  | 115 => ⟨S1x256, .f32⟩
  | 116 => ⟨S256, .f32⟩
  | 117 => ⟨S1x256, .f32⟩
  | 118 => ⟨S256, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x256, .f32⟩
  | _ => ⟨S50000x128, .f32⟩

abbrev hbmTy0_1 (i : Nat) : BufTy := match i % 128 with
  | 0 => ⟨S_, .f32⟩
  | 1 => ⟨S50000x256, .f32⟩
  | 2 => ⟨S800000x1, .i32⟩
  | 3 => ⟨S50000x256, .f32⟩
  | 4 => ⟨S50000x256, .f32⟩
  | 5 => ⟨S50000x256, .f32⟩
  | 6 => ⟨S50000x256, .f32⟩
  | 7 => ⟨S1x256, .f32⟩
  | 8 => ⟨S50000x256, .f32⟩
  | 9 => ⟨S50000x256, .f32⟩
  | 10 => ⟨S50000x256, .f32⟩
  | 11 => ⟨S50000x256, .f32⟩
  | 12 => ⟨S_, .f32⟩
  | 13 => ⟨S256, .f32⟩
  | 14 => ⟨S_, .f32⟩
  | 15 => ⟨S256, .f32⟩
  | 16 => ⟨S256, .f32⟩
  | 17 => ⟨S_, .i32⟩
  | 18 => ⟨S_, .f32⟩
  | 19 => ⟨S256, .f32⟩
  | 20 => ⟨S1x256, .f32⟩
  | 21 => ⟨S_, .f32⟩
  | 22 => ⟨S1x256, .f32⟩
  | 23 => ⟨S1x256, .f32⟩
  | 24 => ⟨S50000x256, .f32⟩
  | 25 => ⟨S50000x256, .f32⟩
  | 26 => ⟨S50000x256, .f32⟩
  | 27 => ⟨S_, .f32⟩
  | 28 => ⟨S_, .f32⟩
  | 29 => ⟨S_, .f32⟩
  | 30 => ⟨S_, .f32⟩
  | 31 => ⟨S256, .f32⟩
  | 32 => ⟨S256, .f32⟩
  | 33 => ⟨S256, .f32⟩
  | 34 => ⟨S_, .f32⟩
  | 35 => ⟨S_, .i1⟩
  | 36 => ⟨S_, .f32⟩
  | 37 => ⟨S_, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S_, .f32⟩
  | 44 => ⟨S256, .f32⟩
  | 45 => ⟨S256, .f32⟩
  | 46 => ⟨S256, .f32⟩
  | 47 => ⟨S256, .f32⟩
  | 48 => ⟨S1x256, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S_, .f32⟩
  | 55 => ⟨S50000x256, .f32⟩
  | 56 => ⟨S50000x256, .i1⟩
  | 57 => ⟨S_, .f32⟩
  | 58 => ⟨S50000x256, .f32⟩
  | 59 => ⟨S50000x256, .f32⟩
  | 60 => ⟨S50000x256, .f32⟩
  | 61 => ⟨S1x256x256, .f32⟩
  | 62 => ⟨S256x256, .f32⟩
  | 63 => ⟨S1x256, .f32⟩
  | 64 => ⟨S256, .f32⟩
  | 65 => ⟨S1x256x256, .f32⟩
  | 66 => ⟨S256x256, .f32⟩
  | 67 => ⟨S1x256, .f32⟩
  | 68 => ⟨S256, .f32⟩
  | 69 => ⟨S1x256, .f32⟩
  | 70 => ⟨S256, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x256, .f32⟩
  | 80 => ⟨S_, .f32⟩
  | 81 => ⟨S50000x256, .f32⟩
  | 82 => ⟨S800000x1, .i32⟩
  | 83 => ⟨S50000x256, .f32⟩
  | 84 => ⟨S50000x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S50000x256, .f32⟩
  | 91 => ⟨S50000x256, .f32⟩
  | 92 => ⟨S_, .f32⟩
  | 93 => ⟨S256, .f32⟩
  | 94 => ⟨S_, .f32⟩
  | 95 => ⟨S256, .f32⟩
  | 96 => ⟨S256, .f32⟩
  | 97 => ⟨S_, .i32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S50000x256, .f32⟩
  | 105 => ⟨S50000x256, .f32⟩
  | 106 => ⟨S50000x256, .f32⟩
  | 107 => ⟨S_, .f32⟩
  | 108 => ⟨S_, .f32⟩
  | 109 => ⟨S_, .f32⟩
  | 110 => ⟨S_, .f32⟩
  | 111 => ⟨S256, .f32⟩
  | 112 => ⟨S256, .f32⟩
  | 113 => ⟨S256, .f32⟩
  | 114 => ⟨S_, .f32⟩
  | 115 => ⟨S_, .i1⟩
  | 116 => ⟨S_, .f32⟩
  | 117 => ⟨S_, .f32⟩
  | 118 => ⟨S256, .f32⟩
  | 119 => ⟨S256, .f32⟩
  | 120 => ⟨S1x256, .f32⟩
  | 121 => ⟨S50000x256, .f32⟩
  | 122 => ⟨S50000x256, .f32⟩
  | 123 => ⟨S_, .f32⟩
  | 124 => ⟨S256, .f32⟩
  | 125 => ⟨S256, .f32⟩
  | 126 => ⟨S256, .f32⟩
  | 127 => ⟨S256, .f32⟩
  | _ => ⟨S50000x128, .f32⟩

abbrev hbmTy0_2 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .i1⟩
  | 9 => ⟨S_, .f32⟩
  | 10 => ⟨S50000x256, .f32⟩
  | 11 => ⟨S50000x256, .f32⟩
  | 12 => ⟨S50000x256, .f32⟩
  | 13 => ⟨S_, .f32⟩
  | 14 => ⟨S50000, .f32⟩
  | 15 => ⟨S_, .f32⟩
  | 16 => ⟨S64, .f32⟩
  | 17 => ⟨S50000x1, .i32⟩
  | 18 => ⟨S64, .f32⟩
  | 19 => ⟨S_, .f32⟩
  | 20 => ⟨S64x256, .f32⟩
  | 21 => ⟨S50000x1, .i32⟩
  | 22 => ⟨S64x256, .f32⟩
  | 23 => ⟨S_, .f32⟩
  | 24 => ⟨S64, .f32⟩
  | 25 => ⟨S64, .f32⟩
  | 26 => ⟨S64x1, .f32⟩
  | 27 => ⟨S64x256, .f32⟩
  | 28 => ⟨S64x256, .f32⟩
  | 29 => ⟨S64x288, .f32⟩
  | 30 => ⟨S64x512, .f32⟩
  | 31 => ⟨S1x512, .f32⟩
  | 32 => ⟨S64x512, .f32⟩
  | 33 => ⟨S64x512, .f32⟩
  | 34 => ⟨S_, .f32⟩
  | 35 => ⟨S64x512, .f32⟩
  | 36 => ⟨S64x512, .i1⟩
  | 37 => ⟨S_, .f32⟩
  | 38 => ⟨S64x512, .f32⟩
  | 39 => ⟨S64x512, .f32⟩
  | 40 => ⟨S64x512, .f32⟩
  | 41 => ⟨S64x512, .f32⟩
  | 42 => ⟨S1x512, .f32⟩
  | 43 => ⟨S64x512, .f32⟩
  | 44 => ⟨S64x512, .f32⟩
  | 45 => ⟨S_, .f32⟩
  | 46 => ⟨S64x512, .f32⟩
  | 47 => ⟨S64x512, .i1⟩
  | 48 => ⟨S_, .f32⟩
  | 49 => ⟨S64x512, .f32⟩
  | 50 => ⟨S64x512, .f32⟩
  | 51 => ⟨S64x512, .f32⟩
  | 52 => ⟨S64x10, .f32⟩
  | 53 => ⟨S1x10, .f32⟩
  | 54 => ⟨S64x10, .f32⟩
  | 55 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_9 : Ref sig .tc := ⟨.hbm, 102, rfl⟩
abbrev main_v52 : Ref sig .tc := ⟨.hbm, 103, rfl⟩
abbrev main_v53 : Ref sig .tc := ⟨.hbm, 104, rfl⟩
abbrev main_cst_10 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_11 : Ref sig .tc := ⟨.hbm, 119, rfl⟩
abbrev main_v67 : Ref sig .tc := ⟨.hbm, 120, rfl⟩
abbrev main_v68 : Ref sig .tc := ⟨.hbm, 121, rfl⟩
abbrev main_c_12 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_13 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_cst_15 : Ref sig .tc := ⟨.hbm, 142, rfl⟩
abbrev main_v86 : Ref sig .tc := ⟨.hbm, 143, rfl⟩
abbrev main_v87 : Ref sig .tc := ⟨.hbm, 144, rfl⟩
abbrev main_c_16 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_17 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_cst_18 : Ref sig .tc := ⟨.hbm, 182, rfl⟩
abbrev main_v102 : Ref sig .tc := ⟨.hbm, 183, rfl⟩
abbrev main_v103 : Ref sig .tc := ⟨.hbm, 184, rfl⟩
abbrev main_cst_19 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_c_20 : Ref sig .tc := ⟨.hbm, 199, rfl⟩
abbrev main_v117 : Ref sig .tc := ⟨.hbm, 200, rfl⟩
abbrev main_v118 : Ref sig .tc := ⟨.hbm, 201, rfl⟩
abbrev main_c_21 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_22 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_cst_23 : Ref sig .tc := ⟨.hbm, 220, rfl⟩
abbrev main_v135 : Ref sig .tc := ⟨.hbm, 221, rfl⟩
abbrev main_cst_24 : Ref sig .tc := ⟨.hbm, 222, rfl⟩
abbrev main_v136 : Ref sig .tc := ⟨.hbm, 223, rfl⟩
abbrev main_v137 : Ref sig .tc := ⟨.hbm, 224, rfl⟩
abbrev main_c_25 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_cst_3 : Ref sig .tc := ⟨.hbm, 242, rfl⟩
abbrev main_call4_v12 : Ref sig .tc := ⟨.hbm, 243, rfl⟩
abbrev main_call4_cst_4 : Ref sig .tc := ⟨.hbm, 244, rfl⟩
abbrev main_call4_call0_v0 : Ref sig .tc := ⟨.hbm, 245, rfl⟩
abbrev main_call4_call0_v1 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_26 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_cst_27 : Ref sig .tc := ⟨.hbm, 262, rfl⟩
abbrev main_v152 : Ref sig .tc := ⟨.hbm, 263, rfl⟩
abbrev main_v153 : Ref sig .tc := ⟨.hbm, 264, rfl⟩
abbrev main_cst_28 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_cst_29 : Ref sig .tc := ⟨.hbm, 269, rfl⟩
abbrev main_v157 : Ref sig .tc := ⟨.hbm, 270, rfl⟩
abbrev main_cst_30 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_cst_31 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_cst_32 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_cst_33 : Ref sig .tc := ⟨.hbm, 290, rfl⟩
abbrev main_v174 : Ref sig .tc := ⟨.hbm, 291, rfl⟩
abbrev main_v175 : Ref sig .tc := ⟨.hbm, 292, rfl⟩
abbrev main_cst_34 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_cst_35 : Ref sig .tc := ⟨.hbm, 301, rfl⟩
abbrev main_v183 : Ref sig .tc := ⟨.hbm, 302, rfl⟩
abbrev main_v184 : Ref sig .tc := ⟨.hbm, 303, rfl⟩
abbrev main_cst_36 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256_S1x256_0_0 : S3x256.Slices ![0, 0] S1x256
  shapeCasts_S1x256_S256 : S1x256.ShapeCasts S256
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  slices_S3x256_S1x256_1_0 : S3x256.Slices ![1, 0] S1x256
  bcast_S50000x1_S50000x256_0_1 : S50000x1.BroadcastsInDim S50000x256 (![0, 1] : Fin 2 → Fin S50000x256.rank)
  slices_S2x256x256_S1x256x256_1_0_0 : S2x256x256.Slices ![1, 0, 0] S1x256x256
  slices_S2x256_S1x256_1_0 : S2x256.Slices ![1, 0] S1x256
  slices_S3x256_S1x256_2_0 : S3x256.Slices ![2, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x32_S64x288_d1 : Shape.Concatenates [S64x256, S64x32] S64x288 1
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x288_S288x512_S64x512_1_0_0_1_n_n_wf : DotDims.WF S64x288 S288x512 S64x512 [1] [0] [0] [1] [] []
  dot_S64x512_S512x512_S64x512_1_0_0_1_n_n_wf : DotDims.WF S64x512 S512x512 S64x512 [1] [0] [0] [1] [] []
  dot_S64x512_S512x10_S64x10_1_0_0_1_n_n_wf : DotDims.WF S64x512 S512x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x288_S288x512_S64x512_1_0_0_1_n_n : DotDims S64x288 S288x512 S64x512 where
  lhsContracting := [1]
  rhsContracting := [0]
  lhsNonContracting := [0]
  rhsNonContracting := [1]
  lhsBatch := []
  rhsBatch := []
  wf := dot_S64x288_S288x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.K.RunData.lean ====
/-
  The data of the run of the seven kernel regions. Per region: the proof data at any entry contents, what they say of the
  arrays, shares, tallies and recorded pairs, the body obligation, and the invariant's two ends against what the region
  boundary offers (the scoped rest alone for a body that keeps rows in scratch between points; the scoped rest beside
  the generator register otherwise). Then the contents of the TensorCore's buffers at every boundary between two items
  of the program, folded from the launch memory — a host stretch by its operations, a region by the final arrays of its
  output windows, the region entered at the contents the items before it leave — and the family of proof data at those
  contents.
-/
import proofs.«144042_j23673859736035_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The contents of every TensorCore buffer on every core, read at the core's references. -/
abbrev Val₀ : Type := (c : Dev nD) → (b : Ref sig .tc) → Buf (Elt F) ((c : Thread nD τ).loc b)

/-- A valuation of the device's buffers read at the TensorCore's references. -/
abbrev rd (W : Dev nD → Valuation τ sig (Elt F)) : Val₀ (F := F) := fun c b => W c b

/-- What a region boundary offers a body that tracks scratch contents between points: the scoped buffers no window stages. -/
abbrev IR (cfg : Pipeline.Cfg sig Λ₀) (c : Dev nD) : sProp (MT nD τ sig Unit (Elt F) ℕ (UR sig nD τ) ℕ) :=
  Pipeline.scopedRest (Ix := Unit) (Name := ℕ) (U := UR sig nD τ) (Lvl := ℕ) (Val := Elt F) cfg.spec c

/-- What it offers a body that carries nothing of its own between points: those buffers and the generator register. -/
abbrev IA (cfg : Pipeline.Cfg sig Λ₀) (c : Dev nD) : sProp (MT nD τ sig Unit (Elt F) ℕ (UR sig nD τ) ℕ) :=
  Pipeline.ΦA (U := UR sig nD τ) (Val := Elt F) cfg.spec c

/-- One region's data, at every entry contents `V`: the proof data; its arrays are `V`'s; full shares; nothing owed;
    no bound on the recorded pairs at entry; the body obligation; the invariant entered from `I` and returned to it. -/
structure RegData (cfg : Pipeline.Cfg sig Λ₀) (I : Dev nD → sProp (MT nD τ sig Unit (Elt F) ℕ (UR sig nD τ) ℕ)) where
  dat : Val₀ (F := F) → (c : Dev nD) → Dat τ (Elt F) Unit ℕ (UR sig nD τ) ℕ cfg c
  hA : ∀ V c w, (dat V c).A w = V c (Pipeline.arrRef cfg.spec w)
  hq : ∀ V c w, (dat V c).q w = fullShare
  ho : ∀ V c t, (dat V c).owed t = 0
  hr : ∀ V c, (dat V c).recorded 0 = Set.univ
  hbody : ∀ V c, BodyObligation (dat V c) (defs₀ (F := F)) Variants.none () Set.univ
  hin : ∀ V c, I c ⊢ (dat V c).Φ 0
  hout : ∀ V c, (dat V c).Φ (Fin.last cfg.N) ⊢ I c

/-- A core owing nothing, whatever it has recorded, enters a region whose data owe nothing at the first point and
    bound the recorded pairs by nothing there. -/
theorem owesAt_in {cfg : Pipeline.Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp (MT nD τ sig Unit (Elt F) ℕ (UR sig nD τ) ℕ)) ⊢ dat.owesAt () 0 := by
  unfold Pipeline.Dat.owesAt Pipeline.owesWithin
  rw [h0]
  iintro ⟨%W, HO⟩
  iexists W
  isplitr
  · ipureintro
    exact fun x _ => Or.inl (by rw [hr]; exact Set.mem_univ x)
  iexact HO

/-- It leaves the region owing nothing when the data owe nothing after the last point. -/
theorem owesAt_out {cfg : Pipeline.Cfg sig Λ₀} {c : Dev nD} (dat : Dat τ (Elt F) Unit ℕ (UR sig nD τ) ℕ cfg c)
    (hl : dat.owed (Fin.last cfg.N) = 0) :
    dat.owesAt () (Fin.last cfg.N) ⊢ (iprop(∃ W, owes (c : Thread nD τ) (0 : CellTallies nD τ sig Unit) W) : sProp (MT nD τ sig Unit (Elt F) ℕ (UR sig nD τ) ℕ)) := by
  unfold Pipeline.Dat.owesAt Pipeline.owesWithin
  rw [hl]
  iintro ⟨%W, -, HO⟩
  iexists W
  iexact HO

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-! ## The buffers' contents at every boundary, from the launch memory -/

/-- The TensorCore's buffers after the first host stretch: region 0's entry contents. -/
def W1 (c : Dev nD) : Valuation τ sig (Elt F) := V1 m c
/-- After region 0: each of its output arrays at what the region's write-backs leave (from the contents it is entered
    at), every other buffer as entered. -/
def W2 (c : Dev nD) : Valuation τ sig (Elt F) :=
  (Function.update (Function.update (Function.update (W1 m c) main_v30_0 ((D0.dat (rd (W1 m)) c).arrAt (5 : Fin 8) cfg0.N)) main_v30_1 ((D0.dat (rd (W1 m)) c).arrAt (6 : Fin 8) cfg0.N)) main_v30_2 ((D0.dat (rd (W1 m)) c).arrAt (7 : Fin 8) cfg0.N))
/-- After the host stretch that follows: region 1's entry contents. -/
def W3 (c : Dev nD) : Valuation τ sig (Elt F) := StableHlo.after hostOps1 (W2 m D0 c)
/-- After region 1: each of its output arrays at what the region's write-backs leave (from the contents it is entered
    at), every other buffer as entered. -/
def W4 (c : Dev nD) : Valuation τ sig (Elt F) :=
  (Function.update (W3 m D0 c) main_v33 ((D1.dat (rd (W3 m D0)) c).arrAt (5 : Fin 6) cfg1.N))
/-- After the host stretch that follows: region 2's entry contents. -/
def W5 (c : Dev nD) : Valuation τ sig (Elt F) := StableHlo.after hostOps2 (W4 m D0 D1 c)
/-- After region 2: each of its output arrays at what the region's write-backs leave (from the contents it is entered
    at), every other buffer as entered. -/
def W6 (c : Dev nD) : Valuation τ sig (Elt F) :=
  (Function.update (Function.update (Function.update (W5 m D0 D1 c) main_v57_0 ((D2.dat (rd (W5 m D0 D1)) c).arrAt (5 : Fin 8) cfg2.N)) main_v57_1 ((D2.dat (rd (W5 m D0 D1)) c).arrAt (6 : Fin 8) cfg2.N)) main_v57_2 ((D2.dat (rd (W5 m D0 D1)) c).arrAt (7 : Fin 8) cfg2.N))
/-- After the host stretch that follows: region 3's entry contents. -/
def W7 (c : Dev nD) : Valuation τ sig (Elt F) := StableHlo.after hostOps3 (W6 m D0 D1 D2 c)
/-- After region 3: each of its output arrays at what the region's write-backs leave (from the contents it is entered
    at), every other buffer as entered. -/
def W8 (c : Dev nD) : Valuation τ sig (Elt F) :=
  (Function.update (W7 m D0 D1 D2 c) main_v60 ((D3.dat (rd (W7 m D0 D1 D2)) c).arrAt (5 : Fin 6) cfg3.N))
/-- After the host stretch that follows: region 4's entry contents. -/
def W9 (c : Dev nD) : Valuation τ sig (Elt F) := StableHlo.after hostOps4 (W8 m D0 D1 D2 D3 c)
/-- After region 4: each of its output arrays at what the region's write-backs leave (from the contents it is entered
    at), every other buffer as entered. -/
def W10 (c : Dev nD) : Valuation τ sig (Elt F) :=
  (Function.update (Function.update (Function.update (W9 m D0 D1 D2 D3 c) main_v84_0 ((D4.dat (rd (W9 m D0 D1 D2 D3)) c).arrAt (5 : Fin 8) cfg4.N)) main_v84_1 ((D4.dat (rd (W9 m D0 D1 D2 D3)) c).arrAt (6 : Fin 8) cfg4.N)) main_v84_2 ((D4.dat (rd (W9 m D0 D1 D2 D3)) c).arrAt (7 : Fin 8) cfg4.N))
/-- After the host stretch that follows: region 5's entry contents. -/
def W11 (c : Dev nD) : Valuation τ sig (Elt F) := StableHlo.after hostOps5 (W10 m D0 D1 D2 D3 D4 c)
/-- After region 5: each of its output arrays at what the region's write-backs leave (from the contents it is entered
    at), every other buffer as entered. -/
def W12 (c : Dev nD) : Valuation τ sig (Elt F) :=
  (Function.update (W11 m D0 D1 D2 D3 D4 c) main_v87 ((D5.dat (rd (W11 m D0 D1 D2 D3 D4)) c).arrAt (5 : Fin 6) cfg5.N))
/-- After the host stretch that follows: region 6's entry contents. -/
def W13 (c : Dev nD) : Valuation τ sig (Elt F) := StableHlo.after hostOps6 (W12 m D0 D1 D2 D3 D4 D5 c)
/-- After region 6: each of its output arrays at what the region's write-backs leave (from the contents it is entered
    at), every other buffer as entered. -/
def W14 (c : Dev nD) : Valuation τ sig (Elt F) :=
  (Function.update (W13 m D0 D1 D2 D3 D4 D5 c) main_v104 ((D6.dat (rd (W13 m D0 D1 D2 D3 D4 D5)) c).arrAt (7 : Fin 8) cfg6.N))

/-- What the regions leave in the arrays they write, item by item: the boundary contents read at the reference. -/
def outs : Outs (F := F) := fun J r c =>
  match J with
  | 2 => W2 m D0 c r
  | 4 => W4 m D0 D1 c r
  | 6 => W6 m D0 D1 D2 c r
  | 8 => W8 m D0 D1 D2 D3 c r
  | 10 => W10 m D0 D1 D2 D3 D4 c r
  | 12 => W12 m D0 D1 D2 D3 D4 D5 c r
  | 14 => W14 m D0 D1 D2 D3 D4 D5 D6 c r
  | _ => m ((c : Thread nD τ).loc r)

/-- Every region's proof data, each at the contents its region is entered at — a literal match on the region's
    index, so that the family at a numeral reduces to that region's data. -/
def pdats : (p : Fin 7) → (c : Dev nD) → Dat τ (Elt F) Unit ℕ (UR sig nD τ) ℕ (cfgs p) c
  | ⟨0, _⟩ => fun c => D0.dat (rd (W1 m)) c
  | ⟨1, _⟩ => fun c => D1.dat (rd (W3 m D0)) c
  | ⟨2, _⟩ => fun c => D2.dat (rd (W5 m D0 D1)) c
  | ⟨3, _⟩ => fun c => D3.dat (rd (W7 m D0 D1 D2)) c
  | ⟨4, _⟩ => fun c => D4.dat (rd (W9 m D0 D1 D2 D3)) c
  | ⟨5, _⟩ => fun c => D5.dat (rd (W11 m D0 D1 D2 D3 D4)) c
  | ⟨6, _⟩ => fun c => D6.dat (rd (W13 m D0 D1 D2 D3 D4 D5)) c
  | ⟨n + 7, h⟩ => absurd h (by omega)

end Cert.Kernel.Hand

end
-- ==== Proof.K.RunEq.lean ====
/-
  The boundary contents of the run, read: the generated boundary contents, taken at what the regions leave, are the
  folded ones; after a region each of its output arrays holds the matching window's final array and every other buffer
  what it held at entry.
-/
import proofs.«144042_j23673859736035_1_alg».proof.Proof.K.RunData

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What rides beside the buffers -/

/-- No core owes another anything: no level is assigned. -/
abbrev runL : GSem nD τ sig → Finset Unit := fun _ => ∅
abbrev runLv : GSem nD τ sig → Unit → ℕ := fun _ _ => 0

/-- Beside the buffers, through every item of the program: the core's generator register at some state, and the core
    owing nothing. -/
abbrev runR (c : Dev nD) : sProp (MT nD τ sig Unit (Elt F) ℕ (UR sig nD τ) ℕ) :=
  iprop((∃ r, prngReg c r) ∗ ∃ W, owes (c : Thread nD τ) (0 : CellTallies nD τ sig Unit) W)

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-! ## The generated boundary contents at these leavings are the folded ones -/

theorem V1_eq : V1 m = W1 m := rfl
theorem V2_eq : V2 m (outs m D0 D1 D2 D3 D4 D5 D6) = W2 m D0 := by
  funext c
  show (Function.update (Function.update (Function.update (V1 m c) main_v30_0 (outs m D0 D1 D2 D3 D4 D5 D6 2 main_v30_0 c)) main_v30_1 (outs m D0 D1 D2 D3 D4 D5 D6 2 main_v30_1 c)) main_v30_2 (outs m D0 D1 D2 D3 D4 D5 D6 2 main_v30_2 c)) = _
  rw [V1_eq]
  rfl
theorem V3_eq : V3 m (outs m D0 D1 D2 D3 D4 D5 D6) = W3 m D0 := by
  funext c
  show StableHlo.after hostOps1 (V2 m (outs m D0 D1 D2 D3 D4 D5 D6) c) = _
  rw [V2_eq]
  rfl
theorem V4_eq : V4 m (outs m D0 D1 D2 D3 D4 D5 D6) = W4 m D0 D1 := by
  funext c
  show (Function.update (V3 m (outs m D0 D1 D2 D3 D4 D5 D6) c) main_v33 (outs m D0 D1 D2 D3 D4 D5 D6 4 main_v33 c)) = _
  rw [V3_eq]
  rfl
theorem V5_eq : V5 m (outs m D0 D1 D2 D3 D4 D5 D6) = W5 m D0 D1 := by
  funext c
  show StableHlo.after hostOps2 (V4 m (outs m D0 D1 D2 D3 D4 D5 D6) c) = _
  rw [V4_eq]
  rfl
theorem V6_eq : V6 m (outs m D0 D1 D2 D3 D4 D5 D6) = W6 m D0 D1 D2 := by
  funext c
  show (Function.update (Function.update (Function.update (V5 m (outs m D0 D1 D2 D3 D4 D5 D6) c) main_v57_0 (outs m D0 D1 D2 D3 D4 D5 D6 6 main_v57_0 c)) main_v57_1 (outs m D0 D1 D2 D3 D4 D5 D6 6 main_v57_1 c)) main_v57_2 (outs m D0 D1 D2 D3 D4 D5 D6 6 main_v57_2 c)) = _
  rw [V5_eq]
  rfl
theorem V7_eq : V7 m (outs m D0 D1 D2 D3 D4 D5 D6) = W7 m D0 D1 D2 := by
  funext c
  show StableHlo.after hostOps3 (V6 m (outs m D0 D1 D2 D3 D4 D5 D6) c) = _
  rw [V6_eq]
  rfl
theorem V8_eq : V8 m (outs m D0 D1 D2 D3 D4 D5 D6) = W8 m D0 D1 D2 D3 := by
  funext c
  show (Function.update (V7 m (outs m D0 D1 D2 D3 D4 D5 D6) c) main_v60 (outs m D0 D1 D2 D3 D4 D5 D6 8 main_v60 c)) = _
  rw [V7_eq]
  rfl
theorem V9_eq : V9 m (outs m D0 D1 D2 D3 D4 D5 D6) = W9 m D0 D1 D2 D3 := by
  funext c
  show StableHlo.after hostOps4 (V8 m (outs m D0 D1 D2 D3 D4 D5 D6) c) = _
  rw [V8_eq]
  rfl
theorem V10_eq : V10 m (outs m D0 D1 D2 D3 D4 D5 D6) = W10 m D0 D1 D2 D3 D4 := by
  funext c
  show (Function.update (Function.update (Function.update (V9 m (outs m D0 D1 D2 D3 D4 D5 D6) c) main_v84_0 (outs m D0 D1 D2 D3 D4 D5 D6 10 main_v84_0 c)) main_v84_1 (outs m D0 D1 D2 D3 D4 D5 D6 10 main_v84_1 c)) main_v84_2 (outs m D0 D1 D2 D3 D4 D5 D6 10 main_v84_2 c)) = _
  rw [V9_eq]
  rfl
theorem V11_eq : V11 m (outs m D0 D1 D2 D3 D4 D5 D6) = W11 m D0 D1 D2 D3 D4 := by
  funext c
  show StableHlo.after hostOps5 (V10 m (outs m D0 D1 D2 D3 D4 D5 D6) c) = _
  rw [V10_eq]
  rfl
theorem V12_eq : V12 m (outs m D0 D1 D2 D3 D4 D5 D6) = W12 m D0 D1 D2 D3 D4 D5 := by
  funext c
  show (Function.update (V11 m (outs m D0 D1 D2 D3 D4 D5 D6) c) main_v87 (outs m D0 D1 D2 D3 D4 D5 D6 12 main_v87 c)) = _
  rw [V11_eq]
  rfl
theorem V13_eq : V13 m (outs m D0 D1 D2 D3 D4 D5 D6) = W13 m D0 D1 D2 D3 D4 D5 := by
  funext c
  show StableHlo.after hostOps6 (V12 m (outs m D0 D1 D2 D3 D4 D5 D6) c) = _
  rw [V12_eq]
  rfl
theorem V14_eq : V14 m (outs m D0 D1 D2 D3 D4 D5 D6) = W14 m D0 D1 D2 D3 D4 D5 D6 := by
  funext c
  show (Function.update (V13 m (outs m D0 D1 D2 D3 D4 D5 D6) c) main_v104 (outs m D0 D1 D2 D3 D4 D5 D6 14 main_v104 c)) = _
  rw [V13_eq]
  rfl

/-! ## Reading the contents after a region -/

/-- Region 0's output array `main_v30_0` after the region: window 5's final array. -/
theorem W2_main_v30_0 (c : Dev nD) : W2 m D0 c (Proc.devRef .tc main_v30_0) = (D0.dat (rd (W1 m)) c).arrAt (5 : Fin 8) cfg0.N := by
  unfold W2
  rw [Function.update_of_ne (StableHlo.devRef_ne_of_ne (by decide)), Function.update_of_ne (StableHlo.devRef_ne_of_ne (by decide)), Function.update_self]
/-- Region 0's output array `main_v30_1` after the region: window 6's final array. -/
theorem W2_main_v30_1 (c : Dev nD) : W2 m D0 c (Proc.devRef .tc main_v30_1) = (D0.dat (rd (W1 m)) c).arrAt (6 : Fin 8) cfg0.N := by
  unfold W2
  rw [Function.update_of_ne (StableHlo.devRef_ne_of_ne (by decide)), Function.update_self]
/-- Region 0's output array `main_v30_2` after the region: window 7's final array. -/
theorem W2_main_v30_2 (c : Dev nD) : W2 m D0 c (Proc.devRef .tc main_v30_2) = (D0.dat (rd (W1 m)) c).arrAt (7 : Fin 8) cfg0.N := by
  unfold W2
  rw [Function.update_self]
/-- Region 0 changes no buffer but its output arrays. -/
theorem W2_of (c : Dev nD) (r : Ref sig .tc) (h : r ∉ ([main_v30_0, main_v30_1, main_v30_2] : List (Ref sig .tc))) :
    W2 m D0 c (Proc.devRef .tc r) = W1 m c (Proc.devRef .tc r) := by
  unfold W2
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 1's output array `main_v33` after the region: window 5's final array. -/
theorem W4_main_v33 (c : Dev nD) : W4 m D0 D1 c (Proc.devRef .tc main_v33) = (D1.dat (rd (W3 m D0)) c).arrAt (5 : Fin 6) cfg1.N := by
  unfold W4
  rw [Function.update_self]
/-- Region 1 changes no buffer but its output arrays. -/
theorem W4_of (c : Dev nD) (r : Ref sig .tc) (h : r ∉ ([main_v33] : List (Ref sig .tc))) :
    W4 m D0 D1 c (Proc.devRef .tc r) = W3 m D0 c (Proc.devRef .tc r) := by
  unfold W4
  rw [Function.update_of_ne (StableHlo.devRef_ne_of_ne (List.ne_of_not_mem_cons h))]
/-- Region 2's output array `main_v57_0` after the region: window 5's final array. -/
theorem W6_main_v57_0 (c : Dev nD) : W6 m D0 D1 D2 c (Proc.devRef .tc main_v57_0) = (D2.dat (rd (W5 m D0 D1)) c).arrAt (5 : Fin 8) cfg2.N := by
  unfold W6
  rw [Function.update_of_ne (StableHlo.devRef_ne_of_ne (by decide)), Function.update_of_ne (StableHlo.devRef_ne_of_ne (by decide)), Function.update_self]
/-- Region 2's output array `main_v57_1` after the region: window 6's final array. -/
theorem W6_main_v57_1 (c : Dev nD) : W6 m D0 D1 D2 c (Proc.devRef .tc main_v57_1) = (D2.dat (rd (W5 m D0 D1)) c).arrAt (6 : Fin 8) cfg2.N := by
  unfold W6
  rw [Function.update_of_ne (StableHlo.devRef_ne_of_ne (by decide)), Function.update_self]
/-- Region 2's output array `main_v57_2` after the region: window 7's final array. -/
theorem W6_main_v57_2 (c : Dev nD) : W6 m D0 D1 D2 c (Proc.devRef .tc main_v57_2) = (D2.dat (rd (W5 m D0 D1)) c).arrAt (7 : Fin 8) cfg2.N := by
  unfold W6
  rw [Function.update_self]
/-- Region 2 changes no buffer but its output arrays. -/
theorem W6_of (c : Dev nD) (r : Ref sig .tc) (h : r ∉ ([main_v57_0, main_v57_1, main_v57_2] : List (Ref sig .tc))) :
    W6 m D0 D1 D2 c (Proc.devRef .tc r) = W5 m D0 D1 c (Proc.devRef .tc r) := by
  unfold W6
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 3's output array `main_v60` after the region: window 5's final array. -/
theorem W8_main_v60 (c : Dev nD) : W8 m D0 D1 D2 D3 c (Proc.devRef .tc main_v60) = (D3.dat (rd (W7 m D0 D1 D2)) c).arrAt (5 : Fin 6) cfg3.N := by
  unfold W8
  rw [Function.update_self]
/-- Region 3 changes no buffer but its output arrays. -/
theorem W8_of (c : Dev nD) (r : Ref sig .tc) (h : r ∉ ([main_v60] : List (Ref sig .tc))) :
    W8 m D0 D1 D2 D3 c (Proc.devRef .tc r) = W7 m D0 D1 D2 c (Proc.devRef .tc r) := by
  unfold W8
  rw [Function.update_of_ne (StableHlo.devRef_ne_of_ne (List.ne_of_not_mem_cons h))]
/-- Region 4's output array `main_v84_0` after the region: window 5's final array. -/
theorem W10_main_v84_0 (c : Dev nD) : W10 m D0 D1 D2 D3 D4 c (Proc.devRef .tc main_v84_0) = (D4.dat (rd (W9 m D0 D1 D2 D3)) c).arrAt (5 : Fin 8) cfg4.N := by
  unfold W10
  rw [Function.update_of_ne (StableHlo.devRef_ne_of_ne (by decide)), Function.update_of_ne (StableHlo.devRef_ne_of_ne (by decide)), Function.update_self]
/-- Region 4's output array `main_v84_1` after the region: window 6's final array. -/
theorem W10_main_v84_1 (c : Dev nD) : W10 m D0 D1 D2 D3 D4 c (Proc.devRef .tc main_v84_1) = (D4.dat (rd (W9 m D0 D1 D2 D3)) c).arrAt (6 : Fin 8) cfg4.N := by
  unfold W10
  rw [Function.update_of_ne (StableHlo.devRef_ne_of_ne (by decide)), Function.update_self]
/-- Region 4's output array `main_v84_2` after the region: window 7's final array. -/
theorem W10_main_v84_2 (c : Dev nD) : W10 m D0 D1 D2 D3 D4 c (Proc.devRef .tc main_v84_2) = (D4.dat (rd (W9 m D0 D1 D2 D3)) c).arrAt (7 : Fin 8) cfg4.N := by
  unfold W10
  rw [Function.update_self]
/-- Region 4 changes no buffer but its output arrays. -/
theorem W10_of (c : Dev nD) (r : Ref sig .tc) (h : r ∉ ([main_v84_0, main_v84_1, main_v84_2] : List (Ref sig .tc))) :
    W10 m D0 D1 D2 D3 D4 c (Proc.devRef .tc r) = W9 m D0 D1 D2 D3 c (Proc.devRef .tc r) := by
  unfold W10
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 5's output array `main_v87` after the region: window 5's final array. -/
theorem W12_main_v87 (c : Dev nD) : W12 m D0 D1 D2 D3 D4 D5 c (Proc.devRef .tc main_v87) = (D5.dat (rd (W11 m D0 D1 D2 D3 D4)) c).arrAt (5 : Fin 6) cfg5.N := by
  unfold W12
  rw [Function.update_self]
/-- Region 5 changes no buffer but its output arrays. -/
theorem W12_of (c : Dev nD) (r : Ref sig .tc) (h : r ∉ ([main_v87] : List (Ref sig .tc))) :
    W12 m D0 D1 D2 D3 D4 D5 c (Proc.devRef .tc r) = W11 m D0 D1 D2 D3 D4 c (Proc.devRef .tc r) := by
  unfold W12
  rw [Function.update_of_ne (StableHlo.devRef_ne_of_ne (List.ne_of_not_mem_cons h))]
/-- Region 6's output array `main_v104` after the region: window 7's final array. -/
theorem W14_main_v104 (c : Dev nD) : W14 m D0 D1 D2 D3 D4 D5 D6 c (Proc.devRef .tc main_v104) = (D6.dat (rd (W13 m D0 D1 D2 D3 D4 D5)) c).arrAt (7 : Fin 8) cfg6.N := by
  unfold W14
  rw [Function.update_self]
/-- Region 6 changes no buffer but its output arrays. -/
theorem W14_of (c : Dev nD) (r : Ref sig .tc) (h : r ∉ ([main_v104] : List (Ref sig .tc))) :
    W14 m D0 D1 D2 D3 D4 D5 D6 c (Proc.devRef .tc r) = W13 m D0 D1 D2 D3 D4 D5 c (Proc.devRef .tc r) := by
  unfold W14
  rw [Function.update_of_ne (StableHlo.devRef_ne_of_ne (List.ne_of_not_mem_cons h))]

end Cert.Kernel.Hand

end
-- ==== Proof.K.RunReg0.lean ====
/-
  Region 0 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 0: as the region was entered with it. -/
theorem hF0_0 (c : Dev nD) : (D0.dat (rd (W1 m)) c).arrAt (0 : Fin 8) cfg0.N = rd (W2 m D0) c (Pipeline.arrRef spec0 0) :=
  ((D0.dat (rd (W1 m)) c).arrAt_in 0 rfl _).trans ((D0.hA (rd (W1 m)) c 0).trans (W2_of m D0 c _ (by decide)).symm)
/-- Input window 1's array after region 0: as the region was entered with it. -/
theorem hF0_1 (c : Dev nD) : (D0.dat (rd (W1 m)) c).arrAt (1 : Fin 8) cfg0.N = rd (W2 m D0) c (Pipeline.arrRef spec0 1) :=
  ((D0.dat (rd (W1 m)) c).arrAt_in 1 rfl _).trans ((D0.hA (rd (W1 m)) c 1).trans (W2_of m D0 c _ (by decide)).symm)
/-- Input window 2's array after region 0: as the region was entered with it. -/
theorem hF0_2 (c : Dev nD) : (D0.dat (rd (W1 m)) c).arrAt (2 : Fin 8) cfg0.N = rd (W2 m D0) c (Pipeline.arrRef spec0 2) :=
  ((D0.dat (rd (W1 m)) c).arrAt_in 2 rfl _).trans ((D0.hA (rd (W1 m)) c 2).trans (W2_of m D0 c _ (by decide)).symm)
/-- Input window 3's array after region 0: as the region was entered with it. -/
theorem hF0_3 (c : Dev nD) : (D0.dat (rd (W1 m)) c).arrAt (3 : Fin 8) cfg0.N = rd (W2 m D0) c (Pipeline.arrRef spec0 3) :=
  ((D0.dat (rd (W1 m)) c).arrAt_in 3 rfl _).trans ((D0.hA (rd (W1 m)) c 3).trans (W2_of m D0 c _ (by decide)).symm)
/-- Input window 4's array after region 0: as the region was entered with it. -/
theorem hF0_4 (c : Dev nD) : (D0.dat (rd (W1 m)) c).arrAt (4 : Fin 8) cfg0.N = rd (W2 m D0) c (Pipeline.arrRef spec0 4) :=
  ((D0.dat (rd (W1 m)) c).arrAt_in 4 rfl _).trans ((D0.hA (rd (W1 m)) c 4).trans (W2_of m D0 c _ (by decide)).symm)
/-- Output window 5's array after region 0: the window's final array. -/
theorem hF0_5 (c : Dev nD) : (D0.dat (rd (W1 m)) c).arrAt (5 : Fin 8) cfg0.N = rd (W2 m D0) c (Pipeline.arrRef spec0 5) :=
  (W2_main_v30_0 m D0 c).symm
/-- Output window 6's array after region 0: the window's final array. -/
theorem hF0_6 (c : Dev nD) : (D0.dat (rd (W1 m)) c).arrAt (6 : Fin 8) cfg0.N = rd (W2 m D0) c (Pipeline.arrRef spec0 6) :=
  (W2_main_v30_1 m D0 c).symm
/-- Output window 7's array after region 0: the window's final array. -/
theorem hF0_7 (c : Dev nD) : (D0.dat (rd (W1 m)) c).arrAt (7 : Fin 8) cfg0.N = rd (W2 m D0) c (Pipeline.arrRef spec0 7) :=
  (W2_main_v30_2 m D0 c).symm
/-- After region 0 each of its arrays holds what the pipeline leaves in it: an input array what the region was entered
    with, an output array its window's final array. -/
theorem hF0 (c : Dev nD) : ∀ w : Fin 8, (D0.dat (rd (W1 m)) c).arrAt w cfg0.N = rd (W2 m D0) c (Pipeline.arrRef spec0 w)
  | 0 => hF0_0 m D0 c
  | 1 => hF0_1 m D0 c
  | 2 => hF0_2 m D0 c
  | 3 => hF0_3 m D0 c
  | 4 => hF0_4 m D0 c
  | 5 => hF0_5 m D0 c
  | 6 => hF0_6 m D0 c
  | 7 => hF0_7 m D0 c

/-- Every buffer that is no array of region 0 holds after it what it held before. -/
theorem hrest0 (c : Dev nD) : ∀ b, b ∉ Finset.univ.image (Pipeline.arrRef spec0) → rd (W2 m D0) c b = rd (W1 m) c b :=
  fun b hb => W2_of m D0 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 0 as a segment of the run. -/
def reg0 : Pipeline.RegionSeg (pcfgs (F := F)) adm (pdats m D0 D1 D2 D3 D4 D5 D6) () defs₀ Variants.none runL runLv 0 where
  win := launch0.win.to₀
  block_pos := launch0.block_pos
  stage_whole := launch0.stage_whole
  K := PEmpty
  osem k := k.elim
  ho := Pipeline.OwnSemFacts.none _
  hbody c := (D0.hbody (rd (W1 m)) c).loose
  hwaits := Pipeline.hwaits_of_owed_zero _ _ _ _ runL runLv 0 fun c t => D0.ho (rd (W1 m)) c t
  pre c := iprop(StableHlo.held (c : Thread nD τ) (Pipeline.ucRefs τ sig) ((W1 m) c) ∗ runR c)
  post c := iprop(StableHlo.held (c : Thread nD τ) (Pipeline.ucRefs τ sig) ((W2 m D0) c) ∗ runR c)
  X c := BI.emp
  Y c := BI.emp
  Z c := iprop(Pipeline.unscopedRest (Ix := Unit) (Name := ℕ) (U := UR sig nD τ) (Lvl := ℕ) spec0 c (rd (W1 m) c) ∗ ∃ r, prngReg c r)
  hentry c := by
    rw [Pipeline.ownSems0_none]
    have hsplit := Pipeline.arrays_of_unscopedBufs (p := 0) (pcfgs (F := F)) adm (pdats m D0 D1 D2 D3 D4 D5 D6) launch0.win launch0.arr_whole c
      ((pdats m D0 D1 D2 D3 D4 D5 D6 0 c).share_full fun w => D0.hq (rd (W1 m)) c w) (rd (W1 m) c) fun w => D0.hA (rd (W1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 0 c) (D0.ho (rd (W1 m)) c 0) (D0.hr (rd (W1 m)) c))
      iexact HO
    isplitr; · iempintro
    isplitl [Hrest]; · iexact Hrest
    iexact Hp
  hin c := by
    refine .trans ?_ (D0.hin (rd (W1 m)) c)
    iintro ⟨-, -, Hr⟩
    iexact Hr
  hout c := by
    rw [Pipeline.ownSems0_none]
    refine (D0.hout (rd (W1 m)) c).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4 D5 D6) ((pdats m D0 D1 D2 D3 D4 D5 D6 0 c).share_full fun w => D0.hq (rd (W1 m)) c w)
      (rd (W1 m) c) (rd (W2 m D0) c) ((pdats m D0 D1 D2 D3 D4 D5 D6 0 c).arrAt · cfg0.N) (hF0 m D0 c) (hrest0 m D0 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 0 c) (D0.ho (rd (W1 m)) c _))
    iexact HO

end Cert.Kernel.Hand

end
-- ==== Proof.K.RunReg1.lean ====
/-
  Region 1 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 1: as the region was entered with it. -/
theorem hF1_0 (c : Dev nD) : (D1.dat (rd (W3 m D0)) c).arrAt (0 : Fin 6) cfg1.N = rd (W4 m D0 D1) c (Pipeline.arrRef spec1 0) :=
  ((D1.dat (rd (W3 m D0)) c).arrAt_in 0 rfl _).trans ((D1.hA (rd (W3 m D0)) c 0).trans (W4_of m D0 D1 c _ (by decide)).symm)
/-- Input window 1's array after region 1: as the region was entered with it. -/
theorem hF1_1 (c : Dev nD) : (D1.dat (rd (W3 m D0)) c).arrAt (1 : Fin 6) cfg1.N = rd (W4 m D0 D1) c (Pipeline.arrRef spec1 1) :=
  ((D1.dat (rd (W3 m D0)) c).arrAt_in 1 rfl _).trans ((D1.hA (rd (W3 m D0)) c 1).trans (W4_of m D0 D1 c _ (by decide)).symm)
/-- Input window 2's array after region 1: as the region was entered with it. -/
theorem hF1_2 (c : Dev nD) : (D1.dat (rd (W3 m D0)) c).arrAt (2 : Fin 6) cfg1.N = rd (W4 m D0 D1) c (Pipeline.arrRef spec1 2) :=
  ((D1.dat (rd (W3 m D0)) c).arrAt_in 2 rfl _).trans ((D1.hA (rd (W3 m D0)) c 2).trans (W4_of m D0 D1 c _ (by decide)).symm)
/-- Input window 3's array after region 1: as the region was entered with it. -/
theorem hF1_3 (c : Dev nD) : (D1.dat (rd (W3 m D0)) c).arrAt (3 : Fin 6) cfg1.N = rd (W4 m D0 D1) c (Pipeline.arrRef spec1 3) :=
  ((D1.dat (rd (W3 m D0)) c).arrAt_in 3 rfl _).trans ((D1.hA (rd (W3 m D0)) c 3).trans (W4_of m D0 D1 c _ (by decide)).symm)
/-- Input window 4's array after region 1: as the region was entered with it. -/
theorem hF1_4 (c : Dev nD) : (D1.dat (rd (W3 m D0)) c).arrAt (4 : Fin 6) cfg1.N = rd (W4 m D0 D1) c (Pipeline.arrRef spec1 4) :=
  ((D1.dat (rd (W3 m D0)) c).arrAt_in 4 rfl _).trans ((D1.hA (rd (W3 m D0)) c 4).trans (W4_of m D0 D1 c _ (by decide)).symm)
/-- Output window 5's array after region 1: the window's final array. -/
theorem hF1_5 (c : Dev nD) : (D1.dat (rd (W3 m D0)) c).arrAt (5 : Fin 6) cfg1.N = rd (W4 m D0 D1) c (Pipeline.arrRef spec1 5) :=
  (W4_main_v33 m D0 D1 c).symm
/-- After region 1 each of its arrays holds what the pipeline leaves in it: an input array what the region was entered
    with, an output array its window's final array. -/
theorem hF1 (c : Dev nD) : ∀ w : Fin 6, (D1.dat (rd (W3 m D0)) c).arrAt w cfg1.N = rd (W4 m D0 D1) c (Pipeline.arrRef spec1 w)
  | 0 => hF1_0 m D0 D1 c
  | 1 => hF1_1 m D0 D1 c
  | 2 => hF1_2 m D0 D1 c
  | 3 => hF1_3 m D0 D1 c
  | 4 => hF1_4 m D0 D1 c
  | 5 => hF1_5 m D0 D1 c

/-- Every buffer that is no array of region 1 holds after it what it held before. -/
theorem hrest1 (c : Dev nD) : ∀ b, b ∉ Finset.univ.image (Pipeline.arrRef spec1) → rd (W4 m D0 D1) c b = rd (W3 m D0) c b :=
  fun b hb => W4_of m D0 D1 c b fun h => by
    rcases List.mem_cons.mp h with rfl | h
    · exact hb (Finset.mem_image.mpr ⟨(5 : Fin 6), Finset.mem_univ _, rfl⟩)
    cases h

set_option backward.isDefEq.respectTransparency.types false in
/-- Region 1 as a segment of the run. -/
def reg1 : Pipeline.RegionSeg (pcfgs (F := F)) adm (pdats m D0 D1 D2 D3 D4 D5 D6) () defs₀ Variants.none runL runLv 1 where
  win := launch1.win.to₀
  block_pos := launch1.block_pos
  stage_whole := launch1.stage_whole
  K := PEmpty
  osem k := k.elim
  ho := Pipeline.OwnSemFacts.none _
  hbody c := (D1.hbody (rd (W3 m D0)) c).loose
  hwaits := Pipeline.hwaits_of_owed_zero _ _ _ _ runL runLv 1 fun c t => D1.ho (rd (W3 m D0)) c t
  pre c := iprop(StableHlo.held (c : Thread nD τ) (Pipeline.ucRefs τ sig) ((W3 m D0) c) ∗ runR c)
  post c := iprop(StableHlo.held (c : Thread nD τ) (Pipeline.ucRefs τ sig) ((W4 m D0 D1) c) ∗ runR c)
  X c := iprop(∃ r, prngReg c r)
  Y c := iprop(∃ r, prngReg c r)
  Z c := Pipeline.unscopedRest (Ix := Unit) (Name := ℕ) (U := UR sig nD τ) (Lvl := ℕ) spec1 c (rd (W3 m D0) c)
  hentry c := by
    rw [Pipeline.ownSems0_none]
    have hsplit := Pipeline.arrays_of_unscopedBufs (p := 1) (pcfgs (F := F)) adm (pdats m D0 D1 D2 D3 D4 D5 D6) launch1.win launch1.arr_whole c
      ((pdats m D0 D1 D2 D3 D4 D5 D6 1 c).share_full fun w => D1.hq (rd (W3 m D0)) c w) (rd (W3 m D0) c) fun w => D1.hA (rd (W3 m D0)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 1 c) (D1.ho (rd (W3 m D0)) c 0) (D1.hr (rd (W3 m D0)) c))
      iexact HO
    isplitl [Hp]; · iexact Hp
    iexact Hrest
  hin c := by
    refine .trans ?_ (D1.hin (rd (W3 m D0)) c)
    unfold IA Pipeline.ΦA
    iintro ⟨Hp, -, Hr⟩
    isplitl [Hr]; · iexact Hr
    iexact Hp
  hout c := by
    rw [Pipeline.ownSems0_none]
    refine (D1.hout (rd (W3 m D0)) c).trans ?_
    unfold IA Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4 D5 D6) ((pdats m D0 D1 D2 D3 D4 D5 D6 1 c).share_full fun w => D1.hq (rd (W3 m D0)) c w)
      (rd (W3 m D0) c) (rd (W4 m D0 D1) c) ((pdats m D0 D1 D2 D3 D4 D5 D6 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 1 c) (D1.ho (rd (W3 m D0)) c _))
    iexact HO

end Cert.Kernel.Hand

end
-- ==== Proof.K.RunReg2.lean ====
/-
  Region 2 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 2: as the region was entered with it. -/
theorem hF2_0 (c : Dev nD) : (D2.dat (rd (W5 m D0 D1)) c).arrAt (0 : Fin 8) cfg2.N = rd (W6 m D0 D1 D2) c (Pipeline.arrRef spec2 0) :=
  ((D2.dat (rd (W5 m D0 D1)) c).arrAt_in 0 rfl _).trans ((D2.hA (rd (W5 m D0 D1)) c 0).trans (W6_of m D0 D1 D2 c _ (by decide)).symm)
/-- Input window 1's array after region 2: as the region was entered with it. -/
theorem hF2_1 (c : Dev nD) : (D2.dat (rd (W5 m D0 D1)) c).arrAt (1 : Fin 8) cfg2.N = rd (W6 m D0 D1 D2) c (Pipeline.arrRef spec2 1) :=
  ((D2.dat (rd (W5 m D0 D1)) c).arrAt_in 1 rfl _).trans ((D2.hA (rd (W5 m D0 D1)) c 1).trans (W6_of m D0 D1 D2 c _ (by decide)).symm)
/-- Input window 2's array after region 2: as the region was entered with it. -/
theorem hF2_2 (c : Dev nD) : (D2.dat (rd (W5 m D0 D1)) c).arrAt (2 : Fin 8) cfg2.N = rd (W6 m D0 D1 D2) c (Pipeline.arrRef spec2 2) :=
  ((D2.dat (rd (W5 m D0 D1)) c).arrAt_in 2 rfl _).trans ((D2.hA (rd (W5 m D0 D1)) c 2).trans (W6_of m D0 D1 D2 c _ (by decide)).symm)
/-- Input window 3's array after region 2: as the region was entered with it. -/
theorem hF2_3 (c : Dev nD) : (D2.dat (rd (W5 m D0 D1)) c).arrAt (3 : Fin 8) cfg2.N = rd (W6 m D0 D1 D2) c (Pipeline.arrRef spec2 3) :=
  ((D2.dat (rd (W5 m D0 D1)) c).arrAt_in 3 rfl _).trans ((D2.hA (rd (W5 m D0 D1)) c 3).trans (W6_of m D0 D1 D2 c _ (by decide)).symm)
/-- Input window 4's array after region 2: as the region was entered with it. -/
theorem hF2_4 (c : Dev nD) : (D2.dat (rd (W5 m D0 D1)) c).arrAt (4 : Fin 8) cfg2.N = rd (W6 m D0 D1 D2) c (Pipeline.arrRef spec2 4) :=
  ((D2.dat (rd (W5 m D0 D1)) c).arrAt_in 4 rfl _).trans ((D2.hA (rd (W5 m D0 D1)) c 4).trans (W6_of m D0 D1 D2 c _ (by decide)).symm)
/-- Output window 5's array after region 2: the window's final array. -/
theorem hF2_5 (c : Dev nD) : (D2.dat (rd (W5 m D0 D1)) c).arrAt (5 : Fin 8) cfg2.N = rd (W6 m D0 D1 D2) c (Pipeline.arrRef spec2 5) :=
  (W6_main_v57_0 m D0 D1 D2 c).symm
/-- Output window 6's array after region 2: the window's final array. -/
theorem hF2_6 (c : Dev nD) : (D2.dat (rd (W5 m D0 D1)) c).arrAt (6 : Fin 8) cfg2.N = rd (W6 m D0 D1 D2) c (Pipeline.arrRef spec2 6) :=
  (W6_main_v57_1 m D0 D1 D2 c).symm
/-- Output window 7's array after region 2: the window's final array. -/
theorem hF2_7 (c : Dev nD) : (D2.dat (rd (W5 m D0 D1)) c).arrAt (7 : Fin 8) cfg2.N = rd (W6 m D0 D1 D2) c (Pipeline.arrRef spec2 7) :=
  (W6_main_v57_2 m D0 D1 D2 c).symm
/-- After region 2 each of its arrays holds what the pipeline leaves in it: an input array what the region was entered
    with, an output array its window's final array. -/
theorem hF2 (c : Dev nD) : ∀ w : Fin 8, (D2.dat (rd (W5 m D0 D1)) c).arrAt w cfg2.N = rd (W6 m D0 D1 D2) c (Pipeline.arrRef spec2 w)
  | 0 => hF2_0 m D0 D1 D2 c
  | 1 => hF2_1 m D0 D1 D2 c
  | 2 => hF2_2 m D0 D1 D2 c
  | 3 => hF2_3 m D0 D1 D2 c
  | 4 => hF2_4 m D0 D1 D2 c
  | 5 => hF2_5 m D0 D1 D2 c
  | 6 => hF2_6 m D0 D1 D2 c
  | 7 => hF2_7 m D0 D1 D2 c

/-- Every buffer that is no array of region 2 holds after it what it held before. -/
theorem hrest2 (c : Dev nD) : ∀ b, b ∉ Finset.univ.image (Pipeline.arrRef spec2) → rd (W6 m D0 D1 D2) c b = rd (W5 m D0 D1) c b :=
  fun b hb => W6_of m D0 D1 D2 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 2 as a segment of the run. -/
def reg2 : Pipeline.RegionSeg (pcfgs (F := F)) adm (pdats m D0 D1 D2 D3 D4 D5 D6) () defs₀ Variants.none runL runLv 2 where
  win := launch2.win.to₀
  block_pos := launch2.block_pos
  stage_whole := launch2.stage_whole
  K := PEmpty
  osem k := k.elim
  ho := Pipeline.OwnSemFacts.none _
  hbody c := (D2.hbody (rd (W5 m D0 D1)) c).loose
  hwaits := Pipeline.hwaits_of_owed_zero _ _ _ _ runL runLv 2 fun c t => D2.ho (rd (W5 m D0 D1)) c t
  pre c := iprop(StableHlo.held (c : Thread nD τ) (Pipeline.ucRefs τ sig) ((W5 m D0 D1) c) ∗ runR c)
  post c := iprop(StableHlo.held (c : Thread nD τ) (Pipeline.ucRefs τ sig) ((W6 m D0 D1 D2) c) ∗ runR c)
  X c := BI.emp
  Y c := BI.emp
  Z c := iprop(Pipeline.unscopedRest (Ix := Unit) (Name := ℕ) (U := UR sig nD τ) (Lvl := ℕ) spec2 c (rd (W5 m D0 D1) c) ∗ ∃ r, prngReg c r)
  hentry c := by
    rw [Pipeline.ownSems0_none]
    have hsplit := Pipeline.arrays_of_unscopedBufs (p := 2) (pcfgs (F := F)) adm (pdats m D0 D1 D2 D3 D4 D5 D6) launch2.win launch2.arr_whole c
      ((pdats m D0 D1 D2 D3 D4 D5 D6 2 c).share_full fun w => D2.hq (rd (W5 m D0 D1)) c w) (rd (W5 m D0 D1) c) fun w => D2.hA (rd (W5 m D0 D1)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 2 c) (D2.ho (rd (W5 m D0 D1)) c 0) (D2.hr (rd (W5 m D0 D1)) c))
      iexact HO
    isplitr; · iempintro
    isplitl [Hrest]; · iexact Hrest
    iexact Hp
  hin c := by
    refine .trans ?_ (D2.hin (rd (W5 m D0 D1)) c)
    iintro ⟨-, -, Hr⟩
    iexact Hr
  hout c := by
    rw [Pipeline.ownSems0_none]
    refine (D2.hout (rd (W5 m D0 D1)) c).trans ?_
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4 D5 D6) ((pdats m D0 D1 D2 D3 D4 D5 D6 2 c).share_full fun w => D2.hq (rd (W5 m D0 D1)) c w)
      (rd (W5 m D0 D1) c) (rd (W6 m D0 D1 D2) c) ((pdats m D0 D1 D2 D3 D4 D5 D6 2 c).arrAt · cfg2.N) (hF2 m D0 D1 D2 c) (hrest2 m D0 D1 D2 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 2 c) (D2.ho (rd (W5 m D0 D1)) c _))
    iexact HO

end Cert.Kernel.Hand

end
-- ==== Proof.K.RunReg3.lean ====
/-
  Region 3 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 3: as the region was entered with it. -/
theorem hF3_0 (c : Dev nD) : (D3.dat (rd (W7 m D0 D1 D2)) c).arrAt (0 : Fin 6) cfg3.N = rd (W8 m D0 D1 D2 D3) c (Pipeline.arrRef spec3 0) :=
  ((D3.dat (rd (W7 m D0 D1 D2)) c).arrAt_in 0 rfl _).trans ((D3.hA (rd (W7 m D0 D1 D2)) c 0).trans (W8_of m D0 D1 D2 D3 c _ (by decide)).symm)
/-- Input window 1's array after region 3: as the region was entered with it. -/
theorem hF3_1 (c : Dev nD) : (D3.dat (rd (W7 m D0 D1 D2)) c).arrAt (1 : Fin 6) cfg3.N = rd (W8 m D0 D1 D2 D3) c (Pipeline.arrRef spec3 1) :=
  ((D3.dat (rd (W7 m D0 D1 D2)) c).arrAt_in 1 rfl _).trans ((D3.hA (rd (W7 m D0 D1 D2)) c 1).trans (W8_of m D0 D1 D2 D3 c _ (by decide)).symm)
/-- Input window 2's array after region 3: as the region was entered with it. -/
theorem hF3_2 (c : Dev nD) : (D3.dat (rd (W7 m D0 D1 D2)) c).arrAt (2 : Fin 6) cfg3.N = rd (W8 m D0 D1 D2 D3) c (Pipeline.arrRef spec3 2) :=
  ((D3.dat (rd (W7 m D0 D1 D2)) c).arrAt_in 2 rfl _).trans ((D3.hA (rd (W7 m D0 D1 D2)) c 2).trans (W8_of m D0 D1 D2 D3 c _ (by decide)).symm)
/-- Input window 3's array after region 3: as the region was entered with it. -/
theorem hF3_3 (c : Dev nD) : (D3.dat (rd (W7 m D0 D1 D2)) c).arrAt (3 : Fin 6) cfg3.N = rd (W8 m D0 D1 D2 D3) c (Pipeline.arrRef spec3 3) :=
  ((D3.dat (rd (W7 m D0 D1 D2)) c).arrAt_in 3 rfl _).trans ((D3.hA (rd (W7 m D0 D1 D2)) c 3).trans (W8_of m D0 D1 D2 D3 c _ (by decide)).symm)
/-- Input window 4's array after region 3: as the region was entered with it. -/
theorem hF3_4 (c : Dev nD) : (D3.dat (rd (W7 m D0 D1 D2)) c).arrAt (4 : Fin 6) cfg3.N = rd (W8 m D0 D1 D2 D3) c (Pipeline.arrRef spec3 4) :=
  ((D3.dat (rd (W7 m D0 D1 D2)) c).arrAt_in 4 rfl _).trans ((D3.hA (rd (W7 m D0 D1 D2)) c 4).trans (W8_of m D0 D1 D2 D3 c _ (by decide)).symm)
/-- Output window 5's array after region 3: the window's final array. -/
theorem hF3_5 (c : Dev nD) : (D3.dat (rd (W7 m D0 D1 D2)) c).arrAt (5 : Fin 6) cfg3.N = rd (W8 m D0 D1 D2 D3) c (Pipeline.arrRef spec3 5) :=
  (W8_main_v60 m D0 D1 D2 D3 c).symm
/-- After region 3 each of its arrays holds what the pipeline leaves in it: an input array what the region was entered
    with, an output array its window's final array. -/
theorem hF3 (c : Dev nD) : ∀ w : Fin 6, (D3.dat (rd (W7 m D0 D1 D2)) c).arrAt w cfg3.N = rd (W8 m D0 D1 D2 D3) c (Pipeline.arrRef spec3 w)
  | 0 => hF3_0 m D0 D1 D2 D3 c
  | 1 => hF3_1 m D0 D1 D2 D3 c
  | 2 => hF3_2 m D0 D1 D2 D3 c
  | 3 => hF3_3 m D0 D1 D2 D3 c
  | 4 => hF3_4 m D0 D1 D2 D3 c
  | 5 => hF3_5 m D0 D1 D2 D3 c

/-- Every buffer that is no array of region 3 holds after it what it held before. -/
theorem hrest3 (c : Dev nD) : ∀ b, b ∉ Finset.univ.image (Pipeline.arrRef spec3) → rd (W8 m D0 D1 D2 D3) c b = rd (W7 m D0 D1 D2) c b :=
  fun b hb => W8_of m D0 D1 D2 D3 c b fun h => by
    rcases List.mem_cons.mp h with rfl | h
    · exact hb (Finset.mem_image.mpr ⟨(5 : Fin 6), Finset.mem_univ _, rfl⟩)
    cases h

set_option backward.isDefEq.respectTransparency.types false in
/-- Region 3 as a segment of the run. -/
def reg3 : Pipeline.RegionSeg (pcfgs (F := F)) adm (pdats m D0 D1 D2 D3 D4 D5 D6) () defs₀ Variants.none runL runLv 3 where
  win := launch3.win.to₀
  block_pos := launch3.block_pos
  stage_whole := launch3.stage_whole
  K := PEmpty
  osem k := k.elim
  ho := Pipeline.OwnSemFacts.none _
  hbody c := (D3.hbody (rd (W7 m D0 D1 D2)) c).loose
  hwaits := Pipeline.hwaits_of_owed_zero _ _ _ _ runL runLv 3 fun c t => D3.ho (rd (W7 m D0 D1 D2)) c t
  pre c := iprop(StableHlo.held (c : Thread nD τ) (Pipeline.ucRefs τ sig) ((W7 m D0 D1 D2) c) ∗ runR c)
  post c := iprop(StableHlo.held (c : Thread nD τ) (Pipeline.ucRefs τ sig) ((W8 m D0 D1 D2 D3) c) ∗ runR c)
  X c := iprop(∃ r, prngReg c r)
  Y c := iprop(∃ r, prngReg c r)
  Z c := Pipeline.unscopedRest (Ix := Unit) (Name := ℕ) (U := UR sig nD τ) (Lvl := ℕ) spec3 c (rd (W7 m D0 D1 D2) c)
  hentry c := by
    rw [Pipeline.ownSems0_none]
    have hsplit := Pipeline.arrays_of_unscopedBufs (p := 3) (pcfgs (F := F)) adm (pdats m D0 D1 D2 D3 D4 D5 D6) launch3.win launch3.arr_whole c
      ((pdats m D0 D1 D2 D3 D4 D5 D6 3 c).share_full fun w => D3.hq (rd (W7 m D0 D1 D2)) c w) (rd (W7 m D0 D1 D2) c) fun w => D3.hA (rd (W7 m D0 D1 D2)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 3 c) (D3.ho (rd (W7 m D0 D1 D2)) c 0) (D3.hr (rd (W7 m D0 D1 D2)) c))
      iexact HO
    isplitl [Hp]; · iexact Hp
    iexact Hrest
  hin c := by
    refine .trans ?_ (D3.hin (rd (W7 m D0 D1 D2)) c)
    unfold IA Pipeline.ΦA
    iintro ⟨Hp, -, Hr⟩
    isplitl [Hr]; · iexact Hr
    iexact Hp
  hout c := by
    rw [Pipeline.ownSems0_none]
    refine (D3.hout (rd (W7 m D0 D1 D2)) c).trans ?_
    unfold IA Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4 D5 D6) ((pdats m D0 D1 D2 D3 D4 D5 D6 3 c).share_full fun w => D3.hq (rd (W7 m D0 D1 D2)) c w)
      (rd (W7 m D0 D1 D2) c) (rd (W8 m D0 D1 D2 D3) c) ((pdats m D0 D1 D2 D3 D4 D5 D6 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 3 c) (D3.ho (rd (W7 m D0 D1 D2)) c _))
    iexact HO

end Cert.Kernel.Hand

end
-- ==== Proof.K.RunReg4.lean ====
/-
  Region 4 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 4: as the region was entered with it. -/
theorem hF4_0 (c : Dev nD) : (D4.dat (rd (W9 m D0 D1 D2 D3)) c).arrAt (0 : Fin 8) cfg4.N = rd (W10 m D0 D1 D2 D3 D4) c (Pipeline.arrRef spec4 0) :=
  ((D4.dat (rd (W9 m D0 D1 D2 D3)) c).arrAt_in 0 rfl _).trans ((D4.hA (rd (W9 m D0 D1 D2 D3)) c 0).trans (W10_of m D0 D1 D2 D3 D4 c _ (by decide)).symm)
/-- Input window 1's array after region 4: as the region was entered with it. -/
theorem hF4_1 (c : Dev nD) : (D4.dat (rd (W9 m D0 D1 D2 D3)) c).arrAt (1 : Fin 8) cfg4.N = rd (W10 m D0 D1 D2 D3 D4) c (Pipeline.arrRef spec4 1) :=
  ((D4.dat (rd (W9 m D0 D1 D2 D3)) c).arrAt_in 1 rfl _).trans ((D4.hA (rd (W9 m D0 D1 D2 D3)) c 1).trans (W10_of m D0 D1 D2 D3 D4 c _ (by decide)).symm)
/-- Input window 2's array after region 4: as the region was entered with it. -/
theorem hF4_2 (c : Dev nD) : (D4.dat (rd (W9 m D0 D1 D2 D3)) c).arrAt (2 : Fin 8) cfg4.N = rd (W10 m D0 D1 D2 D3 D4) c (Pipeline.arrRef spec4 2) :=
  ((D4.dat (rd (W9 m D0 D1 D2 D3)) c).arrAt_in 2 rfl _).trans ((D4.hA (rd (W9 m D0 D1 D2 D3)) c 2).trans (W10_of m D0 D1 D2 D3 D4 c _ (by decide)).symm)
/-- Input window 3's array after region 4: as the region was entered with it. -/
theorem hF4_3 (c : Dev nD) : (D4.dat (rd (W9 m D0 D1 D2 D3)) c).arrAt (3 : Fin 8) cfg4.N = rd (W10 m D0 D1 D2 D3 D4) c (Pipeline.arrRef spec4 3) :=
  ((D4.dat (rd (W9 m D0 D1 D2 D3)) c).arrAt_in 3 rfl _).trans ((D4.hA (rd (W9 m D0 D1 D2 D3)) c 3).trans (W10_of m D0 D1 D2 D3 D4 c _ (by decide)).symm)
/-- Input window 4's array after region 4: as the region was entered with it. -/
theorem hF4_4 (c : Dev nD) : (D4.dat (rd (W9 m D0 D1 D2 D3)) c).arrAt (4 : Fin 8) cfg4.N = rd (W10 m D0 D1 D2 D3 D4) c (Pipeline.arrRef spec4 4) :=
  ((D4.dat (rd (W9 m D0 D1 D2 D3)) c).arrAt_in 4 rfl _).trans ((D4.hA (rd (W9 m D0 D1 D2 D3)) c 4).trans (W10_of m D0 D1 D2 D3 D4 c _ (by decide)).symm)
/-- Output window 5's array after region 4: the window's final array. -/
theorem hF4_5 (c : Dev nD) : (D4.dat (rd (W9 m D0 D1 D2 D3)) c).arrAt (5 : Fin 8) cfg4.N = rd (W10 m D0 D1 D2 D3 D4) c (Pipeline.arrRef spec4 5) :=
  (W10_main_v84_0 m D0 D1 D2 D3 D4 c).symm
/-- Output window 6's array after region 4: the window's final array. -/
theorem hF4_6 (c : Dev nD) : (D4.dat (rd (W9 m D0 D1 D2 D3)) c).arrAt (6 : Fin 8) cfg4.N = rd (W10 m D0 D1 D2 D3 D4) c (Pipeline.arrRef spec4 6) :=
  (W10_main_v84_1 m D0 D1 D2 D3 D4 c).symm
/-- Output window 7's array after region 4: the window's final array. -/
theorem hF4_7 (c : Dev nD) : (D4.dat (rd (W9 m D0 D1 D2 D3)) c).arrAt (7 : Fin 8) cfg4.N = rd (W10 m D0 D1 D2 D3 D4) c (Pipeline.arrRef spec4 7) :=
  (W10_main_v84_2 m D0 D1 D2 D3 D4 c).symm
/-- After region 4 each of its arrays holds what the pipeline leaves in it: an input array what the region was entered
    with, an output array its window's final array. -/
theorem hF4 (c : Dev nD) : ∀ w : Fin 8, (D4.dat (rd (W9 m D0 D1 D2 D3)) c).arrAt w cfg4.N = rd (W10 m D0 D1 D2 D3 D4) c (Pipeline.arrRef spec4 w)
  | 0 => hF4_0 m D0 D1 D2 D3 D4 c
  | 1 => hF4_1 m D0 D1 D2 D3 D4 c
  | 2 => hF4_2 m D0 D1 D2 D3 D4 c
  | 3 => hF4_3 m D0 D1 D2 D3 D4 c
  | 4 => hF4_4 m D0 D1 D2 D3 D4 c
  | 5 => hF4_5 m D0 D1 D2 D3 D4 c
  | 6 => hF4_6 m D0 D1 D2 D3 D4 c
  | 7 => hF4_7 m D0 D1 D2 D3 D4 c

/-- Every buffer that is no array of region 4 holds after it what it held before. -/
theorem hrest4 (c : Dev nD) : ∀ b, b ∉ Finset.univ.image (Pipeline.arrRef spec4) → rd (W10 m D0 D1 D2 D3 D4) c b = rd (W9 m D0 D1 D2 D3) c b :=
  fun b hb => W10_of m D0 D1 D2 D3 D4 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 4 as a segment of the run. -/
def reg4 : Pipeline.RegionSeg (pcfgs (F := F)) adm (pdats m D0 D1 D2 D3 D4 D5 D6) () defs₀ Variants.none runL runLv 4 where
  win := launch4.win.to₀
  block_pos := launch4.block_pos
  stage_whole := launch4.stage_whole
  K := PEmpty
  osem k := k.elim
  ho := Pipeline.OwnSemFacts.none _
  hbody c := (D4.hbody (rd (W9 m D0 D1 D2 D3)) c).loose
  hwaits := Pipeline.hwaits_of_owed_zero _ _ _ _ runL runLv 4 fun c t => D4.ho (rd (W9 m D0 D1 D2 D3)) c t
  pre c := iprop(StableHlo.held (c : Thread nD τ) (Pipeline.ucRefs τ sig) ((W9 m D0 D1 D2 D3) c) ∗ runR c)
  post c := iprop(StableHlo.held (c : Thread nD τ) (Pipeline.ucRefs τ sig) ((W10 m D0 D1 D2 D3 D4) c) ∗ runR c)
  X c := BI.emp
  Y c := BI.emp
  Z c := iprop(Pipeline.unscopedRest (Ix := Unit) (Name := ℕ) (U := UR sig nD τ) (Lvl := ℕ) spec4 c (rd (W9 m D0 D1 D2 D3) c) ∗ ∃ r, prngReg c r)
  hentry c := by
    rw [Pipeline.ownSems0_none]
    have hsplit := Pipeline.arrays_of_unscopedBufs (p := 4) (pcfgs (F := F)) adm (pdats m D0 D1 D2 D3 D4 D5 D6) launch4.win launch4.arr_whole c
      ((pdats m D0 D1 D2 D3 D4 D5 D6 4 c).share_full fun w => D4.hq (rd (W9 m D0 D1 D2 D3)) c w) (rd (W9 m D0 D1 D2 D3) c) fun w => D4.hA (rd (W9 m D0 D1 D2 D3)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 4 c) (D4.ho (rd (W9 m D0 D1 D2 D3)) c 0) (D4.hr (rd (W9 m D0 D1 D2 D3)) c))
      iexact HO
    isplitr; · iempintro
    isplitl [Hrest]; · iexact Hrest
    iexact Hp
  hin c := by
    refine .trans ?_ (D4.hin (rd (W9 m D0 D1 D2 D3)) c)
    iintro ⟨-, -, Hr⟩
    iexact Hr
  hout c := by
    rw [Pipeline.ownSems0_none]
    refine (D4.hout (rd (W9 m D0 D1 D2 D3)) c).trans ?_
    iintro Hr
    isplitr; · iempintro
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4 D5 D6) ((pdats m D0 D1 D2 D3 D4 D5 D6 4 c).share_full fun w => D4.hq (rd (W9 m D0 D1 D2 D3)) c w)
      (rd (W9 m D0 D1 D2 D3) c) (rd (W10 m D0 D1 D2 D3 D4) c) ((pdats m D0 D1 D2 D3 D4 D5 D6 4 c).arrAt · cfg4.N) (hF4 m D0 D1 D2 D3 D4 c) (hrest4 m D0 D1 D2 D3 D4 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 4 c) (D4.ho (rd (W9 m D0 D1 D2 D3)) c _))
    iexact HO

end Cert.Kernel.Hand

end
-- ==== Proof.K.RunReg5.lean ====
/-
  Region 5 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 5: as the region was entered with it. -/
theorem hF5_0 (c : Dev nD) : (D5.dat (rd (W11 m D0 D1 D2 D3 D4)) c).arrAt (0 : Fin 6) cfg5.N = rd (W12 m D0 D1 D2 D3 D4 D5) c (Pipeline.arrRef spec5 0) :=
  ((D5.dat (rd (W11 m D0 D1 D2 D3 D4)) c).arrAt_in 0 rfl _).trans ((D5.hA (rd (W11 m D0 D1 D2 D3 D4)) c 0).trans (W12_of m D0 D1 D2 D3 D4 D5 c _ (by decide)).symm)
/-- Input window 1's array after region 5: as the region was entered with it. -/
theorem hF5_1 (c : Dev nD) : (D5.dat (rd (W11 m D0 D1 D2 D3 D4)) c).arrAt (1 : Fin 6) cfg5.N = rd (W12 m D0 D1 D2 D3 D4 D5) c (Pipeline.arrRef spec5 1) :=
  ((D5.dat (rd (W11 m D0 D1 D2 D3 D4)) c).arrAt_in 1 rfl _).trans ((D5.hA (rd (W11 m D0 D1 D2 D3 D4)) c 1).trans (W12_of m D0 D1 D2 D3 D4 D5 c _ (by decide)).symm)
/-- Input window 2's array after region 5: as the region was entered with it. -/
theorem hF5_2 (c : Dev nD) : (D5.dat (rd (W11 m D0 D1 D2 D3 D4)) c).arrAt (2 : Fin 6) cfg5.N = rd (W12 m D0 D1 D2 D3 D4 D5) c (Pipeline.arrRef spec5 2) :=
  ((D5.dat (rd (W11 m D0 D1 D2 D3 D4)) c).arrAt_in 2 rfl _).trans ((D5.hA (rd (W11 m D0 D1 D2 D3 D4)) c 2).trans (W12_of m D0 D1 D2 D3 D4 D5 c _ (by decide)).symm)
/-- Input window 3's array after region 5: as the region was entered with it. -/
theorem hF5_3 (c : Dev nD) : (D5.dat (rd (W11 m D0 D1 D2 D3 D4)) c).arrAt (3 : Fin 6) cfg5.N = rd (W12 m D0 D1 D2 D3 D4 D5) c (Pipeline.arrRef spec5 3) :=
  ((D5.dat (rd (W11 m D0 D1 D2 D3 D4)) c).arrAt_in 3 rfl _).trans ((D5.hA (rd (W11 m D0 D1 D2 D3 D4)) c 3).trans (W12_of m D0 D1 D2 D3 D4 D5 c _ (by decide)).symm)
/-- Input window 4's array after region 5: as the region was entered with it. -/
theorem hF5_4 (c : Dev nD) : (D5.dat (rd (W11 m D0 D1 D2 D3 D4)) c).arrAt (4 : Fin 6) cfg5.N = rd (W12 m D0 D1 D2 D3 D4 D5) c (Pipeline.arrRef spec5 4) :=
  ((D5.dat (rd (W11 m D0 D1 D2 D3 D4)) c).arrAt_in 4 rfl _).trans ((D5.hA (rd (W11 m D0 D1 D2 D3 D4)) c 4).trans (W12_of m D0 D1 D2 D3 D4 D5 c _ (by decide)).symm)
/-- Output window 5's array after region 5: the window's final array. -/
theorem hF5_5 (c : Dev nD) : (D5.dat (rd (W11 m D0 D1 D2 D3 D4)) c).arrAt (5 : Fin 6) cfg5.N = rd (W12 m D0 D1 D2 D3 D4 D5) c (Pipeline.arrRef spec5 5) :=
  (W12_main_v87 m D0 D1 D2 D3 D4 D5 c).symm
/-- After region 5 each of its arrays holds what the pipeline leaves in it: an input array what the region was entered
    with, an output array its window's final array. -/
theorem hF5 (c : Dev nD) : ∀ w : Fin 6, (D5.dat (rd (W11 m D0 D1 D2 D3 D4)) c).arrAt w cfg5.N = rd (W12 m D0 D1 D2 D3 D4 D5) c (Pipeline.arrRef spec5 w)
  | 0 => hF5_0 m D0 D1 D2 D3 D4 D5 c
  | 1 => hF5_1 m D0 D1 D2 D3 D4 D5 c
  | 2 => hF5_2 m D0 D1 D2 D3 D4 D5 c
  | 3 => hF5_3 m D0 D1 D2 D3 D4 D5 c
  | 4 => hF5_4 m D0 D1 D2 D3 D4 D5 c
  | 5 => hF5_5 m D0 D1 D2 D3 D4 D5 c

/-- Every buffer that is no array of region 5 holds after it what it held before. -/
theorem hrest5 (c : Dev nD) : ∀ b, b ∉ Finset.univ.image (Pipeline.arrRef spec5) → rd (W12 m D0 D1 D2 D3 D4 D5) c b = rd (W11 m D0 D1 D2 D3 D4) c b :=
  fun b hb => W12_of m D0 D1 D2 D3 D4 D5 c b fun h => by
    rcases List.mem_cons.mp h with rfl | h
    · exact hb (Finset.mem_image.mpr ⟨(5 : Fin 6), Finset.mem_univ _, rfl⟩)
    cases h

set_option backward.isDefEq.respectTransparency.types false in
/-- Region 5 as a segment of the run. -/
def reg5 : Pipeline.RegionSeg (pcfgs (F := F)) adm (pdats m D0 D1 D2 D3 D4 D5 D6) () defs₀ Variants.none runL runLv 5 where
  win := launch5.win.to₀
  block_pos := launch5.block_pos
  stage_whole := launch5.stage_whole
  K := PEmpty
  osem k := k.elim
  ho := Pipeline.OwnSemFacts.none _
  hbody c := (D5.hbody (rd (W11 m D0 D1 D2 D3 D4)) c).loose
  hwaits := Pipeline.hwaits_of_owed_zero _ _ _ _ runL runLv 5 fun c t => D5.ho (rd (W11 m D0 D1 D2 D3 D4)) c t
  pre c := iprop(StableHlo.held (c : Thread nD τ) (Pipeline.ucRefs τ sig) ((W11 m D0 D1 D2 D3 D4) c) ∗ runR c)
  post c := iprop(StableHlo.held (c : Thread nD τ) (Pipeline.ucRefs τ sig) ((W12 m D0 D1 D2 D3 D4 D5) c) ∗ runR c)
  X c := iprop(∃ r, prngReg c r)
  Y c := iprop(∃ r, prngReg c r)
  Z c := Pipeline.unscopedRest (Ix := Unit) (Name := ℕ) (U := UR sig nD τ) (Lvl := ℕ) spec5 c (rd (W11 m D0 D1 D2 D3 D4) c)
  hentry c := by
    rw [Pipeline.ownSems0_none]
    have hsplit := Pipeline.arrays_of_unscopedBufs (p := 5) (pcfgs (F := F)) adm (pdats m D0 D1 D2 D3 D4 D5 D6) launch5.win launch5.arr_whole c
      ((pdats m D0 D1 D2 D3 D4 D5 D6 5 c).share_full fun w => D5.hq (rd (W11 m D0 D1 D2 D3 D4)) c w) (rd (W11 m D0 D1 D2 D3 D4) c) fun w => D5.hA (rd (W11 m D0 D1 D2 D3 D4)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 5 c) (D5.ho (rd (W11 m D0 D1 D2 D3 D4)) c 0) (D5.hr (rd (W11 m D0 D1 D2 D3 D4)) c))
      iexact HO
    isplitl [Hp]; · iexact Hp
    iexact Hrest
  hin c := by
    refine .trans ?_ (D5.hin (rd (W11 m D0 D1 D2 D3 D4)) c)
    unfold IA Pipeline.ΦA
    iintro ⟨Hp, -, Hr⟩
    isplitl [Hr]; · iexact Hr
    iexact Hp
  hout c := by
    rw [Pipeline.ownSems0_none]
    refine (D5.hout (rd (W11 m D0 D1 D2 D3 D4)) c).trans ?_
    unfold IA Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m D0 D1 D2 D3 D4 D5 D6) ((pdats m D0 D1 D2 D3 D4 D5 D6 5 c).share_full fun w => D5.hq (rd (W11 m D0 D1 D2 D3 D4)) c w)
      (rd (W11 m D0 D1 D2 D3 D4) c) (rd (W12 m D0 D1 D2 D3 D4 D5) c) ((pdats m D0 D1 D2 D3 D4 D5 D6 5 c).arrAt · cfg5.N) (hF5 m D0 D1 D2 D3 D4 D5 c) (hrest5 m D0 D1 D2 D3 D4 D5 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 5 c) (D5.ho (rd (W11 m D0 D1 D2 D3 D4)) c _))
    iexact HO

end Cert.Kernel.Hand

end
-- ==== Proof.K.RunReg6.lean ====
/-
  Region 6 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.K.RunEq
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 6: as the region was entered with it. -/
theorem hF6_0 (c : Dev nD) : (D6.dat (rd (W13 m D0 D1 D2 D3 D4 D5)) c).arrAt (0 : Fin 8) cfg6.N = rd (W14 m D0 D1 D2 D3 D4 D5 D6) c (Pipeline.arrRef spec6 0) :=
  ((D6.dat (rd (W13 m D0 D1 D2 D3 D4 D5)) c).arrAt_in 0 rfl _).trans ((D6.hA (rd (W13 m D0 D1 D2 D3 D4 D5)) c 0).trans (W14_of m D0 D1 D2 D3 D4 D5 D6 c _ (by decide)).symm)
/-- Input window 1's array after region 6: as the region was entered with it. -/
theorem hF6_1 (c : Dev nD) : (D6.dat (rd (W13 m D0 D1 D2 D3 D4 D5)) c).arrAt (1 : Fin 8) cfg6.N = rd (W14 m D0 D1 D2 D3 D4 D5 D6) c (Pipeline.arrRef spec6 1) :=
  ((D6.dat (rd (W13 m D0 D1 D2 D3 D4 D5)) c).arrAt_in 1 rfl _).trans ((D6.hA (rd (W13 m D0 D1 D2 D3 D4 D5)) c 1).trans (W14_of m D0 D1 D2 D3 D4 D5 D6 c _ (by decide)).symm)
/-- Input window 2's array after region 6: as the region was entered with it. -/
theorem hF6_2 (c : Dev nD) : (D6.dat (rd (W13 m D0 D1 D2 D3 D4 D5)) c).arrAt (2 : Fin 8) cfg6.N = rd (W14 m D0 D1 D2 D3 D4 D5 D6) c (Pipeline.arrRef spec6 2) :=
  ((D6.dat (rd (W13 m D0 D1 D2 D3 D4 D5)) c).arrAt_in 2 rfl _).trans ((D6.hA (rd (W13 m D0 D1 D2 D3 D4 D5)) c 2).trans (W14_of m D0 D1 D2 D3 D4 D5 D6 c _ (by decide)).symm)
/-- Input window 3's array after region 6: as the region was entered with it. -/
theorem hF6_3 (c : Dev nD) : (D6.dat (rd (W13 m D0 D1 D2 D3 D4 D5)) c).arrAt (3 : Fin 8) cfg6.N = rd (W14 m D0 D1 D2 D3 D4 D5 D6) c (Pipeline.arrRef spec6 3) :=
  ((D6.dat (rd (W13 m D0 D1 D2 D3 D4 D5)) c).arrAt_in 3 rfl _).trans ((D6.hA (rd (W13 m D0 D1 D2 D3 D4 D5)) c 3).trans (W14_of m D0 D1 D2 D3 D4 D5 D6 c _ (by decide)).symm)
/-- Input window 4's array after region 6: as the region was entered with it. -/
theorem hF6_4 (c : Dev nD) : (D6.dat (rd (W13 m D0 D1 D2 D3 D4 D5)) c).arrAt (4 : Fin 8) cfg6.N = rd (W14 m D0 D1 D2 D3 D4 D5 D6) c (Pipeline.arrRef spec6 4) :=
  ((D6.dat (rd (W13 m D0 D1 D2 D3 D4 D5)) c).arrAt_in 4 rfl _).trans ((D6.hA (rd (W13 m D0 D1 D2 D3 D4 D5)) c 4).trans (W14_of m D0 D1 D2 D3 D4 D5 D6 c _ (by decide)).symm)
/-- Input window 5's array after region 6: as the region was entered with it. -/
theorem hF6_5 (c : Dev nD) : (D6.dat (rd (W13 m D0 D1 D2 D3 D4 D5)) c).arrAt (5 : Fin 8) cfg6.N = rd (W14 m D0 D1 D2 D3 D4 D5 D6) c (Pipeline.arrRef spec6 5) :=
  ((D6.dat (rd (W13 m D0 D1 D2 D3 D4 D5)) c).arrAt_in 5 rfl _).trans ((D6.hA (rd (W13 m D0 D1 D2 D3 D4 D5)) c 5).trans (W14_of m D0 D1 D2 D3 D4 D5 D6 c _ (by decide)).symm)
/-- Input window 6's array after region 6: as the region was entered with it. -/
theorem hF6_6 (c : Dev nD) : (D6.dat (rd (W13 m D0 D1 D2 D3 D4 D5)) c).arrAt (6 : Fin 8) cfg6.N = rd (W14 m D0 D1 D2 D3 D4 D5 D6) c (Pipeline.arrRef spec6 6) :=
  ((D6.dat (rd (W13 m D0 D1 D2 D3 D4 D5)) c).arrAt_in 6 rfl _).trans ((D6.hA (rd (W13 m D0 D1 D2 D3 D4 D5)) c 6).trans (W14_of m D0 D1 D2 D3 D4 D5 D6 c _ (by decide)).symm)
/-- Output window 7's array after region 6: the window's final array. -/
theorem hF6_7 (c : Dev nD) : (D6.dat (rd (W13 m D0 D1 D2 D3 D4 D5)) c).arrAt (7 : Fin 8) cfg6.N = rd (W14 m D0 D1 D2 D3 D4 D5 D6) c (Pipeline.arrRef spec6 7) :=
  (W14_main_v104 m D0 D1 D2 D3 D4 D5 D6 c).symm
/-- After region 6 each of its arrays holds what the pipeline leaves in it: an input array what the region was entered
    with, an output array its window's final array. -/
theorem hF6 (c : Dev nD) : ∀ w : Fin 8, (D6.dat (rd (W13 m D0 D1 D2 D3 D4 D5)) c).arrAt w cfg6.N = rd (W14 m D0 D1 D2 D3 D4 D5 D6) c (Pipeline.arrRef spec6 w)
  | 0 => hF6_0 m D0 D1 D2 D3 D4 D5 D6 c
  | 1 => hF6_1 m D0 D1 D2 D3 D4 D5 D6 c
  | 2 => hF6_2 m D0 D1 D2 D3 D4 D5 D6 c
  | 3 => hF6_3 m D0 D1 D2 D3 D4 D5 D6 c
  | 4 => hF6_4 m D0 D1 D2 D3 D4 D5 D6 c
  | 5 => hF6_5 m D0 D1 D2 D3 D4 D5 D6 c
  | 6 => hF6_6 m D0 D1 D2 D3 D4 D5 D6 c
  | 7 => hF6_7 m D0 D1 D2 D3 D4 D5 D6 c

/-- Every buffer that is no array of region 6 holds after it what it held before. -/
theorem hrest6 (c : Dev nD) : ∀ b, b ∉ Finset.univ.image (Pipeline.arrRef spec6) → rd (W14 m D0 D1 D2 D3 D4 D5 D6) c b = rd (W13 m D0 D1 D2 D3 D4 D5) c b :=
  fun b hb => W14_of m D0 D1 D2 D3 D4 D5 D6 c b fun h => by
    rcases List.mem_cons.mp h with rfl | h
    · exact hb (Finset.mem_image.mpr ⟨(7 : Fin 8), Finset.mem_univ _, rfl⟩)
    cases h

set_option backward.isDefEq.respectTransparency.types false in
/-- Region 6 as a segment of the run. -/
def reg6 : Pipeline.RegionSeg (pcfgs (F := F)) adm (pdats m D0 D1 D2 D3 D4 D5 D6) () defs₀ Variants.none runL runLv 6 where
  win := launch6.win.to₀
  block_pos := launch6.block_pos
  stage_whole := launch6.stage_whole
  K := PEmpty
  osem k := k.elim
  ho := Pipeline.OwnSemFacts.none _
  hbody c := (D6.hbody (rd (W13 m D0 D1 D2 D3 D4 D5)) c).loose
  hwaits := Pipeline.hwaits_of_owed_zero _ _ _ _ runL runLv 6 fun c t => D6.ho (rd (W13 m D0 D1 D2 D3 D4 D5)) c t
  pre c := iprop(StableHlo.held (c : Thread nD τ) (Pipeline.ucRefs τ sig) ((W13 m D0 D1 D2 D3 D4 D5) c) ∗ runR c)
  post c := iprop(StableHlo.held (c : Thread nD τ) (Pipeline.ucRefs τ sig) ((W14 m D0 D1 D2 D3 D4 D5 D6) c) ∗ runR c)
  X c := iprop(∃ r, prngReg c r)
  Y c := iprop(∃ r, prngReg c r)
  Z c := Pipeline.unscopedRest (Ix := Unit) (Name := ℕ) (U := UR sig nD τ) (Lvl := ℕ) spec6 c (rd (W13 m D0 D1 D2 D3 D4 D5) c)
  hentry c := by
    rw [Pipeline.ownSems0_none]
    have hsplit := Pipeline.arrays_of_unscopedBufs (p := 6) (pcfgs (F := F)) adm (pdats m D0 D1 D2 D3 D4 D5 D6) launch6.win launch6.arr_whole c
      ((pdats m D0 D1 D2 D3 D4 D5 D6 6 c).share_full fun w => D6.hq (rd (W13 m D0 D1 D2 D3 D4 D5)) c w) (rd (W13 m D0 D1 D2 D3 D4 D5) c) fun w => D6.hA (rd (W13 m D0 D1 D2 D3 D4 D5)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 6 c) (D6.ho (rd (W13 m D0 D1 D2 D3 D4 D5)) c 0) (D6.hr (rd (W13 m D0 D1 D2 D3 D4 D5)) c))
      iexact HO
    isplitl [Hp]; · iexact Hp
    iexact Hrest
  hin c := by
    refine .trans ?_ (D6.hin (rd (W13 m D0 D1 D2 D3 D4 D5)) c)
    unfold IA Pipeline.ΦA
    iintro ⟨Hp, -, Hr⟩
    isplitl [Hr]; · iexact Hr
    iexact Hp
  hout c := by
    rw [Pipeline.ownSems0_none]
    refine (D6.hout (rd (W13 m D0 D1 D2 D3 D4 D5)) c).trans ?_
    unfold IA Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m D0 D1 D2 D3 D4 D5 D6) ((pdats m D0 D1 D2 D3 D4 D5 D6 6 c).share_full fun w => D6.hq (rd (W13 m D0 D1 D2 D3 D4 D5)) c w)
      (rd (W13 m D0 D1 D2 D3 D4 D5) c) (rd (W14 m D0 D1 D2 D3 D4 D5 D6) c) ((pdats m D0 D1 D2 D3 D4 D5 D6 6 c).arrAt · cfg6.N) (hF6 m D0 D1 D2 D3 D4 D5 D6 c) (hrest6 m D0 D1 D2 D3 D4 D5 D6 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 6 c) (D6.ho (rd (W13 m D0 D1 D2 D3 D4 D5)) c _))
    iexact HO

end Cert.Kernel.Hand

end
-- ==== Proof.K.RunVal.lean ====
/-
  The run of the program over its seven regions, given one segment record per region, read at the end at the result
  array as well as at the argument arrays: what the last region leaves in the result's buffer is what the final memory
  holds there.
-/
import proofs.«144042_j23673859736035_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

set_option backward.isDefEq.respectTransparency.types false in
/-- The run of the program from the regions' segment records, with the result read too: for rest states `E` the launch
    makes on every core at once and that end owing nothing, contents `outs` the regions leave, proof data, and per region
    a segment record entered from the thread state before it and left at the one after it, every weakly fair execution
    from memory `m` with zero counters terminates, and every final memory holds the result array at the last boundary's
    contents and each argument array as launched. -/
theorem frame_cond_val (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v104) = V14 m outs c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v104) = V14 m outs c (Proc.devRef .tc main_v104) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- at launch every unscoped buffer is held at the launch memory's contents; the other resources dealt make the first rest state on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the last thread state holds every unscoped buffer at the last boundary's contents: the final memory agrees with them there
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v104) (Finset.mem_filter.mpr ⟨StableHlo.devRef_mem_tcRefs main_v104, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c),
        (h (Proc.devRef .tc main_arg9) (Finset.mem_filter.mpr ⟨StableHlo.devRef_mem_tcRefs main_arg9, by decide⟩)).trans (V14_main_arg9 m outs c),
        (h (Proc.devRef .tc main_arg10) (Finset.mem_filter.mpr ⟨StableHlo.devRef_mem_tcRefs main_arg10, by decide⟩)).trans (V14_main_arg10 m outs c),
        (h (Proc.devRef .tc main_arg11) (Finset.mem_filter.mpr ⟨StableHlo.devRef_mem_tcRefs main_arg11, by decide⟩)).trans (V14_main_arg11 m outs c),
        (h (Proc.devRef .tc main_arg12) (Finset.mem_filter.mpr ⟨StableHlo.devRef_mem_tcRefs main_arg12, by decide⟩)).trans (V14_main_arg12 m outs c),
        (h (Proc.devRef .tc main_arg13) (Finset.mem_filter.mpr ⟨StableHlo.devRef_mem_tcRefs main_arg13, by decide⟩)).trans (V14_main_arg13 m outs c),
        (h (Proc.devRef .tc main_arg14) (Finset.mem_filter.mpr ⟨StableHlo.devRef_mem_tcRefs main_arg14, by decide⟩)).trans (V14_main_arg14 m outs c),
        (h (Proc.devRef .tc main_arg15) (Finset.mem_filter.mpr ⟨StableHlo.devRef_mem_tcRefs main_arg15, by decide⟩)).trans (V14_main_arg15 m outs c),
        (h (Proc.devRef .tc main_arg16) (Finset.mem_filter.mpr ⟨StableHlo.devRef_mem_tcRefs main_arg16, by decide⟩)).trans (V14_main_arg16 m outs c),
        (h (Proc.devRef .tc main_arg17) (Finset.mem_filter.mpr ⟨StableHlo.devRef_mem_tcRefs main_arg17, by decide⟩)).trans (V14_main_arg17 m outs c)⟩
    · iexact HSI

end Cert.Kernel.Hand

end
-- ==== Proof.K.Run.lean ====
/-
  The run of the program over its seven kernel regions, assembled: from the launch memory with zero counters every
  weakly fair execution terminates, faulting nowhere, and the final memory holds every argument array as launched — and
  the result array at what the last region's write-backs leave, that region entered at the contents the six regions and
  seven host stretches before it leave. Each region is a segment record over the thread state "every unscoped buffer at
  the boundary's contents, the generator register at some state, nothing owed"; the launch makes the first such state on
  every core; the last is read against the final memory. Stated over the regions' data as hypotheses.
-/
import proofs.«144042_j23673859736035_1_alg».proof.Proof.K.RunReg0
import proofs.«144042_j23673859736035_1_alg».proof.Proof.K.RunReg1
import proofs.«144042_j23673859736035_1_alg».proof.Proof.K.RunReg2
import proofs.«144042_j23673859736035_1_alg».proof.Proof.K.RunReg3
import proofs.«144042_j23673859736035_1_alg».proof.Proof.K.RunReg4
import proofs.«144042_j23673859736035_1_alg».proof.Proof.K.RunReg5
import proofs.«144042_j23673859736035_1_alg».proof.Proof.K.RunReg6
import proofs.«144042_j23673859736035_1_alg».proof.Proof.K.RunVal

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bundled

set_option backward.isDefEq.respectTransparency.types false in
/-- The frame of the program, from the regions' bundled data. -/
theorem run_frame (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl)

set_option backward.isDefEq.respectTransparency.types false in
/-- The same run, with the result: the final memory holds the result array at the last region's output window's final
    array, the region entered at the contents before it. -/
theorem run_frame_val (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_v104) = (D6.dat (rd (W13 m D0 D1 D2 D3 D4 D5)) c).arrAt (7 : Fin 8) cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono
    (fun _ h c => ⟨((h c).1.trans (congrFun (congrFun (V14_eq m D0 D1 D2 D3 D4 D5 D6) c) _)).trans (W14_main_v104 m D0 D1 D2 D3 D4 D5 D6 c), (h c).2⟩)
    (frame_cond_val m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl))

set_option backward.isDefEq.respectTransparency.types false in
/-- The same, the result stated as the last boundary's contents at the result's buffer. -/
theorem run_frame_valW (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_v104) = (W14 m D0 D1 D2 D3 D4 D5 D6) c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono
    (fun _ h c => ⟨(h c).1.trans (congrFun (congrFun (V14_eq m D0 D1 D2 D3 D4 D5 D6) c) _), (h c).2⟩)
    (frame_cond_val m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl))

end Bundled

/-- THE FRAME over the regions' data as hypotheses: per region K the proof data at any entry contents `V`, its arrays
    `V`'s, full shares, nothing owed, no bound on the recorded pairs at entry, the body obligation, and the invariant
    entered from and returned to the scoped rest (regions 0, 2, 4) or the scoped rest beside the generator register
    (regions 1, 3, 5, 6). -/
theorem frame_of
    (dat0 : Val₀ (F := F) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (ho0 : ∀ V c t, (dat0 V c).owed t = 0)
    (hr0 : ∀ V c, (dat0 V c).recorded 0 = Set.univ)
    (hbody0 : ∀ V c, BodyObligation (dat0 V c) (defs₀ (F := F)) Variants.none () Set.univ)
    (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
    (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
    (dat1 : Val₀ (F := F) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (ho1 : ∀ V c t, (dat1 V c).owed t = 0)
    (hr1 : ∀ V c, (dat1 V c).recorded 0 = Set.univ)
    (hbody1 : ∀ V c, BodyObligation (dat1 V c) (defs₀ (F := F)) Variants.none () Set.univ)
    (hin1 : ∀ V c, (Pipeline.ΦA (U := UR sig nD τ) (Val := Elt F) spec1 c : sProp (MT nD τ sig Unit (Elt F) ℕ (UR sig nD τ) ℕ)) ⊢ (dat1 V c).Φ 0)
    (hout1 : ∀ V c, (dat1 V c).Φ (Fin.last cfg1.N) ⊢ (Pipeline.ΦA (U := UR sig nD τ) (Val := Elt F) spec1 c : sProp (MT nD τ sig Unit (Elt F) ℕ (UR sig nD τ) ℕ)))
    (dat2 : Val₀ (F := F) → (c : Dev nD) → Dat τ (Elt F) Unit ℕ (UR sig nD τ) ℕ cfg2 c)
    (hA2 : ∀ V c w, (dat2 V c).A w = V c (Pipeline.arrRef spec2 w))
    (hq2 : ∀ V c w, (dat2 V c).q w = fullShare)
    (ho2 : ∀ V c t, (dat2 V c).owed t = 0)
    (hr2 : ∀ V c, (dat2 V c).recorded 0 = Set.univ)
    (hbody2 : ∀ V c, BodyObligation (dat2 V c) (defs₀ (F := F)) Variants.none () Set.univ)
    (hin2 : ∀ V c, (Pipeline.scopedRest (Ix := Unit) (Name := ℕ) (U := UR sig nD τ) (Lvl := ℕ) (Val := Elt F) spec2 c : sProp (MT nD τ sig Unit (Elt F) ℕ (UR sig nD τ) ℕ)) ⊢ (dat2 V c).Φ 0)
    (hout2 : ∀ V c, (dat2 V c).Φ (Fin.last cfg2.N) ⊢ (Pipeline.scopedRest (Ix := Unit) (Name := ℕ) (U := UR sig nD τ) (Lvl := ℕ) (Val := Elt F) spec2 c : sProp (MT nD τ sig Unit (Elt F) ℕ (UR sig nD τ) ℕ)))
    (dat3 : Val₀ (F := F) → (c : Dev nD) → Dat τ (Elt F) Unit ℕ (UR sig nD τ) ℕ cfg3 c)
    (hA3 : ∀ V c w, (dat3 V c).A w = V c (Pipeline.arrRef spec3 w))
    (hq3 : ∀ V c w, (dat3 V c).q w = fullShare)
    (ho3 : ∀ V c t, (dat3 V c).owed t = 0)
    (hr3 : ∀ V c, (dat3 V c).recorded 0 = Set.univ)
    (hbody3 : ∀ V c, BodyObligation (dat3 V c) (defs₀ (F := F)) Variants.none () Set.univ)
    (hin3 : ∀ V c, (Pipeline.ΦA (U := UR sig nD τ) (Val := Elt F) spec3 c : sProp (MT nD τ sig Unit (Elt F) ℕ (UR sig nD τ) ℕ)) ⊢ (dat3 V c).Φ 0)
    (hout3 : ∀ V c, (dat3 V c).Φ (Fin.last cfg3.N) ⊢ (Pipeline.ΦA (U := UR sig nD τ) (Val := Elt F) spec3 c : sProp (MT nD τ sig Unit (Elt F) ℕ (UR sig nD τ) ℕ)))
    (dat4 : Val₀ (F := F) → (c : Dev nD) → Dat τ (Elt F) Unit ℕ (UR sig nD τ) ℕ cfg4 c)
    (hA4 : ∀ V c w, (dat4 V c).A w = V c (Pipeline.arrRef spec4 w))
    (hq4 : ∀ V c w, (dat4 V c).q w = fullShare)
    (ho4 : ∀ V c t, (dat4 V c).owed t = 0)
    (hr4 : ∀ V c, (dat4 V c).recorded 0 = Set.univ)
    (hbody4 : ∀ V c, BodyObligation (dat4 V c) (defs₀ (F := F)) Variants.none () Set.univ)
    (hin4 : ∀ V c, (Pipeline.scopedRest (Ix := Unit) (Name := ℕ) (U := UR sig nD τ) (Lvl := ℕ) (Val := Elt F) spec4 c : sProp (MT nD τ sig Unit (Elt F) ℕ (UR sig nD τ) ℕ)) ⊢ (dat4 V c).Φ 0)
    (hout4 : ∀ V c, (dat4 V c).Φ (Fin.last cfg4.N) ⊢ (Pipeline.scopedRest (Ix := Unit) (Name := ℕ) (U := UR sig nD τ) (Lvl := ℕ) (Val := Elt F) spec4 c : sProp (MT nD τ sig Unit (Elt F) ℕ (UR sig nD τ) ℕ)))
    (dat5 : Val₀ (F := F) → (c : Dev nD) → Dat τ (Elt F) Unit ℕ (UR sig nD τ) ℕ cfg5 c)
    (hA5 : ∀ V c w, (dat5 V c).A w = V c (Pipeline.arrRef spec5 w))
    (hq5 : ∀ V c w, (dat5 V c).q w = fullShare)
    (ho5 : ∀ V c t, (dat5 V c).owed t = 0)
    (hr5 : ∀ V c, (dat5 V c).recorded 0 = Set.univ)
    (hbody5 : ∀ V c, BodyObligation (dat5 V c) (defs₀ (F := F)) Variants.none () Set.univ)
    (hin5 : ∀ V c, (Pipeline.ΦA (U := UR sig nD τ) (Val := Elt F) spec5 c : sProp (MT nD τ sig Unit (Elt F) ℕ (UR sig nD τ) ℕ)) ⊢ (dat5 V c).Φ 0)
    (hout5 : ∀ V c, (dat5 V c).Φ (Fin.last cfg5.N) ⊢ (Pipeline.ΦA (U := UR sig nD τ) (Val := Elt F) spec5 c : sProp (MT nD τ sig Unit (Elt F) ℕ (UR sig nD τ) ℕ)))
    (dat6 : Val₀ (F := F) → (c : Dev nD) → Dat τ (Elt F) Unit ℕ (UR sig nD τ) ℕ cfg6 c)
    (hA6 : ∀ V c w, (dat6 V c).A w = V c (Pipeline.arrRef spec6 w))
    (hq6 : ∀ V c w, (dat6 V c).q w = fullShare)
    (ho6 : ∀ V c t, (dat6 V c).owed t = 0)
    (hr6 : ∀ V c, (dat6 V c).recorded 0 = Set.univ)
    (hbody6 : ∀ V c, BodyObligation (dat6 V c) (defs₀ (F := F)) Variants.none () Set.univ)
    (hin6 : ∀ V c, (Pipeline.ΦA (U := UR sig nD τ) (Val := Elt F) spec6 c : sProp (MT nD τ sig Unit (Elt F) ℕ (UR sig nD τ) ℕ)) ⊢ (dat6 V c).Φ 0)
    (hout6 : ∀ V c, (dat6 V c).Φ (Fin.last cfg6.N) ⊢ (Pipeline.ΦA (U := UR sig nD τ) (Val := Elt F) spec6 c : sProp (MT nD τ sig Unit (Elt F) ℕ (UR sig nD τ) ℕ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩
    ⟨dat6, hA6, hq6, ho6, hr6, hbody6, hin6, hout6⟩ ρ

/-- The same with the result: the final memory holds the result array at region 6's output window's final array, region 6
    entered at the boundary contents `W13` folded from the launch memory through the regions' data. -/
theorem frame_val_of
    (dat0 : Val₀ (F := F) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (ho0 : ∀ V c t, (dat0 V c).owed t = 0)
    (hr0 : ∀ V c, (dat0 V c).recorded 0 = Set.univ)
    (hbody0 : ∀ V c, BodyObligation (dat0 V c) (defs₀ (F := F)) Variants.none () Set.univ)
    (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
    (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
    (dat1 : Val₀ (F := F) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (ho1 : ∀ V c t, (dat1 V c).owed t = 0)
    (hr1 : ∀ V c, (dat1 V c).recorded 0 = Set.univ)
    (hbody1 : ∀ V c, BodyObligation (dat1 V c) (defs₀ (F := F)) Variants.none () Set.univ)
    (hin1 : ∀ V c, (Pipeline.ΦA (U := UR sig nD τ) (Val := Elt F) spec1 c : sProp (MT nD τ sig Unit (Elt F) ℕ (UR sig nD τ) ℕ)) ⊢ (dat1 V c).Φ 0)
    (hout1 : ∀ V c, (dat1 V c).Φ (Fin.last cfg1.N) ⊢ (Pipeline.ΦA (U := UR sig nD τ) (Val := Elt F) spec1 c : sProp (MT nD τ sig Unit (Elt F) ℕ (UR sig nD τ) ℕ)))
    (dat2 : Val₀ (F := F) → (c : Dev nD) → Dat τ (Elt F) Unit ℕ (UR sig nD τ) ℕ cfg2 c)
    (hA2 : ∀ V c w, (dat2 V c).A w = V c (Pipeline.arrRef spec2 w))
    (hq2 : ∀ V c w, (dat2 V c).q w = fullShare)
    (ho2 : ∀ V c t, (dat2 V c).owed t = 0)
    (hr2 : ∀ V c, (dat2 V c).recorded 0 = Set.univ)
    (hbody2 : ∀ V c, BodyObligation (dat2 V c) (defs₀ (F := F)) Variants.none () Set.univ)
    (hin2 : ∀ V c, (Pipeline.scopedRest (Ix := Unit) (Name := ℕ) (U := UR sig nD τ) (Lvl := ℕ) (Val := Elt F) spec2 c : sProp (MT nD τ sig Unit (Elt F) ℕ (UR sig nD τ) ℕ)) ⊢ (dat2 V c).Φ 0)
    (hout2 : ∀ V c, (dat2 V c).Φ (Fin.last cfg2.N) ⊢ (Pipeline.scopedRest (Ix := Unit) (Name := ℕ) (U := UR sig nD τ) (Lvl := ℕ) (Val := Elt F) spec2 c : sProp (MT nD τ sig Unit (Elt F) ℕ (UR sig nD τ) ℕ)))
    (dat3 : Val₀ (F := F) → (c : Dev nD) → Dat τ (Elt F) Unit ℕ (UR sig nD τ) ℕ cfg3 c)
    (hA3 : ∀ V c w, (dat3 V c).A w = V c (Pipeline.arrRef spec3 w))
    (hq3 : ∀ V c w, (dat3 V c).q w = fullShare)
    (ho3 : ∀ V c t, (dat3 V c).owed t = 0)
    (hr3 : ∀ V c, (dat3 V c).recorded 0 = Set.univ)
    (hbody3 : ∀ V c, BodyObligation (dat3 V c) (defs₀ (F := F)) Variants.none () Set.univ)
    (hin3 : ∀ V c, (Pipeline.ΦA (U := UR sig nD τ) (Val := Elt F) spec3 c : sProp (MT nD τ sig Unit (Elt F) ℕ (UR sig nD τ) ℕ)) ⊢ (dat3 V c).Φ 0)
    (hout3 : ∀ V c, (dat3 V c).Φ (Fin.last cfg3.N) ⊢ (Pipeline.ΦA (U := UR sig nD τ) (Val := Elt F) spec3 c : sProp (MT nD τ sig Unit (Elt F) ℕ (UR sig nD τ) ℕ)))
    (dat4 : Val₀ (F := F) → (c : Dev nD) → Dat τ (Elt F) Unit ℕ (UR sig nD τ) ℕ cfg4 c)
    (hA4 : ∀ V c w, (dat4 V c).A w = V c (Pipeline.arrRef spec4 w))
    (hq4 : ∀ V c w, (dat4 V c).q w = fullShare)
    (ho4 : ∀ V c t, (dat4 V c).owed t = 0)
    (hr4 : ∀ V c, (dat4 V c).recorded 0 = Set.univ)
    (hbody4 : ∀ V c, BodyObligation (dat4 V c) (defs₀ (F := F)) Variants.none () Set.univ)
    (hin4 : ∀ V c, (Pipeline.scopedRest (Ix := Unit) (Name := ℕ) (U := UR sig nD τ) (Lvl := ℕ) (Val := Elt F) spec4 c : sProp (MT nD τ sig Unit (Elt F) ℕ (UR sig nD τ) ℕ)) ⊢ (dat4 V c).Φ 0)
    (hout4 : ∀ V c, (dat4 V c).Φ (Fin.last cfg4.N) ⊢ (Pipeline.scopedRest (Ix := Unit) (Name := ℕ) (U := UR sig nD τ) (Lvl := ℕ) (Val := Elt F) spec4 c : sProp (MT nD τ sig Unit (Elt F) ℕ (UR sig nD τ) ℕ)))
    (dat5 : Val₀ (F := F) → (c : Dev nD) → Dat τ (Elt F) Unit ℕ (UR sig nD τ) ℕ cfg5 c)
    (hA5 : ∀ V c w, (dat5 V c).A w = V c (Pipeline.arrRef spec5 w))
    (hq5 : ∀ V c w, (dat5 V c).q w = fullShare)
    (ho5 : ∀ V c t, (dat5 V c).owed t = 0)
    (hr5 : ∀ V c, (dat5 V c).recorded 0 = Set.univ)
    (hbody5 : ∀ V c, BodyObligation (dat5 V c) (defs₀ (F := F)) Variants.none () Set.univ)
    (hin5 : ∀ V c, (Pipeline.ΦA (U := UR sig nD τ) (Val := Elt F) spec5 c : sProp (MT nD τ sig Unit (Elt F) ℕ (UR sig nD τ) ℕ)) ⊢ (dat5 V c).Φ 0)
    (hout5 : ∀ V c, (dat5 V c).Φ (Fin.last cfg5.N) ⊢ (Pipeline.ΦA (U := UR sig nD τ) (Val := Elt F) spec5 c : sProp (MT nD τ sig Unit (Elt F) ℕ (UR sig nD τ) ℕ)))
    (dat6 : Val₀ (F := F) → (c : Dev nD) → Dat τ (Elt F) Unit ℕ (UR sig nD τ) ℕ cfg6 c)
    (hA6 : ∀ V c w, (dat6 V c).A w = V c (Pipeline.arrRef spec6 w))
    (hq6 : ∀ V c w, (dat6 V c).q w = fullShare)
    (ho6 : ∀ V c t, (dat6 V c).owed t = 0)
    (hr6 : ∀ V c, (dat6 V c).recorded 0 = Set.univ)
    (hbody6 : ∀ V c, BodyObligation (dat6 V c) (defs₀ (F := F)) Variants.none () Set.univ)
    (hin6 : ∀ V c, (Pipeline.ΦA (U := UR sig nD τ) (Val := Elt F) spec6 c : sProp (MT nD τ sig Unit (Elt F) ℕ (UR sig nD τ) ℕ)) ⊢ (dat6 V c).Φ 0)
    (hout6 : ∀ V c, (dat6 V c).Φ (Fin.last cfg6.N) ⊢ (Pipeline.ΦA (U := UR sig nD τ) (Val := Elt F) spec6 c : sProp (MT nD τ sig Unit (Elt F) ℕ (UR sig nD τ) ℕ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v104)
        = (dat6 (rd (W13 m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩)) c).arrAt (7 : Fin 8) cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame_val m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩
    ⟨dat6, hA6, hq6, ho6, hr6, hbody6, hin6, hout6⟩ ρ

end Cert.Kernel.Hand

end
-- ==== Proof.K.Lin0Base.lean ====
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (linear layer with column statistics): what its three control cases are stated over

The kernel runs over ten row blocks. At block t it forms lin = agg_t · Wl + bl + h_t · Wr, stores it, and adds the
column sums of lin and of lin² into two rows kept in scratch memory; at the first block it zeroes the two rows
first, at the last block it divides them by the row count into the mean and the (uncentred) variance. -/

-- The contents of a core's buffers when the region is entered: a parameter of everything below.
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the block
    index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- "This is the first row block": the condition under which the two scratch rows are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last row block": the condition under which mean and variance are written. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last block nothing is stored into window 6 (the mean) and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last block it is stored. -/
theorem liveAt0_6 : ∀ t : Fin cfg0.N, cond0_1 (grid0.coords t) → cfg0.idle 6 (grid0.coords t) = false := by decide +kernel
/-- Away from the last block nothing is stored into window 7 (the variance) and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last block it is stored. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
/-- The two scratch rows: whole buffers of the kernel's own, passed beside the windows. -/
abbrev scM0_0 : Memref sig .tc .vmem S1x256 .f32 := Memref.whole cc0_scratch0
abbrev scM0_1 : Memref sig .tc .vmem S1x256 .f32 := Memref.whole cc0_scratch1
/-- Views through which the contents of the outputs and of the scratch rows are stated. -/
abbrev VO0_5 : View sig .tc .vmem S5000x256 .f32 := (Memref.whole cc0_stg5_0 : Memref sig .tc .vmem S5000x256 .f32).view
abbrev VO0_6 : View sig .tc .vmem S1x256 .f32 := (Memref.whole cc0_stg6_0 : Memref sig .tc .vmem S1x256 .f32).view
abbrev VO0_7 : View sig .tc .vmem S1x256 .f32 := (Memref.whole cc0_stg7_0 : Memref sig .tc .vmem S1x256 .f32).view
abbrev VS0_0 : View sig .tc .vmem S1x256 .f32 := scM0_0.view
abbrev VS0_1 : View sig .tc .vmem S1x256 .f32 := scM0_1.view

end Cert.Kernel.Hand

end
-- ==== Proof.K.Lin0RunA.lean ====
import proofs.«144042_j23673859736035_1_alg».proof.Proof.K.Lin0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first row block: the two scratch rows are zeroed, then the block's column sums are added. On whole memrefs, the inputs at their
    blocks, the body runs to a continuation that holds the inputs as they were, the block of lin with its pieces
    written, and each scratch row with its pieces written; the lists of pieces are found by running the body. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (y6 y7 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare y6
            ∗ owns (c : Thread nD τ) arg8 fullShare y7
            ∗ (∃ d, owns (c : Thread nD τ) arg9 fullShare d)
            ∗ (∃ d, owns (c : Thread nD τ) arg10 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare y6
                ∗ owns (c : Thread nD τ) arg8 fullShare y7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact hf6
      iexact H6
    isplitl [H7]
    · iexists _; isplitr; · ipureintro; exact hf7
      iexact H7
    isplitl [HS0]; · iexists _; iexact HS0
    iexists _; iexact HS1

end Cert.Kernel.Hand

end
-- ==== Proof.K.Lin0RunB.lean ====
import proofs.«144042_j23673859736035_1_alg».proof.Proof.K.Lin0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle row block: the block's column sums are added to the two scratch rows. On whole memrefs, the inputs at their
    blocks, the body runs to a continuation that holds the inputs as they were, the block of lin with its pieces
    written, and each scratch row with its pieces written; the lists of pieces are found by running the body. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (y6 y7 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare y6
            ∗ owns (c : Thread nD τ) arg8 fullShare y7
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare y6
                ∗ owns (c : Thread nD τ) arg8 fullShare y7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact hf6
      iexact H6
    isplitl [H7]
    · iexists _; isplitr; · ipureintro; exact hf7
      iexact H7
    isplitl [HS0]; · iexists _; iexact HS0
    iexists _; iexact HS1

end Cert.Kernel.Hand

end
-- ==== Proof.K.Lin0RunC.lean ====
import proofs.«144042_j23673859736035_1_alg».proof.Proof.K.Lin0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last row block: the column sums are added, then mean and variance are written. On whole memrefs, the inputs at their
    blocks, the body runs to a continuation that holds the inputs as they were, the block of lin with its pieces
    written, and each scratch row with its pieces written; the lists of pieces are found by running the body. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.K.Lin0Dat.lean ====
import proofs.«144042_j23673859736035_1_alg».proof.Proof.K.Lin0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each control case leaves, point by point

What a case leaves in a buffer is its list of pieces read back; since every store of this kernel is a store of the whole
buffer, the pieces cover it, and the contents do not depend on what the buffer held before. -/

/-- The pieces case A finds for output window 5 tile it, hence cover it. -/
theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S5000x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- What case A leaves there: its pieces read back. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S5000x256 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- The pieces case A finds for scratch row 0 tile it, hence cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- What case A leaves there: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- The pieces case A finds for scratch row 1 tile it, hence cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- What case A leaves there: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- The pieces case B finds for output window 5 tile it, hence cover it. -/
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S5000x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

/-- What case B leaves there: its pieces read back. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S5000x256 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- The pieces case B finds for scratch row 0 tile it, hence cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- What case B leaves there: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- The pieces case B finds for scratch row 1 tile it, hence cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- What case B leaves there: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The pieces case C finds for output window 5 tile it, hence cover it. -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S5000x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

/-- What case C leaves there: its pieces read back. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S5000x256 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- The pieces case C finds for output window 6 tile it, hence cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- What case C leaves there: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- The pieces case C finds for output window 7 tile it, hence cover it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- What case C leaves there: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The pieces case C finds for scratch row 0 tile it, hence cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- What case C leaves there: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The pieces case C finds for scratch row 1 tile it, hence cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

/-- What case C leaves there: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! # Region 0: the two scratch rows point by point, and the proof data of the pipeline -/

variable (V : (c : Dev nD) → (b : Ref sig .tc) → Buf (Elt F) ((c : Thread nD τ).loc b))

/-- THE ACCUMULATION. What the two scratch rows hold after the body at position n: at the first block what the zeroing
    and the first addition leave; afterwards what the addition leaves over what the block before left. -/
def sAt0 (c : Dev nD) : (n : ℕ) → n < cfg0.N → Vec F S1x256 .f32 × Vec F S1x256 .f32
  | 0, hn =>
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 9 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)

/-- What the block before left (anything at the first block, where it is not read). -/
abbrev sPrev0 (c : Dev nD) (t : Fin cfg0.N) : Vec F S1x256 .f32 × Vec F S1x256 .f32 :=
  sAt0 V c (t.val - 1) (Nat.lt_of_le_of_lt (Nat.sub_le _ _) t.isLt)

/-- The scratch rows at the first block. -/
theorem sAt0_A (c : Dev nD) (t : Fin cfg0.N) (h0 : t.val = 0) :
    sAt0 V c t.val t.isLt =
      (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- The scratch rows at a middle block: the addition over what the block before left. -/
theorem sAt0_B (c : Dev nD) (t : Fin cfg0.N) (h0 : t.val ≠ 0) (h1 : t.val ≠ 9) :
    sAt0 V c t.val t.isLt =
      (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2) := by
  obtain ⟨n, hn⟩ := t
  cases n with
  | zero => exact absurd rfl h0
  | succ n => exact (dif_neg h1).trans rfl

/-- The scratch rows at the last block. -/
theorem sAt0_C (c : Dev nD) (t : Fin cfg0.N) (h0 : t.val ≠ 0) (h1 : t.val = 9) :
    sAt0 V c t.val t.isLt =
      (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2) := by
  obtain ⟨n, hn⟩ := t
  cases n with
  | zero => exact absurd rfl h0
  | succ n => exact (dif_pos h1).trans rfl

/-- What the body leaves in the block of lin at point t. -/
def lin0 (c : Dev nD) (t : Fin cfg0.N) : Vec F S5000x256 .f32 :=
  if h0 : t.val = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val = 9 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2

/-- What the body leaves in the mean's buffer at point t: at the last block the first scratch row divided by the row
    count; before that nothing is stored there, and nothing reads the placeholder. -/
def mean0 (c : Dev nD) (t : Fin cfg0.N) : Vec F S1x256 .f32 :=
  if h1 : t.val = 9 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else VO0_6.read (Elt F) VO0_6.junk

/-- The same for the variance's buffer. -/
def var0 (c : Dev nD) (t : Fin cfg0.N) : Vec F S1x256 .f32 :=
  if h1 : t.val = 9 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else VO0_7.read (Elt F) VO0_7.junk

/-! ## The invariant -/

/-- The region's invariant before position n: before the first block the scoped buffers no window stages, each at
    anything; afterwards the two scratch rows at what the block before left, beside the other such buffers. -/
def PhiS0 (c : Dev nD) : (n : ℕ) → n ≤ cfg0.N → sProp (MT nD τ sig Unit (Elt F) ℕ (UR sig nD τ) ℕ)
  | 0, _ => Pipeline.scopedRest (Ix := Unit) (Name := ℕ) (U := UR sig nD τ) (Lvl := ℕ) (Val := Elt F) spec0 c
  | n + 1, hn => iprop(iprop(owns (c : Thread nD τ) scM0_0 fullShare (sAt0 V c n hn).1 ∗ owns (c : Thread nD τ) scM0_1 fullShare (sAt0 V c n hn).2)
      ∗ Pipeline.scopedRestBut (Ix := Unit) (Name := ℕ) (U := UR sig nD τ) (Lvl := ℕ) (Val := Elt F) spec0 c [cc0_scratch0, cc0_scratch1])

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(iprop(owns (c : Thread nD τ) scM0_0 fullShare (sAt0 V c n hn).1 ∗ owns (c : Thread nD τ) scM0_1 fullShare (sAt0 V c n hn).2)
      ∗ Pipeline.scopedRestBut (Ix := Unit) (Name := ℕ) (U := UR sig nD τ) (Lvl := ℕ) (Val := Elt F) spec0 c [cc0_scratch0, cc0_scratch1]) := rfl

theorem PhiS0_pos (c : Dev nD) (n : ℕ) (h : n ≤ cfg0.N) (hz : n ≠ 0) :
    PhiS0 V c n h = iprop(iprop(owns (c : Thread nD τ) scM0_0 fullShare (sAt0 V c (n - 1) (by omega)).1 ∗ owns (c : Thread nD τ) scM0_1 fullShare (sAt0 V c (n - 1) (by omega)).2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl

/-- The scoped buffers no window stages, with the two scratch rows taken out as memrefs owned at some contents. -/
theorem scopedRest0_rows (c : Dev nD) :
    (Pipeline.scopedRest (Ix := Unit) (Name := ℕ) (U := UR sig nD τ) (Lvl := ℕ) (Val := Elt F) spec0 c : sProp (MT nD τ sig Unit (Elt F) ℕ (UR sig nD τ) ℕ))
      = iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0_0, scM0_1, owns_whole]; try rfl

/-! ## The proof data -/

/-- The proof data of region 0's pipeline on core c: the arrays as the region finds them; after the body at point t
    each input's buffer at its block, the outputs' at what the point's case leaves; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => lin0 V c t
    | ⟨6, _⟩ => mean0 V c t
    | ⟨7, _⟩ => var0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) : (dat0 V c).recorded 0 = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = lin0 V c t := by dsimp only [dat0]
theorem after0_6 (c : Dev nD) (t : Fin cfg0.N) : (dat0 V c).after 6 t = mean0 V c t := by dsimp only [dat0]
theorem after0_7 (c : Dev nD) (t : Fin cfg0.N) : (dat0 V c).after 7 t = var0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem lin0_A (c : Dev nD) (t : Fin cfg0.N) (h0 : t.val = 0) :
    lin0 V c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t) := by
  unfold lin0; exact dif_pos h0
theorem lin0_B (c : Dev nD) (t : Fin cfg0.N) (h0 : t.val ≠ 0) (h1 : t.val ≠ 9) :
    lin0 V c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2 := by
  unfold lin0; exact (dif_neg h0).trans (dif_neg h1)
theorem lin0_C (c : Dev nD) (t : Fin cfg0.N) (h0 : t.val ≠ 0) (h1 : t.val = 9) :
    lin0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold lin0; exact (dif_neg h0).trans (dif_pos h1)
theorem mean0_C (c : Dev nD) (t : Fin cfg0.N) (h0 : t.val ≠ 0) (h1 : t.val = 9) :
    mean0 V c t = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold mean0; exact dif_pos h1
theorem var0_C (c : Dev nD) (t : Fin cfg0.N) (h0 : t.val ≠ 0) (h1 : t.val = 9) :
    var0 V c t = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold var0; exact dif_pos h1

/-! ## The body obligation's two sides, the windows one by one -/

/-- The body obligation's precondition at point t: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- The body obligation's postcondition at point t: the invariant at the next point, what the core owes, and each
    window's current buffer at what the body leaves there. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- What the launch hands the region is the invariant before the first block. -/
theorem hin0 (c : Dev nD) :
    (Pipeline.scopedRest (Ix := Unit) (Name := ℕ) (U := UR sig nD τ) (Lvl := ℕ) (Val := Elt F) spec0 c : sProp (MT nD τ sig Unit (Elt F) ℕ (UR sig nD τ) ℕ))
      ⊢ (dat0 V c).Φ 0 := by
  rw [show (dat0 V c).Φ 0 = PhiS0 V c 0 (Nat.zero_le _) from rfl, PhiS0_zero V c 0 _ rfl]
  try exact Idealize.SL.BI.Entails.refl _

/-- After any block the invariant gives the scoped buffers back: what the two scratch rows hold is forgotten. -/
theorem Phi_out0 (c : Dev nD) (t : Fin (cfg0.N + 1)) (ht : t.val ≠ 0) :
    (dat0 V c).Φ t ⊢ (Pipeline.scopedRest (Ix := Unit) (Name := ℕ) (U := UR sig nD τ) (Lvl := ℕ) (Val := Elt F) spec0 c : sProp (MT nD τ sig Unit (Elt F) ℕ (UR sig nD τ) ℕ)) := by
  rw [show (dat0 V c).Φ t = PhiS0 V c t.val (Nat.le_of_lt_succ t.isLt) from rfl, PhiS0_pos V c _ _ ht, scopedRest0_rows]
  iintro ⟨⟨HS0, HS1⟩, HR⟩
  isplitl [HS0 HS1]
  · isplitl [HS0]
    · iexists _; iexact HS0
    iexists _; iexact HS1
  iexact HR

theorem hout0 (c : Dev nD) :
    (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)) :=
  Phi_out0 V c _ (by rw [Fin.val_last]; have : cfg0.N = 10 := N_0; omega)

end Cert.Kernel.Hand

end
-- ==== Proof.K.Lin0Body.lean ====
import proofs.«144042_j23673859736035_1_alg».proof.Proof.K.Lin0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body obligation

At every point the body, called with the invariant, the inputs' buffers at their blocks and the outputs' buffers, runs to
the invariant at the next point and each buffer at what the proof data says it leaves. -/

variable (V : (c : Dev nD) → (b : Ref sig .tc) → Buf (Elt F) ((c : Thread nD τ).loc b))

set_option maxHeartbeats 4800000 in
/-- The body at the first block: the inputs' buffers hold their blocks, the invariant hands the body the two scratch rows
    (at anything: they are zeroed before they are read), the case's run applies, and the scratch rows are taken back at this point's contents. -/
theorem sound_body0_A (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : cond0_0 (grid0.coords t) := (hcond0_0 t).mpr h0
  have hc1 : ¬cond0_1 (grid0.coords t) := fun h => by have := (hcond0_1 t).mp h; omega
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t hc1) (noFlush0_6 t hc1)]
  rw [Dat.leavesExact_idle (dat0 V c) 7 t (idleAt0_7 t hc1) (noFlush0_7 t hc1)]
  rw [lin0_A V c t h0, sAt0_A V c t h0]
  unfold out0_A_5 sout0_A_0 sout0_A_1; (try dsimp only)
  rw [PhiS0_castSucc V c t, PhiS0_zero V c _ _ h0, scopedRest0_rows]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, ⟨%e5, H5⟩, H6, H7, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _)
  isplitl [H6]; · iexists _; iexact H6
  iexists _; iexact H7

set_option maxHeartbeats 4800000 in
/-- The body at a middle block: the inputs' buffers hold their blocks, the invariant hands the body the two scratch rows
    (at what the block before left), the case's run applies, and the scratch rows are taken back at this point's contents. -/
theorem sound_body0_B (c : Dev nD) (t : Fin cfg0.N) (h0 : t.val ≠ 0) (h1 : t.val ≠ 9) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : ¬cond0_0 (grid0.coords t) := fun h => h0 ((hcond0_0 t).mp h)
  have hc1 : ¬cond0_1 (grid0.coords t) := fun h => h1 ((hcond0_1 t).mp h)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t hc1) (noFlush0_6 t hc1)]
  rw [Dat.leavesExact_idle (dat0 V c) 7 t (idleAt0_7 t hc1) (noFlush0_7 t hc1)]
  rw [lin0_B V c t h0 h1, sAt0_B V c t h0 h1]
  unfold out0_B_5 sout0_B_0 sout0_B_1; (try dsimp only)
  rw [PhiS0_castSucc V c t, PhiS0_pos V c _ _ h0]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, ⟨%e5, H5⟩, H6, H7, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _ _ _ _ _ _ _ _)
  isplitl [H6]; · iexists _; iexact H6
  iexists _; iexact H7

set_option maxHeartbeats 4800000 in
/-- The body at the last block: the inputs' buffers hold their blocks, the invariant hands the body the two scratch rows
    (at what the block before left), the case's run applies, and the scratch rows are taken back at this point's contents. -/
theorem sound_body0_C (c : Dev nD) (t : Fin cfg0.N) (h0 : t.val ≠ 0) (h1 : t.val = 9) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : ¬cond0_0 (grid0.coords t) := fun h => h0 ((hcond0_0 t).mp h)
  have hc1 : cond0_1 (grid0.coords t) := (hcond0_1 t).mpr h1
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t hc1], after0_6]
  rw [show (dat0 V c).leavesExact 7 t = owns (c : Thread nD τ) (ms0_7 t) fullShare ((dat0 V c).after 7 t) from by
    unfold Dat.leavesExact; rw [liveAt0_7 t hc1], after0_7]
  rw [lin0_C V c t h0 h1, mean0_C V c t h0 h1, var0_C V c t h0 h1, sAt0_C V c t h0 h1]
  unfold out0_C_5 out0_C_6 out0_C_7 sout0_C_0 sout0_C_1; (try dsimp only)
  rw [PhiS0_castSucc V c t, PhiS0_pos V c _ _ h0]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _)

/-- The body at any point: by cases on whether it is the first block, the last, or one between. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_A V c t h0
  · by_cases h1 : t.val = 9
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The region's record, in the form the run over the regions takes -/

theorem hA0 : ∀ (V : (c : Dev nD) → (b : Ref sig .tc) → Buf (Elt F) ((c : Thread nD τ).loc b)) (c : Dev nD) (w : Fin cfg0.W),
    (dat0 V c).A w = V c (Pipeline.arrRef spec0 w) := fun V c w => A_eq0 V c w
theorem hq0 : ∀ (V : (c : Dev nD) → (b : Ref sig .tc) → Buf (Elt F) ((c : Thread nD τ).loc b)) (c : Dev nD) (w : Fin cfg0.W),
    (dat0 V c).q w = fullShare := fun _ _ _ => rfl
theorem ho0 : ∀ (V : (c : Dev nD) → (b : Ref sig .tc) → Buf (Elt F) ((c : Thread nD τ).loc b)) (c : Dev nD) (t : Fin (cfg0.N + 1)),
    (dat0 V c).owed t = 0 := fun _ _ _ => rfl
theorem hr0 : ∀ (V : (c : Dev nD) → (b : Ref sig .tc) → Buf (Elt F) ((c : Thread nD τ).loc b)) (c : Dev nD),
    (dat0 V c).recorded 0 = Set.univ := fun _ _ => rfl
theorem hbody0 : ∀ (V : (c : Dev nD) → (b : Ref sig .tc) → Buf (Elt F) ((c : Thread nD τ).loc b)) (c : Dev nD),
    BodyObligation (dat0 (F := F) V c) (defs₀ (F := F)) Variants.none () Set.univ := fun V c => body_obligation0 V c

end Cert.Kernel.Hand

end
-- ==== Proof.K.Norm1.lean ====
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

/-! # The normalising region 1: what one grid point does to the staged blocks

Region 1 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out1_5` of the five input blocks. -/

-- deciding that the one stored rectangle is the whole 5000-row block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data over `V`'s array whose body leaves the block in place, the staging buffer the
    body is handed at `t` holds the block at `t` — moved in at `t`, or left there by an earlier point with the same
    block index. The window is never clipped and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data over `V`'s array whose body leaves the block in place, the staging buffer the
    body is handed at `t` holds the block at `t` — moved in at `t`, or left there by an earlier point with the same
    block index. The window is never clipped and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data over `V`'s array whose body leaves the block in place, the staging buffer the
    body is handed at `t` holds the block at `t` — moved in at `t`, or left there by an earlier point with the same
    block index. The window is never clipped and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: for any proof data over `V`'s array whose body leaves the block in place, the staging buffer the
    body is handed at `t` holds the block at `t` — moved in at `t`, or left there by an earlier point with the same
    block index. The window is never clipped and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: for any proof data over `V`'s array whose body leaves the block in place, the staging buffer the
    body is handed at `t` holds the block at `t` — moved in at `t`, or left there by an earlier point with the same
    block index. The window is never clipped and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a [1,256] row buffer. -/
abbrev r1_0 : Rect S1x256 := Rect.unit (s := S1x256) ![0, 0] S1x256.size inb_S1x256_S1x256_0_0
/-- The whole of a [5000,256] block buffer. -/
abbrev r1_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out1_5 (x0 : Vec F S5000x256 .f32) (x1 : Vec F S1x256 .f32) (x2 : Vec F S1x256 .f32) (x3 : Vec F S1x256 .f32) (x4 : Vec F S1x256 .f32) : Vec F S5000x256 .f32 :=
  View.canon [⟨r1_1, k1_pay1 (View.ld x3 r1_0) (View.ld x2 r1_0) (View.ld x0 r1_1) (View.ld x1 r1_0) (View.ld x4 r1_0)⟩]

/-- The one stored rectangle is the whole buffer, so every index of the buffer lies in it. -/
theorem cover1_5 (p0 : Vec F S5000x256 .f32) (y : S5000x256.Idx) :
    ∃ pc ∈ ([⟨r1_1, p0⟩] : List (View.Piece (Elt F) S5000x256 .f32)), y ∈ pc.1.set :=
  View.cover_of_tiled [⟨r1_1, p0⟩] S5000x256.size (by rfl) y

/-! ## The body's triple -/

set_option maxHeartbeats 1000000 in
/-- The body on whole staging buffers — the five inputs at contents `x0 … x4`, the output at anything — runs to the
    end, returns the inputs as they were and leaves the output at `out1_5 x0 x1 x2 x3 x4`: five whole-buffer loads,
    a pointwise computation, one whole-buffer store. -/
theorem sound_kernel1 (c : Dev nD) (E : Set ℕ) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of region 1 on core `c`: the arrays as the region finds them; after the body at point `t` every
    input buffer still at its block and the output buffer at `out1_5` of the five input blocks; the invariant keeps
    everything else untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the loop has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation1 (c : Dev nD) : BodyObligation (dat1 (F := F) V c) (defs₀ (F := F)) Variants.none () Set.univ := fun t => by
  rw [bigSep_W1, bigSep_W1]
  exact sound_body1 V c t

/-! ## What the staged loop's run asks of the proof data besides the body -/

/-- Every window is held at the full share. -/
theorem q_eq1 (c : Dev nD) (w : Fin cfg1.W) : (dat1 V c).q w = fullShare := rfl

/-- No point owes anything. -/
theorem owed_eq1 (c : Dev nD) (t) : (dat1 V c).owed t = 0 := rfl

/-- Every waiting pair counts as recorded from the first point on. -/
theorem rec_eq1 (c : Dev nD) : (dat1 V c).recorded 0 = Set.univ := rfl

/-- The invariant is the same at every point — the region's scoped buffers other than the staging ones, and the
    generator register, untouched — so it is entered from, and left to, exactly that. -/
theorem Φ_in1 (c : Dev nD) : Pipeline.ΦA (U := UR sig nD τ) (Val := Elt F) spec1 c ⊢ (dat1 V c).Φ 0 := .rfl
theorem Φ_out1 (c : Dev nD) : (dat1 V c).Φ (Fin.last cfg1.N) ⊢ Pipeline.ΦA (U := UR sig nD τ) (Val := Elt F) spec1 c := .rfl

end Cert.Kernel.Hand

end
-- ==== Proof.K.Lin2Base.lean ====
/-
  Linear layer with running column statistics, second hidden layer (kernel region 2): what the three control
  cases of the body are stated over.

  The body at grid point t (ten points, one per block of 5000 rows) computes
      lin_t = agg_t · Wl + bl + h_t · Wr          (a 5000 × 256 block),
  stores it into the output block t, and adds to two rows of 256 numbers kept between points
      s ← s + Σ_rows lin_t ,      q ← q + Σ_rows lin_t² .
  At the first point the two rows are first set to zero; at the last point the body also writes
      mean = s / 50000 ,   var = q / 50000 − mean² .
  So the body has two conditions on the point (first? last?) and three cases actually met:
  A (first, not last), B (neither), C (last, not first).
-/
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- Window `w`'s block at point `t`, read off its array at the contents `V` the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every point, whether the point fetched it or not
    (an unfetched point has the block index of the point before), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every point, whether the point fetched it or not
    (an unfetched point has the block index of the point before), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every point, whether the point fetched it or not
    (an unfetched point has the block index of the point before), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every point, whether the point fetched it or not
    (an unfetched point has the block index of the point before), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every point, whether the point fetched it or not
    (an unfetched point has the block index of the point before), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the ten points -/

/-- "This is the first point": the body's first branch, as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the body's second branch. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where a window is idle: mean and var are stored at the last point only -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point nothing is stored into window 6, and its block is not written back there. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
/-- Away from the last point nothing is stored into window 7, and its block is not written back there. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The memrefs the body is called with -/

abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
/-- The two rows kept between points: whole scoped buffers of the kernel's own (the running sum, the running sum of squares). -/
abbrev scM2_0 : Memref sig .tc .vmem S1x256 .f32 := Memref.whole cc2_scratch0
abbrev scM2_1 : Memref sig .tc .vmem S1x256 .f32 := Memref.whole cc2_scratch1
/-- Views through which the contents of the outputs and of the two rows are stated (which buffer of a window is
    chosen does not matter: a cover of the shape reads back the same through any whole view). -/
abbrev VO2_5 : View sig .tc .vmem S5000x256 .f32 := (Memref.whole cc2_stg5_0 : Memref sig .tc .vmem S5000x256 .f32).view
abbrev VO2_6 : View sig .tc .vmem S1x256 .f32 := (Memref.whole cc2_stg6_0 : Memref sig .tc .vmem S1x256 .f32).view
abbrev VO2_7 : View sig .tc .vmem S1x256 .f32 := (Memref.whole cc2_stg7_0 : Memref sig .tc .vmem S1x256 .f32).view
abbrev VS2_0 : View sig .tc .vmem S1x256 .f32 := scM2_0.view
abbrev VS2_1 : View sig .tc .vmem S1x256 .f32 := scM2_1.view

/-- The scoped buffers no window stages, with the two rows taken out as memrefs owned at some contents each and
    every other scoped buffer left unopened. -/
theorem scopedRest2_rows (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

end Cert.Kernel.Hand

end
-- ==== Proof.K.Lin2RunA.lean ====
/-
  The body of the linear layer with running statistics at the FIRST point (case A: first, not last).

  On whole memrefs — the five inputs at given contents, the output block at anything, mean and var at contents that are
  handed back untouched, the two kept rows at anything — the body runs to its end and leaves: the inputs as they
  were; the output block covered by one store of  agg·Wl + bl + h·Wr ; the row of sums covered twice (zero, then
  zero + the column sums of the block), the row of sums of squares likewise. The lists of stores are found by running
  the body; nothing the body computes is restated here.
-/
import proofs.«144042_j23673859736035_1_alg».proof.Proof.K.Lin2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of region 2's body as a triple, with the stores each written buffer ends with (last first). -/
noncomputable def kernelRun2_A (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond2_0 i) (hc1 : ¬cond2_1 i)
    (x0 : Vec F S5000x256 .f32) (x1 : Vec F S5000x256 .f32) (x2 : Vec F S256x256 .f32) (x3 : Vec F S256x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.Lin2RunB.lean ====
/-
  The body of the linear layer with running statistics at a MIDDLE point (case B: neither first nor last).

  As at the first point, but the two kept rows come in at the contents the point before left (s, q) and go out
  covered by one store each:  s + the column sums of the block,  q + the column sums of its squares.
  Mean and var are handed back untouched.
-/
import proofs.«144042_j23673859736035_1_alg».proof.Proof.K.Lin2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of region 2's body as a triple, with the stores each written buffer ends with (last first). -/
noncomputable def kernelRun2_B (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond2_0 i) (hc1 : ¬cond2_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.Lin2RunC.lean ====
/-
  The body of the linear layer with running statistics at the LAST point (case C: last, not first).

  As at a middle point, and then the body reads the two kept rows back (s, q after this block was added) and stores
      mean = s / 50000      into window 6,
      var  = q / 50000 − mean²   into window 7,
  each by one store covering its row. Both output rows may hold anything when the body starts.
-/
import proofs.«144042_j23673859736035_1_alg».proof.Proof.K.Lin2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of region 2's body as a triple, with the stores each written buffer ends with (last first). -/
noncomputable def kernelRun2_C (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond2_0 i) (hc1 : cond2_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.K.Lin2Out.lean ====
/-
  What each control case of region 2's body leaves in the buffers it stores into, and that each such buffer is
  covered by the case's stores — so that its contents after the body do not depend on what it held before.

  Per case the contents are stated as "the case's stores read back over arbitrary contents": the block of the linear
  layer (window 5), the row of sums and the row of sums of squares (the two kept rows), and, at the last point only,
  mean (window 6) and var (window 7).
-/
import proofs.«144042_j23673859736035_1_alg».proof.Proof.K.Lin2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32)

/-! ### Case A: the first point -/

theorem cover2_A_5 (hc0 : cond2_0 i) (hc1 : ¬cond2_1 i) (y : S5000x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- The block of the linear layer the first point leaves in window 5. -/
def lin2_A (hc0 : cond2_0 i) (hc1 : ¬cond2_1 i) : Vec F S5000x256 .f32 :=
  VO2_5.read (Elt F) (VO2_5.writes (Elt F) VO2_5.junk (kernelRun2_A (F := F) c i arg1 harg1 arg2 harg2 arg3 harg3 arg4 harg4 arg5 harg5 arg6 harg6 arg7 harg7 arg8 harg8 arg9 harg9 arg10 harg10 hc0 hc1 x0 x1 x2 x3 x4).1)

theorem scover2_A_0 (hc0 : cond2_0 i) (hc1 : ¬cond2_1 i) (y : S1x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The row of sums after the first point. -/
def sum2_A (hc0 : cond2_0 i) (hc1 : ¬cond2_1 i) : Vec F S1x256 .f32 :=
  VS2_0.read (Elt F) (VS2_0.writes (Elt F) VS2_0.junk (kernelRun2_A (F := F) c i arg1 harg1 arg2 harg2 arg3 harg3 arg4 harg4 arg5 harg5 arg6 harg6 arg7 harg7 arg8 harg8 arg9 harg9 arg10 harg10 hc0 hc1 x0 x1 x2 x3 x4).2.1)

theorem scover2_A_1 (hc0 : cond2_0 i) (hc1 : ¬cond2_1 i) (y : S1x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- The row of sums of squares after the first point. -/
def sq2_A (hc0 : cond2_0 i) (hc1 : ¬cond2_1 i) : Vec F S1x256 .f32 :=
  VS2_1.read (Elt F) (VS2_1.writes (Elt F) VS2_1.junk (kernelRun2_A (F := F) c i arg1 harg1 arg2 harg2 arg3 harg3 arg4 harg4 arg5 harg5 arg6 harg6 arg7 harg7 arg8 harg8 arg9 harg9 arg10 harg10 hc0 hc1 x0 x1 x2 x3 x4).2.2.1)

/-! ### Case B: a middle point, from the rows `xs0`, `xs1` the point before left -/

variable (xs0 : Vec F S1x256 .f32) (xs1 : Vec F S1x256 .f32)

theorem cover2_B_5 (hc0 : ¬cond2_0 i) (hc1 : ¬cond2_1 i) (y : S5000x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin2_B (hc0 : ¬cond2_0 i) (hc1 : ¬cond2_1 i) : Vec F S5000x256 .f32 :=
  VO2_5.read (Elt F) (VO2_5.writes (Elt F) VO2_5.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover2_B_0 (hc0 : ¬cond2_0 i) (hc1 : ¬cond2_1 i) (y : S1x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

def sum2_B (hc0 : ¬cond2_0 i) (hc1 : ¬cond2_1 i) : Vec F S1x256 .f32 :=
  VS2_0.read (Elt F) (VS2_0.writes (Elt F) VS2_0.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover2_B_1 (hc0 : ¬cond2_0 i) (hc1 : ¬cond2_1 i) (y : S1x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

def sq2_B (hc0 : ¬cond2_0 i) (hc1 : ¬cond2_1 i) : Vec F S1x256 .f32 :=
  VS2_1.read (Elt F) (VS2_1.writes (Elt F) VS2_1.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

/-! ### Case C: the last point; mean and var are stored too -/

theorem cover2_C_5 (hc0 : ¬cond2_0 i) (hc1 : cond2_1 i) (y : S5000x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin2_C (hc0 : ¬cond2_0 i) (hc1 : cond2_1 i) : Vec F S5000x256 .f32 :=
  VO2_5.read (Elt F) (VO2_5.writes (Elt F) VO2_5.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover2_C_6 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The mean row the last point stores into window 6. -/
def mean2_C (hc0 : ¬cond2_0 i) (hc1 : cond2_1 i) : Vec F S1x256 .f32 :=
  VO2_6.read (Elt F) (VO2_6.writes (Elt F) VO2_6.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover2_C_7 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The variance row the last point stores into window 7. -/
def var2_C (hc0 : ¬cond2_0 i) (hc1 : cond2_1 i) : Vec F S1x256 .f32 :=
  VO2_7.read (Elt F) (VO2_7.writes (Elt F) VO2_7.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover2_C_0 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

def sum2_C (hc0 : ¬cond2_0 i) (hc1 : cond2_1 i) : Vec F S1x256 .f32 :=
  VS2_0.read (Elt F) (VS2_0.writes (Elt F) VS2_0.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover2_C_1 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

def sq2_C (hc0 : ¬cond2_0 i) (hc1 : cond2_1 i) : Vec F S1x256 .f32 :=
  VS2_1.read (Elt F) (VS2_1.writes (Elt F) VS2_1.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end Cases

/-- A placeholder for mean and var at the points that do not store them: there the window is idle and not written
    back, so nothing reads this. -/
def unset2 : Vec F S1x256 .f32 := VO2_6.read (Elt F) VO2_6.junk

end Cert.Kernel.Hand

end
-- ==== Proof.K.Lin2.lean ====
/-
  Region 2 (linear layer with running column statistics): what the written buffers hold point by point, the
  invariant carried between points, the proof data of the pipeline and the body obligation.

  Write  lin_t  for the block  agg_t · Wl + bl + h_t · Wr  of point t. After the body at point t
      window 5 holds  lin_t ,
      the row of sums holds          s_t = Σ_{u ≤ t} (column sums of lin_u)        (starting from zero at t = 0),
      the row of sums of squares     q_t = Σ_{u ≤ t} (column sums of lin_u²) ,
  and after the last point window 6 holds  s_9 / 50000  and window 7  q_9 / 50000 − (s_9 / 50000)² .
  The two rows are buffers of the kernel's own that no window stages: between points they are held by the invariant,
  at exactly  (s_{t−1}, q_{t−1})  before point t > 0, at anything before point 0.
-/
import proofs.«144042_j23673859736035_1_alg».proof.Proof.K.Lin2Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the written buffers hold after each point -/

/-- No point after the first is a first point (ten points, numbered 0 … 9). -/
theorem notFirst2 (n : ℕ) (hn : n + 1 < cfg2.N) : ¬(n + 1) % 10 = 0 := by
  have hN : n + 1 < 10 := lt_of_lt_of_eq hn (show cfg2.N = 10 from N_2); omega

/-- THE ACCUMULATION. After the body at position `n`: the block of window 5, mean, var, the row of sums, the row of
    sums of squares — by recursion on the point: position 0 is case A; a later position is case C when it is the
    last and case B otherwise, each started from the two rows the position before left. Mean and var are a
    placeholder away from the last point. -/
def outsAt2 (c : Dev nD) : (n : ℕ) → n < cfg2.N → Vec F S5000x256 .f32 × Vec F S1x256 .f32 × Vec F S1x256 .f32 × Vec F S1x256 .f32 × Vec F S1x256 .f32
  | 0, hn => (lin2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)), unset2, unset2,
      sum2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)),
      sq2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)))
  | n + 1, hn =>
    if h1 : (n + 1) % 10 = 9 then
      (lin2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       mean2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       var2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       sum2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       sq2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1))
    else
      (lin2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)), unset2, unset2,
       sum2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)),
       sq2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)))

/-- The two kept rows after point `t`: (sums, sums of squares). -/
def sAt2 (c : Dev nD) (t : Fin cfg2.N) : Vec F S1x256 .f32 × Vec F S1x256 .f32 :=
  ((outsAt2 V c t.val t.isLt).2.2.2.1, (outsAt2 V c t.val t.isLt).2.2.2.2)

/-- `outsAt2` at the first point. -/
theorem outsAt2_A (c : Dev nD) (t : Fin cfg2.N) (h0 : t.val % 10 = 0) (h1 : ¬t.val % 10 = 9) :
    outsAt2 V c t.val t.isLt = (lin2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h)), unset2, unset2,
      sum2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h)),
      sq2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h))) := by
  obtain ⟨n, hn⟩ := t
  cases n with
  | zero => exact rfl
  | succ n => exact absurd h0 (notFirst2 n hn)

/-- `outsAt2` at a middle point, over what the point before left. -/
theorem outsAt2_B (c : Dev nD) (t : Fin cfg2.N) (h0 : ¬t.val % 10 = 0) (h1 : ¬t.val % 10 = 9) :
    outsAt2 V c t.val t.isLt = (lin2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h)), unset2, unset2,
      sum2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h)),
      sq2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h))) := by
  obtain ⟨n, hn⟩ := t
  cases n with
  | zero => exact (by exfalso; (try dsimp only at h0); exact absurd (Nat.zero_mod _) h0)
  | succ n => exact (dif_neg h1).trans rfl

/-- `outsAt2` at the last point, over what the point before left. -/
theorem outsAt2_C (c : Dev nD) (t : Fin cfg2.N) (h0 : ¬t.val % 10 = 0) (h1 : t.val % 10 = 9) :
    outsAt2 V c t.val t.isLt = (lin2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      mean2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      var2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      sum2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      sq2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1)) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start the scoped buffers no window stages, each at anything; afterwards the same
    with the two kept rows at exactly what position `n − 1` left, every other such buffer still unopened. -/
def Phi2 (c : Dev nD) : (n : ℕ) → n ≤ cfg2.N → sProp 𝕄
  | 0, _ => (Pipeline.scopedRest (Ix := Unit) (Name := ℕ) (U := UR sig nD τ) (Lvl := ℕ) (Val := Elt F) spec2 c : sProp 𝕄)
  | n + 1, hn => iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1])

theorem Phi2_zero (c : Dev nD) (n : ℕ) (h : n ≤ cfg2.N) (hz : n = 0) : Phi2 V c n h = (Pipeline.scopedRest (Ix := Unit) (Name := ℕ) (U := UR sig nD τ) (Lvl := ℕ) (Val := Elt F) spec2 c : sProp 𝕄) := by
  subst hz; rfl

theorem Phi2_succ (c : Dev nD) (n : ℕ) (hn : n < cfg2.N) :
    Phi2 V c (n + 1) hn = iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) := rfl

theorem Phi2_pos (c : Dev nD) (n : ℕ) (h : n ≤ cfg2.N) (hz : n ≠ 0) :
    Phi2 V c n h = iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The proof data -/

/-- The proof data of region 2's pipeline on core `c`: the windows' arrays at the contents `V` the region is
    entered with; after the body at a point each input's buffer at its block, window 5 at the linear block, windows
    6 and 7 at mean and var (`outsAt2`); the invariant `Phi2`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem rec_eq2 (c : Dev nD) : (dat2 V c).recorded 0 = Set.univ := rfl

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## What the invariant takes from, and gives back to, the scoped rest -/

/-- Entering the region: the scoped buffers no window stages ARE the invariant before the first point. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

/-- Leaving it: after the last point the two rows' contents are forgotten and the scoped rest is whole again. -/
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), scopedRest2_rows]
  iintro ⟨⟨HS0, HS1⟩, Hr⟩
  isplitl [HS0 HS1]
  · isplitl [HS0]
    · iexists _; iexact HS0
    iexists _; iexact HS1
  iexact Hr

end Cert.Kernel.Hand

end
-- ==== Proof.K.Lin2Body.lean ====
/-
  Region 2: the body obligation. At every point, from the invariant, what the core owes and each window's current
  buffer at what it then holds, the body runs to the invariant of the next point and each buffer at what the proof
  data says it leaves. The point is the first, a middle one or the last (ten points); in each case the body's triple
  of that case applies: the inputs' buffers hold their blocks, the two kept rows come out of the invariant (at anything
  at the first point, at what the point before left afterwards) and go back into it at this point's contents, and
  every buffer the body stores into is covered by its stores, so that what it holds afterwards is what the stores
  read back.
-/
import proofs.«144042_j23673859736035_1_alg».proof.Proof.K.Lin2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  have hN : t.val < 10 := lt_of_lt_of_eq t.isLt (show cfg2.N = 10 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  by_cases h0 : t.val % 10 = 0
  · -- the first point
    have h1 : ¬t.val % 10 = 9 := by omega
    have hz : t.val = 0 := by omega
    rw [Dat.leavesExact_idle (dat2 V c) 6 t (idleAt2_6 t (fun h => h1 ((hcond2_1 t).mp h))) (noFlush2_6 t (fun h => h1 ((hcond2_1 t).mp h))),
      Dat.leavesExact_idle (dat2 V c) 7 t (idleAt2_7 t (fun h => h1 ((hcond2_1 t).mp h))) (noFlush2_7 t (fun h => h1 ((hcond2_1 t).mp h)))]
    rw [outsAt2_A V c t h0 h1]
    unfold lin2_A sum2_A sq2_A; (try dsimp only)
    rw [Phi2_castSucc V c t, Phi2_zero V c _ _ hz, scopedRest2_rows]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hr]
    · isplitl [HS0 HS1]
      · isplitl [HS0]
        · unfold owns; iexists _; isplitr
          swap; · iexact HS0
          ipureintro; exact View.read_writes_of_cover _ _ _ _ _ (scover2_A_0 c (grid2.coords t) _ _ _ _ _ _ _ _ _ _ _ _ _ _ _ _ _ _ _ _ _ _ _ _ _ _ _)
        unfold owns; iexists _; isplitr
        swap; · iexact HS1
        ipureintro; exact View.read_writes_of_cover _ _ _ _ _ (scover2_A_1 c (grid2.coords t) _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c (grid2.coords t) _ _ _ _ _ _ _ _ _ _ _ _ _ _ _ _ _ _ _ _ _ _ _ _ _ _ _)
    isplitl [H6]; · iexists _; iexact H6
    iexists _; iexact H7
  · have hz : t.val ≠ 0 := fun h => h0 (by rw [h])
    by_cases h1 : t.val % 10 = 9
    · -- the last point
      rw [show (dat2 V c).leavesExact 6 t = owns (c : Thread nD τ) (ms2_6 t) fullShare ((dat2 V c).after 6 t) from by
          unfold Dat.leavesExact; rw [liveAt2_6 t ((hcond2_1 t).mpr h1)], after2_6]
      rw [show (dat2 V c).leavesExact 7 t = owns (c : Thread nD τ) (ms2_7 t) fullShare ((dat2 V c).after 7 t) from by
          unfold Dat.leavesExact; rw [liveAt2_7 t ((hcond2_1 t).mpr h1)], after2_7]
      rw [outsAt2_C V c t h0 h1]
      unfold lin2_C mean2_C var2_C sum2_C sq2_C; (try dsimp only)
      rw [Phi2_castSucc V c t, Phi2_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover2_C_0 c (grid2.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c (grid2.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c (grid2.coords t) _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c (grid2.coords t) _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c (grid2.coords t) _ _ _ _ _ _ _ _ _ _ _ _ _ _ _ _ _ _ _ _ _ _ _ _ _ _ _ _ _)
    · -- a middle point
      rw [Dat.leavesExact_idle (dat2 V c) 6 t (idleAt2_6 t (fun h => h1 ((hcond2_1 t).mp h))) (noFlush2_6 t (fun h => h1 ((hcond2_1 t).mp h))),
        Dat.leavesExact_idle (dat2 V c) 7 t (idleAt2_7 t (fun h => h1 ((hcond2_1 t).mp h))) (noFlush2_7 t (fun h => h1 ((hcond2_1 t).mp h)))]
      rw [outsAt2_B V c t h0 h1]
      unfold lin2_B sum2_B sq2_B; (try dsimp only)
      rw [Phi2_castSucc V c t, Phi2_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover2_B_0 c (grid2.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c (grid2.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c (grid2.coords t) _ _ _ _ _ _ _ _ _ _ _ _ _ _ _ _ _ _ _ _ _ _ _ _ _ _ _ _ _)
      isplitl [H6]; · iexists _; iexact H6
      iexists _; iexact H7

/-- The body obligation of region 2's pipeline, at every point. -/
theorem body_obligation2 (c : Dev nD) : BodyObligation (dat2 (F := F) V c) (defs₀ (F := F)) Variants.none () Set.univ := fun t => by
  rw [bigSep_W2, bigSep_W2]
  exact sound_body2 V c t

/-! ## The region's data as the assembly takes it -/

theorem hA2 : ∀ (V : (c : Dev nD) → (b : Ref sig .tc) → Buf (Elt F) ((c : Thread nD τ).loc b)) (c : Dev nD) (w : Fin cfg2.W),
    (dat2 V c).A w = V c (Pipeline.arrRef spec2 w) := fun V c w => A_eq2 V c w
theorem hq2 : ∀ (V : (c : Dev nD) → (b : Ref sig .tc) → Buf (Elt F) ((c : Thread nD τ).loc b)) (c : Dev nD) (w : Fin cfg2.W),
    (dat2 V c).q w = fullShare := fun _ _ _ => rfl
theorem ho2 : ∀ (V : (c : Dev nD) → (b : Ref sig .tc) → Buf (Elt F) ((c : Thread nD τ).loc b)) (c : Dev nD) (t : Fin (cfg2.N + 1)),
    (dat2 V c).owed t = 0 := fun _ _ _ => rfl
theorem hr2 : ∀ (V : (c : Dev nD) → (b : Ref sig .tc) → Buf (Elt F) ((c : Thread nD τ).loc b)) (c : Dev nD),
    (dat2 V c).recorded 0 = Set.univ := fun _ _ => rfl
theorem hbody2 : ∀ (V : (c : Dev nD) → (b : Ref sig .tc) → Buf (Elt F) ((c : Thread nD τ).loc b)) (c : Dev nD),
    BodyObligation (dat2 (F := F) V c) (defs₀ (F := F)) Variants.none () Set.univ := fun V c => body_obligation2 V c

end Cert.Kernel.Hand

end
-- ==== Proof.K.Norm3.lean ====
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

/-! # The normalising region 3: what one grid point does to the staged blocks

Region 3 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out3_5` of the five input blocks. -/

-- deciding that the one stored rectangle is the whole 5000-row block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data over `V`'s array whose body leaves the block in place, the staging buffer the
    body is handed at `t` holds the block at `t` — moved in at `t`, or left there by an earlier point with the same
    block index. The window is never clipped and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: for any proof data over `V`'s array whose body leaves the block in place, the staging buffer the
    body is handed at `t` holds the block at `t` — moved in at `t`, or left there by an earlier point with the same
    block index. The window is never clipped and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: for any proof data over `V`'s array whose body leaves the block in place, the staging buffer the
    body is handed at `t` holds the block at `t` — moved in at `t`, or left there by an earlier point with the same
    block index. The window is never clipped and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: for any proof data over `V`'s array whose body leaves the block in place, the staging buffer the
    body is handed at `t` holds the block at `t` — moved in at `t`, or left there by an earlier point with the same
    block index. The window is never clipped and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: for any proof data over `V`'s array whose body leaves the block in place, the staging buffer the
    body is handed at `t` holds the block at `t` — moved in at `t`, or left there by an earlier point with the same
    block index. The window is never clipped and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a [1,256] row buffer. -/
abbrev r3_0 : Rect S1x256 := Rect.unit (s := S1x256) ![0, 0] S1x256.size inb_S1x256_S1x256_0_0
/-- The whole of a [5000,256] block buffer. -/
abbrev r3_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out3_5 (x0 : Vec F S5000x256 .f32) (x1 : Vec F S1x256 .f32) (x2 : Vec F S1x256 .f32) (x3 : Vec F S1x256 .f32) (x4 : Vec F S1x256 .f32) : Vec F S5000x256 .f32 :=
  View.canon [⟨r3_1, k3_pay1 (View.ld x3 r3_0) (View.ld x2 r3_0) (View.ld x0 r3_1) (View.ld x1 r3_0) (View.ld x4 r3_0)⟩]

/-- The one stored rectangle is the whole buffer, so every index of the buffer lies in it. -/
theorem cover3_5 (p0 : Vec F S5000x256 .f32) (y : S5000x256.Idx) :
    ∃ pc ∈ ([⟨r3_1, p0⟩] : List (View.Piece (Elt F) S5000x256 .f32)), y ∈ pc.1.set :=
  View.cover_of_tiled [⟨r3_1, p0⟩] S5000x256.size (by rfl) y

/-! ## The body's triple -/

set_option maxHeartbeats 1000000 in
/-- The body on whole staging buffers — the five inputs at contents `x0 … x4`, the output at anything — runs to the
    end, returns the inputs as they were and leaves the output at `out3_5 x0 x1 x2 x3 x4`: five whole-buffer loads,
    a pointwise computation, one whole-buffer store. -/
theorem sound_kernel3 (c : Dev nD) (E : Set ℕ) (i : grid3.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of region 3 on core `c`: the arrays as the region finds them; after the body at point `t` every
    input buffer still at its block and the output buffer at `out3_5` of the five input blocks; the invariant keeps
    everything else untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point, moved in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's debts, and each window's current staging
    buffer at what the loop has put there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the same, each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation3 (c : Dev nD) : BodyObligation (dat3 (F := F) V c) (defs₀ (F := F)) Variants.none () Set.univ := fun t => by
  rw [bigSep_W3, bigSep_W3]
  exact sound_body3 V c t

/-! ## What the staged loop's run asks of the proof data besides the body -/

/-- Every window is held at the full share. -/
theorem q_eq3 (c : Dev nD) (w : Fin cfg3.W) : (dat3 V c).q w = fullShare := rfl

/-- No point owes anything. -/
theorem owed_eq3 (c : Dev nD) (t) : (dat3 V c).owed t = 0 := rfl

/-- Every waiting pair counts as recorded from the first point on. -/
theorem rec_eq3 (c : Dev nD) : (dat3 V c).recorded 0 = Set.univ := rfl

/-- The invariant is the same at every point — the region's scoped buffers other than the staging ones, and the
    generator register, untouched — so it is entered from, and left to, exactly that. -/
theorem Φ_in3 (c : Dev nD) : Pipeline.ΦA (U := UR sig nD τ) (Val := Elt F) spec3 c ⊢ (dat3 V c).Φ 0 := .rfl
theorem Φ_out3 (c : Dev nD) : (dat3 V c).Φ (Fin.last cfg3.N) ⊢ Pipeline.ΦA (U := UR sig nD τ) (Val := Elt F) spec3 c := .rfl

end Cert.Kernel.Hand

end
-- ==== Proof.K.Lin4Base.lean ====
/-
  Linear layer with running column statistics, third hidden layer (kernel region 4): what the three control
  cases of the body are stated over.

  The body at grid point t (ten points, one per block of 5000 rows) computes
      lin_t = agg_t · Wl + bl + h_t · Wr          (a 5000 × 256 block),
  stores it into the output block t, and adds to two rows of 256 numbers kept between points
      s ← s + Σ_rows lin_t ,      q ← q + Σ_rows lin_t² .
  At the first point the two rows are first set to zero; at the last point the body also writes
      mean = s / 50000 ,   var = q / 50000 − mean² .
  So the body has two conditions on the point (first? last?) and three cases actually met:
  A (first, not last), B (neither), C (last, not first).
-/
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- Window `w`'s block at point `t`, read off its array at the contents `V` the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every point, whether the point fetched it or not
    (an unfetched point has the block index of the point before), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every point, whether the point fetched it or not
    (an unfetched point has the block index of the point before), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every point, whether the point fetched it or not
    (an unfetched point has the block index of the point before), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every point, whether the point fetched it or not
    (an unfetched point has the block index of the point before), for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every point, whether the point fetched it or not
    (an unfetched point has the block index of the point before), for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, in closed form over the ten points -/

/-- "This is the first point": the body's first branch, as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

/-- "This is the last point": the body's second branch. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-! ## Where a window is idle: mean and var are stored at the last point only -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Away from the last point nothing is stored into window 6, and its block is not written back there. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel
/-- Away from the last point nothing is stored into window 7, and its block is not written back there. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel

/-! ## The memrefs the body is called with -/

abbrev ms4_0 (t : Fin cfg4.N) : Memref sig .tc .vmem S5000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x256 .f32 := win4_7.stage (cfg4.slots t 7)
abbrev hs4_7 (t : Fin cfg4.N) : (ms4_7 t).IsWhole := hstage4_7 ((cfg4.slots t 7).cast nbuf4_7)
/-- The two rows kept between points: whole scoped buffers of the kernel's own (the running sum, the running sum of squares). -/
abbrev scM4_0 : Memref sig .tc .vmem S1x256 .f32 := Memref.whole cc4_scratch0
abbrev scM4_1 : Memref sig .tc .vmem S1x256 .f32 := Memref.whole cc4_scratch1
/-- Views through which the contents of the outputs and of the two rows are stated (which buffer of a window is
    chosen does not matter: a cover of the shape reads back the same through any whole view). -/
abbrev VO4_5 : View sig .tc .vmem S5000x256 .f32 := (Memref.whole cc4_stg5_0 : Memref sig .tc .vmem S5000x256 .f32).view
abbrev VO4_6 : View sig .tc .vmem S1x256 .f32 := (Memref.whole cc4_stg6_0 : Memref sig .tc .vmem S1x256 .f32).view
abbrev VO4_7 : View sig .tc .vmem S1x256 .f32 := (Memref.whole cc4_stg7_0 : Memref sig .tc .vmem S1x256 .f32).view
abbrev VS4_0 : View sig .tc .vmem S1x256 .f32 := scM4_0.view
abbrev VS4_1 : View sig .tc .vmem S1x256 .f32 := scM4_1.view

/-- The scoped buffers no window stages, with the two rows taken out as memrefs owned at some contents each and
    every other scoped buffer left unopened. -/
theorem scopedRest4_rows (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

end Cert.Kernel.Hand

end
-- ==== Proof.K.Lin4RunA.lean ====
/-
  The body of the linear layer with running statistics at the FIRST point (case A: first, not last).

  On whole memrefs — the five inputs at given contents, the output block at anything, mean and var at contents that are
  handed back untouched, the two kept rows at anything — the body runs to its end and leaves: the inputs as they
  were; the output block covered by one store of  agg·Wl + bl + h·Wr ; the row of sums covered twice (zero, then
  zero + the column sums of the block), the row of sums of squares likewise. The lists of stores are found by running
  the body; nothing the body computes is restated here.
-/
import proofs.«144042_j23673859736035_1_alg».proof.Proof.K.Lin4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of region 4's body as a triple, with the stores each written buffer ends with (last first). -/
noncomputable def kernelRun4_A (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond4_0 i) (hc1 : ¬cond4_1 i)
    (x0 : Vec F S5000x256 .f32) (x1 : Vec F S5000x256 .f32) (x2 : Vec F S256x256 .f32) (x3 : Vec F S256x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.Lin4RunB.lean ====
/-
  The body of the linear layer with running statistics at a MIDDLE point (case B: neither first nor last).

  As at the first point, but the two kept rows come in at the contents the point before left (s, q) and go out
  covered by one store each:  s + the column sums of the block,  q + the column sums of its squares.
  Mean and var are handed back untouched.
-/
import proofs.«144042_j23673859736035_1_alg».proof.Proof.K.Lin4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of region 4's body as a triple, with the stores each written buffer ends with (last first). -/
noncomputable def kernelRun4_B (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i) (hc1 : ¬cond4_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.Lin4RunC.lean ====
/-
  The body of the linear layer with running statistics at the LAST point (case C: last, not first).

  As at a middle point, and then the body reads the two kept rows back (s, q after this block was added) and stores
      mean = s / 50000      into window 6,
      var  = q / 50000 − mean²   into window 7,
  each by one store covering its row. Both output rows may hold anything when the body starts.
-/
import proofs.«144042_j23673859736035_1_alg».proof.Proof.K.Lin4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of region 4's body as a triple, with the stores each written buffer ends with (last first). -/
noncomputable def kernelRun4_C (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i) (hc1 : cond4_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.K.Lin4Out.lean ====
/-
  What each control case of region 4's body leaves in the buffers it stores into, and that each such buffer is
  covered by the case's stores — so that its contents after the body do not depend on what it held before.

  Per case the contents are stated as "the case's stores read back over arbitrary contents": the block of the linear
  layer (window 5), the row of sums and the row of sums of squares (the two kept rows), and, at the last point only,
  mean (window 6) and var (window 7).
-/
import proofs.«144042_j23673859736035_1_alg».proof.Proof.K.Lin4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32)

/-! ### Case A: the first point -/

theorem cover4_A_5 (hc0 : cond4_0 i) (hc1 : ¬cond4_1 i) (y : S5000x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- The block of the linear layer the first point leaves in window 5. -/
def lin4_A (hc0 : cond4_0 i) (hc1 : ¬cond4_1 i) : Vec F S5000x256 .f32 :=
  VO4_5.read (Elt F) (VO4_5.writes (Elt F) VO4_5.junk (kernelRun4_A (F := F) c i arg1 harg1 arg2 harg2 arg3 harg3 arg4 harg4 arg5 harg5 arg6 harg6 arg7 harg7 arg8 harg8 arg9 harg9 arg10 harg10 hc0 hc1 x0 x1 x2 x3 x4).1)

theorem scover4_A_0 (hc0 : cond4_0 i) (hc1 : ¬cond4_1 i) (y : S1x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The row of sums after the first point. -/
def sum4_A (hc0 : cond4_0 i) (hc1 : ¬cond4_1 i) : Vec F S1x256 .f32 :=
  VS4_0.read (Elt F) (VS4_0.writes (Elt F) VS4_0.junk (kernelRun4_A (F := F) c i arg1 harg1 arg2 harg2 arg3 harg3 arg4 harg4 arg5 harg5 arg6 harg6 arg7 harg7 arg8 harg8 arg9 harg9 arg10 harg10 hc0 hc1 x0 x1 x2 x3 x4).2.1)

theorem scover4_A_1 (hc0 : cond4_0 i) (hc1 : ¬cond4_1 i) (y : S1x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- The row of sums of squares after the first point. -/
def sq4_A (hc0 : cond4_0 i) (hc1 : ¬cond4_1 i) : Vec F S1x256 .f32 :=
  VS4_1.read (Elt F) (VS4_1.writes (Elt F) VS4_1.junk (kernelRun4_A (F := F) c i arg1 harg1 arg2 harg2 arg3 harg3 arg4 harg4 arg5 harg5 arg6 harg6 arg7 harg7 arg8 harg8 arg9 harg9 arg10 harg10 hc0 hc1 x0 x1 x2 x3 x4).2.2.1)

/-! ### Case B: a middle point, from the rows `xs0`, `xs1` the point before left -/

variable (xs0 : Vec F S1x256 .f32) (xs1 : Vec F S1x256 .f32)

theorem cover4_B_5 (hc0 : ¬cond4_0 i) (hc1 : ¬cond4_1 i) (y : S5000x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin4_B (hc0 : ¬cond4_0 i) (hc1 : ¬cond4_1 i) : Vec F S5000x256 .f32 :=
  VO4_5.read (Elt F) (VO4_5.writes (Elt F) VO4_5.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover4_B_0 (hc0 : ¬cond4_0 i) (hc1 : ¬cond4_1 i) (y : S1x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

def sum4_B (hc0 : ¬cond4_0 i) (hc1 : ¬cond4_1 i) : Vec F S1x256 .f32 :=
  VS4_0.read (Elt F) (VS4_0.writes (Elt F) VS4_0.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover4_B_1 (hc0 : ¬cond4_0 i) (hc1 : ¬cond4_1 i) (y : S1x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

def sq4_B (hc0 : ¬cond4_0 i) (hc1 : ¬cond4_1 i) : Vec F S1x256 .f32 :=
  VS4_1.read (Elt F) (VS4_1.writes (Elt F) VS4_1.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

/-! ### Case C: the last point; mean and var are stored too -/

theorem cover4_C_5 (hc0 : ¬cond4_0 i) (hc1 : cond4_1 i) (y : S5000x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin4_C (hc0 : ¬cond4_0 i) (hc1 : cond4_1 i) : Vec F S5000x256 .f32 :=
  VO4_5.read (Elt F) (VO4_5.writes (Elt F) VO4_5.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover4_C_6 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The mean row the last point stores into window 6. -/
def mean4_C (hc0 : ¬cond4_0 i) (hc1 : cond4_1 i) : Vec F S1x256 .f32 :=
  VO4_6.read (Elt F) (VO4_6.writes (Elt F) VO4_6.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover4_C_7 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The variance row the last point stores into window 7. -/
def var4_C (hc0 : ¬cond4_0 i) (hc1 : cond4_1 i) : Vec F S1x256 .f32 :=
  VO4_7.read (Elt F) (VO4_7.writes (Elt F) VO4_7.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover4_C_0 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

def sum4_C (hc0 : ¬cond4_0 i) (hc1 : cond4_1 i) : Vec F S1x256 .f32 :=
  VS4_0.read (Elt F) (VS4_0.writes (Elt F) VS4_0.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover4_C_1 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

def sq4_C (hc0 : ¬cond4_0 i) (hc1 : cond4_1 i) : Vec F S1x256 .f32 :=
  VS4_1.read (Elt F) (VS4_1.writes (Elt F) VS4_1.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end Cases

/-- A placeholder for mean and var at the points that do not store them: there the window is idle and not written
    back, so nothing reads this. -/
def unset4 : Vec F S1x256 .f32 := VO4_6.read (Elt F) VO4_6.junk

end Cert.Kernel.Hand

end
-- ==== Proof.K.Lin4.lean ====
/-
  Region 4 (linear layer with running column statistics): what the written buffers hold point by point, the
  invariant carried between points, the proof data of the pipeline and the body obligation.

  Write  lin_t  for the block  agg_t · Wl + bl + h_t · Wr  of point t. After the body at point t
      window 5 holds  lin_t ,
      the row of sums holds          s_t = Σ_{u ≤ t} (column sums of lin_u)        (starting from zero at t = 0),
      the row of sums of squares     q_t = Σ_{u ≤ t} (column sums of lin_u²) ,
  and after the last point window 6 holds  s_9 / 50000  and window 7  q_9 / 50000 − (s_9 / 50000)² .
  The two rows are buffers of the kernel's own that no window stages: between points they are held by the invariant,
  at exactly  (s_{t−1}, q_{t−1})  before point t > 0, at anything before point 0.
-/
import proofs.«144042_j23673859736035_1_alg».proof.Proof.K.Lin4Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the written buffers hold after each point -/

/-- No point after the first is a first point (ten points, numbered 0 … 9). -/
theorem notFirst4 (n : ℕ) (hn : n + 1 < cfg4.N) : ¬(n + 1) % 10 = 0 := by
  have hN : n + 1 < 10 := lt_of_lt_of_eq hn (show cfg4.N = 10 from N_4); omega

/-- THE ACCUMULATION. After the body at position `n`: the block of window 5, mean, var, the row of sums, the row of
    sums of squares — by recursion on the point: position 0 is case A; a later position is case C when it is the
    last and case B otherwise, each started from the two rows the position before left. Mean and var are a
    placeholder away from the last point. -/
def outsAt4 (c : Dev nD) : (n : ℕ) → n < cfg4.N → Vec F S5000x256 .f32 × Vec F S1x256 .f32 × Vec F S1x256 .f32 × Vec F S1x256 .f32 × Vec F S1x256 .f32
  | 0, hn => (lin4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)), unset4, unset4,
      sum4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)),
      sq4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)))
  | n + 1, hn =>
    if h1 : (n + 1) % 10 = 9 then
      (lin4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       mean4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       var4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       sum4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       sq4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1))
    else
      (lin4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)), unset4, unset4,
       sum4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)),
       sq4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)))

/-- The two kept rows after point `t`: (sums, sums of squares). -/
def sAt4 (c : Dev nD) (t : Fin cfg4.N) : Vec F S1x256 .f32 × Vec F S1x256 .f32 :=
  ((outsAt4 V c t.val t.isLt).2.2.2.1, (outsAt4 V c t.val t.isLt).2.2.2.2)

/-- `outsAt4` at the first point. -/
theorem outsAt4_A (c : Dev nD) (t : Fin cfg4.N) (h0 : t.val % 10 = 0) (h1 : ¬t.val % 10 = 9) :
    outsAt4 V c t.val t.isLt = (lin4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h)), unset4, unset4,
      sum4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h)),
      sq4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h))) := by
  obtain ⟨n, hn⟩ := t
  cases n with
  | zero => exact rfl
  | succ n => exact absurd h0 (notFirst4 n hn)

/-- `outsAt4` at a middle point, over what the point before left. -/
theorem outsAt4_B (c : Dev nD) (t : Fin cfg4.N) (h0 : ¬t.val % 10 = 0) (h1 : ¬t.val % 10 = 9) :
    outsAt4 V c t.val t.isLt = (lin4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h)), unset4, unset4,
      sum4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h)),
      sq4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h))) := by
  obtain ⟨n, hn⟩ := t
  cases n with
  | zero => exact (by exfalso; (try dsimp only at h0); exact absurd (Nat.zero_mod _) h0)
  | succ n => exact (dif_neg h1).trans rfl

/-- `outsAt4` at the last point, over what the point before left. -/
theorem outsAt4_C (c : Dev nD) (t : Fin cfg4.N) (h0 : ¬t.val % 10 = 0) (h1 : t.val % 10 = 9) :
    outsAt4 V c t.val t.isLt = (lin4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      mean4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      var4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      sum4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      sq4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1)) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start the scoped buffers no window stages, each at anything; afterwards the same
    with the two kept rows at exactly what position `n − 1` left, every other such buffer still unopened. -/
def Phi4 (c : Dev nD) : (n : ℕ) → n ≤ cfg4.N → sProp 𝕄
  | 0, _ => (Pipeline.scopedRest (Ix := Unit) (Name := ℕ) (U := UR sig nD τ) (Lvl := ℕ) (Val := Elt F) spec4 c : sProp 𝕄)
  | n + 1, hn => iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1])

theorem Phi4_zero (c : Dev nD) (n : ℕ) (h : n ≤ cfg4.N) (hz : n = 0) : Phi4 V c n h = (Pipeline.scopedRest (Ix := Unit) (Name := ℕ) (U := UR sig nD τ) (Lvl := ℕ) (Val := Elt F) spec4 c : sProp 𝕄) := by
  subst hz; rfl

theorem Phi4_succ (c : Dev nD) (n : ℕ) (hn : n < cfg4.N) :
    Phi4 V c (n + 1) hn = iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) := rfl

theorem Phi4_pos (c : Dev nD) (n : ℕ) (h : n ≤ cfg4.N) (hz : n ≠ 0) :
    Phi4 V c n h = iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The proof data -/

/-- The proof data of region 4's pipeline on core `c`: the windows' arrays at the contents `V` the region is
    entered with; after the body at a point each input's buffer at its block, window 5 at the linear block, windows
    6 and 7 at mean and var (`outsAt4`); the invariant `Phi4`; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t : Fin (cfg4.N + 1)) : (dat4 V c).owed t = 0 := rfl
theorem rec_eq4 (c : Dev nD) : (dat4 V c).recorded 0 = Set.univ := rfl

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## What the invariant takes from, and gives back to, the scoped rest -/

/-- Entering the region: the scoped buffers no window stages ARE the invariant before the first point. -/
theorem hin4 (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = Phi4 V c 0 (Nat.zero_le _) from rfl, Phi4_zero V c 0 _ rfl]
  try exact Idealize.SL.BI.Entails.refl _

/-- Leaving it: after the last point the two rows' contents are forgotten and the scoped rest is whole again. -/
theorem hout4 (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_rows]
  iintro ⟨⟨HS0, HS1⟩, Hr⟩
  isplitl [HS0 HS1]
  · isplitl [HS0]
    · iexists _; iexact HS0
    iexists _; iexact HS1
  iexact Hr

end Cert.Kernel.Hand

end
-- ==== Proof.K.Lin4Body.lean ====
/-
  Region 4: the body obligation. At every point, from the invariant, what the core owes and each window's current
  buffer at what it then holds, the body runs to the invariant of the next point and each buffer at what the proof
  data says it leaves. The point is the first, a middle one or the last (ten points); in each case the body's triple
  of that case applies: the inputs' buffers hold their blocks, the two kept rows come out of the invariant (at anything
  at the first point, at what the point before left afterwards) and go back into it at this point's contents, and
  every buffer the body stores into is covered by its stores, so that what it holds afterwards is what the stores
  read back.
-/
import proofs.«144042_j23673859736035_1_alg».proof.Proof.K.Lin4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  rw [show (dat4 V c).leavesExact 5 t = owns (c : Thread nD τ) (ms4_5 t) fullShare ((dat4 V c).after 5 t) from by
      unfold Dat.leavesExact; rw [liveAt4_5 t], after4_5]
  by_cases h0 : t.val % 10 = 0
  · -- the first point
    have h1 : ¬t.val % 10 = 9 := by omega
    have hz : t.val = 0 := by omega
    rw [Dat.leavesExact_idle (dat4 V c) 6 t (idleAt4_6 t (fun h => h1 ((hcond4_1 t).mp h))) (noFlush4_6 t (fun h => h1 ((hcond4_1 t).mp h))),
      Dat.leavesExact_idle (dat4 V c) 7 t (idleAt4_7 t (fun h => h1 ((hcond4_1 t).mp h))) (noFlush4_7 t (fun h => h1 ((hcond4_1 t).mp h)))]
    rw [outsAt4_A V c t h0 h1]
    unfold lin4_A sum4_A sq4_A; (try dsimp only)
    rw [Phi4_castSucc V c t, Phi4_zero V c _ _ hz, scopedRest4_rows]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hr]
    · isplitl [HS0 HS1]
      · isplitl [HS0]
        · unfold owns; iexists _; isplitr
          swap; · iexact HS0
          ipureintro; exact View.read_writes_of_cover _ _ _ _ _ (scover4_A_0 c (grid4.coords t) _ _ _ _ _ _ _ _ _ _ _ _ _ _ _ _ _ _ _ _ _ _ _ _ _ _ _)
        unfold owns; iexists _; isplitr
        swap; · iexact HS1
        ipureintro; exact View.read_writes_of_cover _ _ _ _ _ (scover4_A_1 c (grid4.coords t) _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c (grid4.coords t) _ _ _ _ _ _ _ _ _ _ _ _ _ _ _ _ _ _ _ _ _ _ _ _ _ _ _)
    isplitl [H6]; · iexists _; iexact H6
    iexists _; iexact H7
  · have hz : t.val ≠ 0 := fun h => h0 (by rw [h])
    by_cases h1 : t.val % 10 = 9
    · -- the last point
      rw [show (dat4 V c).leavesExact 6 t = owns (c : Thread nD τ) (ms4_6 t) fullShare ((dat4 V c).after 6 t) from by
          unfold Dat.leavesExact; rw [liveAt4_6 t ((hcond4_1 t).mpr h1)], after4_6]
      rw [show (dat4 V c).leavesExact 7 t = owns (c : Thread nD τ) (ms4_7 t) fullShare ((dat4 V c).after 7 t) from by
          unfold Dat.leavesExact; rw [liveAt4_7 t ((hcond4_1 t).mpr h1)], after4_7]
      rw [outsAt4_C V c t h0 h1]
      unfold lin4_C mean4_C var4_C sum4_C sq4_C; (try dsimp only)
      rw [Phi4_castSucc V c t, Phi4_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover4_C_0 c (grid4.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover4_C_1 c (grid4.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c (grid4.coords t) _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c (grid4.coords t) _ _ _ _ _ _ _ _ _ _ _ _ _ _ _ _ _ _ _ _ _ _ _ _ _ _ _ _ _)
      unfold owns; iexists _; isplitr
      swap; · iexact H7
      ipureintro; exact View.read_writes_of_cover _ _ _ _ _ (cover4_C_7 c (grid4.coords t) _ _ _ _ _ _ _ _ _ _ _ _ _ _ _ _ _ _ _ _ _ _ _ _ _ _ _ _ _)
    · -- a middle point
      rw [Dat.leavesExact_idle (dat4 V c) 6 t (idleAt4_6 t (fun h => h1 ((hcond4_1 t).mp h))) (noFlush4_6 t (fun h => h1 ((hcond4_1 t).mp h))),
        Dat.leavesExact_idle (dat4 V c) 7 t (idleAt4_7 t (fun h => h1 ((hcond4_1 t).mp h))) (noFlush4_7 t (fun h => h1 ((hcond4_1 t).mp h)))]
      rw [outsAt4_B V c t h0 h1]
      unfold lin4_B sum4_B sq4_B; (try dsimp only)
      rw [Phi4_castSucc V c t, Phi4_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover4_B_0 c (grid4.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover4_B_1 c (grid4.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c (grid4.coords t) _ _ _ _ _ _ _ _ _ _ _ _ _ _ _ _ _ _ _ _ _ _ _ _ _ _ _ _ _)
      isplitl [H6]; · iexists _; iexact H6
      iexists _; iexact H7

/-- The body obligation of region 4's pipeline, at every point. -/
theorem body_obligation4 (c : Dev nD) : BodyObligation (dat4 (F := F) V c) (defs₀ (F := F)) Variants.none () Set.univ := fun t => by
  rw [bigSep_W4, bigSep_W4]
  exact sound_body4 V c t

/-! ## The region's data as the assembly takes it -/

theorem hA4 : ∀ (V : (c : Dev nD) → (b : Ref sig .tc) → Buf (Elt F) ((c : Thread nD τ).loc b)) (c : Dev nD) (w : Fin cfg4.W),
    (dat4 V c).A w = V c (Pipeline.arrRef spec4 w) := fun V c w => A_eq4 V c w
theorem hq4 : ∀ (V : (c : Dev nD) → (b : Ref sig .tc) → Buf (Elt F) ((c : Thread nD τ).loc b)) (c : Dev nD) (w : Fin cfg4.W),
    (dat4 V c).q w = fullShare := fun _ _ _ => rfl
theorem ho4 : ∀ (V : (c : Dev nD) → (b : Ref sig .tc) → Buf (Elt F) ((c : Thread nD τ).loc b)) (c : Dev nD) (t : Fin (cfg4.N + 1)),
    (dat4 V c).owed t = 0 := fun _ _ _ => rfl
theorem hr4 : ∀ (V : (c : Dev nD) → (b : Ref sig .tc) → Buf (Elt F) ((c : Thread nD τ).loc b)) (c : Dev nD),
    (dat4 V c).recorded 0 = Set.univ := fun _ _ => rfl
theorem hbody4 : ∀ (V : (c : Dev nD) → (b : Ref sig .tc) → Buf (Elt F) ((c : Thread nD τ).loc b)) (c : Dev nD),
    BodyObligation (dat4 (F := F) V c) (defs₀ (F := F)) Variants.none () Set.univ := fun V c => body_obligation4 V c

end Cert.Kernel.Hand

end
-- ==== Proof.K.Norm5.lean ====
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Ring
import Idealize.ShloMosaic.Lib.Tactic

/-! # The normalising region 5: what one grid point does to the staged blocks

Region 5 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out5_5` of the five input blocks. -/

-- deciding that the one stored rectangle is the whole 5000-row block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: for any proof data over `V`'s array whose body leaves the block in place, the staging buffer the
    body is handed at `t` holds the block at `t` — moved in at `t`, or left there by an earlier point with the same
    block index. The window is never clipped and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1: for any proof data over `V`'s array whose body leaves the block in place, the staging buffer the
    body is handed at `t` holds the block at `t` — moved in at `t`, or left there by an earlier point with the same
    block index. The window is never clipped and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2: for any proof data over `V`'s array whose body leaves the block in place, the staging buffer the
    body is handed at `t` holds the block at `t` — moved in at `t`, or left there by an earlier point with the same
    block index. The window is never clipped and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3: for any proof data over `V`'s array whose body leaves the block in place, the staging buffer the
    body is handed at `t` holds the block at `t` — moved in at `t`, or left there by an earlier point with the same
    block index. The window is never clipped and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4: for any proof data over `V`'s array whose body leaves the block in place, the staging buffer the
    body is handed at `t` holds the block at `t` — moved in at `t`, or left there by an earlier point with the same
    block index. The window is never clipped and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a [1,256] row buffer. -/
abbrev r5_0 : Rect S1x256 := Rect.unit (s := S1x256) ![0, 0] S1x256.size inb_S1x256_S1x256_0_0
/-- The whole of a [5000,256] block buffer. -/
abbrev r5_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out5_5 (x0 : Vec F S5000x256 .f32) (x1 : Vec F S1x256 .f32) (x2 : Vec F S1x256 .f32) (x3 : Vec F S1x256 .f32) (x4 : Vec F S1x256 .f32) : Vec F S5000x256 .f32 :=
  View.canon [⟨r5_1, k5_pay1 (View.ld x3 r5_0) (View.ld x2 r5_0) (View.ld x0 r5_1) (View.ld x1 r5_0) (View.ld x4 r5_0)⟩]

/-- The one stored rectangle is the whole buffer, so every index of the buffer lies in it. -/
theorem cover5_5 (p0 : Vec F S5000x256 .f32) (y : S5000x256.Idx) :
    ∃ pc ∈ ([⟨r5_1, p0⟩] : List (View.Piece (Elt F) S5000x256 .f32)), y ∈ pc.1.set :=
  View.cover_of_tiled [⟨r5_1, p0⟩] S5000x256.size (by rfl) y

/-! ## The body's triple -/

set_option maxHeartbeats 1000000 in
/-- The body on whole staging buffers — the five inputs at contents `x0 … x4`, the output at anything — runs to the
    end, returns the inputs as they were and leaves the output at `out5_5 x0 x1 x2 x3 x4`: five whole-buffer loads,
    a pointwise computation, one whole-buffer store. -/
theorem sound_kernel5 (c : Dev nD) (E : Set ℕ) (i : grid5.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of region 5 on core `c`: the arrays as the region finds them; after the body at point `t` every
    input buffer still at its block and the output buffer at `out5_5` of the five input blocks; the invariant keeps
    everything else untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's staging buffer holds its block at every point, moved in there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what the loop has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns: the same, each buffer at what the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation5 (c : Dev nD) : BodyObligation (dat5 (F := F) V c) (defs₀ (F := F)) Variants.none () Set.univ := fun t => by
  rw [bigSep_W5, bigSep_W5]
  exact sound_body5 V c t

/-! ## What the staged loop's run asks of the proof data besides the body -/

/-- Every window is held at the full share. -/
theorem q_eq5 (c : Dev nD) (w : Fin cfg5.W) : (dat5 V c).q w = fullShare := rfl

/-- No point owes anything. -/
theorem owed_eq5 (c : Dev nD) (t) : (dat5 V c).owed t = 0 := rfl

/-- Every waiting pair counts as recorded from the first point on. -/
theorem rec_eq5 (c : Dev nD) : (dat5 V c).recorded 0 = Set.univ := rfl

/-- The invariant is the same at every point — the region's scoped buffers other than the staging ones, and the
    generator register, untouched — so it is entered from, and left to, exactly that. -/
theorem Φ_in5 (c : Dev nD) : Pipeline.ΦA (U := UR sig nD τ) (Val := Elt F) spec5 c ⊢ (dat5 V c).Φ 0 := .rfl
theorem Φ_out5 (c : Dev nD) : (dat5 V c).Φ (Fin.last cfg5.N) ⊢ Pipeline.ΦA (U := UR sig nD τ) (Val := Elt F) spec5 c := .rfl

end Cert.Kernel.Hand

end
-- ==== Proof.K.Mlp6.lean ====
/- The perceptron region of the kernel program (its seventh pallas_call), at any float model and at any contents
   `V` of the core's buffers when the region is entered. The grid has one point. The body reads seven whole blocks
   (the pooled features, three weight matrices and three bias rows), and writes one whole block: three matrix
   products into zero accumulators, each followed by the addition of a bias row, the first two also by the
   leaky rectifier. Below: each window's block at the point; what the body leaves in the output's buffer, as a
   function of the seven blocks; the body's triple; the pipeline's proof data; and the body obligation. -/
import proofs.«144042_j23673859736035_1_alg».proof.Proof.Gen.Kernel.Launch
import proofs.«144042_j23673859736035_1_alg».proof.Proof.Gen.Kernel.Skeleton
import proofs.«144042_j23673859736035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: the sub-array of `V`'s array that the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: for any proof data whose array is `V`'s and whose body leaves the block where it is, the
    current staging buffer holds the block at every point, whether it was fetched there or kept from before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: for any proof data whose array is `V`'s and whose body leaves the block where it is, the
    current staging buffer holds the block at every point, whether it was fetched there or kept from before. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2: for any proof data whose array is `V`'s and whose body leaves the block where it is, the
    current staging buffer holds the block at every point, whether it was fetched there or kept from before. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3: for any proof data whose array is `V`'s and whose body leaves the block where it is, the
    current staging buffer holds the block at every point, whether it was fetched there or kept from before. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4: for any proof data whose array is `V`'s and whose body leaves the block where it is, the
    current staging buffer holds the block at every point, whether it was fetched there or kept from before. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5: for any proof data whose array is `V`'s and whose body leaves the block where it is, the
    current staging buffer holds the block at every point, whether it was fetched there or kept from before. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6: for any proof data whose array is `V`'s and whose body leaves the block where it is, the
    current staging buffer holds the block at every point, whether it was fetched there or kept from before. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is of a whole buffer -/

abbrev r6_0 : Rect S64x288 := Rect.unit (s := S64x288) ![0, 0] S64x288.size inb_S64x288_S64x288_0_0
abbrev r6_1 : Rect S288x512 := Rect.unit (s := S288x512) ![0, 0] S288x512.size inb_S288x512_S288x512_0_0
abbrev r6_2 : Rect S1x512 := Rect.unit (s := S1x512) ![0, 0] S1x512.size inb_S1x512_S1x512_0_0
abbrev r6_3 : Rect S512x512 := Rect.unit (s := S512x512) ![0, 0] S512x512.size inb_S512x512_S512x512_0_0
abbrev r6_4 : Rect S1x512 := Rect.unit (s := S1x512) ![0, 0] S1x512.size inb_S1x512_S1x512_0_0
abbrev r6_5 : Rect S512x10 := Rect.unit (s := S512x10) ![0, 0] S512x10.size inb_S512x10_S512x10_0_0
abbrev r6_6 : Rect S1x10 := Rect.unit (s := S1x10) ![0, 0] S1x10.size inb_S1x10_S1x10_0_0
abbrev r6_7 : Rect S64x10 := Rect.unit (s := S64x10) ![0, 0] S64x10.size inb_S64x10_S64x10_0_0

/-! ## What the body leaves in the output window's buffer -/

/-- The output's buffer after the body, from the seven input blocks: its one store, of the whole buffer, whose
    value is the three-layer perceptron of the blocks. -/
def out6_7 (x0 : Vec F S64x288 .f32) (x1 : Vec F S288x512 .f32) (x2 : Vec F S1x512 .f32) (x3 : Vec F S512x512 .f32) (x4 : Vec F S1x512 .f32) (x5 : Vec F S512x10 .f32) (x6 : Vec F S1x10 .f32) : Vec F S64x10 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The one store is of the whole buffer, so it covers it. -/
theorem cover6_7 (p0 : Vec F S64x10 .f32) (y : S64x10.Idx) :
    ∃ pc ∈ ([⟨r6_7, p0⟩] : List (View.Piece (Elt F) S64x10 .f32)), y ∈ pc.1.set :=
  View.cover_of_tiled [⟨r6_7, p0⟩] S64x10.size (by rfl) y

/-! ## The body's triple -/

set_option maxHeartbeats 1000000 in
/-- On whole staging buffers, the inputs' holding `x0 … x6` and the output's holding anything, the body runs to
    the end, faults nowhere, leaves the inputs' buffers as they were and the output's at `out6_7` of them. -/
theorem sound_kernel6 (c : Dev nD) (E : Set ℕ) (i : grid6.Coords) (arg1 : Memref sig .tc .vmem S64x288 .f32) (harg1 : arg1.IsWhole) (arg2 : Memref sig .tc .vmem S288x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S64x10 .f32) (harg8 : arg8.IsWhole)
    (x0 : Vec F S64x288 .f32) (x1 : Vec F S288x512 .f32) (x2 : Vec F S1x512 .f32) (x3 : Vec F S512x512 .f32) (x4 : Vec F S1x512 .f32) (x5 : Vec F S512x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the region's pipeline on core `c`: the arrays as the region finds them; after the body each
    input's buffer at its block and the output's at `out6_7` of the seven blocks; the invariant that of a kernel
    all of whose operands are staged (nothing else is touched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the contents at the region's entry. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at the point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-! ## What the run's assembly asks of the proof data besides the body obligation -/

/-- Every window is held at the full share. -/
theorem q_eq6 (c : Dev nD) (w : Fin cfg6.W) : (dat6 V c).q w = fullShare := by dsimp only [dat6]

/-- Nothing is owed at any point. -/
theorem owed_eq6 (c : Dev nD) (t) : (dat6 V c).owed t = 0 := by dsimp only [dat6]

/-- The invariant is one proposition at every point — the scoped rest of the core's buffers and the generator
    register at some state —, so it is entered from that proposition -/
theorem Φ_in6 (c : Dev nD) : Pipeline.ΦA (U := UR sig nD τ) (Val := Elt F) spec6 c ⊢ (dat6 V c).Φ 0 := .rfl

/-- and left to it. -/
theorem Φ_out6 (c : Dev nD) : (dat6 V c).Φ (Fin.last cfg6.N) ⊢ Pipeline.ΦA (U := UR sig nD τ) (Val := Elt F) spec6 c := .rfl

/-- Every wait is recorded at the region's entry (the proof data keeps the default record). -/
theorem rec_eq6 (c : Dev nD) : (dat6 V c).recorded 0 = Set.univ := rfl

end Cert.Kernel.Hand

end
-- ==== Proof.K.RunAll.lean ====
/-
  The run of the program at the seven regions' actual data: every weakly fair execution from a memory with zero
  counters terminates, faulting nowhere; the final memory holds every argument array as launched and the result array at
  the last boundary's contents — the launch memory folded through the seven host stretches and the seven regions, each
  region's output arrays at its output windows' final arrays.
-/
import proofs.«144042_j23673859736035_1_alg».proof.Proof.K.Run
import proofs.«144042_j23673859736035_1_alg».proof.Proof.K.Lin0Body
import proofs.«144042_j23673859736035_1_alg».proof.Proof.K.Norm1
import proofs.«144042_j23673859736035_1_alg».proof.Proof.K.Lin2Body
import proofs.«144042_j23673859736035_1_alg».proof.Proof.K.Norm3
import proofs.«144042_j23673859736035_1_alg».proof.Proof.K.Lin4Body
import proofs.«144042_j23673859736035_1_alg».proof.Proof.K.Norm5
import proofs.«144042_j23673859736035_1_alg».proof.Proof.K.Mlp6

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 0's data, bundled. -/
def regData0 : RegData (F := F) cfg0 (IR cfg0) :=
  ⟨dat0, hA0, hq0, ho0, hr0, hbody0, fun V c => hin0 V c, fun V c => hout0 V c⟩
/-- Region 1's data, bundled. -/
def regData1 : RegData (F := F) cfg1 (IA cfg1) :=
  ⟨dat1, fun V c w => A_eq1 V c w, fun V c w => q_eq1 V c w, fun V c t => owed_eq1 V c t, fun V c => rec_eq1 V c,
    fun V c => body_obligation1 V c, fun V c => Φ_in1 V c, fun V c => Φ_out1 V c⟩
/-- Region 2's data, bundled. -/
def regData2 : RegData (F := F) cfg2 (IR cfg2) :=
  ⟨dat2, hA2, hq2, ho2, hr2, hbody2, fun V c => hin2 V c, fun V c => hout2 V c⟩
/-- Region 3's data, bundled. -/
def regData3 : RegData (F := F) cfg3 (IA cfg3) :=
  ⟨dat3, fun V c w => A_eq3 V c w, fun V c w => q_eq3 V c w, fun V c t => owed_eq3 V c t, fun V c => rec_eq3 V c,
    fun V c => body_obligation3 V c, fun V c => Φ_in3 V c, fun V c => Φ_out3 V c⟩
/-- Region 4's data, bundled. -/
def regData4 : RegData (F := F) cfg4 (IR cfg4) :=
  ⟨dat4, hA4, hq4, ho4, hr4, hbody4, fun V c => hin4 V c, fun V c => hout4 V c⟩
/-- Region 5's data, bundled. -/
def regData5 : RegData (F := F) cfg5 (IA cfg5) :=
  ⟨dat5, fun V c w => A_eq5 V c w, fun V c w => q_eq5 V c w, fun V c t => owed_eq5 V c t, fun V c => rec_eq5 V c,
    fun V c => body_obligation5 V c, fun V c => Φ_in5 V c, fun V c => Φ_out5 V c⟩
/-- Region 6's data, bundled. -/
def regData6 : RegData (F := F) cfg6 (IA cfg6) :=
  ⟨dat6, fun V c w => A_eq6 V c w, fun V c w => q_eq6 V c w, fun V c t => owed_eq6 V c t, fun V c => rec_eq6 V c,
    fun V c => body_obligation6 V c, fun V c => Φ_in6 V c, fun V c => Φ_out6 V c⟩

variable (m : (ℓ : Loc nD τ sig) → Buf (Elt F) ℓ) (ρ : Dev nD → PrngReg)

/-- THE FRAME of the program: it runs to its end from any memory with zero counters, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame m regData0 regData1 regData2 regData3 regData4 regData5 regData6 ρ

/-- THE RUN WITH ITS RESULT: besides, the final memory holds the result array at the last boundary's contents. -/
theorem run_valued : θ_run defs (onTc (τ := τ) (main (F := F))) ⟨m, fun _ => 0, ρ⟩ (fun r => ∀ c : Dev nD,
      r.2.mem ((c.tc : Thread nD τ).loc main_v104) = W14 m regData0 regData1 regData2 regData3 regData4 regData5 regData6 c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame_valW m regData0 regData1 regData2 regData3 regData4 regData5 regData6 ρ

/-- The last boundary's contents at the result's buffer: region 6's output window's final array, region 6 entered at
    the contents before it. -/
theorem W14_result (c : Dev nD) :
    W14 m regData0 regData1 regData2 regData3 regData4 regData5 regData6 c (Proc.devRef .tc main_v104) = (dat6 (rd (W13 m regData0 regData1 regData2 regData3 regData4 regData5)) c).arrAt (7 : Fin 8) cfg6.N :=
  W14_main_v104 m regData0 regData1 regData2 regData3 regData4 regData5 regData6 c

end Cert.Kernel.Hand

end
-- ==== Proof.KI.RunData.lean ====
/-
  The data of the run of the seven kernel regions. Per region: the proof data at any entry contents, what they say of the
  arrays, shares, tallies and recorded pairs, the body obligation, and the invariant's two ends against what the region
  boundary offers (the scoped rest alone for a body that keeps rows in scratch between points; the scoped rest beside
  the generator register otherwise). Then the contents of the TensorCore's buffers at every boundary between two items
  of the program, folded from the launch memory — a host stretch by its operations, a region by the final arrays of its
  output windows, the region entered at the contents the items before it leave — and the family of proof data at those
  contents.
-/
import proofs.«144042_j23673859736035_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The contents of every TensorCore buffer on every core, read at the core's references. -/
abbrev Val₀ : Type := (c : Dev nD) → (b : Ref sig .tc) → Buf (Elt F) ((c : Thread nD τ).loc b)

/-- A valuation of the device's buffers read at the TensorCore's references. -/
abbrev rd (W : Dev nD → Valuation τ sig (Elt F)) : Val₀ (F := F) := fun c b => W c b

/-- What a region boundary offers a body that tracks scratch contents between points: the scoped buffers no window stages. -/
abbrev IR (cfg : Pipeline.Cfg sig Λ₀) (c : Dev nD) : sProp (MT nD τ sig Unit (Elt F) ℕ (UR sig nD τ) ℕ) :=
  Pipeline.scopedRest (Ix := Unit) (Name := ℕ) (U := UR sig nD τ) (Lvl := ℕ) (Val := Elt F) cfg.spec c

/-- What it offers a body that carries nothing of its own between points: those buffers and the generator register. -/
abbrev IA (cfg : Pipeline.Cfg sig Λ₀) (c : Dev nD) : sProp (MT nD τ sig Unit (Elt F) ℕ (UR sig nD τ) ℕ) :=
  Pipeline.ΦA (U := UR sig nD τ) (Val := Elt F) cfg.spec c

/-- One region's data, at every entry contents `V`: the proof data; its arrays are `V`'s; full shares; nothing owed;
    no bound on the recorded pairs at entry; the body obligation; the invariant entered from `I` and returned to it. -/
structure RegData (cfg : Pipeline.Cfg sig Λ₀) (I : Dev nD → sProp (MT nD τ sig Unit (Elt F) ℕ (UR sig nD τ) ℕ)) where
  dat : Val₀ (F := F) → (c : Dev nD) → Dat τ (Elt F) Unit ℕ (UR sig nD τ) ℕ cfg c
  hA : ∀ V c w, (dat V c).A w = V c (Pipeline.arrRef cfg.spec w)
  hq : ∀ V c w, (dat V c).q w = fullShare
  ho : ∀ V c t, (dat V c).owed t = 0
  hr : ∀ V c, (dat V c).recorded 0 = Set.univ
  hbody : ∀ V c, BodyObligation (dat V c) (defs₀ (F := F)) Variants.none () Set.univ
  hin : ∀ V c, I c ⊢ (dat V c).Φ 0
  hout : ∀ V c, (dat V c).Φ (Fin.last cfg.N) ⊢ I c

/-- A core owing nothing, whatever it has recorded, enters a region whose data owe nothing at the first point and
    bound the recorded pairs by nothing there. -/
theorem owesAt_in {cfg : Pipeline.Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp (MT nD τ sig Unit (Elt F) ℕ (UR sig nD τ) ℕ)) ⊢ dat.owesAt () 0 := by
  unfold Pipeline.Dat.owesAt Pipeline.owesWithin
  rw [h0]
  iintro ⟨%W, HO⟩
  iexists W
  isplitr
  · ipureintro
    exact fun x _ => Or.inl (by rw [hr]; exact Set.mem_univ x)
  iexact HO

/-- It leaves the region owing nothing when the data owe nothing after the last point. -/
theorem owesAt_out {cfg : Pipeline.Cfg sig Λ₀} {c : Dev nD} (dat : Dat τ (Elt F) Unit ℕ (UR sig nD τ) ℕ cfg c)
    (hl : dat.owed (Fin.last cfg.N) = 0) :
    dat.owesAt () (Fin.last cfg.N) ⊢ (iprop(∃ W, owes (c : Thread nD τ) (0 : CellTallies nD τ sig Unit) W) : sProp (MT nD τ sig Unit (Elt F) ℕ (UR sig nD τ) ℕ)) := by
  unfold Pipeline.Dat.owesAt Pipeline.owesWithin
  rw [hl]
  iintro ⟨%W, -, HO⟩
  iexists W
  iexact HO

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-! ## The buffers' contents at every boundary, from the launch memory -/

/-- The TensorCore's buffers after the first host stretch: region 0's entry contents. -/
def W1 (c : Dev nD) : Valuation τ sig (Elt F) := V1 m c
/-- After region 0: each of its output arrays at what the region's write-backs leave (from the contents it is entered
    at), every other buffer as entered. -/
def W2 (c : Dev nD) : Valuation τ sig (Elt F) :=
  (Function.update (Function.update (Function.update (W1 m c) main_v30_0 ((D0.dat (rd (W1 m)) c).arrAt (5 : Fin 8) cfg0.N)) main_v30_1 ((D0.dat (rd (W1 m)) c).arrAt (6 : Fin 8) cfg0.N)) main_v30_2 ((D0.dat (rd (W1 m)) c).arrAt (7 : Fin 8) cfg0.N))
/-- After the host stretch that follows: region 1's entry contents. -/
def W3 (c : Dev nD) : Valuation τ sig (Elt F) := StableHlo.after hostOps1 (W2 m D0 c)
/-- After region 1: each of its output arrays at what the region's write-backs leave (from the contents it is entered
    at), every other buffer as entered. -/
def W4 (c : Dev nD) : Valuation τ sig (Elt F) :=
  (Function.update (W3 m D0 c) main_v33 ((D1.dat (rd (W3 m D0)) c).arrAt (5 : Fin 6) cfg1.N))
/-- After the host stretch that follows: region 2's entry contents. -/
def W5 (c : Dev nD) : Valuation τ sig (Elt F) := StableHlo.after hostOps2 (W4 m D0 D1 c)
/-- After region 2: each of its output arrays at what the region's write-backs leave (from the contents it is entered
    at), every other buffer as entered. -/
def W6 (c : Dev nD) : Valuation τ sig (Elt F) :=
  (Function.update (Function.update (Function.update (W5 m D0 D1 c) main_v57_0 ((D2.dat (rd (W5 m D0 D1)) c).arrAt (5 : Fin 8) cfg2.N)) main_v57_1 ((D2.dat (rd (W5 m D0 D1)) c).arrAt (6 : Fin 8) cfg2.N)) main_v57_2 ((D2.dat (rd (W5 m D0 D1)) c).arrAt (7 : Fin 8) cfg2.N))
/-- After the host stretch that follows: region 3's entry contents. -/
def W7 (c : Dev nD) : Valuation τ sig (Elt F) := StableHlo.after hostOps3 (W6 m D0 D1 D2 c)
/-- After region 3: each of its output arrays at what the region's write-backs leave (from the contents it is entered
    at), every other buffer as entered. -/
def W8 (c : Dev nD) : Valuation τ sig (Elt F) :=
  (Function.update (W7 m D0 D1 D2 c) main_v60 ((D3.dat (rd (W7 m D0 D1 D2)) c).arrAt (5 : Fin 6) cfg3.N))
/-- After the host stretch that follows: region 4's entry contents. -/
def W9 (c : Dev nD) : Valuation τ sig (Elt F) := StableHlo.after hostOps4 (W8 m D0 D1 D2 D3 c)
/-- After region 4: each of its output arrays at what the region's write-backs leave (from the contents it is entered
    at), every other buffer as entered. -/
def W10 (c : Dev nD) : Valuation τ sig (Elt F) :=
  (Function.update (Function.update (Function.update (W9 m D0 D1 D2 D3 c) main_v84_0 ((D4.dat (rd (W9 m D0 D1 D2 D3)) c).arrAt (5 : Fin 8) cfg4.N)) main_v84_1 ((D4.dat (rd (W9 m D0 D1 D2 D3)) c).arrAt (6 : Fin 8) cfg4.N)) main_v84_2 ((D4.dat (rd (W9 m D0 D1 D2 D3)) c).arrAt (7 : Fin 8) cfg4.N))
/-- After the host stretch that follows: region 5's entry contents. -/
def W11 (c : Dev nD) : Valuation τ sig (Elt F) := StableHlo.after hostOps5 (W10 m D0 D1 D2 D3 D4 c)
/-- After region 5: each of its output arrays at what the region's write-backs leave (from the contents it is entered
    at), every other buffer as entered. -/
def W12 (c : Dev nD) : Valuation τ sig (Elt F) :=
  (Function.update (W11 m D0 D1 D2 D3 D4 c) main_v87 ((D5.dat (rd (W11 m D0 D1 D2 D3 D4)) c).arrAt (5 : Fin 6) cfg5.N))
/-- After the host stretch that follows: region 6's entry contents. -/
def W13 (c : Dev nD) : Valuation τ sig (Elt F) := StableHlo.after hostOps6 (W12 m D0 D1 D2 D3 D4 D5 c)
/-- After region 6: each of its output arrays at what the region's write-backs leave (from the contents it is entered
    at), every other buffer as entered. -/
def W14 (c : Dev nD) : Valuation τ sig (Elt F) :=
  (Function.update (W13 m D0 D1 D2 D3 D4 D5 c) main_v104 ((D6.dat (rd (W13 m D0 D1 D2 D3 D4 D5)) c).arrAt (7 : Fin 8) cfg6.N))

/-- What the regions leave in the arrays they write, item by item: the boundary contents read at the reference. -/
def outs : Outs (F := F) := fun J r c =>
  match J with
  | 2 => W2 m D0 c r
  | 4 => W4 m D0 D1 c r
  | 6 => W6 m D0 D1 D2 c r
  | 8 => W8 m D0 D1 D2 D3 c r
  | 10 => W10 m D0 D1 D2 D3 D4 c r
  | 12 => W12 m D0 D1 D2 D3 D4 D5 c r
  | 14 => W14 m D0 D1 D2 D3 D4 D5 D6 c r
  | _ => m ((c : Thread nD τ).loc r)

/-- Every region's proof data, each at the contents its region is entered at — a literal match on the region's
    index, so that the family at a numeral reduces to that region's data. -/
def pdats : (p : Fin 7) → (c : Dev nD) → Dat τ (Elt F) Unit ℕ (UR sig nD τ) ℕ (cfgs p) c
  | ⟨0, _⟩ => fun c => D0.dat (rd (W1 m)) c
  | ⟨1, _⟩ => fun c => D1.dat (rd (W3 m D0)) c
  | ⟨2, _⟩ => fun c => D2.dat (rd (W5 m D0 D1)) c
  | ⟨3, _⟩ => fun c => D3.dat (rd (W7 m D0 D1 D2)) c
  | ⟨4, _⟩ => fun c => D4.dat (rd (W9 m D0 D1 D2 D3)) c
  | ⟨5, _⟩ => fun c => D5.dat (rd (W11 m D0 D1 D2 D3 D4)) c
  | ⟨6, _⟩ => fun c => D6.dat (rd (W13 m D0 D1 D2 D3 D4 D5)) c
  | ⟨n + 7, h⟩ => absurd h (by omega)

end Cert.KernelIdeal.Hand

end
-- ==== Proof.KI.RunEq.lean ====
/-
  The boundary contents of the run, read: the generated boundary contents, taken at what the regions leave, are the
  folded ones; after a region each of its output arrays holds the matching window's final array and every other buffer
  what it held at entry.
-/
import proofs.«144042_j23673859736035_1_alg».proof.Proof.KI.RunData

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What rides beside the buffers -/

/-- No core owes another anything: no level is assigned. -/
abbrev runL : GSem nD τ sig → Finset Unit := fun _ => ∅
abbrev runLv : GSem nD τ sig → Unit → ℕ := fun _ _ => 0

/-- Beside the buffers, through every item of the program: the core's generator register at some state, and the core
    owing nothing. -/
abbrev runR (c : Dev nD) : sProp (MT nD τ sig Unit (Elt F) ℕ (UR sig nD τ) ℕ) :=
  iprop((∃ r, prngReg c r) ∗ ∃ W, owes (c : Thread nD τ) (0 : CellTallies nD τ sig Unit) W)

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-! ## The generated boundary contents at these leavings are the folded ones -/

theorem V1_eq : V1 m = W1 m := rfl
theorem V2_eq : V2 m (outs m D0 D1 D2 D3 D4 D5 D6) = W2 m D0 := by
  funext c
  show (Function.update (Function.update (Function.update (V1 m c) main_v30_0 (outs m D0 D1 D2 D3 D4 D5 D6 2 main_v30_0 c)) main_v30_1 (outs m D0 D1 D2 D3 D4 D5 D6 2 main_v30_1 c)) main_v30_2 (outs m D0 D1 D2 D3 D4 D5 D6 2 main_v30_2 c)) = _
  rw [V1_eq]
  rfl
theorem V3_eq : V3 m (outs m D0 D1 D2 D3 D4 D5 D6) = W3 m D0 := by
  funext c
  show StableHlo.after hostOps1 (V2 m (outs m D0 D1 D2 D3 D4 D5 D6) c) = _
  rw [V2_eq]
  rfl
theorem V4_eq : V4 m (outs m D0 D1 D2 D3 D4 D5 D6) = W4 m D0 D1 := by
  funext c
  show (Function.update (V3 m (outs m D0 D1 D2 D3 D4 D5 D6) c) main_v33 (outs m D0 D1 D2 D3 D4 D5 D6 4 main_v33 c)) = _
  rw [V3_eq]
  rfl
theorem V5_eq : V5 m (outs m D0 D1 D2 D3 D4 D5 D6) = W5 m D0 D1 := by
  funext c
  show StableHlo.after hostOps2 (V4 m (outs m D0 D1 D2 D3 D4 D5 D6) c) = _
  rw [V4_eq]
  rfl
theorem V6_eq : V6 m (outs m D0 D1 D2 D3 D4 D5 D6) = W6 m D0 D1 D2 := by
  funext c
  show (Function.update (Function.update (Function.update (V5 m (outs m D0 D1 D2 D3 D4 D5 D6) c) main_v57_0 (outs m D0 D1 D2 D3 D4 D5 D6 6 main_v57_0 c)) main_v57_1 (outs m D0 D1 D2 D3 D4 D5 D6 6 main_v57_1 c)) main_v57_2 (outs m D0 D1 D2 D3 D4 D5 D6 6 main_v57_2 c)) = _
  rw [V5_eq]
  rfl
theorem V7_eq : V7 m (outs m D0 D1 D2 D3 D4 D5 D6) = W7 m D0 D1 D2 := by
  funext c
  show StableHlo.after hostOps3 (V6 m (outs m D0 D1 D2 D3 D4 D5 D6) c) = _
  rw [V6_eq]
  rfl
theorem V8_eq : V8 m (outs m D0 D1 D2 D3 D4 D5 D6) = W8 m D0 D1 D2 D3 := by
  funext c
  show (Function.update (V7 m (outs m D0 D1 D2 D3 D4 D5 D6) c) main_v60 (outs m D0 D1 D2 D3 D4 D5 D6 8 main_v60 c)) = _
  rw [V7_eq]
  rfl
theorem V9_eq : V9 m (outs m D0 D1 D2 D3 D4 D5 D6) = W9 m D0 D1 D2 D3 := by
  funext c
  show StableHlo.after hostOps4 (V8 m (outs m D0 D1 D2 D3 D4 D5 D6) c) = _
  rw [V8_eq]
  rfl
theorem V10_eq : V10 m (outs m D0 D1 D2 D3 D4 D5 D6) = W10 m D0 D1 D2 D3 D4 := by
  funext c
  show (Function.update (Function.update (Function.update (V9 m (outs m D0 D1 D2 D3 D4 D5 D6) c) main_v84_0 (outs m D0 D1 D2 D3 D4 D5 D6 10 main_v84_0 c)) main_v84_1 (outs m D0 D1 D2 D3 D4 D5 D6 10 main_v84_1 c)) main_v84_2 (outs m D0 D1 D2 D3 D4 D5 D6 10 main_v84_2 c)) = _
  rw [V9_eq]
  rfl
theorem V11_eq : V11 m (outs m D0 D1 D2 D3 D4 D5 D6) = W11 m D0 D1 D2 D3 D4 := by
  funext c
  show StableHlo.after hostOps5 (V10 m (outs m D0 D1 D2 D3 D4 D5 D6) c) = _
  rw [V10_eq]
  rfl
theorem V12_eq : V12 m (outs m D0 D1 D2 D3 D4 D5 D6) = W12 m D0 D1 D2 D3 D4 D5 := by
  funext c
  show (Function.update (V11 m (outs m D0 D1 D2 D3 D4 D5 D6) c) main_v87 (outs m D0 D1 D2 D3 D4 D5 D6 12 main_v87 c)) = _
  rw [V11_eq]
  rfl
theorem V13_eq : V13 m (outs m D0 D1 D2 D3 D4 D5 D6) = W13 m D0 D1 D2 D3 D4 D5 := by
  funext c
  show StableHlo.after hostOps6 (V12 m (outs m D0 D1 D2 D3 D4 D5 D6) c) = _
  rw [V12_eq]
  rfl
theorem V14_eq : V14 m (outs m D0 D1 D2 D3 D4 D5 D6) = W14 m D0 D1 D2 D3 D4 D5 D6 := by
  funext c
  show (Function.update (V13 m (outs m D0 D1 D2 D3 D4 D5 D6) c) main_v104 (outs m D0 D1 D2 D3 D4 D5 D6 14 main_v104 c)) = _
  rw [V13_eq]
  rfl

/-! ## Reading the contents after a region -/

/-- Region 0's output array `main_v30_0` after the region: window 5's final array. -/
theorem W2_main_v30_0 (c : Dev nD) : W2 m D0 c (Proc.devRef .tc main_v30_0) = (D0.dat (rd (W1 m)) c).arrAt (5 : Fin 8) cfg0.N := by
  unfold W2
  rw [Function.update_of_ne (StableHlo.devRef_ne_of_ne (by decide)), Function.update_of_ne (StableHlo.devRef_ne_of_ne (by decide)), Function.update_self]
/-- Region 0's output array `main_v30_1` after the region: window 6's final array. -/
theorem W2_main_v30_1 (c : Dev nD) : W2 m D0 c (Proc.devRef .tc main_v30_1) = (D0.dat (rd (W1 m)) c).arrAt (6 : Fin 8) cfg0.N := by
  unfold W2
  rw [Function.update_of_ne (StableHlo.devRef_ne_of_ne (by decide)), Function.update_self]
/-- Region 0's output array `main_v30_2` after the region: window 7's final array. -/
theorem W2_main_v30_2 (c : Dev nD) : W2 m D0 c (Proc.devRef .tc main_v30_2) = (D0.dat (rd (W1 m)) c).arrAt (7 : Fin 8) cfg0.N := by
  unfold W2
  rw [Function.update_self]
/-- Region 0 changes no buffer but its output arrays. -/
theorem W2_of (c : Dev nD) (r : Ref sig .tc) (h : r ∉ ([main_v30_0, main_v30_1, main_v30_2] : List (Ref sig .tc))) :
    W2 m D0 c (Proc.devRef .tc r) = W1 m c (Proc.devRef .tc r) := by
  unfold W2
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 1's output array `main_v33` after the region: window 5's final array. -/
theorem W4_main_v33 (c : Dev nD) : W4 m D0 D1 c (Proc.devRef .tc main_v33) = (D1.dat (rd (W3 m D0)) c).arrAt (5 : Fin 6) cfg1.N := by
  unfold W4
  rw [Function.update_self]
/-- Region 1 changes no buffer but its output arrays. -/
theorem W4_of (c : Dev nD) (r : Ref sig .tc) (h : r ∉ ([main_v33] : List (Ref sig .tc))) :
    W4 m D0 D1 c (Proc.devRef .tc r) = W3 m D0 c (Proc.devRef .tc r) := by
  unfold W4
  rw [Function.update_of_ne (StableHlo.devRef_ne_of_ne (List.ne_of_not_mem_cons h))]
/-- Region 2's output array `main_v57_0` after the region: window 5's final array. -/
theorem W6_main_v57_0 (c : Dev nD) : W6 m D0 D1 D2 c (Proc.devRef .tc main_v57_0) = (D2.dat (rd (W5 m D0 D1)) c).arrAt (5 : Fin 8) cfg2.N := by
  unfold W6
  rw [Function.update_of_ne (StableHlo.devRef_ne_of_ne (by decide)), Function.update_of_ne (StableHlo.devRef_ne_of_ne (by decide)), Function.update_self]
/-- Region 2's output array `main_v57_1` after the region: window 6's final array. -/
theorem W6_main_v57_1 (c : Dev nD) : W6 m D0 D1 D2 c (Proc.devRef .tc main_v57_1) = (D2.dat (rd (W5 m D0 D1)) c).arrAt (6 : Fin 8) cfg2.N := by
  unfold W6
  rw [Function.update_of_ne (StableHlo.devRef_ne_of_ne (by decide)), Function.update_self]
/-- Region 2's output array `main_v57_2` after the region: window 7's final array. -/
theorem W6_main_v57_2 (c : Dev nD) : W6 m D0 D1 D2 c (Proc.devRef .tc main_v57_2) = (D2.dat (rd (W5 m D0 D1)) c).arrAt (7 : Fin 8) cfg2.N := by
  unfold W6
  rw [Function.update_self]
/-- Region 2 changes no buffer but its output arrays. -/
theorem W6_of (c : Dev nD) (r : Ref sig .tc) (h : r ∉ ([main_v57_0, main_v57_1, main_v57_2] : List (Ref sig .tc))) :
    W6 m D0 D1 D2 c (Proc.devRef .tc r) = W5 m D0 D1 c (Proc.devRef .tc r) := by
  unfold W6
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 3's output array `main_v60` after the region: window 5's final array. -/
theorem W8_main_v60 (c : Dev nD) : W8 m D0 D1 D2 D3 c (Proc.devRef .tc main_v60) = (D3.dat (rd (W7 m D0 D1 D2)) c).arrAt (5 : Fin 6) cfg3.N := by
  unfold W8
  rw [Function.update_self]
/-- Region 3 changes no buffer but its output arrays. -/
theorem W8_of (c : Dev nD) (r : Ref sig .tc) (h : r ∉ ([main_v60] : List (Ref sig .tc))) :
    W8 m D0 D1 D2 D3 c (Proc.devRef .tc r) = W7 m D0 D1 D2 c (Proc.devRef .tc r) := by
  unfold W8
  rw [Function.update_of_ne (StableHlo.devRef_ne_of_ne (List.ne_of_not_mem_cons h))]
/-- Region 4's output array `main_v84_0` after the region: window 5's final array. -/
theorem W10_main_v84_0 (c : Dev nD) : W10 m D0 D1 D2 D3 D4 c (Proc.devRef .tc main_v84_0) = (D4.dat (rd (W9 m D0 D1 D2 D3)) c).arrAt (5 : Fin 8) cfg4.N := by
  unfold W10
  rw [Function.update_of_ne (StableHlo.devRef_ne_of_ne (by decide)), Function.update_of_ne (StableHlo.devRef_ne_of_ne (by decide)), Function.update_self]
/-- Region 4's output array `main_v84_1` after the region: window 6's final array. -/
theorem W10_main_v84_1 (c : Dev nD) : W10 m D0 D1 D2 D3 D4 c (Proc.devRef .tc main_v84_1) = (D4.dat (rd (W9 m D0 D1 D2 D3)) c).arrAt (6 : Fin 8) cfg4.N := by
  unfold W10
  rw [Function.update_of_ne (StableHlo.devRef_ne_of_ne (by decide)), Function.update_self]
/-- Region 4's output array `main_v84_2` after the region: window 7's final array. -/
theorem W10_main_v84_2 (c : Dev nD) : W10 m D0 D1 D2 D3 D4 c (Proc.devRef .tc main_v84_2) = (D4.dat (rd (W9 m D0 D1 D2 D3)) c).arrAt (7 : Fin 8) cfg4.N := by
  unfold W10
  rw [Function.update_self]
/-- Region 4 changes no buffer but its output arrays. -/
theorem W10_of (c : Dev nD) (r : Ref sig .tc) (h : r ∉ ([main_v84_0, main_v84_1, main_v84_2] : List (Ref sig .tc))) :
    W10 m D0 D1 D2 D3 D4 c (Proc.devRef .tc r) = W9 m D0 D1 D2 D3 c (Proc.devRef .tc r) := by
  unfold W10
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
/-- Region 5's output array `main_v87` after the region: window 5's final array. -/
theorem W12_main_v87 (c : Dev nD) : W12 m D0 D1 D2 D3 D4 D5 c (Proc.devRef .tc main_v87) = (D5.dat (rd (W11 m D0 D1 D2 D3 D4)) c).arrAt (5 : Fin 6) cfg5.N := by
  unfold W12
  rw [Function.update_self]
/-- Region 5 changes no buffer but its output arrays. -/
theorem W12_of (c : Dev nD) (r : Ref sig .tc) (h : r ∉ ([main_v87] : List (Ref sig .tc))) :
    W12 m D0 D1 D2 D3 D4 D5 c (Proc.devRef .tc r) = W11 m D0 D1 D2 D3 D4 c (Proc.devRef .tc r) := by
  unfold W12
  rw [Function.update_of_ne (StableHlo.devRef_ne_of_ne (List.ne_of_not_mem_cons h))]
/-- Region 6's output array `main_v104` after the region: window 7's final array. -/
theorem W14_main_v104 (c : Dev nD) : W14 m D0 D1 D2 D3 D4 D5 D6 c (Proc.devRef .tc main_v104) = (D6.dat (rd (W13 m D0 D1 D2 D3 D4 D5)) c).arrAt (7 : Fin 8) cfg6.N := by
  unfold W14
  rw [Function.update_self]
/-- Region 6 changes no buffer but its output arrays. -/
theorem W14_of (c : Dev nD) (r : Ref sig .tc) (h : r ∉ ([main_v104] : List (Ref sig .tc))) :
    W14 m D0 D1 D2 D3 D4 D5 D6 c (Proc.devRef .tc r) = W13 m D0 D1 D2 D3 D4 D5 c (Proc.devRef .tc r) := by
  unfold W14
  rw [Function.update_of_ne (StableHlo.devRef_ne_of_ne (List.ne_of_not_mem_cons h))]

end Cert.KernelIdeal.Hand

end
-- ==== Proof.KI.RunReg0.lean ====
/-
  Region 0 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 0: as the region was entered with it. -/
theorem hF0_0 (c : Dev nD) : (D0.dat (rd (W1 m)) c).arrAt (0 : Fin 8) cfg0.N = rd (W2 m D0) c (Pipeline.arrRef spec0 0) :=
  ((D0.dat (rd (W1 m)) c).arrAt_in 0 rfl _).trans ((D0.hA (rd (W1 m)) c 0).trans (W2_of m D0 c _ (by decide)).symm)
/-- Input window 1's array after region 0: as the region was entered with it. -/
theorem hF0_1 (c : Dev nD) : (D0.dat (rd (W1 m)) c).arrAt (1 : Fin 8) cfg0.N = rd (W2 m D0) c (Pipeline.arrRef spec0 1) :=
  ((D0.dat (rd (W1 m)) c).arrAt_in 1 rfl _).trans ((D0.hA (rd (W1 m)) c 1).trans (W2_of m D0 c _ (by decide)).symm)
/-- Input window 2's array after region 0: as the region was entered with it. -/
theorem hF0_2 (c : Dev nD) : (D0.dat (rd (W1 m)) c).arrAt (2 : Fin 8) cfg0.N = rd (W2 m D0) c (Pipeline.arrRef spec0 2) :=
  ((D0.dat (rd (W1 m)) c).arrAt_in 2 rfl _).trans ((D0.hA (rd (W1 m)) c 2).trans (W2_of m D0 c _ (by decide)).symm)
/-- Input window 3's array after region 0: as the region was entered with it. -/
theorem hF0_3 (c : Dev nD) : (D0.dat (rd (W1 m)) c).arrAt (3 : Fin 8) cfg0.N = rd (W2 m D0) c (Pipeline.arrRef spec0 3) :=
  ((D0.dat (rd (W1 m)) c).arrAt_in 3 rfl _).trans ((D0.hA (rd (W1 m)) c 3).trans (W2_of m D0 c _ (by decide)).symm)
/-- Input window 4's array after region 0: as the region was entered with it. -/
theorem hF0_4 (c : Dev nD) : (D0.dat (rd (W1 m)) c).arrAt (4 : Fin 8) cfg0.N = rd (W2 m D0) c (Pipeline.arrRef spec0 4) :=
  ((D0.dat (rd (W1 m)) c).arrAt_in 4 rfl _).trans ((D0.hA (rd (W1 m)) c 4).trans (W2_of m D0 c _ (by decide)).symm)
/-- Output window 5's array after region 0: the window's final array. -/
theorem hF0_5 (c : Dev nD) : (D0.dat (rd (W1 m)) c).arrAt (5 : Fin 8) cfg0.N = rd (W2 m D0) c (Pipeline.arrRef spec0 5) :=
  (W2_main_v30_0 m D0 c).symm
/-- Output window 6's array after region 0: the window's final array. -/
theorem hF0_6 (c : Dev nD) : (D0.dat (rd (W1 m)) c).arrAt (6 : Fin 8) cfg0.N = rd (W2 m D0) c (Pipeline.arrRef spec0 6) :=
  (W2_main_v30_1 m D0 c).symm
/-- Output window 7's array after region 0: the window's final array. -/
theorem hF0_7 (c : Dev nD) : (D0.dat (rd (W1 m)) c).arrAt (7 : Fin 8) cfg0.N = rd (W2 m D0) c (Pipeline.arrRef spec0 7) :=
  (W2_main_v30_2 m D0 c).symm
/-- After region 0 each of its arrays holds what the pipeline leaves in it: an input array what the region was entered
    with, an output array its window's final array. -/
theorem hF0 (c : Dev nD) : ∀ w : Fin 8, (D0.dat (rd (W1 m)) c).arrAt w cfg0.N = rd (W2 m D0) c (Pipeline.arrRef spec0 w)
  | 0 => hF0_0 m D0 c
  | 1 => hF0_1 m D0 c
  | 2 => hF0_2 m D0 c
  | 3 => hF0_3 m D0 c
  | 4 => hF0_4 m D0 c
  | 5 => hF0_5 m D0 c
  | 6 => hF0_6 m D0 c
  | 7 => hF0_7 m D0 c

/-- Every buffer that is no array of region 0 holds after it what it held before. -/
theorem hrest0 (c : Dev nD) : ∀ b, b ∉ Finset.univ.image (Pipeline.arrRef spec0) → rd (W2 m D0) c b = rd (W1 m) c b :=
  fun b hb => W2_of m D0 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 0 as a segment of the run. -/
def reg0 : Pipeline.RegionSeg (pcfgs (F := F)) adm (pdats m D0 D1 D2 D3 D4 D5 D6) () defs₀ Variants.none runL runLv 0 where
  win := launch0.win.to₀
  block_pos := launch0.block_pos
  stage_whole := launch0.stage_whole
  K := PEmpty
  osem k := k.elim
  ho := Pipeline.OwnSemFacts.none _
  hbody c := (D0.hbody (rd (W1 m)) c).loose
  hwaits := Pipeline.hwaits_of_owed_zero _ _ _ _ runL runLv 0 fun c t => D0.ho (rd (W1 m)) c t
  pre c := iprop(StableHlo.held (c : Thread nD τ) (Pipeline.ucRefs τ sig) ((W1 m) c) ∗ runR c)
  post c := iprop(StableHlo.held (c : Thread nD τ) (Pipeline.ucRefs τ sig) ((W2 m D0) c) ∗ runR c)
  X c := BI.emp
  Y c := BI.emp
  Z c := iprop(Pipeline.unscopedRest (Ix := Unit) (Name := ℕ) (U := UR sig nD τ) (Lvl := ℕ) spec0 c (rd (W1 m) c) ∗ ∃ r, prngReg c r)
  hentry c := by
    rw [Pipeline.ownSems0_none]
    have hsplit := Pipeline.arrays_of_unscopedBufs (p := 0) (pcfgs (F := F)) adm (pdats m D0 D1 D2 D3 D4 D5 D6) launch0.win launch0.arr_whole c
      ((pdats m D0 D1 D2 D3 D4 D5 D6 0 c).share_full fun w => D0.hq (rd (W1 m)) c w) (rd (W1 m) c) fun w => D0.hA (rd (W1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 0 c) (D0.ho (rd (W1 m)) c 0) (D0.hr (rd (W1 m)) c))
      iexact HO
    isplitr; · iempintro
    isplitl [Hrest]; · iexact Hrest
    iexact Hp
  hin c := by
    refine .trans ?_ (D0.hin (rd (W1 m)) c)
    iintro ⟨-, -, Hr⟩
    iexact Hr
  hout c := by
    rw [Pipeline.ownSems0_none]
    refine (D0.hout (rd (W1 m)) c).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4 D5 D6) ((pdats m D0 D1 D2 D3 D4 D5 D6 0 c).share_full fun w => D0.hq (rd (W1 m)) c w)
      (rd (W1 m) c) (rd (W2 m D0) c) ((pdats m D0 D1 D2 D3 D4 D5 D6 0 c).arrAt · cfg0.N) (hF0 m D0 c) (hrest0 m D0 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 0 c) (D0.ho (rd (W1 m)) c _))
    iexact HO

end Cert.KernelIdeal.Hand

end
-- ==== Proof.KI.RunReg1.lean ====
/-
  Region 1 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 1: as the region was entered with it. -/
theorem hF1_0 (c : Dev nD) : (D1.dat (rd (W3 m D0)) c).arrAt (0 : Fin 6) cfg1.N = rd (W4 m D0 D1) c (Pipeline.arrRef spec1 0) :=
  ((D1.dat (rd (W3 m D0)) c).arrAt_in 0 rfl _).trans ((D1.hA (rd (W3 m D0)) c 0).trans (W4_of m D0 D1 c _ (by decide)).symm)
/-- Input window 1's array after region 1: as the region was entered with it. -/
theorem hF1_1 (c : Dev nD) : (D1.dat (rd (W3 m D0)) c).arrAt (1 : Fin 6) cfg1.N = rd (W4 m D0 D1) c (Pipeline.arrRef spec1 1) :=
  ((D1.dat (rd (W3 m D0)) c).arrAt_in 1 rfl _).trans ((D1.hA (rd (W3 m D0)) c 1).trans (W4_of m D0 D1 c _ (by decide)).symm)
/-- Input window 2's array after region 1: as the region was entered with it. -/
theorem hF1_2 (c : Dev nD) : (D1.dat (rd (W3 m D0)) c).arrAt (2 : Fin 6) cfg1.N = rd (W4 m D0 D1) c (Pipeline.arrRef spec1 2) :=
  ((D1.dat (rd (W3 m D0)) c).arrAt_in 2 rfl _).trans ((D1.hA (rd (W3 m D0)) c 2).trans (W4_of m D0 D1 c _ (by decide)).symm)
/-- Input window 3's array after region 1: as the region was entered with it. -/
theorem hF1_3 (c : Dev nD) : (D1.dat (rd (W3 m D0)) c).arrAt (3 : Fin 6) cfg1.N = rd (W4 m D0 D1) c (Pipeline.arrRef spec1 3) :=
  ((D1.dat (rd (W3 m D0)) c).arrAt_in 3 rfl _).trans ((D1.hA (rd (W3 m D0)) c 3).trans (W4_of m D0 D1 c _ (by decide)).symm)
/-- Input window 4's array after region 1: as the region was entered with it. -/
theorem hF1_4 (c : Dev nD) : (D1.dat (rd (W3 m D0)) c).arrAt (4 : Fin 6) cfg1.N = rd (W4 m D0 D1) c (Pipeline.arrRef spec1 4) :=
  ((D1.dat (rd (W3 m D0)) c).arrAt_in 4 rfl _).trans ((D1.hA (rd (W3 m D0)) c 4).trans (W4_of m D0 D1 c _ (by decide)).symm)
/-- Output window 5's array after region 1: the window's final array. -/
theorem hF1_5 (c : Dev nD) : (D1.dat (rd (W3 m D0)) c).arrAt (5 : Fin 6) cfg1.N = rd (W4 m D0 D1) c (Pipeline.arrRef spec1 5) :=
  (W4_main_v33 m D0 D1 c).symm
/-- After region 1 each of its arrays holds what the pipeline leaves in it: an input array what the region was entered
    with, an output array its window's final array. -/
theorem hF1 (c : Dev nD) : ∀ w : Fin 6, (D1.dat (rd (W3 m D0)) c).arrAt w cfg1.N = rd (W4 m D0 D1) c (Pipeline.arrRef spec1 w)
  | 0 => hF1_0 m D0 D1 c
  | 1 => hF1_1 m D0 D1 c
  | 2 => hF1_2 m D0 D1 c
  | 3 => hF1_3 m D0 D1 c
  | 4 => hF1_4 m D0 D1 c
  | 5 => hF1_5 m D0 D1 c

/-- Every buffer that is no array of region 1 holds after it what it held before. -/
theorem hrest1 (c : Dev nD) : ∀ b, b ∉ Finset.univ.image (Pipeline.arrRef spec1) → rd (W4 m D0 D1) c b = rd (W3 m D0) c b :=
  fun b hb => W4_of m D0 D1 c b fun h => by
    rcases List.mem_cons.mp h with rfl | h
    · exact hb (Finset.mem_image.mpr ⟨(5 : Fin 6), Finset.mem_univ _, rfl⟩)
    cases h

set_option backward.isDefEq.respectTransparency.types false in
/-- Region 1 as a segment of the run. -/
def reg1 : Pipeline.RegionSeg (pcfgs (F := F)) adm (pdats m D0 D1 D2 D3 D4 D5 D6) () defs₀ Variants.none runL runLv 1 where
  win := launch1.win.to₀
  block_pos := launch1.block_pos
  stage_whole := launch1.stage_whole
  K := PEmpty
  osem k := k.elim
  ho := Pipeline.OwnSemFacts.none _
  hbody c := (D1.hbody (rd (W3 m D0)) c).loose
  hwaits := Pipeline.hwaits_of_owed_zero _ _ _ _ runL runLv 1 fun c t => D1.ho (rd (W3 m D0)) c t
  pre c := iprop(StableHlo.held (c : Thread nD τ) (Pipeline.ucRefs τ sig) ((W3 m D0) c) ∗ runR c)
  post c := iprop(StableHlo.held (c : Thread nD τ) (Pipeline.ucRefs τ sig) ((W4 m D0 D1) c) ∗ runR c)
  X c := iprop(∃ r, prngReg c r)
  Y c := iprop(∃ r, prngReg c r)
  Z c := Pipeline.unscopedRest (Ix := Unit) (Name := ℕ) (U := UR sig nD τ) (Lvl := ℕ) spec1 c (rd (W3 m D0) c)
  hentry c := by
    rw [Pipeline.ownSems0_none]
    have hsplit := Pipeline.arrays_of_unscopedBufs (p := 1) (pcfgs (F := F)) adm (pdats m D0 D1 D2 D3 D4 D5 D6) launch1.win launch1.arr_whole c
      ((pdats m D0 D1 D2 D3 D4 D5 D6 1 c).share_full fun w => D1.hq (rd (W3 m D0)) c w) (rd (W3 m D0) c) fun w => D1.hA (rd (W3 m D0)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 1 c) (D1.ho (rd (W3 m D0)) c 0) (D1.hr (rd (W3 m D0)) c))
      iexact HO
    isplitl [Hp]; · iexact Hp
    iexact Hrest
  hin c := by
    refine .trans ?_ (D1.hin (rd (W3 m D0)) c)
    unfold IA Pipeline.ΦA
    iintro ⟨Hp, -, Hr⟩
    isplitl [Hr]; · iexact Hr
    iexact Hp
  hout c := by
    rw [Pipeline.ownSems0_none]
    refine (D1.hout (rd (W3 m D0)) c).trans ?_
    unfold IA Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4 D5 D6) ((pdats m D0 D1 D2 D3 D4 D5 D6 1 c).share_full fun w => D1.hq (rd (W3 m D0)) c w)
      (rd (W3 m D0) c) (rd (W4 m D0 D1) c) ((pdats m D0 D1 D2 D3 D4 D5 D6 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 1 c) (D1.ho (rd (W3 m D0)) c _))
    iexact HO

end Cert.KernelIdeal.Hand

end
-- ==== Proof.KI.RunReg2.lean ====
/-
  Region 2 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 2: as the region was entered with it. -/
theorem hF2_0 (c : Dev nD) : (D2.dat (rd (W5 m D0 D1)) c).arrAt (0 : Fin 8) cfg2.N = rd (W6 m D0 D1 D2) c (Pipeline.arrRef spec2 0) :=
  ((D2.dat (rd (W5 m D0 D1)) c).arrAt_in 0 rfl _).trans ((D2.hA (rd (W5 m D0 D1)) c 0).trans (W6_of m D0 D1 D2 c _ (by decide)).symm)
/-- Input window 1's array after region 2: as the region was entered with it. -/
theorem hF2_1 (c : Dev nD) : (D2.dat (rd (W5 m D0 D1)) c).arrAt (1 : Fin 8) cfg2.N = rd (W6 m D0 D1 D2) c (Pipeline.arrRef spec2 1) :=
  ((D2.dat (rd (W5 m D0 D1)) c).arrAt_in 1 rfl _).trans ((D2.hA (rd (W5 m D0 D1)) c 1).trans (W6_of m D0 D1 D2 c _ (by decide)).symm)
/-- Input window 2's array after region 2: as the region was entered with it. -/
theorem hF2_2 (c : Dev nD) : (D2.dat (rd (W5 m D0 D1)) c).arrAt (2 : Fin 8) cfg2.N = rd (W6 m D0 D1 D2) c (Pipeline.arrRef spec2 2) :=
  ((D2.dat (rd (W5 m D0 D1)) c).arrAt_in 2 rfl _).trans ((D2.hA (rd (W5 m D0 D1)) c 2).trans (W6_of m D0 D1 D2 c _ (by decide)).symm)
/-- Input window 3's array after region 2: as the region was entered with it. -/
theorem hF2_3 (c : Dev nD) : (D2.dat (rd (W5 m D0 D1)) c).arrAt (3 : Fin 8) cfg2.N = rd (W6 m D0 D1 D2) c (Pipeline.arrRef spec2 3) :=
  ((D2.dat (rd (W5 m D0 D1)) c).arrAt_in 3 rfl _).trans ((D2.hA (rd (W5 m D0 D1)) c 3).trans (W6_of m D0 D1 D2 c _ (by decide)).symm)
/-- Input window 4's array after region 2: as the region was entered with it. -/
theorem hF2_4 (c : Dev nD) : (D2.dat (rd (W5 m D0 D1)) c).arrAt (4 : Fin 8) cfg2.N = rd (W6 m D0 D1 D2) c (Pipeline.arrRef spec2 4) :=
  ((D2.dat (rd (W5 m D0 D1)) c).arrAt_in 4 rfl _).trans ((D2.hA (rd (W5 m D0 D1)) c 4).trans (W6_of m D0 D1 D2 c _ (by decide)).symm)
/-- Output window 5's array after region 2: the window's final array. -/
theorem hF2_5 (c : Dev nD) : (D2.dat (rd (W5 m D0 D1)) c).arrAt (5 : Fin 8) cfg2.N = rd (W6 m D0 D1 D2) c (Pipeline.arrRef spec2 5) :=
  (W6_main_v57_0 m D0 D1 D2 c).symm
/-- Output window 6's array after region 2: the window's final array. -/
theorem hF2_6 (c : Dev nD) : (D2.dat (rd (W5 m D0 D1)) c).arrAt (6 : Fin 8) cfg2.N = rd (W6 m D0 D1 D2) c (Pipeline.arrRef spec2 6) :=
  (W6_main_v57_1 m D0 D1 D2 c).symm
/-- Output window 7's array after region 2: the window's final array. -/
theorem hF2_7 (c : Dev nD) : (D2.dat (rd (W5 m D0 D1)) c).arrAt (7 : Fin 8) cfg2.N = rd (W6 m D0 D1 D2) c (Pipeline.arrRef spec2 7) :=
  (W6_main_v57_2 m D0 D1 D2 c).symm
/-- After region 2 each of its arrays holds what the pipeline leaves in it: an input array what the region was entered
    with, an output array its window's final array. -/
theorem hF2 (c : Dev nD) : ∀ w : Fin 8, (D2.dat (rd (W5 m D0 D1)) c).arrAt w cfg2.N = rd (W6 m D0 D1 D2) c (Pipeline.arrRef spec2 w)
  | 0 => hF2_0 m D0 D1 D2 c
  | 1 => hF2_1 m D0 D1 D2 c
  | 2 => hF2_2 m D0 D1 D2 c
  | 3 => hF2_3 m D0 D1 D2 c
  | 4 => hF2_4 m D0 D1 D2 c
  | 5 => hF2_5 m D0 D1 D2 c
  | 6 => hF2_6 m D0 D1 D2 c
  | 7 => hF2_7 m D0 D1 D2 c

/-- Every buffer that is no array of region 2 holds after it what it held before. -/
theorem hrest2 (c : Dev nD) : ∀ b, b ∉ Finset.univ.image (Pipeline.arrRef spec2) → rd (W6 m D0 D1 D2) c b = rd (W5 m D0 D1) c b :=
  fun b hb => W6_of m D0 D1 D2 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 2 as a segment of the run. -/
def reg2 : Pipeline.RegionSeg (pcfgs (F := F)) adm (pdats m D0 D1 D2 D3 D4 D5 D6) () defs₀ Variants.none runL runLv 2 where
  win := launch2.win.to₀
  block_pos := launch2.block_pos
  stage_whole := launch2.stage_whole
  K := PEmpty
  osem k := k.elim
  ho := Pipeline.OwnSemFacts.none _
  hbody c := (D2.hbody (rd (W5 m D0 D1)) c).loose
  hwaits := Pipeline.hwaits_of_owed_zero _ _ _ _ runL runLv 2 fun c t => D2.ho (rd (W5 m D0 D1)) c t
  pre c := iprop(StableHlo.held (c : Thread nD τ) (Pipeline.ucRefs τ sig) ((W5 m D0 D1) c) ∗ runR c)
  post c := iprop(StableHlo.held (c : Thread nD τ) (Pipeline.ucRefs τ sig) ((W6 m D0 D1 D2) c) ∗ runR c)
  X c := BI.emp
  Y c := BI.emp
  Z c := iprop(Pipeline.unscopedRest (Ix := Unit) (Name := ℕ) (U := UR sig nD τ) (Lvl := ℕ) spec2 c (rd (W5 m D0 D1) c) ∗ ∃ r, prngReg c r)
  hentry c := by
    rw [Pipeline.ownSems0_none]
    have hsplit := Pipeline.arrays_of_unscopedBufs (p := 2) (pcfgs (F := F)) adm (pdats m D0 D1 D2 D3 D4 D5 D6) launch2.win launch2.arr_whole c
      ((pdats m D0 D1 D2 D3 D4 D5 D6 2 c).share_full fun w => D2.hq (rd (W5 m D0 D1)) c w) (rd (W5 m D0 D1) c) fun w => D2.hA (rd (W5 m D0 D1)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 2 c) (D2.ho (rd (W5 m D0 D1)) c 0) (D2.hr (rd (W5 m D0 D1)) c))
      iexact HO
    isplitr; · iempintro
    isplitl [Hrest]; · iexact Hrest
    iexact Hp
  hin c := by
    refine .trans ?_ (D2.hin (rd (W5 m D0 D1)) c)
    iintro ⟨-, -, Hr⟩
    iexact Hr
  hout c := by
    rw [Pipeline.ownSems0_none]
    refine (D2.hout (rd (W5 m D0 D1)) c).trans ?_
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4 D5 D6) ((pdats m D0 D1 D2 D3 D4 D5 D6 2 c).share_full fun w => D2.hq (rd (W5 m D0 D1)) c w)
      (rd (W5 m D0 D1) c) (rd (W6 m D0 D1 D2) c) ((pdats m D0 D1 D2 D3 D4 D5 D6 2 c).arrAt · cfg2.N) (hF2 m D0 D1 D2 c) (hrest2 m D0 D1 D2 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 2 c) (D2.ho (rd (W5 m D0 D1)) c _))
    iexact HO

end Cert.KernelIdeal.Hand

end
-- ==== Proof.KI.RunReg3.lean ====
/-
  Region 3 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 3: as the region was entered with it. -/
theorem hF3_0 (c : Dev nD) : (D3.dat (rd (W7 m D0 D1 D2)) c).arrAt (0 : Fin 6) cfg3.N = rd (W8 m D0 D1 D2 D3) c (Pipeline.arrRef spec3 0) :=
  ((D3.dat (rd (W7 m D0 D1 D2)) c).arrAt_in 0 rfl _).trans ((D3.hA (rd (W7 m D0 D1 D2)) c 0).trans (W8_of m D0 D1 D2 D3 c _ (by decide)).symm)
/-- Input window 1's array after region 3: as the region was entered with it. -/
theorem hF3_1 (c : Dev nD) : (D3.dat (rd (W7 m D0 D1 D2)) c).arrAt (1 : Fin 6) cfg3.N = rd (W8 m D0 D1 D2 D3) c (Pipeline.arrRef spec3 1) :=
  ((D3.dat (rd (W7 m D0 D1 D2)) c).arrAt_in 1 rfl _).trans ((D3.hA (rd (W7 m D0 D1 D2)) c 1).trans (W8_of m D0 D1 D2 D3 c _ (by decide)).symm)
/-- Input window 2's array after region 3: as the region was entered with it. -/
theorem hF3_2 (c : Dev nD) : (D3.dat (rd (W7 m D0 D1 D2)) c).arrAt (2 : Fin 6) cfg3.N = rd (W8 m D0 D1 D2 D3) c (Pipeline.arrRef spec3 2) :=
  ((D3.dat (rd (W7 m D0 D1 D2)) c).arrAt_in 2 rfl _).trans ((D3.hA (rd (W7 m D0 D1 D2)) c 2).trans (W8_of m D0 D1 D2 D3 c _ (by decide)).symm)
/-- Input window 3's array after region 3: as the region was entered with it. -/
theorem hF3_3 (c : Dev nD) : (D3.dat (rd (W7 m D0 D1 D2)) c).arrAt (3 : Fin 6) cfg3.N = rd (W8 m D0 D1 D2 D3) c (Pipeline.arrRef spec3 3) :=
  ((D3.dat (rd (W7 m D0 D1 D2)) c).arrAt_in 3 rfl _).trans ((D3.hA (rd (W7 m D0 D1 D2)) c 3).trans (W8_of m D0 D1 D2 D3 c _ (by decide)).symm)
/-- Input window 4's array after region 3: as the region was entered with it. -/
theorem hF3_4 (c : Dev nD) : (D3.dat (rd (W7 m D0 D1 D2)) c).arrAt (4 : Fin 6) cfg3.N = rd (W8 m D0 D1 D2 D3) c (Pipeline.arrRef spec3 4) :=
  ((D3.dat (rd (W7 m D0 D1 D2)) c).arrAt_in 4 rfl _).trans ((D3.hA (rd (W7 m D0 D1 D2)) c 4).trans (W8_of m D0 D1 D2 D3 c _ (by decide)).symm)
/-- Output window 5's array after region 3: the window's final array. -/
theorem hF3_5 (c : Dev nD) : (D3.dat (rd (W7 m D0 D1 D2)) c).arrAt (5 : Fin 6) cfg3.N = rd (W8 m D0 D1 D2 D3) c (Pipeline.arrRef spec3 5) :=
  (W8_main_v60 m D0 D1 D2 D3 c).symm
/-- After region 3 each of its arrays holds what the pipeline leaves in it: an input array what the region was entered
    with, an output array its window's final array. -/
theorem hF3 (c : Dev nD) : ∀ w : Fin 6, (D3.dat (rd (W7 m D0 D1 D2)) c).arrAt w cfg3.N = rd (W8 m D0 D1 D2 D3) c (Pipeline.arrRef spec3 w)
  | 0 => hF3_0 m D0 D1 D2 D3 c
  | 1 => hF3_1 m D0 D1 D2 D3 c
  | 2 => hF3_2 m D0 D1 D2 D3 c
  | 3 => hF3_3 m D0 D1 D2 D3 c
  | 4 => hF3_4 m D0 D1 D2 D3 c
  | 5 => hF3_5 m D0 D1 D2 D3 c

/-- Every buffer that is no array of region 3 holds after it what it held before. -/
theorem hrest3 (c : Dev nD) : ∀ b, b ∉ Finset.univ.image (Pipeline.arrRef spec3) → rd (W8 m D0 D1 D2 D3) c b = rd (W7 m D0 D1 D2) c b :=
  fun b hb => W8_of m D0 D1 D2 D3 c b fun h => by
    rcases List.mem_cons.mp h with rfl | h
    · exact hb (Finset.mem_image.mpr ⟨(5 : Fin 6), Finset.mem_univ _, rfl⟩)
    cases h

set_option backward.isDefEq.respectTransparency.types false in
/-- Region 3 as a segment of the run. -/
def reg3 : Pipeline.RegionSeg (pcfgs (F := F)) adm (pdats m D0 D1 D2 D3 D4 D5 D6) () defs₀ Variants.none runL runLv 3 where
  win := launch3.win.to₀
  block_pos := launch3.block_pos
  stage_whole := launch3.stage_whole
  K := PEmpty
  osem k := k.elim
  ho := Pipeline.OwnSemFacts.none _
  hbody c := (D3.hbody (rd (W7 m D0 D1 D2)) c).loose
  hwaits := Pipeline.hwaits_of_owed_zero _ _ _ _ runL runLv 3 fun c t => D3.ho (rd (W7 m D0 D1 D2)) c t
  pre c := iprop(StableHlo.held (c : Thread nD τ) (Pipeline.ucRefs τ sig) ((W7 m D0 D1 D2) c) ∗ runR c)
  post c := iprop(StableHlo.held (c : Thread nD τ) (Pipeline.ucRefs τ sig) ((W8 m D0 D1 D2 D3) c) ∗ runR c)
  X c := iprop(∃ r, prngReg c r)
  Y c := iprop(∃ r, prngReg c r)
  Z c := Pipeline.unscopedRest (Ix := Unit) (Name := ℕ) (U := UR sig nD τ) (Lvl := ℕ) spec3 c (rd (W7 m D0 D1 D2) c)
  hentry c := by
    rw [Pipeline.ownSems0_none]
    have hsplit := Pipeline.arrays_of_unscopedBufs (p := 3) (pcfgs (F := F)) adm (pdats m D0 D1 D2 D3 D4 D5 D6) launch3.win launch3.arr_whole c
      ((pdats m D0 D1 D2 D3 D4 D5 D6 3 c).share_full fun w => D3.hq (rd (W7 m D0 D1 D2)) c w) (rd (W7 m D0 D1 D2) c) fun w => D3.hA (rd (W7 m D0 D1 D2)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 3 c) (D3.ho (rd (W7 m D0 D1 D2)) c 0) (D3.hr (rd (W7 m D0 D1 D2)) c))
      iexact HO
    isplitl [Hp]; · iexact Hp
    iexact Hrest
  hin c := by
    refine .trans ?_ (D3.hin (rd (W7 m D0 D1 D2)) c)
    unfold IA Pipeline.ΦA
    iintro ⟨Hp, -, Hr⟩
    isplitl [Hr]; · iexact Hr
    iexact Hp
  hout c := by
    rw [Pipeline.ownSems0_none]
    refine (D3.hout (rd (W7 m D0 D1 D2)) c).trans ?_
    unfold IA Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4 D5 D6) ((pdats m D0 D1 D2 D3 D4 D5 D6 3 c).share_full fun w => D3.hq (rd (W7 m D0 D1 D2)) c w)
      (rd (W7 m D0 D1 D2) c) (rd (W8 m D0 D1 D2 D3) c) ((pdats m D0 D1 D2 D3 D4 D5 D6 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 3 c) (D3.ho (rd (W7 m D0 D1 D2)) c _))
    iexact HO

end Cert.KernelIdeal.Hand

end
-- ==== Proof.KI.RunReg4.lean ====
/-
  Region 4 of the program over the thread state: entered with every unscoped buffer at the boundary contents before it,
  left with them at the contents after it. Its windows' arrays are split out of the unscoped buffers at entry and put
  back at exit — each output array at its window's final array, each input array and every other buffer as entered —;
  the generator register passes beside the region, the invariant being entered from the scoped rest alone and returned to it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 4: as the region was entered with it. -/
theorem hF4_0 (c : Dev nD) : (D4.dat (rd (W9 m D0 D1 D2 D3)) c).arrAt (0 : Fin 8) cfg4.N = rd (W10 m D0 D1 D2 D3 D4) c (Pipeline.arrRef spec4 0) :=
  ((D4.dat (rd (W9 m D0 D1 D2 D3)) c).arrAt_in 0 rfl _).trans ((D4.hA (rd (W9 m D0 D1 D2 D3)) c 0).trans (W10_of m D0 D1 D2 D3 D4 c _ (by decide)).symm)
/-- Input window 1's array after region 4: as the region was entered with it. -/
theorem hF4_1 (c : Dev nD) : (D4.dat (rd (W9 m D0 D1 D2 D3)) c).arrAt (1 : Fin 8) cfg4.N = rd (W10 m D0 D1 D2 D3 D4) c (Pipeline.arrRef spec4 1) :=
  ((D4.dat (rd (W9 m D0 D1 D2 D3)) c).arrAt_in 1 rfl _).trans ((D4.hA (rd (W9 m D0 D1 D2 D3)) c 1).trans (W10_of m D0 D1 D2 D3 D4 c _ (by decide)).symm)
/-- Input window 2's array after region 4: as the region was entered with it. -/
theorem hF4_2 (c : Dev nD) : (D4.dat (rd (W9 m D0 D1 D2 D3)) c).arrAt (2 : Fin 8) cfg4.N = rd (W10 m D0 D1 D2 D3 D4) c (Pipeline.arrRef spec4 2) :=
  ((D4.dat (rd (W9 m D0 D1 D2 D3)) c).arrAt_in 2 rfl _).trans ((D4.hA (rd (W9 m D0 D1 D2 D3)) c 2).trans (W10_of m D0 D1 D2 D3 D4 c _ (by decide)).symm)
/-- Input window 3's array after region 4: as the region was entered with it. -/
theorem hF4_3 (c : Dev nD) : (D4.dat (rd (W9 m D0 D1 D2 D3)) c).arrAt (3 : Fin 8) cfg4.N = rd (W10 m D0 D1 D2 D3 D4) c (Pipeline.arrRef spec4 3) :=
  ((D4.dat (rd (W9 m D0 D1 D2 D3)) c).arrAt_in 3 rfl _).trans ((D4.hA (rd (W9 m D0 D1 D2 D3)) c 3).trans (W10_of m D0 D1 D2 D3 D4 c _ (by decide)).symm)
/-- Input window 4's array after region 4: as the region was entered with it. -/
theorem hF4_4 (c : Dev nD) : (D4.dat (rd (W9 m D0 D1 D2 D3)) c).arrAt (4 : Fin 8) cfg4.N = rd (W10 m D0 D1 D2 D3 D4) c (Pipeline.arrRef spec4 4) :=
  ((D4.dat (rd (W9 m D0 D1 D2 D3)) c).arrAt_in 4 rfl _).trans ((D4.hA (rd (W9 m D0 D1 D2 D3)) c 4).trans (W10_of m D0 D1 D2 D3 D4 c _ (by decide)).symm)
/-- Output window 5's array after region 4: the window's final array. -/
theorem hF4_5 (c : Dev nD) : (D4.dat (rd (W9 m D0 D1 D2 D3)) c).arrAt (5 : Fin 8) cfg4.N = rd (W10 m D0 D1 D2 D3 D4) c (Pipeline.arrRef spec4 5) :=
  (W10_main_v84_0 m D0 D1 D2 D3 D4 c).symm
/-- Output window 6's array after region 4: the window's final array. -/
theorem hF4_6 (c : Dev nD) : (D4.dat (rd (W9 m D0 D1 D2 D3)) c).arrAt (6 : Fin 8) cfg4.N = rd (W10 m D0 D1 D2 D3 D4) c (Pipeline.arrRef spec4 6) :=
  (W10_main_v84_1 m D0 D1 D2 D3 D4 c).symm
/-- Output window 7's array after region 4: the window's final array. -/
theorem hF4_7 (c : Dev nD) : (D4.dat (rd (W9 m D0 D1 D2 D3)) c).arrAt (7 : Fin 8) cfg4.N = rd (W10 m D0 D1 D2 D3 D4) c (Pipeline.arrRef spec4 7) :=
  (W10_main_v84_2 m D0 D1 D2 D3 D4 c).symm
/-- After region 4 each of its arrays holds what the pipeline leaves in it: an input array what the region was entered
    with, an output array its window's final array. -/
theorem hF4 (c : Dev nD) : ∀ w : Fin 8, (D4.dat (rd (W9 m D0 D1 D2 D3)) c).arrAt w cfg4.N = rd (W10 m D0 D1 D2 D3 D4) c (Pipeline.arrRef spec4 w)
  | 0 => hF4_0 m D0 D1 D2 D3 D4 c
  | 1 => hF4_1 m D0 D1 D2 D3 D4 c
  | 2 => hF4_2 m D0 D1 D2 D3 D4 c
  | 3 => hF4_3 m D0 D1 D2 D3 D4 c
  | 4 => hF4_4 m D0 D1 D2 D3 D4 c
  | 5 => hF4_5 m D0 D1 D2 D3 D4 c
  | 6 => hF4_6 m D0 D1 D2 D3 D4 c
  | 7 => hF4_7 m D0 D1 D2 D3 D4 c

/-- Every buffer that is no array of region 4 holds after it what it held before. -/
theorem hrest4 (c : Dev nD) : ∀ b, b ∉ Finset.univ.image (Pipeline.arrRef spec4) → rd (W10 m D0 D1 D2 D3 D4) c b = rd (W9 m D0 D1 D2 D3) c b :=
  fun b hb => W10_of m D0 D1 D2 D3 D4 c b fun h => by
    rcases List.mem_cons.mp h with rfl | h
    · exact hb (Finset.mem_image.mpr ⟨(5 : Fin 8), Finset.mem_univ _, rfl⟩)
    rcases List.mem_cons.mp h with rfl | h
    · exact hb (Finset.mem_image.mpr ⟨(6 : Fin 8), Finset.mem_univ _, rfl⟩)
    rcases List.mem_cons.mp h with rfl | h
    · exact hb (Finset.mem_image.mpr ⟨(7 : Fin 8), Finset.mem_univ _, rfl⟩)
    cases h

set_option backward.isDefEq.respectTransparency.types false in
/-- Region 4 as a segment of the run. -/
def reg4 : Pipeline.RegionSeg (pcfgs (F := F)) adm (pdats m D0 D1 D2 D3 D4 D5 D6) () defs₀ Variants.none runL runLv 4 where
  win := launch4.win.to₀
  block_pos := launch4.block_pos
  stage_whole := launch4.stage_whole
  K := PEmpty
  osem k := k.elim
  ho := Pipeline.OwnSemFacts.none _
  hbody c := (D4.hbody (rd (W9 m D0 D1 D2 D3)) c).loose
  hwaits := Pipeline.hwaits_of_owed_zero _ _ _ _ runL runLv 4 fun c t => D4.ho (rd (W9 m D0 D1 D2 D3)) c t
  pre c := iprop(StableHlo.held (c : Thread nD τ) (Pipeline.ucRefs τ sig) ((W9 m D0 D1 D2 D3) c) ∗ runR c)
  post c := iprop(StableHlo.held (c : Thread nD τ) (Pipeline.ucRefs τ sig) ((W10 m D0 D1 D2 D3 D4) c) ∗ runR c)
  X c := BI.emp
  Y c := BI.emp
  Z c := iprop(Pipeline.unscopedRest (Ix := Unit) (Name := ℕ) (U := UR sig nD τ) (Lvl := ℕ) spec4 c (rd (W9 m D0 D1 D2 D3) c) ∗ ∃ r, prngReg c r)
  hentry c := by
    rw [Pipeline.ownSems0_none]
    have hsplit := Pipeline.arrays_of_unscopedBufs (p := 4) (pcfgs (F := F)) adm (pdats m D0 D1 D2 D3 D4 D5 D6) launch4.win launch4.arr_whole c
      ((pdats m D0 D1 D2 D3 D4 D5 D6 4 c).share_full fun w => D4.hq (rd (W9 m D0 D1 D2 D3)) c w) (rd (W9 m D0 D1 D2 D3) c) fun w => D4.hA (rd (W9 m D0 D1 D2 D3)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 4 c) (D4.ho (rd (W9 m D0 D1 D2 D3)) c 0) (D4.hr (rd (W9 m D0 D1 D2 D3)) c))
      iexact HO
    isplitr; · iempintro
    isplitl [Hrest]; · iexact Hrest
    iexact Hp
  hin c := by
    refine .trans ?_ (D4.hin (rd (W9 m D0 D1 D2 D3)) c)
    iintro ⟨-, -, Hr⟩
    iexact Hr
  hout c := by
    rw [Pipeline.ownSems0_none]
    refine (D4.hout (rd (W9 m D0 D1 D2 D3)) c).trans ?_
    iintro Hr
    isplitr; · iempintro
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4 D5 D6) ((pdats m D0 D1 D2 D3 D4 D5 D6 4 c).share_full fun w => D4.hq (rd (W9 m D0 D1 D2 D3)) c w)
      (rd (W9 m D0 D1 D2 D3) c) (rd (W10 m D0 D1 D2 D3 D4) c) ((pdats m D0 D1 D2 D3 D4 D5 D6 4 c).arrAt · cfg4.N) (hF4 m D0 D1 D2 D3 D4 c) (hrest4 m D0 D1 D2 D3 D4 c)
    rw [Pipeline.unscopedBufs_held] at hjoin
    iintro ⟨Ha, HO, -, Hrest, HY⟩
    imodintro
    isplitl [Ha Hrest]
    · iapply hjoin; isplitl [Ha] <;> iassumption
    isplitl [HY]; · iexact HY
    iapply (owesAt_out (pdats m D0 D1 D2 D3 D4 D5 D6 4 c) (D4.ho (rd (W9 m D0 D1 D2 D3)) c _))
    iexact HO

end Cert.KernelIdeal.Hand

end
-- ==== Proof.KI.RunReg5.lean ====
/-
  Region 5 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 5: as the region was entered with it. -/
theorem hF5_0 (c : Dev nD) : (D5.dat (rd (W11 m D0 D1 D2 D3 D4)) c).arrAt (0 : Fin 6) cfg5.N = rd (W12 m D0 D1 D2 D3 D4 D5) c (Pipeline.arrRef spec5 0) :=
  ((D5.dat (rd (W11 m D0 D1 D2 D3 D4)) c).arrAt_in 0 rfl _).trans ((D5.hA (rd (W11 m D0 D1 D2 D3 D4)) c 0).trans (W12_of m D0 D1 D2 D3 D4 D5 c _ (by decide)).symm)
/-- Input window 1's array after region 5: as the region was entered with it. -/
theorem hF5_1 (c : Dev nD) : (D5.dat (rd (W11 m D0 D1 D2 D3 D4)) c).arrAt (1 : Fin 6) cfg5.N = rd (W12 m D0 D1 D2 D3 D4 D5) c (Pipeline.arrRef spec5 1) :=
  ((D5.dat (rd (W11 m D0 D1 D2 D3 D4)) c).arrAt_in 1 rfl _).trans ((D5.hA (rd (W11 m D0 D1 D2 D3 D4)) c 1).trans (W12_of m D0 D1 D2 D3 D4 D5 c _ (by decide)).symm)
/-- Input window 2's array after region 5: as the region was entered with it. -/
theorem hF5_2 (c : Dev nD) : (D5.dat (rd (W11 m D0 D1 D2 D3 D4)) c).arrAt (2 : Fin 6) cfg5.N = rd (W12 m D0 D1 D2 D3 D4 D5) c (Pipeline.arrRef spec5 2) :=
  ((D5.dat (rd (W11 m D0 D1 D2 D3 D4)) c).arrAt_in 2 rfl _).trans ((D5.hA (rd (W11 m D0 D1 D2 D3 D4)) c 2).trans (W12_of m D0 D1 D2 D3 D4 D5 c _ (by decide)).symm)
/-- Input window 3's array after region 5: as the region was entered with it. -/
theorem hF5_3 (c : Dev nD) : (D5.dat (rd (W11 m D0 D1 D2 D3 D4)) c).arrAt (3 : Fin 6) cfg5.N = rd (W12 m D0 D1 D2 D3 D4 D5) c (Pipeline.arrRef spec5 3) :=
  ((D5.dat (rd (W11 m D0 D1 D2 D3 D4)) c).arrAt_in 3 rfl _).trans ((D5.hA (rd (W11 m D0 D1 D2 D3 D4)) c 3).trans (W12_of m D0 D1 D2 D3 D4 D5 c _ (by decide)).symm)
/-- Input window 4's array after region 5: as the region was entered with it. -/
theorem hF5_4 (c : Dev nD) : (D5.dat (rd (W11 m D0 D1 D2 D3 D4)) c).arrAt (4 : Fin 6) cfg5.N = rd (W12 m D0 D1 D2 D3 D4 D5) c (Pipeline.arrRef spec5 4) :=
  ((D5.dat (rd (W11 m D0 D1 D2 D3 D4)) c).arrAt_in 4 rfl _).trans ((D5.hA (rd (W11 m D0 D1 D2 D3 D4)) c 4).trans (W12_of m D0 D1 D2 D3 D4 D5 c _ (by decide)).symm)
/-- Output window 5's array after region 5: the window's final array. -/
theorem hF5_5 (c : Dev nD) : (D5.dat (rd (W11 m D0 D1 D2 D3 D4)) c).arrAt (5 : Fin 6) cfg5.N = rd (W12 m D0 D1 D2 D3 D4 D5) c (Pipeline.arrRef spec5 5) :=
  (W12_main_v87 m D0 D1 D2 D3 D4 D5 c).symm
/-- After region 5 each of its arrays holds what the pipeline leaves in it: an input array what the region was entered
    with, an output array its window's final array. -/
theorem hF5 (c : Dev nD) : ∀ w : Fin 6, (D5.dat (rd (W11 m D0 D1 D2 D3 D4)) c).arrAt w cfg5.N = rd (W12 m D0 D1 D2 D3 D4 D5) c (Pipeline.arrRef spec5 w)
  | 0 => hF5_0 m D0 D1 D2 D3 D4 D5 c
  | 1 => hF5_1 m D0 D1 D2 D3 D4 D5 c
  | 2 => hF5_2 m D0 D1 D2 D3 D4 D5 c
  | 3 => hF5_3 m D0 D1 D2 D3 D4 D5 c
  | 4 => hF5_4 m D0 D1 D2 D3 D4 D5 c
  | 5 => hF5_5 m D0 D1 D2 D3 D4 D5 c

/-- Every buffer that is no array of region 5 holds after it what it held before. -/
theorem hrest5 (c : Dev nD) : ∀ b, b ∉ Finset.univ.image (Pipeline.arrRef spec5) → rd (W12 m D0 D1 D2 D3 D4 D5) c b = rd (W11 m D0 D1 D2 D3 D4) c b :=
  fun b hb => W12_of m D0 D1 D2 D3 D4 D5 c b fun h => by
    rcases List.mem_cons.mp h with rfl | h
    · exact hb (Finset.mem_image.mpr ⟨(5 : Fin 6), Finset.mem_univ _, rfl⟩)
    cases h

set_option backward.isDefEq.respectTransparency.types false in
/-- Region 5 as a segment of the run. -/
def reg5 : Pipeline.RegionSeg (pcfgs (F := F)) adm (pdats m D0 D1 D2 D3 D4 D5 D6) () defs₀ Variants.none runL runLv 5 where
  win := launch5.win.to₀
  block_pos := launch5.block_pos
  stage_whole := launch5.stage_whole
  K := PEmpty
  osem k := k.elim
  ho := Pipeline.OwnSemFacts.none _
  hbody c := (D5.hbody (rd (W11 m D0 D1 D2 D3 D4)) c).loose
  hwaits := Pipeline.hwaits_of_owed_zero _ _ _ _ runL runLv 5 fun c t => D5.ho (rd (W11 m D0 D1 D2 D3 D4)) c t
  pre c := iprop(StableHlo.held (c : Thread nD τ) (Pipeline.ucRefs τ sig) ((W11 m D0 D1 D2 D3 D4) c) ∗ runR c)
  post c := iprop(StableHlo.held (c : Thread nD τ) (Pipeline.ucRefs τ sig) ((W12 m D0 D1 D2 D3 D4 D5) c) ∗ runR c)
  X c := iprop(∃ r, prngReg c r)
  Y c := iprop(∃ r, prngReg c r)
  Z c := Pipeline.unscopedRest (Ix := Unit) (Name := ℕ) (U := UR sig nD τ) (Lvl := ℕ) spec5 c (rd (W11 m D0 D1 D2 D3 D4) c)
  hentry c := by
    rw [Pipeline.ownSems0_none]
    have hsplit := Pipeline.arrays_of_unscopedBufs (p := 5) (pcfgs (F := F)) adm (pdats m D0 D1 D2 D3 D4 D5 D6) launch5.win launch5.arr_whole c
      ((pdats m D0 D1 D2 D3 D4 D5 D6 5 c).share_full fun w => D5.hq (rd (W11 m D0 D1 D2 D3 D4)) c w) (rd (W11 m D0 D1 D2 D3 D4) c) fun w => D5.hA (rd (W11 m D0 D1 D2 D3 D4)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 5 c) (D5.ho (rd (W11 m D0 D1 D2 D3 D4)) c 0) (D5.hr (rd (W11 m D0 D1 D2 D3 D4)) c))
      iexact HO
    isplitl [Hp]; · iexact Hp
    iexact Hrest
  hin c := by
    refine .trans ?_ (D5.hin (rd (W11 m D0 D1 D2 D3 D4)) c)
    unfold IA Pipeline.ΦA
    iintro ⟨Hp, -, Hr⟩
    isplitl [Hr]; · iexact Hr
    iexact Hp
  hout c := by
    rw [Pipeline.ownSems0_none]
    refine (D5.hout (rd (W11 m D0 D1 D2 D3 D4)) c).trans ?_
    unfold IA Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m D0 D1 D2 D3 D4 D5 D6) ((pdats m D0 D1 D2 D3 D4 D5 D6 5 c).share_full fun w => D5.hq (rd (W11 m D0 D1 D2 D3 D4)) c w)
      (rd (W11 m D0 D1 D2 D3 D4) c) (rd (W12 m D0 D1 D2 D3 D4 D5) c) ((pdats m D0 D1 D2 D3 D4 D5 D6 5 c).arrAt · cfg5.N) (hF5 m D0 D1 D2 D3 D4 D5 c) (hrest5 m D0 D1 D2 D3 D4 D5 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 5 c) (D5.ho (rd (W11 m D0 D1 D2 D3 D4)) c _))
    iexact HO

end Cert.KernelIdeal.Hand

end
-- ==== Proof.KI.RunReg6.lean ====
/-
  Region 6 of the program over the thread state: entered with every unscoped buffer at the boundary contents before it,
  left with them at the contents after it. Its windows' arrays are split out of the unscoped buffers at entry and put
  back at exit — each output array at its window's final array, each input array and every other buffer as entered —;
  the generator register goes into the invariant and comes back out of it; the core owes nothing before or after; the kernel has no
  semaphore of its own.
-/
import proofs.«144042_j23673859736035_1_alg».proof.Proof.KI.RunEq
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
variable (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))

/-- Input window 0's array after region 6: as the region was entered with it. -/
theorem hF6_0 (c : Dev nD) : (D6.dat (rd (W13 m D0 D1 D2 D3 D4 D5)) c).arrAt (0 : Fin 8) cfg6.N = rd (W14 m D0 D1 D2 D3 D4 D5 D6) c (Pipeline.arrRef spec6 0) :=
  ((D6.dat (rd (W13 m D0 D1 D2 D3 D4 D5)) c).arrAt_in 0 rfl _).trans ((D6.hA (rd (W13 m D0 D1 D2 D3 D4 D5)) c 0).trans (W14_of m D0 D1 D2 D3 D4 D5 D6 c _ (by decide)).symm)
/-- Input window 1's array after region 6: as the region was entered with it. -/
theorem hF6_1 (c : Dev nD) : (D6.dat (rd (W13 m D0 D1 D2 D3 D4 D5)) c).arrAt (1 : Fin 8) cfg6.N = rd (W14 m D0 D1 D2 D3 D4 D5 D6) c (Pipeline.arrRef spec6 1) :=
  ((D6.dat (rd (W13 m D0 D1 D2 D3 D4 D5)) c).arrAt_in 1 rfl _).trans ((D6.hA (rd (W13 m D0 D1 D2 D3 D4 D5)) c 1).trans (W14_of m D0 D1 D2 D3 D4 D5 D6 c _ (by decide)).symm)
/-- Input window 2's array after region 6: as the region was entered with it. -/
theorem hF6_2 (c : Dev nD) : (D6.dat (rd (W13 m D0 D1 D2 D3 D4 D5)) c).arrAt (2 : Fin 8) cfg6.N = rd (W14 m D0 D1 D2 D3 D4 D5 D6) c (Pipeline.arrRef spec6 2) :=
  ((D6.dat (rd (W13 m D0 D1 D2 D3 D4 D5)) c).arrAt_in 2 rfl _).trans ((D6.hA (rd (W13 m D0 D1 D2 D3 D4 D5)) c 2).trans (W14_of m D0 D1 D2 D3 D4 D5 D6 c _ (by decide)).symm)
/-- Input window 3's array after region 6: as the region was entered with it. -/
theorem hF6_3 (c : Dev nD) : (D6.dat (rd (W13 m D0 D1 D2 D3 D4 D5)) c).arrAt (3 : Fin 8) cfg6.N = rd (W14 m D0 D1 D2 D3 D4 D5 D6) c (Pipeline.arrRef spec6 3) :=
  ((D6.dat (rd (W13 m D0 D1 D2 D3 D4 D5)) c).arrAt_in 3 rfl _).trans ((D6.hA (rd (W13 m D0 D1 D2 D3 D4 D5)) c 3).trans (W14_of m D0 D1 D2 D3 D4 D5 D6 c _ (by decide)).symm)
/-- Input window 4's array after region 6: as the region was entered with it. -/
theorem hF6_4 (c : Dev nD) : (D6.dat (rd (W13 m D0 D1 D2 D3 D4 D5)) c).arrAt (4 : Fin 8) cfg6.N = rd (W14 m D0 D1 D2 D3 D4 D5 D6) c (Pipeline.arrRef spec6 4) :=
  ((D6.dat (rd (W13 m D0 D1 D2 D3 D4 D5)) c).arrAt_in 4 rfl _).trans ((D6.hA (rd (W13 m D0 D1 D2 D3 D4 D5)) c 4).trans (W14_of m D0 D1 D2 D3 D4 D5 D6 c _ (by decide)).symm)
/-- Input window 5's array after region 6: as the region was entered with it. -/
theorem hF6_5 (c : Dev nD) : (D6.dat (rd (W13 m D0 D1 D2 D3 D4 D5)) c).arrAt (5 : Fin 8) cfg6.N = rd (W14 m D0 D1 D2 D3 D4 D5 D6) c (Pipeline.arrRef spec6 5) :=
  ((D6.dat (rd (W13 m D0 D1 D2 D3 D4 D5)) c).arrAt_in 5 rfl _).trans ((D6.hA (rd (W13 m D0 D1 D2 D3 D4 D5)) c 5).trans (W14_of m D0 D1 D2 D3 D4 D5 D6 c _ (by decide)).symm)
/-- Input window 6's array after region 6: as the region was entered with it. -/
theorem hF6_6 (c : Dev nD) : (D6.dat (rd (W13 m D0 D1 D2 D3 D4 D5)) c).arrAt (6 : Fin 8) cfg6.N = rd (W14 m D0 D1 D2 D3 D4 D5 D6) c (Pipeline.arrRef spec6 6) :=
  ((D6.dat (rd (W13 m D0 D1 D2 D3 D4 D5)) c).arrAt_in 6 rfl _).trans ((D6.hA (rd (W13 m D0 D1 D2 D3 D4 D5)) c 6).trans (W14_of m D0 D1 D2 D3 D4 D5 D6 c _ (by decide)).symm)
/-- Output window 7's array after region 6: the window's final array. -/
theorem hF6_7 (c : Dev nD) : (D6.dat (rd (W13 m D0 D1 D2 D3 D4 D5)) c).arrAt (7 : Fin 8) cfg6.N = rd (W14 m D0 D1 D2 D3 D4 D5 D6) c (Pipeline.arrRef spec6 7) :=
  (W14_main_v104 m D0 D1 D2 D3 D4 D5 D6 c).symm
/-- After region 6 each of its arrays holds what the pipeline leaves in it: an input array what the region was entered
    with, an output array its window's final array. -/
theorem hF6 (c : Dev nD) : ∀ w : Fin 8, (D6.dat (rd (W13 m D0 D1 D2 D3 D4 D5)) c).arrAt w cfg6.N = rd (W14 m D0 D1 D2 D3 D4 D5 D6) c (Pipeline.arrRef spec6 w)
  | 0 => hF6_0 m D0 D1 D2 D3 D4 D5 D6 c
  | 1 => hF6_1 m D0 D1 D2 D3 D4 D5 D6 c
  | 2 => hF6_2 m D0 D1 D2 D3 D4 D5 D6 c
  | 3 => hF6_3 m D0 D1 D2 D3 D4 D5 D6 c
  | 4 => hF6_4 m D0 D1 D2 D3 D4 D5 D6 c
  | 5 => hF6_5 m D0 D1 D2 D3 D4 D5 D6 c
  | 6 => hF6_6 m D0 D1 D2 D3 D4 D5 D6 c
  | 7 => hF6_7 m D0 D1 D2 D3 D4 D5 D6 c

/-- Every buffer that is no array of region 6 holds after it what it held before. -/
theorem hrest6 (c : Dev nD) : ∀ b, b ∉ Finset.univ.image (Pipeline.arrRef spec6) → rd (W14 m D0 D1 D2 D3 D4 D5 D6) c b = rd (W13 m D0 D1 D2 D3 D4 D5) c b :=
  fun b hb => W14_of m D0 D1 D2 D3 D4 D5 D6 c b fun h => by
    rcases List.mem_cons.mp h with rfl | h
    · exact hb (Finset.mem_image.mpr ⟨(7 : Fin 8), Finset.mem_univ _, rfl⟩)
    cases h

set_option backward.isDefEq.respectTransparency.types false in
/-- Region 6 as a segment of the run. -/
def reg6 : Pipeline.RegionSeg (pcfgs (F := F)) adm (pdats m D0 D1 D2 D3 D4 D5 D6) () defs₀ Variants.none runL runLv 6 where
  win := launch6.win.to₀
  block_pos := launch6.block_pos
  stage_whole := launch6.stage_whole
  K := PEmpty
  osem k := k.elim
  ho := Pipeline.OwnSemFacts.none _
  hbody c := (D6.hbody (rd (W13 m D0 D1 D2 D3 D4 D5)) c).loose
  hwaits := Pipeline.hwaits_of_owed_zero _ _ _ _ runL runLv 6 fun c t => D6.ho (rd (W13 m D0 D1 D2 D3 D4 D5)) c t
  pre c := iprop(StableHlo.held (c : Thread nD τ) (Pipeline.ucRefs τ sig) ((W13 m D0 D1 D2 D3 D4 D5) c) ∗ runR c)
  post c := iprop(StableHlo.held (c : Thread nD τ) (Pipeline.ucRefs τ sig) ((W14 m D0 D1 D2 D3 D4 D5 D6) c) ∗ runR c)
  X c := iprop(∃ r, prngReg c r)
  Y c := iprop(∃ r, prngReg c r)
  Z c := Pipeline.unscopedRest (Ix := Unit) (Name := ℕ) (U := UR sig nD τ) (Lvl := ℕ) spec6 c (rd (W13 m D0 D1 D2 D3 D4 D5) c)
  hentry c := by
    rw [Pipeline.ownSems0_none]
    have hsplit := Pipeline.arrays_of_unscopedBufs (p := 6) (pcfgs (F := F)) adm (pdats m D0 D1 D2 D3 D4 D5 D6) launch6.win launch6.arr_whole c
      ((pdats m D0 D1 D2 D3 D4 D5 D6 6 c).share_full fun w => D6.hq (rd (W13 m D0 D1 D2 D3 D4 D5)) c w) (rd (W13 m D0 D1 D2 D3 D4 D5) c) fun w => D6.hA (rd (W13 m D0 D1 D2 D3 D4 D5)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats m D0 D1 D2 D3 D4 D5 D6 6 c) (D6.ho (rd (W13 m D0 D1 D2 D3 D4 D5)) c 0) (D6.hr (rd (W13 m D0 D1 D2 D3 D4 D5)) c))
      iexact HO
    isplitl [Hp]; · iexact Hp
    iexact Hrest
  hin c := by
    refine .trans ?_ (D6.hin (rd (W13 m D0 D1 D2 D3 D4 D5)) c)
    unfold IA Pipeline.ΦA
    iintro ⟨Hp, -, Hr⟩
    isplitl [Hr]; · iexact Hr
    iexact Hp
  hout c := by
    rw [Pipeline.ownSems0_none]
    refine (D6.hout (rd (W13 m D0 D1 D2 D3 D4 D5)) c).trans ?_
    unfold IA Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m D0 D1 D2 D3 D4 D5 D6) ((pdats m D0 D1 D2 D3 D4 D5 D6 6 c).share_full fun w => D6.hq (rd (W13 m D0 D1 D2 D3 D4 D5)) c w)
      (rd (W13 m D0 D1 D2 D3 D4 D5) c) (rd (W14 m D0 D1 D2 D3 D4 D5 D6) c) ((pdats m D0 D1 D2 D3 D4 D5 D6 6 c).arrAt · cfg6.N) (hF6 m D0 D1 D2 D3 D4 D5 D6 c) (hrest6 m D0 D1 D2 D3 D4 D5 D6 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m D0 D1 D2 D3 D4 D5 D6 6 c) (D6.ho (rd (W13 m D0 D1 D2 D3 D4 D5)) c _))
    iexact HO

end Cert.KernelIdeal.Hand

end
-- ==== Proof.KI.RunVal.lean ====
/-
  The run of the program over its seven regions, given one segment record per region, read at the end at the result
  array as well as at the argument arrays: what the last region leaves in the result's buffer is what the final memory
  holds there.
-/
import proofs.«144042_j23673859736035_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

set_option backward.isDefEq.respectTransparency.types false in
/-- The run of the program from the regions' segment records, with the result read too: for rest states `E` the launch
    makes on every core at once and that end owing nothing, contents `outs` the regions leave, proof data, and per region
    a segment record entered from the thread state before it and left at the one after it, every weakly fair execution
    from memory `m` with zero counters terminates, and every final memory holds the result array at the last boundary's
    contents and each argument array as launched. -/
theorem frame_cond_val (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v104) = V14 m outs c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v104) = V14 m outs c (Proc.devRef .tc main_v104) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- at launch every unscoped buffer is held at the launch memory's contents; the other resources dealt make the first rest state on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the last thread state holds every unscoped buffer at the last boundary's contents: the final memory agrees with them there
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v104) (Finset.mem_filter.mpr ⟨StableHlo.devRef_mem_tcRefs main_v104, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c),
        (h (Proc.devRef .tc main_arg9) (Finset.mem_filter.mpr ⟨StableHlo.devRef_mem_tcRefs main_arg9, by decide⟩)).trans (V14_main_arg9 m outs c),
        (h (Proc.devRef .tc main_arg10) (Finset.mem_filter.mpr ⟨StableHlo.devRef_mem_tcRefs main_arg10, by decide⟩)).trans (V14_main_arg10 m outs c),
        (h (Proc.devRef .tc main_arg11) (Finset.mem_filter.mpr ⟨StableHlo.devRef_mem_tcRefs main_arg11, by decide⟩)).trans (V14_main_arg11 m outs c),
        (h (Proc.devRef .tc main_arg12) (Finset.mem_filter.mpr ⟨StableHlo.devRef_mem_tcRefs main_arg12, by decide⟩)).trans (V14_main_arg12 m outs c),
        (h (Proc.devRef .tc main_arg13) (Finset.mem_filter.mpr ⟨StableHlo.devRef_mem_tcRefs main_arg13, by decide⟩)).trans (V14_main_arg13 m outs c),
        (h (Proc.devRef .tc main_arg14) (Finset.mem_filter.mpr ⟨StableHlo.devRef_mem_tcRefs main_arg14, by decide⟩)).trans (V14_main_arg14 m outs c),
        (h (Proc.devRef .tc main_arg15) (Finset.mem_filter.mpr ⟨StableHlo.devRef_mem_tcRefs main_arg15, by decide⟩)).trans (V14_main_arg15 m outs c),
        (h (Proc.devRef .tc main_arg16) (Finset.mem_filter.mpr ⟨StableHlo.devRef_mem_tcRefs main_arg16, by decide⟩)).trans (V14_main_arg16 m outs c),
        (h (Proc.devRef .tc main_arg17) (Finset.mem_filter.mpr ⟨StableHlo.devRef_mem_tcRefs main_arg17, by decide⟩)).trans (V14_main_arg17 m outs c)⟩
    · iexact HSI

end Cert.KernelIdeal.Hand

end
-- ==== Proof.KI.Run.lean ====
/-
  The run of the program over its seven kernel regions, assembled: from the launch memory with zero counters every
  weakly fair execution terminates, faulting nowhere, and the final memory holds every argument array as launched — and
  the result array at what the last region's write-backs leave, that region entered at the contents the six regions and
  seven host stretches before it leave. Each region is a segment record over the thread state "every unscoped buffer at
  the boundary's contents, the generator register at some state, nothing owed"; the launch makes the first such state on
  every core; the last is read against the final memory. Stated over the regions' data as hypotheses.
-/
import proofs.«144042_j23673859736035_1_alg».proof.Proof.KI.RunReg0
import proofs.«144042_j23673859736035_1_alg».proof.Proof.KI.RunReg1
import proofs.«144042_j23673859736035_1_alg».proof.Proof.KI.RunReg2
import proofs.«144042_j23673859736035_1_alg».proof.Proof.KI.RunReg3
import proofs.«144042_j23673859736035_1_alg».proof.Proof.KI.RunReg4
import proofs.«144042_j23673859736035_1_alg».proof.Proof.KI.RunReg5
import proofs.«144042_j23673859736035_1_alg».proof.Proof.KI.RunReg6
import proofs.«144042_j23673859736035_1_alg».proof.Proof.KI.RunVal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bundled

set_option backward.isDefEq.respectTransparency.types false in
/-- The frame of the program, from the regions' bundled data. -/
theorem run_frame (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl)

set_option backward.isDefEq.respectTransparency.types false in
/-- The same run, with the result: the final memory holds the result array at the last region's output window's final
    array, the region entered at the contents before it. -/
theorem run_frame_val (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_v104) = (D6.dat (rd (W13 m D0 D1 D2 D3 D4 D5)) c).arrAt (7 : Fin 8) cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono
    (fun _ h c => ⟨((h c).1.trans (congrFun (congrFun (V14_eq m D0 D1 D2 D3 D4 D5 D6) c) _)).trans (W14_main_v104 m D0 D1 D2 D3 D4 D5 D6 c), (h c).2⟩)
    (frame_cond_val m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl))

set_option backward.isDefEq.respectTransparency.types false in
/-- The same, the result stated as the last boundary's contents at the result's buffer. -/
theorem run_frame_valW (m : (ℓ : Loc nD τ sig) → Buf (Elt F) ℓ)
    (D0 : RegData (F := F) cfg0 (IR cfg0)) (D1 : RegData (F := F) cfg1 (IA cfg1)) (D2 : RegData (F := F) cfg2 (IR cfg2)) (D3 : RegData (F := F) cfg3 (IA cfg3)) (D4 : RegData (F := F) cfg4 (IR cfg4)) (D5 : RegData (F := F) cfg5 (IA cfg5)) (D6 : RegData (F := F) cfg6 (IA cfg6))
    (ρ : Dev nD → PrngReg) :
    θ_run defs (onTc (τ := τ) (main (F := F))) ⟨m, fun _ => 0, ρ⟩ (fun r => ∀ c : Dev nD,
      r.2.mem ((c.tc : Thread nD τ).loc main_v104) = (W14 m D0 D1 D2 D3 D4 D5 D6) c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono
    (fun _ h c => ⟨(h c).1.trans (congrFun (congrFun (V14_eq m D0 D1 D2 D3 D4 D5 D6) c) _), (h c).2⟩)
    (frame_cond_val m (EP := (emb₁ : Emb (URounds (GSem nD τ sig) Unit) 𝕄)) (ι := ()) (𝒱₀ := Variants.none) (L := runL) (lv := runLv) (hL := fun _ _ => rfl) (ρ := ρ)
    (outs := outs m D0 D1 D2 D3 D4 D5 D6) (pdats := pdats m D0 D1 D2 D3 D4 D5 D6) (O₀ := 0) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄) ⊢ BI.own ((emb₁ : Emb (URounds (GSem nD τ sig) Unit) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m D0 D1 D2 D3 D4 D5 D6) (hpre0 := fun c => by rw [V1_eq m]; exact .rfl) (hpost0 := fun c => by rw [V2_eq m D0 D1 D2 D3 D4 D5 D6]; exact .rfl)
    (R1 := reg1 m D0 D1 D2 D3 D4 D5 D6) (hpre1 := fun c => by rw [V3_eq m D0 D1 D2 D3 D4 D5 D6]; exact .rfl) (hpost1 := fun c => by rw [V4_eq m D0 D1 D2 D3 D4 D5 D6]; exact .rfl)
    (R2 := reg2 m D0 D1 D2 D3 D4 D5 D6) (hpre2 := fun c => by rw [V5_eq m D0 D1 D2 D3 D4 D5 D6]; exact .rfl) (hpost2 := fun c => by rw [V6_eq m D0 D1 D2 D3 D4 D5 D6]; exact .rfl)
    (R3 := reg3 m D0 D1 D2 D3 D4 D5 D6) (hpre3 := fun c => by rw [V7_eq m D0 D1 D2 D3 D4 D5 D6]; exact .rfl) (hpost3 := fun c => by rw [V8_eq m D0 D1 D2 D3 D4 D5 D6]; exact .rfl)
    (R4 := reg4 m D0 D1 D2 D3 D4 D5 D6) (hpre4 := fun c => by rw [V9_eq m D0 D1 D2 D3 D4 D5 D6]; exact .rfl) (hpost4 := fun c => by rw [V10_eq m D0 D1 D2 D3 D4 D5 D6]; exact .rfl)
    (R5 := reg5 m D0 D1 D2 D3 D4 D5 D6) (hpre5 := fun c => by rw [V11_eq m D0 D1 D2 D3 D4 D5 D6]; exact .rfl) (hpost5 := fun c => by rw [V12_eq m D0 D1 D2 D3 D4 D5 D6]; exact .rfl)
    (R6 := reg6 m D0 D1 D2 D3 D4 D5 D6) (hpre6 := fun c => by rw [V13_eq m D0 D1 D2 D3 D4 D5 D6]; exact .rfl) (hpost6 := fun c => by rw [V14_eq m D0 D1 D2 D3 D4 D5 D6]; exact .rfl))

end Bundled

/-- THE FRAME over the regions' data as hypotheses: per region K the proof data at any entry contents `V`, its arrays
    `V`'s, full shares, nothing owed, no bound on the recorded pairs at entry, the body obligation, and the invariant
    entered from and returned to the scoped rest (regions 0, 2, 4) or the scoped rest beside the generator register
    (regions 1, 3, 5, 6). -/
theorem frame_of
    (dat0 : Val₀ (F := F) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (ho0 : ∀ V c t, (dat0 V c).owed t = 0)
    (hr0 : ∀ V c, (dat0 V c).recorded 0 = Set.univ)
    (hbody0 : ∀ V c, BodyObligation (dat0 V c) (defs₀ (F := F)) Variants.none () Set.univ)
    (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
    (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
    (dat1 : Val₀ (F := F) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (ho1 : ∀ V c t, (dat1 V c).owed t = 0)
    (hr1 : ∀ V c, (dat1 V c).recorded 0 = Set.univ)
    (hbody1 : ∀ V c, BodyObligation (dat1 V c) (defs₀ (F := F)) Variants.none () Set.univ)
    (hin1 : ∀ V c, (Pipeline.ΦA (U := UR sig nD τ) (Val := Elt F) spec1 c : sProp (MT nD τ sig Unit (Elt F) ℕ (UR sig nD τ) ℕ)) ⊢ (dat1 V c).Φ 0)
    (hout1 : ∀ V c, (dat1 V c).Φ (Fin.last cfg1.N) ⊢ (Pipeline.ΦA (U := UR sig nD τ) (Val := Elt F) spec1 c : sProp (MT nD τ sig Unit (Elt F) ℕ (UR sig nD τ) ℕ)))
    (dat2 : Val₀ (F := F) → (c : Dev nD) → Dat τ (Elt F) Unit ℕ (UR sig nD τ) ℕ cfg2 c)
    (hA2 : ∀ V c w, (dat2 V c).A w = V c (Pipeline.arrRef spec2 w))
    (hq2 : ∀ V c w, (dat2 V c).q w = fullShare)
    (ho2 : ∀ V c t, (dat2 V c).owed t = 0)
    (hr2 : ∀ V c, (dat2 V c).recorded 0 = Set.univ)
    (hbody2 : ∀ V c, BodyObligation (dat2 V c) (defs₀ (F := F)) Variants.none () Set.univ)
    (hin2 : ∀ V c, (Pipeline.scopedRest (Ix := Unit) (Name := ℕ) (U := UR sig nD τ) (Lvl := ℕ) (Val := Elt F) spec2 c : sProp (MT nD τ sig Unit (Elt F) ℕ (UR sig nD τ) ℕ)) ⊢ (dat2 V c).Φ 0)
    (hout2 : ∀ V c, (dat2 V c).Φ (Fin.last cfg2.N) ⊢ (Pipeline.scopedRest (Ix := Unit) (Name := ℕ) (U := UR sig nD τ) (Lvl := ℕ) (Val := Elt F) spec2 c : sProp (MT nD τ sig Unit (Elt F) ℕ (UR sig nD τ) ℕ)))
    (dat3 : Val₀ (F := F) → (c : Dev nD) → Dat τ (Elt F) Unit ℕ (UR sig nD τ) ℕ cfg3 c)
    (hA3 : ∀ V c w, (dat3 V c).A w = V c (Pipeline.arrRef spec3 w))
    (hq3 : ∀ V c w, (dat3 V c).q w = fullShare)
    (ho3 : ∀ V c t, (dat3 V c).owed t = 0)
    (hr3 : ∀ V c, (dat3 V c).recorded 0 = Set.univ)
    (hbody3 : ∀ V c, BodyObligation (dat3 V c) (defs₀ (F := F)) Variants.none () Set.univ)
    (hin3 : ∀ V c, (Pipeline.ΦA (U := UR sig nD τ) (Val := Elt F) spec3 c : sProp (MT nD τ sig Unit (Elt F) ℕ (UR sig nD τ) ℕ)) ⊢ (dat3 V c).Φ 0)
    (hout3 : ∀ V c, (dat3 V c).Φ (Fin.last cfg3.N) ⊢ (Pipeline.ΦA (U := UR sig nD τ) (Val := Elt F) spec3 c : sProp (MT nD τ sig Unit (Elt F) ℕ (UR sig nD τ) ℕ)))
    (dat4 : Val₀ (F := F) → (c : Dev nD) → Dat τ (Elt F) Unit ℕ (UR sig nD τ) ℕ cfg4 c)
    (hA4 : ∀ V c w, (dat4 V c).A w = V c (Pipeline.arrRef spec4 w))
    (hq4 : ∀ V c w, (dat4 V c).q w = fullShare)
    (ho4 : ∀ V c t, (dat4 V c).owed t = 0)
    (hr4 : ∀ V c, (dat4 V c).recorded 0 = Set.univ)
    (hbody4 : ∀ V c, BodyObligation (dat4 V c) (defs₀ (F := F)) Variants.none () Set.univ)
    (hin4 : ∀ V c, (Pipeline.scopedRest (Ix := Unit) (Name := ℕ) (U := UR sig nD τ) (Lvl := ℕ) (Val := Elt F) spec4 c : sProp (MT nD τ sig Unit (Elt F) ℕ (UR sig nD τ) ℕ)) ⊢ (dat4 V c).Φ 0)
    (hout4 : ∀ V c, (dat4 V c).Φ (Fin.last cfg4.N) ⊢ (Pipeline.scopedRest (Ix := Unit) (Name := ℕ) (U := UR sig nD τ) (Lvl := ℕ) (Val := Elt F) spec4 c : sProp (MT nD τ sig Unit (Elt F) ℕ (UR sig nD τ) ℕ)))
    (dat5 : Val₀ (F := F) → (c : Dev nD) → Dat τ (Elt F) Unit ℕ (UR sig nD τ) ℕ cfg5 c)
    (hA5 : ∀ V c w, (dat5 V c).A w = V c (Pipeline.arrRef spec5 w))
    (hq5 : ∀ V c w, (dat5 V c).q w = fullShare)
    (ho5 : ∀ V c t, (dat5 V c).owed t = 0)
    (hr5 : ∀ V c, (dat5 V c).recorded 0 = Set.univ)
    (hbody5 : ∀ V c, BodyObligation (dat5 V c) (defs₀ (F := F)) Variants.none () Set.univ)
    (hin5 : ∀ V c, (Pipeline.ΦA (U := UR sig nD τ) (Val := Elt F) spec5 c : sProp (MT nD τ sig Unit (Elt F) ℕ (UR sig nD τ) ℕ)) ⊢ (dat5 V c).Φ 0)
    (hout5 : ∀ V c, (dat5 V c).Φ (Fin.last cfg5.N) ⊢ (Pipeline.ΦA (U := UR sig nD τ) (Val := Elt F) spec5 c : sProp (MT nD τ sig Unit (Elt F) ℕ (UR sig nD τ) ℕ)))
    (dat6 : Val₀ (F := F) → (c : Dev nD) → Dat τ (Elt F) Unit ℕ (UR sig nD τ) ℕ cfg6 c)
    (hA6 : ∀ V c w, (dat6 V c).A w = V c (Pipeline.arrRef spec6 w))
    (hq6 : ∀ V c w, (dat6 V c).q w = fullShare)
    (ho6 : ∀ V c t, (dat6 V c).owed t = 0)
    (hr6 : ∀ V c, (dat6 V c).recorded 0 = Set.univ)
    (hbody6 : ∀ V c, BodyObligation (dat6 V c) (defs₀ (F := F)) Variants.none () Set.univ)
    (hin6 : ∀ V c, (Pipeline.ΦA (U := UR sig nD τ) (Val := Elt F) spec6 c : sProp (MT nD τ sig Unit (Elt F) ℕ (UR sig nD τ) ℕ)) ⊢ (dat6 V c).Φ 0)
    (hout6 : ∀ V c, (dat6 V c).Φ (Fin.last cfg6.N) ⊢ (Pipeline.ΦA (U := UR sig nD τ) (Val := Elt F) spec6 c : sProp (MT nD τ sig Unit (Elt F) ℕ (UR sig nD τ) ℕ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩
    ⟨dat6, hA6, hq6, ho6, hr6, hbody6, hin6, hout6⟩ ρ

/-- The same with the result: the final memory holds the result array at region 6's output window's final array, region 6
    entered at the boundary contents `W13` folded from the launch memory through the regions' data. -/
theorem frame_val_of
    (dat0 : Val₀ (F := F) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (ho0 : ∀ V c t, (dat0 V c).owed t = 0)
    (hr0 : ∀ V c, (dat0 V c).recorded 0 = Set.univ)
    (hbody0 : ∀ V c, BodyObligation (dat0 V c) (defs₀ (F := F)) Variants.none () Set.univ)
    (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
    (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
    (dat1 : Val₀ (F := F) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (ho1 : ∀ V c t, (dat1 V c).owed t = 0)
    (hr1 : ∀ V c, (dat1 V c).recorded 0 = Set.univ)
    (hbody1 : ∀ V c, BodyObligation (dat1 V c) (defs₀ (F := F)) Variants.none () Set.univ)
    (hin1 : ∀ V c, (Pipeline.ΦA (U := UR sig nD τ) (Val := Elt F) spec1 c : sProp (MT nD τ sig Unit (Elt F) ℕ (UR sig nD τ) ℕ)) ⊢ (dat1 V c).Φ 0)
    (hout1 : ∀ V c, (dat1 V c).Φ (Fin.last cfg1.N) ⊢ (Pipeline.ΦA (U := UR sig nD τ) (Val := Elt F) spec1 c : sProp (MT nD τ sig Unit (Elt F) ℕ (UR sig nD τ) ℕ)))
    (dat2 : Val₀ (F := F) → (c : Dev nD) → Dat τ (Elt F) Unit ℕ (UR sig nD τ) ℕ cfg2 c)
    (hA2 : ∀ V c w, (dat2 V c).A w = V c (Pipeline.arrRef spec2 w))
    (hq2 : ∀ V c w, (dat2 V c).q w = fullShare)
    (ho2 : ∀ V c t, (dat2 V c).owed t = 0)
    (hr2 : ∀ V c, (dat2 V c).recorded 0 = Set.univ)
    (hbody2 : ∀ V c, BodyObligation (dat2 V c) (defs₀ (F := F)) Variants.none () Set.univ)
    (hin2 : ∀ V c, (Pipeline.scopedRest (Ix := Unit) (Name := ℕ) (U := UR sig nD τ) (Lvl := ℕ) (Val := Elt F) spec2 c : sProp (MT nD τ sig Unit (Elt F) ℕ (UR sig nD τ) ℕ)) ⊢ (dat2 V c).Φ 0)
    (hout2 : ∀ V c, (dat2 V c).Φ (Fin.last cfg2.N) ⊢ (Pipeline.scopedRest (Ix := Unit) (Name := ℕ) (U := UR sig nD τ) (Lvl := ℕ) (Val := Elt F) spec2 c : sProp (MT nD τ sig Unit (Elt F) ℕ (UR sig nD τ) ℕ)))
    (dat3 : Val₀ (F := F) → (c : Dev nD) → Dat τ (Elt F) Unit ℕ (UR sig nD τ) ℕ cfg3 c)
    (hA3 : ∀ V c w, (dat3 V c).A w = V c (Pipeline.arrRef spec3 w))
    (hq3 : ∀ V c w, (dat3 V c).q w = fullShare)
    (ho3 : ∀ V c t, (dat3 V c).owed t = 0)
    (hr3 : ∀ V c, (dat3 V c).recorded 0 = Set.univ)
    (hbody3 : ∀ V c, BodyObligation (dat3 V c) (defs₀ (F := F)) Variants.none () Set.univ)
    (hin3 : ∀ V c, (Pipeline.ΦA (U := UR sig nD τ) (Val := Elt F) spec3 c : sProp (MT nD τ sig Unit (Elt F) ℕ (UR sig nD τ) ℕ)) ⊢ (dat3 V c).Φ 0)
    (hout3 : ∀ V c, (dat3 V c).Φ (Fin.last cfg3.N) ⊢ (Pipeline.ΦA (U := UR sig nD τ) (Val := Elt F) spec3 c : sProp (MT nD τ sig Unit (Elt F) ℕ (UR sig nD τ) ℕ)))
    (dat4 : Val₀ (F := F) → (c : Dev nD) → Dat τ (Elt F) Unit ℕ (UR sig nD τ) ℕ cfg4 c)
    (hA4 : ∀ V c w, (dat4 V c).A w = V c (Pipeline.arrRef spec4 w))
    (hq4 : ∀ V c w, (dat4 V c).q w = fullShare)
    (ho4 : ∀ V c t, (dat4 V c).owed t = 0)
    (hr4 : ∀ V c, (dat4 V c).recorded 0 = Set.univ)
    (hbody4 : ∀ V c, BodyObligation (dat4 V c) (defs₀ (F := F)) Variants.none () Set.univ)
    (hin4 : ∀ V c, (Pipeline.scopedRest (Ix := Unit) (Name := ℕ) (U := UR sig nD τ) (Lvl := ℕ) (Val := Elt F) spec4 c : sProp (MT nD τ sig Unit (Elt F) ℕ (UR sig nD τ) ℕ)) ⊢ (dat4 V c).Φ 0)
    (hout4 : ∀ V c, (dat4 V c).Φ (Fin.last cfg4.N) ⊢ (Pipeline.scopedRest (Ix := Unit) (Name := ℕ) (U := UR sig nD τ) (Lvl := ℕ) (Val := Elt F) spec4 c : sProp (MT nD τ sig Unit (Elt F) ℕ (UR sig nD τ) ℕ)))
    (dat5 : Val₀ (F := F) → (c : Dev nD) → Dat τ (Elt F) Unit ℕ (UR sig nD τ) ℕ cfg5 c)
    (hA5 : ∀ V c w, (dat5 V c).A w = V c (Pipeline.arrRef spec5 w))
    (hq5 : ∀ V c w, (dat5 V c).q w = fullShare)
    (ho5 : ∀ V c t, (dat5 V c).owed t = 0)
    (hr5 : ∀ V c, (dat5 V c).recorded 0 = Set.univ)
    (hbody5 : ∀ V c, BodyObligation (dat5 V c) (defs₀ (F := F)) Variants.none () Set.univ)
    (hin5 : ∀ V c, (Pipeline.ΦA (U := UR sig nD τ) (Val := Elt F) spec5 c : sProp (MT nD τ sig Unit (Elt F) ℕ (UR sig nD τ) ℕ)) ⊢ (dat5 V c).Φ 0)
    (hout5 : ∀ V c, (dat5 V c).Φ (Fin.last cfg5.N) ⊢ (Pipeline.ΦA (U := UR sig nD τ) (Val := Elt F) spec5 c : sProp (MT nD τ sig Unit (Elt F) ℕ (UR sig nD τ) ℕ)))
    (dat6 : Val₀ (F := F) → (c : Dev nD) → Dat τ (Elt F) Unit ℕ (UR sig nD τ) ℕ cfg6 c)
    (hA6 : ∀ V c w, (dat6 V c).A w = V c (Pipeline.arrRef spec6 w))
    (hq6 : ∀ V c w, (dat6 V c).q w = fullShare)
    (ho6 : ∀ V c t, (dat6 V c).owed t = 0)
    (hr6 : ∀ V c, (dat6 V c).recorded 0 = Set.univ)
    (hbody6 : ∀ V c, BodyObligation (dat6 V c) (defs₀ (F := F)) Variants.none () Set.univ)
    (hin6 : ∀ V c, (Pipeline.ΦA (U := UR sig nD τ) (Val := Elt F) spec6 c : sProp (MT nD τ sig Unit (Elt F) ℕ (UR sig nD τ) ℕ)) ⊢ (dat6 V c).Φ 0)
    (hout6 : ∀ V c, (dat6 V c).Φ (Fin.last cfg6.N) ⊢ (Pipeline.ΦA (U := UR sig nD τ) (Val := Elt F) spec6 c : sProp (MT nD τ sig Unit (Elt F) ℕ (UR sig nD τ) ℕ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v104)
        = (dat6 (rd (W13 m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩)) c).arrAt (7 : Fin 8) cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame_val m
    ⟨dat0, hA0, hq0, ho0, hr0, hbody0, hin0, hout0⟩
    ⟨dat1, hA1, hq1, ho1, hr1, hbody1, hin1, hout1⟩
    ⟨dat2, hA2, hq2, ho2, hr2, hbody2, hin2, hout2⟩
    ⟨dat3, hA3, hq3, ho3, hr3, hbody3, hin3, hout3⟩
    ⟨dat4, hA4, hq4, ho4, hr4, hbody4, hin4, hout4⟩
    ⟨dat5, hA5, hq5, ho5, hr5, hbody5, hin5, hout5⟩
    ⟨dat6, hA6, hq6, ho6, hr6, hbody6, hin6, hout6⟩ ρ

end Cert.KernelIdeal.Hand

end
-- ==== Proof.KI.Lin0Base.lean ====
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (linear layer with column statistics): what its three control cases are stated over

The kernel runs over ten row blocks. At block t it forms lin = agg_t · Wl + bl + h_t · Wr, stores it, and adds the
column sums of lin and of lin² into two rows kept in scratch memory; at the first block it zeroes the two rows
first, at the last block it divides them by the row count into the mean and the (uncentred) variance. -/

-- The contents of a core's buffers when the region is entered: a parameter of everything below.
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the block
    index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- "This is the first row block": the condition under which the two scratch rows are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last row block": the condition under which mean and variance are written. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last block nothing is stored into window 6 (the mean) and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last block it is stored. -/
theorem liveAt0_6 : ∀ t : Fin cfg0.N, cond0_1 (grid0.coords t) → cfg0.idle 6 (grid0.coords t) = false := by decide +kernel
/-- Away from the last block nothing is stored into window 7 (the variance) and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last block it is stored. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
/-- The two scratch rows: whole buffers of the kernel's own, passed beside the windows. -/
abbrev scM0_0 : Memref sig .tc .vmem S1x256 .f32 := Memref.whole cc0_scratch0
abbrev scM0_1 : Memref sig .tc .vmem S1x256 .f32 := Memref.whole cc0_scratch1
/-- Views through which the contents of the outputs and of the scratch rows are stated. -/
abbrev VO0_5 : View sig .tc .vmem S5000x256 .f32 := (Memref.whole cc0_stg5_0 : Memref sig .tc .vmem S5000x256 .f32).view
abbrev VO0_6 : View sig .tc .vmem S1x256 .f32 := (Memref.whole cc0_stg6_0 : Memref sig .tc .vmem S1x256 .f32).view
abbrev VO0_7 : View sig .tc .vmem S1x256 .f32 := (Memref.whole cc0_stg7_0 : Memref sig .tc .vmem S1x256 .f32).view
abbrev VS0_0 : View sig .tc .vmem S1x256 .f32 := scM0_0.view
abbrev VS0_1 : View sig .tc .vmem S1x256 .f32 := scM0_1.view

end Cert.KernelIdeal.Hand

end
-- ==== Proof.KI.Lin0RunA.lean ====
import proofs.«144042_j23673859736035_1_alg».proof.Proof.KI.Lin0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first row block: the two scratch rows are zeroed, then the block's column sums are added. On whole memrefs, the inputs at their
    blocks, the body runs to a continuation that holds the inputs as they were, the block of lin with its pieces
    written, and each scratch row with its pieces written; the lists of pieces are found by running the body. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (y6 y7 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare y6
            ∗ owns (c : Thread nD τ) arg8 fullShare y7
            ∗ (∃ d, owns (c : Thread nD τ) arg9 fullShare d)
            ∗ (∃ d, owns (c : Thread nD τ) arg10 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare y6
                ∗ owns (c : Thread nD τ) arg8 fullShare y7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact hf6
      iexact H6
    isplitl [H7]
    · iexists _; isplitr; · ipureintro; exact hf7
      iexact H7
    isplitl [HS0]; · iexists _; iexact HS0
    iexists _; iexact HS1

end Cert.KernelIdeal.Hand

end
-- ==== Proof.KI.Lin0RunB.lean ====
import proofs.«144042_j23673859736035_1_alg».proof.Proof.KI.Lin0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle row block: the block's column sums are added to the two scratch rows. On whole memrefs, the inputs at their
    blocks, the body runs to a continuation that holds the inputs as they were, the block of lin with its pieces
    written, and each scratch row with its pieces written; the lists of pieces are found by running the body. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (y6 y7 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare y6
            ∗ owns (c : Thread nD τ) arg8 fullShare y7
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare y6
                ∗ owns (c : Thread nD τ) arg8 fullShare y7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact hf6
      iexact H6
    isplitl [H7]
    · iexists _; isplitr; · ipureintro; exact hf7
      iexact H7
    isplitl [HS0]; · iexists _; iexact HS0
    iexists _; iexact HS1

end Cert.KernelIdeal.Hand

end
-- ==== Proof.KI.Lin0RunC.lean ====
import proofs.«144042_j23673859736035_1_alg».proof.Proof.KI.Lin0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last row block: the column sums are added, then mean and variance are written. On whole memrefs, the inputs at their
    blocks, the body runs to a continuation that holds the inputs as they were, the block of lin with its pieces
    written, and each scratch row with its pieces written; the lists of pieces are found by running the body. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Lin0Dat.lean ====
import proofs.«144042_j23673859736035_1_alg».proof.Proof.KI.Lin0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each control case leaves, point by point

What a case leaves in a buffer is its list of pieces read back; since every store of this kernel is a store of the whole
buffer, the pieces cover it, and the contents do not depend on what the buffer held before. -/

/-- The pieces case A finds for output window 5 tile it, hence cover it. -/
theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S5000x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- What case A leaves there: its pieces read back. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S5000x256 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- The pieces case A finds for scratch row 0 tile it, hence cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- What case A leaves there: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- The pieces case A finds for scratch row 1 tile it, hence cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- What case A leaves there: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- The pieces case B finds for output window 5 tile it, hence cover it. -/
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S5000x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

/-- What case B leaves there: its pieces read back. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S5000x256 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- The pieces case B finds for scratch row 0 tile it, hence cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- What case B leaves there: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- The pieces case B finds for scratch row 1 tile it, hence cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- What case B leaves there: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The pieces case C finds for output window 5 tile it, hence cover it. -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S5000x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

/-- What case C leaves there: its pieces read back. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S5000x256 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- The pieces case C finds for output window 6 tile it, hence cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- What case C leaves there: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- The pieces case C finds for output window 7 tile it, hence cover it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- What case C leaves there: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The pieces case C finds for scratch row 0 tile it, hence cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- What case C leaves there: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The pieces case C finds for scratch row 1 tile it, hence cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

/-- What case C leaves there: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! # Region 0: the two scratch rows point by point, and the proof data of the pipeline -/

variable (V : (c : Dev nD) → (b : Ref sig .tc) → Buf (Elt F) ((c : Thread nD τ).loc b))

/-- THE ACCUMULATION. What the two scratch rows hold after the body at position n: at the first block what the zeroing
    and the first addition leave; afterwards what the addition leaves over what the block before left. -/
def sAt0 (c : Dev nD) : (n : ℕ) → n < cfg0.N → Vec F S1x256 .f32 × Vec F S1x256 .f32
  | 0, hn =>
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 9 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)

/-- What the block before left (anything at the first block, where it is not read). -/
abbrev sPrev0 (c : Dev nD) (t : Fin cfg0.N) : Vec F S1x256 .f32 × Vec F S1x256 .f32 :=
  sAt0 V c (t.val - 1) (Nat.lt_of_le_of_lt (Nat.sub_le _ _) t.isLt)

/-- The scratch rows at the first block. -/
theorem sAt0_A (c : Dev nD) (t : Fin cfg0.N) (h0 : t.val = 0) :
    sAt0 V c t.val t.isLt =
      (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- The scratch rows at a middle block: the addition over what the block before left. -/
theorem sAt0_B (c : Dev nD) (t : Fin cfg0.N) (h0 : t.val ≠ 0) (h1 : t.val ≠ 9) :
    sAt0 V c t.val t.isLt =
      (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2) := by
  obtain ⟨n, hn⟩ := t
  cases n with
  | zero => exact absurd rfl h0
  | succ n => exact (dif_neg h1).trans rfl

/-- The scratch rows at the last block. -/
theorem sAt0_C (c : Dev nD) (t : Fin cfg0.N) (h0 : t.val ≠ 0) (h1 : t.val = 9) :
    sAt0 V c t.val t.isLt =
      (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2) := by
  obtain ⟨n, hn⟩ := t
  cases n with
  | zero => exact absurd rfl h0
  | succ n => exact (dif_pos h1).trans rfl

/-- What the body leaves in the block of lin at point t. -/
def lin0 (c : Dev nD) (t : Fin cfg0.N) : Vec F S5000x256 .f32 :=
  if h0 : t.val = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val = 9 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2

/-- What the body leaves in the mean's buffer at point t: at the last block the first scratch row divided by the row
    count; before that nothing is stored there, and nothing reads the placeholder. -/
def mean0 (c : Dev nD) (t : Fin cfg0.N) : Vec F S1x256 .f32 :=
  if h1 : t.val = 9 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else VO0_6.read (Elt F) VO0_6.junk

/-- The same for the variance's buffer. -/
def var0 (c : Dev nD) (t : Fin cfg0.N) : Vec F S1x256 .f32 :=
  if h1 : t.val = 9 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sPrev0 V c t).1 (sPrev0 V c t).2
  else VO0_7.read (Elt F) VO0_7.junk

/-! ## The invariant -/

/-- The region's invariant before position n: before the first block the scoped buffers no window stages, each at
    anything; afterwards the two scratch rows at what the block before left, beside the other such buffers. -/
def PhiS0 (c : Dev nD) : (n : ℕ) → n ≤ cfg0.N → sProp (MT nD τ sig Unit (Elt F) ℕ (UR sig nD τ) ℕ)
  | 0, _ => Pipeline.scopedRest (Ix := Unit) (Name := ℕ) (U := UR sig nD τ) (Lvl := ℕ) (Val := Elt F) spec0 c
  | n + 1, hn => iprop(iprop(owns (c : Thread nD τ) scM0_0 fullShare (sAt0 V c n hn).1 ∗ owns (c : Thread nD τ) scM0_1 fullShare (sAt0 V c n hn).2)
      ∗ Pipeline.scopedRestBut (Ix := Unit) (Name := ℕ) (U := UR sig nD τ) (Lvl := ℕ) (Val := Elt F) spec0 c [cc0_scratch0, cc0_scratch1])

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop(iprop(owns (c : Thread nD τ) scM0_0 fullShare (sAt0 V c n hn).1 ∗ owns (c : Thread nD τ) scM0_1 fullShare (sAt0 V c n hn).2)
      ∗ Pipeline.scopedRestBut (Ix := Unit) (Name := ℕ) (U := UR sig nD τ) (Lvl := ℕ) (Val := Elt F) spec0 c [cc0_scratch0, cc0_scratch1]) := rfl

theorem PhiS0_pos (c : Dev nD) (n : ℕ) (h : n ≤ cfg0.N) (hz : n ≠ 0) :
    PhiS0 V c n h = iprop(iprop(owns (c : Thread nD τ) scM0_0 fullShare (sAt0 V c (n - 1) (by omega)).1 ∗ owns (c : Thread nD τ) scM0_1 fullShare (sAt0 V c (n - 1) (by omega)).2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl

/-- The scoped buffers no window stages, with the two scratch rows taken out as memrefs owned at some contents. -/
theorem scopedRest0_rows (c : Dev nD) :
    (Pipeline.scopedRest (Ix := Unit) (Name := ℕ) (U := UR sig nD τ) (Lvl := ℕ) (Val := Elt F) spec0 c : sProp (MT nD τ sig Unit (Elt F) ℕ (UR sig nD τ) ℕ))
      = iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0_0, scM0_1, owns_whole]; try rfl

/-! ## The proof data -/

/-- The proof data of region 0's pipeline on core c: the arrays as the region finds them; after the body at point t
    each input's buffer at its block, the outputs' at what the point's case leaves; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => lin0 V c t
    | ⟨6, _⟩ => mean0 V c t
    | ⟨7, _⟩ => var0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) : (dat0 V c).recorded 0 = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = lin0 V c t := by dsimp only [dat0]
theorem after0_6 (c : Dev nD) (t : Fin cfg0.N) : (dat0 V c).after 6 t = mean0 V c t := by dsimp only [dat0]
theorem after0_7 (c : Dev nD) (t : Fin cfg0.N) : (dat0 V c).after 7 t = var0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem lin0_A (c : Dev nD) (t : Fin cfg0.N) (h0 : t.val = 0) :
    lin0 V c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t) := by
  unfold lin0; exact dif_pos h0
theorem lin0_B (c : Dev nD) (t : Fin cfg0.N) (h0 : t.val ≠ 0) (h1 : t.val ≠ 9) :
    lin0 V c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sPrev0 V c t).1 (sPrev0 V c t).2 := by
  unfold lin0; exact (dif_neg h0).trans (dif_neg h1)
theorem lin0_C (c : Dev nD) (t : Fin cfg0.N) (h0 : t.val ≠ 0) (h1 : t.val = 9) :
    lin0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold lin0; exact (dif_neg h0).trans (dif_pos h1)
theorem mean0_C (c : Dev nD) (t : Fin cfg0.N) (h0 : t.val ≠ 0) (h1 : t.val = 9) :
    mean0 V c t = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold mean0; exact dif_pos h1
theorem var0_C (c : Dev nD) (t : Fin cfg0.N) (h0 : t.val ≠ 0) (h1 : t.val = 9) :
    var0 V c t = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sPrev0 V c t).1 (sPrev0 V c t).2 := by
  unfold var0; exact dif_pos h1

/-! ## The body obligation's two sides, the windows one by one -/

/-- The body obligation's precondition at point t: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- The body obligation's postcondition at point t: the invariant at the next point, what the core owes, and each
    window's current buffer at what the body leaves there. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- What the launch hands the region is the invariant before the first block. -/
theorem hin0 (c : Dev nD) :
    (Pipeline.scopedRest (Ix := Unit) (Name := ℕ) (U := UR sig nD τ) (Lvl := ℕ) (Val := Elt F) spec0 c : sProp (MT nD τ sig Unit (Elt F) ℕ (UR sig nD τ) ℕ))
      ⊢ (dat0 V c).Φ 0 := by
  rw [show (dat0 V c).Φ 0 = PhiS0 V c 0 (Nat.zero_le _) from rfl, PhiS0_zero V c 0 _ rfl]
  try exact Idealize.SL.BI.Entails.refl _

/-- After any block the invariant gives the scoped buffers back: what the two scratch rows hold is forgotten. -/
theorem Phi_out0 (c : Dev nD) (t : Fin (cfg0.N + 1)) (ht : t.val ≠ 0) :
    (dat0 V c).Φ t ⊢ (Pipeline.scopedRest (Ix := Unit) (Name := ℕ) (U := UR sig nD τ) (Lvl := ℕ) (Val := Elt F) spec0 c : sProp (MT nD τ sig Unit (Elt F) ℕ (UR sig nD τ) ℕ)) := by
  rw [show (dat0 V c).Φ t = PhiS0 V c t.val (Nat.le_of_lt_succ t.isLt) from rfl, PhiS0_pos V c _ _ ht, scopedRest0_rows]
  iintro ⟨⟨HS0, HS1⟩, HR⟩
  isplitl [HS0 HS1]
  · isplitl [HS0]
    · iexists _; iexact HS0
    iexists _; iexact HS1
  iexact HR

theorem hout0 (c : Dev nD) :
    (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)) :=
  Phi_out0 V c _ (by rw [Fin.val_last]; have : cfg0.N = 10 := N_0; omega)

end Cert.KernelIdeal.Hand

end
-- ==== Proof.KI.Lin0Body.lean ====
import proofs.«144042_j23673859736035_1_alg».proof.Proof.KI.Lin0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body obligation

At every point the body, called with the invariant, the inputs' buffers at their blocks and the outputs' buffers, runs to
the invariant at the next point and each buffer at what the proof data says it leaves. -/

variable (V : (c : Dev nD) → (b : Ref sig .tc) → Buf (Elt F) ((c : Thread nD τ).loc b))

set_option maxHeartbeats 4800000 in
/-- The body at the first block: the inputs' buffers hold their blocks, the invariant hands the body the two scratch rows
    (at anything: they are zeroed before they are read), the case's run applies, and the scratch rows are taken back at this point's contents. -/
theorem sound_body0_A (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : cond0_0 (grid0.coords t) := (hcond0_0 t).mpr h0
  have hc1 : ¬cond0_1 (grid0.coords t) := fun h => by have := (hcond0_1 t).mp h; omega
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t hc1) (noFlush0_6 t hc1)]
  rw [Dat.leavesExact_idle (dat0 V c) 7 t (idleAt0_7 t hc1) (noFlush0_7 t hc1)]
  rw [lin0_A V c t h0, sAt0_A V c t h0]
  unfold out0_A_5 sout0_A_0 sout0_A_1; (try dsimp only)
  rw [PhiS0_castSucc V c t, PhiS0_zero V c _ _ h0, scopedRest0_rows]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, ⟨%e5, H5⟩, H6, H7, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _)
  isplitl [H6]; · iexists _; iexact H6
  iexists _; iexact H7

set_option maxHeartbeats 4800000 in
/-- The body at a middle block: the inputs' buffers hold their blocks, the invariant hands the body the two scratch rows
    (at what the block before left), the case's run applies, and the scratch rows are taken back at this point's contents. -/
theorem sound_body0_B (c : Dev nD) (t : Fin cfg0.N) (h0 : t.val ≠ 0) (h1 : t.val ≠ 9) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : ¬cond0_0 (grid0.coords t) := fun h => h0 ((hcond0_0 t).mp h)
  have hc1 : ¬cond0_1 (grid0.coords t) := fun h => h1 ((hcond0_1 t).mp h)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t hc1) (noFlush0_6 t hc1)]
  rw [Dat.leavesExact_idle (dat0 V c) 7 t (idleAt0_7 t hc1) (noFlush0_7 t hc1)]
  rw [lin0_B V c t h0 h1, sAt0_B V c t h0 h1]
  unfold out0_B_5 sout0_B_0 sout0_B_1; (try dsimp only)
  rw [PhiS0_castSucc V c t, PhiS0_pos V c _ _ h0]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, ⟨%e5, H5⟩, H6, H7, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _ _ _ _ _ _ _ _)
  isplitl [H6]; · iexists _; iexact H6
  iexists _; iexact H7

set_option maxHeartbeats 4800000 in
/-- The body at the last block: the inputs' buffers hold their blocks, the invariant hands the body the two scratch rows
    (at what the block before left), the case's run applies, and the scratch rows are taken back at this point's contents. -/
theorem sound_body0_C (c : Dev nD) (t : Fin cfg0.N) (h0 : t.val ≠ 0) (h1 : t.val = 9) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  have hc0 : ¬cond0_0 (grid0.coords t) := fun h => h0 ((hcond0_0 t).mp h)
  have hc1 : cond0_1 (grid0.coords t) := (hcond0_1 t).mpr h1
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t hc1], after0_6]
  rw [show (dat0 V c).leavesExact 7 t = owns (c : Thread nD τ) (ms0_7 t) fullShare ((dat0 V c).after 7 t) from by
    unfold Dat.leavesExact; rw [liveAt0_7 t hc1], after0_7]
  rw [lin0_C V c t h0 h1, mean0_C V c t h0 h1, var0_C V c t h0 h1, sAt0_C V c t h0 h1]
  unfold out0_C_5 out0_C_6 out0_C_7 sout0_C_0 sout0_C_1; (try dsimp only)
  rw [PhiS0_castSucc V c t, PhiS0_pos V c _ _ h0]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%es0, HS0⟩, ⟨%es1, HS1⟩⟩
  isplitl [HS0 HS1 HR]
  · isplitl [HS0 HS1]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _)

/-- The body at any point: by cases on whether it is the first block, the last, or one between. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_A V c t h0
  · by_cases h1 : t.val = 9
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The region's record, in the form the run over the regions takes -/

theorem hA0 : ∀ (V : (c : Dev nD) → (b : Ref sig .tc) → Buf (Elt F) ((c : Thread nD τ).loc b)) (c : Dev nD) (w : Fin cfg0.W),
    (dat0 V c).A w = V c (Pipeline.arrRef spec0 w) := fun V c w => A_eq0 V c w
theorem hq0 : ∀ (V : (c : Dev nD) → (b : Ref sig .tc) → Buf (Elt F) ((c : Thread nD τ).loc b)) (c : Dev nD) (w : Fin cfg0.W),
    (dat0 V c).q w = fullShare := fun _ _ _ => rfl
theorem ho0 : ∀ (V : (c : Dev nD) → (b : Ref sig .tc) → Buf (Elt F) ((c : Thread nD τ).loc b)) (c : Dev nD) (t : Fin (cfg0.N + 1)),
    (dat0 V c).owed t = 0 := fun _ _ _ => rfl
theorem hr0 : ∀ (V : (c : Dev nD) → (b : Ref sig .tc) → Buf (Elt F) ((c : Thread nD τ).loc b)) (c : Dev nD),
    (dat0 V c).recorded 0 = Set.univ := fun _ _ => rfl
theorem hbody0 : ∀ (V : (c : Dev nD) → (b : Ref sig .tc) → Buf (Elt F) ((c : Thread nD τ).loc b)) (c : Dev nD),
    BodyObligation (dat0 (F := F) V c) (defs₀ (F := F)) Variants.none () Set.univ := fun V c => body_obligation0 V c

end Cert.KernelIdeal.Hand

end
-- ==== Proof.KI.Norm1.lean ====
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

/-! # The normalising region 1: what one grid point does to the staged blocks

Region 1 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out1_5` of the five input blocks. -/

-- deciding that the one stored rectangle is the whole 5000-row block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data over `V`'s array whose body leaves the block in place, the staging buffer the
    body is handed at `t` holds the block at `t` — moved in at `t`, or left there by an earlier point with the same
    block index. The window is never clipped and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data over `V`'s array whose body leaves the block in place, the staging buffer the
    body is handed at `t` holds the block at `t` — moved in at `t`, or left there by an earlier point with the same
    block index. The window is never clipped and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data over `V`'s array whose body leaves the block in place, the staging buffer the
    body is handed at `t` holds the block at `t` — moved in at `t`, or left there by an earlier point with the same
    block index. The window is never clipped and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: for any proof data over `V`'s array whose body leaves the block in place, the staging buffer the
    body is handed at `t` holds the block at `t` — moved in at `t`, or left there by an earlier point with the same
    block index. The window is never clipped and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: for any proof data over `V`'s array whose body leaves the block in place, the staging buffer the
    body is handed at `t` holds the block at `t` — moved in at `t`, or left there by an earlier point with the same
    block index. The window is never clipped and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a [1,256] row buffer. -/
abbrev r1_0 : Rect S1x256 := Rect.unit (s := S1x256) ![0, 0] S1x256.size inb_S1x256_S1x256_0_0
/-- The whole of a [5000,256] block buffer. -/
abbrev r1_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out1_5 (x0 : Vec F S5000x256 .f32) (x1 : Vec F S1x256 .f32) (x2 : Vec F S1x256 .f32) (x3 : Vec F S1x256 .f32) (x4 : Vec F S1x256 .f32) : Vec F S5000x256 .f32 :=
  View.canon [⟨r1_1, k1_pay1 (View.ld x3 r1_0) (View.ld x2 r1_0) (View.ld x0 r1_1) (View.ld x1 r1_0) (View.ld x4 r1_0)⟩]

/-- The one stored rectangle is the whole buffer, so every index of the buffer lies in it. -/
theorem cover1_5 (p0 : Vec F S5000x256 .f32) (y : S5000x256.Idx) :
    ∃ pc ∈ ([⟨r1_1, p0⟩] : List (View.Piece (Elt F) S5000x256 .f32)), y ∈ pc.1.set :=
  View.cover_of_tiled [⟨r1_1, p0⟩] S5000x256.size (by rfl) y

/-! ## The body's triple -/

set_option maxHeartbeats 1000000 in
/-- The body on whole staging buffers — the five inputs at contents `x0 … x4`, the output at anything — runs to the
    end, returns the inputs as they were and leaves the output at `out1_5 x0 x1 x2 x3 x4`: five whole-buffer loads,
    a pointwise computation, one whole-buffer store. -/
theorem sound_kernel1 (c : Dev nD) (E : Set ℕ) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of region 1 on core `c`: the arrays as the region finds them; after the body at point `t` every
    input buffer still at its block and the output buffer at `out1_5` of the five input blocks; the invariant keeps
    everything else untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the loop has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation1 (c : Dev nD) : BodyObligation (dat1 (F := F) V c) (defs₀ (F := F)) Variants.none () Set.univ := fun t => by
  rw [bigSep_W1, bigSep_W1]
  exact sound_body1 V c t

/-! ## What the staged loop's run asks of the proof data besides the body -/

/-- Every window is held at the full share. -/
theorem q_eq1 (c : Dev nD) (w : Fin cfg1.W) : (dat1 V c).q w = fullShare := rfl

/-- No point owes anything. -/
theorem owed_eq1 (c : Dev nD) (t) : (dat1 V c).owed t = 0 := rfl

/-- Every waiting pair counts as recorded from the first point on. -/
theorem rec_eq1 (c : Dev nD) : (dat1 V c).recorded 0 = Set.univ := rfl

/-- The invariant is the same at every point — the region's scoped buffers other than the staging ones, and the
    generator register, untouched — so it is entered from, and left to, exactly that. -/
theorem Φ_in1 (c : Dev nD) : Pipeline.ΦA (U := UR sig nD τ) (Val := Elt F) spec1 c ⊢ (dat1 V c).Φ 0 := .rfl
theorem Φ_out1 (c : Dev nD) : (dat1 V c).Φ (Fin.last cfg1.N) ⊢ Pipeline.ΦA (U := UR sig nD τ) (Val := Elt F) spec1 c := .rfl

end Cert.KernelIdeal.Hand

end
-- ==== Proof.KI.Lin2Base.lean ====
/-
  Linear layer with running column statistics, second hidden layer (kernel region 2): what the three control
  cases of the body are stated over.

  The body at grid point t (ten points, one per block of 5000 rows) computes
      lin_t = agg_t · Wl + bl + h_t · Wr          (a 5000 × 256 block),
  stores it into the output block t, and adds to two rows of 256 numbers kept between points
      s ← s + Σ_rows lin_t ,      q ← q + Σ_rows lin_t² .
  At the first point the two rows are first set to zero; at the last point the body also writes
      mean = s / 50000 ,   var = q / 50000 − mean² .
  So the body has two conditions on the point (first? last?) and three cases actually met:
  A (first, not last), B (neither), C (last, not first).
-/
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- Window `w`'s block at point `t`, read off its array at the contents `V` the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every point, whether the point fetched it or not
    (an unfetched point has the block index of the point before), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every point, whether the point fetched it or not
    (an unfetched point has the block index of the point before), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every point, whether the point fetched it or not
    (an unfetched point has the block index of the point before), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every point, whether the point fetched it or not
    (an unfetched point has the block index of the point before), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every point, whether the point fetched it or not
    (an unfetched point has the block index of the point before), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the ten points -/

/-- "This is the first point": the body's first branch, as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the body's second branch. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where a window is idle: mean and var are stored at the last point only -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point nothing is stored into window 6, and its block is not written back there. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
/-- Away from the last point nothing is stored into window 7, and its block is not written back there. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The memrefs the body is called with -/

abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
/-- The two rows kept between points: whole scoped buffers of the kernel's own (the running sum, the running sum of squares). -/
abbrev scM2_0 : Memref sig .tc .vmem S1x256 .f32 := Memref.whole cc2_scratch0
abbrev scM2_1 : Memref sig .tc .vmem S1x256 .f32 := Memref.whole cc2_scratch1
/-- Views through which the contents of the outputs and of the two rows are stated (which buffer of a window is
    chosen does not matter: a cover of the shape reads back the same through any whole view). -/
abbrev VO2_5 : View sig .tc .vmem S5000x256 .f32 := (Memref.whole cc2_stg5_0 : Memref sig .tc .vmem S5000x256 .f32).view
abbrev VO2_6 : View sig .tc .vmem S1x256 .f32 := (Memref.whole cc2_stg6_0 : Memref sig .tc .vmem S1x256 .f32).view
abbrev VO2_7 : View sig .tc .vmem S1x256 .f32 := (Memref.whole cc2_stg7_0 : Memref sig .tc .vmem S1x256 .f32).view
abbrev VS2_0 : View sig .tc .vmem S1x256 .f32 := scM2_0.view
abbrev VS2_1 : View sig .tc .vmem S1x256 .f32 := scM2_1.view

/-- The scoped buffers no window stages, with the two rows taken out as memrefs owned at some contents each and
    every other scoped buffer left unopened. -/
theorem scopedRest2_rows (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

end Cert.KernelIdeal.Hand

end
-- ==== Proof.KI.Lin2RunA.lean ====
/-
  The body of the linear layer with running statistics at the FIRST point (case A: first, not last).

  On whole memrefs — the five inputs at given contents, the output block at anything, mean and var at contents that are
  handed back untouched, the two kept rows at anything — the body runs to its end and leaves: the inputs as they
  were; the output block covered by one store of  agg·Wl + bl + h·Wr ; the row of sums covered twice (zero, then
  zero + the column sums of the block), the row of sums of squares likewise. The lists of stores are found by running
  the body; nothing the body computes is restated here.
-/
import proofs.«144042_j23673859736035_1_alg».proof.Proof.KI.Lin2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of region 2's body as a triple, with the stores each written buffer ends with (last first). -/
noncomputable def kernelRun2_A (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond2_0 i) (hc1 : ¬cond2_1 i)
    (x0 : Vec F S5000x256 .f32) (x1 : Vec F S5000x256 .f32) (x2 : Vec F S256x256 .f32) (x3 : Vec F S256x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Lin2RunB.lean ====
/-
  The body of the linear layer with running statistics at a MIDDLE point (case B: neither first nor last).

  As at the first point, but the two kept rows come in at the contents the point before left (s, q) and go out
  covered by one store each:  s + the column sums of the block,  q + the column sums of its squares.
  Mean and var are handed back untouched.
-/
import proofs.«144042_j23673859736035_1_alg».proof.Proof.KI.Lin2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of region 2's body as a triple, with the stores each written buffer ends with (last first). -/
noncomputable def kernelRun2_B (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond2_0 i) (hc1 : ¬cond2_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Lin2RunC.lean ====
/-
  The body of the linear layer with running statistics at the LAST point (case C: last, not first).

  As at a middle point, and then the body reads the two kept rows back (s, q after this block was added) and stores
      mean = s / 50000      into window 6,
      var  = q / 50000 − mean²   into window 7,
  each by one store covering its row. Both output rows may hold anything when the body starts.
-/
import proofs.«144042_j23673859736035_1_alg».proof.Proof.KI.Lin2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of region 2's body as a triple, with the stores each written buffer ends with (last first). -/
noncomputable def kernelRun2_C (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond2_0 i) (hc1 : cond2_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Lin2Out.lean ====
/-
  What each control case of region 2's body leaves in the buffers it stores into, and that each such buffer is
  covered by the case's stores — so that its contents after the body do not depend on what it held before.

  Per case the contents are stated as "the case's stores read back over arbitrary contents": the block of the linear
  layer (window 5), the row of sums and the row of sums of squares (the two kept rows), and, at the last point only,
  mean (window 6) and var (window 7).
-/
import proofs.«144042_j23673859736035_1_alg».proof.Proof.KI.Lin2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32)

/-! ### Case A: the first point -/

theorem cover2_A_5 (hc0 : cond2_0 i) (hc1 : ¬cond2_1 i) (y : S5000x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- The block of the linear layer the first point leaves in window 5. -/
def lin2_A (hc0 : cond2_0 i) (hc1 : ¬cond2_1 i) : Vec F S5000x256 .f32 :=
  VO2_5.read (Elt F) (VO2_5.writes (Elt F) VO2_5.junk (kernelRun2_A (F := F) c i arg1 harg1 arg2 harg2 arg3 harg3 arg4 harg4 arg5 harg5 arg6 harg6 arg7 harg7 arg8 harg8 arg9 harg9 arg10 harg10 hc0 hc1 x0 x1 x2 x3 x4).1)

theorem scover2_A_0 (hc0 : cond2_0 i) (hc1 : ¬cond2_1 i) (y : S1x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The row of sums after the first point. -/
def sum2_A (hc0 : cond2_0 i) (hc1 : ¬cond2_1 i) : Vec F S1x256 .f32 :=
  VS2_0.read (Elt F) (VS2_0.writes (Elt F) VS2_0.junk (kernelRun2_A (F := F) c i arg1 harg1 arg2 harg2 arg3 harg3 arg4 harg4 arg5 harg5 arg6 harg6 arg7 harg7 arg8 harg8 arg9 harg9 arg10 harg10 hc0 hc1 x0 x1 x2 x3 x4).2.1)

theorem scover2_A_1 (hc0 : cond2_0 i) (hc1 : ¬cond2_1 i) (y : S1x256.Idx) :
    ∃ pc ∈ (kernelRun2_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A (F := F) c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- The row of sums of squares after the first point. -/
def sq2_A (hc0 : cond2_0 i) (hc1 : ¬cond2_1 i) : Vec F S1x256 .f32 :=
  VS2_1.read (Elt F) (VS2_1.writes (Elt F) VS2_1.junk (kernelRun2_A (F := F) c i arg1 harg1 arg2 harg2 arg3 harg3 arg4 harg4 arg5 harg5 arg6 harg6 arg7 harg7 arg8 harg8 arg9 harg9 arg10 harg10 hc0 hc1 x0 x1 x2 x3 x4).2.2.1)

/-! ### Case B: a middle point, from the rows `xs0`, `xs1` the point before left -/

variable (xs0 : Vec F S1x256 .f32) (xs1 : Vec F S1x256 .f32)

theorem cover2_B_5 (hc0 : ¬cond2_0 i) (hc1 : ¬cond2_1 i) (y : S5000x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin2_B (hc0 : ¬cond2_0 i) (hc1 : ¬cond2_1 i) : Vec F S5000x256 .f32 :=
  VO2_5.read (Elt F) (VO2_5.writes (Elt F) VO2_5.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover2_B_0 (hc0 : ¬cond2_0 i) (hc1 : ¬cond2_1 i) (y : S1x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

def sum2_B (hc0 : ¬cond2_0 i) (hc1 : ¬cond2_1 i) : Vec F S1x256 .f32 :=
  VS2_0.read (Elt F) (VS2_0.writes (Elt F) VS2_0.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover2_B_1 (hc0 : ¬cond2_0 i) (hc1 : ¬cond2_1 i) (y : S1x256.Idx) :
    ∃ pc ∈ (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

def sq2_B (hc0 : ¬cond2_0 i) (hc1 : ¬cond2_1 i) : Vec F S1x256 .f32 :=
  VS2_1.read (Elt F) (VS2_1.writes (Elt F) VS2_1.junk (kernelRun2_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

/-! ### Case C: the last point; mean and var are stored too -/

theorem cover2_C_5 (hc0 : ¬cond2_0 i) (hc1 : cond2_1 i) (y : S5000x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin2_C (hc0 : ¬cond2_0 i) (hc1 : cond2_1 i) : Vec F S5000x256 .f32 :=
  VO2_5.read (Elt F) (VO2_5.writes (Elt F) VO2_5.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover2_C_6 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The mean row the last point stores into window 6. -/
def mean2_C (hc0 : ¬cond2_0 i) (hc1 : cond2_1 i) : Vec F S1x256 .f32 :=
  VO2_6.read (Elt F) (VO2_6.writes (Elt F) VO2_6.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover2_C_7 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The variance row the last point stores into window 7. -/
def var2_C (hc0 : ¬cond2_0 i) (hc1 : cond2_1 i) : Vec F S1x256 .f32 :=
  VO2_7.read (Elt F) (VO2_7.writes (Elt F) VO2_7.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover2_C_0 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

def sum2_C (hc0 : ¬cond2_0 i) (hc1 : cond2_1 i) : Vec F S1x256 .f32 :=
  VS2_0.read (Elt F) (VS2_0.writes (Elt F) VS2_0.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover2_C_1 (hc0 : ¬cond2_0 i) (hc1 : cond2_1 i) (y : S1x256.Idx) :
    ∃ pc ∈ (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

def sq2_C (hc0 : ¬cond2_0 i) (hc1 : cond2_1 i) : Vec F S1x256 .f32 :=
  VS2_1.read (Elt F) (VS2_1.writes (Elt F) VS2_1.junk (kernelRun2_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end Cases

/-- A placeholder for mean and var at the points that do not store them: there the window is idle and not written
    back, so nothing reads this. -/
def unset2 : Vec F S1x256 .f32 := VO2_6.read (Elt F) VO2_6.junk

end Cert.KernelIdeal.Hand

end
-- ==== Proof.KI.Lin2.lean ====
/-
  Region 2 (linear layer with running column statistics): what the written buffers hold point by point, the
  invariant carried between points, the proof data of the pipeline and the body obligation.

  Write  lin_t  for the block  agg_t · Wl + bl + h_t · Wr  of point t. After the body at point t
      window 5 holds  lin_t ,
      the row of sums holds          s_t = Σ_{u ≤ t} (column sums of lin_u)        (starting from zero at t = 0),
      the row of sums of squares     q_t = Σ_{u ≤ t} (column sums of lin_u²) ,
  and after the last point window 6 holds  s_9 / 50000  and window 7  q_9 / 50000 − (s_9 / 50000)² .
  The two rows are buffers of the kernel's own that no window stages: between points they are held by the invariant,
  at exactly  (s_{t−1}, q_{t−1})  before point t > 0, at anything before point 0.
-/
import proofs.«144042_j23673859736035_1_alg».proof.Proof.KI.Lin2Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the written buffers hold after each point -/

/-- No point after the first is a first point (ten points, numbered 0 … 9). -/
theorem notFirst2 (n : ℕ) (hn : n + 1 < cfg2.N) : ¬(n + 1) % 10 = 0 := by
  have hN : n + 1 < 10 := lt_of_lt_of_eq hn (show cfg2.N = 10 from N_2); omega

/-- THE ACCUMULATION. After the body at position `n`: the block of window 5, mean, var, the row of sums, the row of
    sums of squares — by recursion on the point: position 0 is case A; a later position is case C when it is the
    last and case B otherwise, each started from the two rows the position before left. Mean and var are a
    placeholder away from the last point. -/
def outsAt2 (c : Dev nD) : (n : ℕ) → n < cfg2.N → Vec F S5000x256 .f32 × Vec F S1x256 .f32 × Vec F S1x256 .f32 × Vec F S1x256 .f32 × Vec F S1x256 .f32
  | 0, hn => (lin2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)), unset2, unset2,
      sum2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)),
      sq2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) (iblk2 V c 0 ⟨0, hn⟩) (iblk2 V c 1 ⟨0, hn⟩) (iblk2 V c 2 ⟨0, hn⟩) (iblk2 V c 3 ⟨0, hn⟩) (iblk2 V c 4 ⟨0, hn⟩) ((hcond2_0 ⟨0, hn⟩).mpr (Nat.zero_mod _)) (fun h => (fun h => by (try dsimp only at h); omega) ((hcond2_1 ⟨0, hn⟩).mp h)))
  | n + 1, hn =>
    if h1 : (n + 1) % 10 = 9 then
      (lin2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       mean2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       var2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       sum2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1),
       sq2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) ((hcond2_1 ⟨n + 1, hn⟩).mpr h1))
    else
      (lin2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)), unset2, unset2,
       sum2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)),
       sq2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2 (fun h => notFirst2 n hn ((hcond2_0 ⟨n + 1, hn⟩).mp h)) (fun h => h1 ((hcond2_1 ⟨n + 1, hn⟩).mp h)))

/-- The two kept rows after point `t`: (sums, sums of squares). -/
def sAt2 (c : Dev nD) (t : Fin cfg2.N) : Vec F S1x256 .f32 × Vec F S1x256 .f32 :=
  ((outsAt2 V c t.val t.isLt).2.2.2.1, (outsAt2 V c t.val t.isLt).2.2.2.2)

/-- `outsAt2` at the first point. -/
theorem outsAt2_A (c : Dev nD) (t : Fin cfg2.N) (h0 : t.val % 10 = 0) (h1 : ¬t.val % 10 = 9) :
    outsAt2 V c t.val t.isLt = (lin2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h)), unset2, unset2,
      sum2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h)),
      sq2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) ((hcond2_0 t).mpr h0) (fun h => h1 ((hcond2_1 t).mp h))) := by
  obtain ⟨n, hn⟩ := t
  cases n with
  | zero => exact rfl
  | succ n => exact absurd h0 (notFirst2 n hn)

/-- `outsAt2` at a middle point, over what the point before left. -/
theorem outsAt2_B (c : Dev nD) (t : Fin cfg2.N) (h0 : ¬t.val % 10 = 0) (h1 : ¬t.val % 10 = 9) :
    outsAt2 V c t.val t.isLt = (lin2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h)), unset2, unset2,
      sum2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h)),
      sq2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) (fun h => h1 ((hcond2_1 t).mp h))) := by
  obtain ⟨n, hn⟩ := t
  cases n with
  | zero => exact (by exfalso; (try dsimp only at h0); exact absurd (Nat.zero_mod _) h0)
  | succ n => exact (dif_neg h1).trans rfl

/-- `outsAt2` at the last point, over what the point before left. -/
theorem outsAt2_C (c : Dev nD) (t : Fin cfg2.N) (h0 : ¬t.val % 10 = 0) (h1 : t.val % 10 = 9) :
    outsAt2 V c t.val t.isLt = (lin2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      mean2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      var2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      sum2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1),
      sq2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 (fun h => h0 ((hcond2_0 t).mp h)) ((hcond2_1 t).mpr h1)) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start the scoped buffers no window stages, each at anything; afterwards the same
    with the two kept rows at exactly what position `n − 1` left, every other such buffer still unopened. -/
def Phi2 (c : Dev nD) : (n : ℕ) → n ≤ cfg2.N → sProp 𝕄
  | 0, _ => (Pipeline.scopedRest (Ix := Unit) (Name := ℕ) (U := UR sig nD τ) (Lvl := ℕ) (Val := Elt F) spec2 c : sProp 𝕄)
  | n + 1, hn => iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1])

theorem Phi2_zero (c : Dev nD) (n : ℕ) (h : n ≤ cfg2.N) (hz : n = 0) : Phi2 V c n h = (Pipeline.scopedRest (Ix := Unit) (Name := ℕ) (U := UR sig nD τ) (Lvl := ℕ) (Val := Elt F) spec2 c : sProp 𝕄) := by
  subst hz; rfl

theorem Phi2_succ (c : Dev nD) (n : ℕ) (hn : n < cfg2.N) :
    Phi2 V c (n + 1) hn = iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) := rfl

theorem Phi2_pos (c : Dev nD) (n : ℕ) (h : n ≤ cfg2.N) (hz : n ≠ 0) :
    Phi2 V c n h = iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The proof data -/

/-- The proof data of region 2's pipeline on core `c`: the windows' arrays at the contents `V` the region is
    entered with; after the body at a point each input's buffer at its block, window 5 at the linear block, windows
    6 and 7 at mean and var (`outsAt2`); the invariant `Phi2`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem rec_eq2 (c : Dev nD) : (dat2 V c).recorded 0 = Set.univ := rfl

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## What the invariant takes from, and gives back to, the scoped rest -/

/-- Entering the region: the scoped buffers no window stages ARE the invariant before the first point. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

/-- Leaving it: after the last point the two rows' contents are forgotten and the scoped rest is whole again. -/
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), scopedRest2_rows]
  iintro ⟨⟨HS0, HS1⟩, Hr⟩
  isplitl [HS0 HS1]
  · isplitl [HS0]
    · iexists _; iexact HS0
    iexists _; iexact HS1
  iexact Hr

end Cert.KernelIdeal.Hand

end
-- ==== Proof.KI.Lin2Body.lean ====
/-
  Region 2: the body obligation. At every point, from the invariant, what the core owes and each window's current
  buffer at what it then holds, the body runs to the invariant of the next point and each buffer at what the proof
  data says it leaves. The point is the first, a middle one or the last (ten points); in each case the body's triple
  of that case applies: the inputs' buffers hold their blocks, the two kept rows come out of the invariant (at anything
  at the first point, at what the point before left afterwards) and go back into it at this point's contents, and
  every buffer the body stores into is covered by its stores, so that what it holds afterwards is what the stores
  read back.
-/
import proofs.«144042_j23673859736035_1_alg».proof.Proof.KI.Lin2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  have hN : t.val < 10 := lt_of_lt_of_eq t.isLt (show cfg2.N = 10 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  by_cases h0 : t.val % 10 = 0
  · -- the first point
    have h1 : ¬t.val % 10 = 9 := by omega
    have hz : t.val = 0 := by omega
    rw [Dat.leavesExact_idle (dat2 V c) 6 t (idleAt2_6 t (fun h => h1 ((hcond2_1 t).mp h))) (noFlush2_6 t (fun h => h1 ((hcond2_1 t).mp h))),
      Dat.leavesExact_idle (dat2 V c) 7 t (idleAt2_7 t (fun h => h1 ((hcond2_1 t).mp h))) (noFlush2_7 t (fun h => h1 ((hcond2_1 t).mp h)))]
    rw [outsAt2_A V c t h0 h1]
    unfold lin2_A sum2_A sq2_A; (try dsimp only)
    rw [Phi2_castSucc V c t, Phi2_zero V c _ _ hz, scopedRest2_rows]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hr]
    · isplitl [HS0 HS1]
      · isplitl [HS0]
        · unfold owns; iexists _; isplitr
          swap; · iexact HS0
          ipureintro; exact View.read_writes_of_cover _ _ _ _ _ (scover2_A_0 c (grid2.coords t) _ _ _ _ _ _ _ _ _ _ _ _ _ _ _ _ _ _ _ _ _ _ _ _ _ _ _)
        unfold owns; iexists _; isplitr
        swap; · iexact HS1
        ipureintro; exact View.read_writes_of_cover _ _ _ _ _ (scover2_A_1 c (grid2.coords t) _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c (grid2.coords t) _ _ _ _ _ _ _ _ _ _ _ _ _ _ _ _ _ _ _ _ _ _ _ _ _ _ _)
    isplitl [H6]; · iexists _; iexact H6
    iexists _; iexact H7
  · have hz : t.val ≠ 0 := fun h => h0 (by rw [h])
    by_cases h1 : t.val % 10 = 9
    · -- the last point
      rw [show (dat2 V c).leavesExact 6 t = owns (c : Thread nD τ) (ms2_6 t) fullShare ((dat2 V c).after 6 t) from by
          unfold Dat.leavesExact; rw [liveAt2_6 t ((hcond2_1 t).mpr h1)], after2_6]
      rw [show (dat2 V c).leavesExact 7 t = owns (c : Thread nD τ) (ms2_7 t) fullShare ((dat2 V c).after 7 t) from by
          unfold Dat.leavesExact; rw [liveAt2_7 t ((hcond2_1 t).mpr h1)], after2_7]
      rw [outsAt2_C V c t h0 h1]
      unfold lin2_C mean2_C var2_C sum2_C sq2_C; (try dsimp only)
      rw [Phi2_castSucc V c t, Phi2_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover2_C_0 c (grid2.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c (grid2.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c (grid2.coords t) _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c (grid2.coords t) _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c (grid2.coords t) _ _ _ _ _ _ _ _ _ _ _ _ _ _ _ _ _ _ _ _ _ _ _ _ _ _ _ _ _)
    · -- a middle point
      rw [Dat.leavesExact_idle (dat2 V c) 6 t (idleAt2_6 t (fun h => h1 ((hcond2_1 t).mp h))) (noFlush2_6 t (fun h => h1 ((hcond2_1 t).mp h))),
        Dat.leavesExact_idle (dat2 V c) 7 t (idleAt2_7 t (fun h => h1 ((hcond2_1 t).mp h))) (noFlush2_7 t (fun h => h1 ((hcond2_1 t).mp h)))]
      rw [outsAt2_B V c t h0 h1]
      unfold lin2_B sum2_B sq2_B; (try dsimp only)
      rw [Phi2_castSucc V c t, Phi2_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover2_B_0 c (grid2.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c (grid2.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c (grid2.coords t) _ _ _ _ _ _ _ _ _ _ _ _ _ _ _ _ _ _ _ _ _ _ _ _ _ _ _ _ _)
      isplitl [H6]; · iexists _; iexact H6
      iexists _; iexact H7

/-- The body obligation of region 2's pipeline, at every point. -/
theorem body_obligation2 (c : Dev nD) : BodyObligation (dat2 (F := F) V c) (defs₀ (F := F)) Variants.none () Set.univ := fun t => by
  rw [bigSep_W2, bigSep_W2]
  exact sound_body2 V c t

/-! ## The region's data as the assembly takes it -/

theorem hA2 : ∀ (V : (c : Dev nD) → (b : Ref sig .tc) → Buf (Elt F) ((c : Thread nD τ).loc b)) (c : Dev nD) (w : Fin cfg2.W),
    (dat2 V c).A w = V c (Pipeline.arrRef spec2 w) := fun V c w => A_eq2 V c w
theorem hq2 : ∀ (V : (c : Dev nD) → (b : Ref sig .tc) → Buf (Elt F) ((c : Thread nD τ).loc b)) (c : Dev nD) (w : Fin cfg2.W),
    (dat2 V c).q w = fullShare := fun _ _ _ => rfl
theorem ho2 : ∀ (V : (c : Dev nD) → (b : Ref sig .tc) → Buf (Elt F) ((c : Thread nD τ).loc b)) (c : Dev nD) (t : Fin (cfg2.N + 1)),
    (dat2 V c).owed t = 0 := fun _ _ _ => rfl
theorem hr2 : ∀ (V : (c : Dev nD) → (b : Ref sig .tc) → Buf (Elt F) ((c : Thread nD τ).loc b)) (c : Dev nD),
    (dat2 V c).recorded 0 = Set.univ := fun _ _ => rfl
theorem hbody2 : ∀ (V : (c : Dev nD) → (b : Ref sig .tc) → Buf (Elt F) ((c : Thread nD τ).loc b)) (c : Dev nD),
    BodyObligation (dat2 (F := F) V c) (defs₀ (F := F)) Variants.none () Set.univ := fun V c => body_obligation2 V c

end Cert.KernelIdeal.Hand

end
-- ==== Proof.KI.Norm3.lean ====
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

/-! # The normalising region 3: what one grid point does to the staged blocks

Region 3 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out3_5` of the five input blocks. -/

-- deciding that the one stored rectangle is the whole 5000-row block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data over `V`'s array whose body leaves the block in place, the staging buffer the
    body is handed at `t` holds the block at `t` — moved in at `t`, or left there by an earlier point with the same
    block index. The window is never clipped and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: for any proof data over `V`'s array whose body leaves the block in place, the staging buffer the
    body is handed at `t` holds the block at `t` — moved in at `t`, or left there by an earlier point with the same
    block index. The window is never clipped and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: for any proof data over `V`'s array whose body leaves the block in place, the staging buffer the
    body is handed at `t` holds the block at `t` — moved in at `t`, or left there by an earlier point with the same
    block index. The window is never clipped and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: for any proof data over `V`'s array whose body leaves the block in place, the staging buffer the
    body is handed at `t` holds the block at `t` — moved in at `t`, or left there by an earlier point with the same
    block index. The window is never clipped and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: for any proof data over `V`'s array whose body leaves the block in place, the staging buffer the
    body is handed at `t` holds the block at `t` — moved in at `t`, or left there by an earlier point with the same
    block index. The window is never clipped and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a [1,256] row buffer. -/
abbrev r3_0 : Rect S1x256 := Rect.unit (s := S1x256) ![0, 0] S1x256.size inb_S1x256_S1x256_0_0
/-- The whole of a [5000,256] block buffer. -/
abbrev r3_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out3_5 (x0 : Vec F S5000x256 .f32) (x1 : Vec F S1x256 .f32) (x2 : Vec F S1x256 .f32) (x3 : Vec F S1x256 .f32) (x4 : Vec F S1x256 .f32) : Vec F S5000x256 .f32 :=
  View.canon [⟨r3_1, k3_pay1 (View.ld x3 r3_0) (View.ld x2 r3_0) (View.ld x0 r3_1) (View.ld x1 r3_0) (View.ld x4 r3_0)⟩]

/-- The one stored rectangle is the whole buffer, so every index of the buffer lies in it. -/
theorem cover3_5 (p0 : Vec F S5000x256 .f32) (y : S5000x256.Idx) :
    ∃ pc ∈ ([⟨r3_1, p0⟩] : List (View.Piece (Elt F) S5000x256 .f32)), y ∈ pc.1.set :=
  View.cover_of_tiled [⟨r3_1, p0⟩] S5000x256.size (by rfl) y

/-! ## The body's triple -/

set_option maxHeartbeats 1000000 in
/-- The body on whole staging buffers — the five inputs at contents `x0 … x4`, the output at anything — runs to the
    end, returns the inputs as they were and leaves the output at `out3_5 x0 x1 x2 x3 x4`: five whole-buffer loads,
    a pointwise computation, one whole-buffer store. -/
theorem sound_kernel3 (c : Dev nD) (E : Set ℕ) (i : grid3.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of region 3 on core `c`: the arrays as the region finds them; after the body at point `t` every
    input buffer still at its block and the output buffer at `out3_5` of the five input blocks; the invariant keeps
    everything else untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point, moved in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's debts, and each window's current staging
    buffer at what the loop has put there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the same, each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation3 (c : Dev nD) : BodyObligation (dat3 (F := F) V c) (defs₀ (F := F)) Variants.none () Set.univ := fun t => by
  rw [bigSep_W3, bigSep_W3]
  exact sound_body3 V c t

/-! ## What the staged loop's run asks of the proof data besides the body -/

/-- Every window is held at the full share. -/
theorem q_eq3 (c : Dev nD) (w : Fin cfg3.W) : (dat3 V c).q w = fullShare := rfl

/-- No point owes anything. -/
theorem owed_eq3 (c : Dev nD) (t) : (dat3 V c).owed t = 0 := rfl

/-- Every waiting pair counts as recorded from the first point on. -/
theorem rec_eq3 (c : Dev nD) : (dat3 V c).recorded 0 = Set.univ := rfl

/-- The invariant is the same at every point — the region's scoped buffers other than the staging ones, and the
    generator register, untouched — so it is entered from, and left to, exactly that. -/
theorem Φ_in3 (c : Dev nD) : Pipeline.ΦA (U := UR sig nD τ) (Val := Elt F) spec3 c ⊢ (dat3 V c).Φ 0 := .rfl
theorem Φ_out3 (c : Dev nD) : (dat3 V c).Φ (Fin.last cfg3.N) ⊢ Pipeline.ΦA (U := UR sig nD τ) (Val := Elt F) spec3 c := .rfl

end Cert.KernelIdeal.Hand

end
-- ==== Proof.KI.Lin4Base.lean ====
/-
  Linear layer with running column statistics, third hidden layer (kernel region 4): what the three control
  cases of the body are stated over.

  The body at grid point t (ten points, one per block of 5000 rows) computes
      lin_t = agg_t · Wl + bl + h_t · Wr          (a 5000 × 256 block),
  stores it into the output block t, and adds to two rows of 256 numbers kept between points
      s ← s + Σ_rows lin_t ,      q ← q + Σ_rows lin_t² .
  At the first point the two rows are first set to zero; at the last point the body also writes
      mean = s / 50000 ,   var = q / 50000 − mean² .
  So the body has two conditions on the point (first? last?) and three cases actually met:
  A (first, not last), B (neither), C (last, not first).
-/
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- Window `w`'s block at point `t`, read off its array at the contents `V` the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every point, whether the point fetched it or not
    (an unfetched point has the block index of the point before), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every point, whether the point fetched it or not
    (an unfetched point has the block index of the point before), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every point, whether the point fetched it or not
    (an unfetched point has the block index of the point before), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every point, whether the point fetched it or not
    (an unfetched point has the block index of the point before), for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every point, whether the point fetched it or not
    (an unfetched point has the block index of the point before), for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, in closed form over the ten points -/

/-- "This is the first point": the body's first branch, as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

/-- "This is the last point": the body's second branch. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-! ## Where a window is idle: mean and var are stored at the last point only -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Away from the last point nothing is stored into window 6, and its block is not written back there. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel
/-- Away from the last point nothing is stored into window 7, and its block is not written back there. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel

/-! ## The memrefs the body is called with -/

abbrev ms4_0 (t : Fin cfg4.N) : Memref sig .tc .vmem S5000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x256 .f32 := win4_7.stage (cfg4.slots t 7)
abbrev hs4_7 (t : Fin cfg4.N) : (ms4_7 t).IsWhole := hstage4_7 ((cfg4.slots t 7).cast nbuf4_7)
/-- The two rows kept between points: whole scoped buffers of the kernel's own (the running sum, the running sum of squares). -/
abbrev scM4_0 : Memref sig .tc .vmem S1x256 .f32 := Memref.whole cc4_scratch0
abbrev scM4_1 : Memref sig .tc .vmem S1x256 .f32 := Memref.whole cc4_scratch1
/-- Views through which the contents of the outputs and of the two rows are stated (which buffer of a window is
    chosen does not matter: a cover of the shape reads back the same through any whole view). -/
abbrev VO4_5 : View sig .tc .vmem S5000x256 .f32 := (Memref.whole cc4_stg5_0 : Memref sig .tc .vmem S5000x256 .f32).view
abbrev VO4_6 : View sig .tc .vmem S1x256 .f32 := (Memref.whole cc4_stg6_0 : Memref sig .tc .vmem S1x256 .f32).view
abbrev VO4_7 : View sig .tc .vmem S1x256 .f32 := (Memref.whole cc4_stg7_0 : Memref sig .tc .vmem S1x256 .f32).view
abbrev VS4_0 : View sig .tc .vmem S1x256 .f32 := scM4_0.view
abbrev VS4_1 : View sig .tc .vmem S1x256 .f32 := scM4_1.view

/-- The scoped buffers no window stages, with the two rows taken out as memrefs owned at some contents each and
    every other scoped buffer left unopened. -/
theorem scopedRest4_rows (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

end Cert.KernelIdeal.Hand

end
-- ==== Proof.KI.Lin4RunA.lean ====
/-
  The body of the linear layer with running statistics at the FIRST point (case A: first, not last).

  On whole memrefs — the five inputs at given contents, the output block at anything, mean and var at contents that are
  handed back untouched, the two kept rows at anything — the body runs to its end and leaves: the inputs as they
  were; the output block covered by one store of  agg·Wl + bl + h·Wr ; the row of sums covered twice (zero, then
  zero + the column sums of the block), the row of sums of squares likewise. The lists of stores are found by running
  the body; nothing the body computes is restated here.
-/
import proofs.«144042_j23673859736035_1_alg».proof.Proof.KI.Lin4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of region 4's body as a triple, with the stores each written buffer ends with (last first). -/
noncomputable def kernelRun4_A (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond4_0 i) (hc1 : ¬cond4_1 i)
    (x0 : Vec F S5000x256 .f32) (x1 : Vec F S5000x256 .f32) (x2 : Vec F S256x256 .f32) (x3 : Vec F S256x256 .f32) (x4 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Lin4RunB.lean ====
/-
  The body of the linear layer with running statistics at a MIDDLE point (case B: neither first nor last).

  As at the first point, but the two kept rows come in at the contents the point before left (s, q) and go out
  covered by one store each:  s + the column sums of the block,  q + the column sums of its squares.
  Mean and var are handed back untouched.
-/
import proofs.«144042_j23673859736035_1_alg».proof.Proof.KI.Lin4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of region 4's body as a triple, with the stores each written buffer ends with (last first). -/
noncomputable def kernelRun4_B (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i) (hc1 : ¬cond4_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Lin4RunC.lean ====
/-
  The body of the linear layer with running statistics at the LAST point (case C: last, not first).

  As at a middle point, and then the body reads the two kept rows back (s, q after this block was added) and stores
      mean = s / 50000      into window 6,
      var  = q / 50000 − mean²   into window 7,
  each by one store covering its row. Both output rows may hold anything when the body starts.
-/
import proofs.«144042_j23673859736035_1_alg».proof.Proof.KI.Lin4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of region 4's body as a triple, with the stores each written buffer ends with (last first). -/
noncomputable def kernelRun4_C (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i) (hc1 : cond4_1 i)
    (x0 : Vec F S5000x256 .f32) (x1 : Vec F S5000x256 .f32) (x2 : Vec F S256x256 .f32) (x3 : Vec F S256x256 .f32) (x4 : Vec F S1x256 .f32)
    (xs0 : Vec F S1x256 .f32) (xs1 : Vec F S1x256 .f32) :
    Σ' (L5 : List (View.Piece (Elt F) S5000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Lin4Out.lean ====
/-
  What each control case of region 4's body leaves in the buffers it stores into, and that each such buffer is
  covered by the case's stores — so that its contents after the body do not depend on what it held before.

  Per case the contents are stated as "the case's stores read back over arbitrary contents": the block of the linear
  layer (window 5), the row of sums and the row of sums of squares (the two kept rows), and, at the last point only,
  mean (window 6) and var (window 7).
-/
import proofs.«144042_j23673859736035_1_alg».proof.Proof.KI.Lin4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32)

/-! ### Case A: the first point -/

theorem cover4_A_5 (hc0 : cond4_0 i) (hc1 : ¬cond4_1 i) (y : S5000x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).1 S5000x256.size (by sl_kernel_rfl) y

/-- The block of the linear layer the first point leaves in window 5. -/
def lin4_A (hc0 : cond4_0 i) (hc1 : ¬cond4_1 i) : Vec F S5000x256 .f32 :=
  VO4_5.read (Elt F) (VO4_5.writes (Elt F) VO4_5.junk (kernelRun4_A (F := F) c i arg1 harg1 arg2 harg2 arg3 harg3 arg4 harg4 arg5 harg5 arg6 harg6 arg7 harg7 arg8 harg8 arg9 harg9 arg10 harg10 hc0 hc1 x0 x1 x2 x3 x4).1)

theorem scover4_A_0 (hc0 : cond4_0 i) (hc1 : ¬cond4_1 i) (y : S1x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The row of sums after the first point. -/
def sum4_A (hc0 : cond4_0 i) (hc1 : ¬cond4_1 i) : Vec F S1x256 .f32 :=
  VS4_0.read (Elt F) (VS4_0.writes (Elt F) VS4_0.junk (kernelRun4_A (F := F) c i arg1 harg1 arg2 harg2 arg3 harg3 arg4 harg4 arg5 harg5 arg6 harg6 arg7 harg7 arg8 harg8 arg9 harg9 arg10 harg10 hc0 hc1 x0 x1 x2 x3 x4).2.1)

theorem scover4_A_1 (hc0 : cond4_0 i) (hc1 : ¬cond4_1 i) (y : S1x256.Idx) :
    ∃ pc ∈ (kernelRun4_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun4_A (F := F) c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

/-- The row of sums of squares after the first point. -/
def sq4_A (hc0 : cond4_0 i) (hc1 : ¬cond4_1 i) : Vec F S1x256 .f32 :=
  VS4_1.read (Elt F) (VS4_1.writes (Elt F) VS4_1.junk (kernelRun4_A (F := F) c i arg1 harg1 arg2 harg2 arg3 harg3 arg4 harg4 arg5 harg5 arg6 harg6 arg7 harg7 arg8 harg8 arg9 harg9 arg10 harg10 hc0 hc1 x0 x1 x2 x3 x4).2.2.1)

/-! ### Case B: a middle point, from the rows `xs0`, `xs1` the point before left -/

variable (xs0 : Vec F S1x256 .f32) (xs1 : Vec F S1x256 .f32)

theorem cover4_B_5 (hc0 : ¬cond4_0 i) (hc1 : ¬cond4_1 i) (y : S5000x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin4_B (hc0 : ¬cond4_0 i) (hc1 : ¬cond4_1 i) : Vec F S5000x256 .f32 :=
  VO4_5.read (Elt F) (VO4_5.writes (Elt F) VO4_5.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover4_B_0 (hc0 : ¬cond4_0 i) (hc1 : ¬cond4_1 i) (y : S1x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

def sum4_B (hc0 : ¬cond4_0 i) (hc1 : ¬cond4_1 i) : Vec F S1x256 .f32 :=
  VS4_0.read (Elt F) (VS4_0.writes (Elt F) VS4_0.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover4_B_1 (hc0 : ¬cond4_0 i) (hc1 : ¬cond4_1 i) (y : S1x256.Idx) :
    ∃ pc ∈ (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

def sq4_B (hc0 : ¬cond4_0 i) (hc1 : ¬cond4_1 i) : Vec F S1x256 .f32 :=
  VS4_1.read (Elt F) (VS4_1.writes (Elt F) VS4_1.junk (kernelRun4_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

/-! ### Case C: the last point; mean and var are stored too -/

theorem cover4_C_5 (hc0 : ¬cond4_0 i) (hc1 : cond4_1 i) (y : S5000x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x256.size (by sl_kernel_rfl) y

def lin4_C (hc0 : ¬cond4_0 i) (hc1 : cond4_1 i) : Vec F S5000x256 .f32 :=
  VO4_5.read (Elt F) (VO4_5.writes (Elt F) VO4_5.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover4_C_6 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The mean row the last point stores into window 6. -/
def mean4_C (hc0 : ¬cond4_0 i) (hc1 : cond4_1 i) : Vec F S1x256 .f32 :=
  VO4_6.read (Elt F) (VO4_6.writes (Elt F) VO4_6.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover4_C_7 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The variance row the last point stores into window 7. -/
def var4_C (hc0 : ¬cond4_0 i) (hc1 : cond4_1 i) : Vec F S1x256 .f32 :=
  VO4_7.read (Elt F) (VO4_7.writes (Elt F) VO4_7.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover4_C_0 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

def sum4_C (hc0 : ¬cond4_0 i) (hc1 : cond4_1 i) : Vec F S1x256 .f32 :=
  VS4_0.read (Elt F) (VS4_0.writes (Elt F) VS4_0.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover4_C_1 (hc0 : ¬cond4_0 i) (hc1 : cond4_1 i) (y : S1x256.Idx) :
    ∃ pc ∈ (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

def sq4_C (hc0 : ¬cond4_0 i) (hc1 : cond4_1 i) : Vec F S1x256 .f32 :=
  VS4_1.read (Elt F) (VS4_1.writes (Elt F) VS4_1.junk (kernelRun4_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end Cases

/-- A placeholder for mean and var at the points that do not store them: there the window is idle and not written
    back, so nothing reads this. -/
def unset4 : Vec F S1x256 .f32 := VO4_6.read (Elt F) VO4_6.junk

end Cert.KernelIdeal.Hand

end
-- ==== Proof.KI.Lin4.lean ====
/-
  Region 4 (linear layer with running column statistics): what the written buffers hold point by point, the
  invariant carried between points, the proof data of the pipeline and the body obligation.

  Write  lin_t  for the block  agg_t · Wl + bl + h_t · Wr  of point t. After the body at point t
      window 5 holds  lin_t ,
      the row of sums holds          s_t = Σ_{u ≤ t} (column sums of lin_u)        (starting from zero at t = 0),
      the row of sums of squares     q_t = Σ_{u ≤ t} (column sums of lin_u²) ,
  and after the last point window 6 holds  s_9 / 50000  and window 7  q_9 / 50000 − (s_9 / 50000)² .
  The two rows are buffers of the kernel's own that no window stages: between points they are held by the invariant,
  at exactly  (s_{t−1}, q_{t−1})  before point t > 0, at anything before point 0.
-/
import proofs.«144042_j23673859736035_1_alg».proof.Proof.KI.Lin4Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the written buffers hold after each point -/

/-- No point after the first is a first point (ten points, numbered 0 … 9). -/
theorem notFirst4 (n : ℕ) (hn : n + 1 < cfg4.N) : ¬(n + 1) % 10 = 0 := by
  have hN : n + 1 < 10 := lt_of_lt_of_eq hn (show cfg4.N = 10 from N_4); omega

/-- THE ACCUMULATION. After the body at position `n`: the block of window 5, mean, var, the row of sums, the row of
    sums of squares — by recursion on the point: position 0 is case A; a later position is case C when it is the
    last and case B otherwise, each started from the two rows the position before left. Mean and var are a
    placeholder away from the last point. -/
def outsAt4 (c : Dev nD) : (n : ℕ) → n < cfg4.N → Vec F S5000x256 .f32 × Vec F S1x256 .f32 × Vec F S1x256 .f32 × Vec F S1x256 .f32 × Vec F S1x256 .f32
  | 0, hn => (lin4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)), unset4, unset4,
      sum4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)),
      sq4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) (iblk4 V c 0 ⟨0, hn⟩) (iblk4 V c 1 ⟨0, hn⟩) (iblk4 V c 2 ⟨0, hn⟩) (iblk4 V c 3 ⟨0, hn⟩) (iblk4 V c 4 ⟨0, hn⟩) ((hcond4_0 ⟨0, hn⟩).mpr (Nat.zero_mod _)) (fun h => (fun h => by (try dsimp only at h); omega) ((hcond4_1 ⟨0, hn⟩).mp h)))
  | n + 1, hn =>
    if h1 : (n + 1) % 10 = 9 then
      (lin4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       mean4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       var4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       sum4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1),
       sq4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) ((hcond4_1 ⟨n + 1, hn⟩).mpr h1))
    else
      (lin4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)), unset4, unset4,
       sum4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)),
       sq4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2 (fun h => notFirst4 n hn ((hcond4_0 ⟨n + 1, hn⟩).mp h)) (fun h => h1 ((hcond4_1 ⟨n + 1, hn⟩).mp h)))

/-- The two kept rows after point `t`: (sums, sums of squares). -/
def sAt4 (c : Dev nD) (t : Fin cfg4.N) : Vec F S1x256 .f32 × Vec F S1x256 .f32 :=
  ((outsAt4 V c t.val t.isLt).2.2.2.1, (outsAt4 V c t.val t.isLt).2.2.2.2)

/-- `outsAt4` at the first point. -/
theorem outsAt4_A (c : Dev nD) (t : Fin cfg4.N) (h0 : t.val % 10 = 0) (h1 : ¬t.val % 10 = 9) :
    outsAt4 V c t.val t.isLt = (lin4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h)), unset4, unset4,
      sum4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h)),
      sq4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) ((hcond4_0 t).mpr h0) (fun h => h1 ((hcond4_1 t).mp h))) := by
  obtain ⟨n, hn⟩ := t
  cases n with
  | zero => exact rfl
  | succ n => exact absurd h0 (notFirst4 n hn)

/-- `outsAt4` at a middle point, over what the point before left. -/
theorem outsAt4_B (c : Dev nD) (t : Fin cfg4.N) (h0 : ¬t.val % 10 = 0) (h1 : ¬t.val % 10 = 9) :
    outsAt4 V c t.val t.isLt = (lin4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h)), unset4, unset4,
      sum4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h)),
      sq4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) (fun h => h1 ((hcond4_1 t).mp h))) := by
  obtain ⟨n, hn⟩ := t
  cases n with
  | zero => exact (by exfalso; (try dsimp only at h0); exact absurd (Nat.zero_mod _) h0)
  | succ n => exact (dif_neg h1).trans rfl

/-- `outsAt4` at the last point, over what the point before left. -/
theorem outsAt4_C (c : Dev nD) (t : Fin cfg4.N) (h0 : ¬t.val % 10 = 0) (h1 : t.val % 10 = 9) :
    outsAt4 V c t.val t.isLt = (lin4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      mean4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      var4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      sum4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1),
      sq4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2 (fun h => h0 ((hcond4_0 t).mp h)) ((hcond4_1 t).mpr h1)) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start the scoped buffers no window stages, each at anything; afterwards the same
    with the two kept rows at exactly what position `n − 1` left, every other such buffer still unopened. -/
def Phi4 (c : Dev nD) : (n : ℕ) → n ≤ cfg4.N → sProp 𝕄
  | 0, _ => (Pipeline.scopedRest (Ix := Unit) (Name := ℕ) (U := UR sig nD τ) (Lvl := ℕ) (Val := Elt F) spec4 c : sProp 𝕄)
  | n + 1, hn => iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1])

theorem Phi4_zero (c : Dev nD) (n : ℕ) (h : n ≤ cfg4.N) (hz : n = 0) : Phi4 V c n h = (Pipeline.scopedRest (Ix := Unit) (Name := ℕ) (U := UR sig nD τ) (Lvl := ℕ) (Val := Elt F) spec4 c : sProp 𝕄) := by
  subst hz; rfl

theorem Phi4_succ (c : Dev nD) (n : ℕ) (hn : n < cfg4.N) :
    Phi4 V c (n + 1) hn = iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) := rfl

theorem Phi4_pos (c : Dev nD) (n : ℕ) (h : n ≤ cfg4.N) (hz : n ≠ 0) :
    Phi4 V c n h = iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The proof data -/

/-- The proof data of region 4's pipeline on core `c`: the windows' arrays at the contents `V` the region is
    entered with; after the body at a point each input's buffer at its block, window 5 at the linear block, windows
    6 and 7 at mean and var (`outsAt4`); the invariant `Phi4`; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t : Fin (cfg4.N + 1)) : (dat4 V c).owed t = 0 := rfl
theorem rec_eq4 (c : Dev nD) : (dat4 V c).recorded 0 = Set.univ := rfl

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## What the invariant takes from, and gives back to, the scoped rest -/

/-- Entering the region: the scoped buffers no window stages ARE the invariant before the first point. -/
theorem hin4 (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = Phi4 V c 0 (Nat.zero_le _) from rfl, Phi4_zero V c 0 _ rfl]
  try exact Idealize.SL.BI.Entails.refl _

/-- Leaving it: after the last point the two rows' contents are forgotten and the scoped rest is whole again. -/
theorem hout4 (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_rows]
  iintro ⟨⟨HS0, HS1⟩, Hr⟩
  isplitl [HS0 HS1]
  · isplitl [HS0]
    · iexists _; iexact HS0
    iexists _; iexact HS1
  iexact Hr

end Cert.KernelIdeal.Hand

end
-- ==== Proof.KI.Lin4Body.lean ====
/-
  Region 4: the body obligation. At every point, from the invariant, what the core owes and each window's current
  buffer at what it then holds, the body runs to the invariant of the next point and each buffer at what the proof
  data says it leaves. The point is the first, a middle one or the last (ten points); in each case the body's triple
  of that case applies: the inputs' buffers hold their blocks, the two kept rows come out of the invariant (at anything
  at the first point, at what the point before left afterwards) and go back into it at this point's contents, and
  every buffer the body stores into is covered by its stores, so that what it holds afterwards is what the stores
  read back.
-/
import proofs.«144042_j23673859736035_1_alg».proof.Proof.KI.Lin4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  rw [show (dat4 V c).leavesExact 5 t = owns (c : Thread nD τ) (ms4_5 t) fullShare ((dat4 V c).after 5 t) from by
      unfold Dat.leavesExact; rw [liveAt4_5 t], after4_5]
  by_cases h0 : t.val % 10 = 0
  · -- the first point
    have h1 : ¬t.val % 10 = 9 := by omega
    have hz : t.val = 0 := by omega
    rw [Dat.leavesExact_idle (dat4 V c) 6 t (idleAt4_6 t (fun h => h1 ((hcond4_1 t).mp h))) (noFlush4_6 t (fun h => h1 ((hcond4_1 t).mp h))),
      Dat.leavesExact_idle (dat4 V c) 7 t (idleAt4_7 t (fun h => h1 ((hcond4_1 t).mp h))) (noFlush4_7 t (fun h => h1 ((hcond4_1 t).mp h)))]
    rw [outsAt4_A V c t h0 h1]
    unfold lin4_A sum4_A sq4_A; (try dsimp only)
    rw [Phi4_castSucc V c t, Phi4_zero V c _ _ hz, scopedRest4_rows]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hr]
    · isplitl [HS0 HS1]
      · isplitl [HS0]
        · unfold owns; iexists _; isplitr
          swap; · iexact HS0
          ipureintro; exact View.read_writes_of_cover _ _ _ _ _ (scover4_A_0 c (grid4.coords t) _ _ _ _ _ _ _ _ _ _ _ _ _ _ _ _ _ _ _ _ _ _ _ _ _ _ _)
        unfold owns; iexists _; isplitr
        swap; · iexact HS1
        ipureintro; exact View.read_writes_of_cover _ _ _ _ _ (scover4_A_1 c (grid4.coords t) _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c (grid4.coords t) _ _ _ _ _ _ _ _ _ _ _ _ _ _ _ _ _ _ _ _ _ _ _ _ _ _ _)
    isplitl [H6]; · iexists _; iexact H6
    iexists _; iexact H7
  · have hz : t.val ≠ 0 := fun h => h0 (by rw [h])
    by_cases h1 : t.val % 10 = 9
    · -- the last point
      rw [show (dat4 V c).leavesExact 6 t = owns (c : Thread nD τ) (ms4_6 t) fullShare ((dat4 V c).after 6 t) from by
          unfold Dat.leavesExact; rw [liveAt4_6 t ((hcond4_1 t).mpr h1)], after4_6]
      rw [show (dat4 V c).leavesExact 7 t = owns (c : Thread nD τ) (ms4_7 t) fullShare ((dat4 V c).after 7 t) from by
          unfold Dat.leavesExact; rw [liveAt4_7 t ((hcond4_1 t).mpr h1)], after4_7]
      rw [outsAt4_C V c t h0 h1]
      unfold lin4_C mean4_C var4_C sum4_C sq4_C; (try dsimp only)
      rw [Phi4_castSucc V c t, Phi4_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover4_C_0 c (grid4.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover4_C_1 c (grid4.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c (grid4.coords t) _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c (grid4.coords t) _ _ _ _ _ _ _ _ _ _ _ _ _ _ _ _ _ _ _ _ _ _ _ _ _ _ _ _ _)
      unfold owns; iexists _; isplitr
      swap; · iexact H7
      ipureintro; exact View.read_writes_of_cover _ _ _ _ _ (cover4_C_7 c (grid4.coords t) _ _ _ _ _ _ _ _ _ _ _ _ _ _ _ _ _ _ _ _ _ _ _ _ _ _ _ _ _)
    · -- a middle point
      rw [Dat.leavesExact_idle (dat4 V c) 6 t (idleAt4_6 t (fun h => h1 ((hcond4_1 t).mp h))) (noFlush4_6 t (fun h => h1 ((hcond4_1 t).mp h))),
        Dat.leavesExact_idle (dat4 V c) 7 t (idleAt4_7 t (fun h => h1 ((hcond4_1 t).mp h))) (noFlush4_7 t (fun h => h1 ((hcond4_1 t).mp h)))]
      rw [outsAt4_B V c t h0 h1]
      unfold lin4_B sum4_B sq4_B; (try dsimp only)
      rw [Phi4_castSucc V c t, Phi4_pos V c _ _ hz]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover4_B_0 c (grid4.coords t) _ _ _ _ _ _ _ _ _ _ _ _ _ _ _ _ _ _ _ _ _ _ _ _ _ _ _ _ _)
          unfold owns; iexists _; isplitr
          swap; · iexact HS1
          ipureintro; exact View.read_writes_of_cover _ _ _ _ _ (scover4_B_1 c (grid4.coords t) _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c (grid4.coords t) _ _ _ _ _ _ _ _ _ _ _ _ _ _ _ _ _ _ _ _ _ _ _ _ _ _ _ _ _)
      isplitl [H6]; · iexists _; iexact H6
      iexists _; iexact H7

/-- The body obligation of region 4's pipeline, at every point. -/
theorem body_obligation4 (c : Dev nD) : BodyObligation (dat4 (F := F) V c) (defs₀ (F := F)) Variants.none () Set.univ := fun t => by
  rw [bigSep_W4, bigSep_W4]
  exact sound_body4 V c t

/-! ## The region's data as the assembly takes it -/

theorem hA4 : ∀ (V : (c : Dev nD) → (b : Ref sig .tc) → Buf (Elt F) ((c : Thread nD τ).loc b)) (c : Dev nD) (w : Fin cfg4.W),
    (dat4 V c).A w = V c (Pipeline.arrRef spec4 w) := fun V c w => A_eq4 V c w
theorem hq4 : ∀ (V : (c : Dev nD) → (b : Ref sig .tc) → Buf (Elt F) ((c : Thread nD τ).loc b)) (c : Dev nD) (w : Fin cfg4.W),
    (dat4 V c).q w = fullShare := fun _ _ _ => rfl
theorem ho4 : ∀ (V : (c : Dev nD) → (b : Ref sig .tc) → Buf (Elt F) ((c : Thread nD τ).loc b)) (c : Dev nD) (t : Fin (cfg4.N + 1)),
    (dat4 V c).owed t = 0 := fun _ _ _ => rfl
theorem hr4 : ∀ (V : (c : Dev nD) → (b : Ref sig .tc) → Buf (Elt F) ((c : Thread nD τ).loc b)) (c : Dev nD),
    (dat4 V c).recorded 0 = Set.univ := fun _ _ => rfl
theorem hbody4 : ∀ (V : (c : Dev nD) → (b : Ref sig .tc) → Buf (Elt F) ((c : Thread nD τ).loc b)) (c : Dev nD),
    BodyObligation (dat4 (F := F) V c) (defs₀ (F := F)) Variants.none () Set.univ := fun V c => body_obligation4 V c

end Cert.KernelIdeal.Hand

end
-- ==== Proof.KI.Norm5.lean ====
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Ring
import Idealize.ShloMosaic.Lib.Tactic

/-! # The normalising region 5: what one grid point does to the staged blocks

Region 5 runs over ten row blocks of 5000 rows. At point `t` the body reads the row block `t` of the
[50000,256] array of linear outputs (window 0) and four [1,256] rows — mean, variance, scale, shift
(windows 1–4), whose block index is constantly 0, so they are moved in once and found in place afterwards —
and overwrites the whole output block (window 5) with the pointwise value
`leaky ((lin − mean) · (scale · rsqrt (var + ε)) + shift)`.

Everything is stated at a parameter `V`, the buffer contents when the region is entered, and for any float
model `F`. The result is the per-point obligation of the staged loop: given every input buffer at its block,
the body leaves the inputs unchanged and the output buffer at `out5_5` of the five input blocks. -/

-- deciding that the one stored rectangle is the whole 5000-row block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the sub-array of `V`'s array of `w` that the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: for any proof data over `V`'s array whose body leaves the block in place, the staging buffer the
    body is handed at `t` holds the block at `t` — moved in at `t`, or left there by an earlier point with the same
    block index. The window is never clipped and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1: for any proof data over `V`'s array whose body leaves the block in place, the staging buffer the
    body is handed at `t` holds the block at `t` — moved in at `t`, or left there by an earlier point with the same
    block index. The window is never clipped and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2: for any proof data over `V`'s array whose body leaves the block in place, the staging buffer the
    body is handed at `t` holds the block at `t` — moved in at `t`, or left there by an earlier point with the same
    block index. The window is never clipped and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3: for any proof data over `V`'s array whose body leaves the block in place, the staging buffer the
    body is handed at `t` holds the block at `t` — moved in at `t`, or left there by an earlier point with the same
    block index. The window is never clipped and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4: for any proof data over `V`'s array whose body leaves the block in place, the staging buffer the
    body is handed at `t` holds the block at `t` — moved in at `t`, or left there by an earlier point with the same
    block index. The window is never clipped and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a [1,256] row buffer. -/
abbrev r5_0 : Rect S1x256 := Rect.unit (s := S1x256) ![0, 0] S1x256.size inb_S1x256_S1x256_0_0
/-- The whole of a [5000,256] block buffer. -/
abbrev r5_1 : Rect S5000x256 := Rect.unit (s := S5000x256) ![0, 0] S5000x256.size inb_S5000x256_S5000x256_0_0

/-! ## What the body leaves in the output window's buffer -/

/-- Window 5's buffer after the body, as a function of the five input buffers `x0` (linear outputs), `x1` (mean),
    `x2` (variance), `x3` (scale), `x4` (shift): its single store, of the normalised and rectified block, over the
    whole buffer. -/
def out5_5 (x0 : Vec F S5000x256 .f32) (x1 : Vec F S1x256 .f32) (x2 : Vec F S1x256 .f32) (x3 : Vec F S1x256 .f32) (x4 : Vec F S1x256 .f32) : Vec F S5000x256 .f32 :=
  View.canon [⟨r5_1, k5_pay1 (View.ld x3 r5_0) (View.ld x2 r5_0) (View.ld x0 r5_1) (View.ld x1 r5_0) (View.ld x4 r5_0)⟩]

/-- The one stored rectangle is the whole buffer, so every index of the buffer lies in it. -/
theorem cover5_5 (p0 : Vec F S5000x256 .f32) (y : S5000x256.Idx) :
    ∃ pc ∈ ([⟨r5_1, p0⟩] : List (View.Piece (Elt F) S5000x256 .f32)), y ∈ pc.1.set :=
  View.cover_of_tiled [⟨r5_1, p0⟩] S5000x256.size (by rfl) y

/-! ## The body's triple -/

set_option maxHeartbeats 1000000 in
/-- The body on whole staging buffers — the five inputs at contents `x0 … x4`, the output at anything — runs to the
    end, returns the inputs as they were and leaves the output at `out5_5 x0 x1 x2 x3 x4`: five whole-buffer loads,
    a pointwise computation, one whole-buffer store. -/
theorem sound_kernel5 (c : Dev nD) (E : Set ℕ) (i : grid5.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S5000x256 .f32) (harg6 : arg6.IsWhole)
    (x0 : Vec F S5000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of region 5 on core `c`: the arrays as the region finds them; after the body at point `t` every
    input buffer still at its block and the output buffer at `out5_5` of the five input blocks; the invariant keeps
    everything else untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's staging buffer holds its block at every point, moved in there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what the loop has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns: the same, each buffer at what the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The staged loop's body obligation, at every point. -/
theorem body_obligation5 (c : Dev nD) : BodyObligation (dat5 (F := F) V c) (defs₀ (F := F)) Variants.none () Set.univ := fun t => by
  rw [bigSep_W5, bigSep_W5]
  exact sound_body5 V c t

/-! ## What the staged loop's run asks of the proof data besides the body -/

/-- Every window is held at the full share. -/
theorem q_eq5 (c : Dev nD) (w : Fin cfg5.W) : (dat5 V c).q w = fullShare := rfl

/-- No point owes anything. -/
theorem owed_eq5 (c : Dev nD) (t) : (dat5 V c).owed t = 0 := rfl

/-- Every waiting pair counts as recorded from the first point on. -/
theorem rec_eq5 (c : Dev nD) : (dat5 V c).recorded 0 = Set.univ := rfl

/-- The invariant is the same at every point — the region's scoped buffers other than the staging ones, and the
    generator register, untouched — so it is entered from, and left to, exactly that. -/
theorem Φ_in5 (c : Dev nD) : Pipeline.ΦA (U := UR sig nD τ) (Val := Elt F) spec5 c ⊢ (dat5 V c).Φ 0 := .rfl
theorem Φ_out5 (c : Dev nD) : (dat5 V c).Φ (Fin.last cfg5.N) ⊢ Pipeline.ΦA (U := UR sig nD τ) (Val := Elt F) spec5 c := .rfl

end Cert.KernelIdeal.Hand

end
-- ==== Proof.KI.Mlp6.lean ====
/- The perceptron region of the kernel program (its seventh pallas_call), at any float model and at any contents
   `V` of the core's buffers when the region is entered. The grid has one point. The body reads seven whole blocks
   (the pooled features, three weight matrices and three bias rows), and writes one whole block: three matrix
   products into zero accumulators, each followed by the addition of a bias row, the first two also by the
   leaky rectifier. Below: each window's block at the point; what the body leaves in the output's buffer, as a
   function of the seven blocks; the body's triple; the pipeline's proof data; and the body obligation. -/
import proofs.«144042_j23673859736035_1_alg».proof.Proof.Gen.KernelIdeal.Launch
import proofs.«144042_j23673859736035_1_alg».proof.Proof.Gen.KernelIdeal.Skeleton
import proofs.«144042_j23673859736035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: the sub-array of `V`'s array that the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: for any proof data whose array is `V`'s and whose body leaves the block where it is, the
    current staging buffer holds the block at every point, whether it was fetched there or kept from before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: for any proof data whose array is `V`'s and whose body leaves the block where it is, the
    current staging buffer holds the block at every point, whether it was fetched there or kept from before. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2: for any proof data whose array is `V`'s and whose body leaves the block where it is, the
    current staging buffer holds the block at every point, whether it was fetched there or kept from before. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3: for any proof data whose array is `V`'s and whose body leaves the block where it is, the
    current staging buffer holds the block at every point, whether it was fetched there or kept from before. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4: for any proof data whose array is `V`'s and whose body leaves the block where it is, the
    current staging buffer holds the block at every point, whether it was fetched there or kept from before. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5: for any proof data whose array is `V`'s and whose body leaves the block where it is, the
    current staging buffer holds the block at every point, whether it was fetched there or kept from before. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6: for any proof data whose array is `V`'s and whose body leaves the block where it is, the
    current staging buffer holds the block at every point, whether it was fetched there or kept from before. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is of a whole buffer -/

abbrev r6_0 : Rect S64x288 := Rect.unit (s := S64x288) ![0, 0] S64x288.size inb_S64x288_S64x288_0_0
abbrev r6_1 : Rect S288x512 := Rect.unit (s := S288x512) ![0, 0] S288x512.size inb_S288x512_S288x512_0_0
abbrev r6_2 : Rect S1x512 := Rect.unit (s := S1x512) ![0, 0] S1x512.size inb_S1x512_S1x512_0_0
abbrev r6_3 : Rect S512x512 := Rect.unit (s := S512x512) ![0, 0] S512x512.size inb_S512x512_S512x512_0_0
abbrev r6_4 : Rect S1x512 := Rect.unit (s := S1x512) ![0, 0] S1x512.size inb_S1x512_S1x512_0_0
abbrev r6_5 : Rect S512x10 := Rect.unit (s := S512x10) ![0, 0] S512x10.size inb_S512x10_S512x10_0_0
abbrev r6_6 : Rect S1x10 := Rect.unit (s := S1x10) ![0, 0] S1x10.size inb_S1x10_S1x10_0_0
abbrev r6_7 : Rect S64x10 := Rect.unit (s := S64x10) ![0, 0] S64x10.size inb_S64x10_S64x10_0_0

/-! ## What the body leaves in the output window's buffer -/

/-- The output's buffer after the body, from the seven input blocks: its one store, of the whole buffer, whose
    value is the three-layer perceptron of the blocks. -/
def out6_7 (x0 : Vec F S64x288 .f32) (x1 : Vec F S288x512 .f32) (x2 : Vec F S1x512 .f32) (x3 : Vec F S512x512 .f32) (x4 : Vec F S1x512 .f32) (x5 : Vec F S512x10 .f32) (x6 : Vec F S1x10 .f32) : Vec F S64x10 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The one store is of the whole buffer, so it covers it. -/
theorem cover6_7 (p0 : Vec F S64x10 .f32) (y : S64x10.Idx) :
    ∃ pc ∈ ([⟨r6_7, p0⟩] : List (View.Piece (Elt F) S64x10 .f32)), y ∈ pc.1.set :=
  View.cover_of_tiled [⟨r6_7, p0⟩] S64x10.size (by rfl) y

/-! ## The body's triple -/

set_option maxHeartbeats 1000000 in
/-- On whole staging buffers, the inputs' holding `x0 … x6` and the output's holding anything, the body runs to
    the end, faults nowhere, leaves the inputs' buffers as they were and the output's at `out6_7` of them. -/
theorem sound_kernel6 (c : Dev nD) (E : Set ℕ) (i : grid6.Coords) (arg1 : Memref sig .tc .vmem S64x288 .f32) (harg1 : arg1.IsWhole) (arg2 : Memref sig .tc .vmem S288x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S64x10 .f32) (harg8 : arg8.IsWhole)
    (x0 : Vec F S64x288 .f32) (x1 : Vec F S288x512 .f32) (x2 : Vec F S1x512 .f32) (x3 : Vec F S512x512 .f32) (x4 : Vec F S1x512 .f32) (x5 : Vec F S512x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the region's pipeline on core `c`: the arrays as the region finds them; after the body each
    input's buffer at its block and the output's at `out6_7` of the seven blocks; the invariant that of a kernel
    all of whose operands are staged (nothing else is touched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the contents at the region's entry. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at the point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-! ## What the run's assembly asks of the proof data besides the body obligation -/

/-- Every window is held at the full share. -/
theorem q_eq6 (c : Dev nD) (w : Fin cfg6.W) : (dat6 V c).q w = fullShare := by dsimp only [dat6]

/-- Nothing is owed at any point. -/
theorem owed_eq6 (c : Dev nD) (t) : (dat6 V c).owed t = 0 := by dsimp only [dat6]

/-- The invariant is one proposition at every point — the scoped rest of the core's buffers and the generator
    register at some state —, so it is entered from that proposition -/
theorem Φ_in6 (c : Dev nD) : Pipeline.ΦA (U := UR sig nD τ) (Val := Elt F) spec6 c ⊢ (dat6 V c).Φ 0 := .rfl

/-- and left to it. -/
theorem Φ_out6 (c : Dev nD) : (dat6 V c).Φ (Fin.last cfg6.N) ⊢ Pipeline.ΦA (U := UR sig nD τ) (Val := Elt F) spec6 c := .rfl

/-- Every wait is recorded at the region's entry (the proof data keeps the default record). -/
theorem rec_eq6 (c : Dev nD) : (dat6 V c).recorded 0 = Set.univ := rfl

end Cert.KernelIdeal.Hand

end
-- ==== Proof.KI.RunAll.lean ====
/-
  The run of the program at the seven regions' actual data: every weakly fair execution from a memory with zero
  counters terminates, faulting nowhere; the final memory holds every argument array as launched and the result array at
  the last boundary's contents — the launch memory folded through the seven host stretches and the seven regions, each
  region's output arrays at its output windows' final arrays.
-/
import proofs.«144042_j23673859736035_1_alg».proof.Proof.KI.Run
import proofs.«144042_j23673859736035_1_alg».proof.Proof.KI.Lin0Body
import proofs.«144042_j23673859736035_1_alg».proof.Proof.KI.Norm1
import proofs.«144042_j23673859736035_1_alg».proof.Proof.KI.Lin2Body
import proofs.«144042_j23673859736035_1_alg».proof.Proof.KI.Norm3
import proofs.«144042_j23673859736035_1_alg».proof.Proof.KI.Lin4Body
import proofs.«144042_j23673859736035_1_alg».proof.Proof.KI.Norm5
import proofs.«144042_j23673859736035_1_alg».proof.Proof.KI.Mlp6

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 0's data, bundled. -/
def regData0 : RegData (F := F) cfg0 (IR cfg0) :=
  ⟨dat0, hA0, hq0, ho0, hr0, hbody0, fun V c => hin0 V c, fun V c => hout0 V c⟩
/-- Region 1's data, bundled. -/
def regData1 : RegData (F := F) cfg1 (IA cfg1) :=
  ⟨dat1, fun V c w => A_eq1 V c w, fun V c w => q_eq1 V c w, fun V c t => owed_eq1 V c t, fun V c => rec_eq1 V c,
    fun V c => body_obligation1 V c, fun V c => Φ_in1 V c, fun V c => Φ_out1 V c⟩
/-- Region 2's data, bundled. -/
def regData2 : RegData (F := F) cfg2 (IR cfg2) :=
  ⟨dat2, hA2, hq2, ho2, hr2, hbody2, fun V c => hin2 V c, fun V c => hout2 V c⟩
/-- Region 3's data, bundled. -/
def regData3 : RegData (F := F) cfg3 (IA cfg3) :=
  ⟨dat3, fun V c w => A_eq3 V c w, fun V c w => q_eq3 V c w, fun V c t => owed_eq3 V c t, fun V c => rec_eq3 V c,
    fun V c => body_obligation3 V c, fun V c => Φ_in3 V c, fun V c => Φ_out3 V c⟩
/-- Region 4's data, bundled. -/
def regData4 : RegData (F := F) cfg4 (IR cfg4) :=
  ⟨dat4, hA4, hq4, ho4, hr4, hbody4, fun V c => hin4 V c, fun V c => hout4 V c⟩
/-- Region 5's data, bundled. -/
def regData5 : RegData (F := F) cfg5 (IA cfg5) :=
  ⟨dat5, fun V c w => A_eq5 V c w, fun V c w => q_eq5 V c w, fun V c t => owed_eq5 V c t, fun V c => rec_eq5 V c,
    fun V c => body_obligation5 V c, fun V c => Φ_in5 V c, fun V c => Φ_out5 V c⟩
/-- Region 6's data, bundled. -/
def regData6 : RegData (F := F) cfg6 (IA cfg6) :=
  ⟨dat6, fun V c w => A_eq6 V c w, fun V c w => q_eq6 V c w, fun V c t => owed_eq6 V c t, fun V c => rec_eq6 V c,
    fun V c => body_obligation6 V c, fun V c => Φ_in6 V c, fun V c => Φ_out6 V c⟩

variable (m : (ℓ : Loc nD τ sig) → Buf (Elt F) ℓ) (ρ : Dev nD → PrngReg)

/-- THE FRAME of the program: it runs to its end from any memory with zero counters, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame m regData0 regData1 regData2 regData3 regData4 regData5 regData6 ρ

/-- THE RUN WITH ITS RESULT: besides, the final memory holds the result array at the last boundary's contents. -/
theorem run_valued : θ_run defs (onTc (τ := τ) (main (F := F))) ⟨m, fun _ => 0, ρ⟩ (fun r => ∀ c : Dev nD,
      r.2.mem ((c.tc : Thread nD τ).loc main_v104) = W14 m regData0 regData1 regData2 regData3 regData4 regData5 regData6 c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_frame_valW m regData0 regData1 regData2 regData3 regData4 regData5 regData6 ρ

/-- The last boundary's contents at the result's buffer: region 6's output window's final array, region 6 entered at
    the contents before it. -/
theorem W14_result (c : Dev nD) :
    W14 m regData0 regData1 regData2 regData3 regData4 regData5 regData6 c (Proc.devRef .tc main_v104) = (dat6 (rd (W13 m regData0 regData1 regData2 regData3 regData4 regData5)) c).arrAt (7 : Fin 8) cfg6.N :=
  W14_main_v104 m regData0 regData1 regData2 regData3 regData4 regData5 regData6 c

end Cert.KernelIdeal.Hand

end
-- ==== Proof.Ref.Ops.lean ====
import proofs.«144042_j23673859736035_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements %0 … %16, in order, every call's operations in place of the call: 21 operations. -/
abbrev pro : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.unary main_arg10 main_v13 ((extractStridedSlice S1x256 ![0, 0] · slices_S3x256_S1x256_0_0) : (⟨S3x256, .f32⟩ : BufTy).Contents (Elt F) → (⟨S1x256, .f32⟩ : BufTy).Contents (Elt F)),
    StableHlo.reshape main_v13 main_v14 rfl shapeCasts_S1x256_S256,
    StableHlo.unary main_arg11 main_v15 ((extractStridedSlice S1x256 ![0, 0] · slices_S3x256_S1x256_0_0) : (⟨S3x256, .f32⟩ : BufTy).Contents (Elt F) → (⟨S1x256, .f32⟩ : BufTy).Contents (Elt F)),
    StableHlo.reshape main_v15 main_v16 rfl shapeCasts_S1x256_S256 ]
/-- The references `pro`'s operations write, in order. -/
abbrev pro_W : List (Ref sig .tc) :=
  [main_v0, main_v1, main_v2, main_v3, main_cst, main_v4, main_cst_0, main_v5, main_v6, main_v7, main_cst_1, main_v8, main_v9, main_cst_2, main_v10, main_v11, main_v12, main_v13, main_v14, main_v15, main_v16]

/-- @main's statements %c … %28, in order, every call's operations in place of the call: 15 operations. -/
abbrev agg0 : List (HloOp τ sig (Elt F)) :=
  [ StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_v1 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v19 (broadcastInDim S800000 ![] bcast_S_S800000 : (⟨S_, .i32⟩ : BufTy).Contents (Elt F) → (⟨S800000, .i32⟩ : BufTy).Contents (Elt F)),
    StableHlo.binary main_v1 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_arg0 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v24 (broadcastInDim S50000x128 ![] bcast_S_S50000x128 : (⟨S_, .f32⟩ : BufTy).Contents (Elt F) → (⟨S50000x128, .f32⟩ : BufTy).Contents (Elt F)),
    StableHlo.unary main_v3 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v27 main_v28 (mulf : (⟨S50000x128, .f32⟩ : BufTy).Contents (Elt F) → (⟨S50000x128, .f32⟩ : BufTy).Contents (Elt F) → (⟨S50000x128, .f32⟩ : BufTy).Contents (Elt F)) ]
/-- The references `agg0`'s operations write, in order. -/
abbrev agg0_W : List (Ref sig .tc) :=
  [main_c, main_v17, main_v18, main_c_3, main_v19, main_v20, main_v21, main_v22, main_v23, main_cst_4, main_v24, main_v25, main_v26, main_v27, main_v28]

/-- @main's statements %29 … %34, in order, every call's operations in place of the call: 6 operations. -/
abbrev lin0 : List (HloOp τ sig (Elt F)) :=
  [ StableHlo.binary main_v28 main_arg4 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v31 main_v32 (addf : (⟨S50000x256, .f32⟩ : BufTy).Contents (Elt F) → (⟨S50000x256, .f32⟩ : BufTy).Contents (Elt F) → (⟨S50000x256, .f32⟩ : BufTy).Contents (Elt F)),
    StableHlo.binary main_arg0 main_arg5 main_v33 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v32 main_v33 main_v34 (addf : (⟨S50000x256, .f32⟩ : BufTy).Contents (Elt F) → (⟨S50000x256, .f32⟩ : BufTy).Contents (Elt F) → (⟨S50000x256, .f32⟩ : BufTy).Contents (Elt F)) ]
/-- The references `lin0`'s operations write, in order. -/
abbrev lin0_W : List (Ref sig .tc) :=
  [main_v29, main_v30, main_v31, main_v32, main_v33, main_v34]

/-- @main's statements %cst_5 … %48, in order, every call's operations in place of the call: 39 operations. -/
abbrev bn0a : List (HloOp τ sig (Elt F)) :=
  [ StableHlo.nullary main_cst_5 (constant S_ .f32 0x00000000#32),
    StableHlo.binary main_v34 main_cst_5 main_v35 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v36 (broadcastInDim S256 ![] bcast_S_S256 : (⟨S_, .f32⟩ : BufTy).Contents (Elt F) → (⟨S256, .f32⟩ : BufTy).Contents (Elt F)),
    StableHlo.binary main_v35 main_v36 main_v37 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call0.cst (constant S_ .f32 0x00000000#32),
    StableHlo.TRef.binary (.of main_v34 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v34 : StableHlo.TRef sig ⟨S50000x256, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v37 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v40 main_v41 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v42 (broadcastInDim S256 ![] bcast_S_S256 : (⟨S_, .f32⟩ : BufTy).Contents (Elt F) → (⟨S256, .f32⟩ : BufTy).Contents (Elt F)),
    StableHlo.binary main_v38 main_v42 main_v43 (addf : (⟨S256, .f32⟩ : BufTy).Contents (Elt F) → (⟨S256, .f32⟩ : BufTy).Contents (Elt F) → (⟨S256, .f32⟩ : BufTy).Contents (Elt F)),
    StableHlo.unary main_v43 main_v44 (Host.sqrt : (⟨S256, .f32⟩ : BufTy).Contents (Elt F) → (⟨S256, .f32⟩ : BufTy).Contents (Elt F)),
    StableHlo.binary main_v14 main_v44 main_v45 (Host.divf : (⟨S256, .f32⟩ : BufTy).Contents (Elt F) → (⟨S256, .f32⟩ : BufTy).Contents (Elt F) → (⟨S256, .f32⟩ : BufTy).Contents (Elt F)),
    StableHlo.unary main_v45 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v47 main_v48 (mulf : (⟨S50000x256, .f32⟩ : BufTy).Contents (Elt F) → (⟨S50000x256, .f32⟩ : BufTy).Contents (Elt F) → (⟨S50000x256, .f32⟩ : BufTy).Contents (Elt F)) ]
/-- The references `bn0a`'s operations write, in order. -/
abbrev bn0a_W : List (Ref sig .tc) :=
  [main_cst_5, main_v35, main_cst_6, main_v36, main_v37, main_c_7, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref, main_v39, main_v40, main_v41, main_cst_8, main_v42, main_v43, main_v44, main_v45, main_v46, main_v47, main_v48]

/-- @main's statements %49 … %56, in order, every call's operations in place of the call: 10 operations. -/
abbrev bn0b : List (HloOp τ sig (Elt F)) :=
  [ StableHlo.unary main_v16 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v50 main_v51 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x00000000#32),
    StableHlo.unary main_cst_9 main_v52 (broadcastInDim S50000x256 ![] bcast_S_S50000x256 : (⟨S_, .f32⟩ : BufTy).Contents (Elt F) → (⟨S50000x256, .f32⟩ : BufTy).Contents (Elt F)),
    StableHlo.binary main_v51 main_v52 main_v53 (cmpf .ogt : (⟨S50000x256, .f32⟩ : BufTy).Contents (Elt F) → (⟨S50000x256, .f32⟩ : BufTy).Contents (Elt F) → (⟨S50000x256, .i1⟩ : BufTy).Contents (Elt F)),
    StableHlo.nullary main_cst_10 (constant S_ .f32 0x3D2F8D5C#32),
    StableHlo.unary main_cst_10 main_v54 (broadcastInDim S50000x256 ![] bcast_S_S50000x256 : (⟨S_, .f32⟩ : BufTy).Contents (Elt F) → (⟨S50000x256, .f32⟩ : BufTy).Contents (Elt F)),
    StableHlo.binary main_v54 main_v51 main_v55 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v53 : StableHlo.TRef sig ⟨S50000x256, .i1⟩) (.of main_v51 : StableHlo.TRef sig ⟨S50000x256, .f32⟩) (.of main_v55 : StableHlo.TRef sig ⟨S50000x256, .f32⟩) main_call1.v0 select ]
/-- The references `bn0b`'s operations write, in order. -/
abbrev bn0b_W : List (Ref sig .tc) :=
  [main_v49, main_v50, main_v51, main_cst_9, main_v52, main_v53, main_cst_10, main_v54, main_v55, (main_call1.v0).ref]

/-- @main's statements %57 … %66, in order, every call's operations in place of the call: 10 operations. -/
abbrev par1 : List (HloOp τ sig (Elt F)) :=
  [ StableHlo.unary main_arg7 main_v57 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v57 main_v58 rfl shapeCasts_S1x256x256_S256x256,
    StableHlo.unary main_arg9 main_v59 ((extractStridedSlice S1x256 ![0, 0] · slices_S2x256_S1x256_0_0) : (⟨S2x256, .f32⟩ : BufTy).Contents (Elt F) → (⟨S1x256, .f32⟩ : BufTy).Contents (Elt F)),
    StableHlo.reshape main_v59 main_v60 rfl shapeCasts_S1x256_S256,
    StableHlo.unary main_arg8 main_v61 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v61 main_v62 rfl shapeCasts_S1x256x256_S256x256,
    StableHlo.unary main_arg10 main_v63 ((extractStridedSlice S1x256 ![1, 0] · slices_S3x256_S1x256_1_0) : (⟨S3x256, .f32⟩ : BufTy).Contents (Elt F) → (⟨S1x256, .f32⟩ : BufTy).Contents (Elt F)),
    StableHlo.reshape main_v63 main_v64 rfl shapeCasts_S1x256_S256,
    StableHlo.unary main_arg11 main_v65 ((extractStridedSlice S1x256 ![1, 0] · slices_S3x256_S1x256_1_0) : (⟨S3x256, .f32⟩ : BufTy).Contents (Elt F) → (⟨S1x256, .f32⟩ : BufTy).Contents (Elt F)),
    StableHlo.reshape main_v65 main_v66 rfl shapeCasts_S1x256_S256 ]
/-- The references `par1`'s operations write, in order. -/
abbrev par1_W : List (Ref sig .tc) :=
  [main_v57, main_v58, main_v59, main_v60, main_v61, main_v62, main_v63, main_v64, main_v65, main_v66]

/-- @main's statements %c_11 … %78, in order, every call's operations in place of the call: 15 operations. -/
abbrev agg1 : List (HloOp τ sig (Elt F)) :=
  [ StableHlo.nullary main_c_11 (constantI S_ 32 0#32),
    StableHlo.unary main_c_11 main_v67 (broadcastInDim S800000 ![] bcast_S_S800000 : (⟨S_, .i32⟩ : BufTy).Contents (Elt F) → (⟨S800000, .i32⟩ : BufTy).Contents (Elt F)),
    StableHlo.binary main_v1 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v69 (broadcastInDim S800000 ![] bcast_S_S800000 : (⟨S_, .i32⟩ : BufTy).Contents (Elt F) → (⟨S800000, .i32⟩ : BufTy).Contents (Elt F)),
    StableHlo.binary main_v1 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_v1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v56 main_v72 main_v73 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_13 (constant S_ .f32 0x00000000#32),
    StableHlo.unary main_cst_13 main_v74 (broadcastInDim S50000x256 ![] bcast_S_S50000x256 : (⟨S_, .f32⟩ : BufTy).Contents (Elt F) → (⟨S50000x256, .f32⟩ : BufTy).Contents (Elt F)),
    StableHlo.unary main_v3 main_v75 (broadcastInDim S800000x1 ![0] bcast_S800000_S800000x1_0 : (⟨S800000, .i32⟩ : BufTy).Contents (Elt F) → (⟨S800000x1, .i32⟩ : BufTy).Contents (Elt F)),
    StableHlo.ternary main_v74 main_v75 main_v73 main_v76 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v12 main_v77 (broadcastInDim S50000x256 ![0, 1] bcast_S50000x1_S50000x256_0_1 : (⟨S50000x1, .f32⟩ : BufTy).Contents (Elt F) → (⟨S50000x256, .f32⟩ : BufTy).Contents (Elt F)),
    StableHlo.binary main_v76 main_v77 main_v78 (mulf : (⟨S50000x256, .f32⟩ : BufTy).Contents (Elt F) → (⟨S50000x256, .f32⟩ : BufTy).Contents (Elt F) → (⟨S50000x256, .f32⟩ : BufTy).Contents (Elt F)) ]
/-- The references `agg1`'s operations write, in order. -/
abbrev agg1_W : List (Ref sig .tc) :=
  [main_c_11, main_v67, main_v68, main_c_12, main_v69, main_v70, main_v71, main_v72, main_v73, main_cst_13, main_v74, main_v75, main_v76, main_v77, main_v78]

/-- @main's statements %79 … %84, in order, every call's operations in place of the call: 6 operations. -/
abbrev lin1 : List (HloOp τ sig (Elt F)) :=
  [ StableHlo.binary main_v78 main_v58 main_v79 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v60 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)),
    StableHlo.binary main_v56 main_v62 main_v83 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v82 main_v83 main_v84 (addf : (⟨S50000x256, .f32⟩ : BufTy).Contents (Elt F) → (⟨S50000x256, .f32⟩ : BufTy).Contents (Elt F) → (⟨S50000x256, .f32⟩ : BufTy).Contents (Elt F)) ]
/-- The references `lin1`'s operations write, in order. -/
abbrev lin1_W : List (Ref sig .tc) :=
  [main_v79, main_v80, main_v81, main_v82, main_v83, main_v84]

/-- @main's statements %cst_14 … %99, in order, every call's operations in place of the call: 40 operations. -/
abbrev bn1a : List (HloOp τ sig (Elt F)) :=
  [ StableHlo.nullary main_cst_14 (constant S_ .f32 0x00000000#32),
    StableHlo.binary main_v84 main_cst_14 main_v85 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v86 (broadcastInDim S256 ![] bcast_S_S256 : (⟨S_, .f32⟩ : BufTy).Contents (Elt F) → (⟨S256, .f32⟩ : BufTy).Contents (Elt F)),
    StableHlo.binary main_v85 main_v86 main_v87 (Host.divf : (⟨S256, .f32⟩ : BufTy).Contents (Elt F) → (⟨S256, .f32⟩ : BufTy).Contents (Elt F) → (⟨S256, .f32⟩ : BufTy).Contents (Elt F)),
    StableHlo.nullary main_c_16 (constantI S_ 32 0#32),
    StableHlo.TRef.nullary main_call2.cst (constant S_ .f32 0x00000000#32),
    StableHlo.TRef.binary (.of main_v84 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v84 : StableHlo.TRef sig ⟨S50000x256, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v87 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S50000x256 ![0, 1] bcast_S1x256_S50000x256_0_1 : (⟨S1x256, .f32⟩ : BufTy).Contents (Elt F) → (⟨S50000x256, .f32⟩ : BufTy).Contents (Elt F)),
    StableHlo.binary main_v84 main_v90 main_v91 (subf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v92 (broadcastInDim S256 ![] bcast_S_S256 : (⟨S_, .f32⟩ : BufTy).Contents (Elt F) → (⟨S256, .f32⟩ : BufTy).Contents (Elt F)),
    StableHlo.binary main_v88 main_v92 main_v93 (addf : (⟨S256, .f32⟩ : BufTy).Contents (Elt F) → (⟨S256, .f32⟩ : BufTy).Contents (Elt F) → (⟨S256, .f32⟩ : BufTy).Contents (Elt F)),
    StableHlo.unary main_v93 main_v94 (Host.sqrt : (⟨S256, .f32⟩ : BufTy).Contents (Elt F) → (⟨S256, .f32⟩ : BufTy).Contents (Elt F)),
    StableHlo.binary main_v64 main_v94 main_v95 (Host.divf : (⟨S256, .f32⟩ : BufTy).Contents (Elt F) → (⟨S256, .f32⟩ : BufTy).Contents (Elt F) → (⟨S256, .f32⟩ : BufTy).Contents (Elt F)),
    StableHlo.unary main_v95 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v91 main_v97 main_v98 (mulf : (⟨S50000x256, .f32⟩ : BufTy).Contents (Elt F) → (⟨S50000x256, .f32⟩ : BufTy).Contents (Elt F) → (⟨S50000x256, .f32⟩ : BufTy).Contents (Elt F)),
    StableHlo.unary main_v66 main_v99 (broadcastInDim S1x256 ![1] bcast_S256_S1x256_1 : (⟨S256, .f32⟩ : BufTy).Contents (Elt F) → (⟨S1x256, .f32⟩ : BufTy).Contents (Elt F)) ]
/-- The references `bn1a`'s operations write, in order. -/
abbrev bn1a_W : List (Ref sig .tc) :=
  [main_cst_14, main_v85, main_cst_15, main_v86, main_v87, main_c_16, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.cst_3).ref, (main_call2.v12).ref, (main_call2.cst_4).ref, (main_call2.call0.v0).ref, (main_call2.call0.v1).ref, (main_call2.call0.v2).ref, main_v89, main_v90, main_v91, main_cst_17, main_v92, main_v93, main_v94, main_v95, main_v96, main_v97, main_v98, main_v99]

/-- @main's statements %100 … %106, in order, every call's operations in place of the call: 9 operations. -/
abbrev bn1b : List (HloOp τ sig (Elt F)) :=
  [ StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x00000000#32),
    StableHlo.unary main_cst_18 main_v102 (broadcastInDim S50000x256 ![] bcast_S_S50000x256 : (⟨S_, .f32⟩ : BufTy).Contents (Elt F) → (⟨S50000x256, .f32⟩ : BufTy).Contents (Elt F)),
    StableHlo.binary main_v101 main_v102 main_v103 (cmpf .ogt : (⟨S50000x256, .f32⟩ : BufTy).Contents (Elt F) → (⟨S50000x256, .f32⟩ : BufTy).Contents (Elt F) → (⟨S50000x256, .i1⟩ : BufTy).Contents (Elt F)),
    StableHlo.nullary main_cst_19 (constant S_ .f32 0x3D2F8D5C#32),
    StableHlo.unary main_cst_19 main_v104 (broadcastInDim S50000x256 ![] bcast_S_S50000x256 : (⟨S_, .f32⟩ : BufTy).Contents (Elt F) → (⟨S50000x256, .f32⟩ : BufTy).Contents (Elt F)),
    StableHlo.binary main_v104 main_v101 main_v105 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v103 : StableHlo.TRef sig ⟨S50000x256, .i1⟩) (.of main_v101 : StableHlo.TRef sig ⟨S50000x256, .f32⟩) (.of main_v105 : StableHlo.TRef sig ⟨S50000x256, .f32⟩) main_call3.v0 select ]
/-- The references `bn1b`'s operations write, in order. -/
abbrev bn1b_W : List (Ref sig .tc) :=
  [main_v100, main_v101, main_cst_18, main_v102, main_v103, main_cst_19, main_v104, main_v105, (main_call3.v0).ref]

/-- @main's statements %107 … %116, in order, every call's operations in place of the call: 10 operations. -/
abbrev par2 : List (HloOp τ sig (Elt F)) :=
  [ StableHlo.unary main_arg7 main_v107 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v107 main_v108 rfl shapeCasts_S1x256x256_S256x256,
    StableHlo.unary main_arg9 main_v109 ((extractStridedSlice S1x256 ![1, 0] · slices_S2x256_S1x256_1_0) : (⟨S2x256, .f32⟩ : BufTy).Contents (Elt F) → (⟨S1x256, .f32⟩ : BufTy).Contents (Elt F)),
    StableHlo.reshape main_v109 main_v110 rfl shapeCasts_S1x256_S256,
    StableHlo.unary main_arg8 main_v111 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v111 main_v112 rfl shapeCasts_S1x256x256_S256x256,
    StableHlo.unary main_arg10 main_v113 ((extractStridedSlice S1x256 ![2, 0] · slices_S3x256_S1x256_2_0) : (⟨S3x256, .f32⟩ : BufTy).Contents (Elt F) → (⟨S1x256, .f32⟩ : BufTy).Contents (Elt F)),
    StableHlo.reshape main_v113 main_v114 rfl shapeCasts_S1x256_S256,
    StableHlo.unary main_arg11 main_v115 ((extractStridedSlice S1x256 ![2, 0] · slices_S3x256_S1x256_2_0) : (⟨S3x256, .f32⟩ : BufTy).Contents (Elt F) → (⟨S1x256, .f32⟩ : BufTy).Contents (Elt F)),
    StableHlo.reshape main_v115 main_v116 rfl shapeCasts_S1x256_S256 ]
/-- The references `par2`'s operations write, in order. -/
abbrev par2_W : List (Ref sig .tc) :=
  [main_v107, main_v108, main_v109, main_v110, main_v111, main_v112, main_v113, main_v114, main_v115, main_v116]

/-- @main's statements %c_20 … %128, in order, every call's operations in place of the call: 15 operations. -/
abbrev agg2 : List (HloOp τ sig (Elt F)) :=
  [ StableHlo.nullary main_c_20 (constantI S_ 32 0#32),
    StableHlo.unary main_c_20 main_v117 (broadcastInDim S800000 ![] bcast_S_S800000 : (⟨S_, .i32⟩ : BufTy).Contents (Elt F) → (⟨S800000, .i32⟩ : BufTy).Contents (Elt F)),
    StableHlo.binary main_v1 main_v117 main_v118 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v119 (broadcastInDim S800000 ![] bcast_S_S800000 : (⟨S_, .i32⟩ : BufTy).Contents (Elt F) → (⟨S800000, .i32⟩ : BufTy).Contents (Elt F)),
    StableHlo.binary main_v1 main_v119 main_v120 (addi : (⟨S800000, .i32⟩ : BufTy).Contents (Elt F) → (⟨S800000, .i32⟩ : BufTy).Contents (Elt F) → (⟨S800000, .i32⟩ : BufTy).Contents (Elt F)),
    StableHlo.ternary main_v118 main_v120 main_v1 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v121 main_v122 (broadcastInDim S800000x1 ![0] bcast_S800000_S800000x1_0 : (⟨S800000, .i32⟩ : BufTy).Contents (Elt F) → (⟨S800000x1, .i32⟩ : BufTy).Contents (Elt F)),
    StableHlo.binary main_v106 main_v122 main_v123 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_22 (constant S_ .f32 0x00000000#32),
    StableHlo.unary main_cst_22 main_v124 (broadcastInDim S50000x256 ![] bcast_S_S50000x256 : (⟨S_, .f32⟩ : BufTy).Contents (Elt F) → (⟨S50000x256, .f32⟩ : BufTy).Contents (Elt F)),
    StableHlo.unary main_v3 main_v125 (broadcastInDim S800000x1 ![0] bcast_S800000_S800000x1_0 : (⟨S800000, .i32⟩ : BufTy).Contents (Elt F) → (⟨S800000x1, .i32⟩ : BufTy).Contents (Elt F)),
    StableHlo.ternary main_v124 main_v125 main_v123 main_v126 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v12 main_v127 (broadcastInDim S50000x256 ![0, 1] bcast_S50000x1_S50000x256_0_1 : (⟨S50000x1, .f32⟩ : BufTy).Contents (Elt F) → (⟨S50000x256, .f32⟩ : BufTy).Contents (Elt F)),
    StableHlo.binary main_v126 main_v127 main_v128 (mulf : (⟨S50000x256, .f32⟩ : BufTy).Contents (Elt F) → (⟨S50000x256, .f32⟩ : BufTy).Contents (Elt F) → (⟨S50000x256, .f32⟩ : BufTy).Contents (Elt F)) ]
/-- The references `agg2`'s operations write, in order. -/
abbrev agg2_W : List (Ref sig .tc) :=
  [main_c_20, main_v117, main_v118, main_c_21, main_v119, main_v120, main_v121, main_v122, main_v123, main_cst_22, main_v124, main_v125, main_v126, main_v127, main_v128]

/-- @main's statements %129 … %134, in order, every call's operations in place of the call: 6 operations. -/
abbrev lin2 : List (HloOp τ sig (Elt F)) :=
  [ StableHlo.binary main_v128 main_v108 main_v129 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v110 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S50000x256 ![0, 1] bcast_S1x256_S50000x256_0_1 : (⟨S1x256, .f32⟩ : BufTy).Contents (Elt F) → (⟨S50000x256, .f32⟩ : BufTy).Contents (Elt F)),
    StableHlo.binary main_v129 main_v131 main_v132 (addf : (⟨S50000x256, .f32⟩ : BufTy).Contents (Elt F) → (⟨S50000x256, .f32⟩ : BufTy).Contents (Elt F) → (⟨S50000x256, .f32⟩ : BufTy).Contents (Elt F)),
    StableHlo.binary main_v106 main_v112 main_v133 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v132 main_v133 main_v134 (addf : (⟨S50000x256, .f32⟩ : BufTy).Contents (Elt F) → (⟨S50000x256, .f32⟩ : BufTy).Contents (Elt F) → (⟨S50000x256, .f32⟩ : BufTy).Contents (Elt F)) ]
/-- The references `lin2`'s operations write, in order. -/
abbrev lin2_W : List (Ref sig .tc) :=
  [main_v129, main_v130, main_v131, main_v132, main_v133, main_v134]

/-- @main's statements %cst_23 … %150, in order, every call's operations in place of the call: 41 operations. -/
abbrev bn2a : List (HloOp τ sig (Elt F)) :=
  [ StableHlo.nullary main_cst_23 (constant S_ .f32 0x00000000#32),
    StableHlo.binary main_v134 main_cst_23 main_v135 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v136 (broadcastInDim S256 ![] bcast_S_S256 : (⟨S_, .f32⟩ : BufTy).Contents (Elt F) → (⟨S256, .f32⟩ : BufTy).Contents (Elt F)),
    StableHlo.binary main_v135 main_v136 main_v137 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call4.cst (constant S_ .f32 0x00000000#32),
    StableHlo.TRef.binary (.of main_v134 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v134 : StableHlo.TRef sig ⟨S50000x256, .f32⟩) main_call4.v4 main_call4.v5 subf,
    StableHlo.TRef.binary main_call4.v5 main_call4.v5 main_call4.v6 mulf,
    StableHlo.TRef.unary (.of main_c_25 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v137 main_v139 (broadcastInDim S1x256 ![1] bcast_S256_S1x256_1 : (⟨S256, .f32⟩ : BufTy).Contents (Elt F) → (⟨S1x256, .f32⟩ : BufTy).Contents (Elt F)),
    StableHlo.unary main_v139 main_v140 (broadcastInDim S50000x256 ![0, 1] bcast_S1x256_S50000x256_0_1 : (⟨S1x256, .f32⟩ : BufTy).Contents (Elt F) → (⟨S50000x256, .f32⟩ : BufTy).Contents (Elt F)),
    StableHlo.binary main_v134 main_v140 main_v141 (subf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v142 (broadcastInDim S256 ![] bcast_S_S256 : (⟨S_, .f32⟩ : BufTy).Contents (Elt F) → (⟨S256, .f32⟩ : BufTy).Contents (Elt F)),
    StableHlo.binary main_v138 main_v142 main_v143 (addf : (⟨S256, .f32⟩ : BufTy).Contents (Elt F) → (⟨S256, .f32⟩ : BufTy).Contents (Elt F) → (⟨S256, .f32⟩ : BufTy).Contents (Elt F)),
    StableHlo.unary main_v143 main_v144 (Host.sqrt : (⟨S256, .f32⟩ : BufTy).Contents (Elt F) → (⟨S256, .f32⟩ : BufTy).Contents (Elt F)),
    StableHlo.binary main_v114 main_v144 main_v145 (Host.divf : (⟨S256, .f32⟩ : BufTy).Contents (Elt F) → (⟨S256, .f32⟩ : BufTy).Contents (Elt F) → (⟨S256, .f32⟩ : BufTy).Contents (Elt F)),
    StableHlo.unary main_v145 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v147 main_v148 (mulf : (⟨S50000x256, .f32⟩ : BufTy).Contents (Elt F) → (⟨S50000x256, .f32⟩ : BufTy).Contents (Elt F) → (⟨S50000x256, .f32⟩ : BufTy).Contents (Elt F)),
    StableHlo.unary main_v116 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S50000x256 ![0, 1] bcast_S1x256_S50000x256_0_1 : (⟨S1x256, .f32⟩ : BufTy).Contents (Elt F) → (⟨S50000x256, .f32⟩ : BufTy).Contents (Elt F)) ]
/-- The references `bn2a`'s operations write, in order. -/
abbrev bn2a_W : List (Ref sig .tc) :=
  [main_cst_23, main_v135, main_cst_24, main_v136, main_v137, main_c_25, (main_call4.cst).ref, (main_call4.v0).ref, (main_call4.v1).ref, (main_call4.cst_0).ref, (main_call4.v2).ref, (main_call4.v3).ref, (main_call4.v4).ref, (main_call4.v5).ref, (main_call4.v6).ref, (main_call4.v7).ref, (main_call4.cst_1).ref, (main_call4.v8).ref, (main_call4.cst_2).ref, (main_call4.v9).ref, (main_call4.v10).ref, (main_call4.v11).ref, (main_call4.cst_3).ref, (main_call4.v12).ref, (main_call4.cst_4).ref, (main_call4.call0.v0).ref, (main_call4.call0.v1).ref, (main_call4.call0.v2).ref, main_v139, main_v140, main_v141, main_cst_26, main_v142, main_v143, main_v144, main_v145, main_v146, main_v147, main_v148, main_v149, main_v150]

/-- @main's statements %151 … %156, in order, every call's operations in place of the call: 8 operations. -/
abbrev bn2b : List (HloOp τ sig (Elt F)) :=
  [ StableHlo.binary main_v148 main_v150 main_v151 (addf : (⟨S50000x256, .f32⟩ : BufTy).Contents (Elt F) → (⟨S50000x256, .f32⟩ : BufTy).Contents (Elt F) → (⟨S50000x256, .f32⟩ : BufTy).Contents (Elt F)),
    StableHlo.nullary main_cst_27 (constant S_ .f32 0x00000000#32),
    StableHlo.unary main_cst_27 main_v152 (broadcastInDim S50000x256 ![] bcast_S_S50000x256 : (⟨S_, .f32⟩ : BufTy).Contents (Elt F) → (⟨S50000x256, .f32⟩ : BufTy).Contents (Elt F)),
    StableHlo.binary main_v151 main_v152 main_v153 (cmpf .ogt : (⟨S50000x256, .f32⟩ : BufTy).Contents (Elt F) → (⟨S50000x256, .f32⟩ : BufTy).Contents (Elt F) → (⟨S50000x256, .i1⟩ : BufTy).Contents (Elt F)),
    StableHlo.nullary main_cst_28 (constant S_ .f32 0x3D2F8D5C#32),
    StableHlo.unary main_cst_28 main_v154 (broadcastInDim S50000x256 ![] bcast_S_S50000x256 : (⟨S_, .f32⟩ : BufTy).Contents (Elt F) → (⟨S50000x256, .f32⟩ : BufTy).Contents (Elt F)),
    StableHlo.binary main_v154 main_v151 main_v155 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v153 : StableHlo.TRef sig ⟨S50000x256, .i1⟩) (.of main_v151 : StableHlo.TRef sig ⟨S50000x256, .f32⟩) (.of main_v155 : StableHlo.TRef sig ⟨S50000x256, .f32⟩) main_call5.v0 select ]
/-- The references `bn2b`'s operations write, in order. -/
abbrev bn2b_W : List (Ref sig .tc) :=
  [main_v151, main_cst_27, main_v152, main_v153, main_cst_28, main_v154, main_v155, (main_call5.v0).ref]

/-- @main's statements %cst_29 … %169, in order, every call's operations in place of the call: 17 operations. -/
abbrev pool : List (HloOp τ sig (Elt F)) :=
  [ StableHlo.nullary main_cst_29 (constant S_ .f32 0x3F800000#32),
    StableHlo.unary main_cst_29 main_v157 (broadcastInDim S50000 ![] bcast_S_S50000 : (⟨S_, .f32⟩ : BufTy).Contents (Elt F) → (⟨S50000, .f32⟩ : BufTy).Contents (Elt F)),
    StableHlo.nullary main_cst_30 (constant S_ .f32 0x00000000#32),
    StableHlo.unary main_cst_30 main_v158 (broadcastInDim S64 ![] bcast_S_S64 : (⟨S_, .f32⟩ : BufTy).Contents (Elt F) → (⟨S64, .f32⟩ : BufTy).Contents (Elt F)),
    StableHlo.unary main_arg2 main_v159 (broadcastInDim S50000x1 ![0] bcast_S50000_S50000x1_0 : (⟨S50000, .i32⟩ : BufTy).Contents (Elt F) → (⟨S50000x1, .i32⟩ : BufTy).Contents (Elt F)),
    StableHlo.ternary main_v158 main_v159 main_v157 main_v160 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_31 (constant S_ .f32 0x00000000#32),
    StableHlo.unary main_cst_31 main_v161 (broadcastInDim S64x256 ![] bcast_S_S64x256 : (⟨S_, .f32⟩ : BufTy).Contents (Elt F) → (⟨S64x256, .f32⟩ : BufTy).Contents (Elt F)),
    StableHlo.unary main_arg2 main_v162 (broadcastInDim S50000x1 ![0] bcast_S50000_S50000x1_0 : (⟨S50000, .i32⟩ : BufTy).Contents (Elt F) → (⟨S50000x1, .i32⟩ : BufTy).Contents (Elt F)),
    StableHlo.ternary main_v161 main_v162 main_v156 main_v163 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    StableHlo.nullary main_cst_32 (constant S_ .f32 0x3F800000#32),
    StableHlo.unary main_cst_32 main_v164 (broadcastInDim S64 ![] bcast_S_S64 : (⟨S_, .f32⟩ : BufTy).Contents (Elt F) → (⟨S64, .f32⟩ : BufTy).Contents (Elt F)),
    StableHlo.binary main_v160 main_v164 main_v165 (maximumf : (⟨S64, .f32⟩ : BufTy).Contents (Elt F) → (⟨S64, .f32⟩ : BufTy).Contents (Elt F) → (⟨S64, .f32⟩ : BufTy).Contents (Elt F)),
    StableHlo.unary main_v165 main_v166 (broadcastInDim S64x1 ![0] bcast_S64_S64x1_0 : (⟨S64, .f32⟩ : BufTy).Contents (Elt F) → (⟨S64x1, .f32⟩ : BufTy).Contents (Elt F)),
    StableHlo.unary main_v166 main_v167 (broadcastInDim S64x256 ![0, 1] bcast_S64x1_S64x256_0_1 : (⟨S64x1, .f32⟩ : BufTy).Contents (Elt F) → (⟨S64x256, .f32⟩ : BufTy).Contents (Elt F)),
    StableHlo.binary main_v163 main_v167 main_v168 (Host.divf : (⟨S64x256, .f32⟩ : BufTy).Contents (Elt F) → (⟨S64x256, .f32⟩ : BufTy).Contents (Elt F) → (⟨S64x256, .f32⟩ : BufTy).Contents (Elt F)),
    StableHlo.binary main_v168 main_arg3 main_v169 ((fun a b => concatenate S64x288 1 [⟨S64x256, a⟩, ⟨S64x32, b⟩] concatenates_S64x256_S64x32_S64x288_d1) : (⟨S64x256, .f32⟩ : BufTy).Contents (Elt F) → (⟨S64x32, .f32⟩ : BufTy).Contents (Elt F) → (⟨S64x288, .f32⟩ : BufTy).Contents (Elt F)) ]
/-- The references `pool`'s operations write, in order. -/
abbrev pool_W : List (Ref sig .tc) :=
  [main_cst_29, main_v157, main_cst_30, main_v158, main_v159, main_v160, main_cst_31, main_v161, main_v162, main_v163, main_cst_32, main_v164, main_v165, main_v166, main_v167, main_v168, main_v169]

/-- @main's statements %170 … %178, in order, every call's operations in place of the call: 11 operations. -/
abbrev mlp1 : List (HloOp τ sig (Elt F)) :=
  [ StableHlo.binary main_v169 main_arg12 main_v170 ((fun l r => Host.dotGeneral dot_S64x288_S288x512_S64x512_1_0_0_1_n_n none l r) : (⟨S64x288, .f32⟩ : BufTy).Contents (Elt F) → (⟨S288x512, .f32⟩ : BufTy).Contents (Elt F) → (⟨S64x512, .f32⟩ : BufTy).Contents (Elt F)),
    StableHlo.unary main_arg13 main_v171 (broadcastInDim S1x512 ![1] bcast_S512_S1x512_1 : (⟨S512, .f32⟩ : BufTy).Contents (Elt F) → (⟨S1x512, .f32⟩ : BufTy).Contents (Elt F)),
    StableHlo.unary main_v171 main_v172 (broadcastInDim S64x512 ![0, 1] bcast_S1x512_S64x512_0_1 : (⟨S1x512, .f32⟩ : BufTy).Contents (Elt F) → (⟨S64x512, .f32⟩ : BufTy).Contents (Elt F)),
    StableHlo.binary main_v170 main_v172 main_v173 (addf : (⟨S64x512, .f32⟩ : BufTy).Contents (Elt F) → (⟨S64x512, .f32⟩ : BufTy).Contents (Elt F) → (⟨S64x512, .f32⟩ : BufTy).Contents (Elt F)),
    StableHlo.nullary main_cst_33 (constant S_ .f32 0x00000000#32),
    StableHlo.unary main_cst_33 main_v174 (broadcastInDim S64x512 ![] bcast_S_S64x512 : (⟨S_, .f32⟩ : BufTy).Contents (Elt F) → (⟨S64x512, .f32⟩ : BufTy).Contents (Elt F)),
    StableHlo.binary main_v173 main_v174 main_v175 (cmpf .ogt : (⟨S64x512, .f32⟩ : BufTy).Contents (Elt F) → (⟨S64x512, .f32⟩ : BufTy).Contents (Elt F) → (⟨S64x512, .i1⟩ : BufTy).Contents (Elt F)),
    StableHlo.nullary main_cst_34 (constant S_ .f32 0x3D2F8D5C#32),
    StableHlo.unary main_cst_34 main_v176 (broadcastInDim S64x512 ![] bcast_S_S64x512 : (⟨S_, .f32⟩ : BufTy).Contents (Elt F) → (⟨S64x512, .f32⟩ : BufTy).Contents (Elt F)),
    StableHlo.binary main_v176 main_v173 main_v177 (mulf : (⟨S64x512, .f32⟩ : BufTy).Contents (Elt F) → (⟨S64x512, .f32⟩ : BufTy).Contents (Elt F) → (⟨S64x512, .f32⟩ : BufTy).Contents (Elt F)),
    StableHlo.TRef.ternary (.of main_v175 : StableHlo.TRef sig ⟨S64x512, .i1⟩) (.of main_v173 : StableHlo.TRef sig ⟨S64x512, .f32⟩) (.of main_v177 : StableHlo.TRef sig ⟨S64x512, .f32⟩) main_call6.v0 select ]
/-- The references `mlp1`'s operations write, in order. -/
abbrev mlp1_W : List (Ref sig .tc) :=
  [main_v170, main_v171, main_v172, main_v173, main_cst_33, main_v174, main_v175, main_cst_34, main_v176, main_v177, (main_call6.v0).ref]

/-- @main's statements %179 … %187, in order, every call's operations in place of the call: 11 operations. -/
abbrev mlp2 : List (HloOp τ sig (Elt F)) :=
  [ StableHlo.binary main_v178 main_arg14 main_v179 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    StableHlo.unary main_arg15 main_v180 (broadcastInDim S1x512 ![1] bcast_S512_S1x512_1 : (⟨S512, .f32⟩ : BufTy).Contents (Elt F) → (⟨S1x512, .f32⟩ : BufTy).Contents (Elt F)),
    StableHlo.unary main_v180 main_v181 (broadcastInDim S64x512 ![0, 1] bcast_S1x512_S64x512_0_1 : (⟨S1x512, .f32⟩ : BufTy).Contents (Elt F) → (⟨S64x512, .f32⟩ : BufTy).Contents (Elt F)),
    StableHlo.binary main_v179 main_v181 main_v182 (addf : (⟨S64x512, .f32⟩ : BufTy).Contents (Elt F) → (⟨S64x512, .f32⟩ : BufTy).Contents (Elt F) → (⟨S64x512, .f32⟩ : BufTy).Contents (Elt F)),
    StableHlo.nullary main_cst_35 (constant S_ .f32 0x00000000#32),
    StableHlo.unary main_cst_35 main_v183 (broadcastInDim S64x512 ![] bcast_S_S64x512 : (⟨S_, .f32⟩ : BufTy).Contents (Elt F) → (⟨S64x512, .f32⟩ : BufTy).Contents (Elt F)),
    StableHlo.binary main_v182 main_v183 main_v184 (cmpf .ogt : (⟨S64x512, .f32⟩ : BufTy).Contents (Elt F) → (⟨S64x512, .f32⟩ : BufTy).Contents (Elt F) → (⟨S64x512, .i1⟩ : BufTy).Contents (Elt F)),
    StableHlo.nullary main_cst_36 (constant S_ .f32 0x3D2F8D5C#32),
    StableHlo.unary main_cst_36 main_v185 (broadcastInDim S64x512 ![] bcast_S_S64x512 : (⟨S_, .f32⟩ : BufTy).Contents (Elt F) → (⟨S64x512, .f32⟩ : BufTy).Contents (Elt F)),
    StableHlo.binary main_v185 main_v182 main_v186 (mulf : (⟨S64x512, .f32⟩ : BufTy).Contents (Elt F) → (⟨S64x512, .f32⟩ : BufTy).Contents (Elt F) → (⟨S64x512, .f32⟩ : BufTy).Contents (Elt F)),
    StableHlo.TRef.ternary (.of main_v184 : StableHlo.TRef sig ⟨S64x512, .i1⟩) (.of main_v182 : StableHlo.TRef sig ⟨S64x512, .f32⟩) (.of main_v186 : StableHlo.TRef sig ⟨S64x512, .f32⟩) main_call7.v0 select ]
/-- The references `mlp2`'s operations write, in order. -/
abbrev mlp2_W : List (Ref sig .tc) :=
  [main_v179, main_v180, main_v181, main_v182, main_cst_35, main_v183, main_v184, main_cst_36, main_v185, main_v186, (main_call7.v0).ref]

/-- @main's statements %188 … %191, in order, every call's operations in place of the call: 4 operations. -/
abbrev mlp3 : List (HloOp τ sig (Elt F)) :=
  [ StableHlo.binary main_v187 main_arg16 main_v188 ((fun l r => Host.dotGeneral dot_S64x512_S512x10_S64x10_1_0_0_1_n_n none l r) : (⟨S64x512, .f32⟩ : BufTy).Contents (Elt F) → (⟨S512x10, .f32⟩ : BufTy).Contents (Elt F) → (⟨S64x10, .f32⟩ : BufTy).Contents (Elt F)),
    StableHlo.unary main_arg17 main_v189 (broadcastInDim S1x10 ![1] bcast_S10_S1x10_1 : (⟨S10, .f32⟩ : BufTy).Contents (Elt F) → (⟨S1x10, .f32⟩ : BufTy).Contents (Elt F)),
    StableHlo.unary main_v189 main_v190 (broadcastInDim S64x10 ![0, 1] bcast_S1x10_S64x10_0_1 : (⟨S1x10, .f32⟩ : BufTy).Contents (Elt F) → (⟨S64x10, .f32⟩ : BufTy).Contents (Elt F)),
    StableHlo.binary main_v188 main_v190 main_v191 (addf : (⟨S64x10, .f32⟩ : BufTy).Contents (Elt F) → (⟨S64x10, .f32⟩ : BufTy).Contents (Elt F) → (⟨S64x10, .f32⟩ : BufTy).Contents (Elt F)) ]
/-- The references `mlp3`'s operations write, in order. -/
abbrev mlp3_W : List (Ref sig .tc) :=
  [main_v188, main_v189, main_v190, main_v191]

/-- The operations of @main's window 0 (`main_part0`). -/
abbrev w0 : List (HloOp τ sig (Elt F)) := pro ++ (agg0 ++ (lin0 ++ (bn0a)))
/-- The references window 0's operations write. -/
abbrev w0_W : List (Ref sig .tc) := pro_W ++ (agg0_W ++ (lin0_W ++ (bn0a_W)))

/-- The operations of @main's window 1 (`main_part1`). -/
abbrev w1 : List (HloOp τ sig (Elt F)) := bn0b ++ (par1 ++ (agg1 ++ (lin1 ++ (bn1a))))
/-- The references window 1's operations write. -/
abbrev w1_W : List (Ref sig .tc) := bn0b_W ++ (par1_W ++ (agg1_W ++ (lin1_W ++ (bn1a_W))))

/-- The operations of @main's window 2 (`main_part2`). -/
abbrev w2 : List (HloOp τ sig (Elt F)) := bn1b ++ (par2 ++ (agg2 ++ (lin2 ++ (bn2a))))
/-- The references window 2's operations write. -/
abbrev w2_W : List (Ref sig .tc) := bn1b_W ++ (par2_W ++ (agg2_W ++ (lin2_W ++ (bn2a_W))))

/-- The operations of @main's window 3 (`main_part3`). -/
abbrev w3 : List (HloOp τ sig (Elt F)) := bn2b ++ (pool ++ (mlp1 ++ (mlp2 ++ (mlp3))))
/-- The references window 3's operations write. -/
abbrev w3_W : List (Ref sig .tc) := bn2b_W ++ (pool_W ++ (mlp1_W ++ (mlp2_W ++ (mlp3_W))))

/-- @main's 294 operations, in order, every call's operations in place of the call. -/
abbrev ops : List (HloOp τ sig (Elt F)) := w0 ++ (w1 ++ (w2 ++ (w3)))
/-- The references @main's operations write. -/
abbrev W : List (Ref sig .tc) := w0_W ++ (w1_W ++ (w2_W ++ (w3_W)))

end Cert.ReferenceIdeal.RefRun

end
-- ==== Proof.Ref.Win0.lean ====
import proofs.«144042_j23673859736035_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Window 0 of the reference program: the rows of the edge table, the degree and its clamped inverse, the first layer's scale and shift rows, the first layer's aggregation and linear map, and its batch statistics up to the scaled centred value. -/

set_option maxRecDepth 8192 in
/-- The window is the straight line of its operations: with each called function's body in place of the call and the
    call's record read at its fields, both sides are one chain of single steps once sequencing is re-associated; the
    window's last step is followed by nothing, which is the line's closing return. -/
theorem part0_eq (c : Dev nD) : main_part0 (F := F) c = seq w0 := by
  simp only [main_part0, fn_var.body, fn_where.body, w0, pro, agg0, lin0, bn0a, List.cons_append, List.nil_append, seq, bind_assoc, pure_bind]
  rfl

/-- Every operation of the window touches TensorCore references only. -/
theorem w0_sub : (w0 : List (HloOp τ sig (Elt F))).Forall fun op => op.bufs ⊆ tcRefs τ sig := by
  simp only [w0, pro, agg0, lin0, bn0a, List.cons_append, List.nil_append, List.Forall, nullary_bufs_sub, unary_bufs_sub, binary_bufs_sub,
    ternary_bufs_sub, reshape_bufs_sub, and_self]

/-- Every operation of the window determines its results. -/
theorem w0_fresh : (w0 : List (HloOp τ sig (Elt F))).Forall fun op => op.fresh = ∅ := by
  simp only [w0, pro, agg0, lin0, bn0a, List.cons_append, List.nil_append, List.Forall]; repeat' constructor

/-- Each operation of the window writes one reference, and that reference is listed in `w0_W`. -/
theorem w0_writes : (w0 : List (HloOp τ sig (Elt F))).Forall fun op => op.writes ⊆ (w0_W.map (Proc.devRef (τ := τ) .tc)).toFinset := by
  simp only [w0, pro, agg0, lin0, bn0a, List.cons_append, List.nil_append, List.Forall, nullary_writes, unary_writes, binary_writes, ternary_writes,
    reshape_writes, Finset.singleton_subset_iff, List.mem_toFinset]
  repeat' apply And.intro
  all_goals exact List.mem_map_of_mem (by decide)

/-- A reference the window does not write keeps its contents through it. -/
theorem w0_keep (V : Valuation τ sig (Elt F)) (r : Ref sig .tc) (h : r ∉ w0_W) :
    after w0 V (Proc.devRef .tc r) = V (Proc.devRef .tc r) :=
  after_of_writes_sub w0 V w0_writes h

end Cert.ReferenceIdeal.RefRun

end
-- ==== Proof.Ref.Win1.lean ====
import proofs.«144042_j23673859736035_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Window 1 of the reference program: the first layer's shift and leaky rectifier, the second layer's parameter slices, aggregation and linear map, and its batch statistics up to the shift row. -/

set_option maxRecDepth 8192 in
/-- The window is the straight line of its operations: with each called function's body in place of the call and the
    call's record read at its fields, both sides are one chain of single steps once sequencing is re-associated; the
    window's last step is followed by nothing, which is the line's closing return. -/
theorem part1_eq (c : Dev nD) : main_part1 (F := F) c = seq w1 := by
  simp only [main_part1, fn_where_0.body, fn_var.body, fn_where.body, w1, bn0b, par1, agg1, lin1, bn1a, List.cons_append, List.nil_append, seq, bind_assoc, pure_bind]
  rfl

/-- Every operation of the window touches TensorCore references only. -/
theorem w1_sub : (w1 : List (HloOp τ sig (Elt F))).Forall fun op => op.bufs ⊆ tcRefs τ sig := by
  simp only [w1, bn0b, par1, agg1, lin1, bn1a, List.cons_append, List.nil_append, List.Forall, nullary_bufs_sub, unary_bufs_sub, binary_bufs_sub,
    ternary_bufs_sub, reshape_bufs_sub, and_self]

/-- Every operation of the window determines its results. -/
theorem w1_fresh : (w1 : List (HloOp τ sig (Elt F))).Forall fun op => op.fresh = ∅ := by
  simp only [w1, bn0b, par1, agg1, lin1, bn1a, List.cons_append, List.nil_append, List.Forall]; repeat' constructor

/-- Each operation of the window writes one reference, and that reference is listed in `w1_W`. -/
theorem w1_writes : (w1 : List (HloOp τ sig (Elt F))).Forall fun op => op.writes ⊆ (w1_W.map (Proc.devRef (τ := τ) .tc)).toFinset := by
  simp only [w1, bn0b, par1, agg1, lin1, bn1a, List.cons_append, List.nil_append, List.Forall, nullary_writes, unary_writes, binary_writes, ternary_writes,
    reshape_writes, Finset.singleton_subset_iff, List.mem_toFinset]
  repeat' apply And.intro
  all_goals exact List.mem_map_of_mem (by decide)

/-- A reference the window does not write keeps its contents through it. -/
theorem w1_keep (V : Valuation τ sig (Elt F)) (r : Ref sig .tc) (h : r ∉ w1_W) :
    after w1 V (Proc.devRef .tc r) = V (Proc.devRef .tc r) :=
  after_of_writes_sub w1 V w1_writes h

end Cert.ReferenceIdeal.RefRun

end
-- ==== Proof.Ref.Win2.lean ====
import proofs.«144042_j23673859736035_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Window 2 of the reference program: the second layer's shift and leaky rectifier, the third layer's parameter slices, aggregation and linear map, and its batch statistics up to the broadcast shift. -/

set_option maxRecDepth 8192 in
/-- The window is the straight line of its operations: with each called function's body in place of the call and the
    call's record read at its fields, both sides are one chain of single steps once sequencing is re-associated; the
    window's last step is followed by nothing, which is the line's closing return. -/
theorem part2_eq (c : Dev nD) : main_part2 (F := F) c = seq w2 := by
  simp only [main_part2, fn_where_0.body, fn_var.body, fn_where.body, w2, bn1b, par2, agg2, lin2, bn2a, List.cons_append, List.nil_append, seq, bind_assoc, pure_bind]
  rfl

/-- Every operation of the window touches TensorCore references only. -/
theorem w2_sub : (w2 : List (HloOp τ sig (Elt F))).Forall fun op => op.bufs ⊆ tcRefs τ sig := by
  simp only [w2, bn1b, par2, agg2, lin2, bn2a, List.cons_append, List.nil_append, List.Forall, nullary_bufs_sub, unary_bufs_sub, binary_bufs_sub,
    ternary_bufs_sub, reshape_bufs_sub, and_self]

/-- Every operation of the window determines its results. -/
theorem w2_fresh : (w2 : List (HloOp τ sig (Elt F))).Forall fun op => op.fresh = ∅ := by
  simp only [w2, bn1b, par2, agg2, lin2, bn2a, List.cons_append, List.nil_append, List.Forall]; repeat' constructor

/-- Each operation of the window writes one reference, and that reference is listed in `w2_W`. -/
theorem w2_writes : (w2 : List (HloOp τ sig (Elt F))).Forall fun op => op.writes ⊆ (w2_W.map (Proc.devRef (τ := τ) .tc)).toFinset := by
  simp only [w2, bn1b, par2, agg2, lin2, bn2a, List.cons_append, List.nil_append, List.Forall, nullary_writes, unary_writes, binary_writes, ternary_writes,
    reshape_writes, Finset.singleton_subset_iff, List.mem_toFinset]
  repeat' apply And.intro
  all_goals exact List.mem_map_of_mem (by decide)

/-- A reference the window does not write keeps its contents through it. -/
theorem w2_keep (V : Valuation τ sig (Elt F)) (r : Ref sig .tc) (h : r ∉ w2_W) :
    after w2 V (Proc.devRef .tc r) = V (Proc.devRef .tc r) :=
  after_of_writes_sub w2 V w2_writes h

end Cert.ReferenceIdeal.RefRun

end
-- ==== Proof.Ref.Win3.lean ====
import proofs.«144042_j23673859736035_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Window 3 of the reference program: the third layer's shift and leaky rectifier, the mean over each graph's nodes, the concatenation with the graph features, and the three dense layers. -/

set_option maxRecDepth 8192 in
/-- The window is the straight line of its operations: with each called function's body in place of the call and the
    call's record read at its fields, both sides are one chain of single steps once sequencing is re-associated; the
    window ends with @main's return, which is the line's. -/
theorem part3_eq (c : Dev nD) : main_part3 (F := F) c = seq w3 := by
  simp only [main_part3, fn_where_0.body, fn_where_1.body, w3, bn2b, pool, mlp1, mlp2, mlp3, List.cons_append, List.nil_append, seq, bind_assoc, pure_bind]

/-- Every operation of the window touches TensorCore references only. -/
theorem w3_sub : (w3 : List (HloOp τ sig (Elt F))).Forall fun op => op.bufs ⊆ tcRefs τ sig := by
  simp only [w3, bn2b, pool, mlp1, mlp2, mlp3, List.cons_append, List.nil_append, List.Forall, nullary_bufs_sub, unary_bufs_sub, binary_bufs_sub,
    ternary_bufs_sub, reshape_bufs_sub, and_self]

/-- Every operation of the window determines its results. -/
theorem w3_fresh : (w3 : List (HloOp τ sig (Elt F))).Forall fun op => op.fresh = ∅ := by
  simp only [w3, bn2b, pool, mlp1, mlp2, mlp3, List.cons_append, List.nil_append, List.Forall]; repeat' constructor

/-- Each operation of the window writes one reference, and that reference is listed in `w3_W`. -/
theorem w3_writes : (w3 : List (HloOp τ sig (Elt F))).Forall fun op => op.writes ⊆ (w3_W.map (Proc.devRef (τ := τ) .tc)).toFinset := by
  simp only [w3, bn2b, pool, mlp1, mlp2, mlp3, List.cons_append, List.nil_append, List.Forall, nullary_writes, unary_writes, binary_writes, ternary_writes,
    reshape_writes, Finset.singleton_subset_iff, List.mem_toFinset]
  repeat' apply And.intro
  all_goals exact List.mem_map_of_mem (by decide)

/-- A reference the window does not write keeps its contents through it. -/
theorem w3_keep (V : Valuation τ sig (Elt F)) (r : Ref sig .tc) (h : r ∉ w3_W) :
    after w3 V (Proc.devRef .tc r) = V (Proc.devRef .tc r) :=
  after_of_writes_sub w3 V w3_writes h

end Cert.ReferenceIdeal.RefRun

end
-- ==== Proof.Ref.Run.lean ====
import proofs.«144042_j23673859736035_1_alg».proof.Proof.Ref.Win0
import proofs.«144042_j23673859736035_1_alg».proof.Proof.Ref.Win1
import proofs.«144042_j23673859736035_1_alg».proof.Proof.Ref.Win2
import proofs.«144042_j23673859736035_1_alg».proof.Proof.Ref.Win3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program's run, read back: @main is the straight line of its 294 operations (the four windows in a
    row, every call's operations in place of the call), so every weakly fair execution terminates with each buffer at
    the operations' fold over the launch contents; the result is left as that fold, and the eighteen arguments, which
    no operation writes, end as they started. -/

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole fold, window by window. -/
theorem after_ops (V : Valuation τ sig (Elt F)) : after ops V = after w3 (after w2 (after w1 (after w0 V))) := by
  show after (w0 ++ (w1 ++ (w2 ++ w3))) V = _
  rw [after_app w0 (w1 ++ (w2 ++ w3)), after_app w1 (w2 ++ w3), after_app w2 w3]

/-- @main runs its four windows in order, each the straight line of its operations; lines in a row are one line. -/
theorem main_eq (c : Dev nD) : main (F := F) c = seq ops :=
  calc main (F := F) c
      = (seq w0 >>= fun _ => seq w1 >>= fun _ => seq w2 >>= fun _ => seq w3) := by
        rw [← part0_eq c, ← part1_eq c, ← part2_eq c, ← part3_eq c]
        rfl
    _ = seq ops := by
        show _ = seq (w0 ++ (w1 ++ (w2 ++ w3)))
        rw [seq_append w0 (w1 ++ (w2 ++ w3)), seq_append w1 (w2 ++ w3), seq_append w2 w3]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.2 ⟨w0_sub, List.forall_append.2 ⟨w1_sub, List.forall_append.2 ⟨w2_sub, w3_sub⟩⟩⟩

/-- Every operation determines its results. -/
theorem ops_fresh : ∀ op ∈ (ops : List (HloOp τ sig (Elt F))), op.fresh = ∅ :=
  List.forall_iff_forall_mem.1
    (List.forall_append.2 ⟨w0_fresh, List.forall_append.2 ⟨w1_fresh, List.forall_append.2 ⟨w2_fresh, w3_fresh⟩⟩⟩)

/-- A reference that no window writes keeps its contents through the whole line. -/
theorem ops_keep (V : Valuation τ sig (Elt F)) (r : Ref sig .tc) (h0 : r ∉ w0_W) (h1 : r ∉ w1_W) (h2 : r ∉ w2_W)
    (h3 : r ∉ w3_W) : after ops V (Proc.devRef .tc r) = V (Proc.devRef .tc r) := by
  rw [after_ops, w3_keep _ r h3, w2_keep _ r h2, w1_keep _ r h1, w0_keep _ r h0]

/-- On every device, for any float values, from any memory with zero counters: every weakly fair execution of @main
    terminates with the result buffer at the operations' fold over the launch contents and each argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v191) = StableHlo.after ops (fun b => m (c, b)) (Proc.devRef .tc main_v191)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h c main_v191,
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide)),
      (h c main_arg11).trans (ops_keep _ main_arg11 (by decide) (by decide) (by decide) (by decide)),
      (h c main_arg12).trans (ops_keep _ main_arg12 (by decide) (by decide) (by decide) (by decide)),
      (h c main_arg13).trans (ops_keep _ main_arg13 (by decide) (by decide) (by decide) (by decide)),
      (h c main_arg14).trans (ops_keep _ main_arg14 (by decide) (by decide) (by decide) (by decide)),
      (h c main_arg15).trans (ops_keep _ main_arg15 (by decide) (by decide) (by decide) (by decide)),
      (h c main_arg16).trans (ops_keep _ main_arg16 (by decide) (by decide) (by decide) (by decide)),
      (h c main_arg17).trans (ops_keep _ main_arg17 (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.Ref.Frame.lean ====
import proofs.«144042_j23673859736035_1_alg».proof.Proof.Ref.Run
import proofs.«144042_j23673859736035_1_alg».proof.Defs
import proofs.«144042_j23673859736035_1_alg».proof.Proof.Gen.Pre_finite_inputs

noncomputable section

namespace Cert.ReferenceIdeal.RefRun

open Idealize.ShloMosaic Idealize.SL.Sem

/-- The reference program's frame at the exact reals: it runs to its end from any memory and leaves its eighteen
    arguments as they were — the run's statement with the result's conjunct dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (run (F := Ideal) m ρ)

end Cert.ReferenceIdeal.RefRun

end
-- ==== Proof.KI.MlpSpec6.lean ====
/- The three-layer perceptron that closes the network, as one function of its seven arrays, index by index, on the
   extended reals; and the two spellings of it that the two programs use, each read at an index. A layer is a matrix
   product plus a bias row; the first two layers are followed by the leaky rectifier. The kernel multiplies into a zero
   accumulator and spreads a bias ROW [1, n] over the rows; the host uses its own product and spreads a rank-1 bias
   [n] to a row and then over the rows. At an index both are the sum over the contraction coordinate plus the bias's
   entry, so both spellings are the specification. No program is imported here. -/
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand.Mlp

open Idealize.ShloMosaic Idealize.ShloMosaic.ValueIdx
open scoped BigOperators

/-! ## The specification -/

/-- The leaky rectifier on the extended reals: `x` where `x` is positive, the slope times `x` elsewhere; the zero and
    the slope are the two 32-bit words both programs carry, never evaluated. -/
def leaky (x : EReal) : EReal :=
  Scalar.select (Ideal.cmp .ogt x (Ideal.ofBits .f32 0x00000000#32)) x (Ideal.ofBits .f32 0x3D2F8D5C#32 * x)

/-- The first hidden layer at row `g`, unit `o`: the rectifier of row `g` of `z` against column `o` of `W1`, plus the
    bias row's entry `o`. -/
def mlpH1 (z : (⟨2, ![64, 288]⟩ : Shape).Idx → EReal) (W1 : (⟨2, ![288, 512]⟩ : Shape).Idx → EReal)
    (b1 : (⟨2, ![1, 512]⟩ : Shape).Idx → EReal) (g : Fin 64) (o : Fin 512) : EReal :=
  leaky ((∑ k : Fin 288, z (ix2 g k) * W1 (ix2 k o)) + b1 (ix2 (0 : Fin 1) o))

/-- The second hidden layer at row `g`, unit `o`, from the first. -/
def mlpH2 (z : (⟨2, ![64, 288]⟩ : Shape).Idx → EReal) (W1 : (⟨2, ![288, 512]⟩ : Shape).Idx → EReal)
    (b1 : (⟨2, ![1, 512]⟩ : Shape).Idx → EReal) (W2 : (⟨2, ![512, 512]⟩ : Shape).Idx → EReal)
    (b2 : (⟨2, ![1, 512]⟩ : Shape).Idx → EReal) (g : Fin 64) (o : Fin 512) : EReal :=
  leaky ((∑ k : Fin 512, mlpH1 z W1 b1 g k * W2 (ix2 k o)) + b2 (ix2 (0 : Fin 1) o))

/-- The perceptron's output, index by index: the last layer has no rectifier. -/
def mlpG (z : (⟨2, ![64, 288]⟩ : Shape).Idx → EReal) (W1 : (⟨2, ![288, 512]⟩ : Shape).Idx → EReal)
    (b1 : (⟨2, ![1, 512]⟩ : Shape).Idx → EReal) (W2 : (⟨2, ![512, 512]⟩ : Shape).Idx → EReal)
    (b2 : (⟨2, ![1, 512]⟩ : Shape).Idx → EReal) (W3 : (⟨2, ![512, 10]⟩ : Shape).Idx → EReal)
    (b3 : (⟨2, ![1, 10]⟩ : Shape).Idx → EReal) : (⟨2, ![64, 10]⟩ : Shape).Idx → EReal :=
  fun i => (∑ k : Fin 512, mlpH2 z W1 b1 W2 b2 (i 0) k * W3 (ix2 k (i 1))) + b3 (ix2 (0 : Fin 1) (i 1))

/-! ## A plain matrix product read at an index

Both programs' three dimension records are the library's plain one (rows by contraction, contraction by columns):
the left operand's index at output `(g, o)` and contraction position `k` is `(g, k)`, the right operand's `(k, o)`. -/

theorem lhsIdx_plain {M K N : Nat} (g : Fin M) (o : Fin N) (k : Fin K) :
    (DotDims.plain M K N).lhsIdx (ix2 g o) ((contrEquiv1 (DotDims.plain M K N) K rfl rfl).symm k) = ix2 g k := by
  funext a; apply Fin.ext
  match a with
  | ⟨0, _⟩ => rfl
  | ⟨1, _⟩ => rfl

theorem rhsIdx_plain {M K N : Nat} (g : Fin M) (o : Fin N) (k : Fin K) :
    (DotDims.plain M K N).rhsIdx (ix2 g o) ((contrEquiv1 (DotDims.plain M K N) K rfl rfl).symm k) = ix2 k o := by
  funext a; apply Fin.ext
  match a with
  | ⟨0, _⟩ => rfl
  | ⟨1, _⟩ => rfl

/-- The kernel's product into the zero accumulator, at `(g, o)`: the sum over the contraction coordinate. -/
theorem matmul_plain_apply {M K N : Nat} (prec : Option ContractPrecision)
    (lhs : FVec Ideal ⟨2, ![M, K]⟩ .f32) (rhs : FVec Ideal ⟨2, ![K, N]⟩ .f32) (g : Fin M) (o : Fin N) :
    FloatOps.matmul (DotDims.plain M K N) prec lhs rhs (constant (F := Ideal) ⟨2, ![M, N]⟩ .f32 0x00000000#32) (ix2 g o)
      = ∑ k : Fin K, lhs (ix2 g k) * rhs (ix2 k o) := by
  rw [Ideal.matmul_constant_zero_apply]
  rw [← Equiv.sum_comp (contrEquiv1 (DotDims.plain M K N) K rfl rfl).symm]
  exact Finset.sum_congr rfl fun k _ => by rw [lhsIdx_plain, rhsIdx_plain]

/-- The host's product, at `(g, o)`: the same sum, whatever the schedule key. -/
theorem dotGeneral_plain_apply {M K N : Nat} (prec : Option ContractPrecision) (sched : HostSchedule)
    (lhs : FVec Ideal ⟨2, ![M, K]⟩ .f32) (rhs : FVec Ideal ⟨2, ![K, N]⟩ .f32) (g : Fin M) (o : Fin N) :
    FloatOps.dotGeneral (DotDims.plain M K N) prec sched lhs rhs (ix2 g o)
      = ∑ k : Fin K, lhs (ix2 g k) * rhs (ix2 k o) := by
  rw [Ideal.dotGeneral_apply]
  rw [← Equiv.sum_comp (contrEquiv1 (DotDims.plain M K N) K rfl rfl).symm]
  exact Finset.sum_congr rfl fun k _ => by rw [lhsIdx_plain, rhsIdx_plain]

/-! ## The kernel's layers -/

/-- A bias row `[1, b]` spread over `a` rows as the kernel spells it (a cast to its own shape, then the broadcast), at
    `(g, o)`: the row's entry `o`. -/
theorem bias_kernel_apply {a b : ℕ} (r : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (g : Fin a) (o : Fin b) :
    broadcastTo ⟨2, ![a, b]⟩ (shapeCast ⟨2, ![1, b]⟩ r h1) h2 (ix2 g o) = r (ix2 (0 : Fin 1) o) := by
  rw [shapeCast_self, broadcastTo_1b_ab_apply]

/-- One layer before its rectifier, as the kernel spells it: the product into the zero accumulator plus the bias row. -/
def kpre {M K N : ℕ} (x : FVec Ideal ⟨2, ![M, K]⟩ .f32) (W : FVec Ideal ⟨2, ![K, N]⟩ .f32) (r : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩) :
    FVec Ideal ⟨2, ![M, N]⟩ .f32 :=
  addf (FloatOps.matmul (DotDims.plain M K N) none x W (constant (F := Ideal) ⟨2, ![M, N]⟩ .f32 0x00000000#32))
    (broadcastTo ⟨2, ![M, N]⟩ (shapeCast ⟨2, ![1, N]⟩ r h1) h2)

theorem kpre_apply {M K N : ℕ} (x : FVec Ideal ⟨2, ![M, K]⟩ .f32) (W : FVec Ideal ⟨2, ![K, N]⟩ .f32) (r : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩) (g : Fin M) (o : Fin N) :
    kpre x W r h1 h2 (ix2 g o) = (∑ k : Fin K, x (ix2 g k) * W (ix2 k o)) + r (ix2 (0 : Fin 1) o) := by
  show FloatOps.matmul (DotDims.plain M K N) none x W (constant (F := Ideal) ⟨2, ![M, N]⟩ .f32 0x00000000#32) (ix2 g o)
      + broadcastTo ⟨2, ![M, N]⟩ (shapeCast ⟨2, ![1, N]⟩ r h1) h2 (ix2 g o) = _
  rw [matmul_plain_apply, bias_kernel_apply]

/-- The rectifier as the kernel spells it: compare with the zero splat, select between the value and the slope splat
    times it. -/
def kact {s : Shape} (v : FVec Ideal s .f32) : FVec Ideal s .f32 :=
  select (cmpf .ogt v (broadcast s (Scalar.ofBits (F := Ideal) .f32 0x00000000#32))) v
    (mulf (broadcast s (Scalar.ofBits (F := Ideal) .f32 0x3D2F8D5C#32)) v)

theorem kact_apply {s : Shape} (v : FVec Ideal s .f32) (i : s.Idx) : kact v i = leaky (v i) := rfl

/-! ## The host's layers -/

/-- A rank-1 bias spread over `a` rows as the host spells it (to one row along the last axis, then the row to all rows),
    at `(g, o)`: the bias's entry `o`. -/
theorem bias_host_apply {a b : ℕ} (x : (⟨1, ![b]⟩ : Shape).Idx → EReal)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (g : Fin a) (o : Fin b) :
    broadcastInDim ⟨2, ![a, b]⟩ ![0, 1] h2 (broadcastInDim ⟨2, ![1, b]⟩ ![1] h1 x) (ix2 g o) = x (ix1 o) := by
  have hb : o.val = if b = 1 then 0 else o.val := by
    split
    · have := o.isLt; omega
    · rfl
  refine (broadcastInDim_apply _ h2 _ (ix2 g o) (ix2 (0 : Fin 1) o) fun ax => ?_).trans
    (broadcastInDim_apply _ h1 x (ix2 (0 : Fin 1) o) (ix1 o) fun ax => ?_)
  · match ax with
    | ⟨0, _⟩ => rfl
    | ⟨1, _⟩ => exact hb
  · match ax with
    | ⟨0, _⟩ => exact hb

/-- One layer before its rectifier, as the host spells it: the product plus the bias spread over the rows. -/
def hpre {M K N : ℕ} (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) : FVec Ideal ⟨2, ![M, N]⟩ .f32 :=
  addf (FloatOps.dotGeneral (DotDims.plain M K N) none .single x W)
    (broadcastInDim ⟨2, ![M, N]⟩ ![0, 1] h2 (broadcastInDim ⟨2, ![1, N]⟩ ![1] h1 b))

theorem hpre_apply {M K N : ℕ} (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (g : Fin M) (o : Fin N) :
    hpre x W b h1 h2 (ix2 g o) = (∑ k : Fin K, x (ix2 g k) * W (ix2 k o)) + b (ix1 o) := by
  show FloatOps.dotGeneral (DotDims.plain M K N) none .single x W (ix2 g o)
      + broadcastInDim ⟨2, ![M, N]⟩ ![0, 1] h2 (broadcastInDim ⟨2, ![1, N]⟩ ![1] h1 b) (ix2 g o) = _
  rw [dotGeneral_plain_apply, bias_host_apply]

/-- The rectifier as the host spells it: compare with the scalar zero spread over the shape, select between the value and
    the scalar slope spread over the shape times it. -/
def hact {s : Shape} (hb : (⟨0, ![]⟩ : Shape).BroadcastsInDim s (![] : Fin 0 → Fin s.rank)) (v : FVec Ideal s .f32) : FVec Ideal s .f32 :=
  select (cmpf .ogt v (broadcastInDim s ![] hb (constant (F := Ideal) ⟨0, ![]⟩ .f32 0x00000000#32))) v
    (mulf (broadcastInDim s ![] hb (constant (F := Ideal) ⟨0, ![]⟩ .f32 0x3D2F8D5C#32)) v)

theorem hact_apply {s : Shape} (hb : (⟨0, ![]⟩ : Shape).BroadcastsInDim s (![] : Fin 0 → Fin s.rank)) (v : FVec Ideal s .f32) (i : s.Idx) :
    hact hb v i = leaky (v i) := rfl

/-- THE HOST'S CHAIN IS THE SPECIFICATION: three host layers with the rectifier between them, over the rank-1 biases,
    are `mlpG` over the biases cast to rows (the rows the kernel's windows read). -/
theorem host_eq_mlpG (z : FVec Ideal ⟨2, ![64, 288]⟩ .f32) (W1 : FVec Ideal ⟨2, ![288, 512]⟩ .f32) (b1 : FVec Ideal ⟨1, ![512]⟩ .f32)
    (W2 : FVec Ideal ⟨2, ![512, 512]⟩ .f32) (b2 : FVec Ideal ⟨1, ![512]⟩ .f32) (W3 : FVec Ideal ⟨2, ![512, 10]⟩ .f32)
    (b3 : FVec Ideal ⟨1, ![10]⟩ .f32)
    (r512 : (⟨1, ![512]⟩ : Shape).BroadcastsInDim ⟨2, ![1, 512]⟩ (![1] : Fin 1 → Fin 2))
    (a512 : (⟨2, ![1, 512]⟩ : Shape).BroadcastsInDim ⟨2, ![64, 512]⟩ (![0, 1] : Fin 2 → Fin 2))
    (r10 : (⟨1, ![10]⟩ : Shape).BroadcastsInDim ⟨2, ![1, 10]⟩ (![1] : Fin 1 → Fin 2))
    (a10 : (⟨2, ![1, 10]⟩ : Shape).BroadcastsInDim ⟨2, ![64, 10]⟩ (![0, 1] : Fin 2 → Fin 2))
    (s512 : (⟨0, ![]⟩ : Shape).BroadcastsInDim ⟨2, ![64, 512]⟩ (![] : Fin 0 → Fin 2))
    (c512 : (⟨1, ![512]⟩ : Shape).ShapeCasts ⟨2, ![1, 512]⟩) (c10 : (⟨1, ![10]⟩ : Shape).ShapeCasts ⟨2, ![1, 10]⟩) :
    hpre (hact s512 (hpre (hact s512 (hpre z W1 b1 r512 a512)) W2 b2 r512 a512)) W3 b3 r10 a10
      = mlpG z W1 (shapeCast ⟨2, ![1, 512]⟩ b1 c512) W2 (shapeCast ⟨2, ![1, 512]⟩ b2 c512) W3 (shapeCast ⟨2, ![1, 10]⟩ b3 c10) := by
  funext i
  obtain ⟨g, o, rfl⟩ : ∃ (g : Fin 64) (o : Fin 10), i = ix2 g o := ⟨i 0, i 1, eq_ix2 i⟩
  simp only [hpre_apply, hact_apply, mlpG, mlpH2, mlpH1, shapeCast_a_1a_apply]

end Cert.KernelIdeal.Hand.Mlp

end
-- ==== Proof.KI.MlpVal6.lean ====
/- The perceptron region's output array, on the extended reals. The kernel's stored value is three layers composed
   (product into a zero accumulator, bias row, rectifier), so at every index it is the specification `mlpG` of the seven
   blocks. The grid has one point and each window's block there is its whole array, so what the point writes back is
   `mlpG` of the seven arrays as the region finds them, and its block covers the output's array: after the region the
   array IS `mlpG` of them. -/
import proofs.«144042_j23673859736035_1_alg».proof.Proof.KI.Mlp6
import proofs.«144042_j23673859736035_1_alg».proof.Proof.KI.MlpSpec6

noncomputable section

namespace Cert.KernelIdeal.Hand.Mlp

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The kernel's stored value -/

/-- Each of the program's three dimension records is the plain one. -/
theorem dot1_eq : dot_S64x288_S288x512_S64x512_1_0_0_1_n_n = DotDims.plain 64 288 512 := rfl
theorem dot2_eq : dot_S64x512_S512x512_S64x512_1_0_0_1_n_n = DotDims.plain 64 512 512 := rfl
theorem dot3_eq : dot_S64x512_S512x10_S64x10_1_0_0_1_n_n = DotDims.plain 64 512 10 := rfl

/-- The kernel's stored value is the three layers composed. -/
theorem k6_pay1_eq (v0 : Vec Ideal S64x288 .f32) (v2 : Vec Ideal S288x512 .f32) (v4 : Vec Ideal S1x512 .f32)
    (v13 : Vec Ideal S512x512 .f32) (v15 : Vec Ideal S1x512 .f32) (v24 : Vec Ideal S512x10 .f32) (v26 : Vec Ideal S1x10 .f32) :
    k6_pay1 v0 v2 v4 v13 v15 v24 v26
      = kpre (kact (kpre (kact (kpre (shapeCast S64x288 v0 shapeCasts_S64x288_S64x288) v2 v4 shapeCasts_S1x512_S1x512 broadcasts_S1x512_S64x512))
          v13 v15 shapeCasts_S1x512_S1x512 broadcasts_S1x512_S64x512)) v24 v26 shapeCasts_S1x10_S1x10 broadcasts_S1x10_S64x10 := rfl

/-- The kernel's stored value at `(g, o)` is the perceptron of the seven blocks there. -/
theorem k6_pay1_apply (v0 : Vec Ideal S64x288 .f32) (v2 : Vec Ideal S288x512 .f32) (v4 : Vec Ideal S1x512 .f32)
    (v13 : Vec Ideal S512x512 .f32) (v15 : Vec Ideal S1x512 .f32) (v24 : Vec Ideal S512x10 .f32) (v26 : Vec Ideal S1x10 .f32)
    (g : Fin 64) (o : Fin 10) :
    k6_pay1 v0 v2 v4 v13 v15 v24 v26 (ix2 g o) = mlpG v0 v2 v4 v13 v15 v24 v26 (ix2 g o) := by
  rw [k6_pay1_eq]
  simp only [kpre_apply, kact_apply, shapeCast_self]
  rfl

/-! ## From the blocks to the array

The grid has one point and every window's block is its whole array: the index maps are zero on both axes. -/

variable {F : FTy → Type} [FloatOps F]
variable (V : (c : Dev nD) → (b : Ref sig .tc) → Buf (Elt F) ((c : Thread nD τ).loc b))

/-- Every window's block index is `(0, 0)` at every point. -/
theorem idx_zero6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Window 0's block at the point is the whole of its array. -/
theorem iblk6_0_eq (c : Dev nD) (t : Fin cfg6.N) : iblk6 V c 0 t = V c main_v100 := by
  funext y
  show V c main_v100 (((cfg6.win 0).blk t).view.emb y) = V c main_v100 y
  refine congrArg _ (funext fun a => Fin.ext ?_)
  have h := idx_zero6 t
  match a with
  | ⟨0, _⟩ => show win6_0.index t (0 : Fin 2) * 64 + 1 * (y 0).val = (y 0).val; omega
  | ⟨1, _⟩ => show win6_0.index t (1 : Fin 2) * 288 + 1 * (y 1).val = (y 1).val; omega

/-- Window 1's block at the point is the whole of its array. -/
theorem iblk6_1_eq (c : Dev nD) (t : Fin cfg6.N) : iblk6 V c 1 t = V c main_arg12 := by
  funext y
  show V c main_arg12 (((cfg6.win 1).blk t).view.emb y) = V c main_arg12 y
  refine congrArg _ (funext fun a => Fin.ext ?_)
  have h := idx_zero6 t
  match a with
  | ⟨0, _⟩ => show win6_1.index t (0 : Fin 2) * 288 + 1 * (y 0).val = (y 0).val; omega
  | ⟨1, _⟩ => show win6_1.index t (1 : Fin 2) * 512 + 1 * (y 1).val = (y 1).val; omega

/-- Window 2's block at the point is the whole of its array. -/
theorem iblk6_2_eq (c : Dev nD) (t : Fin cfg6.N) : iblk6 V c 2 t = V c main_v101 := by
  funext y
  show V c main_v101 (((cfg6.win 2).blk t).view.emb y) = V c main_v101 y
  refine congrArg _ (funext fun a => Fin.ext ?_)
  have h := idx_zero6 t
  match a with
  | ⟨0, _⟩ => show win6_2.index t (0 : Fin 2) * 1 + 1 * (y 0).val = (y 0).val; omega
  | ⟨1, _⟩ => show win6_2.index t (1 : Fin 2) * 512 + 1 * (y 1).val = (y 1).val; omega

/-- Window 3's block at the point is the whole of its array. -/
theorem iblk6_3_eq (c : Dev nD) (t : Fin cfg6.N) : iblk6 V c 3 t = V c main_arg14 := by
  funext y
  show V c main_arg14 (((cfg6.win 3).blk t).view.emb y) = V c main_arg14 y
  refine congrArg _ (funext fun a => Fin.ext ?_)
  have h := idx_zero6 t
  match a with
  | ⟨0, _⟩ => show win6_3.index t (0 : Fin 2) * 512 + 1 * (y 0).val = (y 0).val; omega
  | ⟨1, _⟩ => show win6_3.index t (1 : Fin 2) * 512 + 1 * (y 1).val = (y 1).val; omega

/-- Window 4's block at the point is the whole of its array. -/
theorem iblk6_4_eq (c : Dev nD) (t : Fin cfg6.N) : iblk6 V c 4 t = V c main_v102 := by
  funext y
  show V c main_v102 (((cfg6.win 4).blk t).view.emb y) = V c main_v102 y
  refine congrArg _ (funext fun a => Fin.ext ?_)
  have h := idx_zero6 t
  match a with
  | ⟨0, _⟩ => show win6_4.index t (0 : Fin 2) * 1 + 1 * (y 0).val = (y 0).val; omega
  | ⟨1, _⟩ => show win6_4.index t (1 : Fin 2) * 512 + 1 * (y 1).val = (y 1).val; omega

/-- Window 5's block at the point is the whole of its array. -/
theorem iblk6_5_eq (c : Dev nD) (t : Fin cfg6.N) : iblk6 V c 5 t = V c main_arg16 := by
  funext y
  show V c main_arg16 (((cfg6.win 5).blk t).view.emb y) = V c main_arg16 y
  refine congrArg _ (funext fun a => Fin.ext ?_)
  have h := idx_zero6 t
  match a with
  | ⟨0, _⟩ => show win6_5.index t (0 : Fin 2) * 512 + 1 * (y 0).val = (y 0).val; omega
  | ⟨1, _⟩ => show win6_5.index t (1 : Fin 2) * 10 + 1 * (y 1).val = (y 1).val; omega

/-- Window 6's block at the point is the whole of its array. -/
theorem iblk6_6_eq (c : Dev nD) (t : Fin cfg6.N) : iblk6 V c 6 t = V c main_v103 := by
  funext y
  show V c main_v103 (((cfg6.win 6).blk t).view.emb y) = V c main_v103 y
  refine congrArg _ (funext fun a => Fin.ext ?_)
  have h := idx_zero6 t
  match a with
  | ⟨0, _⟩ => show win6_6.index t (0 : Fin 2) * 1 + 1 * (y 0).val = (y 0).val; omega
  | ⟨1, _⟩ => show win6_6.index t (1 : Fin 2) * 10 + 1 * (y 1).val = (y 1).val; omega

theorem hz6 : (![0, 0] : Fin 2 → Nat) = fun _ => 0 := funext fun a => by fin_cases a <;> rfl

/-- An index of the output's array is in the point's block iff each coordinate is in the block's range on its axis. -/
theorem mem_blk6_7 (t : Fin cfg6.N) (i : S64x10.Idx) :
    i ∈ ((cfg6.win 7).blk t).view.set ↔ ∀ a : Fin 2, win6_7.index t a * S64x10.size a ≤ (i a).val ∧ (i a).val < win6_7.index t a * S64x10.size a + S64x10.size a := by
  show i ∈ ((View.whole main_v104).slice (win6_7.rect t)).set ↔ _
  rw [View.set_slice_whole, Rect.mem_set_unit]
  exact Iff.rfl

/-- The one point's block covers the output's array. -/
theorem cover_arr6_7 (i : S64x10.Idx) : ∃ t : Fin cfg6.N, (cfg6.win 7).flush t = true ∧ i ∈ ((cfg6.win 7).blk t).view.set := by
  refine ⟨t6_0, flush6_7 t6_0, ?_⟩
  rw [mem_blk6_7]
  have h := idx_zero6 t6_0
  intro a
  match a with
  | ⟨0, _⟩ => show win6_7.index t6_0 (0 : Fin 2) * 64 ≤ (i 0).val ∧ (i 0).val < win6_7.index t6_0 (0 : Fin 2) * 64 + 64; have := idx2_lt0 i; omega
  | ⟨1, _⟩ => show win6_7.index t6_0 (1 : Fin 2) * 10 ≤ (i 1).val ∧ (i 1).val < win6_7.index t6_0 (1 : Fin 2) * 10 + 10; have := idx2_lt1 i; omega

/-! ## The region's output array -/

section AtIdeal
variable (V : (c : Dev nD) → (b : Ref sig .tc) → Buf (Elt Ideal) ((c : Thread nD τ).loc b))

/-- What the point writes back to the output's array is the block of the perceptron of the seven arrays. -/
theorem flushed6_7_eq (c : Dev nD) (t : Fin cfg6.N) :
    (dat6 (F := Ideal) V c).flushed 7 t = ((cfg6.win 7).blk t).view.read (Elt Ideal)
      (mlpG (V c main_v100) (V c main_arg12) (V c main_v101) (V c main_arg14) (V c main_v102) (V c main_arg16) (V c main_v103)) := by
  show (cfg6.win 7).cut (grid6.coords t) ((dat6 V c).after 7 t) = _
  rw [after6_7]
  unfold out6_7
  rw [View.canon_unit_zero hz6]
  simp only [View.ld_unit_zero (S := S64x288) hz6, View.ld_unit_zero (S := S288x512) hz6, View.ld_unit_zero (S := S1x512) hz6, View.ld_unit_zero (S := S512x512) hz6, View.ld_unit_zero (S := S512x10) hz6, View.ld_unit_zero (S := S1x10) hz6]
  rw [iblk6_0_eq, iblk6_1_eq, iblk6_2_eq, iblk6_3_eq, iblk6_4_eq, iblk6_5_eq, iblk6_6_eq]
  funext j
  have h := idx_zero6 t
  have hemb : ((cfg6.win 7).blk t).view.emb j = j := by
    funext a; apply Fin.ext
    match a with
    | ⟨0, _⟩ => show win6_7.index t (0 : Fin 2) * 64 + 1 * (j 0).val = (j 0).val; omega
    | ⟨1, _⟩ => show win6_7.index t (1 : Fin 2) * 10 + 1 * (j 1).val = (j 1).val; omega
  show k6_pay1 (V c main_v100) (V c main_arg12) (V c main_v101) (V c main_arg14) (V c main_v102) (V c main_arg16) (V c main_v103) j = mlpG (V c main_v100) (V c main_arg12) (V c main_v101) (V c main_arg14) (V c main_v102) (V c main_arg16) (V c main_v103) (((cfg6.win 7).blk t).view.emb j)
  rw [hemb]
  obtain ⟨g, o, rfl⟩ : ∃ (g : Fin 64) (o : Fin 10), j = ix2 g o := ⟨j 0, j 1, eq_ix2 j⟩
  exact k6_pay1_apply _ _ _ _ _ _ _ g o

/-- THE OUTPUT ARRAY after the region: the perceptron of the seven arrays as the region finds them. -/
theorem arrAt6_7 (c : Dev nD) :
    (dat6 (F := Ideal) V c).arrAt 7 cfg6.N = mlpG (V c main_v100) (V c main_arg12) (V c main_v101) (V c main_arg14) (V c main_v102) (V c main_arg16) (V c main_v103) :=
  (dat6 V c).arrAt_eq_of_cover 7 _ (fun t _ => flushed6_7_eq V c t) cover_arr6_7

end AtIdeal

end Cert.KernelIdeal.Hand.Mlp

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.KI.LinRun.lean ====
import proofs.«144042_j23673859736035_1_alg».proof.Proof.LibBlockSum
import Idealize.ShloMosaic.PureOps.Ideal

/-! # A value carried over ten grid points, and the total it ends at

The array has 50000 rows, cut into ten consecutive blocks of 5000: row `q` of block `t` is row `5000·t + q` of the
whole. A value is carried from point to point: before the first point it is `init`, and point `t` replaces the carried
value `s` by `step t s`.

When the carried value is a family of extended reals, an entry of it that starts at zero and to which point `t` adds the
sum of a function `f` over the 5000 rows of block `t` ends, after the ten points, at the sum of `f` over all 50000 rows.
Nothing has to be finite for this: on the extended reals `0 + x = x`, and `+` is commutative and associative, whatever
the summands are. -/

open scoped BigOperators

namespace Cert.KernelIdeal.LinVal

open Cert.LibBlockSum

/-- Ten blocks of 5000 rows are the 50000 rows. -/
theorem ten_blocks : 10 * 5000 = 50000 := by decide

/-- Row `q` of block `t`, as a row of the whole array: row `5000·t + q`. -/
abbrev rowOf (t : Fin 10) (q : Fin 5000) : Fin 50000 := ⟨t.val * 5000 + q.val, row_lt_of_eq ten_blocks t q⟩

/-- The block a row of the whole array lies in. -/
abbrev blockOf (R : Fin 50000) : Fin 10 := ⟨R.val / 5000, by have := R.isLt; omega⟩

/-- A row's place inside its block. -/
abbrev withinOf (R : Fin 50000) : Fin 5000 := ⟨R.val % 5000, Nat.mod_lt _ (by decide)⟩

theorem blockOf_rowOf (t : Fin 10) (q : Fin 5000) : blockOf (rowOf t q) = t :=
  Fin.ext (by show (t.val * 5000 + q.val) / 5000 = t.val; have := q.isLt; omega)

theorem withinOf_rowOf (t : Fin 10) (q : Fin 5000) : withinOf (rowOf t q) = q :=
  Fin.ext (by show (t.val * 5000 + q.val) % 5000 = q.val; have := q.isLt; omega)

theorem rowOf_blockOf_withinOf (R : Fin 50000) : rowOf (blockOf R) (withinOf R) = R :=
  Fin.ext (by show R.val / 5000 * 5000 + R.val % 5000 = R.val; omega)

/-- The value carried after the first `n` of the ten points: `init` before the first, and `step t` applied at point `t`.
    There is no eleventh point: past ten the value stays. -/
def runAt {α : Type} (init : α) (step : Fin 10 → α → α) : ℕ → α
  | 0 => init
  | n + 1 => if h : n < 10 then step ⟨n, h⟩ (runAt init step n) else runAt init step n

theorem runAt_zero {α : Type} (init : α) (step : Fin 10 → α → α) : runAt init step 0 = init := rfl

theorem runAt_succ {α : Type} (init : α) (step : Fin 10 → α → α) {n : ℕ} (hn : n < 10) :
    runAt init step (n + 1) = step ⟨n, hn⟩ (runAt init step n) := by
  show (if h : n < 10 then step ⟨n, h⟩ (runAt init step n) else runAt init step n) = _
  rw [dif_pos hn]

/-- An entry that starts at zero and gains `g t` at point `t` holds, after the first `n` points, the total of the first
    `n` of the ten values `g`. -/
theorem runAt_upTo {ι : Type} (init : ι → EReal) (step : Fin 10 → (ι → EReal) → (ι → EReal)) (i : ι) (g : Fin 10 → EReal)
    (h0 : init i = 0) (hs : ∀ (t : Fin 10) (s : ι → EReal), step t s i = s i + g t) :
    ∀ n : ℕ, n ≤ 10 → runAt init step n i = upTo g n
  | 0, _ => h0.trans (upTo_zero g).symm
  | n + 1, hn => by
    have hlt : n < 10 := hn
    rw [runAt_succ init step hlt, hs, runAt_upTo init step i g h0 hs n (Nat.le_of_lt hlt), upTo_succ g n hlt]

/-- An entry that starts at zero and to which point `t` adds the sum of `f` over the rows of block `t` ends at the sum
    of `f` over all the rows. -/
theorem runAt_total {ι : Type} (init : ι → EReal) (step : Fin 10 → (ι → EReal) → (ι → EReal)) (i : ι) (f : Fin 50000 → EReal)
    (h0 : init i = 0) (hs : ∀ (t : Fin 10) (s : ι → EReal), step t s i = s i + ∑ q : Fin 5000, f (rowOf t q)) :
    runAt init step 10 i = ∑ R : Fin 50000, f R := by
  rw [runAt_upTo init step i (fun t => ∑ q : Fin 5000, f (rowOf t q)) h0 hs 10 (Nat.le_refl 10)]
  exact upTo_blocks ten_blocks f

end Cert.KernelIdeal.LinVal
-- ==== Proof.KI.LinCol.lean ====
import proofs.«144042_j23673859736035_1_alg».proof.Proof.Gen.KernelIdeal
import Idealize.ShloMosaic.PureOps.Ideal.Laws
import Idealize.ShloMosaic.Lib.ValueLayout

/-! # The two operations of the linear block that are not pointwise, read at an index

At the exact values (every float an extended real, every operation the textbook one) a matrix product accumulated into
zero is, entry by entry, the plain sum of products over the contracted coordinate, and the sum of a [5000,256] block over
its rows is, column by column, the sum over the 5000 row coordinates. Both are stated at explicit coordinates (r, j). -/

open scoped BigOperators

noncomputable section

namespace Cert.KernelIdeal.LinVal

open Cert.KernelIdeal Cert.KernelIdeal.Gen
open Idealize.ShloMosaic Idealize.ShloMosaic.ValueIdx

/-- The product of a [5000,128] block and a [128,256] matrix, accumulated into zero, read at row `r` and column `j`: the sum
    over the 128 contracted coordinates `k` of (block at (r, k)) · (matrix at (k, j)). The contraction has one axis, so
    its index is that one coordinate, and the two operand indices at `k` are (r, k) and (k, j). -/
theorem matmul128_apply (A : FVec Ideal S5000x128 .f32) (W : FVec Ideal S128x256 .f32) (r : Fin 5000) (j : Fin 256) :
    matmul dot_S5000x128_S128x256_S5000x256_1_0_0_1_n_n none A W (constant (F := Ideal) S5000x256 .f32 0x00000000#32) (ix2 r j)
      = ∑ k : Fin 128, A (ix2 r k) * W (ix2 k j) := by
  show FloatOps.matmul _ none A W _ (ix2 r j) = _
  rw [Ideal.matmul_constant_zero_apply,
    ← Equiv.sum_comp (contrEquiv1 dot_S5000x128_S128x256_S5000x256_1_0_0_1_n_n 128 rfl rfl).symm]
  refine Finset.sum_congr rfl fun c _ => ?_
  have c2 := contrEquiv1_symm_val dot_S5000x128_S128x256_S5000x256_1_0_0_1_n_n 128 rfl rfl c
  have l2 : dot_S5000x128_S128x256_S5000x256_1_0_0_1_n_n.lhsIdx (ix2 r j) ((contrEquiv1 _ 128 rfl rfl).symm c) = ix2 r c := by
    funext ax; apply Fin.ext
    match ax with
    | ⟨0, _⟩ => simp [DotDims.lhsIdx, dot_S5000x128_S128x256_S5000x256_1_0_0_1_n_n]; rfl
    | ⟨1, _⟩ => simp [DotDims.lhsIdx, dot_S5000x128_S128x256_S5000x256_1_0_0_1_n_n]; exact c2
  have r2 : dot_S5000x128_S128x256_S5000x256_1_0_0_1_n_n.rhsIdx (ix2 r j) ((contrEquiv1 _ 128 rfl rfl).symm c) = ix2 c j := by
    funext ax; apply Fin.ext
    match ax with
    | ⟨0, _⟩ => simp [DotDims.rhsIdx, dot_S5000x128_S128x256_S5000x256_1_0_0_1_n_n]; exact c2
    | ⟨1, _⟩ => simp [DotDims.rhsIdx, dot_S5000x128_S128x256_S5000x256_1_0_0_1_n_n]; rfl
  rw [l2, r2]

/-- The product of a [5000,256] block and a [256,256] matrix, accumulated into zero, read at row `r` and column `j`: the sum
    over the 256 contracted coordinates `k` of (block at (r, k)) · (matrix at (k, j)). The contraction has one axis, so
    its index is that one coordinate, and the two operand indices at `k` are (r, k) and (k, j). -/
theorem matmul256_apply (A : FVec Ideal S5000x256 .f32) (W : FVec Ideal S256x256 .f32) (r : Fin 5000) (j : Fin 256) :
    matmul dot_S5000x256_S256x256_S5000x256_1_0_0_1_n_n none A W (constant (F := Ideal) S5000x256 .f32 0x00000000#32) (ix2 r j)
      = ∑ k : Fin 256, A (ix2 r k) * W (ix2 k j) := by
  show FloatOps.matmul _ none A W _ (ix2 r j) = _
  rw [Ideal.matmul_constant_zero_apply,
    ← Equiv.sum_comp (contrEquiv1 dot_S5000x256_S256x256_S5000x256_1_0_0_1_n_n 256 rfl rfl).symm]
  refine Finset.sum_congr rfl fun c _ => ?_
  have c2 := contrEquiv1_symm_val dot_S5000x256_S256x256_S5000x256_1_0_0_1_n_n 256 rfl rfl c
  have l2 : dot_S5000x256_S256x256_S5000x256_1_0_0_1_n_n.lhsIdx (ix2 r j) ((contrEquiv1 _ 256 rfl rfl).symm c) = ix2 r c := by
    funext ax; apply Fin.ext
    match ax with
    | ⟨0, _⟩ => simp [DotDims.lhsIdx, dot_S5000x256_S256x256_S5000x256_1_0_0_1_n_n]; rfl
    | ⟨1, _⟩ => simp [DotDims.lhsIdx, dot_S5000x256_S256x256_S5000x256_1_0_0_1_n_n]; exact c2
  have r2 : dot_S5000x256_S256x256_S5000x256_1_0_0_1_n_n.rhsIdx (ix2 r j) ((contrEquiv1 _ 256 rfl rfl).symm c) = ix2 c j := by
    funext ax; apply Fin.ext
    match ax with
    | ⟨0, _⟩ => simp [DotDims.rhsIdx, dot_S5000x256_S256x256_S5000x256_1_0_0_1_n_n]; exact c2
    | ⟨1, _⟩ => simp [DotDims.rhsIdx, dot_S5000x256_S256x256_S5000x256_1_0_0_1_n_n]; rfl
  rw [l2, r2]

/-- The sum of a [5000,256] block over its rows, read at column `j`: the sum over the 5000 rows `r` of the block at
    (r, j). The zero word the sum starts from is the neutral element of the sum, so it leaves no term. -/
theorem colsum_apply (src : FVec Ideal S5000x256 .f32) (hφ : FKind.Formats .f32)
    (hacc : (0x00000000#32 : BitVec 32) = 0x00000000#32) (j : Fin 256) :
    multiReduction (F := Ideal) .add [0] S256 src 0x00000000#32 reduces_S5000x256_S256 hφ hacc (ix1 j)
      = ∑ r : Fin 5000, src (ix2 r j) := by
  refine (Ideal.multiReduction_add_single src 0x00000000#32 reduces_S5000x256_S256 hφ hacc (ix1 j)).trans ?_
  refine Finset.sum_congr rfl fun r _ => congrArg src ?_
  funext a
  match a with
  | ⟨0, _⟩ => rfl
  | ⟨1, _⟩ => rfl

end Cert.KernelIdeal.LinVal
-- ==== Proof.KI.LinPay0.lean ====
import proofs.«144042_j23673859736035_1_alg».proof.Proof.Gen.KernelIdeal.Skeleton
import proofs.«144042_j23673859736035_1_alg».proof.Proof.KI.LinCol

/-! # The values one grid point of the first layer's linear-and-statistics region (inner width 128) computes, read entry by entry

At one grid point the body holds a block `a` of 5000 rows of the aggregated features and the block `h` of the same 5000
rows of the features themselves (each [5000,128]), two weight matrices `Wl`, `Wr` ([128,256]) and a bias row `b`
([1,256]). At the exact values it computes

* the linear block: at row `r`, column `j`:  Σₖ a(r,k)·Wl(k,j) + b(0,j) + Σₖ h(r,k)·Wr(k,j);
* the running column sum: the carried row plus, at column `j`, the sum of the linear block's column `j` over the 5000 rows;
* the running column sum of squares: the same with each entry of the linear block squared;
* at the first point the two carried rows are zero rows;
* at the last point the mean row, carried sum / 50000, and the variance row, carried sum of squares / 50000 − mean².

The divisor 50000 stays the float word it is written as; the same word stands on the other side of any comparison, so
it is never evaluated. -/

open scoped BigOperators

noncomputable section

namespace Cert.KernelIdeal.LinVal

open Cert.KernelIdeal Cert.KernelIdeal.Gen
open Idealize.ShloMosaic Idealize.ShloMosaic.ValueIdx

/-- The linear block at row `r`, column `j`: the aggregated row times `Wl`, plus the bias, plus the feature row times
    `Wr`. The casts to the same shape are identities and the bias row is repeated down the 5000 rows. -/
theorem k0_pay6_apply (a : Vec Ideal S5000x128 .f32) (Wl : Vec Ideal S128x256 .f32) (b : Vec Ideal S1x256 .f32)
    (h : Vec Ideal S5000x128 .f32) (Wr : Vec Ideal S128x256 .f32) (r : Fin 5000) (j : Fin 256) :
    k0_pay6 (F := Ideal) a Wl b h Wr (ix2 r j)
      = (∑ k : Fin 128, a (ix2 r k) * Wl (ix2 k j)) + b (ix2 (0 : Fin 1) j)
          + ∑ k : Fin 128, h (ix2 r k) * Wr (ix2 k j) := by
  unfold k0_pay6
  simp only [shapeCast_self]
  rw [addf_apply, addf_apply, matmul128_apply, matmul128_apply, broadcastTo_1b_ab_apply]

/-- The carried sum row after a point, at column `j`: what was carried plus the sum over the block's 5000 rows of the
    linear block's column `j`. -/
theorem k0_pay7_apply (a : Vec Ideal S5000x128 .f32) (Wl : Vec Ideal S128x256 .f32) (b : Vec Ideal S1x256 .f32)
    (h : Vec Ideal S5000x128 .f32) (Wr : Vec Ideal S128x256 .f32) (s : Vec Ideal S1x256 .f32) (j : Fin 256) :
    k0_pay7 (F := Ideal) a Wl b h Wr s (ix2 (0 : Fin 1) j)
      = s (ix2 (0 : Fin 1) j) + ∑ r : Fin 5000, k0_pay6 (F := Ideal) a Wl b h Wr (ix2 r j) := by
  unfold k0_pay7
  simp only [shapeCast_self]
  rw [addf_apply, shapeCast_a_1a_apply]
  exact congrArg (s (ix2 (0 : Fin 1) j) + ·) (colsum_apply _ _ _ j)

/-- The carried sum-of-squares row after a point, at column `j`: what was carried plus the sum over the block's 5000
    rows of the square of the linear block's entry in column `j`. -/
theorem k0_pay8_apply (a : Vec Ideal S5000x128 .f32) (Wl : Vec Ideal S128x256 .f32) (b : Vec Ideal S1x256 .f32)
    (h : Vec Ideal S5000x128 .f32) (Wr : Vec Ideal S128x256 .f32) (q : Vec Ideal S1x256 .f32) (j : Fin 256) :
    k0_pay8 (F := Ideal) a Wl b h Wr q (ix2 (0 : Fin 1) j)
      = q (ix2 (0 : Fin 1) j)
          + ∑ r : Fin 5000, k0_pay6 (F := Ideal) a Wl b h Wr (ix2 r j) * k0_pay6 (F := Ideal) a Wl b h Wr (ix2 r j) := by
  unfold k0_pay8
  rw [addf_apply, shapeCast_a_1a_apply]
  exact congrArg (q (ix2 (0 : Fin 1) j) + ·) (colsum_apply _ _ _ j)

/-- The sum row the first point starts from is the zero row. -/
theorem k0_pay4_apply (i : S1x256.Idx) : k0_pay4 (F := Ideal) i = 0 := by
  unfold k0_pay4
  simp only [shapeCast_self]
  exact Ideal.ofBits_zero_f32

/-- The sum-of-squares row the first point starts from is the zero row. -/
theorem k0_pay5_apply (i : S1x256.Idx) : k0_pay5 (F := Ideal) i = 0 := by
  unfold k0_pay5
  simp only [shapeCast_self]
  exact Ideal.ofBits_zero_f32

/-- The cast of a [1,256] row to its own shape is the row. -/
theorem k0_pay1_eq (q : FVec Ideal S1x256 .f32) : k0_pay1 (F := Ideal) q = q := by
  unfold k0_pay1
  exact shapeCast_self _ _

/-- The mean row: the carried sum divided by the float 50000, entry by entry. -/
theorem k0_pay2_apply (s : Vec Ideal S1x256 .f32) (i : S1x256.Idx) :
    k0_pay2 (F := Ideal) s i = Ideal.div (s i) (Ideal.ofBits .f32 0x47435000#32) := rfl

/-- The variance row: the carried sum of squares divided by the float 50000, minus the square of the mean, entry by
    entry. -/
theorem k0_pay3_apply (s q : Vec Ideal S1x256 .f32) (i : S1x256.Idx) :
    k0_pay3 (F := Ideal) s q i
      = Ideal.div (q i) (Ideal.ofBits .f32 0x47435000#32)
          - Ideal.div (s i) (Ideal.ofBits .f32 0x47435000#32) * Ideal.div (s i) (Ideal.ofBits .f32 0x47435000#32) := rfl

end Cert.KernelIdeal.LinVal
-- ==== Proof.KI.LinSum0.lean ====
import proofs.«144042_j23673859736035_1_alg».proof.Proof.KI.LinRun
import proofs.«144042_j23673859736035_1_alg».proof.Proof.KI.LinPay0

/-! # The column statistics the ten grid points accumulate (inner width 128)

The region runs its body at ten grid points `t = 0 … 9`; point `t` sees block `t` — rows 5000·t … 5000·t + 4999 — of the
aggregated features and of the features, here any two families `A`, `H` of ten [5000,128] blocks, with the same weights
`Wl`, `Wr` and bias row `bl` at every point. Write lin(R, j) for the linear value of row `R` of the whole 50000 rows in
column `j`:

    lin(R, j) = Σₖ A(R,k)·Wl(k,j) + bl(0,j) + Σₖ H(R,k)·Wr(k,j),     row R being row R mod 5000 of block R div 5000.

Two rows are carried from point to point, both zero before the first point; point `t` adds to the first the column sums of
block `t`'s linear values and to the second the column sums of their squares. So after the tenth point the first row
holds, in column `j`, Σ_R lin(R, j) over all 50000 rows, and the second Σ_R lin(R, j)². The mean row is the first divided
by 50000 and the variance row the second divided by 50000 minus the square of the mean. No summand has to be finite. -/

open scoped BigOperators

noncomputable section

namespace Cert.KernelIdeal.LinVal

open Cert.KernelIdeal Cert.KernelIdeal.Gen
open Idealize.ShloMosaic Idealize.ShloMosaic.ValueIdx

section
variable (A H : Fin 10 → Vec Ideal S5000x128 .f32) (Wl : Vec Ideal S128x256 .f32) (bl : Vec Ideal S1x256 .f32)
  (Wr : Vec Ideal S128x256 .f32)

/-- The linear value of row `q` of block `t` in column `j`. -/
def linBlk0 (t : Fin 10) (q : Fin 5000) (j : Fin 256) : EReal :=
  (∑ k : Fin 128, A t (ix2 q k) * Wl (ix2 k j)) + bl (ix2 (0 : Fin 1) j) + ∑ k : Fin 128, H t (ix2 q k) * Wr (ix2 k j)

/-- The linear value of row `R` of the whole 50000 rows in column `j`: row `R mod 5000` of block `R div 5000`. -/
def lin0 (R : Fin 50000) (j : Fin 256) : EReal := linBlk0 A H Wl bl Wr (blockOf R) (withinOf R) j

/-- The sum row carried after the first `n` points. -/
def sAt0 (n : ℕ) : FVec Ideal S1x256 .f32 :=
  runAt (k0_pay4 (F := Ideal)) (fun t s => k0_pay7 (F := Ideal) (A t) Wl bl (H t) Wr s) n

/-- The sum-of-squares row carried after the first `n` points. -/
def qAt0 (n : ℕ) : FVec Ideal S1x256 .f32 :=
  runAt (k0_pay5 (F := Ideal)) (fun t q => k0_pay8 (F := Ideal) (A t) Wl bl (H t) Wr q) n

theorem sAt0_zero : sAt0 A H Wl bl Wr 0 = k0_pay4 (F := Ideal) := rfl

theorem sAt0_succ {n : ℕ} (hn : n < 10) :
    sAt0 A H Wl bl Wr (n + 1) = k0_pay7 (F := Ideal) (A ⟨n, hn⟩) Wl bl (H ⟨n, hn⟩) Wr (sAt0 A H Wl bl Wr n) :=
  runAt_succ _ _ hn

theorem qAt0_zero : qAt0 A H Wl bl Wr 0 = k0_pay5 (F := Ideal) := rfl

theorem qAt0_succ {n : ℕ} (hn : n < 10) :
    qAt0 A H Wl bl Wr (n + 1) = k0_pay8 (F := Ideal) (A ⟨n, hn⟩) Wl bl (H ⟨n, hn⟩) Wr (qAt0 A H Wl bl Wr n) :=
  runAt_succ _ _ hn

/-- Row `5000·t + q` of the whole is row `q` of block `t`. -/
theorem lin0_rowOf (t : Fin 10) (q : Fin 5000) (j : Fin 256) :
    lin0 A H Wl bl Wr (rowOf t q) j = linBlk0 A H Wl bl Wr t q j := by
  unfold lin0
  rw [blockOf_rowOf, withinOf_rowOf]

/-- The linear block point `t` computes holds, at row `q` and column `j`, the linear value of row `5000·t + q`. -/
theorem k0_pay6_lin (t : Fin 10) (q : Fin 5000) (j : Fin 256) :
    k0_pay6 (F := Ideal) (A t) Wl bl (H t) Wr (ix2 q j) = lin0 A H Wl bl Wr (rowOf t q) j :=
  (k0_pay6_apply (A t) Wl bl (H t) Wr q j).trans (lin0_rowOf A H Wl bl Wr t q j).symm

/-- After the ten points the carried sum row holds, in column `j`, the sum of the linear values over all 50000 rows. -/
theorem sAt0_ten (j : Fin 256) :
    sAt0 A H Wl bl Wr 10 (ix2 (0 : Fin 1) j) = ∑ R : Fin 50000, lin0 A H Wl bl Wr R j := by
  unfold sAt0
  refine runAt_total _ _ (ix2 (0 : Fin 1) j) (fun R => lin0 A H Wl bl Wr R j) (k0_pay4_apply _) fun t s => ?_
  show k0_pay7 (F := Ideal) (A t) Wl bl (H t) Wr s (ix2 (0 : Fin 1) j)
      = s (ix2 (0 : Fin 1) j) + ∑ q : Fin 5000, lin0 A H Wl bl Wr (rowOf t q) j
  rw [k0_pay7_apply]
  exact congrArg (s (ix2 (0 : Fin 1) j) + ·) (Finset.sum_congr rfl fun q _ => k0_pay6_lin A H Wl bl Wr t q j)

/-- After the ten points the carried sum-of-squares row holds, in column `j`, the sum of the squared linear values over
    all 50000 rows. -/
theorem qAt0_ten (j : Fin 256) :
    qAt0 A H Wl bl Wr 10 (ix2 (0 : Fin 1) j) = ∑ R : Fin 50000, lin0 A H Wl bl Wr R j * lin0 A H Wl bl Wr R j := by
  unfold qAt0
  refine runAt_total _ _ (ix2 (0 : Fin 1) j) (fun R => lin0 A H Wl bl Wr R j * lin0 A H Wl bl Wr R j) (k0_pay5_apply _)
    fun t s => ?_
  show k0_pay8 (F := Ideal) (A t) Wl bl (H t) Wr s (ix2 (0 : Fin 1) j)
      = s (ix2 (0 : Fin 1) j) + ∑ q : Fin 5000, lin0 A H Wl bl Wr (rowOf t q) j * lin0 A H Wl bl Wr (rowOf t q) j
  rw [k0_pay8_apply]
  exact congrArg (s (ix2 (0 : Fin 1) j) + ·) (Finset.sum_congr rfl fun q _ => by rw [k0_pay6_lin A H Wl bl Wr t q j])

/-- The mean row after the last point: in column `j`, the sum of the linear values over all rows, divided by the float
    50000. -/
theorem mean0_apply (j : Fin 256) :
    k0_pay2 (F := Ideal) (sAt0 A H Wl bl Wr 10) (ix2 (0 : Fin 1) j)
      = Ideal.div (∑ R : Fin 50000, lin0 A H Wl bl Wr R j) (Ideal.ofBits .f32 0x47435000#32) := by
  rw [k0_pay2_apply, sAt0_ten]

/-- The variance row after the last point: in column `j`, the sum of the squared linear values over all rows divided by
    the float 50000, minus the square of the mean. -/
theorem var0_apply (j : Fin 256) :
    k0_pay3 (F := Ideal) (sAt0 A H Wl bl Wr 10) (qAt0 A H Wl bl Wr 10) (ix2 (0 : Fin 1) j)
      = Ideal.div (∑ R : Fin 50000, lin0 A H Wl bl Wr R j * lin0 A H Wl bl Wr R j) (Ideal.ofBits .f32 0x47435000#32)
          - Ideal.div (∑ R : Fin 50000, lin0 A H Wl bl Wr R j) (Ideal.ofBits .f32 0x47435000#32)
              * Ideal.div (∑ R : Fin 50000, lin0 A H Wl bl Wr R j) (Ideal.ofBits .f32 0x47435000#32) := by
  rw [k0_pay3_apply, sAt0_ten, qAt0_ten]

/-- When the ten blocks are the consecutive row blocks of two whole [50000,128] arrays `X` (aggregated) and `Y`
    (features), the linear value of row `R` is written with the whole arrays' row `R`. -/
theorem lin0_of_rows (X Y : Vec Ideal S50000x128 .f32)
    (hA : ∀ (t : Fin 10) (q : Fin 5000) (k : Fin 128), A t (ix2 q k) = X (ix2 (rowOf t q) k))
    (hH : ∀ (t : Fin 10) (q : Fin 5000) (k : Fin 128), H t (ix2 q k) = Y (ix2 (rowOf t q) k))
    (R : Fin 50000) (j : Fin 256) :
    lin0 A H Wl bl Wr R j
      = (∑ k : Fin 128, X (ix2 R k) * Wl (ix2 k j)) + bl (ix2 (0 : Fin 1) j) + ∑ k : Fin 128, Y (ix2 R k) * Wr (ix2 k j) := by
  unfold lin0 linBlk0
  simp only [hA, hH, rowOf_blockOf_withinOf]

end

end Cert.KernelIdeal.LinVal
-- ==== Proof.KI.LinStatsSpec.lean ====
import proofs.«144042_j23673859736035_1_alg».proof.KernelIdeal
import Idealize.ShloMosaic.Lib.ValueIdx

/-! # The linear layer and its column statistics, as functions of whole arrays

For a [50000,d] array `X` of aggregated features and `Y` of features, [d,256] weights `Wl`, `Wr` and a [1,256] bias row
`bl`, the linear output at row `r`, column `j` is `Σₖ X(r,k)·Wl(k,j) + bl(0,j) + Σₖ Y(r,k)·Wr(k,j)`.
Of a [50000,256] array `L` the mean row is the column sums divided by the float 50000, and the variance row the column
sums of squares divided by the float 50000 minus the square of the mean. Over the extended reals; no summand has to be
finite. -/

open scoped BigOperators

noncomputable section

namespace Cert.KernelIdeal.Hand

open Cert.KernelIdeal
open Idealize.ShloMosaic Idealize.ShloMosaic.ValueIdx

/-- The linear output for inner width 128. -/
def linArr128 (X Y : S50000x128.Idx → EReal) (Wl Wr : S128x256.Idx → EReal) (bl : S1x256.Idx → EReal) : S50000x256.Idx → EReal :=
  fun i => (∑ k : Fin 128, X (ix2 (n0 := 50000) (n1 := 128) (i 0) k) * Wl (ix2 (n0 := 128) (n1 := 256) k (i 1)))
    + bl (ix2 (n0 := 1) (n1 := 256) 0 (i 1))
    + ∑ k : Fin 128, Y (ix2 (n0 := 50000) (n1 := 128) (i 0) k) * Wr (ix2 (n0 := 128) (n1 := 256) k (i 1))

/-- The linear output for inner width 256. -/
def linArr256 (X Y : S50000x256.Idx → EReal) (Wl Wr : S256x256.Idx → EReal) (bl : S1x256.Idx → EReal) : S50000x256.Idx → EReal :=
  fun i => (∑ k : Fin 256, X (ix2 (n0 := 50000) (n1 := 256) (i 0) k) * Wl (ix2 (n0 := 256) (n1 := 256) k (i 1)))
    + bl (ix2 (n0 := 1) (n1 := 256) 0 (i 1))
    + ∑ k : Fin 256, Y (ix2 (n0 := 50000) (n1 := 256) (i 0) k) * Wr (ix2 (n0 := 256) (n1 := 256) k (i 1))

/-- The mean row: column sums over the 50000 rows, divided by the float 50000. -/
def meanRow (L : S50000x256.Idx → EReal) : S1x256.Idx → EReal :=
  fun i => Ideal.div (∑ R : Fin 50000, L (ix2 (n0 := 50000) (n1 := 256) R (i 1))) (Ideal.ofBits .f32 0x47435000#32)

/-- The variance row: column sums of squares divided by the float 50000, minus the square of the mean. -/
def varRow (L : S50000x256.Idx → EReal) : S1x256.Idx → EReal :=
  fun i => Ideal.div (∑ R : Fin 50000, L (ix2 (n0 := 50000) (n1 := 256) R (i 1)) * L (ix2 (n0 := 50000) (n1 := 256) R (i 1)))
      (Ideal.ofBits .f32 0x47435000#32)
    - meanRow L i * meanRow L i

end Cert.KernelIdeal.Hand

end
-- ==== Proof.KI.Lin0Steps.lean ====
import proofs.«144042_j23673859736035_1_alg».proof.Proof.KI.Lin0Dat
import proofs.«144042_j23673859736035_1_alg».proof.Proof.KI.LinSum0
import proofs.«144042_j23673859736035_1_alg».proof.Proof.KI.LinStatsSpec
import Idealize.ShloMosaic.Lib.Pipeline.Value
import Idealize.ShloMosaic.Lib.ValueIdx

/-! # Region 0: the blocks as pieces of the whole arrays

The weight and bias windows hold their whole arrays at every point; row `q` of the aggregated and of the feature block
at point `t` is row `5000·t + q` of the whole array; the output block is block `t` of the rows. For any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps over the ten points -/

/-- The two input blocks and the output block are block `t` of the rows; the weights, the bias row, mean and variance
    stay at block 0. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A point of the region's grid as one of the ten points, and back. -/
abbrev ten0 (t : Fin cfg0.N) : Fin 10 := ⟨t.val, lt_of_lt_of_eq t.isLt N_0⟩
abbrev pt0 (t : Fin 10) : Fin cfg0.N := ⟨t.val, lt_of_lt_of_eq t.isLt N_0.symm⟩

/-- Window 2's block is the whole array at every point: its block index is constantly 0. -/
theorem wlBlock0 (c : Dev nD) (t : Fin cfg0.N) : (iblk0 V c 2 t : Vec F S128x256 .f32) = V c (Pipeline.arrRef spec0 2) := by
  obtain ⟨-, -, -, -, e20, e21, e30, e31, e40, e41, -, -, -, -, -, -⟩ := blockIdx0 t
  funext j
  show V c (Pipeline.arrRef spec0 2) (((cfg0.win 2).blk t).view.emb j) = V c (Pipeline.arrRef spec0 2) j
  refine congrArg _ ?_
  funext a; apply Fin.ext
  match a with
  | ⟨0, _⟩ => show win0_2.index t (0 : Fin 2) * 128 + 1 * (j 0).val = (j 0).val; omega
  | ⟨1, _⟩ => show win0_2.index t (1 : Fin 2) * 256 + 1 * (j 1).val = (j 1).val; omega

/-- Window 3's block is the whole array at every point: its block index is constantly 0. -/
theorem wrBlock0 (c : Dev nD) (t : Fin cfg0.N) : (iblk0 V c 3 t : Vec F S128x256 .f32) = V c (Pipeline.arrRef spec0 3) := by
  obtain ⟨-, -, -, -, e20, e21, e30, e31, e40, e41, -, -, -, -, -, -⟩ := blockIdx0 t
  funext j
  show V c (Pipeline.arrRef spec0 3) (((cfg0.win 3).blk t).view.emb j) = V c (Pipeline.arrRef spec0 3) j
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 256 + 1 * (j 1).val = (j 1).val; omega

/-- Window 4's block is the whole array at every point: its block index is constantly 0. -/
theorem blBlock0 (c : Dev nD) (t : Fin cfg0.N) : (iblk0 V c 4 t : Vec F S1x256 .f32) = V c (Pipeline.arrRef spec0 4) := by
  obtain ⟨-, -, -, -, e20, e21, e30, e31, e40, e41, -, -, -, -, -, -⟩ := blockIdx0 t
  funext j
  show V c (Pipeline.arrRef spec0 4) (((cfg0.win 4).blk t).view.emb j) = V c (Pipeline.arrRef spec0 4) j
  refine congrArg _ ?_
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

/-- Row `q` of window 0's block at point `t` is row `5000·t + q` of its array. -/
theorem aggBlock0_read (c : Dev nD) (t : Fin cfg0.N) (q : Fin 5000) (k : Fin 128) :
    iblk0 V c 0 t (ix2 (n0 := 5000) (n1 := 128) q k)
      = V c (Pipeline.arrRef spec0 0) (ix2 (n0 := 50000) (n1 := 128) (LinVal.rowOf (ten0 t) q) k) := by
  obtain ⟨e00, e01, e10, e11, -, -, -, -, -, -, -, -, -, -, -, -⟩ := blockIdx0 t
  show V c (Pipeline.arrRef spec0 0) (((cfg0.win 0).blk t).view.emb (ix2 (n0 := 5000) (n1 := 128) q k)) = _
  refine congrArg _ ?_
  funext a; apply Fin.ext
  match a with
  | ⟨0, _⟩ => show win0_0.index t (0 : Fin 2) * 5000 + 1 * q.val = t.val * 5000 + q.val; omega
  | ⟨1, _⟩ => show win0_0.index t (1 : Fin 2) * 128 + 1 * k.val = k.val; omega

/-- Row `q` of window 1's block at point `t` is row `5000·t + q` of its array. -/
theorem featBlock0_read (c : Dev nD) (t : Fin cfg0.N) (q : Fin 5000) (k : Fin 128) :
    iblk0 V c 1 t (ix2 (n0 := 5000) (n1 := 128) q k)
      = V c (Pipeline.arrRef spec0 1) (ix2 (n0 := 50000) (n1 := 128) (LinVal.rowOf (ten0 t) q) k) := by
  obtain ⟨e00, e01, e10, e11, -, -, -, -, -, -, -, -, -, -, -, -⟩ := blockIdx0 t
  show V c (Pipeline.arrRef spec0 1) (((cfg0.win 1).blk t).view.emb (ix2 (n0 := 5000) (n1 := 128) q k)) = _
  refine congrArg _ ?_
  funext a; apply Fin.ext
  match a with
  | ⟨0, _⟩ => show win0_1.index t (0 : Fin 2) * 5000 + 1 * q.val = t.val * 5000 + q.val; omega
  | ⟨1, _⟩ => show win0_1.index t (1 : Fin 2) * 128 + 1 * k.val = k.val; omega

end Cert.KernelIdeal.Hand

end
-- ==== Proof.KI.Lin0Pay.lean ====
import proofs.«144042_j23673859736035_1_alg».proof.Proof.KI.Lin0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, as the kernel's arithmetic on the blocks

Every store of this kernel writes a whole buffer, so what a buffer holds after the body is the payload of the LAST store
into it; a load that follows a store of the same buffer reads that store's payload. -/

theorem off2_zero : (![0, 0] : Fin 2 → Nat) = fun _ => 0 := by
  funext a; fin_cases a <;> rfl

/-- Case A: the first block's lin. -/
theorem out0_A_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay6 x0 x2 x4 x1 x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case A: the zeroed first row plus the block's column sums. -/
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay7 x0 x2 x4 x1 x3 (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case A: the zeroed second row plus the block's column sums of squares. -/
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 : Vec F S5000x128 .f32) (x1 : Vec F S5000x128 .f32) (x2 : Vec F S128x256 .f32) (x3 : Vec F S128x256 .f32) (x4 : Vec F S1x256 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 (k0_pay8 x0 x2 x4 x1 x3 (k0_pay5 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case B: a middle block's lin. -/
theorem out0_B_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay6 x0 x2 x4 x1 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case B: the first row plus the block's column sums. -/
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x2 x4 x1 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case B: the second row plus the block's column sums of squares. -/
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay8 x0 x2 x4 x1 x3 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case C: the last block's lin. -/
theorem out0_C_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay6 x0 x2 x4 x1 x3 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case C: the first row plus the block's column sums. -/
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x2 x4 x1 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case C: the second row plus the block's column sums of squares. -/
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay8 x0 x2 x4 x1 x3 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case C: the mean: the final first row over the row count. -/
theorem out0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay2 (k0_pay7 x0 x2 x4 x1 x3 xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-- Case C: the variance: the final second row over the row count, minus the mean squared. -/
theorem out0_C_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S5000x128 .f32) (x1 : Vec F S5000x128 .f32) (x2 : Vec F S128x256 .f32) (x3 : Vec F S128x256 .f32) (x4 : Vec F S1x256 .f32) (xs0 : Vec F S1x256 .f32) (xs1 : Vec F S1x256 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay3 (k0_pay7 x0 x2 x4 x1 x3 xs0) (k0_pay1 (k0_pay8 x0 x2 x4 x1 x3 xs1)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C; dsimp only; sl_unfold_words
  first
  | rw [View.canon_unit_zero off2_zero]
  | rw [View.canon_cons_unit_zero off2_zero]
  simp only [View.readAt_eq_ld, harg1.read_unread, harg2.read_unread, harg3.read_unread, harg4.read_unread, harg5.read_unread,
    harg9.read_unread, harg10.read_unread, View.ld_unit_zero (S := S5000x128) off2_zero, View.ld_unit_zero (S := S128x256) off2_zero, View.ld_unit_zero (S := S1x256) off2_zero,
    View.readCov_unit_zero (S := S1x256) _ off2_zero]
  try rfl

/-! ## The accumulation, as arithmetic

With agg_t, h_t the row blocks at t and lin_t = agg_t · Wl + bl + h_t · Wr: the first scratch row after block n is
the sum over t ≤ n of the column sums of lin_t, started from zero; the second that of the squares. -/

variable (V : (c : Dev nD) → (b : Ref sig .tc) → Buf (Elt F) ((c : Thread nD τ).loc b))

/-- The two scratch rows after point n, by recursion on n over the kernel's own arithmetic. -/
def sPay0 (c : Dev nD) : (n : ℕ) → n < cfg0.N → Vec F S1x256 .f32 × Vec F S1x256 .f32
  | 0, hn =>
    (k0_pay7 (iblk0 V c 0 ⟨0, hn⟩) (iblk0 V c 2 ⟨0, hn⟩) (iblk0 V c 4 ⟨0, hn⟩) (iblk0 V c 1 ⟨0, hn⟩) (iblk0 V c 3 ⟨0, hn⟩) (k0_pay4 (F := F)),
     k0_pay1 (k0_pay8 (iblk0 V c 0 ⟨0, hn⟩) (iblk0 V c 2 ⟨0, hn⟩) (iblk0 V c 4 ⟨0, hn⟩) (iblk0 V c 1 ⟨0, hn⟩) (iblk0 V c 3 ⟨0, hn⟩) (k0_pay5 (F := F))))
  | n + 1, hn =>
    (k0_pay7 (iblk0 V c 0 ⟨n + 1, hn⟩) (iblk0 V c 2 ⟨n + 1, hn⟩) (iblk0 V c 4 ⟨n + 1, hn⟩) (iblk0 V c 1 ⟨n + 1, hn⟩) (iblk0 V c 3 ⟨n + 1, hn⟩) (sPay0 c n (Nat.lt_of_succ_lt hn)).1,
     k0_pay1 (k0_pay8 (iblk0 V c 0 ⟨n + 1, hn⟩) (iblk0 V c 2 ⟨n + 1, hn⟩) (iblk0 V c 4 ⟨n + 1, hn⟩) (iblk0 V c 1 ⟨n + 1, hn⟩) (iblk0 V c 3 ⟨n + 1, hn⟩) (sPay0 c n (Nat.lt_of_succ_lt hn)).2))

/-- What the body leaves in the scratch rows is that recursion. -/
theorem sAt0_eq_sPay0 (c : Dev nD) : ∀ (n : ℕ) (hn : n < cfg0.N), sAt0 V c n hn = sPay0 V c n hn
  | 0, hn => by
    unfold sAt0 sPay0
    rw [sout0_A_0_eq, sout0_A_1_eq]
  | n + 1, hn => by
    have ih := sAt0_eq_sPay0 c n (Nat.lt_of_succ_lt hn)
    unfold sAt0 sPay0
    by_cases h1 : n + 1 = 9
    · rw [dif_pos h1, sout0_C_0_eq, sout0_C_1_eq, ih]
    · rw [dif_neg h1, sout0_B_0_eq, sout0_B_1_eq, ih]

/-- At every point the block of lin the body leaves is agg_t · Wl + bl + h_t · Wr. -/
theorem lin0_eq (c : Dev nD) (t : Fin cfg0.N) : lin0 V c t = k0_pay6 (iblk0 V c 0 t) (iblk0 V c 2 t) (iblk0 V c 4 t) (iblk0 V c 1 t) (iblk0 V c 3 t) := by
  by_cases h0 : t.val = 0
  · rw [lin0_A V c t h0, out0_A_5_eq]
  · by_cases h1 : t.val = 9
    · rw [lin0_C V c t h0 h1, out0_C_5_eq]
    · rw [lin0_B V c t h0 h1, out0_B_5_eq]

/-- At the last block the mean's buffer is left at the final first scratch row divided by the row count. -/
theorem mean0_last (c : Dev nD) (t : Fin cfg0.N) (h1 : t.val = 9) :
    mean0 V c t = k0_pay2 (sAt0 V c t.val t.isLt).1 := by
  have h0 : t.val ≠ 0 := by omega
  rw [mean0_C V c t h0 h1, out0_C_6_eq, sAt0_C V c t h0 h1, sout0_C_0_eq]

/-- At the last block the variance's buffer is left at the final second scratch row divided by the row count, minus the
    square of the mean. -/
theorem var0_last (c : Dev nD) (t : Fin cfg0.N) (h1 : t.val = 9) :
    var0 V c t = k0_pay3 (sAt0 V c t.val t.isLt).1 (sAt0 V c t.val t.isLt).2 := by
  have h0 : t.val ≠ 0 := by omega
  rw [var0_C V c t h0 h1, out0_C_7_eq, sAt0_C V c t h0 h1, sout0_C_0_eq, sout0_C_1_eq]

end Cert.KernelIdeal.Hand

end
-- ==== Proof.KI.Lin0ValRows.lean ====
import proofs.«144042_j23673859736035_1_alg».proof.Proof.KI.Lin0Steps
import proofs.«144042_j23673859736035_1_alg».proof.Proof.KI.Lin0Pay

/-! # Region 0: the two carried rows are the running column sums

Point by point the row of sums is the row before plus the column sums of the point's linear block, from a zero row at
the first point, and the row of sums of squares likewise; at the exact values they are therefore, after point `n`, the
column sums (and sums of squares) of the linear values of the first `n + 1` row blocks, and after the last point of all
50000 rows. The last point stores the mean and the variance computed from them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried rows, point by point, over the whole weight and bias arrays -/

/-- After the first point: from zero rows. -/
theorem rowsFirst0 (c : Dev nD) (hn : 0 < cfg0.N) :
    (sPay0 V c 0 hn).1 = k0_pay7 (iblk0 V c 0 ⟨0, hn⟩) (V c (Pipeline.arrRef spec0 2)) (V c (Pipeline.arrRef spec0 4)) (iblk0 V c 1 ⟨0, hn⟩) (V c (Pipeline.arrRef spec0 3)) (k0_pay4 (F := F))
    ∧ (sPay0 V c 0 hn).2 = k0_pay8 (iblk0 V c 0 ⟨0, hn⟩) (V c (Pipeline.arrRef spec0 2)) (V c (Pipeline.arrRef spec0 4)) (iblk0 V c 1 ⟨0, hn⟩) (V c (Pipeline.arrRef spec0 3)) (k0_pay5 (F := F)) := by
  have ks : (sPay0 V c 0 hn).1 = k0_pay7 (iblk0 V c 0 ⟨0, hn⟩) (iblk0 V c 2 ⟨0, hn⟩) (iblk0 V c 4 ⟨0, hn⟩) (iblk0 V c 1 ⟨0, hn⟩) (iblk0 V c 3 ⟨0, hn⟩) (k0_pay4 (F := F)) := rfl
  have kq : (sPay0 V c 0 hn).2 = k0_pay1 (k0_pay8 (iblk0 V c 0 ⟨0, hn⟩) (iblk0 V c 2 ⟨0, hn⟩) (iblk0 V c 4 ⟨0, hn⟩) (iblk0 V c 1 ⟨0, hn⟩) (iblk0 V c 3 ⟨0, hn⟩) (k0_pay5 (F := F))) := rfl
  rw [wlBlock0, blBlock0, wrBlock0] at ks kq
  simp only [k0_pay1, shapeCast_self] at kq
  exact ⟨ks, kq⟩

/-- After a later point: from the rows the point before left. -/
theorem rowsStep0 (c : Dev nD) (n : ℕ) (hn : n + 1 < cfg0.N) :
    (sPay0 V c (n + 1) hn).1 = k0_pay7 (iblk0 V c 0 ⟨n + 1, hn⟩) (V c (Pipeline.arrRef spec0 2)) (V c (Pipeline.arrRef spec0 4)) (iblk0 V c 1 ⟨n + 1, hn⟩) (V c (Pipeline.arrRef spec0 3)) (sPay0 V c n (Nat.lt_of_succ_lt hn)).1
    ∧ (sPay0 V c (n + 1) hn).2 = k0_pay8 (iblk0 V c 0 ⟨n + 1, hn⟩) (V c (Pipeline.arrRef spec0 2)) (V c (Pipeline.arrRef spec0 4)) (iblk0 V c 1 ⟨n + 1, hn⟩) (V c (Pipeline.arrRef spec0 3)) (sPay0 V c n (Nat.lt_of_succ_lt hn)).2 := by
  have ks : (sPay0 V c (n + 1) hn).1 = k0_pay7 (iblk0 V c 0 ⟨n + 1, hn⟩) (iblk0 V c 2 ⟨n + 1, hn⟩) (iblk0 V c 4 ⟨n + 1, hn⟩) (iblk0 V c 1 ⟨n + 1, hn⟩) (iblk0 V c 3 ⟨n + 1, hn⟩) (sPay0 V c n (Nat.lt_of_succ_lt hn)).1 := rfl
  have kq : (sPay0 V c (n + 1) hn).2 = k0_pay1 (k0_pay8 (iblk0 V c 0 ⟨n + 1, hn⟩) (iblk0 V c 2 ⟨n + 1, hn⟩) (iblk0 V c 4 ⟨n + 1, hn⟩) (iblk0 V c 1 ⟨n + 1, hn⟩) (iblk0 V c 3 ⟨n + 1, hn⟩) (sPay0 V c n (Nat.lt_of_succ_lt hn)).2) := rfl
  rw [wlBlock0, blBlock0, wrBlock0] at ks kq
  simp only [k0_pay1, shapeCast_self] at kq
  exact ⟨ks, kq⟩

/-! ## At the exact values: the carried rows are the running column sums -/

section AtIdeal

-- the buffer contents when the region is entered, at the exact values
variable (VI : (c : Dev nD) → (b : Ref sig .tc) → Buf (Elt Ideal) ((c : Thread nD τ).loc b))

/-- The ten aggregated blocks and the ten feature blocks the points see. -/
abbrev aggBlocks0 (c : Dev nD) : Fin 10 → Vec Ideal S5000x128 .f32 := fun t => iblk0 VI c 0 (pt0 t)
abbrev featBlocks0 (c : Dev nD) : Fin 10 → Vec Ideal S5000x128 .f32 := fun t => iblk0 VI c 1 (pt0 t)

set_option maxHeartbeats 1000000 in
/-- After the first point the two rows are the running sums over one block. -/
theorem rowsBase0 (c : Dev nD) (hn : 0 < cfg0.N) :
    (sPay0 VI c 0 hn).1 = LinVal.sAt0 (aggBlocks0 VI c) (featBlocks0 VI c) (VI c (Pipeline.arrRef spec0 2)) (VI c (Pipeline.arrRef spec0 4)) (VI c (Pipeline.arrRef spec0 3)) 1 ∧ (sPay0 VI c 0 hn).2 = LinVal.qAt0 (aggBlocks0 VI c) (featBlocks0 VI c) (VI c (Pipeline.arrRef spec0 2)) (VI c (Pipeline.arrRef spec0 4)) (VI c (Pipeline.arrRef spec0 3)) 1 := by
  obtain ⟨ks, kq⟩ := rowsFirst0 VI c hn
  exact ⟨ks.trans (LinVal.sAt0_succ (aggBlocks0 VI c) (featBlocks0 VI c) (VI c (Pipeline.arrRef spec0 2)) (VI c (Pipeline.arrRef spec0 4)) (VI c (Pipeline.arrRef spec0 3)) (n := 0) (by decide)).symm,
    kq.trans (LinVal.qAt0_succ (aggBlocks0 VI c) (featBlocks0 VI c) (VI c (Pipeline.arrRef spec0 2)) (VI c (Pipeline.arrRef spec0 4)) (VI c (Pipeline.arrRef spec0 3)) (n := 0) (by decide)).symm⟩

set_option maxHeartbeats 1000000 in
/-- If they are the running sums over `n + 1` blocks after point `n`, they are those over `n + 2` after point `n + 1`. -/
theorem rowsSucc0 (c : Dev nD) (n : ℕ) (hn : n + 1 < cfg0.N)
    (ihs : (sPay0 VI c n (Nat.lt_of_succ_lt hn)).1 = LinVal.sAt0 (aggBlocks0 VI c) (featBlocks0 VI c) (VI c (Pipeline.arrRef spec0 2)) (VI c (Pipeline.arrRef spec0 4)) (VI c (Pipeline.arrRef spec0 3)) (n + 1))
    (ihq : (sPay0 VI c n (Nat.lt_of_succ_lt hn)).2 = LinVal.qAt0 (aggBlocks0 VI c) (featBlocks0 VI c) (VI c (Pipeline.arrRef spec0 2)) (VI c (Pipeline.arrRef spec0 4)) (VI c (Pipeline.arrRef spec0 3)) (n + 1)) :
    (sPay0 VI c (n + 1) hn).1 = LinVal.sAt0 (aggBlocks0 VI c) (featBlocks0 VI c) (VI c (Pipeline.arrRef spec0 2)) (VI c (Pipeline.arrRef spec0 4)) (VI c (Pipeline.arrRef spec0 3)) (n + 1 + 1) ∧ (sPay0 VI c (n + 1) hn).2 = LinVal.qAt0 (aggBlocks0 VI c) (featBlocks0 VI c) (VI c (Pipeline.arrRef spec0 2)) (VI c (Pipeline.arrRef spec0 4)) (VI c (Pipeline.arrRef spec0 3)) (n + 1 + 1) := by
  have hn10 : n + 1 < 10 := lt_of_lt_of_eq hn N_0
  obtain ⟨ks, kq⟩ := rowsStep0 VI c n hn
  rw [ihs] at ks
  rw [ihq] at kq
  exact ⟨ks.trans (LinVal.sAt0_succ (aggBlocks0 VI c) (featBlocks0 VI c) (VI c (Pipeline.arrRef spec0 2)) (VI c (Pipeline.arrRef spec0 4)) (VI c (Pipeline.arrRef spec0 3)) hn10).symm, kq.trans (LinVal.qAt0_succ (aggBlocks0 VI c) (featBlocks0 VI c) (VI c (Pipeline.arrRef spec0 2)) (VI c (Pipeline.arrRef spec0 4)) (VI c (Pipeline.arrRef spec0 3)) hn10).symm⟩

/-- After point `n` the two carried rows are the running column sums, and sums of squares, of the first `n + 1` blocks'
    linear values: by induction on the point. -/
theorem rows0_eq (c : Dev nD) (n : ℕ) : ∀ hn : n < cfg0.N,
    (sPay0 VI c n hn).1 = LinVal.sAt0 (aggBlocks0 VI c) (featBlocks0 VI c) (VI c (Pipeline.arrRef spec0 2)) (VI c (Pipeline.arrRef spec0 4)) (VI c (Pipeline.arrRef spec0 3)) (n + 1) ∧ (sPay0 VI c n hn).2 = LinVal.qAt0 (aggBlocks0 VI c) (featBlocks0 VI c) (VI c (Pipeline.arrRef spec0 2)) (VI c (Pipeline.arrRef spec0 4)) (VI c (Pipeline.arrRef spec0 3)) (n + 1) := by
  induction n with
  | zero => exact fun hn => rowsBase0 VI c hn
  | succ n ih => exact fun hn => rowsSucc0 VI c n hn (ih (Nat.lt_of_succ_lt hn)).1 (ih (Nat.lt_of_succ_lt hn)).2

set_option maxHeartbeats 1000000 in
/-- At the last point windows 6 and 7 end holding the mean and the variance computed from the completed rows. -/
theorem lastRows0 (c : Dev nD) (t : Fin cfg0.N) (h1 : t.val % 10 = 9) :
    mean0 VI c t = k0_pay2 (F := Ideal) (LinVal.sAt0 (aggBlocks0 VI c) (featBlocks0 VI c) (VI c (Pipeline.arrRef spec0 2)) (VI c (Pipeline.arrRef spec0 4)) (VI c (Pipeline.arrRef spec0 3)) 10)
    ∧ var0 VI c t = k0_pay3 (F := Ideal) (LinVal.sAt0 (aggBlocks0 VI c) (featBlocks0 VI c) (VI c (Pipeline.arrRef spec0 2)) (VI c (Pipeline.arrRef spec0 4)) (VI c (Pipeline.arrRef spec0 3)) 10) (LinVal.qAt0 (aggBlocks0 VI c) (featBlocks0 VI c) (VI c (Pipeline.arrRef spec0 2)) (VI c (Pipeline.arrRef spec0 4)) (VI c (Pipeline.arrRef spec0 3)) 10) := by
  have hN : cfg0.N = 10 := N_0
  have h9 : t.val = 9 := by have := t.isLt; omega
  have h10 : t.val + 1 = 10 := by omega
  obtain ⟨rs, rq⟩ := rows0_eq VI c t.val t.isLt
  have em := mean0_last VI c t h9
  have ev := var0_last VI c t h9
  rw [sAt0_eq_sPay0, rs] at em
  rw [sAt0_eq_sPay0, rs, rq] at ev
  rw [h10] at em ev
  exact ⟨em, ev⟩

end AtIdeal

end Cert.KernelIdeal.Hand

end
-- ==== Proof.KI.LinStatsSpecAt.lean ====
import proofs.«144042_j23673859736035_1_alg».proof.Proof.KI.LinStatsSpec

/-! # The mean and variance rows at an index

`meanRow L` and `varRow L` at an index of the [1,256] row whose column is `j`: the column's sums over the 50000 rows. -/

open scoped BigOperators

noncomputable section

namespace Cert.KernelIdeal.Hand

open Cert.KernelIdeal
open Idealize.ShloMosaic Idealize.ShloMosaic.ValueIdx

/-- The mean row at an index whose column is `j`. -/
theorem meanRow_apply (L : S50000x256.Idx → EReal) (i : S1x256.Idx) (j : Fin 256) (h : (i 1).val = j.val) :
    meanRow L i = Ideal.div (∑ R : Fin 50000, L (ix2 (n0 := 50000) (n1 := 256) R j)) (Ideal.ofBits .f32 0x47435000#32) := by
  obtain rfl : i = ix2 (n0 := 1) (n1 := 256) 0 j := by
    funext a; apply Fin.ext
    match a with
    | ⟨0, _⟩ => have h0 : (i 0).val < 1 := (i 0).isLt; show (i 0).val = 0; omega
    | ⟨1, _⟩ => exact h
  rfl

/-- The variance row at an index whose column is `j`. -/
theorem varRow_apply (L : S50000x256.Idx → EReal) (i : S1x256.Idx) (j : Fin 256) (h : (i 1).val = j.val) :
    varRow L i = Ideal.div (∑ R : Fin 50000, L (ix2 (n0 := 50000) (n1 := 256) R j) * L (ix2 (n0 := 50000) (n1 := 256) R j)) (Ideal.ofBits .f32 0x47435000#32)
      - Ideal.div (∑ R : Fin 50000, L (ix2 (n0 := 50000) (n1 := 256) R j)) (Ideal.ofBits .f32 0x47435000#32)
        * Ideal.div (∑ R : Fin 50000, L (ix2 (n0 := 50000) (n1 := 256) R j)) (Ideal.ofBits .f32 0x47435000#32) := by
  obtain rfl : i = ix2 (n0 := 1) (n1 := 256) 0 j := by
    funext a; apply Fin.ext
    match a with
    | ⟨0, _⟩ => have h0 : (i 0).val < 1 := (i 0).isLt; show (i 0).val = 0; omega
    | ⟨1, _⟩ => exact h
  rfl

end Cert.KernelIdeal.Hand

end
-- ==== Proof.KI.Lin0Val.lean ====
import proofs.«144042_j23673859736035_1_alg».proof.Proof.KI.Lin0ValRows
import proofs.«144042_j23673859736035_1_alg».proof.Proof.KI.LinStatsSpecAt

/-! # Region 0: the three output arrays as functions of the five input arrays

At the exact values, after the region's ten points: the [50000,256] output array is the linear layer of the whole
aggregated and feature arrays — every point writes back its row block, and the ten blocks fill the array —; the mean
and variance rows, written back by the last point alone as their single block, are the column means of the linear
array and its column mean squares minus the squared means, the divisor the float 50000. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stored linear block at row `q`, column `j`, when the two input blocks' row `q` is row `R` of the whole arrays,
    is the linear array at `(R, j)`. -/
theorem stored_eq_linArr128 (X Y : S50000x128.Idx → EReal) (Wl Wr : S128x256.Idx → EReal) (bl : S1x256.Idx → EReal)
    (x0 x1 : Vec Ideal S5000x128 .f32) (q : Fin 5000) (jj : Fin 256) (R : Fin 50000) (i : S50000x256.Idx)
    (hR : (i 0).val = R.val) (hj : (i 1).val = jj.val)
    (h0 : ∀ k : Fin 128, x0 (ix2 (n0 := 5000) (n1 := 128) q k) = X (ix2 (n0 := 50000) (n1 := 128) R k))
    (h1 : ∀ k : Fin 128, x1 (ix2 (n0 := 5000) (n1 := 128) q k) = Y (ix2 (n0 := 50000) (n1 := 128) R k)) :
    k0_pay6 (F := Ideal) x0 Wl bl x1 Wr (ix2 (n0 := 5000) (n1 := 256) q jj) = linArr128 X Y Wl Wr bl i := by
  obtain rfl : i = ix2 (n0 := 50000) (n1 := 256) R jj := by
    funext a; apply Fin.ext
    match a with
    | ⟨0, _⟩ => exact hR
    | ⟨1, _⟩ => exact hj
  refine (LinVal.k0_pay6_apply x0 Wl bl x1 Wr q jj).trans ?_
  simp only [h0, h1]
  rfl

/-! ## From blocks to the arrays -/

section Arrays

variable (VI : (c : Dev nD) → (b : Ref sig .tc) → Buf (Elt Ideal) ((c : Thread nD τ).loc b))

/-- The linear value of row `R`, column `j`, of the ten blocks is the linear array's entry there: the blocks are the row
    blocks of the two whole input arrays. -/
theorem linRow0_eq (c : Dev nD) (R : Fin 50000) (j : Fin 256) :
    LinVal.lin0 (aggBlocks0 VI c) (featBlocks0 VI c) (VI c (Pipeline.arrRef spec0 2)) (VI c (Pipeline.arrRef spec0 4)) (VI c (Pipeline.arrRef spec0 3)) R j = (linArr128 (VI c (Pipeline.arrRef spec0 0)) (VI c (Pipeline.arrRef spec0 1)) (VI c (Pipeline.arrRef spec0 2)) (VI c (Pipeline.arrRef spec0 3)) (VI c (Pipeline.arrRef spec0 4))) (ix2 (n0 := 50000) (n1 := 256) R j) :=
  LinVal.lin0_of_rows _ _ _ _ _ (VI c (Pipeline.arrRef spec0 0)) (VI c (Pipeline.arrRef spec0 1)) (fun t q k => aggBlock0_read VI c (pt0 t) q k)
    (fun t q k => featBlock0_read VI c (pt0 t) q k) R j

set_option maxHeartbeats 1000000 in
/-- Point `t` writes back block `t` of the linear array. -/
theorem flushedLin0_eq (c : Dev nD) (t : Fin cfg0.N) :
    (dat0 VI c).flushed 5 t = ((cfg0.win 5).blk t).view.read (Elt Ideal) (linArr128 (VI c (Pipeline.arrRef spec0 0)) (VI c (Pipeline.arrRef spec0 1)) (VI c (Pipeline.arrRef spec0 2)) (VI c (Pipeline.arrRef spec0 3)) (VI c (Pipeline.arrRef spec0 4))) := by
  obtain ⟨-, -, -, -, -, -, -, -, -, -, e50, e51, -, -, -, -⟩ := blockIdx0 t
  show (cfg0.win 5).cut (grid0.coords t) ((dat0 VI c).after 5 t) = _
  rw [after0_5, lin0_eq, wlBlock0, blBlock0, wrBlock0]
  refine funext fun (j : S5000x256.Idx) => ?_
  obtain ⟨q, jj, rfl⟩ : ∃ (q : Fin 5000) (jj : Fin 256), j = ix2 q jj := ⟨j 0, j 1, eq_ix2 j⟩
  refine stored_eq_linArr128 _ _ _ _ _ _ _ q jj (LinVal.rowOf (ten0 t) q) (((cfg0.win 5).blk t).view.emb (ix2 (n0 := 5000) (n1 := 256) q jj)) ?_ ?_
    (fun k => aggBlock0_read VI c t q k) (fun k => featBlock0_read VI c t q k)
  · show win0_5.index t (0 : Fin 2) * 5000 + 1 * q.val = t.val * 5000 + q.val; omega
  · show win0_5.index t (1 : Fin 2) * 256 + 1 * jj.val = jj.val; omega

/-- An index of the linear array is in point `t`'s block iff each coordinate is in the block's range on its axis. -/
theorem mem_linBlock0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v30_0).slice (win0_5.rect t)).set ↔ _
  rw [View.set_slice_whole, Rect.mem_set_unit]
  exact Iff.rfl

/-- The ten row blocks fill the linear array: row `r` lies in the block of point `r / 5000`. -/
theorem linCover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 5000 < grid0.N := by rw [N_0]; omega
  obtain ⟨-, -, -, -, -, -, -, -, -, -, e50, e51, -, -, -, -⟩ := blockIdx0 ⟨(i 0).val / 5000, hN⟩
  have e50' : win0_5.index ⟨(i 0).val / 5000, hN⟩ (0 : Fin 2) = (i 0).val / 5000 := e50
  refine ⟨⟨(i 0).val / 5000, hN⟩, flush0_5 _, ?_⟩
  rw [mem_linBlock0]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; omega
  | ⟨1, _⟩ => show win0_5.index ⟨(i 0).val / 5000, hN⟩ (1 : Fin 2) * 256 ≤ (i 1).val ∧ (i 1).val < win0_5.index ⟨(i 0).val / 5000, hN⟩ (1 : Fin 2) * 256 + 256; omega

/-- THE LINEAR ARRAY after the region's ten points. -/
theorem lin_array0 (c : Dev nD) : (dat0 VI c).arrAt 5 cfg0.N = (linArr128 (VI c (Pipeline.arrRef spec0 0)) (VI c (Pipeline.arrRef spec0 1)) (VI c (Pipeline.arrRef spec0 2)) (VI c (Pipeline.arrRef spec0 3)) (VI c (Pipeline.arrRef spec0 4))) :=
  (dat0 VI c).arrAt_eq_of_cover 5 _ (fun t _ => flushedLin0_eq VI c t) linCover0

set_option maxHeartbeats 1000000 in
/-- The last point — the only one that writes window 6 back — writes `meanRow` of the linear array. -/
theorem flushedMean0_eq (c : Dev nD) (t : Fin cfg0.N) (hf : (cfg0.win 6).flush t = true) :
    (dat0 VI c).flushed 6 t = ((cfg0.win 6).blk t).view.read (Elt Ideal) (meanRow (linArr128 (VI c (Pipeline.arrRef spec0 0)) (VI c (Pipeline.arrRef spec0 1)) (VI c (Pipeline.arrRef spec0 2)) (VI c (Pipeline.arrRef spec0 3)) (VI c (Pipeline.arrRef spec0 4)))) := by
  have h1 : t.val % 10 = 9 := (flush0_6 t).mp hf
  obtain ⟨-, -, -, -, -, -, -, -, -, -, -, -, e60, e61, e70, e71⟩ := blockIdx0 t
  show (cfg0.win 6).cut (grid0.coords t) ((dat0 VI c).after 6 t) = _
  rw [after0_6, (lastRows0 VI c t h1).1]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.mean0_apply (aggBlocks0 VI c) (featBlocks0 VI c) (VI c (Pipeline.arrRef spec0 2)) (VI c (Pipeline.arrRef spec0 4)) (VI c (Pipeline.arrRef spec0 3)) jj).trans ?_
  refine Eq.trans ?_ (meanRow_apply (linArr128 (VI c (Pipeline.arrRef spec0 0)) (VI c (Pipeline.arrRef spec0 1)) (VI c (Pipeline.arrRef spec0 2)) (VI c (Pipeline.arrRef spec0 3)) (VI c (Pipeline.arrRef spec0 4))) (((cfg0.win 6).blk t).view.emb (ix2 (n0 := 1) (n1 := 256) 0 jj)) jj ?_).symm
  · simp only [linRow0_eq VI c]
  · show win0_6.index t (1 : Fin 2) * 256 + 1 * jj.val = jj.val; omega

/-- The single block of window 6 is its whole [1,256] array. -/
theorem meanCover0 (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  have h9 : 9 < grid0.N := by rw [N_0]; decide
  obtain ⟨-, -, -, -, -, -, -, -, -, -, -, -, e60, e61, e70, e71⟩ := blockIdx0 ⟨9, h9⟩
  refine ⟨⟨9, h9⟩, (flush0_6 _).mpr rfl, ?_⟩
  show i ∈ ((View.whole main_v30_1).slice (win0_6.rect ⟨9, h9⟩)).set
  rw [View.set_slice_whole, Rect.mem_set_unit]
  intro a
  match a with
  | ⟨0, _⟩ => show win0_6.index ⟨9, h9⟩ (0 : Fin 2) * 1 ≤ (i 0).val ∧ (i 0).val < win0_6.index ⟨9, h9⟩ (0 : Fin 2) * 1 + 1; omega
  | ⟨1, _⟩ => show win0_6.index ⟨9, h9⟩ (1 : Fin 2) * 256 ≤ (i 1).val ∧ (i 1).val < win0_6.index ⟨9, h9⟩ (1 : Fin 2) * 256 + 256; omega

/-- THE MEAN ROW after the region. -/
theorem mean_array0 (c : Dev nD) : (dat0 VI c).arrAt 6 cfg0.N = meanRow (linArr128 (VI c (Pipeline.arrRef spec0 0)) (VI c (Pipeline.arrRef spec0 1)) (VI c (Pipeline.arrRef spec0 2)) (VI c (Pipeline.arrRef spec0 3)) (VI c (Pipeline.arrRef spec0 4))) :=
  (dat0 VI c).arrAt_eq_of_cover 6 _ (fun t hf => flushedMean0_eq VI c t hf) meanCover0

set_option maxHeartbeats 1000000 in
/-- The last point — the only one that writes window 7 back — writes `varRow` of the linear array. -/
theorem flushedVar0_eq (c : Dev nD) (t : Fin cfg0.N) (hf : (cfg0.win 7).flush t = true) :
    (dat0 VI c).flushed 7 t = ((cfg0.win 7).blk t).view.read (Elt Ideal) (varRow (linArr128 (VI c (Pipeline.arrRef spec0 0)) (VI c (Pipeline.arrRef spec0 1)) (VI c (Pipeline.arrRef spec0 2)) (VI c (Pipeline.arrRef spec0 3)) (VI c (Pipeline.arrRef spec0 4)))) := by
  have h1 : t.val % 10 = 9 := (flush0_7 t).mp hf
  obtain ⟨-, -, -, -, -, -, -, -, -, -, -, -, e60, e61, e70, e71⟩ := blockIdx0 t
  show (cfg0.win 7).cut (grid0.coords t) ((dat0 VI c).after 7 t) = _
  rw [after0_7, (lastRows0 VI c t h1).2]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.var0_apply (aggBlocks0 VI c) (featBlocks0 VI c) (VI c (Pipeline.arrRef spec0 2)) (VI c (Pipeline.arrRef spec0 4)) (VI c (Pipeline.arrRef spec0 3)) jj).trans ?_
  refine Eq.trans ?_ (varRow_apply (linArr128 (VI c (Pipeline.arrRef spec0 0)) (VI c (Pipeline.arrRef spec0 1)) (VI c (Pipeline.arrRef spec0 2)) (VI c (Pipeline.arrRef spec0 3)) (VI c (Pipeline.arrRef spec0 4))) (((cfg0.win 7).blk t).view.emb (ix2 (n0 := 1) (n1 := 256) 0 jj)) jj ?_).symm
  · simp only [linRow0_eq VI c]
  · show win0_7.index t (1 : Fin 2) * 256 + 1 * jj.val = jj.val; omega

/-- The single block of window 7 is its whole [1,256] array. -/
theorem varCover0 (i : S1x256.Idx) :
    ∃ t : Fin cfg0.N, (cfg0.win 7).flush t = true ∧ i ∈ ((cfg0.win 7).blk t).view.set := by
  have hi0 : (i 0).val < 1 := (i 0).isLt
  have hi1 : (i 1).val < 256 := (i 1).isLt
  have h9 : 9 < grid0.N := by rw [N_0]; decide
  obtain ⟨-, -, -, -, -, -, -, -, -, -, -, -, e60, e61, e70, e71⟩ := blockIdx0 ⟨9, h9⟩
  refine ⟨⟨9, h9⟩, (flush0_7 _).mpr rfl, ?_⟩
  show i ∈ ((View.whole main_v30_2).slice (win0_7.rect ⟨9, h9⟩)).set
  rw [View.set_slice_whole, Rect.mem_set_unit]
  intro a
  match a with
  | ⟨0, _⟩ => show win0_7.index ⟨9, h9⟩ (0 : Fin 2) * 1 ≤ (i 0).val ∧ (i 0).val < win0_7.index ⟨9, h9⟩ (0 : Fin 2) * 1 + 1; omega
  | ⟨1, _⟩ => show win0_7.index ⟨9, h9⟩ (1 : Fin 2) * 256 ≤ (i 1).val ∧ (i 1).val < win0_7.index ⟨9, h9⟩ (1 : Fin 2) * 256 + 256; omega

/-- THE VARIANCE ROW after the region. -/
theorem var_array0 (c : Dev nD) : (dat0 VI c).arrAt 7 cfg0.N = varRow (linArr128 (VI c (Pipeline.arrRef spec0 0)) (VI c (Pipeline.arrRef spec0 1)) (VI c (Pipeline.arrRef spec0 2)) (VI c (Pipeline.arrRef spec0 3)) (VI c (Pipeline.arrRef spec0 4))) :=
  (dat0 VI c).arrAt_eq_of_cover 7 _ (fun t hf => flushedVar0_eq VI c t hf) varCover0

end Arrays

end Cert.KernelIdeal.Hand

end
-- ==== Proof.KI.NormElt.lean ====
import proofs.«144042_j23673859736035_1_alg».proof.Proof.Gen.KernelIdeal
import Idealize.ShloMosaic.Lib.Pipeline.Value
import Idealize.ShloMosaic.Lib.ValueIdx

/-! # The normalising regions' arithmetic, one element at a time

Each of the three normalising regions computes, at row `r` and column `j`,
`leaky ((x r j − μ j) · (γ j · rsqrt (v j + ε)) + β j)` with `leaky y = y` for `y > 0` and `slope · y` otherwise.
This file names that function of five arrays (`normG`), for any float model `F`, and reads a broadcast row at an index. -/

noncomputable section

namespace Cert.KernelIdeal.Hand

open Cert.KernelIdeal Cert.KernelIdeal.Gen
open Idealize.ShloMosaic Idealize.ShloMosaic.ValueIdx

variable {F : FTy → Type} [FloatOps F]

/-! ## One element of the normalised output -/

/-- The affine part at one element: `(x − μ) · (γ · rsqrt (v + ε)) + β`, with `ε` the float nearest `10⁻⁵`. -/
def normAff (x μ v γ β : F .f32) : F .f32 :=
  FloatOps.addf (FloatOps.mulf (FloatOps.subf x μ) (FloatOps.mulf γ (FloatOps.rsqrt (FloatOps.addf v (Scalar.ofBits .f32 0x3727C5AC#32))))) β

/-- The leaky rectifier of it: `y` where `y > 0`, `slope · y` elsewhere. -/
def normElt (x μ v γ β : F .f32) : F .f32 :=
  Scalar.select (FloatOps.cmpf .ogt (normAff x μ v γ β) (Scalar.ofBits .f32 0x00000000#32)) (normAff x μ v γ β)
    (FloatOps.mulf (Scalar.ofBits .f32 0x3D2F8D5C#32) (normAff x μ v γ β))

/-- The whole normalised array: element `(r, j)` from element `(r, j)` of the linear outputs `a0` and column `j` of the
    four rows `a1` (mean), `a2` (variance), `a3` (scale), `a4` (shift). -/
def normG (a0 : S50000x256.Idx → Elt F .f32) (a1 a2 a3 a4 : S1x256.Idx → Elt F .f32) : S50000x256.Idx → Elt F .f32 :=
  fun i => normElt (a0 i) (a1 (ix2 (n0 := 1) (n1 := 256) 0 (i 1))) (a2 (ix2 (n0 := 1) (n1 := 256) 0 (i 1)))
    (a3 (ix2 (n0 := 1) (n1 := 256) 0 (i 1))) (a4 (ix2 (n0 := 1) (n1 := 256) 0 (i 1)))

/-- A [1,256] row broadcast along 5000 rows reads, at `(r, j)`, the row's column `j`. -/
theorem rowBroadcast_apply {α : Type} (x : S1x256.Idx → α) (j : S5000x256.Idx) :
    broadcastTo S5000x256 x broadcasts_S1x256_S5000x256 j = x (ix2 (n0 := 1) (n1 := 256) 0 (j 1)) :=
  broadcastTo_apply x _ j _ (fun a => match a with | ⟨0, _⟩ => rfl | ⟨1, _⟩ => rfl)

/-- The offsets of a whole-buffer access are all zero. -/
theorem zeroOffsets : (![0, 0] : Fin 2 → Nat) = fun _ => 0 := funext fun a => by fin_cases a <;> rfl

end Cert.KernelIdeal.Hand

end
-- ==== Proof.KI.Lin2Pieces.lean ====
import proofs.«144042_j23673859736035_1_alg».proof.Proof.KI.Lin2
import Idealize.ShloMosaic.Lib.Pipeline.Value
import Idealize.ShloMosaic.Lib.ValueIdx
import Idealize.ShloMosaic.Lib.Tactic
import proofs.«144042_j23673859736035_1_alg».proof.Proof.KI.NormElt

/-! # Region 2 (linear layer with running column statistics): each control case's stores as the body's arithmetic

The body has three control cases — the first point, a middle point, the last point. In each, window 5 ends holding the
linear block of the point's inputs; the row of sums ends holding the row before plus the block's column sums (the row
before being zero at the first point), the row of sums of squares likewise; and at the last point windows 6 and 7 end
holding the mean and the variance computed from the two rows just stored. For any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

/-! ## What each control case leaves, as the body's arithmetic of the blocks

`x0` the aggregated block, `x1` the feature block, `x2`, `x3` the two weight matrices, `x4` the bias row; `xs0`, `xs1` the
rows of sums and of sums of squares the point before left. -/

section Pieces
variable (c : Dev nD) (i : grid2.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32) (xs0 : Vec F S1x256 .f32) (xs1 : Vec F S1x256 .f32)

theorem lin2_A_eq (hc0 : cond2_0 i) (hc1 : ¬cond2_1 i) :
    lin2_A c i arg1 harg1 arg2 harg2 arg3 harg3 arg4 harg4 arg5 harg5 arg6 harg6 arg7 harg7 arg8 harg8 arg9 harg9 arg10 harg10 x0 x1 x2 x3 x4 hc0 hc1 = k2_pay6 x0 x2 x4 x1 x3 := by
  unfold lin2_A
  rw [View.read_writes_eq_canon _ _ _ (cover2_A_5 c i arg1 harg1 arg2 harg2 arg3 harg3 arg4 harg4 arg5 harg5 arg6 harg6 arg7 harg7 arg8 harg8 arg9 harg9 arg10 harg10 x0 x1 x2 x3 x4 hc0 hc1)]
  unfold kernelRun2_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sum2_A_eq (hc0 : cond2_0 i) (hc1 : ¬cond2_1 i) :
    sum2_A c i arg1 harg1 arg2 harg2 arg3 harg3 arg4 harg4 arg5 harg5 arg6 harg6 arg7 harg7 arg8 harg8 arg9 harg9 arg10 harg10 x0 x1 x2 x3 x4 hc0 hc1 = k2_pay7 x0 x2 x4 x1 x3 (k2_pay4 (F := F)) := by
  unfold sum2_A
  rw [View.read_writes_eq_canon _ _ _ (scover2_A_0 c i arg1 harg1 arg2 harg2 arg3 harg3 arg4 harg4 arg5 harg5 arg6 harg6 arg7 harg7 arg8 harg8 arg9 harg9 arg10 harg10 x0 x1 x2 x3 x4 hc0 hc1)]
  unfold kernelRun2_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sq2_A_eq (hc0 : cond2_0 i) (hc1 : ¬cond2_1 i) :
    sq2_A c i arg1 harg1 arg2 harg2 arg3 harg3 arg4 harg4 arg5 harg5 arg6 harg6 arg7 harg7 arg8 harg8 arg9 harg9 arg10 harg10 x0 x1 x2 x3 x4 hc0 hc1 = k2_pay8 x0 x2 x4 x1 x3 (k2_pay5 (F := F)) := by
  unfold sq2_A
  rw [View.read_writes_eq_canon _ _ _ (scover2_A_1 c i arg1 harg1 arg2 harg2 arg3 harg3 arg4 harg4 arg5 harg5 arg6 harg6 arg7 harg7 arg8 harg8 arg9 harg9 arg10 harg10 x0 x1 x2 x3 x4 hc0 hc1)]
  unfold kernelRun2_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem lin2_B_eq (hc0 : ¬cond2_0 i) (hc1 : ¬cond2_1 i) :
    lin2_B c i arg1 harg1 arg2 harg2 arg3 harg3 arg4 harg4 arg5 harg5 arg6 harg6 arg7 harg7 arg8 harg8 arg9 harg9 arg10 harg10 x0 x1 x2 x3 x4 xs0 xs1 hc0 hc1 = k2_pay6 x0 x2 x4 x1 x3 := by
  unfold lin2_B
  rw [View.read_writes_eq_canon _ _ _ (cover2_B_5 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sum2_B_eq (hc0 : ¬cond2_0 i) (hc1 : ¬cond2_1 i) :
    sum2_B c i arg1 harg1 arg2 harg2 arg3 harg3 arg4 harg4 arg5 harg5 arg6 harg6 arg7 harg7 arg8 harg8 arg9 harg9 arg10 harg10 x0 x1 x2 x3 x4 xs0 xs1 hc0 hc1 = k2_pay7 x0 x2 x4 x1 x3 xs0 := by
  unfold sum2_B
  rw [View.read_writes_eq_canon _ _ _ (scover2_B_0 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sq2_B_eq (hc0 : ¬cond2_0 i) (hc1 : ¬cond2_1 i) :
    sq2_B c i arg1 harg1 arg2 harg2 arg3 harg3 arg4 harg4 arg5 harg5 arg6 harg6 arg7 harg7 arg8 harg8 arg9 harg9 arg10 harg10 x0 x1 x2 x3 x4 xs0 xs1 hc0 hc1 = k2_pay8 x0 x2 x4 x1 x3 xs1 := by
  unfold sq2_B
  rw [View.read_writes_eq_canon _ _ _ (scover2_B_1 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem lin2_C_eq (hc0 : ¬cond2_0 i) (hc1 : cond2_1 i) :
    lin2_C c i arg1 harg1 arg2 harg2 arg3 harg3 arg4 harg4 arg5 harg5 arg6 harg6 arg7 harg7 arg8 harg8 arg9 harg9 arg10 harg10 x0 x1 x2 x3 x4 xs0 xs1 hc0 hc1 = k2_pay6 x0 x2 x4 x1 x3 := by
  unfold lin2_C
  rw [View.read_writes_eq_canon _ _ _ (cover2_C_5 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sum2_C_eq (hc0 : ¬cond2_0 i) (hc1 : cond2_1 i) :
    sum2_C c i arg1 harg1 arg2 harg2 arg3 harg3 arg4 harg4 arg5 harg5 arg6 harg6 arg7 harg7 arg8 harg8 arg9 harg9 arg10 harg10 x0 x1 x2 x3 x4 xs0 xs1 hc0 hc1 = k2_pay7 x0 x2 x4 x1 x3 xs0 := by
  unfold sum2_C
  rw [View.read_writes_eq_canon _ _ _ (scover2_C_0 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem sq2_C_eq (hc0 : ¬cond2_0 i) (hc1 : cond2_1 i) :
    sq2_C c i arg1 harg1 arg2 harg2 arg3 harg3 arg4 harg4 arg5 harg5 arg6 harg6 arg7 harg7 arg8 harg8 arg9 harg9 arg10 harg10 x0 x1 x2 x3 x4 xs0 xs1 hc0 hc1 = k2_pay8 x0 x2 x4 x1 x3 xs1 := by
  unfold sq2_C
  rw [View.read_writes_eq_canon _ _ _ (scover2_C_1 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem mean2_C_eq (hc0 : ¬cond2_0 i) (hc1 : cond2_1 i) :
    mean2_C c i arg1 harg1 arg2 harg2 arg3 harg3 arg4 harg4 arg5 harg5 arg6 harg6 arg7 harg7 arg8 harg8 arg9 harg9 arg10 harg10 x0 x1 x2 x3 x4 xs0 xs1 hc0 hc1 = k2_pay2 (k2_pay7 x0 x2 x4 x1 x3 xs0) := by
  unfold mean2_C
  rw [View.read_writes_eq_canon _ _ _ (cover2_C_6 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

theorem var2_C_eq (hc0 : ¬cond2_0 i) (hc1 : cond2_1 i) :
    var2_C c i arg1 harg1 arg2 harg2 arg3 harg3 arg4 harg4 arg5 harg5 arg6 harg6 arg7 harg7 arg8 harg8 arg9 harg9 arg10 harg10 x0 x1 x2 x3 x4 xs0 xs1 hc0 hc1 = k2_pay3 (k2_pay7 x0 x2 x4 x1 x3 xs0) (k2_pay8 x0 x2 x4 x1 x3 xs1) := by
  unfold var2_C
  rw [View.read_writes_eq_canon _ _ _ (cover2_C_7 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun2_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k2_pay1, shapeCast_self]

end Pieces

end Cert.KernelIdeal.Hand

end
-- ==== Proof.KI.LinPay2.lean ====
import proofs.«144042_j23673859736035_1_alg».proof.Proof.Gen.KernelIdeal.Skeleton
import proofs.«144042_j23673859736035_1_alg».proof.Proof.KI.LinCol

/-! # The values one grid point of the second layer's linear-and-statistics region (inner width 256) computes, read entry by entry

At one grid point the body holds a block `a` of 5000 rows of the aggregated features and the block `h` of the same 5000
rows of the features themselves (each [5000,256]), two weight matrices `Wl`, `Wr` ([256,256]) and a bias row `b`
([1,256]). At the exact values it computes

* the linear block: at row `r`, column `j`:  Σₖ a(r,k)·Wl(k,j) + b(0,j) + Σₖ h(r,k)·Wr(k,j);
* the running column sum: the carried row plus, at column `j`, the sum of the linear block's column `j` over the 5000 rows;
* the running column sum of squares: the same with each entry of the linear block squared;
* at the first point the two carried rows are zero rows;
* at the last point the mean row, carried sum / 50000, and the variance row, carried sum of squares / 50000 − mean².

The divisor 50000 stays the float word it is written as; the same word stands on the other side of any comparison, so
it is never evaluated. -/

open scoped BigOperators

noncomputable section

namespace Cert.KernelIdeal.LinVal

open Cert.KernelIdeal Cert.KernelIdeal.Gen
open Idealize.ShloMosaic Idealize.ShloMosaic.ValueIdx

/-- The linear block at row `r`, column `j`: the aggregated row times `Wl`, plus the bias, plus the feature row times
    `Wr`. The casts to the same shape are identities and the bias row is repeated down the 5000 rows. -/
theorem k2_pay6_apply (a : Vec Ideal S5000x256 .f32) (Wl : Vec Ideal S256x256 .f32) (b : Vec Ideal S1x256 .f32)
    (h : Vec Ideal S5000x256 .f32) (Wr : Vec Ideal S256x256 .f32) (r : Fin 5000) (j : Fin 256) :
    k2_pay6 (F := Ideal) a Wl b h Wr (ix2 r j)
      = (∑ k : Fin 256, a (ix2 r k) * Wl (ix2 k j)) + b (ix2 (0 : Fin 1) j)
          + ∑ k : Fin 256, h (ix2 r k) * Wr (ix2 k j) := by
  unfold k2_pay6
  simp only [shapeCast_self]
  rw [addf_apply, addf_apply, matmul256_apply, matmul256_apply, broadcastTo_1b_ab_apply]

/-- The carried sum row after a point, at column `j`: what was carried plus the sum over the block's 5000 rows of the
    linear block's column `j`. -/
theorem k2_pay7_apply (a : Vec Ideal S5000x256 .f32) (Wl : Vec Ideal S256x256 .f32) (b : Vec Ideal S1x256 .f32)
    (h : Vec Ideal S5000x256 .f32) (Wr : Vec Ideal S256x256 .f32) (s : Vec Ideal S1x256 .f32) (j : Fin 256) :
    k2_pay7 (F := Ideal) a Wl b h Wr s (ix2 (0 : Fin 1) j)
      = s (ix2 (0 : Fin 1) j) + ∑ r : Fin 5000, k2_pay6 (F := Ideal) a Wl b h Wr (ix2 r j) := by
  unfold k2_pay7
  simp only [shapeCast_self]
  rw [addf_apply, shapeCast_a_1a_apply]
  exact congrArg (s (ix2 (0 : Fin 1) j) + ·) (colsum_apply _ _ _ j)

/-- The carried sum-of-squares row after a point, at column `j`: what was carried plus the sum over the block's 5000
    rows of the square of the linear block's entry in column `j`. -/
theorem k2_pay8_apply (a : Vec Ideal S5000x256 .f32) (Wl : Vec Ideal S256x256 .f32) (b : Vec Ideal S1x256 .f32)
    (h : Vec Ideal S5000x256 .f32) (Wr : Vec Ideal S256x256 .f32) (q : Vec Ideal S1x256 .f32) (j : Fin 256) :
    k2_pay8 (F := Ideal) a Wl b h Wr q (ix2 (0 : Fin 1) j)
      = q (ix2 (0 : Fin 1) j)
          + ∑ r : Fin 5000, k2_pay6 (F := Ideal) a Wl b h Wr (ix2 r j) * k2_pay6 (F := Ideal) a Wl b h Wr (ix2 r j) := by
  unfold k2_pay8
  rw [addf_apply, shapeCast_a_1a_apply]
  exact congrArg (q (ix2 (0 : Fin 1) j) + ·) (colsum_apply _ _ _ j)

/-- The sum row the first point starts from is the zero row. -/
theorem k2_pay4_apply (i : S1x256.Idx) : k2_pay4 (F := Ideal) i = 0 := by
  unfold k2_pay4
  simp only [shapeCast_self]
  exact Ideal.ofBits_zero_f32

/-- The sum-of-squares row the first point starts from is the zero row. -/
theorem k2_pay5_apply (i : S1x256.Idx) : k2_pay5 (F := Ideal) i = 0 := by
  unfold k2_pay5
  simp only [shapeCast_self]
  exact Ideal.ofBits_zero_f32

/-- The cast of a [1,256] row to its own shape is the row. -/
theorem k2_pay1_eq (q : FVec Ideal S1x256 .f32) : k2_pay1 (F := Ideal) q = q := by
  unfold k2_pay1
  exact shapeCast_self _ _

/-- The mean row: the carried sum divided by the float 50000, entry by entry. -/
theorem k2_pay2_apply (s : Vec Ideal S1x256 .f32) (i : S1x256.Idx) :
    k2_pay2 (F := Ideal) s i = Ideal.div (s i) (Ideal.ofBits .f32 0x47435000#32) := rfl

/-- The variance row: the carried sum of squares divided by the float 50000, minus the square of the mean, entry by
    entry. -/
theorem k2_pay3_apply (s q : Vec Ideal S1x256 .f32) (i : S1x256.Idx) :
    k2_pay3 (F := Ideal) s q i
      = Ideal.div (q i) (Ideal.ofBits .f32 0x47435000#32)
          - Ideal.div (s i) (Ideal.ofBits .f32 0x47435000#32) * Ideal.div (s i) (Ideal.ofBits .f32 0x47435000#32) := rfl

end Cert.KernelIdeal.LinVal
-- ==== Proof.KI.LinSum2.lean ====
import proofs.«144042_j23673859736035_1_alg».proof.Proof.KI.LinRun
import proofs.«144042_j23673859736035_1_alg».proof.Proof.KI.LinPay2

/-! # The column statistics the ten grid points accumulate (inner width 256)

The region runs its body at ten grid points `t = 0 … 9`; point `t` sees block `t` — rows 5000·t … 5000·t + 4999 — of the
aggregated features and of the features, here any two families `A`, `H` of ten [5000,256] blocks, with the same weights
`Wl`, `Wr` and bias row `bl` at every point. Write lin(R, j) for the linear value of row `R` of the whole 50000 rows in
column `j`:

    lin(R, j) = Σₖ A(R,k)·Wl(k,j) + bl(0,j) + Σₖ H(R,k)·Wr(k,j),     row R being row R mod 5000 of block R div 5000.

Two rows are carried from point to point, both zero before the first point; point `t` adds to the first the column sums of
block `t`'s linear values and to the second the column sums of their squares. So after the tenth point the first row
holds, in column `j`, Σ_R lin(R, j) over all 50000 rows, and the second Σ_R lin(R, j)². The mean row is the first divided
by 50000 and the variance row the second divided by 50000 minus the square of the mean. No summand has to be finite. -/

open scoped BigOperators

noncomputable section

namespace Cert.KernelIdeal.LinVal

open Cert.KernelIdeal Cert.KernelIdeal.Gen
open Idealize.ShloMosaic Idealize.ShloMosaic.ValueIdx

section
variable (A H : Fin 10 → Vec Ideal S5000x256 .f32) (Wl : Vec Ideal S256x256 .f32) (bl : Vec Ideal S1x256 .f32)
  (Wr : Vec Ideal S256x256 .f32)

/-- The linear value of row `q` of block `t` in column `j`. -/
def linBlk2 (t : Fin 10) (q : Fin 5000) (j : Fin 256) : EReal :=
  (∑ k : Fin 256, A t (ix2 q k) * Wl (ix2 k j)) + bl (ix2 (0 : Fin 1) j) + ∑ k : Fin 256, H t (ix2 q k) * Wr (ix2 k j)

/-- The linear value of row `R` of the whole 50000 rows in column `j`: row `R mod 5000` of block `R div 5000`. -/
def lin2 (R : Fin 50000) (j : Fin 256) : EReal := linBlk2 A H Wl bl Wr (blockOf R) (withinOf R) j

/-- The sum row carried after the first `n` points. -/
def sAt2 (n : ℕ) : FVec Ideal S1x256 .f32 :=
  runAt (k2_pay4 (F := Ideal)) (fun t s => k2_pay7 (F := Ideal) (A t) Wl bl (H t) Wr s) n

/-- The sum-of-squares row carried after the first `n` points. -/
def qAt2 (n : ℕ) : FVec Ideal S1x256 .f32 :=
  runAt (k2_pay5 (F := Ideal)) (fun t q => k2_pay8 (F := Ideal) (A t) Wl bl (H t) Wr q) n

theorem sAt2_zero : sAt2 A H Wl bl Wr 0 = k2_pay4 (F := Ideal) := rfl

theorem sAt2_succ {n : ℕ} (hn : n < 10) :
    sAt2 A H Wl bl Wr (n + 1) = k2_pay7 (F := Ideal) (A ⟨n, hn⟩) Wl bl (H ⟨n, hn⟩) Wr (sAt2 A H Wl bl Wr n) :=
  runAt_succ _ _ hn

theorem qAt2_zero : qAt2 A H Wl bl Wr 0 = k2_pay5 (F := Ideal) := rfl

theorem qAt2_succ {n : ℕ} (hn : n < 10) :
    qAt2 A H Wl bl Wr (n + 1) = k2_pay8 (F := Ideal) (A ⟨n, hn⟩) Wl bl (H ⟨n, hn⟩) Wr (qAt2 A H Wl bl Wr n) :=
  runAt_succ _ _ hn

/-- Row `5000·t + q` of the whole is row `q` of block `t`. -/
theorem lin2_rowOf (t : Fin 10) (q : Fin 5000) (j : Fin 256) :
    lin2 A H Wl bl Wr (rowOf t q) j = linBlk2 A H Wl bl Wr t q j := by
  unfold lin2
  rw [blockOf_rowOf, withinOf_rowOf]

/-- The linear block point `t` computes holds, at row `q` and column `j`, the linear value of row `5000·t + q`. -/
theorem k2_pay6_lin (t : Fin 10) (q : Fin 5000) (j : Fin 256) :
    k2_pay6 (F := Ideal) (A t) Wl bl (H t) Wr (ix2 q j) = lin2 A H Wl bl Wr (rowOf t q) j :=
  (k2_pay6_apply (A t) Wl bl (H t) Wr q j).trans (lin2_rowOf A H Wl bl Wr t q j).symm

/-- After the ten points the carried sum row holds, in column `j`, the sum of the linear values over all 50000 rows. -/
theorem sAt2_ten (j : Fin 256) :
    sAt2 A H Wl bl Wr 10 (ix2 (0 : Fin 1) j) = ∑ R : Fin 50000, lin2 A H Wl bl Wr R j := by
  unfold sAt2
  refine runAt_total _ _ (ix2 (0 : Fin 1) j) (fun R => lin2 A H Wl bl Wr R j) (k2_pay4_apply _) fun t s => ?_
  show k2_pay7 (F := Ideal) (A t) Wl bl (H t) Wr s (ix2 (0 : Fin 1) j)
      = s (ix2 (0 : Fin 1) j) + ∑ q : Fin 5000, lin2 A H Wl bl Wr (rowOf t q) j
  rw [k2_pay7_apply]
  exact congrArg (s (ix2 (0 : Fin 1) j) + ·) (Finset.sum_congr rfl fun q _ => k2_pay6_lin A H Wl bl Wr t q j)

/-- After the ten points the carried sum-of-squares row holds, in column `j`, the sum of the squared linear values over
    all 50000 rows. -/
theorem qAt2_ten (j : Fin 256) :
    qAt2 A H Wl bl Wr 10 (ix2 (0 : Fin 1) j) = ∑ R : Fin 50000, lin2 A H Wl bl Wr R j * lin2 A H Wl bl Wr R j := by
  unfold qAt2
  refine runAt_total _ _ (ix2 (0 : Fin 1) j) (fun R => lin2 A H Wl bl Wr R j * lin2 A H Wl bl Wr R j) (k2_pay5_apply _)
    fun t s => ?_
  show k2_pay8 (F := Ideal) (A t) Wl bl (H t) Wr s (ix2 (0 : Fin 1) j)
      = s (ix2 (0 : Fin 1) j) + ∑ q : Fin 5000, lin2 A H Wl bl Wr (rowOf t q) j * lin2 A H Wl bl Wr (rowOf t q) j
  rw [k2_pay8_apply]
  exact congrArg (s (ix2 (0 : Fin 1) j) + ·) (Finset.sum_congr rfl fun q _ => by rw [k2_pay6_lin A H Wl bl Wr t q j])

/-- The mean row after the last point: in column `j`, the sum of the linear values over all rows, divided by the float
    50000. -/
theorem mean2_apply (j : Fin 256) :
    k2_pay2 (F := Ideal) (sAt2 A H Wl bl Wr 10) (ix2 (0 : Fin 1) j)
      = Ideal.div (∑ R : Fin 50000, lin2 A H Wl bl Wr R j) (Ideal.ofBits .f32 0x47435000#32) := by
  rw [k2_pay2_apply, sAt2_ten]

/-- The variance row after the last point: in column `j`, the sum of the squared linear values over all rows divided by
    the float 50000, minus the square of the mean. -/
theorem var2_apply (j : Fin 256) :
    k2_pay3 (F := Ideal) (sAt2 A H Wl bl Wr 10) (qAt2 A H Wl bl Wr 10) (ix2 (0 : Fin 1) j)
      = Ideal.div (∑ R : Fin 50000, lin2 A H Wl bl Wr R j * lin2 A H Wl bl Wr R j) (Ideal.ofBits .f32 0x47435000#32)
          - Ideal.div (∑ R : Fin 50000, lin2 A H Wl bl Wr R j) (Ideal.ofBits .f32 0x47435000#32)
              * Ideal.div (∑ R : Fin 50000, lin2 A H Wl bl Wr R j) (Ideal.ofBits .f32 0x47435000#32) := by
  rw [k2_pay3_apply, sAt2_ten, qAt2_ten]

/-- When the ten blocks are the consecutive row blocks of two whole [50000,256] arrays `X` (aggregated) and `Y`
    (features), the linear value of row `R` is written with the whole arrays' row `R`. -/
theorem lin2_of_rows (X Y : Vec Ideal S50000x256 .f32)
    (hA : ∀ (t : Fin 10) (q : Fin 5000) (k : Fin 256), A t (ix2 q k) = X (ix2 (rowOf t q) k))
    (hH : ∀ (t : Fin 10) (q : Fin 5000) (k : Fin 256), H t (ix2 q k) = Y (ix2 (rowOf t q) k))
    (R : Fin 50000) (j : Fin 256) :
    lin2 A H Wl bl Wr R j
      = (∑ k : Fin 256, X (ix2 R k) * Wl (ix2 k j)) + bl (ix2 (0 : Fin 1) j) + ∑ k : Fin 256, Y (ix2 R k) * Wr (ix2 k j) := by
  unfold lin2 linBlk2
  simp only [hA, hH, rowOf_blockOf_withinOf]

end

end Cert.KernelIdeal.LinVal
-- ==== Proof.KI.Lin2Steps.lean ====
import proofs.«144042_j23673859736035_1_alg».proof.Proof.KI.Lin2Pieces
import proofs.«144042_j23673859736035_1_alg».proof.Proof.KI.LinSum2
import proofs.«144042_j23673859736035_1_alg».proof.Proof.KI.LinStatsSpec

/-! # Region 2: one grid point's outputs from the point before, and the blocks as pieces of the whole arrays

Per control case, what the point leaves in window 5, in the two carried rows and (last point) in windows 6 and 7, as the
body's arithmetic of the point's five input blocks and the rows the point before left. Then the geometry: the weight
and bias windows hold their whole arrays at every point; row `q` of the aggregated and of the feature block at point `t`
is row `5000·t + q` of the whole array. For any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One point's outputs and carried rows, from the rows the point before left -/

/-- The first point: the linear block of the point's blocks; the two rows from zero rows. -/
theorem outs2_A (c : Dev nD) (t : Fin cfg2.N) (h0 : t.val % 10 = 0) (h1 : ¬t.val % 10 = 9) :
    outsAt2 V c t.val t.isLt
      = (k2_pay6 (iblk2 V c 0 t) (iblk2 V c 2 t) (iblk2 V c 4 t) (iblk2 V c 1 t) (iblk2 V c 3 t), unset2, unset2,
         k2_pay7 (iblk2 V c 0 t) (iblk2 V c 2 t) (iblk2 V c 4 t) (iblk2 V c 1 t) (iblk2 V c 3 t) (k2_pay4 (F := F)),
         k2_pay8 (iblk2 V c 0 t) (iblk2 V c 2 t) (iblk2 V c 4 t) (iblk2 V c 1 t) (iblk2 V c 3 t) (k2_pay5 (F := F))) := by
  rw [outsAt2_A V c t h0 h1, lin2_A_eq, sum2_A_eq, sq2_A_eq]

/-- A middle point: the two rows from the rows the point before left. -/
theorem outs2_B (c : Dev nD) (t : Fin cfg2.N) (h0 : ¬t.val % 10 = 0) (h1 : ¬t.val % 10 = 9) :
    outsAt2 V c t.val t.isLt
      = (k2_pay6 (iblk2 V c 0 t) (iblk2 V c 2 t) (iblk2 V c 4 t) (iblk2 V c 1 t) (iblk2 V c 3 t), unset2, unset2,
         k2_pay7 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.1,
         k2_pay8 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.2) := by
  rw [outsAt2_B V c t h0 h1, lin2_B_eq, sum2_B_eq, sq2_B_eq]

/-- The last point: also mean and variance, from the two rows it has just completed. -/
theorem outs2_C (c : Dev nD) (t : Fin cfg2.N) (h0 : ¬t.val % 10 = 0) (h1 : t.val % 10 = 9) :
    outsAt2 V c t.val t.isLt
      = (k2_pay6 (iblk2 V c 0 t) (iblk2 V c 2 t) (iblk2 V c 4 t) (iblk2 V c 1 t) (iblk2 V c 3 t),
         k2_pay2 (k2_pay7 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.1),
         k2_pay3 (k2_pay7 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.1) (k2_pay8 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.2),
         k2_pay7 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.1,
         k2_pay8 (iblk2 V c 0 t) (iblk2 V c 2 t) (iblk2 V c 4 t) (iblk2 V c 1 t) (iblk2 V c 3 t) (outsAt2 V c (t.val - 1) (Nat.lt_of_le_of_lt (Nat.sub_le _ _) t.isLt)).2.2.2.2) := by
  rw [outsAt2_C V c t h0 h1, lin2_C_eq, sum2_C_eq, sq2_C_eq, mean2_C_eq, var2_C_eq]

/-- At every point window 5 ends holding the linear block of the point's blocks. -/
theorem linOut2 (c : Dev nD) (t : Fin cfg2.N) :
    (outsAt2 V c t.val t.isLt).1 = k2_pay6 (iblk2 V c 0 t) (iblk2 V c 2 t) (iblk2 V c 4 t) (iblk2 V c 1 t) (iblk2 V c 3 t) := by
  by_cases h0 : t.val % 10 = 0
  · rw [outs2_A V c t h0 (by omega)]
  · by_cases h1 : t.val % 10 = 9
    · rw [outs2_C V c t h0 h1]
    · rw [outs2_B V c t h0 h1]

/-! ## The index maps over the ten points -/

/-- The two input blocks and the output block are block `t` of the rows; the weights, the bias row, mean and variance
    stay at block 0. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- A point of the region's grid as one of the ten points, and back. -/
abbrev ten2 (t : Fin cfg2.N) : Fin 10 := ⟨t.val, lt_of_lt_of_eq t.isLt N_2⟩
abbrev pt2 (t : Fin 10) : Fin cfg2.N := ⟨t.val, lt_of_lt_of_eq t.isLt N_2.symm⟩

/-- Window 2's block is the whole array at every point: its block index is constantly 0. -/
theorem wlBlock2 (c : Dev nD) (t : Fin cfg2.N) : (iblk2 V c 2 t : Vec F S256x256 .f32) = V c (Pipeline.arrRef spec2 2) := by
  obtain ⟨-, -, -, -, e20, e21, e30, e31, e40, e41, -, -, -, -, -, -⟩ := blockIdx2 t
  funext j
  show V c (Pipeline.arrRef spec2 2) (((cfg2.win 2).blk t).view.emb j) = V c (Pipeline.arrRef spec2 2) j
  refine congrArg _ ?_
  funext a; apply Fin.ext
  match a with
  | ⟨0, _⟩ => show win2_2.index t (0 : Fin 2) * 256 + 1 * (j 0).val = (j 0).val; omega
  | ⟨1, _⟩ => show win2_2.index t (1 : Fin 2) * 256 + 1 * (j 1).val = (j 1).val; omega

/-- Window 3's block is the whole array at every point: its block index is constantly 0. -/
theorem wrBlock2 (c : Dev nD) (t : Fin cfg2.N) : (iblk2 V c 3 t : Vec F S256x256 .f32) = V c (Pipeline.arrRef spec2 3) := by
  obtain ⟨-, -, -, -, e20, e21, e30, e31, e40, e41, -, -, -, -, -, -⟩ := blockIdx2 t
  funext j
  show V c (Pipeline.arrRef spec2 3) (((cfg2.win 3).blk t).view.emb j) = V c (Pipeline.arrRef spec2 3) j
  refine congrArg _ ?_
  funext a; apply Fin.ext
  match a with
  | ⟨0, _⟩ => show win2_3.index t (0 : Fin 2) * 256 + 1 * (j 0).val = (j 0).val; omega
  | ⟨1, _⟩ => show win2_3.index t (1 : Fin 2) * 256 + 1 * (j 1).val = (j 1).val; omega

/-- Window 4's block is the whole array at every point: its block index is constantly 0. -/
theorem blBlock2 (c : Dev nD) (t : Fin cfg2.N) : (iblk2 V c 4 t : Vec F S1x256 .f32) = V c (Pipeline.arrRef spec2 4) := by
  obtain ⟨-, -, -, -, e20, e21, e30, e31, e40, e41, -, -, -, -, -, -⟩ := blockIdx2 t
  funext j
  show V c (Pipeline.arrRef spec2 4) (((cfg2.win 4).blk t).view.emb j) = V c (Pipeline.arrRef spec2 4) j
  refine congrArg _ ?_
  funext a; apply Fin.ext
  match a with
  | ⟨0, _⟩ => show win2_4.index t (0 : Fin 2) * 1 + 1 * (j 0).val = (j 0).val; omega
  | ⟨1, _⟩ => show win2_4.index t (1 : Fin 2) * 256 + 1 * (j 1).val = (j 1).val; omega

/-- Row `q` of window 0's block at point `t` is row `5000·t + q` of its array. -/
theorem aggBlock2_read (c : Dev nD) (t : Fin cfg2.N) (q : Fin 5000) (k : Fin 256) :
    iblk2 V c 0 t (ix2 (n0 := 5000) (n1 := 256) q k)
      = V c (Pipeline.arrRef spec2 0) (ix2 (n0 := 50000) (n1 := 256) (LinVal.rowOf (ten2 t) q) k) := by
  obtain ⟨e00, e01, e10, e11, -, -, -, -, -, -, -, -, -, -, -, -⟩ := blockIdx2 t
  show V c (Pipeline.arrRef spec2 0) (((cfg2.win 0).blk t).view.emb (ix2 (n0 := 5000) (n1 := 256) q k)) = _
  refine congrArg _ ?_
  funext a; apply Fin.ext
  match a with
  | ⟨0, _⟩ => show win2_0.index t (0 : Fin 2) * 5000 + 1 * q.val = t.val * 5000 + q.val; omega
  | ⟨1, _⟩ => show win2_0.index t (1 : Fin 2) * 256 + 1 * k.val = k.val; omega

/-- Row `q` of window 1's block at point `t` is row `5000·t + q` of its array. -/
theorem featBlock2_read (c : Dev nD) (t : Fin cfg2.N) (q : Fin 5000) (k : Fin 256) :
    iblk2 V c 1 t (ix2 (n0 := 5000) (n1 := 256) q k)
      = V c (Pipeline.arrRef spec2 1) (ix2 (n0 := 50000) (n1 := 256) (LinVal.rowOf (ten2 t) q) k) := by
  obtain ⟨e00, e01, e10, e11, -, -, -, -, -, -, -, -, -, -, -, -⟩ := blockIdx2 t
  show V c (Pipeline.arrRef spec2 1) (((cfg2.win 1).blk t).view.emb (ix2 (n0 := 5000) (n1 := 256) q k)) = _
  refine congrArg _ ?_
  funext a; apply Fin.ext
  match a with
  | ⟨0, _⟩ => show win2_1.index t (0 : Fin 2) * 5000 + 1 * q.val = t.val * 5000 + q.val; omega
  | ⟨1, _⟩ => show win2_1.index t (1 : Fin 2) * 256 + 1 * k.val = k.val; omega

end Cert.KernelIdeal.Hand

end
-- ==== Proof.KI.Lin2ValRows.lean ====
import proofs.«144042_j23673859736035_1_alg».proof.Proof.KI.Lin2Steps

/-! # Region 2: the two carried rows are the running column sums

Point by point the row of sums is the row before plus the column sums of the point's linear block, from a zero row at
the first point, and the row of sums of squares likewise; at the exact values they are therefore, after point `n`, the
column sums (and sums of squares) of the linear values of the first `n + 1` row blocks, and after the last point of all
50000 rows. The last point stores the mean and the variance computed from them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried rows, point by point, over the whole weight and bias arrays -/

/-- After the first point: from zero rows. -/
theorem rowsFirst2 (c : Dev nD) (hn : 0 < cfg2.N) :
    (outsAt2 V c 0 hn).2.2.2.1 = k2_pay7 (iblk2 V c 0 ⟨0, hn⟩) (V c (Pipeline.arrRef spec2 2)) (V c (Pipeline.arrRef spec2 4)) (iblk2 V c 1 ⟨0, hn⟩) (V c (Pipeline.arrRef spec2 3)) (k2_pay4 (F := F))
    ∧ (outsAt2 V c 0 hn).2.2.2.2 = k2_pay8 (iblk2 V c 0 ⟨0, hn⟩) (V c (Pipeline.arrRef spec2 2)) (V c (Pipeline.arrRef spec2 4)) (iblk2 V c 1 ⟨0, hn⟩) (V c (Pipeline.arrRef spec2 3)) (k2_pay5 (F := F)) := by
  have e := outs2_A V c ⟨0, hn⟩ rfl (by show ¬(0 % 10 = 9); decide)
  have ks : (outsAt2 V c 0 hn).2.2.2.1 = _ := congrArg (fun p => p.2.2.2.1) e
  have kq : (outsAt2 V c 0 hn).2.2.2.2 = _ := congrArg (fun p => p.2.2.2.2) e
  dsimp only at ks kq
  rw [wlBlock2, blBlock2, wrBlock2] at ks kq
  exact ⟨ks, kq⟩

set_option maxHeartbeats 1000000 in
/-- After a later point: from the rows the point before left, in either of the two later control cases. -/
theorem rowsStep2 (c : Dev nD) (n : ℕ) (hn : n + 1 < cfg2.N) :
    (outsAt2 V c (n + 1) hn).2.2.2.1
        = k2_pay7 (iblk2 V c 0 ⟨n + 1, hn⟩) (V c (Pipeline.arrRef spec2 2)) (V c (Pipeline.arrRef spec2 4)) (iblk2 V c 1 ⟨n + 1, hn⟩) (V c (Pipeline.arrRef spec2 3)) (outsAt2 V c n (Nat.lt_of_succ_lt hn)).2.2.2.1
    ∧ (outsAt2 V c (n + 1) hn).2.2.2.2
        = k2_pay8 (iblk2 V c 0 ⟨n + 1, hn⟩) (V c (Pipeline.arrRef spec2 2)) (V c (Pipeline.arrRef spec2 4)) (iblk2 V c 1 ⟨n + 1, hn⟩) (V c (Pipeline.arrRef spec2 3)) (outsAt2 V c n (Nat.lt_of_succ_lt hn)).2.2.2.2 := by
  have hN : cfg2.N = 10 := N_2
  have h0 : ¬(⟨n + 1, hn⟩ : Fin cfg2.N).val % 10 = 0 := by dsimp only; omega
  have key : (outsAt2 V c (n + 1) hn).2.2.2.1
        = k2_pay7 (iblk2 V c 0 ⟨n + 1, hn⟩) (iblk2 V c 2 ⟨n + 1, hn⟩) (iblk2 V c 4 ⟨n + 1, hn⟩) (iblk2 V c 1 ⟨n + 1, hn⟩) (iblk2 V c 3 ⟨n + 1, hn⟩) (outsAt2 V c n (Nat.lt_of_succ_lt hn)).2.2.2.1
      ∧ (outsAt2 V c (n + 1) hn).2.2.2.2
        = k2_pay8 (iblk2 V c 0 ⟨n + 1, hn⟩) (iblk2 V c 2 ⟨n + 1, hn⟩) (iblk2 V c 4 ⟨n + 1, hn⟩) (iblk2 V c 1 ⟨n + 1, hn⟩) (iblk2 V c 3 ⟨n + 1, hn⟩) (outsAt2 V c n (Nat.lt_of_succ_lt hn)).2.2.2.2 := by
    by_cases h1 : (⟨n + 1, hn⟩ : Fin cfg2.N).val % 10 = 9
    · have e := outs2_C V c ⟨n + 1, hn⟩ h0 h1
      exact ⟨congrArg (fun p => p.2.2.2.1) e, congrArg (fun p => p.2.2.2.2) e⟩
    · have e := outs2_B V c ⟨n + 1, hn⟩ h0 h1
      exact ⟨congrArg (fun p => p.2.2.2.1) e, congrArg (fun p => p.2.2.2.2) e⟩
  obtain ⟨ks, kq⟩ := key
  rw [wlBlock2, blBlock2, wrBlock2] at ks kq
  exact ⟨ks, kq⟩

/-- At the last point windows 6 and 7 end holding the mean and the variance of the two rows the point completes. -/
theorem lastOut2 (c : Dev nD) (t : Fin cfg2.N) (h1 : t.val % 10 = 9) :
    (outsAt2 V c t.val t.isLt).2.1 = k2_pay2 (outsAt2 V c t.val t.isLt).2.2.2.1
    ∧ (outsAt2 V c t.val t.isLt).2.2.1 = k2_pay3 (outsAt2 V c t.val t.isLt).2.2.2.1 (outsAt2 V c t.val t.isLt).2.2.2.2 := by
  have e := outs2_C V c t (by omega) h1
  have es : (outsAt2 V c t.val t.isLt).2.2.2.1 = _ := congrArg (fun p => p.2.2.2.1) e
  have eq : (outsAt2 V c t.val t.isLt).2.2.2.2 = _ := congrArg (fun p => p.2.2.2.2) e
  have em : (outsAt2 V c t.val t.isLt).2.1 = _ := congrArg (fun p => p.2.1) e
  have ev : (outsAt2 V c t.val t.isLt).2.2.1 = _ := congrArg (fun p => p.2.2.1) e
  exact ⟨em.trans (congrArg (k2_pay2 (F := F)) es.symm), ev.trans (congrArg₂ (k2_pay3 (F := F)) es.symm eq.symm)⟩

/-! ## At the exact values: the carried rows are the running column sums -/

section AtIdeal

-- the buffer contents when the region is entered, at the exact values
variable (VI : (c : Dev nD) → (b : Ref sig .tc) → Buf (Elt Ideal) ((c : Thread nD τ).loc b))

/-- The ten aggregated blocks and the ten feature blocks the points see. -/
abbrev aggBlocks2 (c : Dev nD) : Fin 10 → Vec Ideal S5000x256 .f32 := fun t => iblk2 VI c 0 (pt2 t)
abbrev featBlocks2 (c : Dev nD) : Fin 10 → Vec Ideal S5000x256 .f32 := fun t => iblk2 VI c 1 (pt2 t)

set_option maxHeartbeats 1000000 in
/-- After the first point the two rows are the running sums over one block. -/
theorem rowsBase2 (c : Dev nD) (hn : 0 < cfg2.N) :
    (outsAt2 VI c 0 hn).2.2.2.1 = LinVal.sAt2 (aggBlocks2 VI c) (featBlocks2 VI c) (VI c (Pipeline.arrRef spec2 2)) (VI c (Pipeline.arrRef spec2 4)) (VI c (Pipeline.arrRef spec2 3)) 1
    ∧ (outsAt2 VI c 0 hn).2.2.2.2 = LinVal.qAt2 (aggBlocks2 VI c) (featBlocks2 VI c) (VI c (Pipeline.arrRef spec2 2)) (VI c (Pipeline.arrRef spec2 4)) (VI c (Pipeline.arrRef spec2 3)) 1 := by
  obtain ⟨ks, kq⟩ := rowsFirst2 VI c hn
  exact ⟨ks.trans (LinVal.sAt2_succ (aggBlocks2 VI c) (featBlocks2 VI c) (VI c (Pipeline.arrRef spec2 2)) (VI c (Pipeline.arrRef spec2 4)) (VI c (Pipeline.arrRef spec2 3)) (n := 0) (by decide)).symm,
    kq.trans (LinVal.qAt2_succ (aggBlocks2 VI c) (featBlocks2 VI c) (VI c (Pipeline.arrRef spec2 2)) (VI c (Pipeline.arrRef spec2 4)) (VI c (Pipeline.arrRef spec2 3)) (n := 0) (by decide)).symm⟩

set_option maxHeartbeats 1000000 in
/-- If they are the running sums over `n + 1` blocks after point `n`, they are those over `n + 2` after point `n + 1`. -/
theorem rowsSucc2 (c : Dev nD) (n : ℕ) (hn : n + 1 < cfg2.N)
    (ihs : (outsAt2 VI c n (Nat.lt_of_succ_lt hn)).2.2.2.1 = LinVal.sAt2 (aggBlocks2 VI c) (featBlocks2 VI c) (VI c (Pipeline.arrRef spec2 2)) (VI c (Pipeline.arrRef spec2 4)) (VI c (Pipeline.arrRef spec2 3)) (n + 1))
    (ihq : (outsAt2 VI c n (Nat.lt_of_succ_lt hn)).2.2.2.2 = LinVal.qAt2 (aggBlocks2 VI c) (featBlocks2 VI c) (VI c (Pipeline.arrRef spec2 2)) (VI c (Pipeline.arrRef spec2 4)) (VI c (Pipeline.arrRef spec2 3)) (n + 1)) :
    (outsAt2 VI c (n + 1) hn).2.2.2.1 = LinVal.sAt2 (aggBlocks2 VI c) (featBlocks2 VI c) (VI c (Pipeline.arrRef spec2 2)) (VI c (Pipeline.arrRef spec2 4)) (VI c (Pipeline.arrRef spec2 3)) (n + 1 + 1)
    ∧ (outsAt2 VI c (n + 1) hn).2.2.2.2 = LinVal.qAt2 (aggBlocks2 VI c) (featBlocks2 VI c) (VI c (Pipeline.arrRef spec2 2)) (VI c (Pipeline.arrRef spec2 4)) (VI c (Pipeline.arrRef spec2 3)) (n + 1 + 1) := by
  have hn10 : n + 1 < 10 := lt_of_lt_of_eq hn N_2
  obtain ⟨ks, kq⟩ := rowsStep2 VI c n hn
  rw [ihs] at ks
  rw [ihq] at kq
  exact ⟨ks.trans (LinVal.sAt2_succ (aggBlocks2 VI c) (featBlocks2 VI c) (VI c (Pipeline.arrRef spec2 2)) (VI c (Pipeline.arrRef spec2 4)) (VI c (Pipeline.arrRef spec2 3)) hn10).symm, kq.trans (LinVal.qAt2_succ (aggBlocks2 VI c) (featBlocks2 VI c) (VI c (Pipeline.arrRef spec2 2)) (VI c (Pipeline.arrRef spec2 4)) (VI c (Pipeline.arrRef spec2 3)) hn10).symm⟩

/-- After point `n` the two carried rows are the running column sums, and sums of squares, of the first `n + 1` blocks'
    linear values: by induction on the point. -/
theorem rows2_eq (c : Dev nD) (n : ℕ) : ∀ hn : n < cfg2.N,
    (outsAt2 VI c n hn).2.2.2.1 = LinVal.sAt2 (aggBlocks2 VI c) (featBlocks2 VI c) (VI c (Pipeline.arrRef spec2 2)) (VI c (Pipeline.arrRef spec2 4)) (VI c (Pipeline.arrRef spec2 3)) (n + 1)
    ∧ (outsAt2 VI c n hn).2.2.2.2 = LinVal.qAt2 (aggBlocks2 VI c) (featBlocks2 VI c) (VI c (Pipeline.arrRef spec2 2)) (VI c (Pipeline.arrRef spec2 4)) (VI c (Pipeline.arrRef spec2 3)) (n + 1) := by
  induction n with
  | zero => exact fun hn => rowsBase2 VI c hn
  | succ n ih => exact fun hn => rowsSucc2 VI c n hn (ih (Nat.lt_of_succ_lt hn)).1 (ih (Nat.lt_of_succ_lt hn)).2

set_option maxHeartbeats 1000000 in
/-- At the last point windows 6 and 7 end holding the mean and the variance computed from the completed rows. -/
theorem lastRows2 (c : Dev nD) (t : Fin cfg2.N) (h1 : t.val % 10 = 9) :
    (outsAt2 VI c t.val t.isLt).2.1 = k2_pay2 (F := Ideal) (LinVal.sAt2 (aggBlocks2 VI c) (featBlocks2 VI c) (VI c (Pipeline.arrRef spec2 2)) (VI c (Pipeline.arrRef spec2 4)) (VI c (Pipeline.arrRef spec2 3)) 10)
    ∧ (outsAt2 VI c t.val t.isLt).2.2.1 = k2_pay3 (F := Ideal) (LinVal.sAt2 (aggBlocks2 VI c) (featBlocks2 VI c) (VI c (Pipeline.arrRef spec2 2)) (VI c (Pipeline.arrRef spec2 4)) (VI c (Pipeline.arrRef spec2 3)) 10) (LinVal.qAt2 (aggBlocks2 VI c) (featBlocks2 VI c) (VI c (Pipeline.arrRef spec2 2)) (VI c (Pipeline.arrRef spec2 4)) (VI c (Pipeline.arrRef spec2 3)) 10) := by
  have hN : cfg2.N = 10 := N_2
  have h10 : t.val + 1 = 10 := by have := t.isLt; omega
  obtain ⟨rs, rq⟩ := rows2_eq VI c t.val t.isLt
  obtain ⟨em, ev⟩ := lastOut2 VI c t h1
  rw [rs] at em ev
  rw [rq] at ev
  rw [h10] at em ev
  exact ⟨em, ev⟩

end AtIdeal

end Cert.KernelIdeal.Hand

end
-- ==== Proof.KI.Lin2Val.lean ====
import proofs.«144042_j23673859736035_1_alg».proof.Proof.KI.Lin2ValRows
import proofs.«144042_j23673859736035_1_alg».proof.Proof.KI.LinStatsSpecAt

/-! # Region 2: the three output arrays as functions of the five input arrays

At the exact values, after the region's ten points: the [50000,256] output array is the linear layer of the whole
aggregated and feature arrays — every point writes back its row block, and the ten blocks fill the array —; the mean
and variance rows, written back by the last point alone as their single block, are the column means of the linear
array and its column mean squares minus the squared means, the divisor the float 50000. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stored linear block at row `q`, column `j`, when the two input blocks' row `q` is row `R` of the whole arrays,
    is the linear array at `(R, j)`. -/
theorem stored_eq_linArr_r2 (X Y : S50000x256.Idx → EReal) (Wl Wr : S256x256.Idx → EReal) (bl : S1x256.Idx → EReal)
    (x0 x1 : Vec Ideal S5000x256 .f32) (q : Fin 5000) (jj : Fin 256) (R : Fin 50000) (i : S50000x256.Idx)
    (hR : (i 0).val = R.val) (hj : (i 1).val = jj.val)
    (h0 : ∀ k : Fin 256, x0 (ix2 (n0 := 5000) (n1 := 256) q k) = X (ix2 (n0 := 50000) (n1 := 256) R k))
    (h1 : ∀ k : Fin 256, x1 (ix2 (n0 := 5000) (n1 := 256) q k) = Y (ix2 (n0 := 50000) (n1 := 256) R k)) :
    k2_pay6 (F := Ideal) x0 Wl bl x1 Wr (ix2 (n0 := 5000) (n1 := 256) q jj) = linArr256 X Y Wl Wr bl i := by
  obtain rfl : i = ix2 (n0 := 50000) (n1 := 256) R jj := by
    funext a; apply Fin.ext
    match a with
    | ⟨0, _⟩ => exact hR
    | ⟨1, _⟩ => exact hj
  refine (LinVal.k2_pay6_apply x0 Wl bl x1 Wr q jj).trans ?_
  simp only [h0, h1]
  rfl

/-! ## From blocks to the arrays -/

section Arrays

variable (VI : (c : Dev nD) → (b : Ref sig .tc) → Buf (Elt Ideal) ((c : Thread nD τ).loc b))

/-- The linear value of row `R`, column `j`, of the ten blocks is the linear array's entry there: the blocks are the row
    blocks of the two whole input arrays. -/
theorem linRow2_eq (c : Dev nD) (R : Fin 50000) (j : Fin 256) :
    LinVal.lin2 (aggBlocks2 VI c) (featBlocks2 VI c) (VI c (Pipeline.arrRef spec2 2)) (VI c (Pipeline.arrRef spec2 4)) (VI c (Pipeline.arrRef spec2 3)) R j = (linArr256 (VI c (Pipeline.arrRef spec2 0)) (VI c (Pipeline.arrRef spec2 1)) (VI c (Pipeline.arrRef spec2 2)) (VI c (Pipeline.arrRef spec2 3)) (VI c (Pipeline.arrRef spec2 4))) (ix2 (n0 := 50000) (n1 := 256) R j) :=
  LinVal.lin2_of_rows _ _ _ _ _ (VI c (Pipeline.arrRef spec2 0)) (VI c (Pipeline.arrRef spec2 1)) (fun t q k => aggBlock2_read VI c (pt2 t) q k)
    (fun t q k => featBlock2_read VI c (pt2 t) q k) R j

set_option maxHeartbeats 1000000 in
/-- Point `t` writes back block `t` of the linear array. -/
theorem flushedLin2_eq (c : Dev nD) (t : Fin cfg2.N) :
    (dat2 VI c).flushed 5 t = ((cfg2.win 5).blk t).view.read (Elt Ideal) (linArr256 (VI c (Pipeline.arrRef spec2 0)) (VI c (Pipeline.arrRef spec2 1)) (VI c (Pipeline.arrRef spec2 2)) (VI c (Pipeline.arrRef spec2 3)) (VI c (Pipeline.arrRef spec2 4))) := by
  obtain ⟨-, -, -, -, -, -, -, -, -, -, e50, e51, -, -, -, -⟩ := blockIdx2 t
  show (cfg2.win 5).cut (grid2.coords t) ((dat2 VI c).after 5 t) = _
  rw [after2_5, linOut2, wlBlock2, blBlock2, wrBlock2]
  refine funext fun (j : S5000x256.Idx) => ?_
  obtain ⟨q, jj, rfl⟩ : ∃ (q : Fin 5000) (jj : Fin 256), j = ix2 q jj := ⟨j 0, j 1, eq_ix2 j⟩
  refine stored_eq_linArr_r2 _ _ _ _ _ _ _ q jj (LinVal.rowOf (ten2 t) q) (((cfg2.win 5).blk t).view.emb (ix2 (n0 := 5000) (n1 := 256) q jj)) ?_ ?_
    (fun k => aggBlock2_read VI c t q k) (fun k => featBlock2_read VI c t q k)
  · show win2_5.index t (0 : Fin 2) * 5000 + 1 * q.val = t.val * 5000 + q.val; omega
  · show win2_5.index t (1 : Fin 2) * 256 + 1 * jj.val = jj.val; omega

/-- An index of the linear array is in point `t`'s block iff each coordinate is in the block's range on its axis. -/
theorem mem_linBlock2 (t : Fin cfg2.N) (i : S50000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v57_0).slice (win2_5.rect t)).set ↔ _
  rw [View.set_slice_whole, Rect.mem_set_unit]
  exact Iff.rfl

/-- The ten row blocks fill the linear array: row `r` lies in the block of point `r / 5000`. -/
theorem linCover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : (i 0).val / 5000 < grid2.N := by rw [N_2]; omega
  obtain ⟨-, -, -, -, -, -, -, -, -, -, e50, e51, -, -, -, -⟩ := blockIdx2 ⟨(i 0).val / 5000, hN⟩
  have e50' : win2_5.index ⟨(i 0).val / 5000, hN⟩ (0 : Fin 2) = (i 0).val / 5000 := e50
  refine ⟨⟨(i 0).val / 5000, hN⟩, flush2_5 _, ?_⟩
  rw [mem_linBlock2]
  intro a
  match a with
  | ⟨0, _⟩ => show win2_5.index ⟨(i 0).val / 5000, hN⟩ (0 : Fin 2) * 5000 ≤ (i 0).val ∧ (i 0).val < win2_5.index ⟨(i 0).val / 5000, hN⟩ (0 : Fin 2) * 5000 + 5000; omega
  | ⟨1, _⟩ => show win2_5.index ⟨(i 0).val / 5000, hN⟩ (1 : Fin 2) * 256 ≤ (i 1).val ∧ (i 1).val < win2_5.index ⟨(i 0).val / 5000, hN⟩ (1 : Fin 2) * 256 + 256; omega

/-- THE LINEAR ARRAY after the region's ten points. -/
theorem lin_array2 (c : Dev nD) : (dat2 VI c).arrAt 5 cfg2.N = (linArr256 (VI c (Pipeline.arrRef spec2 0)) (VI c (Pipeline.arrRef spec2 1)) (VI c (Pipeline.arrRef spec2 2)) (VI c (Pipeline.arrRef spec2 3)) (VI c (Pipeline.arrRef spec2 4))) :=
  (dat2 VI c).arrAt_eq_of_cover 5 _ (fun t _ => flushedLin2_eq VI c t) linCover2

set_option maxHeartbeats 1000000 in
/-- The last point — the only one that writes window 6 back — writes `meanRow` of the linear array. -/
theorem flushedMean2_eq (c : Dev nD) (t : Fin cfg2.N) (hf : (cfg2.win 6).flush t = true) :
    (dat2 VI c).flushed 6 t = ((cfg2.win 6).blk t).view.read (Elt Ideal) (meanRow (linArr256 (VI c (Pipeline.arrRef spec2 0)) (VI c (Pipeline.arrRef spec2 1)) (VI c (Pipeline.arrRef spec2 2)) (VI c (Pipeline.arrRef spec2 3)) (VI c (Pipeline.arrRef spec2 4)))) := by
  have h1 : t.val % 10 = 9 := (flush2_6 t).mp hf
  obtain ⟨-, -, -, -, -, -, -, -, -, -, -, -, e60, e61, e70, e71⟩ := blockIdx2 t
  show (cfg2.win 6).cut (grid2.coords t) ((dat2 VI c).after 6 t) = _
  rw [after2_6, (lastRows2 VI c t h1).1]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.mean2_apply (aggBlocks2 VI c) (featBlocks2 VI c) (VI c (Pipeline.arrRef spec2 2)) (VI c (Pipeline.arrRef spec2 4)) (VI c (Pipeline.arrRef spec2 3)) jj).trans ?_
  refine Eq.trans ?_ (meanRow_apply (linArr256 (VI c (Pipeline.arrRef spec2 0)) (VI c (Pipeline.arrRef spec2 1)) (VI c (Pipeline.arrRef spec2 2)) (VI c (Pipeline.arrRef spec2 3)) (VI c (Pipeline.arrRef spec2 4))) (((cfg2.win 6).blk t).view.emb (ix2 (n0 := 1) (n1 := 256) 0 jj)) jj ?_).symm
  · simp only [linRow2_eq VI c]
  · show win2_6.index t (1 : Fin 2) * 256 + 1 * jj.val = jj.val; omega

/-- The single block of window 6 is its whole [1,256] array. -/
theorem meanCover2 (i : S1x256.Idx) :
    ∃ t : Fin cfg2.N, (cfg2.win 6).flush t = true ∧ i ∈ ((cfg2.win 6).blk t).view.set := by
  have hi0 : (i 0).val < 1 := (i 0).isLt
  have hi1 : (i 1).val < 256 := (i 1).isLt
  have h9 : 9 < grid2.N := by rw [N_2]; decide
  obtain ⟨-, -, -, -, -, -, -, -, -, -, -, -, e60, e61, e70, e71⟩ := blockIdx2 ⟨9, h9⟩
  refine ⟨⟨9, h9⟩, (flush2_6 _).mpr rfl, ?_⟩
  show i ∈ ((View.whole main_v57_1).slice (win2_6.rect ⟨9, h9⟩)).set
  rw [View.set_slice_whole, Rect.mem_set_unit]
  intro a
  match a with
  | ⟨0, _⟩ => show win2_6.index ⟨9, h9⟩ (0 : Fin 2) * 1 ≤ (i 0).val ∧ (i 0).val < win2_6.index ⟨9, h9⟩ (0 : Fin 2) * 1 + 1; omega
  | ⟨1, _⟩ => show win2_6.index ⟨9, h9⟩ (1 : Fin 2) * 256 ≤ (i 1).val ∧ (i 1).val < win2_6.index ⟨9, h9⟩ (1 : Fin 2) * 256 + 256; omega

/-- THE MEAN ROW after the region. -/
theorem mean_array2 (c : Dev nD) : (dat2 VI c).arrAt 6 cfg2.N = meanRow (linArr256 (VI c (Pipeline.arrRef spec2 0)) (VI c (Pipeline.arrRef spec2 1)) (VI c (Pipeline.arrRef spec2 2)) (VI c (Pipeline.arrRef spec2 3)) (VI c (Pipeline.arrRef spec2 4))) :=
  (dat2 VI c).arrAt_eq_of_cover 6 _ (fun t hf => flushedMean2_eq VI c t hf) meanCover2

set_option maxHeartbeats 1000000 in
/-- The last point — the only one that writes window 7 back — writes `varRow` of the linear array. -/
theorem flushedVar2_eq (c : Dev nD) (t : Fin cfg2.N) (hf : (cfg2.win 7).flush t = true) :
    (dat2 VI c).flushed 7 t = ((cfg2.win 7).blk t).view.read (Elt Ideal) (varRow (linArr256 (VI c (Pipeline.arrRef spec2 0)) (VI c (Pipeline.arrRef spec2 1)) (VI c (Pipeline.arrRef spec2 2)) (VI c (Pipeline.arrRef spec2 3)) (VI c (Pipeline.arrRef spec2 4)))) := by
  have h1 : t.val % 10 = 9 := (flush2_7 t).mp hf
  obtain ⟨-, -, -, -, -, -, -, -, -, -, -, -, e60, e61, e70, e71⟩ := blockIdx2 t
  show (cfg2.win 7).cut (grid2.coords t) ((dat2 VI c).after 7 t) = _
  rw [after2_7, (lastRows2 VI c t h1).2]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.var2_apply (aggBlocks2 VI c) (featBlocks2 VI c) (VI c (Pipeline.arrRef spec2 2)) (VI c (Pipeline.arrRef spec2 4)) (VI c (Pipeline.arrRef spec2 3)) jj).trans ?_
  refine Eq.trans ?_ (varRow_apply (linArr256 (VI c (Pipeline.arrRef spec2 0)) (VI c (Pipeline.arrRef spec2 1)) (VI c (Pipeline.arrRef spec2 2)) (VI c (Pipeline.arrRef spec2 3)) (VI c (Pipeline.arrRef spec2 4))) (((cfg2.win 7).blk t).view.emb (ix2 (n0 := 1) (n1 := 256) 0 jj)) jj ?_).symm
  · simp only [linRow2_eq VI c]
  · show win2_7.index t (1 : Fin 2) * 256 + 1 * jj.val = jj.val; omega

/-- The single block of window 7 is its whole [1,256] array. -/
theorem varCover2 (i : S1x256.Idx) :
    ∃ t : Fin cfg2.N, (cfg2.win 7).flush t = true ∧ i ∈ ((cfg2.win 7).blk t).view.set := by
  have hi0 : (i 0).val < 1 := (i 0).isLt
  have hi1 : (i 1).val < 256 := (i 1).isLt
  have h9 : 9 < grid2.N := by rw [N_2]; decide
  obtain ⟨-, -, -, -, -, -, -, -, -, -, -, -, e60, e61, e70, e71⟩ := blockIdx2 ⟨9, h9⟩
  refine ⟨⟨9, h9⟩, (flush2_7 _).mpr rfl, ?_⟩
  show i ∈ ((View.whole main_v57_2).slice (win2_7.rect ⟨9, h9⟩)).set
  rw [View.set_slice_whole, Rect.mem_set_unit]
  intro a
  match a with
  | ⟨0, _⟩ => show win2_7.index ⟨9, h9⟩ (0 : Fin 2) * 1 ≤ (i 0).val ∧ (i 0).val < win2_7.index ⟨9, h9⟩ (0 : Fin 2) * 1 + 1; omega
  | ⟨1, _⟩ => show win2_7.index ⟨9, h9⟩ (1 : Fin 2) * 256 ≤ (i 1).val ∧ (i 1).val < win2_7.index ⟨9, h9⟩ (1 : Fin 2) * 256 + 256; omega

/-- THE VARIANCE ROW after the region. -/
theorem var_array2 (c : Dev nD) : (dat2 VI c).arrAt 7 cfg2.N = varRow (linArr256 (VI c (Pipeline.arrRef spec2 0)) (VI c (Pipeline.arrRef spec2 1)) (VI c (Pipeline.arrRef spec2 2)) (VI c (Pipeline.arrRef spec2 3)) (VI c (Pipeline.arrRef spec2 4))) :=
  (dat2 VI c).arrAt_eq_of_cover 7 _ (fun t hf => flushedVar2_eq VI c t hf) varCover2

end Arrays

end Cert.KernelIdeal.Hand

end
-- ==== Proof.KI.Lin4Pieces.lean ====
import proofs.«144042_j23673859736035_1_alg».proof.Proof.KI.Lin4
import Idealize.ShloMosaic.Lib.Pipeline.Value
import Idealize.ShloMosaic.Lib.ValueIdx
import Idealize.ShloMosaic.Lib.Tactic
import proofs.«144042_j23673859736035_1_alg».proof.Proof.KI.NormElt

/-! # Region 4 (linear layer with running column statistics): each control case's stores as the body's arithmetic

The body has three control cases — the first point, a middle point, the last point. In each, window 5 ends holding the
linear block of the point's inputs; the row of sums ends holding the row before plus the block's column sums (the row
before being zero at the first point), the row of sums of squares likewise; and at the last point windows 6 and 7 end
holding the mean and the variance computed from the two rows just stored. For any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

/-! ## What each control case leaves, as the body's arithmetic of the blocks

`x0` the aggregated block, `x1` the feature block, `x2`, `x3` the two weight matrices, `x4` the bias row; `xs0`, `xs1` the
rows of sums and of sums of squares the point before left. -/

section Pieces
variable (c : Dev nD) (i : grid4.Coords) (arg1 : Memref sig .tc .vmem S5000x256 .f32) (harg1 : arg1.IsWhole) (arg2 : Memref sig .tc .vmem S5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
  (x0 : Vec F S5000x256 .f32) (x1 : Vec F S5000x256 .f32) (x2 : Vec F S256x256 .f32) (x3 : Vec F S256x256 .f32) (x4 : Vec F S1x256 .f32) (xs0 : Vec F S1x256 .f32) (xs1 : Vec F S1x256 .f32)

theorem lin4_A_eq (hc0 : cond4_0 i) (hc1 : ¬cond4_1 i) :
    lin4_A c i arg1 harg1 arg2 harg2 arg3 harg3 arg4 harg4 arg5 harg5 arg6 harg6 arg7 harg7 arg8 harg8 arg9 harg9 arg10 harg10 x0 x1 x2 x3 x4 hc0 hc1 = k4_pay6 x0 x2 x4 x1 x3 := by
  unfold lin4_A
  rw [View.read_writes_eq_canon _ _ _ (cover4_A_5 c i arg1 harg1 arg2 harg2 arg3 harg3 arg4 harg4 arg5 harg5 arg6 harg6 arg7 harg7 arg8 harg8 arg9 harg9 arg10 harg10 x0 x1 x2 x3 x4 hc0 hc1)]
  unfold kernelRun4_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sum4_A_eq (hc0 : cond4_0 i) (hc1 : ¬cond4_1 i) :
    sum4_A c i arg1 harg1 arg2 harg2 arg3 harg3 arg4 harg4 arg5 harg5 arg6 harg6 arg7 harg7 arg8 harg8 arg9 harg9 arg10 harg10 x0 x1 x2 x3 x4 hc0 hc1 = k4_pay7 x0 x2 x4 x1 x3 (k4_pay4 (F := F)) := by
  unfold sum4_A
  rw [View.read_writes_eq_canon _ _ _ (scover4_A_0 c i arg1 harg1 arg2 harg2 arg3 harg3 arg4 harg4 arg5 harg5 arg6 harg6 arg7 harg7 arg8 harg8 arg9 harg9 arg10 harg10 x0 x1 x2 x3 x4 hc0 hc1)]
  unfold kernelRun4_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sq4_A_eq (hc0 : cond4_0 i) (hc1 : ¬cond4_1 i) :
    sq4_A c i arg1 harg1 arg2 harg2 arg3 harg3 arg4 harg4 arg5 harg5 arg6 harg6 arg7 harg7 arg8 harg8 arg9 harg9 arg10 harg10 x0 x1 x2 x3 x4 hc0 hc1 = k4_pay8 x0 x2 x4 x1 x3 (k4_pay5 (F := F)) := by
  unfold sq4_A
  rw [View.read_writes_eq_canon _ _ _ (scover4_A_1 c i arg1 harg1 arg2 harg2 arg3 harg3 arg4 harg4 arg5 harg5 arg6 harg6 arg7 harg7 arg8 harg8 arg9 harg9 arg10 harg10 x0 x1 x2 x3 x4 hc0 hc1)]
  unfold kernelRun4_A
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem lin4_B_eq (hc0 : ¬cond4_0 i) (hc1 : ¬cond4_1 i) :
    lin4_B c i arg1 harg1 arg2 harg2 arg3 harg3 arg4 harg4 arg5 harg5 arg6 harg6 arg7 harg7 arg8 harg8 arg9 harg9 arg10 harg10 x0 x1 x2 x3 x4 xs0 xs1 hc0 hc1 = k4_pay6 x0 x2 x4 x1 x3 := by
  unfold lin4_B
  rw [View.read_writes_eq_canon _ _ _ (cover4_B_5 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sum4_B_eq (hc0 : ¬cond4_0 i) (hc1 : ¬cond4_1 i) :
    sum4_B c i arg1 harg1 arg2 harg2 arg3 harg3 arg4 harg4 arg5 harg5 arg6 harg6 arg7 harg7 arg8 harg8 arg9 harg9 arg10 harg10 x0 x1 x2 x3 x4 xs0 xs1 hc0 hc1 = k4_pay7 x0 x2 x4 x1 x3 xs0 := by
  unfold sum4_B
  rw [View.read_writes_eq_canon _ _ _ (scover4_B_0 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sq4_B_eq (hc0 : ¬cond4_0 i) (hc1 : ¬cond4_1 i) :
    sq4_B c i arg1 harg1 arg2 harg2 arg3 harg3 arg4 harg4 arg5 harg5 arg6 harg6 arg7 harg7 arg8 harg8 arg9 harg9 arg10 harg10 x0 x1 x2 x3 x4 xs0 xs1 hc0 hc1 = k4_pay8 x0 x2 x4 x1 x3 xs1 := by
  unfold sq4_B
  rw [View.read_writes_eq_canon _ _ _ (scover4_B_1 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_B
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem lin4_C_eq (hc0 : ¬cond4_0 i) (hc1 : cond4_1 i) :
    lin4_C c i arg1 harg1 arg2 harg2 arg3 harg3 arg4 harg4 arg5 harg5 arg6 harg6 arg7 harg7 arg8 harg8 arg9 harg9 arg10 harg10 x0 x1 x2 x3 x4 xs0 xs1 hc0 hc1 = k4_pay6 x0 x2 x4 x1 x3 := by
  unfold lin4_C
  rw [View.read_writes_eq_canon _ _ _ (cover4_C_5 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sum4_C_eq (hc0 : ¬cond4_0 i) (hc1 : cond4_1 i) :
    sum4_C c i arg1 harg1 arg2 harg2 arg3 harg3 arg4 harg4 arg5 harg5 arg6 harg6 arg7 harg7 arg8 harg8 arg9 harg9 arg10 harg10 x0 x1 x2 x3 x4 xs0 xs1 hc0 hc1 = k4_pay7 x0 x2 x4 x1 x3 xs0 := by
  unfold sum4_C
  rw [View.read_writes_eq_canon _ _ _ (scover4_C_0 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem sq4_C_eq (hc0 : ¬cond4_0 i) (hc1 : cond4_1 i) :
    sq4_C c i arg1 harg1 arg2 harg2 arg3 harg3 arg4 harg4 arg5 harg5 arg6 harg6 arg7 harg7 arg8 harg8 arg9 harg9 arg10 harg10 x0 x1 x2 x3 x4 xs0 xs1 hc0 hc1 = k4_pay8 x0 x2 x4 x1 x3 xs1 := by
  unfold sq4_C
  rw [View.read_writes_eq_canon _ _ _ (scover4_C_1 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem mean4_C_eq (hc0 : ¬cond4_0 i) (hc1 : cond4_1 i) :
    mean4_C c i arg1 harg1 arg2 harg2 arg3 harg3 arg4 harg4 arg5 harg5 arg6 harg6 arg7 harg7 arg8 harg8 arg9 harg9 arg10 harg10 x0 x1 x2 x3 x4 xs0 xs1 hc0 hc1 = k4_pay2 (k4_pay7 x0 x2 x4 x1 x3 xs0) := by
  unfold mean4_C
  rw [View.read_writes_eq_canon _ _ _ (cover4_C_6 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

theorem var4_C_eq (hc0 : ¬cond4_0 i) (hc1 : cond4_1 i) :
    var4_C c i arg1 harg1 arg2 harg2 arg3 harg3 arg4 harg4 arg5 harg5 arg6 harg6 arg7 harg7 arg8 harg8 arg9 harg9 arg10 harg10 x0 x1 x2 x3 x4 xs0 xs1 hc0 hc1 = k4_pay3 (k4_pay7 x0 x2 x4 x1 x3 xs0) (k4_pay8 x0 x2 x4 x1 x3 xs1) := by
  unfold var4_C
  rw [View.read_writes_eq_canon _ _ _ (cover4_C_7 c i arg1 harg1 arg2 harg2 arg3 harg3 arg4 harg4 arg5 harg5 arg6 harg6 arg7 harg7 arg8 harg8 arg9 harg9 arg10 harg10 x0 x1 x2 x3 x4 xs0 xs1 hc0 hc1)]
  unfold kernelRun4_C
  dsimp only
  try sl_unfold_words
  simp only [View.canon_unit_zero (S := S5000x256) zeroOffsets, View.canon_cons_unit_zero (S := S5000x256) zeroOffsets, View.readCov_unit_zero (S := S5000x256) _ zeroOffsets, View.ld_unit_zero (S := S5000x256) zeroOffsets, View.canon_unit_zero (S := S256x256) zeroOffsets, View.canon_cons_unit_zero (S := S256x256) zeroOffsets, View.readCov_unit_zero (S := S256x256) _ zeroOffsets, View.ld_unit_zero (S := S256x256) zeroOffsets, View.canon_unit_zero (S := S1x256) zeroOffsets, View.canon_cons_unit_zero (S := S1x256) zeroOffsets, View.readCov_unit_zero (S := S1x256) _ zeroOffsets, View.ld_unit_zero (S := S1x256) zeroOffsets,
    View.readAt_eq_ld, harg1.read_unread, harg2.read_unread, harg3.read_unread, harg4.read_unread, harg5.read_unread, harg9.read_unread, harg10.read_unread,
    k4_pay1, shapeCast_self]

end Pieces

end Cert.KernelIdeal.Hand

end
-- ==== Proof.KI.LinPay4.lean ====
import proofs.«144042_j23673859736035_1_alg».proof.Proof.Gen.KernelIdeal.Skeleton
import proofs.«144042_j23673859736035_1_alg».proof.Proof.KI.LinCol

/-! # The values one grid point of the third layer's linear-and-statistics region (inner width 256) computes, read entry by entry

At one grid point the body holds a block `a` of 5000 rows of the aggregated features and the block `h` of the same 5000
rows of the features themselves (each [5000,256]), two weight matrices `Wl`, `Wr` ([256,256]) and a bias row `b`
([1,256]). At the exact values it computes

* the linear block: at row `r`, column `j`:  Σₖ a(r,k)·Wl(k,j) + b(0,j) + Σₖ h(r,k)·Wr(k,j);
* the running column sum: the carried row plus, at column `j`, the sum of the linear block's column `j` over the 5000 rows;
* the running column sum of squares: the same with each entry of the linear block squared;
* at the first point the two carried rows are zero rows;
* at the last point the mean row, carried sum / 50000, and the variance row, carried sum of squares / 50000 − mean².

The divisor 50000 stays the float word it is written as; the same word stands on the other side of any comparison, so
it is never evaluated. -/

open scoped BigOperators

noncomputable section

namespace Cert.KernelIdeal.LinVal

open Cert.KernelIdeal Cert.KernelIdeal.Gen
open Idealize.ShloMosaic Idealize.ShloMosaic.ValueIdx

/-- The linear block at row `r`, column `j`: the aggregated row times `Wl`, plus the bias, plus the feature row times
    `Wr`. The casts to the same shape are identities and the bias row is repeated down the 5000 rows. -/
theorem k4_pay6_apply (a : Vec Ideal S5000x256 .f32) (Wl : Vec Ideal S256x256 .f32) (b : Vec Ideal S1x256 .f32)
    (h : Vec Ideal S5000x256 .f32) (Wr : Vec Ideal S256x256 .f32) (r : Fin 5000) (j : Fin 256) :
    k4_pay6 (F := Ideal) a Wl b h Wr (ix2 r j)
      = (∑ k : Fin 256, a (ix2 r k) * Wl (ix2 k j)) + b (ix2 (0 : Fin 1) j)
          + ∑ k : Fin 256, h (ix2 r k) * Wr (ix2 k j) := by
  unfold k4_pay6
  simp only [shapeCast_self]
  rw [addf_apply, addf_apply, matmul256_apply, matmul256_apply, broadcastTo_1b_ab_apply]

/-- The carried sum row after a point, at column `j`: what was carried plus the sum over the block's 5000 rows of the
    linear block's column `j`. -/
theorem k4_pay7_apply (a : Vec Ideal S5000x256 .f32) (Wl : Vec Ideal S256x256 .f32) (b : Vec Ideal S1x256 .f32)
    (h : Vec Ideal S5000x256 .f32) (Wr : Vec Ideal S256x256 .f32) (s : Vec Ideal S1x256 .f32) (j : Fin 256) :
    k4_pay7 (F := Ideal) a Wl b h Wr s (ix2 (0 : Fin 1) j)
      = s (ix2 (0 : Fin 1) j) + ∑ r : Fin 5000, k4_pay6 (F := Ideal) a Wl b h Wr (ix2 r j) := by
  unfold k4_pay7
  simp only [shapeCast_self]
  rw [addf_apply, shapeCast_a_1a_apply]
  exact congrArg (s (ix2 (0 : Fin 1) j) + ·) (colsum_apply _ _ _ j)

/-- The carried sum-of-squares row after a point, at column `j`: what was carried plus the sum over the block's 5000
    rows of the square of the linear block's entry in column `j`. -/
theorem k4_pay8_apply (a : Vec Ideal S5000x256 .f32) (Wl : Vec Ideal S256x256 .f32) (b : Vec Ideal S1x256 .f32)
    (h : Vec Ideal S5000x256 .f32) (Wr : Vec Ideal S256x256 .f32) (q : Vec Ideal S1x256 .f32) (j : Fin 256) :
    k4_pay8 (F := Ideal) a Wl b h Wr q (ix2 (0 : Fin 1) j)
      = q (ix2 (0 : Fin 1) j)
          + ∑ r : Fin 5000, k4_pay6 (F := Ideal) a Wl b h Wr (ix2 r j) * k4_pay6 (F := Ideal) a Wl b h Wr (ix2 r j) := by
  unfold k4_pay8
  rw [addf_apply, shapeCast_a_1a_apply]
  exact congrArg (q (ix2 (0 : Fin 1) j) + ·) (colsum_apply _ _ _ j)

/-- The sum row the first point starts from is the zero row. -/
theorem k4_pay4_apply (i : S1x256.Idx) : k4_pay4 (F := Ideal) i = 0 := by
  unfold k4_pay4
  simp only [shapeCast_self]
  exact Ideal.ofBits_zero_f32

/-- The sum-of-squares row the first point starts from is the zero row. -/
theorem k4_pay5_apply (i : S1x256.Idx) : k4_pay5 (F := Ideal) i = 0 := by
  unfold k4_pay5
  simp only [shapeCast_self]
  exact Ideal.ofBits_zero_f32

/-- The cast of a [1,256] row to its own shape is the row. -/
theorem k4_pay1_eq (q : FVec Ideal S1x256 .f32) : k4_pay1 (F := Ideal) q = q := by
  unfold k4_pay1
  exact shapeCast_self _ _

/-- The mean row: the carried sum divided by the float 50000, entry by entry. -/
theorem k4_pay2_apply (s : Vec Ideal S1x256 .f32) (i : S1x256.Idx) :
    k4_pay2 (F := Ideal) s i = Ideal.div (s i) (Ideal.ofBits .f32 0x47435000#32) := rfl

/-- The variance row: the carried sum of squares divided by the float 50000, minus the square of the mean, entry by
    entry. -/
theorem k4_pay3_apply (s q : Vec Ideal S1x256 .f32) (i : S1x256.Idx) :
    k4_pay3 (F := Ideal) s q i
      = Ideal.div (q i) (Ideal.ofBits .f32 0x47435000#32)
          - Ideal.div (s i) (Ideal.ofBits .f32 0x47435000#32) * Ideal.div (s i) (Ideal.ofBits .f32 0x47435000#32) := rfl

end Cert.KernelIdeal.LinVal
-- ==== Proof.KI.LinSum4.lean ====
import proofs.«144042_j23673859736035_1_alg».proof.Proof.KI.LinRun
import proofs.«144042_j23673859736035_1_alg».proof.Proof.KI.LinPay4

/-! # The column statistics the ten grid points accumulate (inner width 256)

The region runs its body at ten grid points `t = 0 … 9`; point `t` sees block `t` — rows 5000·t … 5000·t + 4999 — of the
aggregated features and of the features, here any two families `A`, `H` of ten [5000,256] blocks, with the same weights
`Wl`, `Wr` and bias row `bl` at every point. Write lin(R, j) for the linear value of row `R` of the whole 50000 rows in
column `j`:

    lin(R, j) = Σₖ A(R,k)·Wl(k,j) + bl(0,j) + Σₖ H(R,k)·Wr(k,j),     row R being row R mod 5000 of block R div 5000.

Two rows are carried from point to point, both zero before the first point; point `t` adds to the first the column sums of
block `t`'s linear values and to the second the column sums of their squares. So after the tenth point the first row
holds, in column `j`, Σ_R lin(R, j) over all 50000 rows, and the second Σ_R lin(R, j)². The mean row is the first divided
by 50000 and the variance row the second divided by 50000 minus the square of the mean. No summand has to be finite. -/

open scoped BigOperators

noncomputable section

namespace Cert.KernelIdeal.LinVal

open Cert.KernelIdeal Cert.KernelIdeal.Gen
open Idealize.ShloMosaic Idealize.ShloMosaic.ValueIdx

section
variable (A H : Fin 10 → Vec Ideal S5000x256 .f32) (Wl : Vec Ideal S256x256 .f32) (bl : Vec Ideal S1x256 .f32)
  (Wr : Vec Ideal S256x256 .f32)

/-- The linear value of row `q` of block `t` in column `j`. -/
def linBlk4 (t : Fin 10) (q : Fin 5000) (j : Fin 256) : EReal :=
  (∑ k : Fin 256, A t (ix2 q k) * Wl (ix2 k j)) + bl (ix2 (0 : Fin 1) j) + ∑ k : Fin 256, H t (ix2 q k) * Wr (ix2 k j)

/-- The linear value of row `R` of the whole 50000 rows in column `j`: row `R mod 5000` of block `R div 5000`. -/
def lin4 (R : Fin 50000) (j : Fin 256) : EReal := linBlk4 A H Wl bl Wr (blockOf R) (withinOf R) j

/-- The sum row carried after the first `n` points. -/
def sAt4 (n : ℕ) : FVec Ideal S1x256 .f32 :=
  runAt (k4_pay4 (F := Ideal)) (fun t s => k4_pay7 (F := Ideal) (A t) Wl bl (H t) Wr s) n

/-- The sum-of-squares row carried after the first `n` points. -/
def qAt4 (n : ℕ) : FVec Ideal S1x256 .f32 :=
  runAt (k4_pay5 (F := Ideal)) (fun t q => k4_pay8 (F := Ideal) (A t) Wl bl (H t) Wr q) n

theorem sAt4_zero : sAt4 A H Wl bl Wr 0 = k4_pay4 (F := Ideal) := rfl

theorem sAt4_succ {n : ℕ} (hn : n < 10) :
    sAt4 A H Wl bl Wr (n + 1) = k4_pay7 (F := Ideal) (A ⟨n, hn⟩) Wl bl (H ⟨n, hn⟩) Wr (sAt4 A H Wl bl Wr n) :=
  runAt_succ _ _ hn

theorem qAt4_zero : qAt4 A H Wl bl Wr 0 = k4_pay5 (F := Ideal) := rfl

theorem qAt4_succ {n : ℕ} (hn : n < 10) :
    qAt4 A H Wl bl Wr (n + 1) = k4_pay8 (F := Ideal) (A ⟨n, hn⟩) Wl bl (H ⟨n, hn⟩) Wr (qAt4 A H Wl bl Wr n) :=
  runAt_succ _ _ hn

/-- Row `5000·t + q` of the whole is row `q` of block `t`. -/
theorem lin4_rowOf (t : Fin 10) (q : Fin 5000) (j : Fin 256) :
    lin4 A H Wl bl Wr (rowOf t q) j = linBlk4 A H Wl bl Wr t q j := by
  unfold lin4
  rw [blockOf_rowOf, withinOf_rowOf]

/-- The linear block point `t` computes holds, at row `q` and column `j`, the linear value of row `5000·t + q`. -/
theorem k4_pay6_lin (t : Fin 10) (q : Fin 5000) (j : Fin 256) :
    k4_pay6 (F := Ideal) (A t) Wl bl (H t) Wr (ix2 q j) = lin4 A H Wl bl Wr (rowOf t q) j :=
  (k4_pay6_apply (A t) Wl bl (H t) Wr q j).trans (lin4_rowOf A H Wl bl Wr t q j).symm

/-- After the ten points the carried sum row holds, in column `j`, the sum of the linear values over all 50000 rows. -/
theorem sAt4_ten (j : Fin 256) :
    sAt4 A H Wl bl Wr 10 (ix2 (0 : Fin 1) j) = ∑ R : Fin 50000, lin4 A H Wl bl Wr R j := by
  unfold sAt4
  refine runAt_total _ _ (ix2 (0 : Fin 1) j) (fun R => lin4 A H Wl bl Wr R j) (k4_pay4_apply _) fun t s => ?_
  show k4_pay7 (F := Ideal) (A t) Wl bl (H t) Wr s (ix2 (0 : Fin 1) j)
      = s (ix2 (0 : Fin 1) j) + ∑ q : Fin 5000, lin4 A H Wl bl Wr (rowOf t q) j
  rw [k4_pay7_apply]
  exact congrArg (s (ix2 (0 : Fin 1) j) + ·) (Finset.sum_congr rfl fun q _ => k4_pay6_lin A H Wl bl Wr t q j)

/-- After the ten points the carried sum-of-squares row holds, in column `j`, the sum of the squared linear values over
    all 50000 rows. -/
theorem qAt4_ten (j : Fin 256) :
    qAt4 A H Wl bl Wr 10 (ix2 (0 : Fin 1) j) = ∑ R : Fin 50000, lin4 A H Wl bl Wr R j * lin4 A H Wl bl Wr R j := by
  unfold qAt4
  refine runAt_total _ _ (ix2 (0 : Fin 1) j) (fun R => lin4 A H Wl bl Wr R j * lin4 A H Wl bl Wr R j) (k4_pay5_apply _)
    fun t s => ?_
  show k4_pay8 (F := Ideal) (A t) Wl bl (H t) Wr s (ix2 (0 : Fin 1) j)
      = s (ix2 (0 : Fin 1) j) + ∑ q : Fin 5000, lin4 A H Wl bl Wr (rowOf t q) j * lin4 A H Wl bl Wr (rowOf t q) j
  rw [k4_pay8_apply]
  exact congrArg (s (ix2 (0 : Fin 1) j) + ·) (Finset.sum_congr rfl fun q _ => by rw [k4_pay6_lin A H Wl bl Wr t q j])

/-- The mean row after the last point: in column `j`, the sum of the linear values over all rows, divided by the float
    50000. -/
theorem mean4_apply (j : Fin 256) :
    k4_pay2 (F := Ideal) (sAt4 A H Wl bl Wr 10) (ix2 (0 : Fin 1) j)
      = Ideal.div (∑ R : Fin 50000, lin4 A H Wl bl Wr R j) (Ideal.ofBits .f32 0x47435000#32) := by
  rw [k4_pay2_apply, sAt4_ten]

/-- The variance row after the last point: in column `j`, the sum of the squared linear values over all rows divided by
    the float 50000, minus the square of the mean. -/
theorem var4_apply (j : Fin 256) :
    k4_pay3 (F := Ideal) (sAt4 A H Wl bl Wr 10) (qAt4 A H Wl bl Wr 10) (ix2 (0 : Fin 1) j)
      = Ideal.div (∑ R : Fin 50000, lin4 A H Wl bl Wr R j * lin4 A H Wl bl Wr R j) (Ideal.ofBits .f32 0x47435000#32)
          - Ideal.div (∑ R : Fin 50000, lin4 A H Wl bl Wr R j) (Ideal.ofBits .f32 0x47435000#32)
              * Ideal.div (∑ R : Fin 50000, lin4 A H Wl bl Wr R j) (Ideal.ofBits .f32 0x47435000#32) := by
  rw [k4_pay3_apply, sAt4_ten, qAt4_ten]

/-- When the ten blocks are the consecutive row blocks of two whole [50000,256] arrays `X` (aggregated) and `Y`
    (features), the linear value of row `R` is written with the whole arrays' row `R`. -/
theorem lin4_of_rows (X Y : Vec Ideal S50000x256 .f32)
    (hA : ∀ (t : Fin 10) (q : Fin 5000) (k : Fin 256), A t (ix2 q k) = X (ix2 (rowOf t q) k))
    (hH : ∀ (t : Fin 10) (q : Fin 5000) (k : Fin 256), H t (ix2 q k) = Y (ix2 (rowOf t q) k))
    (R : Fin 50000) (j : Fin 256) :
    lin4 A H Wl bl Wr R j
      = (∑ k : Fin 256, X (ix2 R k) * Wl (ix2 k j)) + bl (ix2 (0 : Fin 1) j) + ∑ k : Fin 256, Y (ix2 R k) * Wr (ix2 k j) := by
  unfold lin4 linBlk4
  simp only [hA, hH, rowOf_blockOf_withinOf]

end

end Cert.KernelIdeal.LinVal
-- ==== Proof.KI.Lin4Steps.lean ====
import proofs.«144042_j23673859736035_1_alg».proof.Proof.KI.Lin4Pieces
import proofs.«144042_j23673859736035_1_alg».proof.Proof.KI.LinSum4
import proofs.«144042_j23673859736035_1_alg».proof.Proof.KI.LinStatsSpec

/-! # Region 4: one grid point's outputs from the point before, and the blocks as pieces of the whole arrays

Per control case, what the point leaves in window 5, in the two carried rows and (last point) in windows 6 and 7, as the
body's arithmetic of the point's five input blocks and the rows the point before left. Then the geometry: the weight
and bias windows hold their whole arrays at every point; row `q` of the aggregated and of the feature block at point `t`
is row `5000·t + q` of the whole array. For any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One point's outputs and carried rows, from the rows the point before left -/

/-- The first point: the linear block of the point's blocks; the two rows from zero rows. -/
theorem outs4_A (c : Dev nD) (t : Fin cfg4.N) (h0 : t.val % 10 = 0) (h1 : ¬t.val % 10 = 9) :
    outsAt4 V c t.val t.isLt
      = (k4_pay6 (iblk4 V c 0 t) (iblk4 V c 2 t) (iblk4 V c 4 t) (iblk4 V c 1 t) (iblk4 V c 3 t), unset4, unset4,
         k4_pay7 (iblk4 V c 0 t) (iblk4 V c 2 t) (iblk4 V c 4 t) (iblk4 V c 1 t) (iblk4 V c 3 t) (k4_pay4 (F := F)),
         k4_pay8 (iblk4 V c 0 t) (iblk4 V c 2 t) (iblk4 V c 4 t) (iblk4 V c 1 t) (iblk4 V c 3 t) (k4_pay5 (F := F))) := by
  rw [outsAt4_A V c t h0 h1, lin4_A_eq, sum4_A_eq, sq4_A_eq]

/-- A middle point: the two rows from the rows the point before left. -/
theorem outs4_B (c : Dev nD) (t : Fin cfg4.N) (h0 : ¬t.val % 10 = 0) (h1 : ¬t.val % 10 = 9) :
    outsAt4 V c t.val t.isLt
      = (k4_pay6 (iblk4 V c 0 t) (iblk4 V c 2 t) (iblk4 V c 4 t) (iblk4 V c 1 t) (iblk4 V c 3 t), unset4, unset4,
         k4_pay7 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.1,
         k4_pay8 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.2) := by
  rw [outsAt4_B V c t h0 h1, lin4_B_eq, sum4_B_eq, sq4_B_eq]

/-- The last point: also mean and variance, from the two rows it has just completed. -/
theorem outs4_C (c : Dev nD) (t : Fin cfg4.N) (h0 : ¬t.val % 10 = 0) (h1 : t.val % 10 = 9) :
    outsAt4 V c t.val t.isLt
      = (k4_pay6 (iblk4 V c 0 t) (iblk4 V c 2 t) (iblk4 V c 4 t) (iblk4 V c 1 t) (iblk4 V c 3 t),
         k4_pay2 (k4_pay7 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.1),
         k4_pay3 (k4_pay7 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.1) (k4_pay8 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.2),
         k4_pay7 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.1,
         k4_pay8 (iblk4 V c 0 t) (iblk4 V c 2 t) (iblk4 V c 4 t) (iblk4 V c 1 t) (iblk4 V c 3 t) (outsAt4 V c (t.val - 1) (Nat.lt_of_le_of_lt (Nat.sub_le _ _) t.isLt)).2.2.2.2) := by
  rw [outsAt4_C V c t h0 h1, lin4_C_eq, sum4_C_eq, sq4_C_eq, mean4_C_eq, var4_C_eq]

/-- At every point window 5 ends holding the linear block of the point's blocks. -/
theorem linOut4 (c : Dev nD) (t : Fin cfg4.N) :
    (outsAt4 V c t.val t.isLt).1 = k4_pay6 (iblk4 V c 0 t) (iblk4 V c 2 t) (iblk4 V c 4 t) (iblk4 V c 1 t) (iblk4 V c 3 t) := by
  by_cases h0 : t.val % 10 = 0
  · rw [outs4_A V c t h0 (by omega)]
  · by_cases h1 : t.val % 10 = 9
    · rw [outs4_C V c t h0 h1]
    · rw [outs4_B V c t h0 h1]

/-! ## The index maps over the ten points -/

/-- The two input blocks and the output block are block `t` of the rows; the weights, the bias row, mean and variance
    stay at block 0. -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- A point of the region's grid as one of the ten points, and back. -/
abbrev ten4 (t : Fin cfg4.N) : Fin 10 := ⟨t.val, lt_of_lt_of_eq t.isLt N_4⟩
abbrev pt4 (t : Fin 10) : Fin cfg4.N := ⟨t.val, lt_of_lt_of_eq t.isLt N_4.symm⟩

/-- Window 2's block is the whole array at every point: its block index is constantly 0. -/
theorem wlBlock4 (c : Dev nD) (t : Fin cfg4.N) : (iblk4 V c 2 t : Vec F S256x256 .f32) = V c (Pipeline.arrRef spec4 2) := by
  obtain ⟨-, -, -, -, e20, e21, e30, e31, e40, e41, -, -, -, -, -, -⟩ := blockIdx4 t
  funext j
  show V c (Pipeline.arrRef spec4 2) (((cfg4.win 2).blk t).view.emb j) = V c (Pipeline.arrRef spec4 2) j
  refine congrArg _ ?_
  funext a; apply Fin.ext
  match a with
  | ⟨0, _⟩ => show win4_2.index t (0 : Fin 2) * 256 + 1 * (j 0).val = (j 0).val; omega
  | ⟨1, _⟩ => show win4_2.index t (1 : Fin 2) * 256 + 1 * (j 1).val = (j 1).val; omega

/-- Window 3's block is the whole array at every point: its block index is constantly 0. -/
theorem wrBlock4 (c : Dev nD) (t : Fin cfg4.N) : (iblk4 V c 3 t : Vec F S256x256 .f32) = V c (Pipeline.arrRef spec4 3) := by
  obtain ⟨-, -, -, -, e20, e21, e30, e31, e40, e41, -, -, -, -, -, -⟩ := blockIdx4 t
  funext j
  show V c (Pipeline.arrRef spec4 3) (((cfg4.win 3).blk t).view.emb j) = V c (Pipeline.arrRef spec4 3) j
  refine congrArg _ ?_
  funext a; apply Fin.ext
  match a with
  | ⟨0, _⟩ => show win4_3.index t (0 : Fin 2) * 256 + 1 * (j 0).val = (j 0).val; omega
  | ⟨1, _⟩ => show win4_3.index t (1 : Fin 2) * 256 + 1 * (j 1).val = (j 1).val; omega

/-- Window 4's block is the whole array at every point: its block index is constantly 0. -/
theorem blBlock4 (c : Dev nD) (t : Fin cfg4.N) : (iblk4 V c 4 t : Vec F S1x256 .f32) = V c (Pipeline.arrRef spec4 4) := by
  obtain ⟨-, -, -, -, e20, e21, e30, e31, e40, e41, -, -, -, -, -, -⟩ := blockIdx4 t
  funext j
  show V c (Pipeline.arrRef spec4 4) (((cfg4.win 4).blk t).view.emb j) = V c (Pipeline.arrRef spec4 4) j
  refine congrArg _ ?_
  funext a; apply Fin.ext
  match a with
  | ⟨0, _⟩ => show win4_4.index t (0 : Fin 2) * 1 + 1 * (j 0).val = (j 0).val; omega
  | ⟨1, _⟩ => show win4_4.index t (1 : Fin 2) * 256 + 1 * (j 1).val = (j 1).val; omega

/-- Row `q` of window 0's block at point `t` is row `5000·t + q` of its array. -/
theorem aggBlock4_read (c : Dev nD) (t : Fin cfg4.N) (q : Fin 5000) (k : Fin 256) :
    iblk4 V c 0 t (ix2 (n0 := 5000) (n1 := 256) q k)
      = V c (Pipeline.arrRef spec4 0) (ix2 (n0 := 50000) (n1 := 256) (LinVal.rowOf (ten4 t) q) k) := by
  obtain ⟨e00, e01, e10, e11, -, -, -, -, -, -, -, -, -, -, -, -⟩ := blockIdx4 t
  show V c (Pipeline.arrRef spec4 0) (((cfg4.win 0).blk t).view.emb (ix2 (n0 := 5000) (n1 := 256) q k)) = _
  refine congrArg _ ?_
  funext a; apply Fin.ext
  match a with
  | ⟨0, _⟩ => show win4_0.index t (0 : Fin 2) * 5000 + 1 * q.val = t.val * 5000 + q.val; omega
  | ⟨1, _⟩ => show win4_0.index t (1 : Fin 2) * 256 + 1 * k.val = k.val; omega

/-- Row `q` of window 1's block at point `t` is row `5000·t + q` of its array. -/
theorem featBlock4_read (c : Dev nD) (t : Fin cfg4.N) (q : Fin 5000) (k : Fin 256) :
    iblk4 V c 1 t (ix2 (n0 := 5000) (n1 := 256) q k)
      = V c (Pipeline.arrRef spec4 1) (ix2 (n0 := 50000) (n1 := 256) (LinVal.rowOf (ten4 t) q) k) := by
  obtain ⟨e00, e01, e10, e11, -, -, -, -, -, -, -, -, -, -, -, -⟩ := blockIdx4 t
  show V c (Pipeline.arrRef spec4 1) (((cfg4.win 1).blk t).view.emb (ix2 (n0 := 5000) (n1 := 256) q k)) = _
  refine congrArg _ ?_
  funext a; apply Fin.ext
  match a with
  | ⟨0, _⟩ => show win4_1.index t (0 : Fin 2) * 5000 + 1 * q.val = t.val * 5000 + q.val; omega
  | ⟨1, _⟩ => show win4_1.index t (1 : Fin 2) * 256 + 1 * k.val = k.val; omega

end Cert.KernelIdeal.Hand

end
-- ==== Proof.KI.Lin4ValRows.lean ====
import proofs.«144042_j23673859736035_1_alg».proof.Proof.KI.Lin4Steps

/-! # Region 4: the two carried rows are the running column sums

Point by point the row of sums is the row before plus the column sums of the point's linear block, from a zero row at
the first point, and the row of sums of squares likewise; at the exact values they are therefore, after point `n`, the
column sums (and sums of squares) of the linear values of the first `n + 1` row blocks, and after the last point of all
50000 rows. The last point stores the mean and the variance computed from them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried rows, point by point, over the whole weight and bias arrays -/

/-- After the first point: from zero rows. -/
theorem rowsFirst4 (c : Dev nD) (hn : 0 < cfg4.N) :
    (outsAt4 V c 0 hn).2.2.2.1 = k4_pay7 (iblk4 V c 0 ⟨0, hn⟩) (V c (Pipeline.arrRef spec4 2)) (V c (Pipeline.arrRef spec4 4)) (iblk4 V c 1 ⟨0, hn⟩) (V c (Pipeline.arrRef spec4 3)) (k4_pay4 (F := F))
    ∧ (outsAt4 V c 0 hn).2.2.2.2 = k4_pay8 (iblk4 V c 0 ⟨0, hn⟩) (V c (Pipeline.arrRef spec4 2)) (V c (Pipeline.arrRef spec4 4)) (iblk4 V c 1 ⟨0, hn⟩) (V c (Pipeline.arrRef spec4 3)) (k4_pay5 (F := F)) := by
  have e := outs4_A V c ⟨0, hn⟩ rfl (by show ¬(0 % 10 = 9); decide)
  have ks : (outsAt4 V c 0 hn).2.2.2.1 = _ := congrArg (fun p => p.2.2.2.1) e
  have kq : (outsAt4 V c 0 hn).2.2.2.2 = _ := congrArg (fun p => p.2.2.2.2) e
  dsimp only at ks kq
  rw [wlBlock4, blBlock4, wrBlock4] at ks kq
  exact ⟨ks, kq⟩

set_option maxHeartbeats 1000000 in
/-- After a later point: from the rows the point before left, in either of the two later control cases. -/
theorem rowsStep4 (c : Dev nD) (n : ℕ) (hn : n + 1 < cfg4.N) :
    (outsAt4 V c (n + 1) hn).2.2.2.1
        = k4_pay7 (iblk4 V c 0 ⟨n + 1, hn⟩) (V c (Pipeline.arrRef spec4 2)) (V c (Pipeline.arrRef spec4 4)) (iblk4 V c 1 ⟨n + 1, hn⟩) (V c (Pipeline.arrRef spec4 3)) (outsAt4 V c n (Nat.lt_of_succ_lt hn)).2.2.2.1
    ∧ (outsAt4 V c (n + 1) hn).2.2.2.2
        = k4_pay8 (iblk4 V c 0 ⟨n + 1, hn⟩) (V c (Pipeline.arrRef spec4 2)) (V c (Pipeline.arrRef spec4 4)) (iblk4 V c 1 ⟨n + 1, hn⟩) (V c (Pipeline.arrRef spec4 3)) (outsAt4 V c n (Nat.lt_of_succ_lt hn)).2.2.2.2 := by
  have hN : cfg4.N = 10 := N_4
  have h0 : ¬(⟨n + 1, hn⟩ : Fin cfg4.N).val % 10 = 0 := by dsimp only; omega
  have key : (outsAt4 V c (n + 1) hn).2.2.2.1
        = k4_pay7 (iblk4 V c 0 ⟨n + 1, hn⟩) (iblk4 V c 2 ⟨n + 1, hn⟩) (iblk4 V c 4 ⟨n + 1, hn⟩) (iblk4 V c 1 ⟨n + 1, hn⟩) (iblk4 V c 3 ⟨n + 1, hn⟩) (outsAt4 V c n (Nat.lt_of_succ_lt hn)).2.2.2.1
      ∧ (outsAt4 V c (n + 1) hn).2.2.2.2
        = k4_pay8 (iblk4 V c 0 ⟨n + 1, hn⟩) (iblk4 V c 2 ⟨n + 1, hn⟩) (iblk4 V c 4 ⟨n + 1, hn⟩) (iblk4 V c 1 ⟨n + 1, hn⟩) (iblk4 V c 3 ⟨n + 1, hn⟩) (outsAt4 V c n (Nat.lt_of_succ_lt hn)).2.2.2.2 := by
    by_cases h1 : (⟨n + 1, hn⟩ : Fin cfg4.N).val % 10 = 9
    · have e := outs4_C V c ⟨n + 1, hn⟩ h0 h1
      exact ⟨congrArg (fun p => p.2.2.2.1) e, congrArg (fun p => p.2.2.2.2) e⟩
    · have e := outs4_B V c ⟨n + 1, hn⟩ h0 h1
      exact ⟨congrArg (fun p => p.2.2.2.1) e, congrArg (fun p => p.2.2.2.2) e⟩
  obtain ⟨ks, kq⟩ := key
  rw [wlBlock4, blBlock4, wrBlock4] at ks kq
  exact ⟨ks, kq⟩

/-- At the last point windows 6 and 7 end holding the mean and the variance of the two rows the point completes. -/
theorem lastOut4 (c : Dev nD) (t : Fin cfg4.N) (h1 : t.val % 10 = 9) :
    (outsAt4 V c t.val t.isLt).2.1 = k4_pay2 (outsAt4 V c t.val t.isLt).2.2.2.1
    ∧ (outsAt4 V c t.val t.isLt).2.2.1 = k4_pay3 (outsAt4 V c t.val t.isLt).2.2.2.1 (outsAt4 V c t.val t.isLt).2.2.2.2 := by
  have e := outs4_C V c t (by omega) h1
  have es : (outsAt4 V c t.val t.isLt).2.2.2.1 = _ := congrArg (fun p => p.2.2.2.1) e
  have eq : (outsAt4 V c t.val t.isLt).2.2.2.2 = _ := congrArg (fun p => p.2.2.2.2) e
  have em : (outsAt4 V c t.val t.isLt).2.1 = _ := congrArg (fun p => p.2.1) e
  have ev : (outsAt4 V c t.val t.isLt).2.2.1 = _ := congrArg (fun p => p.2.2.1) e
  exact ⟨em.trans (congrArg (k4_pay2 (F := F)) es.symm), ev.trans (congrArg₂ (k4_pay3 (F := F)) es.symm eq.symm)⟩

/-! ## At the exact values: the carried rows are the running column sums -/

section AtIdeal

-- the buffer contents when the region is entered, at the exact values
variable (VI : (c : Dev nD) → (b : Ref sig .tc) → Buf (Elt Ideal) ((c : Thread nD τ).loc b))

/-- The ten aggregated blocks and the ten feature blocks the points see. -/
abbrev aggBlocks4 (c : Dev nD) : Fin 10 → Vec Ideal S5000x256 .f32 := fun t => iblk4 VI c 0 (pt4 t)
abbrev featBlocks4 (c : Dev nD) : Fin 10 → Vec Ideal S5000x256 .f32 := fun t => iblk4 VI c 1 (pt4 t)

set_option maxHeartbeats 1000000 in
/-- After the first point the two rows are the running sums over one block. -/
theorem rowsBase4 (c : Dev nD) (hn : 0 < cfg4.N) :
    (outsAt4 VI c 0 hn).2.2.2.1 = LinVal.sAt4 (aggBlocks4 VI c) (featBlocks4 VI c) (VI c (Pipeline.arrRef spec4 2)) (VI c (Pipeline.arrRef spec4 4)) (VI c (Pipeline.arrRef spec4 3)) 1
    ∧ (outsAt4 VI c 0 hn).2.2.2.2 = LinVal.qAt4 (aggBlocks4 VI c) (featBlocks4 VI c) (VI c (Pipeline.arrRef spec4 2)) (VI c (Pipeline.arrRef spec4 4)) (VI c (Pipeline.arrRef spec4 3)) 1 := by
  obtain ⟨ks, kq⟩ := rowsFirst4 VI c hn
  exact ⟨ks.trans (LinVal.sAt4_succ (aggBlocks4 VI c) (featBlocks4 VI c) (VI c (Pipeline.arrRef spec4 2)) (VI c (Pipeline.arrRef spec4 4)) (VI c (Pipeline.arrRef spec4 3)) (n := 0) (by decide)).symm,
    kq.trans (LinVal.qAt4_succ (aggBlocks4 VI c) (featBlocks4 VI c) (VI c (Pipeline.arrRef spec4 2)) (VI c (Pipeline.arrRef spec4 4)) (VI c (Pipeline.arrRef spec4 3)) (n := 0) (by decide)).symm⟩

set_option maxHeartbeats 1000000 in
/-- If they are the running sums over `n + 1` blocks after point `n`, they are those over `n + 2` after point `n + 1`. -/
theorem rowsSucc4 (c : Dev nD) (n : ℕ) (hn : n + 1 < cfg4.N)
    (ihs : (outsAt4 VI c n (Nat.lt_of_succ_lt hn)).2.2.2.1 = LinVal.sAt4 (aggBlocks4 VI c) (featBlocks4 VI c) (VI c (Pipeline.arrRef spec4 2)) (VI c (Pipeline.arrRef spec4 4)) (VI c (Pipeline.arrRef spec4 3)) (n + 1))
    (ihq : (outsAt4 VI c n (Nat.lt_of_succ_lt hn)).2.2.2.2 = LinVal.qAt4 (aggBlocks4 VI c) (featBlocks4 VI c) (VI c (Pipeline.arrRef spec4 2)) (VI c (Pipeline.arrRef spec4 4)) (VI c (Pipeline.arrRef spec4 3)) (n + 1)) :
    (outsAt4 VI c (n + 1) hn).2.2.2.1 = LinVal.sAt4 (aggBlocks4 VI c) (featBlocks4 VI c) (VI c (Pipeline.arrRef spec4 2)) (VI c (Pipeline.arrRef spec4 4)) (VI c (Pipeline.arrRef spec4 3)) (n + 1 + 1)
    ∧ (outsAt4 VI c (n + 1) hn).2.2.2.2 = LinVal.qAt4 (aggBlocks4 VI c) (featBlocks4 VI c) (VI c (Pipeline.arrRef spec4 2)) (VI c (Pipeline.arrRef spec4 4)) (VI c (Pipeline.arrRef spec4 3)) (n + 1 + 1) := by
  have hn10 : n + 1 < 10 := lt_of_lt_of_eq hn N_4
  obtain ⟨ks, kq⟩ := rowsStep4 VI c n hn
  rw [ihs] at ks
  rw [ihq] at kq
  exact ⟨ks.trans (LinVal.sAt4_succ (aggBlocks4 VI c) (featBlocks4 VI c) (VI c (Pipeline.arrRef spec4 2)) (VI c (Pipeline.arrRef spec4 4)) (VI c (Pipeline.arrRef spec4 3)) hn10).symm, kq.trans (LinVal.qAt4_succ (aggBlocks4 VI c) (featBlocks4 VI c) (VI c (Pipeline.arrRef spec4 2)) (VI c (Pipeline.arrRef spec4 4)) (VI c (Pipeline.arrRef spec4 3)) hn10).symm⟩

/-- After point `n` the two carried rows are the running column sums, and sums of squares, of the first `n + 1` blocks'
    linear values: by induction on the point. -/
theorem rows4_eq (c : Dev nD) (n : ℕ) : ∀ hn : n < cfg4.N,
    (outsAt4 VI c n hn).2.2.2.1 = LinVal.sAt4 (aggBlocks4 VI c) (featBlocks4 VI c) (VI c (Pipeline.arrRef spec4 2)) (VI c (Pipeline.arrRef spec4 4)) (VI c (Pipeline.arrRef spec4 3)) (n + 1)
    ∧ (outsAt4 VI c n hn).2.2.2.2 = LinVal.qAt4 (aggBlocks4 VI c) (featBlocks4 VI c) (VI c (Pipeline.arrRef spec4 2)) (VI c (Pipeline.arrRef spec4 4)) (VI c (Pipeline.arrRef spec4 3)) (n + 1) := by
  induction n with
  | zero => exact fun hn => rowsBase4 VI c hn
  | succ n ih => exact fun hn => rowsSucc4 VI c n hn (ih (Nat.lt_of_succ_lt hn)).1 (ih (Nat.lt_of_succ_lt hn)).2

set_option maxHeartbeats 1000000 in
/-- At the last point windows 6 and 7 end holding the mean and the variance computed from the completed rows. -/
theorem lastRows4 (c : Dev nD) (t : Fin cfg4.N) (h1 : t.val % 10 = 9) :
    (outsAt4 VI c t.val t.isLt).2.1 = k4_pay2 (F := Ideal) (LinVal.sAt4 (aggBlocks4 VI c) (featBlocks4 VI c) (VI c (Pipeline.arrRef spec4 2)) (VI c (Pipeline.arrRef spec4 4)) (VI c (Pipeline.arrRef spec4 3)) 10)
    ∧ (outsAt4 VI c t.val t.isLt).2.2.1 = k4_pay3 (F := Ideal) (LinVal.sAt4 (aggBlocks4 VI c) (featBlocks4 VI c) (VI c (Pipeline.arrRef spec4 2)) (VI c (Pipeline.arrRef spec4 4)) (VI c (Pipeline.arrRef spec4 3)) 10) (LinVal.qAt4 (aggBlocks4 VI c) (featBlocks4 VI c) (VI c (Pipeline.arrRef spec4 2)) (VI c (Pipeline.arrRef spec4 4)) (VI c (Pipeline.arrRef spec4 3)) 10) := by
  have hN : cfg4.N = 10 := N_4
  have h10 : t.val + 1 = 10 := by have := t.isLt; omega
  obtain ⟨rs, rq⟩ := rows4_eq VI c t.val t.isLt
  obtain ⟨em, ev⟩ := lastOut4 VI c t h1
  rw [rs] at em ev
  rw [rq] at ev
  rw [h10] at em ev
  exact ⟨em, ev⟩

end AtIdeal

end Cert.KernelIdeal.Hand

end
-- ==== Proof.KI.Lin4Val.lean ====
import proofs.«144042_j23673859736035_1_alg».proof.Proof.KI.Lin4ValRows
import proofs.«144042_j23673859736035_1_alg».proof.Proof.KI.LinStatsSpecAt

/-! # Region 4: the three output arrays as functions of the five input arrays

At the exact values, after the region's ten points: the [50000,256] output array is the linear layer of the whole
aggregated and feature arrays — every point writes back its row block, and the ten blocks fill the array —; the mean
and variance rows, written back by the last point alone as their single block, are the column means of the linear
array and its column mean squares minus the squared means, the divisor the float 50000. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stored linear block at row `q`, column `j`, when the two input blocks' row `q` is row `R` of the whole arrays,
    is the linear array at `(R, j)`. -/
theorem stored_eq_linArr_r4 (X Y : S50000x256.Idx → EReal) (Wl Wr : S256x256.Idx → EReal) (bl : S1x256.Idx → EReal)
    (x0 x1 : Vec Ideal S5000x256 .f32) (q : Fin 5000) (jj : Fin 256) (R : Fin 50000) (i : S50000x256.Idx)
    (hR : (i 0).val = R.val) (hj : (i 1).val = jj.val)
    (h0 : ∀ k : Fin 256, x0 (ix2 (n0 := 5000) (n1 := 256) q k) = X (ix2 (n0 := 50000) (n1 := 256) R k))
    (h1 : ∀ k : Fin 256, x1 (ix2 (n0 := 5000) (n1 := 256) q k) = Y (ix2 (n0 := 50000) (n1 := 256) R k)) :
    k4_pay6 (F := Ideal) x0 Wl bl x1 Wr (ix2 (n0 := 5000) (n1 := 256) q jj) = linArr256 X Y Wl Wr bl i := by
  obtain rfl : i = ix2 (n0 := 50000) (n1 := 256) R jj := by
    funext a; apply Fin.ext
    match a with
    | ⟨0, _⟩ => exact hR
    | ⟨1, _⟩ => exact hj
  refine (LinVal.k4_pay6_apply x0 Wl bl x1 Wr q jj).trans ?_
  simp only [h0, h1]
  rfl

/-! ## From blocks to the arrays -/

section Arrays

variable (VI : (c : Dev nD) → (b : Ref sig .tc) → Buf (Elt Ideal) ((c : Thread nD τ).loc b))

/-- The linear value of row `R`, column `j`, of the ten blocks is the linear array's entry there: the blocks are the row
    blocks of the two whole input arrays. -/
theorem linRow4_eq (c : Dev nD) (R : Fin 50000) (j : Fin 256) :
    LinVal.lin4 (aggBlocks4 VI c) (featBlocks4 VI c) (VI c (Pipeline.arrRef spec4 2)) (VI c (Pipeline.arrRef spec4 4)) (VI c (Pipeline.arrRef spec4 3)) R j = (linArr256 (VI c (Pipeline.arrRef spec4 0)) (VI c (Pipeline.arrRef spec4 1)) (VI c (Pipeline.arrRef spec4 2)) (VI c (Pipeline.arrRef spec4 3)) (VI c (Pipeline.arrRef spec4 4))) (ix2 (n0 := 50000) (n1 := 256) R j) :=
  LinVal.lin4_of_rows _ _ _ _ _ (VI c (Pipeline.arrRef spec4 0)) (VI c (Pipeline.arrRef spec4 1)) (fun t q k => aggBlock4_read VI c (pt4 t) q k)
    (fun t q k => featBlock4_read VI c (pt4 t) q k) R j

set_option maxHeartbeats 1000000 in
/-- Point `t` writes back block `t` of the linear array. -/
theorem flushedLin4_eq (c : Dev nD) (t : Fin cfg4.N) :
    (dat4 VI c).flushed 5 t = ((cfg4.win 5).blk t).view.read (Elt Ideal) (linArr256 (VI c (Pipeline.arrRef spec4 0)) (VI c (Pipeline.arrRef spec4 1)) (VI c (Pipeline.arrRef spec4 2)) (VI c (Pipeline.arrRef spec4 3)) (VI c (Pipeline.arrRef spec4 4))) := by
  obtain ⟨-, -, -, -, -, -, -, -, -, -, e50, e51, -, -, -, -⟩ := blockIdx4 t
  show (cfg4.win 5).cut (grid4.coords t) ((dat4 VI c).after 5 t) = _
  rw [after4_5, linOut4, wlBlock4, blBlock4, wrBlock4]
  refine funext fun (j : S5000x256.Idx) => ?_
  obtain ⟨q, jj, rfl⟩ : ∃ (q : Fin 5000) (jj : Fin 256), j = ix2 q jj := ⟨j 0, j 1, eq_ix2 j⟩
  refine stored_eq_linArr_r4 _ _ _ _ _ _ _ q jj (LinVal.rowOf (ten4 t) q) (((cfg4.win 5).blk t).view.emb (ix2 (n0 := 5000) (n1 := 256) q jj)) ?_ ?_
    (fun k => aggBlock4_read VI c t q k) (fun k => featBlock4_read VI c t q k)
  · show win4_5.index t (0 : Fin 2) * 5000 + 1 * q.val = t.val * 5000 + q.val; omega
  · show win4_5.index t (1 : Fin 2) * 256 + 1 * jj.val = jj.val; omega

/-- An index of the linear array is in point `t`'s block iff each coordinate is in the block's range on its axis. -/
theorem mem_linBlock4 (t : Fin cfg4.N) (i : S50000x256.Idx) :
    i ∈ ((cfg4.win 5).blk t).view.set ↔ ∀ a : Fin 2, win4_5.index t a * S5000x256.size a ≤ (i a).val ∧ (i a).val < win4_5.index t a * S5000x256.size a + S5000x256.size a := by
  show i ∈ ((View.whole main_v84_0).slice (win4_5.rect t)).set ↔ _
  rw [View.set_slice_whole, Rect.mem_set_unit]
  exact Iff.rfl

/-- The ten row blocks fill the linear array: row `r` lies in the block of point `r / 5000`. -/
theorem linCover4 (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  have hN : (i 0).val / 5000 < grid4.N := by rw [N_4]; omega
  obtain ⟨-, -, -, -, -, -, -, -, -, -, e50, e51, -, -, -, -⟩ := blockIdx4 ⟨(i 0).val / 5000, hN⟩
  have e50' : win4_5.index ⟨(i 0).val / 5000, hN⟩ (0 : Fin 2) = (i 0).val / 5000 := e50
  refine ⟨⟨(i 0).val / 5000, hN⟩, flush4_5 _, ?_⟩
  rw [mem_linBlock4]
  intro a
  match a with
  | ⟨0, _⟩ => show win4_5.index ⟨(i 0).val / 5000, hN⟩ (0 : Fin 2) * 5000 ≤ (i 0).val ∧ (i 0).val < win4_5.index ⟨(i 0).val / 5000, hN⟩ (0 : Fin 2) * 5000 + 5000; omega
  | ⟨1, _⟩ => show win4_5.index ⟨(i 0).val / 5000, hN⟩ (1 : Fin 2) * 256 ≤ (i 1).val ∧ (i 1).val < win4_5.index ⟨(i 0).val / 5000, hN⟩ (1 : Fin 2) * 256 + 256; omega

/-- THE LINEAR ARRAY after the region's ten points. -/
theorem lin_array4 (c : Dev nD) : (dat4 VI c).arrAt 5 cfg4.N = (linArr256 (VI c (Pipeline.arrRef spec4 0)) (VI c (Pipeline.arrRef spec4 1)) (VI c (Pipeline.arrRef spec4 2)) (VI c (Pipeline.arrRef spec4 3)) (VI c (Pipeline.arrRef spec4 4))) :=
  (dat4 VI c).arrAt_eq_of_cover 5 _ (fun t _ => flushedLin4_eq VI c t) linCover4

set_option maxHeartbeats 1000000 in
/-- The last point — the only one that writes window 6 back — writes `meanRow` of the linear array. -/
theorem flushedMean4_eq (c : Dev nD) (t : Fin cfg4.N) (hf : (cfg4.win 6).flush t = true) :
    (dat4 VI c).flushed 6 t = ((cfg4.win 6).blk t).view.read (Elt Ideal) (meanRow (linArr256 (VI c (Pipeline.arrRef spec4 0)) (VI c (Pipeline.arrRef spec4 1)) (VI c (Pipeline.arrRef spec4 2)) (VI c (Pipeline.arrRef spec4 3)) (VI c (Pipeline.arrRef spec4 4)))) := by
  have h1 : t.val % 10 = 9 := (flush4_6 t).mp hf
  obtain ⟨-, -, -, -, -, -, -, -, -, -, -, -, e60, e61, e70, e71⟩ := blockIdx4 t
  show (cfg4.win 6).cut (grid4.coords t) ((dat4 VI c).after 6 t) = _
  rw [after4_6, (lastRows4 VI c t h1).1]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.mean4_apply (aggBlocks4 VI c) (featBlocks4 VI c) (VI c (Pipeline.arrRef spec4 2)) (VI c (Pipeline.arrRef spec4 4)) (VI c (Pipeline.arrRef spec4 3)) jj).trans ?_
  refine Eq.trans ?_ (meanRow_apply (linArr256 (VI c (Pipeline.arrRef spec4 0)) (VI c (Pipeline.arrRef spec4 1)) (VI c (Pipeline.arrRef spec4 2)) (VI c (Pipeline.arrRef spec4 3)) (VI c (Pipeline.arrRef spec4 4))) (((cfg4.win 6).blk t).view.emb (ix2 (n0 := 1) (n1 := 256) 0 jj)) jj ?_).symm
  · simp only [linRow4_eq VI c]
  · show win4_6.index t (1 : Fin 2) * 256 + 1 * jj.val = jj.val; omega

/-- The single block of window 6 is its whole [1,256] array. -/
theorem meanCover4 (i : S1x256.Idx) :
    ∃ t : Fin cfg4.N, (cfg4.win 6).flush t = true ∧ i ∈ ((cfg4.win 6).blk t).view.set := by
  have hi0 : (i 0).val < 1 := (i 0).isLt
  have hi1 : (i 1).val < 256 := (i 1).isLt
  have h9 : 9 < grid4.N := by rw [N_4]; decide
  obtain ⟨-, -, -, -, -, -, -, -, -, -, -, -, e60, e61, e70, e71⟩ := blockIdx4 ⟨9, h9⟩
  refine ⟨⟨9, h9⟩, (flush4_6 _).mpr rfl, ?_⟩
  show i ∈ ((View.whole main_v84_1).slice (win4_6.rect ⟨9, h9⟩)).set
  rw [View.set_slice_whole, Rect.mem_set_unit]
  intro a
  match a with
  | ⟨0, _⟩ => show win4_6.index ⟨9, h9⟩ (0 : Fin 2) * 1 ≤ (i 0).val ∧ (i 0).val < win4_6.index ⟨9, h9⟩ (0 : Fin 2) * 1 + 1; omega
  | ⟨1, _⟩ => show win4_6.index ⟨9, h9⟩ (1 : Fin 2) * 256 ≤ (i 1).val ∧ (i 1).val < win4_6.index ⟨9, h9⟩ (1 : Fin 2) * 256 + 256; omega

/-- THE MEAN ROW after the region. -/
theorem mean_array4 (c : Dev nD) : (dat4 VI c).arrAt 6 cfg4.N = meanRow (linArr256 (VI c (Pipeline.arrRef spec4 0)) (VI c (Pipeline.arrRef spec4 1)) (VI c (Pipeline.arrRef spec4 2)) (VI c (Pipeline.arrRef spec4 3)) (VI c (Pipeline.arrRef spec4 4))) :=
  (dat4 VI c).arrAt_eq_of_cover 6 _ (fun t hf => flushedMean4_eq VI c t hf) meanCover4

set_option maxHeartbeats 1000000 in
/-- The last point — the only one that writes window 7 back — writes `varRow` of the linear array. -/
theorem flushedVar4_eq (c : Dev nD) (t : Fin cfg4.N) (hf : (cfg4.win 7).flush t = true) :
    (dat4 VI c).flushed 7 t = ((cfg4.win 7).blk t).view.read (Elt Ideal) (varRow (linArr256 (VI c (Pipeline.arrRef spec4 0)) (VI c (Pipeline.arrRef spec4 1)) (VI c (Pipeline.arrRef spec4 2)) (VI c (Pipeline.arrRef spec4 3)) (VI c (Pipeline.arrRef spec4 4)))) := by
  have h1 : t.val % 10 = 9 := (flush4_7 t).mp hf
  obtain ⟨-, -, -, -, -, -, -, -, -, -, -, -, e60, e61, e70, e71⟩ := blockIdx4 t
  show (cfg4.win 7).cut (grid4.coords t) ((dat4 VI c).after 7 t) = _
  rw [after4_7, (lastRows4 VI c t h1).2]
  refine funext fun (j : S1x256.Idx) => ?_
  obtain ⟨z, jj, rfl⟩ : ∃ (z : Fin 1) (jj : Fin 256), j = ix2 z jj := ⟨j 0, j 1, eq_ix2 j⟩
  obtain rfl : z = 0 := Subsingleton.elim _ _
  refine (LinVal.var4_apply (aggBlocks4 VI c) (featBlocks4 VI c) (VI c (Pipeline.arrRef spec4 2)) (VI c (Pipeline.arrRef spec4 4)) (VI c (Pipeline.arrRef spec4 3)) jj).trans ?_
  refine Eq.trans ?_ (varRow_apply (linArr256 (VI c (Pipeline.arrRef spec4 0)) (VI c (Pipeline.arrRef spec4 1)) (VI c (Pipeline.arrRef spec4 2)) (VI c (Pipeline.arrRef spec4 3)) (VI c (Pipeline.arrRef spec4 4))) (((cfg4.win 7).blk t).view.emb (ix2 (n0 := 1) (n1 := 256) 0 jj)) jj ?_).symm
  · simp only [linRow4_eq VI c]
  · show win4_7.index t (1 : Fin 2) * 256 + 1 * jj.val = jj.val; omega

/-- The single block of window 7 is its whole [1,256] array. -/
theorem varCover4 (i : S1x256.Idx) :
    ∃ t : Fin cfg4.N, (cfg4.win 7).flush t = true ∧ i ∈ ((cfg4.win 7).blk t).view.set := by
  have hi0 : (i 0).val < 1 := (i 0).isLt
  have hi1 : (i 1).val < 256 := (i 1).isLt
  have h9 : 9 < grid4.N := by rw [N_4]; decide
  obtain ⟨-, -, -, -, -, -, -, -, -, -, -, -, e60, e61, e70, e71⟩ := blockIdx4 ⟨9, h9⟩
  refine ⟨⟨9, h9⟩, (flush4_7 _).mpr rfl, ?_⟩
  show i ∈ ((View.whole main_v84_2).slice (win4_7.rect ⟨9, h9⟩)).set
  rw [View.set_slice_whole, Rect.mem_set_unit]
  intro a
  match a with
  | ⟨0, _⟩ => show win4_7.index ⟨9, h9⟩ (0 : Fin 2) * 1 ≤ (i 0).val ∧ (i 0).val < win4_7.index ⟨9, h9⟩ (0 : Fin 2) * 1 + 1; omega
  | ⟨1, _⟩ => show win4_7.index ⟨9, h9⟩ (1 : Fin 2) * 256 ≤ (i 1).val ∧ (i 1).val < win4_7.index ⟨9, h9⟩ (1 : Fin 2) * 256 + 256; omega

/-- THE VARIANCE ROW after the region. -/
theorem var_array4 (c : Dev nD) : (dat4 VI c).arrAt 7 cfg4.N = varRow (linArr256 (VI c (Pipeline.arrRef spec4 0)) (VI c (Pipeline.arrRef spec4 1)) (VI c (Pipeline.arrRef spec4 2)) (VI c (Pipeline.arrRef spec4 3)) (VI c (Pipeline.arrRef spec4 4))) :=
  (dat4 VI c).arrAt_eq_of_cover 7 _ (fun t hf => flushedVar4_eq VI c t hf) varCover4

end Arrays

end Cert.KernelIdeal.Hand

end
-- ==== Proof.KI.NormVal1.lean ====
import proofs.«144042_j23673859736035_1_alg».proof.Proof.KI.Norm1
import proofs.«144042_j23673859736035_1_alg».proof.Proof.KI.NormElt

/-! # The normalising region 1: the output array as one function of the five input arrays

Point `t` of the region writes back block `t` (rows `5000 t … 5000 t + 4999`) of the output; the stored block is, index by
index, `normG` of the arrays the region finds — the linear block is read where the output block lies, the four rows at
the output's column. The ten blocks fill the [50000,256] array, so after the last point the array is `normG` of the five
arrays. Stated at the region-entry contents `V`, for any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's stored value at one index -/

/-- The stored block at `(r, j)` is `normElt` of the linear block's `(r, j)` and column `j` of the four rows. -/
theorem k1_pay1_apply (v0 v2 : Vec F S1x256 .f32) (v8 : Vec F S5000x256 .f32) (v10 v16 : Vec F S1x256 .f32) (j : S5000x256.Idx) :
    k1_pay1 v0 v2 v8 v10 v16 j = normElt (v8 j) (v10 (ix2 (n0 := 1) (n1 := 256) 0 (j 1))) (v2 (ix2 (n0 := 1) (n1 := 256) 0 (j 1)))
      (v0 (ix2 (n0 := 1) (n1 := 256) 0 (j 1))) (v16 (ix2 (n0 := 1) (n1 := 256) 0 (j 1))) := by
  unfold k1_pay1 normElt normAff
  simp only [shapeCast_self, select_apply, cmpf_apply, broadcast_apply, mulf, addf, subf, rsqrt, rowBroadcast_apply]

/-! ## From blocks to the array -/

/-- The index maps over the ten points: the linear block moves with the output block, which is block `t` of the rows
    and block 0 of the columns; the four rows stay at block 0. -/
theorem blockIdx1 : ∀ t : Fin cfg1.N,
    win1_0.index t (0 : Fin 2) = win1_5.index t (0 : Fin 2) ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- At one index of a block: when each loaded block reads the arrays `A0 … A4` there — the linear block at `i`, the
    rows at column `i 1` — the stored value is `normG` of the arrays at `i`. -/
theorem stored_eq_normG1 (A0 : S50000x256.Idx → Elt F .f32) (A1 A2 A3 A4 : S1x256.Idx → Elt F .f32)
    (x0 : Vec F S5000x256 .f32) (x1 x2 x3 x4 : Vec F S1x256 .f32) (j : S5000x256.Idx) (i : S50000x256.Idx)
    (h0 : x0 j = A0 i)
    (h1 : x1 (ix2 (n0 := 1) (n1 := 256) 0 (j 1)) = A1 (ix2 (n0 := 1) (n1 := 256) 0 (i 1)))
    (h2 : x2 (ix2 (n0 := 1) (n1 := 256) 0 (j 1)) = A2 (ix2 (n0 := 1) (n1 := 256) 0 (i 1)))
    (h3 : x3 (ix2 (n0 := 1) (n1 := 256) 0 (j 1)) = A3 (ix2 (n0 := 1) (n1 := 256) 0 (i 1)))
    (h4 : x4 (ix2 (n0 := 1) (n1 := 256) 0 (j 1)) = A4 (ix2 (n0 := 1) (n1 := 256) 0 (i 1))) :
    k1_pay1 x3 x2 x0 x1 x4 j = normG A0 A1 A2 A3 A4 i := by
  rw [k1_pay1_apply, h0, h1, h2, h3, h4]
  rfl

/-- The linear block at point `t`, at index `j`, is the array where the output block's index `j` lies: the two
    windows have the same block index. -/
theorem linBlock1_read (c : Dev nD) (t : Fin cfg1.N) (j : S5000x256.Idx) :
    iblk1 V c 0 t j = V c (Pipeline.arrRef spec1 0) (((cfg1.win 5).blk t).view.emb j) := by
  obtain ⟨e00, e01, -, -, -, -, -, -, -, -, -, -⟩ := blockIdx1 t
  show V c (Pipeline.arrRef spec1 0) (((cfg1.win 0).blk t).view.emb j) = V c (Pipeline.arrRef spec1 0) (((cfg1.win 5).blk t).view.emb j)
  refine congrArg _ ?_
  funext a; apply Fin.ext
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 256 + 1 * (j 1).val = win1_5.index t (1 : Fin 2) * 256 + 1 * (j 1).val; omega

/-- Row window 1's block at point `t`, at column `j 1`, is the row array at the column of the output block's index `j`:
    the row's block index is 0 and so is the output's along the columns. -/
theorem rowBlock1_1_read (c : Dev nD) (t : Fin cfg1.N) (j : S5000x256.Idx) :
    iblk1 V c 1 t (ix2 (n0 := 1) (n1 := 256) 0 (j 1))
      = V c (Pipeline.arrRef spec1 1) (ix2 (n0 := 1) (n1 := 256) 0 ((((cfg1.win 5).blk t).view.emb j) 1)) := by
  obtain ⟨-, -, e10, e11, e20, e21, e30, e31, e40, e41, -, e51⟩ := blockIdx1 t
  show V c (Pipeline.arrRef spec1 1) (((cfg1.win 1).blk t).view.emb (ix2 (n0 := 1) (n1 := 256) 0 (j 1))) = _
  refine congrArg _ ?_
  funext a; apply Fin.ext
  match a with
  | ⟨0, _⟩ => show win1_1.index t (0 : Fin 2) * 1 + 1 * 0 = 0; omega
  | ⟨1, _⟩ => show win1_1.index t (1 : Fin 2) * 256 + 1 * (j 1).val = win1_5.index t (1 : Fin 2) * 256 + 1 * (j 1).val; omega

/-- Row window 2's block at point `t`, at column `j 1`, is the row array at the column of the output block's index `j`:
    the row's block index is 0 and so is the output's along the columns. -/
theorem rowBlock1_2_read (c : Dev nD) (t : Fin cfg1.N) (j : S5000x256.Idx) :
    iblk1 V c 2 t (ix2 (n0 := 1) (n1 := 256) 0 (j 1))
      = V c (Pipeline.arrRef spec1 2) (ix2 (n0 := 1) (n1 := 256) 0 ((((cfg1.win 5).blk t).view.emb j) 1)) := by
  obtain ⟨-, -, e10, e11, e20, e21, e30, e31, e40, e41, -, e51⟩ := blockIdx1 t
  show V c (Pipeline.arrRef spec1 2) (((cfg1.win 2).blk t).view.emb (ix2 (n0 := 1) (n1 := 256) 0 (j 1))) = _
  refine congrArg _ ?_
  funext a; apply Fin.ext
  match a with
  | ⟨0, _⟩ => show win1_2.index t (0 : Fin 2) * 1 + 1 * 0 = 0; omega
  | ⟨1, _⟩ => show win1_2.index t (1 : Fin 2) * 256 + 1 * (j 1).val = win1_5.index t (1 : Fin 2) * 256 + 1 * (j 1).val; omega

/-- Row window 3's block at point `t`, at column `j 1`, is the row array at the column of the output block's index `j`:
    the row's block index is 0 and so is the output's along the columns. -/
theorem rowBlock1_3_read (c : Dev nD) (t : Fin cfg1.N) (j : S5000x256.Idx) :
    iblk1 V c 3 t (ix2 (n0 := 1) (n1 := 256) 0 (j 1))
      = V c (Pipeline.arrRef spec1 3) (ix2 (n0 := 1) (n1 := 256) 0 ((((cfg1.win 5).blk t).view.emb j) 1)) := by
  obtain ⟨-, -, e10, e11, e20, e21, e30, e31, e40, e41, -, e51⟩ := blockIdx1 t
  show V c (Pipeline.arrRef spec1 3) (((cfg1.win 3).blk t).view.emb (ix2 (n0 := 1) (n1 := 256) 0 (j 1))) = _
  refine congrArg _ ?_
  funext a; apply Fin.ext
  match a with
  | ⟨0, _⟩ => show win1_3.index t (0 : Fin 2) * 1 + 1 * 0 = 0; omega
  | ⟨1, _⟩ => show win1_3.index t (1 : Fin 2) * 256 + 1 * (j 1).val = win1_5.index t (1 : Fin 2) * 256 + 1 * (j 1).val; omega

/-- Row window 4's block at point `t`, at column `j 1`, is the row array at the column of the output block's index `j`:
    the row's block index is 0 and so is the output's along the columns. -/
theorem rowBlock1_4_read (c : Dev nD) (t : Fin cfg1.N) (j : S5000x256.Idx) :
    iblk1 V c 4 t (ix2 (n0 := 1) (n1 := 256) 0 (j 1))
      = V c (Pipeline.arrRef spec1 4) (ix2 (n0 := 1) (n1 := 256) 0 ((((cfg1.win 5).blk t).view.emb j) 1)) := by
  obtain ⟨-, -, e10, e11, e20, e21, e30, e31, e40, e41, -, e51⟩ := blockIdx1 t
  show V c (Pipeline.arrRef spec1 4) (((cfg1.win 4).blk t).view.emb (ix2 (n0 := 1) (n1 := 256) 0 (j 1))) = _
  refine congrArg _ ?_
  funext a; apply Fin.ext
  match a with
  | ⟨0, _⟩ => show win1_4.index t (0 : Fin 2) * 1 + 1 * 0 = 0; omega
  | ⟨1, _⟩ => show win1_4.index t (1 : Fin 2) * 256 + 1 * (j 1).val = win1_5.index t (1 : Fin 2) * 256 + 1 * (j 1).val; omega

/-- What point `t` writes back is block `t` of `normG` of the five arrays as the region finds them. -/
theorem flushed1_eq (c : Dev nD) (t : Fin cfg1.N) :
    (dat1 V c).flushed 5 t = ((cfg1.win 5).blk t).view.read (Elt F)
      (normG (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeroOffsets]
  simp only [View.ld_unit_zero (S := S5000x256) zeroOffsets, View.ld_unit_zero (S := S1x256) zeroOffsets]
  funext j
  show k1_pay1 (iblk1 V c 3 t) (iblk1 V c 2 t) (iblk1 V c 0 t) (iblk1 V c 1 t) (iblk1 V c 4 t) j
    = normG _ _ _ _ _ (((cfg1.win 5).blk t).view.emb j)
  exact stored_eq_normG1 _ _ _ _ _ _ _ _ _ _ _ _ (linBlock1_read V c t j) (rowBlock1_1_read V c t j)
    (rowBlock1_2_read V c t j) (rowBlock1_3_read V c t j) (rowBlock1_4_read V c t j)

/-- An index of the output array is in point `t`'s block iff each coordinate is in the block's range on its axis. -/
theorem mem_block1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v33).slice (win1_5.rect t)).set ↔ _
  rw [View.set_slice_whole, Rect.mem_set_unit]
  exact Iff.rfl

/-- The ten row blocks fill the array: row `r` lies in the block of point `r / 5000`, and every point writes back. -/
theorem blocks_cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : (i 0).val / 5000 < grid1.N := by rw [N_1]; omega
  obtain ⟨-, -, -, -, -, -, -, -, -, -, e50, e51⟩ := blockIdx1 ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [mem_block1]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; omega
  | ⟨1, _⟩ => show win1_5.index ⟨(i 0).val / 5000, hN⟩ (1 : Fin 2) * 256 ≤ (i 1).val ∧ (i 1).val < win1_5.index ⟨(i 0).val / 5000, hN⟩ (1 : Fin 2) * 256 + 256; omega

/-- THE OUTPUT ARRAY after the region's ten points: `normG` of the five arrays as the region finds them. -/
theorem norm_array1 (c : Dev nD) :
    (dat1 V c).arrAt 5 cfg1.N
      = normG (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed1_eq V c t) blocks_cover1

end Cert.KernelIdeal.Hand

end
-- ==== Proof.KI.NormVal3.lean ====
import proofs.«144042_j23673859736035_1_alg».proof.Proof.KI.Norm3
import proofs.«144042_j23673859736035_1_alg».proof.Proof.KI.NormElt

/-! # The normalising region 3: the output array as one function of the five input arrays

Point `t` of the region writes back block `t` (rows `5000 t … 5000 t + 4999`) of the output; the stored block is, index by
index, `normG` of the arrays the region finds — the linear block is read where the output block lies, the four rows at
the output's column. The ten blocks fill the [50000,256] array, so after the last point the array is `normG` of the five
arrays. Stated at the region-entry contents `V`, for any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's stored value at one index -/

/-- The stored block at `(r, j)` is `normElt` of the linear block's `(r, j)` and column `j` of the four rows. -/
theorem k3_pay1_apply (v0 v2 : Vec F S1x256 .f32) (v8 : Vec F S5000x256 .f32) (v10 v16 : Vec F S1x256 .f32) (j : S5000x256.Idx) :
    k3_pay1 v0 v2 v8 v10 v16 j = normElt (v8 j) (v10 (ix2 (n0 := 1) (n1 := 256) 0 (j 1))) (v2 (ix2 (n0 := 1) (n1 := 256) 0 (j 1)))
      (v0 (ix2 (n0 := 1) (n1 := 256) 0 (j 1))) (v16 (ix2 (n0 := 1) (n1 := 256) 0 (j 1))) := by
  unfold k3_pay1 normElt normAff
  simp only [shapeCast_self, select_apply, cmpf_apply, broadcast_apply, mulf, addf, subf, rsqrt, rowBroadcast_apply]

/-! ## From blocks to the array -/

/-- The index maps over the ten points: the linear block moves with the output block, which is block `t` of the rows
    and block 0 of the columns; the four rows stay at block 0. -/
theorem blockIdx3 : ∀ t : Fin cfg3.N,
    win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- At one index of a block: when each loaded block reads the arrays `A0 … A4` there — the linear block at `i`, the
    rows at column `i 1` — the stored value is `normG` of the arrays at `i`. -/
theorem stored_eq_normG3 (A0 : S50000x256.Idx → Elt F .f32) (A1 A2 A3 A4 : S1x256.Idx → Elt F .f32)
    (x0 : Vec F S5000x256 .f32) (x1 x2 x3 x4 : Vec F S1x256 .f32) (j : S5000x256.Idx) (i : S50000x256.Idx)
    (h0 : x0 j = A0 i)
    (h1 : x1 (ix2 (n0 := 1) (n1 := 256) 0 (j 1)) = A1 (ix2 (n0 := 1) (n1 := 256) 0 (i 1)))
    (h2 : x2 (ix2 (n0 := 1) (n1 := 256) 0 (j 1)) = A2 (ix2 (n0 := 1) (n1 := 256) 0 (i 1)))
    (h3 : x3 (ix2 (n0 := 1) (n1 := 256) 0 (j 1)) = A3 (ix2 (n0 := 1) (n1 := 256) 0 (i 1)))
    (h4 : x4 (ix2 (n0 := 1) (n1 := 256) 0 (j 1)) = A4 (ix2 (n0 := 1) (n1 := 256) 0 (i 1))) :
    k3_pay1 x3 x2 x0 x1 x4 j = normG A0 A1 A2 A3 A4 i := by
  rw [k3_pay1_apply, h0, h1, h2, h3, h4]
  rfl

/-- The linear block at point `t`, at index `j`, is the array where the output block's index `j` lies: the two
    windows have the same block index. -/
theorem linBlock3_read (c : Dev nD) (t : Fin cfg3.N) (j : S5000x256.Idx) :
    iblk3 V c 0 t j = V c (Pipeline.arrRef spec3 0) (((cfg3.win 5).blk t).view.emb j) := by
  obtain ⟨e00, e01, -, -, -, -, -, -, -, -, -, -⟩ := blockIdx3 t
  show V c (Pipeline.arrRef spec3 0) (((cfg3.win 0).blk t).view.emb j) = V c (Pipeline.arrRef spec3 0) (((cfg3.win 5).blk t).view.emb j)
  refine congrArg _ ?_
  funext a; apply Fin.ext
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 256 + 1 * (j 1).val = win3_5.index t (1 : Fin 2) * 256 + 1 * (j 1).val; omega

/-- Row window 1's block at point `t`, at column `j 1`, is the row array at the column of the output block's index `j`:
    the row's block index is 0 and so is the output's along the columns. -/
theorem rowBlock3_1_read (c : Dev nD) (t : Fin cfg3.N) (j : S5000x256.Idx) :
    iblk3 V c 1 t (ix2 (n0 := 1) (n1 := 256) 0 (j 1))
      = V c (Pipeline.arrRef spec3 1) (ix2 (n0 := 1) (n1 := 256) 0 ((((cfg3.win 5).blk t).view.emb j) 1)) := by
  obtain ⟨-, -, e10, e11, e20, e21, e30, e31, e40, e41, -, e51⟩ := blockIdx3 t
  show V c (Pipeline.arrRef spec3 1) (((cfg3.win 1).blk t).view.emb (ix2 (n0 := 1) (n1 := 256) 0 (j 1))) = _
  refine congrArg _ ?_
  funext a; apply Fin.ext
  match a with
  | ⟨0, _⟩ => show win3_1.index t (0 : Fin 2) * 1 + 1 * 0 = 0; omega
  | ⟨1, _⟩ => show win3_1.index t (1 : Fin 2) * 256 + 1 * (j 1).val = win3_5.index t (1 : Fin 2) * 256 + 1 * (j 1).val; omega

/-- Row window 2's block at point `t`, at column `j 1`, is the row array at the column of the output block's index `j`:
    the row's block index is 0 and so is the output's along the columns. -/
theorem rowBlock3_2_read (c : Dev nD) (t : Fin cfg3.N) (j : S5000x256.Idx) :
    iblk3 V c 2 t (ix2 (n0 := 1) (n1 := 256) 0 (j 1))
      = V c (Pipeline.arrRef spec3 2) (ix2 (n0 := 1) (n1 := 256) 0 ((((cfg3.win 5).blk t).view.emb j) 1)) := by
  obtain ⟨-, -, e10, e11, e20, e21, e30, e31, e40, e41, -, e51⟩ := blockIdx3 t
  show V c (Pipeline.arrRef spec3 2) (((cfg3.win 2).blk t).view.emb (ix2 (n0 := 1) (n1 := 256) 0 (j 1))) = _
  refine congrArg _ ?_
  funext a; apply Fin.ext
  match a with
  | ⟨0, _⟩ => show win3_2.index t (0 : Fin 2) * 1 + 1 * 0 = 0; omega
  | ⟨1, _⟩ => show win3_2.index t (1 : Fin 2) * 256 + 1 * (j 1).val = win3_5.index t (1 : Fin 2) * 256 + 1 * (j 1).val; omega

/-- Row window 3's block at point `t`, at column `j 1`, is the row array at the column of the output block's index `j`:
    the row's block index is 0 and so is the output's along the columns. -/
theorem rowBlock3_3_read (c : Dev nD) (t : Fin cfg3.N) (j : S5000x256.Idx) :
    iblk3 V c 3 t (ix2 (n0 := 1) (n1 := 256) 0 (j 1))
      = V c (Pipeline.arrRef spec3 3) (ix2 (n0 := 1) (n1 := 256) 0 ((((cfg3.win 5).blk t).view.emb j) 1)) := by
  obtain ⟨-, -, e10, e11, e20, e21, e30, e31, e40, e41, -, e51⟩ := blockIdx3 t
  show V c (Pipeline.arrRef spec3 3) (((cfg3.win 3).blk t).view.emb (ix2 (n0 := 1) (n1 := 256) 0 (j 1))) = _
  refine congrArg _ ?_
  funext a; apply Fin.ext
  match a with
  | ⟨0, _⟩ => show win3_3.index t (0 : Fin 2) * 1 + 1 * 0 = 0; omega
  | ⟨1, _⟩ => show win3_3.index t (1 : Fin 2) * 256 + 1 * (j 1).val = win3_5.index t (1 : Fin 2) * 256 + 1 * (j 1).val; omega

/-- Row window 4's block at point `t`, at column `j 1`, is the row array at the column of the output block's index `j`:
    the row's block index is 0 and so is the output's along the columns. -/
theorem rowBlock3_4_read (c : Dev nD) (t : Fin cfg3.N) (j : S5000x256.Idx) :
    iblk3 V c 4 t (ix2 (n0 := 1) (n1 := 256) 0 (j 1))
      = V c (Pipeline.arrRef spec3 4) (ix2 (n0 := 1) (n1 := 256) 0 ((((cfg3.win 5).blk t).view.emb j) 1)) := by
  obtain ⟨-, -, e10, e11, e20, e21, e30, e31, e40, e41, -, e51⟩ := blockIdx3 t
  show V c (Pipeline.arrRef spec3 4) (((cfg3.win 4).blk t).view.emb (ix2 (n0 := 1) (n1 := 256) 0 (j 1))) = _
  refine congrArg _ ?_
  funext a; apply Fin.ext
  match a with
  | ⟨0, _⟩ => show win3_4.index t (0 : Fin 2) * 1 + 1 * 0 = 0; omega
  | ⟨1, _⟩ => show win3_4.index t (1 : Fin 2) * 256 + 1 * (j 1).val = win3_5.index t (1 : Fin 2) * 256 + 1 * (j 1).val; omega

/-- What point `t` writes back is block `t` of `normG` of the five arrays as the region finds them. -/
theorem flushed3_eq (c : Dev nD) (t : Fin cfg3.N) :
    (dat3 V c).flushed 5 t = ((cfg3.win 5).blk t).view.read (Elt F)
      (normG (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zeroOffsets]
  simp only [View.ld_unit_zero (S := S5000x256) zeroOffsets, View.ld_unit_zero (S := S1x256) zeroOffsets]
  funext j
  show k3_pay1 (iblk3 V c 3 t) (iblk3 V c 2 t) (iblk3 V c 0 t) (iblk3 V c 1 t) (iblk3 V c 4 t) j
    = normG _ _ _ _ _ (((cfg3.win 5).blk t).view.emb j)
  exact stored_eq_normG3 _ _ _ _ _ _ _ _ _ _ _ _ (linBlock3_read V c t j) (rowBlock3_1_read V c t j)
    (rowBlock3_2_read V c t j) (rowBlock3_3_read V c t j) (rowBlock3_4_read V c t j)

/-- An index of the output array is in point `t`'s block iff each coordinate is in the block's range on its axis. -/
theorem mem_block3 (t : Fin cfg3.N) (i : S50000x256.Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v60).slice (win3_5.rect t)).set ↔ _
  rw [View.set_slice_whole, Rect.mem_set_unit]
  exact Iff.rfl

/-- The ten row blocks fill the array: row `r` lies in the block of point `r / 5000`, and every point writes back. -/
theorem blocks_cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : (i 0).val / 5000 < grid3.N := by rw [N_3]; omega
  obtain ⟨-, -, -, -, -, -, -, -, -, -, e50, e51⟩ := blockIdx3 ⟨(i 0).val / 5000, hN⟩
  have e50' : win3_5.index ⟨(i 0).val / 5000, hN⟩ (0 : Fin 2) = (i 0).val / 5000 := e50
  refine ⟨⟨(i 0).val / 5000, hN⟩, flush3_5 _, ?_⟩
  rw [mem_block3]
  intro a
  match a with
  | ⟨0, _⟩ => show win3_5.index ⟨(i 0).val / 5000, hN⟩ (0 : Fin 2) * 5000 ≤ (i 0).val ∧ (i 0).val < win3_5.index ⟨(i 0).val / 5000, hN⟩ (0 : Fin 2) * 5000 + 5000; omega
  | ⟨1, _⟩ => show win3_5.index ⟨(i 0).val / 5000, hN⟩ (1 : Fin 2) * 256 ≤ (i 1).val ∧ (i 1).val < win3_5.index ⟨(i 0).val / 5000, hN⟩ (1 : Fin 2) * 256 + 256; omega

/-- THE OUTPUT ARRAY after the region's ten points: `normG` of the five arrays as the region finds them. -/
theorem norm_array3 (c : Dev nD) :
    (dat3 V c).arrAt 5 cfg3.N
      = normG (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_eq V c t) blocks_cover3

end Cert.KernelIdeal.Hand

end
-- ==== Proof.KI.NormVal5.lean ====
import proofs.«144042_j23673859736035_1_alg».proof.Proof.KI.Norm5
import proofs.«144042_j23673859736035_1_alg».proof.Proof.KI.NormElt

/-! # The normalising region 5: the output array as one function of the five input arrays

Point `t` of the region writes back block `t` (rows `5000 t … 5000 t + 4999`) of the output; the stored block is, index by
index, `normG` of the arrays the region finds — the linear block is read where the output block lies, the four rows at
the output's column. The ten blocks fill the [50000,256] array, so after the last point the array is `normG` of the five
arrays. Stated at the region-entry contents `V`, for any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's stored value at one index -/

/-- The stored block at `(r, j)` is `normElt` of the linear block's `(r, j)` and column `j` of the four rows. -/
theorem k5_pay1_apply (v0 v2 : Vec F S1x256 .f32) (v8 : Vec F S5000x256 .f32) (v10 v16 : Vec F S1x256 .f32) (j : S5000x256.Idx) :
    k5_pay1 v0 v2 v8 v10 v16 j = normElt (v8 j) (v10 (ix2 (n0 := 1) (n1 := 256) 0 (j 1))) (v2 (ix2 (n0 := 1) (n1 := 256) 0 (j 1)))
      (v0 (ix2 (n0 := 1) (n1 := 256) 0 (j 1))) (v16 (ix2 (n0 := 1) (n1 := 256) 0 (j 1))) := by
  unfold k5_pay1 normElt normAff
  simp only [shapeCast_self, select_apply, cmpf_apply, broadcast_apply, mulf, addf, subf, rsqrt, rowBroadcast_apply]

/-! ## From blocks to the array -/

/-- The index maps over the ten points: the linear block moves with the output block, which is block `t` of the rows
    and block 0 of the columns; the four rows stay at block 0. -/
theorem blockIdx5 : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- At one index of a block: when each loaded block reads the arrays `A0 … A4` there — the linear block at `i`, the
    rows at column `i 1` — the stored value is `normG` of the arrays at `i`. -/
theorem stored_eq_normG5 (A0 : S50000x256.Idx → Elt F .f32) (A1 A2 A3 A4 : S1x256.Idx → Elt F .f32)
    (x0 : Vec F S5000x256 .f32) (x1 x2 x3 x4 : Vec F S1x256 .f32) (j : S5000x256.Idx) (i : S50000x256.Idx)
    (h0 : x0 j = A0 i)
    (h1 : x1 (ix2 (n0 := 1) (n1 := 256) 0 (j 1)) = A1 (ix2 (n0 := 1) (n1 := 256) 0 (i 1)))
    (h2 : x2 (ix2 (n0 := 1) (n1 := 256) 0 (j 1)) = A2 (ix2 (n0 := 1) (n1 := 256) 0 (i 1)))
    (h3 : x3 (ix2 (n0 := 1) (n1 := 256) 0 (j 1)) = A3 (ix2 (n0 := 1) (n1 := 256) 0 (i 1)))
    (h4 : x4 (ix2 (n0 := 1) (n1 := 256) 0 (j 1)) = A4 (ix2 (n0 := 1) (n1 := 256) 0 (i 1))) :
    k5_pay1 x3 x2 x0 x1 x4 j = normG A0 A1 A2 A3 A4 i := by
  rw [k5_pay1_apply, h0, h1, h2, h3, h4]
  rfl

/-- The linear block at point `t`, at index `j`, is the array where the output block's index `j` lies: the two
    windows have the same block index. -/
theorem linBlock5_read (c : Dev nD) (t : Fin cfg5.N) (j : S5000x256.Idx) :
    iblk5 V c 0 t j = V c (Pipeline.arrRef spec5 0) (((cfg5.win 5).blk t).view.emb j) := by
  obtain ⟨e00, e01, -, -, -, -, -, -, -, -, -, -⟩ := blockIdx5 t
  show V c (Pipeline.arrRef spec5 0) (((cfg5.win 0).blk t).view.emb j) = V c (Pipeline.arrRef spec5 0) (((cfg5.win 5).blk t).view.emb j)
  refine congrArg _ ?_
  funext a; apply Fin.ext
  match a with
  | ⟨0, _⟩ => show win5_0.index t (0 : Fin 2) * 5000 + 1 * (j 0).val = win5_5.index t (0 : Fin 2) * 5000 + 1 * (j 0).val; omega
  | ⟨1, _⟩ => show win5_0.index t (1 : Fin 2) * 256 + 1 * (j 1).val = win5_5.index t (1 : Fin 2) * 256 + 1 * (j 1).val; omega

/-- Row window 1's block at point `t`, at column `j 1`, is the row array at the column of the output block's index `j`:
    the row's block index is 0 and so is the output's along the columns. -/
theorem rowBlock5_1_read (c : Dev nD) (t : Fin cfg5.N) (j : S5000x256.Idx) :
    iblk5 V c 1 t (ix2 (n0 := 1) (n1 := 256) 0 (j 1))
      = V c (Pipeline.arrRef spec5 1) (ix2 (n0 := 1) (n1 := 256) 0 ((((cfg5.win 5).blk t).view.emb j) 1)) := by
  obtain ⟨-, -, e10, e11, e20, e21, e30, e31, e40, e41, -, e51⟩ := blockIdx5 t
  show V c (Pipeline.arrRef spec5 1) (((cfg5.win 1).blk t).view.emb (ix2 (n0 := 1) (n1 := 256) 0 (j 1))) = _
  refine congrArg _ ?_
  funext a; apply Fin.ext
  match a with
  | ⟨0, _⟩ => show win5_1.index t (0 : Fin 2) * 1 + 1 * 0 = 0; omega
  | ⟨1, _⟩ => show win5_1.index t (1 : Fin 2) * 256 + 1 * (j 1).val = win5_5.index t (1 : Fin 2) * 256 + 1 * (j 1).val; omega

/-- Row window 2's block at point `t`, at column `j 1`, is the row array at the column of the output block's index `j`:
    the row's block index is 0 and so is the output's along the columns. -/
theorem rowBlock5_2_read (c : Dev nD) (t : Fin cfg5.N) (j : S5000x256.Idx) :
    iblk5 V c 2 t (ix2 (n0 := 1) (n1 := 256) 0 (j 1))
      = V c (Pipeline.arrRef spec5 2) (ix2 (n0 := 1) (n1 := 256) 0 ((((cfg5.win 5).blk t).view.emb j) 1)) := by
  obtain ⟨-, -, e10, e11, e20, e21, e30, e31, e40, e41, -, e51⟩ := blockIdx5 t
  show V c (Pipeline.arrRef spec5 2) (((cfg5.win 2).blk t).view.emb (ix2 (n0 := 1) (n1 := 256) 0 (j 1))) = _
  refine congrArg _ ?_
  funext a; apply Fin.ext
  match a with
  | ⟨0, _⟩ => show win5_2.index t (0 : Fin 2) * 1 + 1 * 0 = 0; omega
  | ⟨1, _⟩ => show win5_2.index t (1 : Fin 2) * 256 + 1 * (j 1).val = win5_5.index t (1 : Fin 2) * 256 + 1 * (j 1).val; omega

/-- Row window 3's block at point `t`, at column `j 1`, is the row array at the column of the output block's index `j`:
    the row's block index is 0 and so is the output's along the columns. -/
theorem rowBlock5_3_read (c : Dev nD) (t : Fin cfg5.N) (j : S5000x256.Idx) :
    iblk5 V c 3 t (ix2 (n0 := 1) (n1 := 256) 0 (j 1))
      = V c (Pipeline.arrRef spec5 3) (ix2 (n0 := 1) (n1 := 256) 0 ((((cfg5.win 5).blk t).view.emb j) 1)) := by
  obtain ⟨-, -, e10, e11, e20, e21, e30, e31, e40, e41, -, e51⟩ := blockIdx5 t
  show V c (Pipeline.arrRef spec5 3) (((cfg5.win 3).blk t).view.emb (ix2 (n0 := 1) (n1 := 256) 0 (j 1))) = _
  refine congrArg _ ?_
  funext a; apply Fin.ext
  match a with
  | ⟨0, _⟩ => show win5_3.index t (0 : Fin 2) * 1 + 1 * 0 = 0; omega
  | ⟨1, _⟩ => show win5_3.index t (1 : Fin 2) * 256 + 1 * (j 1).val = win5_5.index t (1 : Fin 2) * 256 + 1 * (j 1).val; omega

/-- Row window 4's block at point `t`, at column `j 1`, is the row array at the column of the output block's index `j`:
    the row's block index is 0 and so is the output's along the columns. -/
theorem rowBlock5_4_read (c : Dev nD) (t : Fin cfg5.N) (j : S5000x256.Idx) :
    iblk5 V c 4 t (ix2 (n0 := 1) (n1 := 256) 0 (j 1))
      = V c (Pipeline.arrRef spec5 4) (ix2 (n0 := 1) (n1 := 256) 0 ((((cfg5.win 5).blk t).view.emb j) 1)) := by
  obtain ⟨-, -, e10, e11, e20, e21, e30, e31, e40, e41, -, e51⟩ := blockIdx5 t
  show V c (Pipeline.arrRef spec5 4) (((cfg5.win 4).blk t).view.emb (ix2 (n0 := 1) (n1 := 256) 0 (j 1))) = _
  refine congrArg _ ?_
  funext a; apply Fin.ext
  match a with
  | ⟨0, _⟩ => show win5_4.index t (0 : Fin 2) * 1 + 1 * 0 = 0; omega
  | ⟨1, _⟩ => show win5_4.index t (1 : Fin 2) * 256 + 1 * (j 1).val = win5_5.index t (1 : Fin 2) * 256 + 1 * (j 1).val; omega

/-- What point `t` writes back is block `t` of `normG` of the five arrays as the region finds them. -/
theorem flushed5_eq (c : Dev nD) (t : Fin cfg5.N) :
    (dat5 V c).flushed 5 t = ((cfg5.win 5).blk t).view.read (Elt F)
      (normG (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zeroOffsets]
  simp only [View.ld_unit_zero (S := S5000x256) zeroOffsets, View.ld_unit_zero (S := S1x256) zeroOffsets]
  funext j
  show k5_pay1 (iblk5 V c 3 t) (iblk5 V c 2 t) (iblk5 V c 0 t) (iblk5 V c 1 t) (iblk5 V c 4 t) j
    = normG _ _ _ _ _ (((cfg5.win 5).blk t).view.emb j)
  exact stored_eq_normG5 _ _ _ _ _ _ _ _ _ _ _ _ (linBlock5_read V c t j) (rowBlock5_1_read V c t j)
    (rowBlock5_2_read V c t j) (rowBlock5_3_read V c t j) (rowBlock5_4_read V c t j)

/-- An index of the output array is in point `t`'s block iff each coordinate is in the block's range on its axis. -/
theorem mem_block5 (t : Fin cfg5.N) (i : S50000x256.Idx) :
    i ∈ ((cfg5.win 5).blk t).view.set ↔ ∀ a : Fin 2, win5_5.index t a * S5000x256.size a ≤ (i a).val ∧ (i a).val < win5_5.index t a * S5000x256.size a + S5000x256.size a := by
  show i ∈ ((View.whole main_v87).slice (win5_5.rect t)).set ↔ _
  rw [View.set_slice_whole, Rect.mem_set_unit]
  exact Iff.rfl

/-- The ten row blocks fill the array: row `r` lies in the block of point `r / 5000`, and every point writes back. -/
theorem blocks_cover5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  have hN : (i 0).val / 5000 < grid5.N := by rw [N_5]; omega
  obtain ⟨-, -, -, -, -, -, -, -, -, -, e50, e51⟩ := blockIdx5 ⟨(i 0).val / 5000, hN⟩
  have e50' : win5_5.index ⟨(i 0).val / 5000, hN⟩ (0 : Fin 2) = (i 0).val / 5000 := e50
  refine ⟨⟨(i 0).val / 5000, hN⟩, flush5_5 _, ?_⟩
  rw [mem_block5]
  intro a
  match a with
  | ⟨0, _⟩ => show win5_5.index ⟨(i 0).val / 5000, hN⟩ (0 : Fin 2) * 5000 ≤ (i 0).val ∧ (i 0).val < win5_5.index ⟨(i 0).val / 5000, hN⟩ (0 : Fin 2) * 5000 + 5000; omega
  | ⟨1, _⟩ => show win5_5.index ⟨(i 0).val / 5000, hN⟩ (1 : Fin 2) * 256 ≤ (i 1).val ∧ (i 1).val < win5_5.index ⟨(i 0).val / 5000, hN⟩ (1 : Fin 2) * 256 + 256; omega

/-- THE OUTPUT ARRAY after the region's ten points: `normG` of the five arrays as the region finds them. -/
theorem norm_array5 (c : Dev nD) :
    (dat5 V c).arrAt 5 cfg5.N
      = normG (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed5_eq V c t) blocks_cover5

end Cert.KernelIdeal.Hand

end
-- ==== Proof.Bridge.Stages.lean ====
import proofs.«144042_j23673859736035_1_alg».proof.KernelIdeal
import proofs.«144042_j23673859736035_1_alg».proof.Proof.Gen.KernelIdeal
import Idealize.ShloMosaic.PureOps.Ideal

/-!
# The host stages of the graph network, over the ideal field

Both programs surround their dense layers with the same host arithmetic on whole arrays:

* the edge list `ei : [2, 800000]` is split into its source row and its destination row;
* the inverse in-degree `1 / max(deg, 1)` of every node, as a column `[50000, 1]`, where `deg` is
  the number of edges that end at the node (a sum of ones scattered by destination);
* the mean aggregation of a feature array `x`: row `n` of the result is
  `(∑_{e : dst e = n} x[src e]) · invdeg n`, a gather by source followed by a sum scattered by
  destination and a scaling; negative sources are first wrapped by adding the node count;
* single rows and slabs of the stacked parameters, and vectors viewed as one-row matrices;
* the per-graph mean pool of the last layer, `(∑_{n : batch n = g} h[n]) / max(count g, 1)`,
  concatenated with the graph's own features.

Each stage is written once here as the composite of the array operations that compute it, so that
both programs' host stretches can be read as the same functions of their inputs.
-/

noncomputable section

namespace Cert.Stages

open Idealize.ShloMosaic Idealize.SL.Sem
open Cert.KernelIdeal Cert.KernelIdeal.Gen

/-- An array of shape `S` and element type `e` over the ideal field. -/
abbrev Arr (S : Shape) (e : EltTy) : Type := (⟨S, e⟩ : BufTy).Contents (Elt Ideal)

/-! ## The edge list -/

/-- Row 0 of the edge list: the source node of every edge. -/
def srcOf (ei : Arr S2x800000 .i32) : Arr S800000 .i32 :=
  shapeCast S800000 (extractStridedSlice S1x800000 ![0, 0] ei slices_S2x800000_S1x800000_0_0)
    shapeCasts_S1x800000_S800000

/-- Row 1 of the edge list: the destination node of every edge. -/
def dstOf (ei : Arr S2x800000 .i32) : Arr S800000 .i32 :=
  shapeCast S800000 (extractStridedSlice S1x800000 ![1, 0] ei slices_S2x800000_S1x800000_1_0)
    shapeCasts_S1x800000_S800000

/-- The inverse in-degree column: `1 / max(deg n, 1)` at node `n`, where `deg n` is the sum of a one
    per edge whose destination is `n`. -/
def invDeg (dst : Arr S800000 .i32) : Arr S50000x1 .f32 :=
  broadcastInDim S50000x1 ![0] bcast_S50000_S50000x1_0
    (Host.divf (F := Ideal)
      (broadcastInDim S50000 ![] bcast_S_S50000 (constant (F := Ideal) S_ .f32 0x3F800000#32))
      (maximumf (F := Ideal)
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))

/-- The gather indices: a negative source is wrapped by adding the node count 50000; the result is
    a column `[800000, 1]`. -/
def wrapIdx (src : Arr S800000 .i32) : Arr S800000x1 .i32 :=
  broadcastInDim S800000x1 ![0] bcast_S800000_S800000x1_0
    (select
      (cmpi .slt src (broadcastInDim S800000 ![] bcast_S_S800000 (constantI S_ 32 0#32)))
      (addi src (broadcastInDim S800000 ![] bcast_S_S800000 (constantI S_ 32 50000#32)))
      src)

/-! ## Mean aggregation over the incoming edges -/

/-- Mean aggregation of 128 features: gather the rows of `x` at the sources, sum them by
    destination, scale row `n` by `invdeg n`. -/
def agg128 (src dst : Arr S800000 .i32) (invdeg : Arr S50000x1 .f32) (x : Arr S50000x128 .f32) :
    Arr S50000x128 .f32 :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x (wrapIdx src)))
    (broadcastInDim S50000x128 ![0, 1] bcast_S50000x1_S50000x128_0_1 invdeg)

/-- Mean aggregation of 256 features: gather the rows of `h` at the sources, sum them by
    destination, scale row `n` by `invdeg n`. -/
def agg256 (src dst : Arr S800000 .i32) (invdeg : Arr S50000x1 .f32) (h : Arr S50000x256 .f32) :
    Arr S50000x256 .f32 :=
  mulf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h (wrapIdx src)))
    (broadcastInDim S50000x256 ![0, 1] bcast_S50000x1_S50000x256_0_1 invdeg)

/-! ## Rows and slabs of the stacked parameters -/

/-- Row `k` of a `[3, 256]` array, as a vector of 256. -/
def row3 (k : ℕ) (a : Arr S3x256 .f32) (h : S3x256.Slices ![k, 0] S1x256 := by decide) : Arr S256 .f32 :=
  shapeCast S256 (extractStridedSlice S1x256 ![k, 0] a h) shapeCasts_S1x256_S256

/-- Row `k` of a `[2, 256]` array, as a vector of 256. -/
def row2 (k : ℕ) (a : Arr S2x256 .f32) (h : S2x256.Slices ![k, 0] S1x256 := by decide) : Arr S256 .f32 :=
  shapeCast S256 (extractStridedSlice S1x256 ![k, 0] a h) shapeCasts_S1x256_S256

/-- Slab `k` of a `[2, 256, 256]` array, as a `[256, 256]` matrix. -/
def mat2 (k : ℕ) (a : Arr S2x256x256 .f32) (h : S2x256x256.Slices ![k, 0, 0] S1x256x256 := by decide) :
    Arr S256x256 .f32 :=
  shapeCast S256x256 (extractStridedSlice S1x256x256 ![k, 0, 0] a h) shapeCasts_S1x256x256_S256x256

/-- A vector of 256 as a one-row matrix. -/
def asRow256 (v : Arr S256 .f32) : Arr S1x256 .f32 := shapeCast S1x256 v shapeCasts_S256_S1x256

/-- A vector of 512 as a one-row matrix. -/
def asRow512 (v : Arr S512 .f32) : Arr S1x512 .f32 := shapeCast S1x512 v shapeCasts_S512_S1x512

/-- A vector of 10 as a one-row matrix. -/
def asRow10 (v : Arr S10 .f32) : Arr S1x10 .f32 := shapeCast S1x10 v shapeCasts_S10_S1x10

/-! ## The mean pool per graph -/

/-- Row `g` is the mean of the rows of `h` whose node belongs to graph `g` — their sum divided by
    `max(count g, 1)`, the count a sum of ones — followed by the 32 features of the graph. -/
def poolCat (h : Arr S50000x256 .f32) (batch : Arr S50000 .i32) (gf : Arr S64x32 .f32) : Arr S64x288 .f32 :=
  concatenate S64x288 1
    [⟨S64x256,
      Host.divf (F := Ideal)
        (Host.scatterAdd (F := Ideal) scatter_S64x256_S50000x1_S50000x256_1_0_0_1
          (broadcastInDim S64x256 ![] bcast_S_S64x256 (constant (F := Ideal) S_ .f32 0x00000000#32))
          (broadcastInDim S50000x1 ![0] bcast_S50000_S50000x1_0 batch)
          h)
        (broadcastInDim S64x256 ![0, 1] bcast_S64x1_S64x256_0_1
          (broadcastInDim S64x1 ![0] bcast_S64_S64x1_0
            (maximumf (F := Ideal)
              (Host.scatterAdd (F := Ideal) scatter_S64_S50000x1_S50000_n_0_0_1
                (broadcastInDim S64 ![] bcast_S_S64 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S64 ![] bcast_S_S64 (constant (F := Ideal) S_ .f32 0x3F800000#32)))))⟩,
     ⟨S64x32, gf⟩]
    concatenates_S64x256_S64x32_S64x288_d1

end Cert.Stages

end
-- ==== Proof.Bridge.KernelOutDef.lean ====
/- The network as one function of its eighteen arguments, on the extended reals: three graph layers — the features
   aggregated over the incoming edges, a linear layer on the aggregate and the features, its normalisation by the column
   mean and variance with the leaky rectifier —, the mean pool per graph beside the graph's own features, and the
   perceptron. Only definitions: each stage is defined elsewhere, here they are composed. -/
import proofs.«144042_j23673859736035_1_alg».proof.Proof.KI.LinStatsSpec
import proofs.«144042_j23673859736035_1_alg».proof.Proof.KI.NormElt
import proofs.«144042_j23673859736035_1_alg».proof.Proof.KI.MlpSpec6
import proofs.«144042_j23673859736035_1_alg».proof.Proof.Bridge.Stages

noncomputable section

namespace Cert.KernelIdeal.Hand.KOut

open Cert.KernelIdeal Cert.KernelIdeal.Gen Cert.KernelIdeal.Hand Cert.KernelIdeal.Hand.Mlp Cert.Stages
open Idealize.ShloMosaic

/-! ## The kernel program's result as one function of its eighteen arguments -/

/-- The first graph layer: the 128 input features aggregated over the incoming edges, the linear layer of inner width
    128 on the aggregate and the features, and its normalisation by the column mean and variance with the leaky
    rectifier. -/
def sageFirst (src dst : Arr S800000 .i32) (idg : Arr S50000x1 .f32) (x : Arr S50000x128 .f32)
    (Wl Wr : Arr S128x256 .f32) (bl g b : Arr S256 .f32) : Arr S50000x256 .f32 :=
  normG (linArr128 (agg128 src dst idg x) x Wl Wr (asRow256 bl))
    (meanRow (linArr128 (agg128 src dst idg x) x Wl Wr (asRow256 bl)))
    (varRow (linArr128 (agg128 src dst idg x) x Wl Wr (asRow256 bl))) (asRow256 g) (asRow256 b)

/-- A later graph layer: the same on 256 features. -/
def sageNext (src dst : Arr S800000 .i32) (idg : Arr S50000x1 .f32) (h : Arr S50000x256 .f32)
    (Wl Wr : Arr S256x256 .f32) (bl g b : Arr S256 .f32) : Arr S50000x256 .f32 :=
  normG (linArr256 (agg256 src dst idg h) h Wl Wr (asRow256 bl))
    (meanRow (linArr256 (agg256 src dst idg h) h Wl Wr (asRow256 bl)))
    (varRow (linArr256 (agg256 src dst idg h) h Wl Wr (asRow256 bl))) (asRow256 g) (asRow256 b)

/-- The whole network: three graph layers on the edge list's sources, destinations and inverse in-degrees, the mean
    pool per graph beside the graph features, and the perceptron. -/
def kOut (x : Arr S50000x128 .f32) (ei : Arr S2x800000 .i32) (batch : Arr S50000 .i32) (gf : Arr S64x32 .f32)
    (Wl0 Wr0 : Arr S128x256 .f32) (bl0 : Arr S256 .f32) (Wl Wr : Arr S2x256x256 .f32) (bl : Arr S2x256 .f32)
    (gamma beta : Arr S3x256 .f32) (W1 : Arr S288x512 .f32) (b1 : Arr S512 .f32) (W2 : Arr S512x512 .f32)
    (b2 : Arr S512 .f32) (W3 : Arr S512x10 .f32) (b3 : Arr S10 .f32) : Arr S64x10 .f32 :=
  mlpG
    (poolCat
      (sageNext (srcOf ei) (dstOf ei) (invDeg (dstOf ei))
        (sageNext (srcOf ei) (dstOf ei) (invDeg (dstOf ei))
          (sageFirst (srcOf ei) (dstOf ei) (invDeg (dstOf ei)) x Wl0 Wr0 bl0 (row3 0 gamma) (row3 0 beta))
          (mat2 0 Wl) (mat2 0 Wr) (row2 0 bl) (row3 1 gamma) (row3 1 beta))
        (mat2 1 Wl) (mat2 1 Wr) (row2 1 bl) (row3 2 gamma) (row3 2 beta))
      batch gf)
    W1 (asRow512 b1) W2 (asRow512 b2) W3 (asRow10 b3)

end Cert.KernelIdeal.Hand.KOut

end
-- ==== Proof.Bridge.KernelStretch.S01.lean ====
import proofs.«144042_j23673859736035_1_alg».proof.Proof.Bridge.Stages
import proofs.«144042_j23673859736035_1_alg».proof.Proof.Gen.KernelIdeal.Launch

/-!
# The kernel program's host stretches 0 and 1 as the shared stages

From ANY contents `V` of the buffers, the contents after a host stretch of the kernel program are
the shared stages of `Cert.Stages` applied to what `V` holds in the stretch's inputs: every
operation of a stretch is a function of whole arrays, and composing them in order gives the stage
term by term.
-/

noncomputable section

namespace Cert.Stages.Kernel

open Idealize.ShloMosaic Idealize.ShloMosaic.TcCoe Idealize.SL.Sem
open Cert.KernelIdeal Cert.KernelIdeal.Gen

/-! ## Host stretch 0

Before the first dense layer: the edge list is split, the inverse in-degree is computed once, the input features are aggregated, and the first layer's parameters are laid out. -/

/-- The source of every edge: row 0 of the edge list. -/
theorem stretch0_v1 (V : Valuation τ sig (Elt Ideal)) :
    StableHlo.after (hostOps0 (F := Ideal)) V (Proc.devRef .tc main_v1)
      = Cert.Stages.srcOf (V (Proc.devRef .tc main_arg1)) := by
  show StableHlo.after hostOps0 V (Proc.devRef .tc main_v1) = _
  after_results_simp; rfl

/-- The destination of every edge: row 1 of the edge list. -/
theorem stretch0_v3 (V : Valuation τ sig (Elt Ideal)) :
    StableHlo.after (hostOps0 (F := Ideal)) V (Proc.devRef .tc main_v3)
      = Cert.Stages.dstOf (V (Proc.devRef .tc main_arg1)) := by
  show StableHlo.after hostOps0 V (Proc.devRef .tc main_v3) = _
  after_results_simp; rfl

/-- The inverse in-degree column, computed from the destinations. -/
theorem stretch0_v12 (V : Valuation τ sig (Elt Ideal)) :
    StableHlo.after (hostOps0 (F := Ideal)) V (Proc.devRef .tc main_v12)
      = Cert.Stages.invDeg (Cert.Stages.dstOf (V (Proc.devRef .tc main_arg1))) := by
  show StableHlo.after hostOps0 V (Proc.devRef .tc main_v12) = _
  after_results_simp; rfl

/-- The first normalisation's scale: row 0 of the stacked scales. -/
theorem stretch0_v14 (V : Valuation τ sig (Elt Ideal)) :
    StableHlo.after (hostOps0 (F := Ideal)) V (Proc.devRef .tc main_v14)
      = Cert.Stages.row3 0 (V (Proc.devRef .tc main_arg10)) := by
  show StableHlo.after hostOps0 V (Proc.devRef .tc main_v14) = _
  after_results_simp; rfl

/-- The first normalisation's shift: row 0 of the stacked shifts. -/
theorem stretch0_v16 (V : Valuation τ sig (Elt Ideal)) :
    StableHlo.after (hostOps0 (F := Ideal)) V (Proc.devRef .tc main_v16)
      = Cert.Stages.row3 0 (V (Proc.devRef .tc main_arg11)) := by
  show StableHlo.after hostOps0 V (Proc.devRef .tc main_v16) = _
  after_results_simp; rfl

/-- The mean aggregation of the 128 input features over the incoming edges. -/
theorem stretch0_v28 (V : Valuation τ sig (Elt Ideal)) :
    StableHlo.after (hostOps0 (F := Ideal)) V (Proc.devRef .tc main_v28)
      = Cert.Stages.agg128 (Cert.Stages.srcOf (V (Proc.devRef .tc main_arg1))) (Cert.Stages.dstOf (V (Proc.devRef .tc main_arg1))) (Cert.Stages.invDeg (Cert.Stages.dstOf (V (Proc.devRef .tc main_arg1)))) (V (Proc.devRef .tc main_arg0)) := by
  show StableHlo.after hostOps0 V (Proc.devRef .tc main_v28) = _
  after_results_simp; rfl

/-- The first layer's bias as a one-row matrix. -/
theorem stretch0_v29 (V : Valuation τ sig (Elt Ideal)) :
    StableHlo.after (hostOps0 (F := Ideal)) V (Proc.devRef .tc main_v29)
      = Cert.Stages.asRow256 (V (Proc.devRef .tc main_arg6)) := by
  show StableHlo.after hostOps0 V (Proc.devRef .tc main_v29) = _
  after_results_simp; rfl

/-! ## Host stretch 1

Between the first dense layer and its normalisation: the scale and the shift become one-row matrices. -/

/-- The first normalisation's scale as a one-row matrix. -/
theorem stretch1_v31 (V : Valuation τ sig (Elt Ideal)) :
    StableHlo.after (hostOps1 (F := Ideal)) V (Proc.devRef .tc main_v31)
      = Cert.Stages.asRow256 (V (Proc.devRef .tc main_v14)) := by
  show StableHlo.after hostOps1 V (Proc.devRef .tc main_v31) = _
  after_results; rfl

/-- The first normalisation's shift as a one-row matrix. -/
theorem stretch1_v32 (V : Valuation τ sig (Elt Ideal)) :
    StableHlo.after (hostOps1 (F := Ideal)) V (Proc.devRef .tc main_v32)
      = Cert.Stages.asRow256 (V (Proc.devRef .tc main_v16)) := by
  show StableHlo.after hostOps1 V (Proc.devRef .tc main_v32) = _
  after_results; rfl

end Cert.Stages.Kernel

end
-- ==== Proof.Bridge.KernelStretch.S23.lean ====
import proofs.«144042_j23673859736035_1_alg».proof.Proof.Bridge.Stages
import proofs.«144042_j23673859736035_1_alg».proof.Proof.Gen.KernelIdeal.Launch

/-!
# The kernel program's host stretches 2 and 3 as the shared stages

From ANY contents `V` of the buffers, the contents after a host stretch of the kernel program are
the shared stages of `Cert.Stages` applied to what `V` holds in the stretch's inputs: every
operation of a stretch is a function of whole arrays, and composing them in order gives the stage
term by term.
-/

noncomputable section

namespace Cert.Stages.Kernel

open Idealize.ShloMosaic Idealize.ShloMosaic.TcCoe Idealize.SL.Sem
open Cert.KernelIdeal Cert.KernelIdeal.Gen

/-! ## Host stretch 2

Before the second dense layer: its parameters are cut out of the stacks and the first layer's output is aggregated. -/

/-- The second layer's neighbour weights: slab 0 of the stacked neighbour weights. -/
theorem stretch2_v35 (V : Valuation τ sig (Elt Ideal)) :
    StableHlo.after (hostOps2 (F := Ideal)) V (Proc.devRef .tc main_v35)
      = Cert.Stages.mat2 0 (V (Proc.devRef .tc main_arg7)) := by
  show StableHlo.after hostOps2 V (Proc.devRef .tc main_v35) = _
  after_results_simp; rfl

/-- The second layer's bias: row 0 of the stacked biases. -/
theorem stretch2_v37 (V : Valuation τ sig (Elt Ideal)) :
    StableHlo.after (hostOps2 (F := Ideal)) V (Proc.devRef .tc main_v37)
      = Cert.Stages.row2 0 (V (Proc.devRef .tc main_arg9)) := by
  show StableHlo.after hostOps2 V (Proc.devRef .tc main_v37) = _
  after_results_simp; rfl

/-- The second layer's self weights: slab 0 of the stacked self weights. -/
theorem stretch2_v39 (V : Valuation τ sig (Elt Ideal)) :
    StableHlo.after (hostOps2 (F := Ideal)) V (Proc.devRef .tc main_v39)
      = Cert.Stages.mat2 0 (V (Proc.devRef .tc main_arg8)) := by
  show StableHlo.after hostOps2 V (Proc.devRef .tc main_v39) = _
  after_results_simp; rfl

/-- The second normalisation's scale: row 1 of the stacked scales. -/
theorem stretch2_v41 (V : Valuation τ sig (Elt Ideal)) :
    StableHlo.after (hostOps2 (F := Ideal)) V (Proc.devRef .tc main_v41)
      = Cert.Stages.row3 1 (V (Proc.devRef .tc main_arg10)) := by
  show StableHlo.after hostOps2 V (Proc.devRef .tc main_v41) = _
  after_results_simp; rfl

/-- The second normalisation's shift: row 1 of the stacked shifts. -/
theorem stretch2_v43 (V : Valuation τ sig (Elt Ideal)) :
    StableHlo.after (hostOps2 (F := Ideal)) V (Proc.devRef .tc main_v43)
      = Cert.Stages.row3 1 (V (Proc.devRef .tc main_arg11)) := by
  show StableHlo.after hostOps2 V (Proc.devRef .tc main_v43) = _
  after_results_simp; rfl

/-- The mean aggregation of the first layer's 256 features: the sources are wrapped afresh, the destinations and the inverse in-degree are those of the first stretch. -/
theorem stretch2_v55 (V : Valuation τ sig (Elt Ideal)) :
    StableHlo.after (hostOps2 (F := Ideal)) V (Proc.devRef .tc main_v55)
      = Cert.Stages.agg256 (V (Proc.devRef .tc main_v1)) (V (Proc.devRef .tc main_v3)) (V (Proc.devRef .tc main_v12)) (V (Proc.devRef .tc main_v33)) := by
  show StableHlo.after hostOps2 V (Proc.devRef .tc main_v55) = _
  after_results_simp; rfl

/-- The second layer's bias as a one-row matrix. -/
theorem stretch2_v56 (V : Valuation τ sig (Elt Ideal)) :
    StableHlo.after (hostOps2 (F := Ideal)) V (Proc.devRef .tc main_v56)
      = Cert.Stages.asRow256 (Cert.Stages.row2 0 (V (Proc.devRef .tc main_arg9))) := by
  show StableHlo.after hostOps2 V (Proc.devRef .tc main_v56) = _
  after_results_simp; rfl

/-! ## Host stretch 3

Between the second dense layer and its normalisation: the scale and the shift become one-row matrices. -/

/-- The second normalisation's scale as a one-row matrix. -/
theorem stretch3_v58 (V : Valuation τ sig (Elt Ideal)) :
    StableHlo.after (hostOps3 (F := Ideal)) V (Proc.devRef .tc main_v58)
      = Cert.Stages.asRow256 (V (Proc.devRef .tc main_v41)) := by
  show StableHlo.after hostOps3 V (Proc.devRef .tc main_v58) = _
  after_results; rfl

/-- The second normalisation's shift as a one-row matrix. -/
theorem stretch3_v59 (V : Valuation τ sig (Elt Ideal)) :
    StableHlo.after (hostOps3 (F := Ideal)) V (Proc.devRef .tc main_v59)
      = Cert.Stages.asRow256 (V (Proc.devRef .tc main_v43)) := by
  show StableHlo.after hostOps3 V (Proc.devRef .tc main_v59) = _
  after_results; rfl

end Cert.Stages.Kernel

end
-- ==== Proof.Bridge.KernelStretch.S45.lean ====
import proofs.«144042_j23673859736035_1_alg».proof.Proof.Bridge.Stages
import proofs.«144042_j23673859736035_1_alg».proof.Proof.Gen.KernelIdeal.Launch

/-!
# The kernel program's host stretches 4 and 5 as the shared stages

From ANY contents `V` of the buffers, the contents after a host stretch of the kernel program are
the shared stages of `Cert.Stages` applied to what `V` holds in the stretch's inputs: every
operation of a stretch is a function of whole arrays, and composing them in order gives the stage
term by term.
-/

noncomputable section

namespace Cert.Stages.Kernel

open Idealize.ShloMosaic Idealize.ShloMosaic.TcCoe Idealize.SL.Sem
open Cert.KernelIdeal Cert.KernelIdeal.Gen

/-! ## Host stretch 4

Before the third dense layer: its parameters are cut out of the stacks and the second layer's output is aggregated. -/

/-- The third layer's neighbour weights: slab 1 of the stacked neighbour weights. -/
theorem stretch4_v62 (V : Valuation τ sig (Elt Ideal)) :
    StableHlo.after (hostOps4 (F := Ideal)) V (Proc.devRef .tc main_v62)
      = Cert.Stages.mat2 1 (V (Proc.devRef .tc main_arg7)) := by
  show StableHlo.after hostOps4 V (Proc.devRef .tc main_v62) = _
  after_results_simp; rfl

/-- The third layer's bias: row 1 of the stacked biases. -/
theorem stretch4_v64 (V : Valuation τ sig (Elt Ideal)) :
    StableHlo.after (hostOps4 (F := Ideal)) V (Proc.devRef .tc main_v64)
      = Cert.Stages.row2 1 (V (Proc.devRef .tc main_arg9)) := by
  show StableHlo.after hostOps4 V (Proc.devRef .tc main_v64) = _
  after_results_simp; rfl

/-- The third layer's self weights: slab 1 of the stacked self weights. -/
theorem stretch4_v66 (V : Valuation τ sig (Elt Ideal)) :
    StableHlo.after (hostOps4 (F := Ideal)) V (Proc.devRef .tc main_v66)
      = Cert.Stages.mat2 1 (V (Proc.devRef .tc main_arg8)) := by
  show StableHlo.after hostOps4 V (Proc.devRef .tc main_v66) = _
  after_results_simp; rfl

/-- The third normalisation's scale: row 2 of the stacked scales. -/
theorem stretch4_v68 (V : Valuation τ sig (Elt Ideal)) :
    StableHlo.after (hostOps4 (F := Ideal)) V (Proc.devRef .tc main_v68)
      = Cert.Stages.row3 2 (V (Proc.devRef .tc main_arg10)) := by
  show StableHlo.after hostOps4 V (Proc.devRef .tc main_v68) = _
  after_results_simp; rfl

/-- The third normalisation's shift: row 2 of the stacked shifts. -/
theorem stretch4_v70 (V : Valuation τ sig (Elt Ideal)) :
    StableHlo.after (hostOps4 (F := Ideal)) V (Proc.devRef .tc main_v70)
      = Cert.Stages.row3 2 (V (Proc.devRef .tc main_arg11)) := by
  show StableHlo.after hostOps4 V (Proc.devRef .tc main_v70) = _
  after_results_simp; rfl

/-- The mean aggregation of the second layer's 256 features: the sources are wrapped afresh, the destinations and the inverse in-degree are those of the first stretch. -/
theorem stretch4_v82 (V : Valuation τ sig (Elt Ideal)) :
    StableHlo.after (hostOps4 (F := Ideal)) V (Proc.devRef .tc main_v82)
      = Cert.Stages.agg256 (V (Proc.devRef .tc main_v1)) (V (Proc.devRef .tc main_v3)) (V (Proc.devRef .tc main_v12)) (V (Proc.devRef .tc main_v60)) := by
  show StableHlo.after hostOps4 V (Proc.devRef .tc main_v82) = _
  after_results_simp; rfl

/-- The third layer's bias as a one-row matrix. -/
theorem stretch4_v83 (V : Valuation τ sig (Elt Ideal)) :
    StableHlo.after (hostOps4 (F := Ideal)) V (Proc.devRef .tc main_v83)
      = Cert.Stages.asRow256 (Cert.Stages.row2 1 (V (Proc.devRef .tc main_arg9))) := by
  show StableHlo.after hostOps4 V (Proc.devRef .tc main_v83) = _
  after_results_simp; rfl

/-! ## Host stretch 5

Between the third dense layer and its normalisation: the scale and the shift become one-row matrices. -/

/-- The third normalisation's scale as a one-row matrix. -/
theorem stretch5_v85 (V : Valuation τ sig (Elt Ideal)) :
    StableHlo.after (hostOps5 (F := Ideal)) V (Proc.devRef .tc main_v85)
      = Cert.Stages.asRow256 (V (Proc.devRef .tc main_v68)) := by
  show StableHlo.after hostOps5 V (Proc.devRef .tc main_v85) = _
  after_results; rfl

/-- The third normalisation's shift as a one-row matrix. -/
theorem stretch5_v86 (V : Valuation τ sig (Elt Ideal)) :
    StableHlo.after (hostOps5 (F := Ideal)) V (Proc.devRef .tc main_v86)
      = Cert.Stages.asRow256 (V (Proc.devRef .tc main_v70)) := by
  show StableHlo.after hostOps5 V (Proc.devRef .tc main_v86) = _
  after_results; rfl

end Cert.Stages.Kernel

end
-- ==== Proof.Bridge.KernelStretch.S6.lean ====
import proofs.«144042_j23673859736035_1_alg».proof.Proof.Bridge.Stages
import proofs.«144042_j23673859736035_1_alg».proof.Proof.Gen.KernelIdeal.Launch

/-!
# The kernel program's last host stretch as the shared stages

From ANY contents `V` of the buffers, the contents after a host stretch of the kernel program are
the shared stages of `Cert.Stages` applied to what `V` holds in the stretch's inputs: every
operation of a stretch is a function of whole arrays, and composing them in order gives the stage
term by term.
-/

noncomputable section

namespace Cert.Stages.Kernel

open Idealize.ShloMosaic Idealize.ShloMosaic.TcCoe Idealize.SL.Sem
open Cert.KernelIdeal Cert.KernelIdeal.Gen

/-! ## Host stretch 6

Before the perceptron: the mean pool per graph, concatenated with the graph features, and the three biases as one-row matrices. -/

/-- The per-graph mean of the third layer's features beside the graph's own features: the input of the final perceptron. -/
theorem stretch6_v100 (V : Valuation τ sig (Elt Ideal)) :
    StableHlo.after (hostOps6 (F := Ideal)) V (Proc.devRef .tc main_v100)
      = Cert.Stages.poolCat (V (Proc.devRef .tc main_v87)) (V (Proc.devRef .tc main_arg2)) (V (Proc.devRef .tc main_arg3)) := by
  show StableHlo.after hostOps6 V (Proc.devRef .tc main_v100) = _
  after_results_simp; rfl

/-- The perceptron's first bias as a one-row matrix. -/
theorem stretch6_v101 (V : Valuation τ sig (Elt Ideal)) :
    StableHlo.after (hostOps6 (F := Ideal)) V (Proc.devRef .tc main_v101)
      = Cert.Stages.asRow512 (V (Proc.devRef .tc main_arg13)) := by
  show StableHlo.after hostOps6 V (Proc.devRef .tc main_v101) = _
  after_results_simp; rfl

/-- The perceptron's second bias as a one-row matrix. -/
theorem stretch6_v102 (V : Valuation τ sig (Elt Ideal)) :
    StableHlo.after (hostOps6 (F := Ideal)) V (Proc.devRef .tc main_v102)
      = Cert.Stages.asRow512 (V (Proc.devRef .tc main_arg15)) := by
  show StableHlo.after hostOps6 V (Proc.devRef .tc main_v102) = _
  after_results_simp; rfl

/-- The perceptron's third bias as a one-row matrix. -/
theorem stretch6_v103 (V : Valuation τ sig (Elt Ideal)) :
    StableHlo.after (hostOps6 (F := Ideal)) V (Proc.devRef .tc main_v103)
      = Cert.Stages.asRow10 (V (Proc.devRef .tc main_arg17)) := by
  show StableHlo.after hostOps6 V (Proc.devRef .tc main_v103) = _
  after_results_simp; rfl

end Cert.Stages.Kernel

end
-- ==== Proof.Bridge.KernelStretch.Keep.lean ====
import proofs.«144042_j23673859736035_1_alg».proof.Proof.Gen.KernelIdeal.Regions

/-!
# What a host stretch of the kernel program leaves alone

A host stretch rewrites only the buffers its operations write, the list `hostOpsJ_W`; from ANY
contents `V` every other buffer holds after the stretch what `V` held. Membership in the list is
decided, so a use reads `stretchJ_keep V r (by decide)`.
-/

noncomputable section

namespace Cert.Stages.Kernel

open Idealize.ShloMosaic Idealize.ShloMosaic.TcCoe Idealize.SL.Sem
open Cert.KernelIdeal Cert.KernelIdeal.Gen

variable {F : FTy → Type} [FloatOps F]

/-- A buffer that host stretch 0 does not write keeps its contents. -/
theorem stretch0_keep (V : Valuation τ sig (Elt F)) (r : Ref sig .tc) (h : r ∉ hostOps0_W) :
    StableHlo.after (hostOps0 (F := F)) V (Proc.devRef .tc r) = V (Proc.devRef .tc r) :=
  StableHlo.after_of_writes_sub hostOps0 V hostOps0_writes h

/-- A buffer that host stretch 1 does not write keeps its contents. -/
theorem stretch1_keep (V : Valuation τ sig (Elt F)) (r : Ref sig .tc) (h : r ∉ hostOps1_W) :
    StableHlo.after (hostOps1 (F := F)) V (Proc.devRef .tc r) = V (Proc.devRef .tc r) :=
  StableHlo.after_of_writes_sub hostOps1 V hostOps1_writes h

/-- A buffer that host stretch 2 does not write keeps its contents. -/
theorem stretch2_keep (V : Valuation τ sig (Elt F)) (r : Ref sig .tc) (h : r ∉ hostOps2_W) :
    StableHlo.after (hostOps2 (F := F)) V (Proc.devRef .tc r) = V (Proc.devRef .tc r) :=
  StableHlo.after_of_writes_sub hostOps2 V hostOps2_writes h

/-- A buffer that host stretch 3 does not write keeps its contents. -/
theorem stretch3_keep (V : Valuation τ sig (Elt F)) (r : Ref sig .tc) (h : r ∉ hostOps3_W) :
    StableHlo.after (hostOps3 (F := F)) V (Proc.devRef .tc r) = V (Proc.devRef .tc r) :=
  StableHlo.after_of_writes_sub hostOps3 V hostOps3_writes h

/-- A buffer that host stretch 4 does not write keeps its contents. -/
theorem stretch4_keep (V : Valuation τ sig (Elt F)) (r : Ref sig .tc) (h : r ∉ hostOps4_W) :
    StableHlo.after (hostOps4 (F := F)) V (Proc.devRef .tc r) = V (Proc.devRef .tc r) :=
  StableHlo.after_of_writes_sub hostOps4 V hostOps4_writes h

/-- A buffer that host stretch 5 does not write keeps its contents. -/
theorem stretch5_keep (V : Valuation τ sig (Elt F)) (r : Ref sig .tc) (h : r ∉ hostOps5_W) :
    StableHlo.after (hostOps5 (F := F)) V (Proc.devRef .tc r) = V (Proc.devRef .tc r) :=
  StableHlo.after_of_writes_sub hostOps5 V hostOps5_writes h

/-- A buffer that host stretch 6 does not write keeps its contents. -/
theorem stretch6_keep (V : Valuation τ sig (Elt F)) (r : Ref sig .tc) (h : r ∉ hostOps6_W) :
    StableHlo.after (hostOps6 (F := F)) V (Proc.devRef .tc r) = V (Proc.devRef .tc r) :=
  StableHlo.after_of_writes_sub hostOps6 V hostOps6_writes h

end Cert.Stages.Kernel

end
-- ==== Proof.Bridge.KernelStretch.lean ====
import proofs.«144042_j23673859736035_1_alg».proof.Proof.Bridge.KernelStretch.S01
import proofs.«144042_j23673859736035_1_alg».proof.Proof.Bridge.KernelStretch.S23
import proofs.«144042_j23673859736035_1_alg».proof.Proof.Bridge.KernelStretch.S45
import proofs.«144042_j23673859736035_1_alg».proof.Proof.Bridge.KernelStretch.S6
import proofs.«144042_j23673859736035_1_alg».proof.Proof.Bridge.KernelStretch.Keep

/-!
# The kernel program's host stretches as the shared stages

The seven host stretches of the kernel program, each read as the stages of `Cert.Stages` applied to
the contents of its inputs (`stretchJ_vN`), and what each stretch leaves alone (`stretchJ_keep`).
-/
-- ==== Proof.Bridge.KernelOut.lean ====
/- The kernel program's result as one function of its eighteen arguments, on the extended reals. The program is seven
   kernel regions between host stretches. A host stretch computes stages of whole arrays (the edge list's rows, the
   inverse in-degrees, the aggregation over incoming edges, rows and slabs of the stacked parameters, the mean pool); a
   region computes its own function of the arrays it finds (a linear layer with its column mean and variance; a
   normalisation with the leaky rectifier; the perceptron). Reading the buffers boundary by boundary, from the launch
   memory to the last region's output, composes these into the network `kOut`. The regions' values are hypotheses here,
   stated at any entry contents, so the theorem holds for any seven regions' data that have them. -/
import proofs.«144042_j23673859736035_1_alg».proof.Proof.KI.RunEq
import proofs.«144042_j23673859736035_1_alg».proof.Proof.Bridge.KernelOutDef
import proofs.«144042_j23673859736035_1_alg».proof.Proof.KI.LinStatsSpec
import proofs.«144042_j23673859736035_1_alg».proof.Proof.KI.NormElt
import proofs.«144042_j23673859736035_1_alg».proof.Proof.KI.MlpSpec6
import proofs.«144042_j23673859736035_1_alg».proof.Proof.Bridge.Stages
import proofs.«144042_j23673859736035_1_alg».proof.Proof.Bridge.KernelStretch

noncomputable section

namespace Cert.KernelIdeal.Hand.KOut

open Cert.KernelIdeal Cert.KernelIdeal.Gen Cert.KernelIdeal.Hand Cert.KernelIdeal.Hand.Mlp Cert.Stages Cert.Stages.Kernel
open Idealize.ShloMosaic Idealize.ShloMosaic.TcCoe Idealize.SL.Sem
open Idealize.ShloMosaic.Pipeline (Dat)

/-! ## What the seven regions compute, as hypotheses

Each region's output arrays after the region, as functions of the arrays the region finds, at ANY entry contents. -/

variable (m : (ℓ : Loc nD τ sig) → Buf (Elt Ideal) ℓ)
variable (D0 : RegData (F := Ideal) cfg0 (IR cfg0)) (D1 : RegData (F := Ideal) cfg1 (IA cfg1)) (D2 : RegData (F := Ideal) cfg2 (IR cfg2))
  (D3 : RegData (F := Ideal) cfg3 (IA cfg3)) (D4 : RegData (F := Ideal) cfg4 (IR cfg4)) (D5 : RegData (F := Ideal) cfg5 (IA cfg5))
  (D6 : RegData (F := Ideal) cfg6 (IA cfg6))

set_option maxHeartbeats 4000000 in
/-- The regions' values: the linear layers with their column means and variances (regions 0, 2, 4), the
    normalisations (regions 1, 3, 5), the perceptron (region 6). -/
structure RegVals : Prop where
  lin0 : ∀ (V : Val₀ (F := Ideal)) c, (D0.dat V c).arrAt (5 : Fin 8) cfg0.N = linArr128 (V c (Pipeline.arrRef spec0 0)) (V c (Pipeline.arrRef spec0 1)) (V c (Pipeline.arrRef spec0 2)) (V c (Pipeline.arrRef spec0 3)) (V c (Pipeline.arrRef spec0 4))
  mean0 : ∀ (V : Val₀ (F := Ideal)) c, (D0.dat V c).arrAt (6 : Fin 8) cfg0.N = meanRow (linArr128 (V c (Pipeline.arrRef spec0 0)) (V c (Pipeline.arrRef spec0 1)) (V c (Pipeline.arrRef spec0 2)) (V c (Pipeline.arrRef spec0 3)) (V c (Pipeline.arrRef spec0 4)))
  var0 : ∀ (V : Val₀ (F := Ideal)) c, (D0.dat V c).arrAt (7 : Fin 8) cfg0.N = varRow (linArr128 (V c (Pipeline.arrRef spec0 0)) (V c (Pipeline.arrRef spec0 1)) (V c (Pipeline.arrRef spec0 2)) (V c (Pipeline.arrRef spec0 3)) (V c (Pipeline.arrRef spec0 4)))
  norm1 : ∀ (V : Val₀ (F := Ideal)) c, (D1.dat V c).arrAt (5 : Fin 6) cfg1.N = normG (V c (Pipeline.arrRef spec1 0)) (V c (Pipeline.arrRef spec1 1)) (V c (Pipeline.arrRef spec1 2)) (V c (Pipeline.arrRef spec1 3)) (V c (Pipeline.arrRef spec1 4))
  lin2 : ∀ (V : Val₀ (F := Ideal)) c, (D2.dat V c).arrAt (5 : Fin 8) cfg2.N = linArr256 (V c (Pipeline.arrRef spec2 0)) (V c (Pipeline.arrRef spec2 1)) (V c (Pipeline.arrRef spec2 2)) (V c (Pipeline.arrRef spec2 3)) (V c (Pipeline.arrRef spec2 4))
  mean2 : ∀ (V : Val₀ (F := Ideal)) c, (D2.dat V c).arrAt (6 : Fin 8) cfg2.N = meanRow (linArr256 (V c (Pipeline.arrRef spec2 0)) (V c (Pipeline.arrRef spec2 1)) (V c (Pipeline.arrRef spec2 2)) (V c (Pipeline.arrRef spec2 3)) (V c (Pipeline.arrRef spec2 4)))
  var2 : ∀ (V : Val₀ (F := Ideal)) c, (D2.dat V c).arrAt (7 : Fin 8) cfg2.N = varRow (linArr256 (V c (Pipeline.arrRef spec2 0)) (V c (Pipeline.arrRef spec2 1)) (V c (Pipeline.arrRef spec2 2)) (V c (Pipeline.arrRef spec2 3)) (V c (Pipeline.arrRef spec2 4)))
  norm3 : ∀ (V : Val₀ (F := Ideal)) c, (D3.dat V c).arrAt (5 : Fin 6) cfg3.N = normG (V c (Pipeline.arrRef spec3 0)) (V c (Pipeline.arrRef spec3 1)) (V c (Pipeline.arrRef spec3 2)) (V c (Pipeline.arrRef spec3 3)) (V c (Pipeline.arrRef spec3 4))
  lin4 : ∀ (V : Val₀ (F := Ideal)) c, (D4.dat V c).arrAt (5 : Fin 8) cfg4.N = linArr256 (V c (Pipeline.arrRef spec4 0)) (V c (Pipeline.arrRef spec4 1)) (V c (Pipeline.arrRef spec4 2)) (V c (Pipeline.arrRef spec4 3)) (V c (Pipeline.arrRef spec4 4))
  mean4 : ∀ (V : Val₀ (F := Ideal)) c, (D4.dat V c).arrAt (6 : Fin 8) cfg4.N = meanRow (linArr256 (V c (Pipeline.arrRef spec4 0)) (V c (Pipeline.arrRef spec4 1)) (V c (Pipeline.arrRef spec4 2)) (V c (Pipeline.arrRef spec4 3)) (V c (Pipeline.arrRef spec4 4)))
  var4 : ∀ (V : Val₀ (F := Ideal)) c, (D4.dat V c).arrAt (7 : Fin 8) cfg4.N = varRow (linArr256 (V c (Pipeline.arrRef spec4 0)) (V c (Pipeline.arrRef spec4 1)) (V c (Pipeline.arrRef spec4 2)) (V c (Pipeline.arrRef spec4 3)) (V c (Pipeline.arrRef spec4 4)))
  norm5 : ∀ (V : Val₀ (F := Ideal)) c, (D5.dat V c).arrAt (5 : Fin 6) cfg5.N = normG (V c (Pipeline.arrRef spec5 0)) (V c (Pipeline.arrRef spec5 1)) (V c (Pipeline.arrRef spec5 2)) (V c (Pipeline.arrRef spec5 3)) (V c (Pipeline.arrRef spec5 4))
  mlp6 : ∀ (V : Val₀ (F := Ideal)) c, (D6.dat V c).arrAt (7 : Fin 8) cfg6.N = mlpG (V c main_v100) (V c main_arg12) (V c main_v101) (V c main_arg14) (V c main_v102) (V c main_arg16) (V c main_v103)

variable (c : Dev nD)

/-! ## The stages of the network on the core's arguments -/

/-- The edges' sources, destinations and the inverse in-degrees. -/
def eSrc : Arr S800000 .i32 := srcOf (m (c, Proc.devRef .tc main_arg1))
def eDst : Arr S800000 .i32 := dstOf (m (c, Proc.devRef .tc main_arg1))
def eIdg : Arr S50000x1 .f32 := invDeg (eDst m c)

/-- The linear outputs and the features after each of the three graph layers. -/
def lin0 : Arr S50000x256 .f32 := linArr128 (agg128 (eSrc m c) (eDst m c) (eIdg m c) (m (c, Proc.devRef .tc main_arg0))) (m (c, Proc.devRef .tc main_arg0)) (m (c, Proc.devRef .tc main_arg4)) (m (c, Proc.devRef .tc main_arg5)) (asRow256 (m (c, Proc.devRef .tc main_arg6)))
def hid1 : Arr S50000x256 .f32 := normG (lin0 m c) (meanRow (lin0 m c)) (varRow (lin0 m c)) (asRow256 (row3 0 (m (c, Proc.devRef .tc main_arg10)))) (asRow256 (row3 0 (m (c, Proc.devRef .tc main_arg11))))
def lin1 : Arr S50000x256 .f32 := linArr256 (agg256 (eSrc m c) (eDst m c) (eIdg m c) (hid1 m c)) (hid1 m c) (mat2 0 (m (c, Proc.devRef .tc main_arg7))) (mat2 0 (m (c, Proc.devRef .tc main_arg8))) (asRow256 (row2 0 (m (c, Proc.devRef .tc main_arg9))))
def hid2 : Arr S50000x256 .f32 := normG (lin1 m c) (meanRow (lin1 m c)) (varRow (lin1 m c)) (asRow256 (row3 1 (m (c, Proc.devRef .tc main_arg10)))) (asRow256 (row3 1 (m (c, Proc.devRef .tc main_arg11))))
def lin2 : Arr S50000x256 .f32 := linArr256 (agg256 (eSrc m c) (eDst m c) (eIdg m c) (hid2 m c)) (hid2 m c) (mat2 1 (m (c, Proc.devRef .tc main_arg7))) (mat2 1 (m (c, Proc.devRef .tc main_arg8))) (asRow256 (row2 1 (m (c, Proc.devRef .tc main_arg9))))
def hid3 : Arr S50000x256 .f32 := normG (lin2 m c) (meanRow (lin2 m c)) (varRow (lin2 m c)) (asRow256 (row3 2 (m (c, Proc.devRef .tc main_arg10)))) (asRow256 (row3 2 (m (c, Proc.devRef .tc main_arg11))))

/-- The network's result on the core's arguments is the perceptron of the pooled third-layer features. -/
theorem kOut_eq : kOut (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) (m (c, Proc.devRef .tc main_arg17))
    = mlpG (poolCat (hid3 m c) (m (c, Proc.devRef .tc main_arg2)) (m (c, Proc.devRef .tc main_arg3))) (m (c, Proc.devRef .tc main_arg12)) (asRow512 (m (c, Proc.devRef .tc main_arg13))) (m (c, Proc.devRef .tc main_arg14)) (asRow512 (m (c, Proc.devRef .tc main_arg15))) (m (c, Proc.devRef .tc main_arg16)) (asRow10 (m (c, Proc.devRef .tc main_arg17))) := rfl

/-! ## Buffers that pass through

A host stretch changes only what its operations write, a region only its output arrays. -/

theorem K1 (r : Ref sig .tc) (h : r ∉ hostOps0_W) : W1 m c (Proc.devRef .tc r) = m (c, Proc.devRef .tc r) := stretch0_keep (V0 m c) r h
theorem K3 (r : Ref sig .tc) (h : r ∉ hostOps1_W) : W3 m D0 c (Proc.devRef .tc r) = W2 m D0 c (Proc.devRef .tc r) := stretch1_keep (W2 m D0 c) r h
theorem K5 (r : Ref sig .tc) (h : r ∉ hostOps2_W) : W5 m D0 D1 c (Proc.devRef .tc r) = W4 m D0 D1 c (Proc.devRef .tc r) := stretch2_keep (W4 m D0 D1 c) r h
theorem K7 (r : Ref sig .tc) (h : r ∉ hostOps3_W) : W7 m D0 D1 D2 c (Proc.devRef .tc r) = W6 m D0 D1 D2 c (Proc.devRef .tc r) := stretch3_keep (W6 m D0 D1 D2 c) r h
theorem K9 (r : Ref sig .tc) (h : r ∉ hostOps4_W) : W9 m D0 D1 D2 D3 c (Proc.devRef .tc r) = W8 m D0 D1 D2 D3 c (Proc.devRef .tc r) := stretch4_keep (W8 m D0 D1 D2 D3 c) r h
theorem K11 (r : Ref sig .tc) (h : r ∉ hostOps5_W) : W11 m D0 D1 D2 D3 D4 c (Proc.devRef .tc r) = W10 m D0 D1 D2 D3 D4 c (Proc.devRef .tc r) := stretch5_keep (W10 m D0 D1 D2 D3 D4 c) r h
theorem K13 (r : Ref sig .tc) (h : r ∉ hostOps6_W) : W13 m D0 D1 D2 D3 D4 D5 c (Proc.devRef .tc r) = W12 m D0 D1 D2 D3 D4 D5 c (Proc.devRef .tc r) := stretch6_keep (W12 m D0 D1 D2 D3 D4 D5 c) r h

/-- A buffer that nothing writes before the last region: no host stretch and no region's output. -/
def Free (r : Ref sig .tc) : Prop :=
  r ∉ hostOps0_W ∧ r ∉ hostOps1_W ∧ r ∉ hostOps2_W ∧ r ∉ hostOps3_W ∧ r ∉ hostOps4_W ∧ r ∉ hostOps5_W ∧ r ∉ hostOps6_W
  ∧ r ∉ ([main_v30_0, main_v30_1, main_v30_2] : List (Ref sig .tc)) ∧ r ∉ ([main_v33] : List (Ref sig .tc)) ∧ r ∉ ([main_v57_0, main_v57_1, main_v57_2] : List (Ref sig .tc))
  ∧ r ∉ ([main_v60] : List (Ref sig .tc)) ∧ r ∉ ([main_v84_0, main_v84_1, main_v84_2] : List (Ref sig .tc)) ∧ r ∉ ([main_v87] : List (Ref sig .tc))

instance (r : Ref sig .tc) : Decidable (Free r) := by unfold Free; exact inferInstance

/-- Such a buffer holds at every boundary what the launch memory holds. -/
theorem at1 (r : Ref sig .tc) (h : Free r) : W1 m c (Proc.devRef .tc r) = m (c, Proc.devRef .tc r) := K1 m c r h.1
theorem at2 (r : Ref sig .tc) (h : Free r) : W2 m D0 c (Proc.devRef .tc r) = m (c, Proc.devRef .tc r) := (W2_of m D0 c r h.2.2.2.2.2.2.2.1).trans (at1 m c r h)
theorem at3 (r : Ref sig .tc) (h : Free r) : W3 m D0 c (Proc.devRef .tc r) = m (c, Proc.devRef .tc r) := (K3 m D0 c r h.2.1).trans (at2 m D0 c r h)
theorem at4 (r : Ref sig .tc) (h : Free r) : W4 m D0 D1 c (Proc.devRef .tc r) = m (c, Proc.devRef .tc r) := (W4_of m D0 D1 c r h.2.2.2.2.2.2.2.2.1).trans (at3 m D0 c r h)
theorem at5 (r : Ref sig .tc) (h : Free r) : W5 m D0 D1 c (Proc.devRef .tc r) = m (c, Proc.devRef .tc r) := (K5 m D0 D1 c r h.2.2.1).trans (at4 m D0 D1 c r h)
theorem at6 (r : Ref sig .tc) (h : Free r) : W6 m D0 D1 D2 c (Proc.devRef .tc r) = m (c, Proc.devRef .tc r) := (W6_of m D0 D1 D2 c r h.2.2.2.2.2.2.2.2.2.1).trans (at5 m D0 D1 c r h)
theorem at7 (r : Ref sig .tc) (h : Free r) : W7 m D0 D1 D2 c (Proc.devRef .tc r) = m (c, Proc.devRef .tc r) := (K7 m D0 D1 D2 c r h.2.2.2.1).trans (at6 m D0 D1 D2 c r h)
theorem at8 (r : Ref sig .tc) (h : Free r) : W8 m D0 D1 D2 D3 c (Proc.devRef .tc r) = m (c, Proc.devRef .tc r) := (W8_of m D0 D1 D2 D3 c r h.2.2.2.2.2.2.2.2.2.2.1).trans (at7 m D0 D1 D2 c r h)
theorem at9 (r : Ref sig .tc) (h : Free r) : W9 m D0 D1 D2 D3 c (Proc.devRef .tc r) = m (c, Proc.devRef .tc r) := (K9 m D0 D1 D2 D3 c r h.2.2.2.2.1).trans (at8 m D0 D1 D2 D3 c r h)
theorem at10 (r : Ref sig .tc) (h : Free r) : W10 m D0 D1 D2 D3 D4 c (Proc.devRef .tc r) = m (c, Proc.devRef .tc r) := (W10_of m D0 D1 D2 D3 D4 c r h.2.2.2.2.2.2.2.2.2.2.2.1).trans (at9 m D0 D1 D2 D3 c r h)
theorem at11 (r : Ref sig .tc) (h : Free r) : W11 m D0 D1 D2 D3 D4 c (Proc.devRef .tc r) = m (c, Proc.devRef .tc r) := (K11 m D0 D1 D2 D3 D4 c r h.2.2.2.2.2.1).trans (at10 m D0 D1 D2 D3 D4 c r h)
theorem at12 (r : Ref sig .tc) (h : Free r) : W12 m D0 D1 D2 D3 D4 D5 c (Proc.devRef .tc r) = m (c, Proc.devRef .tc r) := (W12_of m D0 D1 D2 D3 D4 D5 c r h.2.2.2.2.2.2.2.2.2.2.2.2).trans (at11 m D0 D1 D2 D3 D4 c r h)
theorem at13 (r : Ref sig .tc) (h : Free r) : W13 m D0 D1 D2 D3 D4 D5 c (Proc.devRef .tc r) = m (c, Proc.devRef .tc r) := (K13 m D0 D1 D2 D3 D4 D5 c r h.2.2.2.2.2.2.1).trans (at12 m D0 D1 D2 D3 D4 D5 c r h)

/-! ## The buffers' contents, boundary by boundary

At each boundary, what the buffers that a later item reads hold, as stages of the core's arguments. A host stretch's
results are its stages of what it reads; a region's are its hypothesis at the contents it is entered at. -/

/-! ### After the first host stretch -/
theorem T1_v1 (H : RegVals D0 D1 D2 D3 D4 D5 D6) : W1 m c (Proc.devRef .tc main_v1) = eSrc m c := stretch0_v1 (V0 m c)
theorem T1_v3 (H : RegVals D0 D1 D2 D3 D4 D5 D6) : W1 m c (Proc.devRef .tc main_v3) = eDst m c := stretch0_v3 (V0 m c)
theorem T1_v12 (H : RegVals D0 D1 D2 D3 D4 D5 D6) : W1 m c (Proc.devRef .tc main_v12) = eIdg m c := stretch0_v12 (V0 m c)
theorem T1_v14 (H : RegVals D0 D1 D2 D3 D4 D5 D6) : W1 m c (Proc.devRef .tc main_v14) = row3 0 (m (c, Proc.devRef .tc main_arg10)) := stretch0_v14 (V0 m c)
theorem T1_v16 (H : RegVals D0 D1 D2 D3 D4 D5 D6) : W1 m c (Proc.devRef .tc main_v16) = row3 0 (m (c, Proc.devRef .tc main_arg11)) := stretch0_v16 (V0 m c)
theorem T1_v28 (H : RegVals D0 D1 D2 D3 D4 D5 D6) : W1 m c (Proc.devRef .tc main_v28) = agg128 (eSrc m c) (eDst m c) (eIdg m c) (m (c, Proc.devRef .tc main_arg0)) := stretch0_v28 (V0 m c)
theorem T1_v29 (H : RegVals D0 D1 D2 D3 D4 D5 D6) : W1 m c (Proc.devRef .tc main_v29) = asRow256 (m (c, Proc.devRef .tc main_arg6)) := stretch0_v29 (V0 m c)

/-! ### After region 0 -/
theorem T2_lin (H : RegVals D0 D1 D2 D3 D4 D5 D6) : W2 m D0 c (Proc.devRef .tc main_v30_0) = lin0 m c := by
  refine (W2_main_v30_0 m D0 c).trans ((H.lin0 (rd (W1 m)) c).trans ?_)
  show linArr128 (W1 m c (Proc.devRef .tc main_v28)) (W1 m c (Proc.devRef .tc main_arg0)) (W1 m c (Proc.devRef .tc main_arg4)) (W1 m c (Proc.devRef .tc main_arg5)) (W1 m c (Proc.devRef .tc main_v29)) = _
  rw [T1_v28 m D0 D1 D2 D3 D4 D5 D6 c H, at1 m c main_arg0 (by decide), at1 m c main_arg4 (by decide), at1 m c main_arg5 (by decide), T1_v29 m D0 D1 D2 D3 D4 D5 D6 c H]
  rfl
theorem T2_mean (H : RegVals D0 D1 D2 D3 D4 D5 D6) : W2 m D0 c (Proc.devRef .tc main_v30_1) = meanRow (lin0 m c) := by
  refine (W2_main_v30_1 m D0 c).trans ((H.mean0 (rd (W1 m)) c).trans ?_)
  show meanRow (linArr128 (W1 m c (Proc.devRef .tc main_v28)) (W1 m c (Proc.devRef .tc main_arg0)) (W1 m c (Proc.devRef .tc main_arg4)) (W1 m c (Proc.devRef .tc main_arg5)) (W1 m c (Proc.devRef .tc main_v29))) = _
  rw [T1_v28 m D0 D1 D2 D3 D4 D5 D6 c H, at1 m c main_arg0 (by decide), at1 m c main_arg4 (by decide), at1 m c main_arg5 (by decide), T1_v29 m D0 D1 D2 D3 D4 D5 D6 c H]
  rfl
theorem T2_var (H : RegVals D0 D1 D2 D3 D4 D5 D6) : W2 m D0 c (Proc.devRef .tc main_v30_2) = varRow (lin0 m c) := by
  refine (W2_main_v30_2 m D0 c).trans ((H.var0 (rd (W1 m)) c).trans ?_)
  show varRow (linArr128 (W1 m c (Proc.devRef .tc main_v28)) (W1 m c (Proc.devRef .tc main_arg0)) (W1 m c (Proc.devRef .tc main_arg4)) (W1 m c (Proc.devRef .tc main_arg5)) (W1 m c (Proc.devRef .tc main_v29))) = _
  rw [T1_v28 m D0 D1 D2 D3 D4 D5 D6 c H, at1 m c main_arg0 (by decide), at1 m c main_arg4 (by decide), at1 m c main_arg5 (by decide), T1_v29 m D0 D1 D2 D3 D4 D5 D6 c H]
  rfl
theorem T2_v14 (H : RegVals D0 D1 D2 D3 D4 D5 D6) : W2 m D0 c (Proc.devRef .tc main_v14) = row3 0 (m (c, Proc.devRef .tc main_arg10)) := (W2_of m D0 c main_v14 (by decide)).trans (T1_v14 m D0 D1 D2 D3 D4 D5 D6 c H)
theorem T2_v16 (H : RegVals D0 D1 D2 D3 D4 D5 D6) : W2 m D0 c (Proc.devRef .tc main_v16) = row3 0 (m (c, Proc.devRef .tc main_arg11)) := (W2_of m D0 c main_v16 (by decide)).trans (T1_v16 m D0 D1 D2 D3 D4 D5 D6 c H)

/-! ### After the second host stretch -/
theorem T3_v31 (H : RegVals D0 D1 D2 D3 D4 D5 D6) : W3 m D0 c (Proc.devRef .tc main_v31) = asRow256 (row3 0 (m (c, Proc.devRef .tc main_arg10))) := (stretch1_v31 (W2 m D0 c)).trans (by rw [T2_v14 m D0 D1 D2 D3 D4 D5 D6 c H])
theorem T3_v32 (H : RegVals D0 D1 D2 D3 D4 D5 D6) : W3 m D0 c (Proc.devRef .tc main_v32) = asRow256 (row3 0 (m (c, Proc.devRef .tc main_arg11))) := (stretch1_v32 (W2 m D0 c)).trans (by rw [T2_v16 m D0 D1 D2 D3 D4 D5 D6 c H])
theorem T3_lin (H : RegVals D0 D1 D2 D3 D4 D5 D6) : W3 m D0 c (Proc.devRef .tc main_v30_0) = lin0 m c := (K3 m D0 c main_v30_0 (by decide)).trans (T2_lin m D0 D1 D2 D3 D4 D5 D6 c H)
theorem T3_mean (H : RegVals D0 D1 D2 D3 D4 D5 D6) : W3 m D0 c (Proc.devRef .tc main_v30_1) = meanRow (lin0 m c) := (K3 m D0 c main_v30_1 (by decide)).trans (T2_mean m D0 D1 D2 D3 D4 D5 D6 c H)
theorem T3_var (H : RegVals D0 D1 D2 D3 D4 D5 D6) : W3 m D0 c (Proc.devRef .tc main_v30_2) = varRow (lin0 m c) := (K3 m D0 c main_v30_2 (by decide)).trans (T2_var m D0 D1 D2 D3 D4 D5 D6 c H)

/-! ### After region 1 -/
theorem T4_h (H : RegVals D0 D1 D2 D3 D4 D5 D6) : W4 m D0 D1 c (Proc.devRef .tc main_v33) = hid1 m c := by
  refine (W4_main_v33 m D0 D1 c).trans ((H.norm1 (rd (W3 m D0)) c).trans ?_)
  show normG (F := Ideal) (W3 m D0 c (Proc.devRef .tc main_v30_0)) (W3 m D0 c (Proc.devRef .tc main_v30_1)) (W3 m D0 c (Proc.devRef .tc main_v30_2)) (W3 m D0 c (Proc.devRef .tc main_v31)) (W3 m D0 c (Proc.devRef .tc main_v32)) = _
  rw [T3_lin m D0 D1 D2 D3 D4 D5 D6 c H, T3_mean m D0 D1 D2 D3 D4 D5 D6 c H, T3_var m D0 D1 D2 D3 D4 D5 D6 c H, T3_v31 m D0 D1 D2 D3 D4 D5 D6 c H, T3_v32 m D0 D1 D2 D3 D4 D5 D6 c H]
  rfl
theorem T4_v1 (H : RegVals D0 D1 D2 D3 D4 D5 D6) : W4 m D0 D1 c (Proc.devRef .tc main_v1) = eSrc m c := (W4_of m D0 D1 c main_v1 (by decide)).trans ((K3 m D0 c main_v1 (by decide)).trans ((W2_of m D0 c main_v1 (by decide)).trans (T1_v1 m D0 D1 D2 D3 D4 D5 D6 c H)))
theorem T4_v3 (H : RegVals D0 D1 D2 D3 D4 D5 D6) : W4 m D0 D1 c (Proc.devRef .tc main_v3) = eDst m c := (W4_of m D0 D1 c main_v3 (by decide)).trans ((K3 m D0 c main_v3 (by decide)).trans ((W2_of m D0 c main_v3 (by decide)).trans (T1_v3 m D0 D1 D2 D3 D4 D5 D6 c H)))
theorem T4_v12 (H : RegVals D0 D1 D2 D3 D4 D5 D6) : W4 m D0 D1 c (Proc.devRef .tc main_v12) = eIdg m c := (W4_of m D0 D1 c main_v12 (by decide)).trans ((K3 m D0 c main_v12 (by decide)).trans ((W2_of m D0 c main_v12 (by decide)).trans (T1_v12 m D0 D1 D2 D3 D4 D5 D6 c H)))

/-! ### After the third host stretch -/
theorem T5_v55 (H : RegVals D0 D1 D2 D3 D4 D5 D6) : W5 m D0 D1 c (Proc.devRef .tc main_v55) = agg256 (eSrc m c) (eDst m c) (eIdg m c) (hid1 m c) :=
  (stretch2_v55 (W4 m D0 D1 c)).trans (by rw [T4_v1 m D0 D1 D2 D3 D4 D5 D6 c H, T4_v3 m D0 D1 D2 D3 D4 D5 D6 c H, T4_v12 m D0 D1 D2 D3 D4 D5 D6 c H, T4_h m D0 D1 D2 D3 D4 D5 D6 c H])
theorem T5_v35 (H : RegVals D0 D1 D2 D3 D4 D5 D6) : W5 m D0 D1 c (Proc.devRef .tc main_v35) = mat2 0 (m (c, Proc.devRef .tc main_arg7)) := (stretch2_v35 (W4 m D0 D1 c)).trans (by rw [at4 m D0 D1 c main_arg7 (by decide)])
theorem T5_v39 (H : RegVals D0 D1 D2 D3 D4 D5 D6) : W5 m D0 D1 c (Proc.devRef .tc main_v39) = mat2 0 (m (c, Proc.devRef .tc main_arg8)) := (stretch2_v39 (W4 m D0 D1 c)).trans (by rw [at4 m D0 D1 c main_arg8 (by decide)])
theorem T5_v56 (H : RegVals D0 D1 D2 D3 D4 D5 D6) : W5 m D0 D1 c (Proc.devRef .tc main_v56) = asRow256 (row2 0 (m (c, Proc.devRef .tc main_arg9))) := (stretch2_v56 (W4 m D0 D1 c)).trans (by rw [at4 m D0 D1 c main_arg9 (by decide)])
theorem T5_v41 (H : RegVals D0 D1 D2 D3 D4 D5 D6) : W5 m D0 D1 c (Proc.devRef .tc main_v41) = row3 1 (m (c, Proc.devRef .tc main_arg10)) := (stretch2_v41 (W4 m D0 D1 c)).trans (by rw [at4 m D0 D1 c main_arg10 (by decide)])
theorem T5_v43 (H : RegVals D0 D1 D2 D3 D4 D5 D6) : W5 m D0 D1 c (Proc.devRef .tc main_v43) = row3 1 (m (c, Proc.devRef .tc main_arg11)) := (stretch2_v43 (W4 m D0 D1 c)).trans (by rw [at4 m D0 D1 c main_arg11 (by decide)])
theorem T5_v33 (H : RegVals D0 D1 D2 D3 D4 D5 D6) : W5 m D0 D1 c (Proc.devRef .tc main_v33) = hid1 m c := (K5 m D0 D1 c main_v33 (by decide)).trans (T4_h m D0 D1 D2 D3 D4 D5 D6 c H)

/-! ### After region 2 -/
theorem T6_lin (H : RegVals D0 D1 D2 D3 D4 D5 D6) : W6 m D0 D1 D2 c (Proc.devRef .tc main_v57_0) = lin1 m c := by
  refine (W6_main_v57_0 m D0 D1 D2 c).trans ((H.lin2 (rd (W5 m D0 D1)) c).trans ?_)
  show linArr256 (W5 m D0 D1 c (Proc.devRef .tc main_v55)) (W5 m D0 D1 c (Proc.devRef .tc main_v33)) (W5 m D0 D1 c (Proc.devRef .tc main_v35)) (W5 m D0 D1 c (Proc.devRef .tc main_v39)) (W5 m D0 D1 c (Proc.devRef .tc main_v56)) = _
  rw [T5_v55 m D0 D1 D2 D3 D4 D5 D6 c H, T5_v33 m D0 D1 D2 D3 D4 D5 D6 c H, T5_v35 m D0 D1 D2 D3 D4 D5 D6 c H, T5_v39 m D0 D1 D2 D3 D4 D5 D6 c H, T5_v56 m D0 D1 D2 D3 D4 D5 D6 c H]
  rfl
theorem T6_mean (H : RegVals D0 D1 D2 D3 D4 D5 D6) : W6 m D0 D1 D2 c (Proc.devRef .tc main_v57_1) = meanRow (lin1 m c) := by
  refine (W6_main_v57_1 m D0 D1 D2 c).trans ((H.mean2 (rd (W5 m D0 D1)) c).trans ?_)
  show meanRow (linArr256 (W5 m D0 D1 c (Proc.devRef .tc main_v55)) (W5 m D0 D1 c (Proc.devRef .tc main_v33)) (W5 m D0 D1 c (Proc.devRef .tc main_v35)) (W5 m D0 D1 c (Proc.devRef .tc main_v39)) (W5 m D0 D1 c (Proc.devRef .tc main_v56))) = _
  rw [T5_v55 m D0 D1 D2 D3 D4 D5 D6 c H, T5_v33 m D0 D1 D2 D3 D4 D5 D6 c H, T5_v35 m D0 D1 D2 D3 D4 D5 D6 c H, T5_v39 m D0 D1 D2 D3 D4 D5 D6 c H, T5_v56 m D0 D1 D2 D3 D4 D5 D6 c H]
  rfl
theorem T6_var (H : RegVals D0 D1 D2 D3 D4 D5 D6) : W6 m D0 D1 D2 c (Proc.devRef .tc main_v57_2) = varRow (lin1 m c) := by
  refine (W6_main_v57_2 m D0 D1 D2 c).trans ((H.var2 (rd (W5 m D0 D1)) c).trans ?_)
  show varRow (linArr256 (W5 m D0 D1 c (Proc.devRef .tc main_v55)) (W5 m D0 D1 c (Proc.devRef .tc main_v33)) (W5 m D0 D1 c (Proc.devRef .tc main_v35)) (W5 m D0 D1 c (Proc.devRef .tc main_v39)) (W5 m D0 D1 c (Proc.devRef .tc main_v56))) = _
  rw [T5_v55 m D0 D1 D2 D3 D4 D5 D6 c H, T5_v33 m D0 D1 D2 D3 D4 D5 D6 c H, T5_v35 m D0 D1 D2 D3 D4 D5 D6 c H, T5_v39 m D0 D1 D2 D3 D4 D5 D6 c H, T5_v56 m D0 D1 D2 D3 D4 D5 D6 c H]
  rfl
theorem T6_v41 (H : RegVals D0 D1 D2 D3 D4 D5 D6) : W6 m D0 D1 D2 c (Proc.devRef .tc main_v41) = row3 1 (m (c, Proc.devRef .tc main_arg10)) := (W6_of m D0 D1 D2 c main_v41 (by decide)).trans (T5_v41 m D0 D1 D2 D3 D4 D5 D6 c H)
theorem T6_v43 (H : RegVals D0 D1 D2 D3 D4 D5 D6) : W6 m D0 D1 D2 c (Proc.devRef .tc main_v43) = row3 1 (m (c, Proc.devRef .tc main_arg11)) := (W6_of m D0 D1 D2 c main_v43 (by decide)).trans (T5_v43 m D0 D1 D2 D3 D4 D5 D6 c H)

/-! ### After the fourth host stretch -/
theorem T7_v58 (H : RegVals D0 D1 D2 D3 D4 D5 D6) : W7 m D0 D1 D2 c (Proc.devRef .tc main_v58) = asRow256 (row3 1 (m (c, Proc.devRef .tc main_arg10))) := (stretch3_v58 (W6 m D0 D1 D2 c)).trans (by rw [T6_v41 m D0 D1 D2 D3 D4 D5 D6 c H])
theorem T7_v59 (H : RegVals D0 D1 D2 D3 D4 D5 D6) : W7 m D0 D1 D2 c (Proc.devRef .tc main_v59) = asRow256 (row3 1 (m (c, Proc.devRef .tc main_arg11))) := (stretch3_v59 (W6 m D0 D1 D2 c)).trans (by rw [T6_v43 m D0 D1 D2 D3 D4 D5 D6 c H])
theorem T7_lin (H : RegVals D0 D1 D2 D3 D4 D5 D6) : W7 m D0 D1 D2 c (Proc.devRef .tc main_v57_0) = lin1 m c := (K7 m D0 D1 D2 c main_v57_0 (by decide)).trans (T6_lin m D0 D1 D2 D3 D4 D5 D6 c H)
theorem T7_mean (H : RegVals D0 D1 D2 D3 D4 D5 D6) : W7 m D0 D1 D2 c (Proc.devRef .tc main_v57_1) = meanRow (lin1 m c) := (K7 m D0 D1 D2 c main_v57_1 (by decide)).trans (T6_mean m D0 D1 D2 D3 D4 D5 D6 c H)
theorem T7_var (H : RegVals D0 D1 D2 D3 D4 D5 D6) : W7 m D0 D1 D2 c (Proc.devRef .tc main_v57_2) = varRow (lin1 m c) := (K7 m D0 D1 D2 c main_v57_2 (by decide)).trans (T6_var m D0 D1 D2 D3 D4 D5 D6 c H)

/-! ### After region 3 -/
theorem T8_h (H : RegVals D0 D1 D2 D3 D4 D5 D6) : W8 m D0 D1 D2 D3 c (Proc.devRef .tc main_v60) = hid2 m c := by
  refine (W8_main_v60 m D0 D1 D2 D3 c).trans ((H.norm3 (rd (W7 m D0 D1 D2)) c).trans ?_)
  show normG (F := Ideal) (W7 m D0 D1 D2 c (Proc.devRef .tc main_v57_0)) (W7 m D0 D1 D2 c (Proc.devRef .tc main_v57_1)) (W7 m D0 D1 D2 c (Proc.devRef .tc main_v57_2)) (W7 m D0 D1 D2 c (Proc.devRef .tc main_v58)) (W7 m D0 D1 D2 c (Proc.devRef .tc main_v59)) = _
  rw [T7_lin m D0 D1 D2 D3 D4 D5 D6 c H, T7_mean m D0 D1 D2 D3 D4 D5 D6 c H, T7_var m D0 D1 D2 D3 D4 D5 D6 c H, T7_v58 m D0 D1 D2 D3 D4 D5 D6 c H, T7_v59 m D0 D1 D2 D3 D4 D5 D6 c H]
  rfl
theorem T8_v1 (H : RegVals D0 D1 D2 D3 D4 D5 D6) : W8 m D0 D1 D2 D3 c (Proc.devRef .tc main_v1) = eSrc m c := (W8_of m D0 D1 D2 D3 c main_v1 (by decide)).trans ((K7 m D0 D1 D2 c main_v1 (by decide)).trans ((W6_of m D0 D1 D2 c main_v1 (by decide)).trans ((K5 m D0 D1 c main_v1 (by decide)).trans (T4_v1 m D0 D1 D2 D3 D4 D5 D6 c H))))
theorem T8_v3 (H : RegVals D0 D1 D2 D3 D4 D5 D6) : W8 m D0 D1 D2 D3 c (Proc.devRef .tc main_v3) = eDst m c := (W8_of m D0 D1 D2 D3 c main_v3 (by decide)).trans ((K7 m D0 D1 D2 c main_v3 (by decide)).trans ((W6_of m D0 D1 D2 c main_v3 (by decide)).trans ((K5 m D0 D1 c main_v3 (by decide)).trans (T4_v3 m D0 D1 D2 D3 D4 D5 D6 c H))))
theorem T8_v12 (H : RegVals D0 D1 D2 D3 D4 D5 D6) : W8 m D0 D1 D2 D3 c (Proc.devRef .tc main_v12) = eIdg m c := (W8_of m D0 D1 D2 D3 c main_v12 (by decide)).trans ((K7 m D0 D1 D2 c main_v12 (by decide)).trans ((W6_of m D0 D1 D2 c main_v12 (by decide)).trans ((K5 m D0 D1 c main_v12 (by decide)).trans (T4_v12 m D0 D1 D2 D3 D4 D5 D6 c H))))

/-! ### After the fifth host stretch -/
theorem T9_v82 (H : RegVals D0 D1 D2 D3 D4 D5 D6) : W9 m D0 D1 D2 D3 c (Proc.devRef .tc main_v82) = agg256 (eSrc m c) (eDst m c) (eIdg m c) (hid2 m c) :=
  (stretch4_v82 (W8 m D0 D1 D2 D3 c)).trans (by rw [T8_v1 m D0 D1 D2 D3 D4 D5 D6 c H, T8_v3 m D0 D1 D2 D3 D4 D5 D6 c H, T8_v12 m D0 D1 D2 D3 D4 D5 D6 c H, T8_h m D0 D1 D2 D3 D4 D5 D6 c H])
theorem T9_v62 (H : RegVals D0 D1 D2 D3 D4 D5 D6) : W9 m D0 D1 D2 D3 c (Proc.devRef .tc main_v62) = mat2 1 (m (c, Proc.devRef .tc main_arg7)) := (stretch4_v62 (W8 m D0 D1 D2 D3 c)).trans (by rw [at8 m D0 D1 D2 D3 c main_arg7 (by decide)])
theorem T9_v66 (H : RegVals D0 D1 D2 D3 D4 D5 D6) : W9 m D0 D1 D2 D3 c (Proc.devRef .tc main_v66) = mat2 1 (m (c, Proc.devRef .tc main_arg8)) := (stretch4_v66 (W8 m D0 D1 D2 D3 c)).trans (by rw [at8 m D0 D1 D2 D3 c main_arg8 (by decide)])
theorem T9_v83 (H : RegVals D0 D1 D2 D3 D4 D5 D6) : W9 m D0 D1 D2 D3 c (Proc.devRef .tc main_v83) = asRow256 (row2 1 (m (c, Proc.devRef .tc main_arg9))) := (stretch4_v83 (W8 m D0 D1 D2 D3 c)).trans (by rw [at8 m D0 D1 D2 D3 c main_arg9 (by decide)])
theorem T9_v68 (H : RegVals D0 D1 D2 D3 D4 D5 D6) : W9 m D0 D1 D2 D3 c (Proc.devRef .tc main_v68) = row3 2 (m (c, Proc.devRef .tc main_arg10)) := (stretch4_v68 (W8 m D0 D1 D2 D3 c)).trans (by rw [at8 m D0 D1 D2 D3 c main_arg10 (by decide)])
theorem T9_v70 (H : RegVals D0 D1 D2 D3 D4 D5 D6) : W9 m D0 D1 D2 D3 c (Proc.devRef .tc main_v70) = row3 2 (m (c, Proc.devRef .tc main_arg11)) := (stretch4_v70 (W8 m D0 D1 D2 D3 c)).trans (by rw [at8 m D0 D1 D2 D3 c main_arg11 (by decide)])
theorem T9_v60 (H : RegVals D0 D1 D2 D3 D4 D5 D6) : W9 m D0 D1 D2 D3 c (Proc.devRef .tc main_v60) = hid2 m c := (K9 m D0 D1 D2 D3 c main_v60 (by decide)).trans (T8_h m D0 D1 D2 D3 D4 D5 D6 c H)

/-! ### After region 4 -/
theorem T10_lin (H : RegVals D0 D1 D2 D3 D4 D5 D6) : W10 m D0 D1 D2 D3 D4 c (Proc.devRef .tc main_v84_0) = lin2 m c := by
  refine (W10_main_v84_0 m D0 D1 D2 D3 D4 c).trans ((H.lin4 (rd (W9 m D0 D1 D2 D3)) c).trans ?_)
  show linArr256 (W9 m D0 D1 D2 D3 c (Proc.devRef .tc main_v82)) (W9 m D0 D1 D2 D3 c (Proc.devRef .tc main_v60)) (W9 m D0 D1 D2 D3 c (Proc.devRef .tc main_v62)) (W9 m D0 D1 D2 D3 c (Proc.devRef .tc main_v66)) (W9 m D0 D1 D2 D3 c (Proc.devRef .tc main_v83)) = _
  rw [T9_v82 m D0 D1 D2 D3 D4 D5 D6 c H, T9_v60 m D0 D1 D2 D3 D4 D5 D6 c H, T9_v62 m D0 D1 D2 D3 D4 D5 D6 c H, T9_v66 m D0 D1 D2 D3 D4 D5 D6 c H, T9_v83 m D0 D1 D2 D3 D4 D5 D6 c H]
  rfl
theorem T10_mean (H : RegVals D0 D1 D2 D3 D4 D5 D6) : W10 m D0 D1 D2 D3 D4 c (Proc.devRef .tc main_v84_1) = meanRow (lin2 m c) := by
  refine (W10_main_v84_1 m D0 D1 D2 D3 D4 c).trans ((H.mean4 (rd (W9 m D0 D1 D2 D3)) c).trans ?_)
  show meanRow (linArr256 (W9 m D0 D1 D2 D3 c (Proc.devRef .tc main_v82)) (W9 m D0 D1 D2 D3 c (Proc.devRef .tc main_v60)) (W9 m D0 D1 D2 D3 c (Proc.devRef .tc main_v62)) (W9 m D0 D1 D2 D3 c (Proc.devRef .tc main_v66)) (W9 m D0 D1 D2 D3 c (Proc.devRef .tc main_v83))) = _
  rw [T9_v82 m D0 D1 D2 D3 D4 D5 D6 c H, T9_v60 m D0 D1 D2 D3 D4 D5 D6 c H, T9_v62 m D0 D1 D2 D3 D4 D5 D6 c H, T9_v66 m D0 D1 D2 D3 D4 D5 D6 c H, T9_v83 m D0 D1 D2 D3 D4 D5 D6 c H]
  rfl
theorem T10_var (H : RegVals D0 D1 D2 D3 D4 D5 D6) : W10 m D0 D1 D2 D3 D4 c (Proc.devRef .tc main_v84_2) = varRow (lin2 m c) := by
  refine (W10_main_v84_2 m D0 D1 D2 D3 D4 c).trans ((H.var4 (rd (W9 m D0 D1 D2 D3)) c).trans ?_)
  show varRow (linArr256 (W9 m D0 D1 D2 D3 c (Proc.devRef .tc main_v82)) (W9 m D0 D1 D2 D3 c (Proc.devRef .tc main_v60)) (W9 m D0 D1 D2 D3 c (Proc.devRef .tc main_v62)) (W9 m D0 D1 D2 D3 c (Proc.devRef .tc main_v66)) (W9 m D0 D1 D2 D3 c (Proc.devRef .tc main_v83))) = _
  rw [T9_v82 m D0 D1 D2 D3 D4 D5 D6 c H, T9_v60 m D0 D1 D2 D3 D4 D5 D6 c H, T9_v62 m D0 D1 D2 D3 D4 D5 D6 c H, T9_v66 m D0 D1 D2 D3 D4 D5 D6 c H, T9_v83 m D0 D1 D2 D3 D4 D5 D6 c H]
  rfl
theorem T10_v68 (H : RegVals D0 D1 D2 D3 D4 D5 D6) : W10 m D0 D1 D2 D3 D4 c (Proc.devRef .tc main_v68) = row3 2 (m (c, Proc.devRef .tc main_arg10)) := (W10_of m D0 D1 D2 D3 D4 c main_v68 (by decide)).trans (T9_v68 m D0 D1 D2 D3 D4 D5 D6 c H)
theorem T10_v70 (H : RegVals D0 D1 D2 D3 D4 D5 D6) : W10 m D0 D1 D2 D3 D4 c (Proc.devRef .tc main_v70) = row3 2 (m (c, Proc.devRef .tc main_arg11)) := (W10_of m D0 D1 D2 D3 D4 c main_v70 (by decide)).trans (T9_v70 m D0 D1 D2 D3 D4 D5 D6 c H)

/-! ### After the sixth host stretch -/
theorem T11_v85 (H : RegVals D0 D1 D2 D3 D4 D5 D6) : W11 m D0 D1 D2 D3 D4 c (Proc.devRef .tc main_v85) = asRow256 (row3 2 (m (c, Proc.devRef .tc main_arg10))) := (stretch5_v85 (W10 m D0 D1 D2 D3 D4 c)).trans (by rw [T10_v68 m D0 D1 D2 D3 D4 D5 D6 c H])
theorem T11_v86 (H : RegVals D0 D1 D2 D3 D4 D5 D6) : W11 m D0 D1 D2 D3 D4 c (Proc.devRef .tc main_v86) = asRow256 (row3 2 (m (c, Proc.devRef .tc main_arg11))) := (stretch5_v86 (W10 m D0 D1 D2 D3 D4 c)).trans (by rw [T10_v70 m D0 D1 D2 D3 D4 D5 D6 c H])
theorem T11_lin (H : RegVals D0 D1 D2 D3 D4 D5 D6) : W11 m D0 D1 D2 D3 D4 c (Proc.devRef .tc main_v84_0) = lin2 m c := (K11 m D0 D1 D2 D3 D4 c main_v84_0 (by decide)).trans (T10_lin m D0 D1 D2 D3 D4 D5 D6 c H)
theorem T11_mean (H : RegVals D0 D1 D2 D3 D4 D5 D6) : W11 m D0 D1 D2 D3 D4 c (Proc.devRef .tc main_v84_1) = meanRow (lin2 m c) := (K11 m D0 D1 D2 D3 D4 c main_v84_1 (by decide)).trans (T10_mean m D0 D1 D2 D3 D4 D5 D6 c H)
theorem T11_var (H : RegVals D0 D1 D2 D3 D4 D5 D6) : W11 m D0 D1 D2 D3 D4 c (Proc.devRef .tc main_v84_2) = varRow (lin2 m c) := (K11 m D0 D1 D2 D3 D4 c main_v84_2 (by decide)).trans (T10_var m D0 D1 D2 D3 D4 D5 D6 c H)

/-! ### After region 5 -/
theorem T12_h (H : RegVals D0 D1 D2 D3 D4 D5 D6) : W12 m D0 D1 D2 D3 D4 D5 c (Proc.devRef .tc main_v87) = hid3 m c := by
  refine (W12_main_v87 m D0 D1 D2 D3 D4 D5 c).trans ((H.norm5 (rd (W11 m D0 D1 D2 D3 D4)) c).trans ?_)
  show normG (F := Ideal) (W11 m D0 D1 D2 D3 D4 c (Proc.devRef .tc main_v84_0)) (W11 m D0 D1 D2 D3 D4 c (Proc.devRef .tc main_v84_1)) (W11 m D0 D1 D2 D3 D4 c (Proc.devRef .tc main_v84_2)) (W11 m D0 D1 D2 D3 D4 c (Proc.devRef .tc main_v85)) (W11 m D0 D1 D2 D3 D4 c (Proc.devRef .tc main_v86)) = _
  rw [T11_lin m D0 D1 D2 D3 D4 D5 D6 c H, T11_mean m D0 D1 D2 D3 D4 D5 D6 c H, T11_var m D0 D1 D2 D3 D4 D5 D6 c H, T11_v85 m D0 D1 D2 D3 D4 D5 D6 c H, T11_v86 m D0 D1 D2 D3 D4 D5 D6 c H]
  rfl

/-! ### After the last host stretch -/
theorem T13_v100 (H : RegVals D0 D1 D2 D3 D4 D5 D6) : W13 m D0 D1 D2 D3 D4 D5 c (Proc.devRef .tc main_v100) = poolCat (hid3 m c) (m (c, Proc.devRef .tc main_arg2)) (m (c, Proc.devRef .tc main_arg3)) :=
  (stretch6_v100 (W12 m D0 D1 D2 D3 D4 D5 c)).trans (by rw [T12_h m D0 D1 D2 D3 D4 D5 D6 c H, at12 m D0 D1 D2 D3 D4 D5 c main_arg2 (by decide), at12 m D0 D1 D2 D3 D4 D5 c main_arg3 (by decide)])
theorem T13_v101 (H : RegVals D0 D1 D2 D3 D4 D5 D6) : W13 m D0 D1 D2 D3 D4 D5 c (Proc.devRef .tc main_v101) = asRow512 (m (c, Proc.devRef .tc main_arg13)) := (stretch6_v101 (W12 m D0 D1 D2 D3 D4 D5 c)).trans (by rw [at12 m D0 D1 D2 D3 D4 D5 c main_arg13 (by decide)])
theorem T13_v102 (H : RegVals D0 D1 D2 D3 D4 D5 D6) : W13 m D0 D1 D2 D3 D4 D5 c (Proc.devRef .tc main_v102) = asRow512 (m (c, Proc.devRef .tc main_arg15)) := (stretch6_v102 (W12 m D0 D1 D2 D3 D4 D5 c)).trans (by rw [at12 m D0 D1 D2 D3 D4 D5 c main_arg15 (by decide)])
theorem T13_v103 (H : RegVals D0 D1 D2 D3 D4 D5 D6) : W13 m D0 D1 D2 D3 D4 D5 c (Proc.devRef .tc main_v103) = asRow10 (m (c, Proc.devRef .tc main_arg17)) := (stretch6_v103 (W12 m D0 D1 D2 D3 D4 D5 c)).trans (by rw [at12 m D0 D1 D2 D3 D4 D5 c main_arg17 (by decide)])

/-! ## The result -/

/-- THE KERNEL PROGRAM'S RESULT on core `c`, for any seven regions' data whose values are the hypotheses': the network
    `kOut` of the eighteen arguments as the launch memory holds them. -/
theorem kernel_out_of (H : RegVals D0 D1 D2 D3 D4 D5 D6) :
    W14 m D0 D1 D2 D3 D4 D5 D6 c (Proc.devRef .tc main_v104) = kOut (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) (m (c, Proc.devRef .tc main_arg17)) := by
  rw [kOut_eq]
  refine (W14_main_v104 m D0 D1 D2 D3 D4 D5 D6 c).trans ((H.mlp6 (rd (W13 m D0 D1 D2 D3 D4 D5)) c).trans ?_)
  show mlpG (W13 m D0 D1 D2 D3 D4 D5 c (Proc.devRef .tc main_v100)) (W13 m D0 D1 D2 D3 D4 D5 c (Proc.devRef .tc main_arg12)) (W13 m D0 D1 D2 D3 D4 D5 c (Proc.devRef .tc main_v101)) (W13 m D0 D1 D2 D3 D4 D5 c (Proc.devRef .tc main_arg14)) (W13 m D0 D1 D2 D3 D4 D5 c (Proc.devRef .tc main_v102)) (W13 m D0 D1 D2 D3 D4 D5 c (Proc.devRef .tc main_arg16)) (W13 m D0 D1 D2 D3 D4 D5 c (Proc.devRef .tc main_v103)) = _
  rw [T13_v100 m D0 D1 D2 D3 D4 D5 D6 c H, at13 m D0 D1 D2 D3 D4 D5 c main_arg12 (by decide), T13_v101 m D0 D1 D2 D3 D4 D5 D6 c H, at13 m D0 D1 D2 D3 D4 D5 c main_arg14 (by decide), T13_v102 m D0 D1 D2 D3 D4 D5 D6 c H, at13 m D0 D1 D2 D3 D4 D5 c main_arg16 (by decide), T13_v103 m D0 D1 D2 D3 D4 D5 D6 c H]

end Cert.KernelIdeal.Hand.KOut

end
-- ==== Proof.Bridge.KernelOutAll.lean ====
/- The kernel program's result at the seven regions' actual data. First with the three linear regions' values (the
   layer, its column mean, its column variance) as hypotheses, the normalising regions' and the perceptron region's
   proved; then with all of them proved: on every core the result is the network `kOut` of the eighteen arguments as
   the launch memory holds them. -/
import proofs.«144042_j23673859736035_1_alg».proof.Proof.KI.RunAll
import proofs.«144042_j23673859736035_1_alg».proof.Proof.KI.MlpVal6
import proofs.«144042_j23673859736035_1_alg».proof.Proof.KI.Lin0Val
import proofs.«144042_j23673859736035_1_alg».proof.Proof.KI.Lin2Val
import proofs.«144042_j23673859736035_1_alg».proof.Proof.KI.Lin4Val
import proofs.«144042_j23673859736035_1_alg».proof.Proof.KI.NormVal1
import proofs.«144042_j23673859736035_1_alg».proof.Proof.KI.NormVal3
import proofs.«144042_j23673859736035_1_alg».proof.Proof.KI.NormVal5
import proofs.«144042_j23673859736035_1_alg».proof.Proof.Bridge.KernelOut

noncomputable section

namespace Cert.KernelIdeal.Hand.KOut

open Cert.KernelIdeal Cert.KernelIdeal.Gen Cert.KernelIdeal.Hand Cert.KernelIdeal.Hand.Mlp Cert.Stages
open Idealize.ShloMosaic Idealize.ShloMosaic.TcCoe Idealize.SL.Sem
open Idealize.ShloMosaic.Pipeline (Dat)

set_option maxHeartbeats 4000000 in
/-- THE KERNEL PROGRAM'S RESULT on core `c` at the regions' actual data, given the three linear regions' values. -/
theorem kernel_out_all_of (m : (ℓ : Loc nD τ sig) → Buf (Elt Ideal) ℓ)
    (hlin0 : ∀ (V : Val₀ (F := Ideal)) (c : Dev nD), ((regData0 (F := Ideal)).dat V c).arrAt (5 : Fin 8) cfg0.N = linArr128 (V c (Pipeline.arrRef spec0 0)) (V c (Pipeline.arrRef spec0 1)) (V c (Pipeline.arrRef spec0 2)) (V c (Pipeline.arrRef spec0 3)) (V c (Pipeline.arrRef spec0 4)))
    (hmean0 : ∀ (V : Val₀ (F := Ideal)) (c : Dev nD), ((regData0 (F := Ideal)).dat V c).arrAt (6 : Fin 8) cfg0.N = meanRow (linArr128 (V c (Pipeline.arrRef spec0 0)) (V c (Pipeline.arrRef spec0 1)) (V c (Pipeline.arrRef spec0 2)) (V c (Pipeline.arrRef spec0 3)) (V c (Pipeline.arrRef spec0 4))))
    (hvar0 : ∀ (V : Val₀ (F := Ideal)) (c : Dev nD), ((regData0 (F := Ideal)).dat V c).arrAt (7 : Fin 8) cfg0.N = varRow (linArr128 (V c (Pipeline.arrRef spec0 0)) (V c (Pipeline.arrRef spec0 1)) (V c (Pipeline.arrRef spec0 2)) (V c (Pipeline.arrRef spec0 3)) (V c (Pipeline.arrRef spec0 4))))
    (hlin2 : ∀ (V : Val₀ (F := Ideal)) (c : Dev nD), ((regData2 (F := Ideal)).dat V c).arrAt (5 : Fin 8) cfg2.N = linArr256 (V c (Pipeline.arrRef spec2 0)) (V c (Pipeline.arrRef spec2 1)) (V c (Pipeline.arrRef spec2 2)) (V c (Pipeline.arrRef spec2 3)) (V c (Pipeline.arrRef spec2 4)))
    (hmean2 : ∀ (V : Val₀ (F := Ideal)) (c : Dev nD), ((regData2 (F := Ideal)).dat V c).arrAt (6 : Fin 8) cfg2.N = meanRow (linArr256 (V c (Pipeline.arrRef spec2 0)) (V c (Pipeline.arrRef spec2 1)) (V c (Pipeline.arrRef spec2 2)) (V c (Pipeline.arrRef spec2 3)) (V c (Pipeline.arrRef spec2 4))))
    (hvar2 : ∀ (V : Val₀ (F := Ideal)) (c : Dev nD), ((regData2 (F := Ideal)).dat V c).arrAt (7 : Fin 8) cfg2.N = varRow (linArr256 (V c (Pipeline.arrRef spec2 0)) (V c (Pipeline.arrRef spec2 1)) (V c (Pipeline.arrRef spec2 2)) (V c (Pipeline.arrRef spec2 3)) (V c (Pipeline.arrRef spec2 4))))
    (hlin4 : ∀ (V : Val₀ (F := Ideal)) (c : Dev nD), ((regData4 (F := Ideal)).dat V c).arrAt (5 : Fin 8) cfg4.N = linArr256 (V c (Pipeline.arrRef spec4 0)) (V c (Pipeline.arrRef spec4 1)) (V c (Pipeline.arrRef spec4 2)) (V c (Pipeline.arrRef spec4 3)) (V c (Pipeline.arrRef spec4 4)))
    (hmean4 : ∀ (V : Val₀ (F := Ideal)) (c : Dev nD), ((regData4 (F := Ideal)).dat V c).arrAt (6 : Fin 8) cfg4.N = meanRow (linArr256 (V c (Pipeline.arrRef spec4 0)) (V c (Pipeline.arrRef spec4 1)) (V c (Pipeline.arrRef spec4 2)) (V c (Pipeline.arrRef spec4 3)) (V c (Pipeline.arrRef spec4 4))))
    (hvar4 : ∀ (V : Val₀ (F := Ideal)) (c : Dev nD), ((regData4 (F := Ideal)).dat V c).arrAt (7 : Fin 8) cfg4.N = varRow (linArr256 (V c (Pipeline.arrRef spec4 0)) (V c (Pipeline.arrRef spec4 1)) (V c (Pipeline.arrRef spec4 2)) (V c (Pipeline.arrRef spec4 3)) (V c (Pipeline.arrRef spec4 4))))
    (c : Dev nD) :
    W14 m regData0 regData1 regData2 regData3 regData4 regData5 regData6 c (Proc.devRef .tc main_v104)
      = kOut (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) (m (c, Proc.devRef .tc main_arg17)) :=
  kernel_out_of m regData0 regData1 regData2 regData3 regData4 regData5 regData6 c
    ⟨hlin0, hmean0, hvar0, fun V c => norm_array1 V c, hlin2, hmean2, hvar2, fun V c => norm_array3 V c,
      hlin4, hmean4, hvar4, fun V c => norm_array5 V c, fun V c => arrAt6_7 V c⟩

set_option maxHeartbeats 4000000 in
/-- THE KERNEL PROGRAM'S RESULT on core `c` at the regions' actual data: every region's value is proved, so the result is
    the network `kOut` of the eighteen arguments as the launch memory holds them. -/
theorem kernel_out_all (m : (ℓ : Loc nD τ sig) → Buf (Elt Ideal) ℓ) (c : Dev nD) :
    W14 m regData0 regData1 regData2 regData3 regData4 regData5 regData6 c (Proc.devRef .tc main_v104)
      = kOut (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) (m (c, Proc.devRef .tc main_arg17)) :=
  kernel_out_all_of m (fun V c => lin_array0 V c) (fun V c => mean_array0 V c) (fun V c => var_array0 V c)
    (fun V c => lin_array2 V c) (fun V c => mean_array2 V c) (fun V c => var_array2 V c)
    (fun V c => lin_array4 V c) (fun V c => mean_array4 V c) (fun V c => var_array4 V c) c

end Cert.KernelIdeal.Hand.KOut

end
-- ==== Proof.Ref.OwnStages.lean ====
import proofs.«144042_j23673859736035_1_alg».proof.Proof.Gen.ReferenceIdeal
import Idealize.ShloMosaic.Lib.StableHlo
import Idealize.ShloMosaic.PureOps.Ideal

noncomputable section

namespace Cert.RefStages

open Cert.ReferenceIdeal Cert.ReferenceIdeal.Gen Idealize.ShloMosaic Idealize.ShloMosaic.StableHlo

/-! The stages of the reference program that are its own — the linear map of a layer, the batch normalisation with its
    centred variance and leaky rectifier, and the three dense layers — each as one function of whole arrays over the
    exact reals. -/

/-- Real arrays of shape `S`. -/
abbrev A (S : Shape) : Type := (⟨S, .f32⟩ : BufTy).Contents (Elt Ideal)

/-- A row of 256 entries repeated down the 50000 nodes. -/
def rows256 (r : A S256) : A S50000x256 :=
  broadcastInDim S50000x256 ![0, 1] bcast_S1x256_S50000x256_0_1 (broadcastInDim S1x256 ![1] bcast_S256_S1x256_1 r)

/-- A row of 512 entries repeated down the 64 graphs. -/
def rows512 (r : A S512) : A S64x512 :=
  broadcastInDim S64x512 ![0, 1] bcast_S1x512_S64x512_0_1 (broadcastInDim S1x512 ![1] bcast_S512_S1x512_1 r)

/-- A row of 10 entries repeated down the 64 graphs. -/
def rows10 (r : A S10) : A S64x10 :=
  broadcastInDim S64x10 ![0, 1] bcast_S1x10_S64x10_0_1 (broadcastInDim S1x10 ![1] bcast_S10_S1x10_1 r)

/-! ## The linear map of a layer: `agg · Wl + bl + h · Wr` -/

/-- The first layer's, on 128 input features. -/
def linRef128 (agg h : A S50000x128) (Wl : A S128x256) (bl : A S256) (Wr : A S128x256) : A S50000x256 :=
  addf (F := Ideal) (φ := .f32) (addf (F := Ideal) (φ := .f32) (Host.dotGeneral (F := Ideal) (φ₁ := .f32) (φ₂ := .f32) dot_S50000x128_S128x256_S50000x256_1_0_0_1_n_n none agg Wl) (rows256 bl))
    (Host.dotGeneral (F := Ideal) (φ₁ := .f32) (φ₂ := .f32) dot_S50000x128_S128x256_S50000x256_1_0_0_1_n_n none h Wr)

/-- The later layers', on 256 input features. -/
def linRef256 (agg h : A S50000x256) (Wl : A S256x256) (bl : A S256) (Wr : A S256x256) : A S50000x256 :=
  addf (F := Ideal) (φ := .f32) (addf (F := Ideal) (φ := .f32) (Host.dotGeneral (F := Ideal) (φ₁ := .f32) (φ₂ := .f32) dot_S50000x256_S256x256_S50000x256_1_0_0_1_n_n none agg Wl) (rows256 bl))
    (Host.dotGeneral (F := Ideal) (φ₁ := .f32) (φ₂ := .f32) dot_S50000x256_S256x256_S50000x256_1_0_0_1_n_n none h Wr)

/-! ## Batch normalisation over the nodes -/

/-- Each column's sum over the 50000 nodes. -/
def colSum (x : A S50000x256) : A S256 :=
  Host.reduceAdd (F := Ideal) x (constant (F := Ideal) S_ .f32 0x00000000#32) reducesTo_S50000x256_S256_d0 h_S_

/-- Each column's mean: its sum over 50000. -/
def colMean (x : A S50000x256) : A S256 :=
  Host.divf (F := Ideal) (φ := .f32) (colSum x) (broadcastInDim S256 ![] bcast_S_S256 (constant (F := Ideal) S_ .f32 0x47435000#32))

/-- The same mean kept as a row, as the variance computes it: the sum as a row, over 50000 as a row. -/
def rowMean (x : A S50000x256) : A S1x256 :=
  Host.divf (F := Ideal) (φ := .f32) (broadcastInDim S1x256 ![1] bcast_S256_S1x256_1 (colSum x)) (broadcastInDim S1x256 ![] bcast_S_S1x256 (constant (F := Ideal) S_ .f32 0x47435000#32))

/-- Each entry less its column's mean, as the variance computes it. -/
def centred (x : A S50000x256) : A S50000x256 :=
  subf (F := Ideal) (φ := .f32) x (broadcastInDim S50000x256 ![0, 1] bcast_S1x256_S50000x256_0_1 (rowMean x))

/-- The variance's divisor: the number of nodes less the correction, which is zero. -/
def divisor : A S_ :=
  subf (F := Ideal) (φ := .f32) (constant (F := Ideal) S_ .f32 0x47435000#32) (sitofp .f32 (constantI S_ 32 0#32))

/-- Each column's centred variance: the sum of squared deviations over the divisor where the divisor is positive (it
    is), and not-a-number otherwise. -/
def colVar (x : A S50000x256) : A S256 :=
  select (broadcastInDim S256 ![] bcast_S_S256 (cmpf .ogt divisor (constant (F := Ideal) S_ .f32 0x00000000#32)))
    (Host.divf (F := Ideal) (φ := .f32) (colSum (mulf (F := Ideal) (φ := .f32) (centred x) (centred x))) (broadcastInDim S256 ![] bcast_S_S256 divisor))
    (broadcastInDim S256 ![] bcast_S_S256 (constant (F := Ideal) S_ .f32 0x7FC00000#32))

/-- The scale row: `gamma / sqrt (var + eps)`. -/
def bnScale (x : A S50000x256) (g : A S256) : A S256 :=
  Host.divf (F := Ideal) (φ := .f32) g (Host.sqrt (F := Ideal) (φ := .f32) (addf (F := Ideal) (φ := .f32) (colVar x) (broadcastInDim S256 ![] bcast_S_S256 (constant (F := Ideal) S_ .f32 0x3727C5AC#32))))

/-- The leaky rectifier on the nodes' features: `y` where positive, `slope · y` elsewhere. -/
def leaky256 (y : A S50000x256) : A S50000x256 :=
  select (cmpf .ogt y (broadcastInDim S50000x256 ![] bcast_S_S50000x256 (constant (F := Ideal) S_ .f32 0x00000000#32))) y
    (mulf (F := Ideal) (φ := .f32) (broadcastInDim S50000x256 ![] bcast_S_S50000x256 (constant (F := Ideal) S_ .f32 0x3D2F8D5C#32)) y)

/-- The normalised value before the shift: `(x - mean) · scale`. -/
def bnScaled (x : A S50000x256) (g : A S256) : A S50000x256 :=
  mulf (F := Ideal) (φ := .f32) (subf (F := Ideal) (φ := .f32) x (rows256 (colMean x))) (rows256 (bnScale x g))

/-- The whole stretch: `leaky ((x - mean) · gamma / sqrt (var + eps) + beta)`. -/
def bnLeaky (L : A S50000x256) (gamma beta : A S256) : A S50000x256 :=
  leaky256 (addf (F := Ideal) (φ := .f32) (bnScaled L gamma) (rows256 beta))

/-! ## The three dense layers -/

/-- The leaky rectifier on the graphs' hidden features. -/
def leaky512 (y : A S64x512) : A S64x512 :=
  select (cmpf .ogt y (broadcastInDim S64x512 ![] bcast_S_S64x512 (constant (F := Ideal) S_ .f32 0x00000000#32))) y
    (mulf (F := Ideal) (φ := .f32) (broadcastInDim S64x512 ![] bcast_S_S64x512 (constant (F := Ideal) S_ .f32 0x3D2F8D5C#32)) y)

/-- `leaky (z · W1 + b1)`. -/
def dense1 (z : A S64x288) (W : A S288x512) (b : A S512) : A S64x512 :=
  leaky512 (addf (F := Ideal) (φ := .f32) (Host.dotGeneral (F := Ideal) (φ₁ := .f32) (φ₂ := .f32) dot_S64x288_S288x512_S64x512_1_0_0_1_n_n none z W) (rows512 b))

/-- `leaky (z · W2 + b2)`. -/
def dense2 (z : A S64x512) (W : A S512x512) (b : A S512) : A S64x512 :=
  leaky512 (addf (F := Ideal) (φ := .f32) (Host.dotGeneral (F := Ideal) (φ₁ := .f32) (φ₂ := .f32) dot_S64x512_S512x512_S64x512_1_0_0_1_n_n none z W) (rows512 b))

/-- `z · W3 + b3`. -/
def dense3 (z : A S64x512) (W : A S512x10) (b : A S10) : A S64x10 :=
  addf (F := Ideal) (φ := .f32) (Host.dotGeneral (F := Ideal) (φ₁ := .f32) (φ₂ := .f32) dot_S64x512_S512x10_S64x10_1_0_0_1_n_n none z W) (rows10 b)

end Cert.RefStages

end
-- ==== Proof.Ref.Shared.lean ====
import proofs.«144042_j23673859736035_1_alg».proof.Proof.Ref.Ops
import proofs.«144042_j23673859736035_1_alg».proof.Proof.Bridge.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

/-! The reference program's host stretches that the kernel's program shares, over the exact reals, each read off its
    slice of the operations from ANY contents `V` on entry as the common whole-array function of what `V` holds in the
    buffers the slice reads: the two programs' shape names and dimension records are the same data. -/

/-- The source row of the edge table. -/
theorem pro_v1 (V : Valuation τ sig (Elt Ideal)) :
    after (pro (F := Ideal)) V (Proc.devRef .tc main_v1)
      = Cert.Stages.srcOf (V (Proc.devRef .tc main_arg1)) := by
  simp (disch := decide) only [pro, after_cons, after_nil, nullary_result', unary_result', binary_result', ternary_result', reshape_result',
    nullary_result_ne', unary_result_ne', binary_result_ne', ternary_result_ne', reshape_result_ne']
  rfl

/-- The destination row of the edge table. -/
theorem pro_v3 (V : Valuation τ sig (Elt Ideal)) :
    after (pro (F := Ideal)) V (Proc.devRef .tc main_v3)
      = Cert.Stages.dstOf (V (Proc.devRef .tc main_arg1)) := by
  simp (disch := decide) only [pro, after_cons, after_nil, nullary_result', unary_result', binary_result', ternary_result', reshape_result',
    nullary_result_ne', unary_result_ne', binary_result_ne', ternary_result_ne', reshape_result_ne']
  rfl

/-- The inverse in-degree column, of the destination row. -/
theorem pro_v12 (V : Valuation τ sig (Elt Ideal)) :
    after (pro (F := Ideal)) V (Proc.devRef .tc main_v12)
      = Cert.Stages.invDeg (Cert.Stages.dstOf (V (Proc.devRef .tc main_arg1))) := by
  simp (disch := decide) only [pro, after_cons, after_nil, nullary_result', unary_result', binary_result', ternary_result', reshape_result',
    nullary_result_ne', unary_result_ne', binary_result_ne', ternary_result_ne', reshape_result_ne']
  rfl

/-- The first layer's scale row. -/
theorem pro_v14 (V : Valuation τ sig (Elt Ideal)) :
    after (pro (F := Ideal)) V (Proc.devRef .tc main_v14)
      = Cert.Stages.row3 0 (V (Proc.devRef .tc main_arg10)) := by
  simp (disch := decide) only [pro, after_cons, after_nil, nullary_result', unary_result', binary_result', ternary_result', reshape_result',
    nullary_result_ne', unary_result_ne', binary_result_ne', ternary_result_ne', reshape_result_ne']
  rfl

/-- The first layer's shift row. -/
theorem pro_v16 (V : Valuation τ sig (Elt Ideal)) :
    after (pro (F := Ideal)) V (Proc.devRef .tc main_v16)
      = Cert.Stages.row3 0 (V (Proc.devRef .tc main_arg11)) := by
  simp (disch := decide) only [pro, after_cons, after_nil, nullary_result', unary_result', binary_result', ternary_result', reshape_result',
    nullary_result_ne', unary_result_ne', binary_result_ne', ternary_result_ne', reshape_result_ne']
  rfl

/-- The first layer's mean aggregation of the input features. -/
theorem agg0_v28 (V : Valuation τ sig (Elt Ideal)) :
    after (agg0 (F := Ideal)) V (Proc.devRef .tc main_v28)
      = Cert.Stages.agg128 (V (Proc.devRef .tc main_v1)) (V (Proc.devRef .tc main_v3)) (V (Proc.devRef .tc main_v12)) (V (Proc.devRef .tc main_arg0)) := by
  simp (disch := decide) only [agg0, after_cons, after_nil, nullary_result', unary_result', binary_result', ternary_result', reshape_result',
    nullary_result_ne', unary_result_ne', binary_result_ne', ternary_result_ne', reshape_result_ne']
  rfl

/-- The second layer's left weights. -/
theorem par1_v58 (V : Valuation τ sig (Elt Ideal)) :
    after (par1 (F := Ideal)) V (Proc.devRef .tc main_v58)
      = Cert.Stages.mat2 0 (V (Proc.devRef .tc main_arg7)) := by
  simp (disch := decide) only [par1, after_cons, after_nil, nullary_result', unary_result', binary_result', ternary_result', reshape_result',
    nullary_result_ne', unary_result_ne', binary_result_ne', ternary_result_ne', reshape_result_ne']
  rfl

/-- The second layer's bias. -/
theorem par1_v60 (V : Valuation τ sig (Elt Ideal)) :
    after (par1 (F := Ideal)) V (Proc.devRef .tc main_v60)
      = Cert.Stages.row2 0 (V (Proc.devRef .tc main_arg9)) := by
  simp (disch := decide) only [par1, after_cons, after_nil, nullary_result', unary_result', binary_result', ternary_result', reshape_result',
    nullary_result_ne', unary_result_ne', binary_result_ne', ternary_result_ne', reshape_result_ne']
  rfl

/-- The second layer's right weights. -/
theorem par1_v62 (V : Valuation τ sig (Elt Ideal)) :
    after (par1 (F := Ideal)) V (Proc.devRef .tc main_v62)
      = Cert.Stages.mat2 0 (V (Proc.devRef .tc main_arg8)) := by
  simp (disch := decide) only [par1, after_cons, after_nil, nullary_result', unary_result', binary_result', ternary_result', reshape_result',
    nullary_result_ne', unary_result_ne', binary_result_ne', ternary_result_ne', reshape_result_ne']
  rfl

/-- The second layer's scale row. -/
theorem par1_v64 (V : Valuation τ sig (Elt Ideal)) :
    after (par1 (F := Ideal)) V (Proc.devRef .tc main_v64)
      = Cert.Stages.row3 1 (V (Proc.devRef .tc main_arg10)) := by
  simp (disch := decide) only [par1, after_cons, after_nil, nullary_result', unary_result', binary_result', ternary_result', reshape_result',
    nullary_result_ne', unary_result_ne', binary_result_ne', ternary_result_ne', reshape_result_ne']
  rfl

/-- The second layer's shift row. -/
theorem par1_v66 (V : Valuation τ sig (Elt Ideal)) :
    after (par1 (F := Ideal)) V (Proc.devRef .tc main_v66)
      = Cert.Stages.row3 1 (V (Proc.devRef .tc main_arg11)) := by
  simp (disch := decide) only [par1, after_cons, after_nil, nullary_result', unary_result', binary_result', ternary_result', reshape_result',
    nullary_result_ne', unary_result_ne', binary_result_ne', ternary_result_ne', reshape_result_ne']
  rfl

/-- The second layer's mean aggregation of the first layer's output. -/
theorem agg1_v78 (V : Valuation τ sig (Elt Ideal)) :
    after (agg1 (F := Ideal)) V (Proc.devRef .tc main_v78)
      = Cert.Stages.agg256 (V (Proc.devRef .tc main_v1)) (V (Proc.devRef .tc main_v3)) (V (Proc.devRef .tc main_v12)) (V (Proc.devRef .tc main_v56)) := by
  simp (disch := decide) only [agg1, after_cons, after_nil, nullary_result', unary_result', binary_result', ternary_result', reshape_result',
    nullary_result_ne', unary_result_ne', binary_result_ne', ternary_result_ne', reshape_result_ne']
  rfl

/-- The third layer's left weights. -/
theorem par2_v108 (V : Valuation τ sig (Elt Ideal)) :
    after (par2 (F := Ideal)) V (Proc.devRef .tc main_v108)
      = Cert.Stages.mat2 1 (V (Proc.devRef .tc main_arg7)) := by
  simp (disch := decide) only [par2, after_cons, after_nil, nullary_result', unary_result', binary_result', ternary_result', reshape_result',
    nullary_result_ne', unary_result_ne', binary_result_ne', ternary_result_ne', reshape_result_ne']
  rfl

/-- The third layer's bias. -/
theorem par2_v110 (V : Valuation τ sig (Elt Ideal)) :
    after (par2 (F := Ideal)) V (Proc.devRef .tc main_v110)
      = Cert.Stages.row2 1 (V (Proc.devRef .tc main_arg9)) := by
  simp (disch := decide) only [par2, after_cons, after_nil, nullary_result', unary_result', binary_result', ternary_result', reshape_result',
    nullary_result_ne', unary_result_ne', binary_result_ne', ternary_result_ne', reshape_result_ne']
  rfl

/-- The third layer's right weights. -/
theorem par2_v112 (V : Valuation τ sig (Elt Ideal)) :
    after (par2 (F := Ideal)) V (Proc.devRef .tc main_v112)
      = Cert.Stages.mat2 1 (V (Proc.devRef .tc main_arg8)) := by
  simp (disch := decide) only [par2, after_cons, after_nil, nullary_result', unary_result', binary_result', ternary_result', reshape_result',
    nullary_result_ne', unary_result_ne', binary_result_ne', ternary_result_ne', reshape_result_ne']
  rfl

/-- The third layer's scale row. -/
theorem par2_v114 (V : Valuation τ sig (Elt Ideal)) :
    after (par2 (F := Ideal)) V (Proc.devRef .tc main_v114)
      = Cert.Stages.row3 2 (V (Proc.devRef .tc main_arg10)) := by
  simp (disch := decide) only [par2, after_cons, after_nil, nullary_result', unary_result', binary_result', ternary_result', reshape_result',
    nullary_result_ne', unary_result_ne', binary_result_ne', ternary_result_ne', reshape_result_ne']
  rfl

/-- The third layer's shift row. -/
theorem par2_v116 (V : Valuation τ sig (Elt Ideal)) :
    after (par2 (F := Ideal)) V (Proc.devRef .tc main_v116)
      = Cert.Stages.row3 2 (V (Proc.devRef .tc main_arg11)) := by
  simp (disch := decide) only [par2, after_cons, after_nil, nullary_result', unary_result', binary_result', ternary_result', reshape_result',
    nullary_result_ne', unary_result_ne', binary_result_ne', ternary_result_ne', reshape_result_ne']
  rfl

/-- The third layer's mean aggregation of the second layer's output. -/
theorem agg2_v128 (V : Valuation τ sig (Elt Ideal)) :
    after (agg2 (F := Ideal)) V (Proc.devRef .tc main_v128)
      = Cert.Stages.agg256 (V (Proc.devRef .tc main_v1)) (V (Proc.devRef .tc main_v3)) (V (Proc.devRef .tc main_v12)) (V (Proc.devRef .tc main_v106)) := by
  simp (disch := decide) only [agg2, after_cons, after_nil, nullary_result', unary_result', binary_result', ternary_result', reshape_result',
    nullary_result_ne', unary_result_ne', binary_result_ne', ternary_result_ne', reshape_result_ne']
  rfl

/-- The mean over each graph's nodes beside the graph's own features. -/
theorem pool_v169 (V : Valuation τ sig (Elt Ideal)) :
    after (pool (F := Ideal)) V (Proc.devRef .tc main_v169)
      = Cert.Stages.poolCat (V (Proc.devRef .tc main_v156)) (V (Proc.devRef .tc main_arg2)) (V (Proc.devRef .tc main_arg3)) := by
  simp (disch := decide) only [pool, after_cons, after_nil, nullary_result', unary_result', binary_result', ternary_result', reshape_result',
    nullary_result_ne', unary_result_ne', binary_result_ne', ternary_result_ne', reshape_result_ne']
  rfl

end Cert.ReferenceIdeal.RefRun

end
-- ==== Proof.Ref.Value.lean ====
import proofs.«144042_j23673859736035_1_alg».proof.Proof.Ref.Ops
import proofs.«144042_j23673859736035_1_alg».proof.Proof.Ref.OwnStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-! The reference program's own stretches over the exact reals, each read off its slice of the operations from ANY
    contents `V` on entry: what the slice leaves in its result buffer is the named whole-array function of what `V`
    holds in the buffers the slice reads. Every operation's result is read at its own buffer and passed through at the
    others; what remains is the composed term, which is the named function by unfolding. -/

/-- The first layer's linear map: `agg · Wl0 + bl0 + x · Wr0`. -/
theorem lin0_v34 (V : Valuation τ sig (Elt Ideal)) :
    after (lin0 (F := Ideal)) V (Proc.devRef .tc main_v34)
      = Cert.RefStages.linRef128 (V (Proc.devRef .tc main_v28)) (V (Proc.devRef .tc main_arg0)) (V (Proc.devRef .tc main_arg4)) (V (Proc.devRef .tc main_arg6)) (V (Proc.devRef .tc main_arg5)) := by
  simp (disch := decide) only [lin0, after_cons, after_nil, nullary_result', unary_result', binary_result', ternary_result', reshape_result',
    nullary_result_ne', unary_result_ne', binary_result_ne', ternary_result_ne', reshape_result_ne']
  rfl

/-- The second layer's linear map over the first layer's output and the sliced parameters. -/
theorem lin1_v84 (V : Valuation τ sig (Elt Ideal)) :
    after (lin1 (F := Ideal)) V (Proc.devRef .tc main_v84)
      = Cert.RefStages.linRef256 (V (Proc.devRef .tc main_v78)) (V (Proc.devRef .tc main_v56)) (V (Proc.devRef .tc main_v58)) (V (Proc.devRef .tc main_v60)) (V (Proc.devRef .tc main_v62)) := by
  simp (disch := decide) only [lin1, after_cons, after_nil, nullary_result', unary_result', binary_result', ternary_result', reshape_result',
    nullary_result_ne', unary_result_ne', binary_result_ne', ternary_result_ne', reshape_result_ne']
  rfl

/-- The third layer's linear map over the second layer's output and the sliced parameters. -/
theorem lin2_v134 (V : Valuation τ sig (Elt Ideal)) :
    after (lin2 (F := Ideal)) V (Proc.devRef .tc main_v134)
      = Cert.RefStages.linRef256 (V (Proc.devRef .tc main_v128)) (V (Proc.devRef .tc main_v106)) (V (Proc.devRef .tc main_v108)) (V (Proc.devRef .tc main_v110)) (V (Proc.devRef .tc main_v112)) := by
  simp (disch := decide) only [lin2, after_cons, after_nil, nullary_result', unary_result', binary_result', ternary_result', reshape_result',
    nullary_result_ne', unary_result_ne', binary_result_ne', ternary_result_ne', reshape_result_ne']
  rfl

/-- The first layer's batch normalisation and leaky rectifier, across the two slices that hold it. -/
theorem bn0_v56 (V : Valuation τ sig (Elt Ideal)) :
    after (bn0b (F := Ideal)) (after (bn0a (F := Ideal)) V) (Proc.devRef .tc main_v56)
      = Cert.RefStages.bnLeaky (V (Proc.devRef .tc main_v34)) (V (Proc.devRef .tc main_v14)) (V (Proc.devRef .tc main_v16)) := by
  simp (disch := decide) only [bn0a, bn0b, after_cons, after_nil, nullary_result', unary_result', binary_result', ternary_result', reshape_result',
    nullary_result_ne', unary_result_ne', binary_result_ne', ternary_result_ne', reshape_result_ne']
  rfl

/-- The second layer's batch normalisation and leaky rectifier, across the two slices that hold it. -/
theorem bn1_v106 (V : Valuation τ sig (Elt Ideal)) :
    after (bn1b (F := Ideal)) (after (bn1a (F := Ideal)) V) (Proc.devRef .tc main_v106)
      = Cert.RefStages.bnLeaky (V (Proc.devRef .tc main_v84)) (V (Proc.devRef .tc main_v64)) (V (Proc.devRef .tc main_v66)) := by
  simp (disch := decide) only [bn1a, bn1b, after_cons, after_nil, nullary_result', unary_result', binary_result', ternary_result', reshape_result',
    nullary_result_ne', unary_result_ne', binary_result_ne', ternary_result_ne', reshape_result_ne']
  rfl

/-- The third layer's batch normalisation and leaky rectifier, across the two slices that hold it. -/
theorem bn2_v156 (V : Valuation τ sig (Elt Ideal)) :
    after (bn2b (F := Ideal)) (after (bn2a (F := Ideal)) V) (Proc.devRef .tc main_v156)
      = Cert.RefStages.bnLeaky (V (Proc.devRef .tc main_v134)) (V (Proc.devRef .tc main_v114)) (V (Proc.devRef .tc main_v116)) := by
  simp (disch := decide) only [bn2a, bn2b, after_cons, after_nil, nullary_result', unary_result', binary_result', ternary_result', reshape_result',
    nullary_result_ne', unary_result_ne', binary_result_ne', ternary_result_ne', reshape_result_ne']
  rfl

/-- The first dense layer. -/
theorem mlp1_v178 (V : Valuation τ sig (Elt Ideal)) :
    after (mlp1 (F := Ideal)) V (Proc.devRef .tc main_v178)
      = Cert.RefStages.dense1 (V (Proc.devRef .tc main_v169)) (V (Proc.devRef .tc main_arg12)) (V (Proc.devRef .tc main_arg13)) := by
  simp (disch := decide) only [mlp1, after_cons, after_nil, nullary_result', unary_result', binary_result', ternary_result', reshape_result',
    nullary_result_ne', unary_result_ne', binary_result_ne', ternary_result_ne', reshape_result_ne']
  rfl

/-- The second dense layer. -/
theorem mlp2_v187 (V : Valuation τ sig (Elt Ideal)) :
    after (mlp2 (F := Ideal)) V (Proc.devRef .tc main_v187)
      = Cert.RefStages.dense2 (V (Proc.devRef .tc main_v178)) (V (Proc.devRef .tc main_arg14)) (V (Proc.devRef .tc main_arg15)) := by
  simp (disch := decide) only [mlp2, after_cons, after_nil, nullary_result', unary_result', binary_result', ternary_result', reshape_result',
    nullary_result_ne', unary_result_ne', binary_result_ne', ternary_result_ne', reshape_result_ne']
  rfl

/-- The third dense layer: the program's result. -/
theorem mlp3_v191 (V : Valuation τ sig (Elt Ideal)) :
    after (mlp3 (F := Ideal)) V (Proc.devRef .tc main_v191)
      = Cert.RefStages.dense3 (V (Proc.devRef .tc main_v187)) (V (Proc.devRef .tc main_arg16)) (V (Proc.devRef .tc main_arg17)) := by
  simp (disch := decide) only [mlp3, after_cons, after_nil, nullary_result', unary_result', binary_result', ternary_result', reshape_result',
    nullary_result_ne', unary_result_ne', binary_result_ne', ternary_result_ne', reshape_result_ne']
  rfl

end Cert.ReferenceIdeal.RefRun

end
-- ==== Proof.Ref.SegKeep.lean ====
import proofs.«144042_j23673859736035_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Each slice of the reference program writes only the references listed for it, so any other reference keeps its
    contents through the slice. The keep facts are stated in the form one rewriting pass can use: the reference is
    matched as it stands, and the side condition — the reference is not in the slice's list — is decided. -/

theorem pro_writes : (pro : List (HloOp τ sig (Elt F))).Forall fun op => op.writes ⊆ (pro_W.map (Proc.devRef (τ := τ) .tc)).toFinset := by
  simp only [pro, List.Forall, nullary_writes, unary_writes, binary_writes, ternary_writes, reshape_writes, Finset.singleton_subset_iff, List.mem_toFinset]
  repeat' apply And.intro
  all_goals exact List.mem_map_of_mem (by decide)
theorem pro_keep (V : Valuation τ sig (Elt F)) (r : Ref sig .tc) (h : r ∉ pro_W) :
    after pro V (no_index (Proc.devRef .tc r)) = V (Proc.devRef .tc r) :=
  after_of_writes_sub pro V pro_writes h

theorem agg0_writes : (agg0 : List (HloOp τ sig (Elt F))).Forall fun op => op.writes ⊆ (agg0_W.map (Proc.devRef (τ := τ) .tc)).toFinset := by
  simp only [agg0, List.Forall, nullary_writes, unary_writes, binary_writes, ternary_writes, reshape_writes, Finset.singleton_subset_iff, List.mem_toFinset]
  repeat' apply And.intro
  all_goals exact List.mem_map_of_mem (by decide)
theorem agg0_keep (V : Valuation τ sig (Elt F)) (r : Ref sig .tc) (h : r ∉ agg0_W) :
    after agg0 V (no_index (Proc.devRef .tc r)) = V (Proc.devRef .tc r) :=
  after_of_writes_sub agg0 V agg0_writes h

theorem lin0_writes : (lin0 : List (HloOp τ sig (Elt F))).Forall fun op => op.writes ⊆ (lin0_W.map (Proc.devRef (τ := τ) .tc)).toFinset := by
  simp only [lin0, List.Forall, nullary_writes, unary_writes, binary_writes, ternary_writes, reshape_writes, Finset.singleton_subset_iff, List.mem_toFinset]
  repeat' apply And.intro
  all_goals exact List.mem_map_of_mem (by decide)
theorem lin0_keep (V : Valuation τ sig (Elt F)) (r : Ref sig .tc) (h : r ∉ lin0_W) :
    after lin0 V (no_index (Proc.devRef .tc r)) = V (Proc.devRef .tc r) :=
  after_of_writes_sub lin0 V lin0_writes h

theorem bn0a_writes : (bn0a : List (HloOp τ sig (Elt F))).Forall fun op => op.writes ⊆ (bn0a_W.map (Proc.devRef (τ := τ) .tc)).toFinset := by
  simp only [bn0a, List.Forall, nullary_writes, unary_writes, binary_writes, ternary_writes, reshape_writes, Finset.singleton_subset_iff, List.mem_toFinset]
  repeat' apply And.intro
  all_goals exact List.mem_map_of_mem (by decide)
theorem bn0a_keep (V : Valuation τ sig (Elt F)) (r : Ref sig .tc) (h : r ∉ bn0a_W) :
    after bn0a V (no_index (Proc.devRef .tc r)) = V (Proc.devRef .tc r) :=
  after_of_writes_sub bn0a V bn0a_writes h

theorem bn0b_writes : (bn0b : List (HloOp τ sig (Elt F))).Forall fun op => op.writes ⊆ (bn0b_W.map (Proc.devRef (τ := τ) .tc)).toFinset := by
  simp only [bn0b, List.Forall, nullary_writes, unary_writes, binary_writes, ternary_writes, reshape_writes, Finset.singleton_subset_iff, List.mem_toFinset]
  repeat' apply And.intro
  all_goals exact List.mem_map_of_mem (by decide)
theorem bn0b_keep (V : Valuation τ sig (Elt F)) (r : Ref sig .tc) (h : r ∉ bn0b_W) :
    after bn0b V (no_index (Proc.devRef .tc r)) = V (Proc.devRef .tc r) :=
  after_of_writes_sub bn0b V bn0b_writes h

theorem par1_writes : (par1 : List (HloOp τ sig (Elt F))).Forall fun op => op.writes ⊆ (par1_W.map (Proc.devRef (τ := τ) .tc)).toFinset := by
  simp only [par1, List.Forall, nullary_writes, unary_writes, binary_writes, ternary_writes, reshape_writes, Finset.singleton_subset_iff, List.mem_toFinset]
  repeat' apply And.intro
  all_goals exact List.mem_map_of_mem (by decide)
theorem par1_keep (V : Valuation τ sig (Elt F)) (r : Ref sig .tc) (h : r ∉ par1_W) :
    after par1 V (no_index (Proc.devRef .tc r)) = V (Proc.devRef .tc r) :=
  after_of_writes_sub par1 V par1_writes h

theorem agg1_writes : (agg1 : List (HloOp τ sig (Elt F))).Forall fun op => op.writes ⊆ (agg1_W.map (Proc.devRef (τ := τ) .tc)).toFinset := by
  simp only [agg1, List.Forall, nullary_writes, unary_writes, binary_writes, ternary_writes, reshape_writes, Finset.singleton_subset_iff, List.mem_toFinset]
  repeat' apply And.intro
  all_goals exact List.mem_map_of_mem (by decide)
theorem agg1_keep (V : Valuation τ sig (Elt F)) (r : Ref sig .tc) (h : r ∉ agg1_W) :
    after agg1 V (no_index (Proc.devRef .tc r)) = V (Proc.devRef .tc r) :=
  after_of_writes_sub agg1 V agg1_writes h

theorem lin1_writes : (lin1 : List (HloOp τ sig (Elt F))).Forall fun op => op.writes ⊆ (lin1_W.map (Proc.devRef (τ := τ) .tc)).toFinset := by
  simp only [lin1, List.Forall, nullary_writes, unary_writes, binary_writes, ternary_writes, reshape_writes, Finset.singleton_subset_iff, List.mem_toFinset]
  repeat' apply And.intro
  all_goals exact List.mem_map_of_mem (by decide)
theorem lin1_keep (V : Valuation τ sig (Elt F)) (r : Ref sig .tc) (h : r ∉ lin1_W) :
    after lin1 V (no_index (Proc.devRef .tc r)) = V (Proc.devRef .tc r) :=
  after_of_writes_sub lin1 V lin1_writes h

theorem bn1a_writes : (bn1a : List (HloOp τ sig (Elt F))).Forall fun op => op.writes ⊆ (bn1a_W.map (Proc.devRef (τ := τ) .tc)).toFinset := by
  simp only [bn1a, List.Forall, nullary_writes, unary_writes, binary_writes, ternary_writes, reshape_writes, Finset.singleton_subset_iff, List.mem_toFinset]
  repeat' apply And.intro
  all_goals exact List.mem_map_of_mem (by decide)
theorem bn1a_keep (V : Valuation τ sig (Elt F)) (r : Ref sig .tc) (h : r ∉ bn1a_W) :
    after bn1a V (no_index (Proc.devRef .tc r)) = V (Proc.devRef .tc r) :=
  after_of_writes_sub bn1a V bn1a_writes h

theorem bn1b_writes : (bn1b : List (HloOp τ sig (Elt F))).Forall fun op => op.writes ⊆ (bn1b_W.map (Proc.devRef (τ := τ) .tc)).toFinset := by
  simp only [bn1b, List.Forall, nullary_writes, unary_writes, binary_writes, ternary_writes, reshape_writes, Finset.singleton_subset_iff, List.mem_toFinset]
  repeat' apply And.intro
  all_goals exact List.mem_map_of_mem (by decide)
theorem bn1b_keep (V : Valuation τ sig (Elt F)) (r : Ref sig .tc) (h : r ∉ bn1b_W) :
    after bn1b V (no_index (Proc.devRef .tc r)) = V (Proc.devRef .tc r) :=
  after_of_writes_sub bn1b V bn1b_writes h

theorem par2_writes : (par2 : List (HloOp τ sig (Elt F))).Forall fun op => op.writes ⊆ (par2_W.map (Proc.devRef (τ := τ) .tc)).toFinset := by
  simp only [par2, List.Forall, nullary_writes, unary_writes, binary_writes, ternary_writes, reshape_writes, Finset.singleton_subset_iff, List.mem_toFinset]
  repeat' apply And.intro
  all_goals exact List.mem_map_of_mem (by decide)
theorem par2_keep (V : Valuation τ sig (Elt F)) (r : Ref sig .tc) (h : r ∉ par2_W) :
    after par2 V (no_index (Proc.devRef .tc r)) = V (Proc.devRef .tc r) :=
  after_of_writes_sub par2 V par2_writes h

theorem agg2_writes : (agg2 : List (HloOp τ sig (Elt F))).Forall fun op => op.writes ⊆ (agg2_W.map (Proc.devRef (τ := τ) .tc)).toFinset := by
  simp only [agg2, List.Forall, nullary_writes, unary_writes, binary_writes, ternary_writes, reshape_writes, Finset.singleton_subset_iff, List.mem_toFinset]
  repeat' apply And.intro
  all_goals exact List.mem_map_of_mem (by decide)
theorem agg2_keep (V : Valuation τ sig (Elt F)) (r : Ref sig .tc) (h : r ∉ agg2_W) :
    after agg2 V (no_index (Proc.devRef .tc r)) = V (Proc.devRef .tc r) :=
  after_of_writes_sub agg2 V agg2_writes h

theorem lin2_writes : (lin2 : List (HloOp τ sig (Elt F))).Forall fun op => op.writes ⊆ (lin2_W.map (Proc.devRef (τ := τ) .tc)).toFinset := by
  simp only [lin2, List.Forall, nullary_writes, unary_writes, binary_writes, ternary_writes, reshape_writes, Finset.singleton_subset_iff, List.mem_toFinset]
  repeat' apply And.intro
  all_goals exact List.mem_map_of_mem (by decide)
theorem lin2_keep (V : Valuation τ sig (Elt F)) (r : Ref sig .tc) (h : r ∉ lin2_W) :
    after lin2 V (no_index (Proc.devRef .tc r)) = V (Proc.devRef .tc r) :=
  after_of_writes_sub lin2 V lin2_writes h

theorem bn2a_writes : (bn2a : List (HloOp τ sig (Elt F))).Forall fun op => op.writes ⊆ (bn2a_W.map (Proc.devRef (τ := τ) .tc)).toFinset := by
  simp only [bn2a, List.Forall, nullary_writes, unary_writes, binary_writes, ternary_writes, reshape_writes, Finset.singleton_subset_iff, List.mem_toFinset]
  repeat' apply And.intro
  all_goals exact List.mem_map_of_mem (by decide)
theorem bn2a_keep (V : Valuation τ sig (Elt F)) (r : Ref sig .tc) (h : r ∉ bn2a_W) :
    after bn2a V (no_index (Proc.devRef .tc r)) = V (Proc.devRef .tc r) :=
  after_of_writes_sub bn2a V bn2a_writes h

theorem bn2b_writes : (bn2b : List (HloOp τ sig (Elt F))).Forall fun op => op.writes ⊆ (bn2b_W.map (Proc.devRef (τ := τ) .tc)).toFinset := by
  simp only [bn2b, List.Forall, nullary_writes, unary_writes, binary_writes, ternary_writes, reshape_writes, Finset.singleton_subset_iff, List.mem_toFinset]
  repeat' apply And.intro
  all_goals exact List.mem_map_of_mem (by decide)
theorem bn2b_keep (V : Valuation τ sig (Elt F)) (r : Ref sig .tc) (h : r ∉ bn2b_W) :
    after bn2b V (no_index (Proc.devRef .tc r)) = V (Proc.devRef .tc r) :=
  after_of_writes_sub bn2b V bn2b_writes h

theorem pool_writes : (pool : List (HloOp τ sig (Elt F))).Forall fun op => op.writes ⊆ (pool_W.map (Proc.devRef (τ := τ) .tc)).toFinset := by
  simp only [pool, List.Forall, nullary_writes, unary_writes, binary_writes, ternary_writes, reshape_writes, Finset.singleton_subset_iff, List.mem_toFinset]
  repeat' apply And.intro
  all_goals exact List.mem_map_of_mem (by decide)
theorem pool_keep (V : Valuation τ sig (Elt F)) (r : Ref sig .tc) (h : r ∉ pool_W) :
    after pool V (no_index (Proc.devRef .tc r)) = V (Proc.devRef .tc r) :=
  after_of_writes_sub pool V pool_writes h

theorem mlp1_writes : (mlp1 : List (HloOp τ sig (Elt F))).Forall fun op => op.writes ⊆ (mlp1_W.map (Proc.devRef (τ := τ) .tc)).toFinset := by
  simp only [mlp1, List.Forall, nullary_writes, unary_writes, binary_writes, ternary_writes, reshape_writes, Finset.singleton_subset_iff, List.mem_toFinset]
  repeat' apply And.intro
  all_goals exact List.mem_map_of_mem (by decide)
theorem mlp1_keep (V : Valuation τ sig (Elt F)) (r : Ref sig .tc) (h : r ∉ mlp1_W) :
    after mlp1 V (no_index (Proc.devRef .tc r)) = V (Proc.devRef .tc r) :=
  after_of_writes_sub mlp1 V mlp1_writes h

theorem mlp2_writes : (mlp2 : List (HloOp τ sig (Elt F))).Forall fun op => op.writes ⊆ (mlp2_W.map (Proc.devRef (τ := τ) .tc)).toFinset := by
  simp only [mlp2, List.Forall, nullary_writes, unary_writes, binary_writes, ternary_writes, reshape_writes, Finset.singleton_subset_iff, List.mem_toFinset]
  repeat' apply And.intro
  all_goals exact List.mem_map_of_mem (by decide)
theorem mlp2_keep (V : Valuation τ sig (Elt F)) (r : Ref sig .tc) (h : r ∉ mlp2_W) :
    after mlp2 V (no_index (Proc.devRef .tc r)) = V (Proc.devRef .tc r) :=
  after_of_writes_sub mlp2 V mlp2_writes h

theorem mlp3_writes : (mlp3 : List (HloOp τ sig (Elt F))).Forall fun op => op.writes ⊆ (mlp3_W.map (Proc.devRef (τ := τ) .tc)).toFinset := by
  simp only [mlp3, List.Forall, nullary_writes, unary_writes, binary_writes, ternary_writes, reshape_writes, Finset.singleton_subset_iff, List.mem_toFinset]
  repeat' apply And.intro
  all_goals exact List.mem_map_of_mem (by decide)
theorem mlp3_keep (V : Valuation τ sig (Elt F)) (r : Ref sig .tc) (h : r ∉ mlp3_W) :
    after mlp3 V (no_index (Proc.devRef .tc r)) = V (Proc.devRef .tc r) :=
  after_of_writes_sub mlp3 V mlp3_writes h

end Cert.ReferenceIdeal.RefRun

end
-- ==== Proof.Ref.RefOut.lean ====
import proofs.«144042_j23673859736035_1_alg».proof.Proof.Bridge.Stages
import proofs.«144042_j23673859736035_1_alg».proof.Proof.Ref.OwnStages
import proofs.«144042_j23673859736035_1_alg».proof.Proof.Ref.Run
import proofs.«144042_j23673859736035_1_alg».proof.Proof.Ref.Shared
import proofs.«144042_j23673859736035_1_alg».proof.Proof.Ref.Value
import proofs.«144042_j23673859736035_1_alg».proof.Proof.Ref.SegKeep

/-!
# The reference program's result as a function of its arguments

The reference program is a straight line of nineteen segments. Each segment's results are a stage
applied to what the buffers held before it — the shared host stages of `Cert.Stages`, the
reference's own dense layers and batch normalisations of `Cert.RefStages` — and every buffer a
segment does not write keeps its contents. Reading the result buffer back through the nineteen
segments therefore gives the whole network `rOut` applied to the eighteen arguments as they stood at
launch: three layers (aggregate over the incoming edges, dense layer, normalise), the mean pool per
graph beside the graph features, and the perceptron.
-/

noncomputable section

namespace Cert.RefOut

/-! ## The reference network as a function of its eighteen arguments -/

section Network

open Idealize.ShloMosaic Cert.KernelIdeal Cert.Stages

/-- The first layer: the dense layer on the aggregated and the plain input features, then the batch
    normalisation with the leaky rectifier. -/
def refFirst (src dst : Arr S800000 .i32) (idg : Arr S50000x1 .f32) (x : Arr S50000x128 .f32)
    (Wl Wr : Arr S128x256 .f32) (bl g b : Arr S256 .f32) : Arr S50000x256 .f32 :=
  Cert.RefStages.bnLeaky (Cert.RefStages.linRef128 (agg128 src dst idg x) x Wl bl Wr) g b

/-- A later layer: the same on 256 features. -/
def refNext (src dst : Arr S800000 .i32) (idg : Arr S50000x1 .f32) (h : Arr S50000x256 .f32)
    (Wl Wr : Arr S256x256 .f32) (bl g b : Arr S256 .f32) : Arr S50000x256 .f32 :=
  Cert.RefStages.bnLeaky (Cert.RefStages.linRef256 (agg256 src dst idg h) h Wl bl Wr) g b

/-- The reference network: three layers over the graph, the mean pool per graph beside the graph
    features, and the three dense layers of the perceptron. -/
def rOut (x : Arr S50000x128 .f32) (ei : Arr S2x800000 .i32) (batch : Arr S50000 .i32) (gf : Arr S64x32 .f32)
    (Wl0 Wr0 : Arr S128x256 .f32) (bl0 : Arr S256 .f32) (Wl Wr : Arr S2x256x256 .f32) (bl : Arr S2x256 .f32)
    (gamma beta : Arr S3x256 .f32) (W1 : Arr S288x512 .f32) (b1 : Arr S512 .f32) (W2 : Arr S512x512 .f32)
    (b2 : Arr S512 .f32) (W3 : Arr S512x10 .f32) (b3 : Arr S10 .f32) : Arr S64x10 .f32 :=
  Cert.RefStages.dense3
    (Cert.RefStages.dense2
      (Cert.RefStages.dense1
        (poolCat
          (refNext (srcOf ei) (dstOf ei) (invDeg (dstOf ei))
            (refNext (srcOf ei) (dstOf ei) (invDeg (dstOf ei))
              (refFirst (srcOf ei) (dstOf ei) (invDeg (dstOf ei)) x Wl0 Wr0 bl0 (row3 0 gamma) (row3 0 beta))
              (mat2 0 Wl) (mat2 0 Wr) (row2 0 bl) (row3 1 gamma) (row3 1 beta))
            (mat2 1 Wl) (mat2 1 Wr) (row2 1 bl) (row3 2 gamma) (row3 2 beta))
          batch gf)
        W1 b1)
      W2 b2)
    W3 b3

end Network

/-! ## The run read back -/

section Run

open Idealize.ShloMosaic Idealize.ShloMosaic.TcCoe Idealize.SL.Sem Idealize.ShloMosaic.StableHlo
open Cert.ReferenceIdeal Cert.ReferenceIdeal.Gen Cert.ReferenceIdeal.RefRun

/-- From ANY contents `V` of the buffers, the result buffer after the whole line holds the network
    applied to what `V` holds in the eighteen arguments: the line is split into its segments, and the
    result is read back segment by segment — at a buffer the segment writes, the segment's stage; at
    any other, what was there before. -/
theorem ref_out (V : Valuation τ sig (Elt Ideal)) :
    after (ops (F := Ideal)) V (Proc.devRef .tc main_v191) = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops]
  simp only [w0, w1, w2, w3, after_app]
  -- the segments' values, as facts at hand
  have pro_v1' := pro_v1; have pro_v3' := pro_v3; have pro_v12' := pro_v12; have pro_v14' := pro_v14; have pro_v16' := pro_v16; have agg0_v28' := agg0_v28
  have par1_v58' := par1_v58; have par1_v60' := par1_v60; have par1_v62' := par1_v62; have par1_v64' := par1_v64; have par1_v66' := par1_v66; have agg1_v78' := agg1_v78
  have par2_v108' := par2_v108; have par2_v110' := par2_v110; have par2_v112' := par2_v112; have par2_v114' := par2_v114; have par2_v116' := par2_v116; have agg2_v128' := agg2_v128
  have pool_v169' := pool_v169; have lin0_v34' := lin0_v34; have lin1_v84' := lin1_v84; have lin2_v134' := lin2_v134; have bn0_v56' := bn0_v56; have bn1_v106' := bn1_v106
  have bn2_v156' := bn2_v156; have mlp1_v178' := mlp1_v178; have mlp2_v187' := mlp2_v187; have mlp3_v191' := mlp3_v191
  simp (disch := decide) only [pro_v1', pro_v3', pro_v12', pro_v14', pro_v16', agg0_v28', par1_v58', par1_v60', par1_v62', par1_v64', par1_v66', agg1_v78', par2_v108', par2_v110', par2_v112', par2_v114', par2_v116', agg2_v128', pool_v169', lin0_v34', lin1_v84', lin2_v134', bn0_v56', bn1_v106', bn2_v156', mlp1_v178', mlp2_v187', mlp3_v191',
    pro_keep, agg0_keep, lin0_keep, bn0a_keep, bn0b_keep, par1_keep, agg1_keep, lin1_keep, bn1a_keep, bn1b_keep, par2_keep, agg2_keep, lin2_keep, bn2a_keep, bn2b_keep, pool_keep, mlp1_keep, mlp2_keep, mlp3_keep]
  rfl

end Run

end Cert.RefOut

end
-- ==== Proof.LibBatchVar.lean ====
/-
  Batch statistics of a finite family of finite extended reals, the way a batch-normalisation kernel
  and its textbook reference each spell them, and the proof that the two spellings agree.

  Over an arbitrary finite index type `ι` (the rows of a batch), a family `h : ι → EReal` of FINITE values
  and a positive real `N` equal to the number of rows:
    • the kernel's mean, "sum times the reciprocal of N", is the reference's "sum divided by N";
    • the kernel's variance, "max (mean of squares − squared mean) 0", is the reference's "mean of the
      squared deviations" — the identity E[h²] − μ² = E[(h − μ)²] ≥ 0 over the reals, carried to the
      extended reals through the coercion;
    • mean and variance are finite, the variance is nonnegative, and the reciprocal square root of
      "variance plus a positive real" is a positive finite number.
  Also: closure of finiteness under the arithmetic operations, finite sums, `max`, the sign, and division by
  a nonzero real; the coercion of a finite sum of reals; and the real numbers a few f32 words denote.
  Nothing here mentions a shape or an extent.
-/
import Idealize.ShloMosaic.PureOps.Ideal
import Idealize.ShloMosaic.PureOps.Ideal.Laws

noncomputable section

namespace Cert.LibBatchVar

open Idealize.ShloMosaic
open scoped BigOperators

/-! ## Finite extended reals and their closure -/

/-- An extended real is FINITE when it is the coercion of a real number. -/
abbrev IsFinite (x : EReal) : Prop := ∃ r : ℝ, x = (r : EReal)

theorem finite_coe (r : ℝ) : IsFinite (r : EReal) := ⟨r, rfl⟩
theorem finite_zero : IsFinite (0 : EReal) := ⟨0, rfl⟩
theorem finite_one : IsFinite (1 : EReal) := ⟨1, rfl⟩

theorem finite_add {x y : EReal} (hx : IsFinite x) (hy : IsFinite y) : IsFinite (x + y) := by
  obtain ⟨a, rfl⟩ := hx; obtain ⟨b, rfl⟩ := hy; exact ⟨a + b, (EReal.coe_add a b).symm⟩

theorem finite_neg {x : EReal} (hx : IsFinite x) : IsFinite (-x) := by
  obtain ⟨a, rfl⟩ := hx; exact ⟨-a, (EReal.coe_neg a).symm⟩

theorem finite_sub {x y : EReal} (hx : IsFinite x) (hy : IsFinite y) : IsFinite (x - y) := by
  obtain ⟨a, rfl⟩ := hx; obtain ⟨b, rfl⟩ := hy; exact ⟨a - b, (EReal.coe_sub a b).symm⟩

theorem finite_mul {x y : EReal} (hx : IsFinite x) (hy : IsFinite y) : IsFinite (x * y) := by
  obtain ⟨a, rfl⟩ := hx; obtain ⟨b, rfl⟩ := hy; exact ⟨a * b, (EReal.coe_mul a b).symm⟩

/-- The coercion is monotone, so it commutes with `max`. -/
theorem coe_max (a b : ℝ) : ((max a b : ℝ) : EReal) = max (a : EReal) (b : EReal) :=
  EReal.coe_strictMono.monotone.map_max

theorem finite_max {x y : EReal} (hx : IsFinite x) (hy : IsFinite y) : IsFinite (max x y) := by
  obtain ⟨a, rfl⟩ := hx; obtain ⟨b, rfl⟩ := hy; exact ⟨max a b, (coe_max a b).symm⟩

/-- The sign of any extended real, the infinities included, is one of the finite values -1, 0, 1. -/
theorem finite_sign (x : EReal) : IsFinite (Ideal.sign x) := by
  induction x using EReal.rec with
  | bot => exact ⟨-1, by rw [Ideal.sign_bot]; simp⟩
  | top => exact ⟨1, by rw [Ideal.sign_top]; simp⟩
  | coe r => exact ⟨_, rfl⟩

/-- Division by a nonzero real keeps a finite value finite. -/
theorem finite_div_coe {x : EReal} (hx : IsFinite x) {y : ℝ} (hy : y ≠ 0) : IsFinite (Ideal.div x (y : EReal)) := by
  rw [Ideal.div_coe hy]; exact finite_mul hx (finite_coe _)

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of finite values is finite. -/
theorem finite_sum {ι : Type*} (s : Finset ι) (h : ι → EReal) (hf : ∀ i ∈ s, IsFinite (h i)) :
    IsFinite (∑ i ∈ s, h i) := by
  classical
  induction s using Finset.induction_on with
  | empty => exact ⟨0, by simp⟩
  | insert a s ha ih =>
    rw [Finset.sum_insert ha]
    exact finite_add (hf a (Finset.mem_insert_self a s)) (ih fun i hi => hf i (Finset.mem_insert_of_mem hi))

theorem finite_univ_sum {ι : Type*} [Fintype ι] (h : ι → EReal) (hf : ∀ i, IsFinite (h i)) : IsFinite (∑ i, h i) :=
  finite_sum _ h fun i _ => hf i

/-- A contraction (a sum of products) of two finite families is finite. -/
theorem finite_sum_mul {κ : Type*} [Fintype κ] (a b : κ → EReal) (ha : ∀ k, IsFinite (a k)) (hb : ∀ k, IsFinite (b k)) :
    IsFinite (∑ k, a k * b k) :=
  finite_univ_sum _ fun k => finite_mul (ha k) (hb k)

/-- A family of finite values is the coercion of a family of reals. -/
theorem exists_real_family {ι : Type*} (h : ι → EReal) (hf : ∀ i, IsFinite (h i)) :
    ∃ g : ι → ℝ, h = fun i => (g i : EReal) := by
  choose g hg using hf
  exact ⟨g, funext hg⟩

/-! ## The identity over the reals -/

section Real

variable {ι : Type*} [Fintype ι]

/-- E[g²] − μ² = E[(g − μ)²], with μ the mean, every mean spelt "sum times 1/N", and `N` the number of terms. -/
theorem real_var_identity (g : ι → ℝ) {N : ℝ} (hN : (Fintype.card ι : ℝ) = N) (hpos : 0 < N) :
    (∑ i, g i * g i) * (1 / N) - (∑ i, g i) * (1 / N) * ((∑ i, g i) * (1 / N))
      = (∑ i, (g i - (∑ j, g j) * (1 / N)) * (g i - (∑ j, g j) * (1 / N))) * (1 / N) := by
  have hNne : N ≠ 0 := hpos.ne'
  generalize hm : (∑ j, g j) * (1 / N) = m
  have hS : ∑ i, g i = N * m := by rw [← hm]; field_simp
  have hexp : ∑ i, (g i - m) * (g i - m) = ∑ i, g i * g i - 2 * m * ∑ i, g i + N * (m * m) := by
    have h1 : ∀ i, (g i - m) * (g i - m) = g i * g i - 2 * m * g i + m * m := fun i => by ring
    simp only [h1]
    rw [Finset.sum_add_distrib, Finset.sum_sub_distrib, ← Finset.mul_sum, Finset.sum_const, Finset.card_univ,
      nsmul_eq_mul, hN]
  rw [hexp, hS]
  field_simp
  ring

/-- A mean of squared deviations (from any centre) is nonnegative. -/
theorem real_var_nonneg (g : ι → ℝ) (m : ℝ) {N : ℝ} (hpos : 0 < N) :
    0 ≤ (∑ i, (g i - m) * (g i - m)) * (1 / N) :=
  mul_nonneg (Finset.sum_nonneg fun i _ => mul_self_nonneg _) (by positivity)

end Real

/-! ## The statistics on the extended reals -/

section Stats

variable {ι : Type*} [Fintype ι]

/-- The kernel's mean (the sum times the reciprocal) is the reference's (the sum divided by `N`), at every family. -/
theorem mean_eq (h : ι → EReal) {N : ℝ} (hpos : 0 < N) :
    (∑ i, h i) * ((1 / N : ℝ) : EReal) = Ideal.div (∑ i, h i) (N : EReal) :=
  (Ideal.div_coe hpos.ne' _).symm

/-- Everything at once, with real witnesses: for a finite family over `N` rows there are a real `m` and a real
    `w ≥ 0` such that both spellings of the mean are `m` and both spellings of the variance are `w`. -/
theorem batch_stats (h : ι → EReal) (hfin : ∀ i, ∃ r : ℝ, h i = (r : EReal)) {N : ℝ}
    (hN : (Fintype.card ι : ℝ) = N) (hpos : 0 < N) :
    ∃ m w : ℝ, 0 ≤ w
      ∧ (∑ i, h i) * ((1 / N : ℝ) : EReal) = (m : EReal)
      ∧ Ideal.div (∑ i, h i) (N : EReal) = (m : EReal)
      ∧ max ((∑ i, h i * h i) * ((1 / N : ℝ) : EReal)
            - (∑ i, h i) * ((1 / N : ℝ) : EReal) * ((∑ i, h i) * ((1 / N : ℝ) : EReal))) 0 = (w : EReal)
      ∧ Ideal.div (∑ i, (h i - Ideal.div (∑ j, h j) (N : EReal)) * (h i - Ideal.div (∑ j, h j) (N : EReal))) (N : EReal)
          = (w : EReal) := by
  obtain ⟨g, rfl⟩ := exists_real_family h hfin
  have hNne : N ≠ 0 := hpos.ne'
  refine ⟨(∑ i, g i) * (1 / N), (∑ i, (g i - (∑ j, g j) * (1 / N)) * (g i - (∑ j, g j) * (1 / N))) * (1 / N),
    real_var_nonneg g _ hpos, ?_, ?_, ?_, ?_⟩
  · rw [← coe_sum, ← EReal.coe_mul]
  · rw [Ideal.div_coe hNne, ← coe_sum, ← EReal.coe_mul]
  · simp only [← EReal.coe_mul, ← coe_sum, ← EReal.coe_sub]
    rw [real_var_identity g hN hpos]
    exact max_eq_left (EReal.coe_nonneg.mpr (real_var_nonneg g _ hpos))
  · simp only [Ideal.div_coe hNne, ← EReal.coe_mul, ← coe_sum, ← EReal.coe_sub]

/-- The two spellings of the variance agree on a finite family. -/
theorem var_eq (h : ι → EReal) (hfin : ∀ i, ∃ r : ℝ, h i = (r : EReal)) {N : ℝ}
    (hN : (Fintype.card ι : ℝ) = N) (hpos : 0 < N) :
    max ((∑ i, h i * h i) * ((1 / N : ℝ) : EReal)
          - (∑ i, h i) * ((1 / N : ℝ) : EReal) * ((∑ i, h i) * ((1 / N : ℝ) : EReal))) 0
      = Ideal.div (∑ i, (h i - Ideal.div (∑ j, h j) (N : EReal)) * (h i - Ideal.div (∑ j, h j) (N : EReal))) (N : EReal) := by
  obtain ⟨m, w, _, _, _, hk, hr⟩ := batch_stats h hfin hN hpos
  rw [hk, hr]

/-- The same with the sums and the kernel's mean NAMED, for a goal in which they are not spelt out: whatever
    `S`, `Q`, `μ` are, if they are the sum, the sum of squares and the kernel's mean, then … -/
theorem var_eq_of_eq (h : ι → EReal) (hfin : ∀ i, ∃ r : ℝ, h i = (r : EReal)) {N : ℝ}
    (hN : (Fintype.card ι : ℝ) = N) (hpos : 0 < N) {S Q μ μ' : EReal} (hS : S = ∑ i, h i) (hQ : Q = ∑ i, h i * h i)
    (hμ : μ = S * ((1 / N : ℝ) : EReal)) (hμ' : μ' = Ideal.div S (N : EReal)) :
    max (Q * ((1 / N : ℝ) : EReal) - μ * μ) 0 = Ideal.div (∑ i, (h i - μ') * (h i - μ')) (N : EReal) := by
  subst hμ hμ' hS hQ
  exact var_eq h hfin hN hpos

/-- The mean of a finite family is finite (either spelling: `mean_eq`). -/
theorem mean_finite (h : ι → EReal) (hfin : ∀ i, ∃ r : ℝ, h i = (r : EReal)) {N : ℝ} (hpos : 0 < N) :
    ∃ r : ℝ, Ideal.div (∑ i, h i) (N : EReal) = (r : EReal) :=
  finite_div_coe (finite_univ_sum h hfin) hpos.ne'

/-- The variance of a finite family is a nonnegative real. -/
theorem var_finite_nonneg (h : ι → EReal) (hfin : ∀ i, ∃ r : ℝ, h i = (r : EReal)) {N : ℝ}
    (hN : (Fintype.card ι : ℝ) = N) (hpos : 0 < N) :
    ∃ w : ℝ, 0 ≤ w ∧
      Ideal.div (∑ i, (h i - Ideal.div (∑ j, h j) (N : EReal)) * (h i - Ideal.div (∑ j, h j) (N : EReal))) (N : EReal)
        = (w : EReal) := by
  obtain ⟨m, w, hw, _, _, _, hr⟩ := batch_stats h hfin hN hpos
  exact ⟨w, hw, hr⟩

theorem var_finite (h : ι → EReal) (hfin : ∀ i, ∃ r : ℝ, h i = (r : EReal)) {N : ℝ}
    (hN : (Fintype.card ι : ℝ) = N) (hpos : 0 < N) :
    ∃ w : ℝ,
      Ideal.div (∑ i, (h i - Ideal.div (∑ j, h j) (N : EReal)) * (h i - Ideal.div (∑ j, h j) (N : EReal))) (N : EReal)
        = (w : EReal) := by
  obtain ⟨w, _, hr⟩ := var_finite_nonneg h hfin hN hpos
  exact ⟨w, hr⟩

theorem var_nonneg (h : ι → EReal) (hfin : ∀ i, ∃ r : ℝ, h i = (r : EReal)) {N : ℝ}
    (hN : (Fintype.card ι : ℝ) = N) (hpos : 0 < N) :
    0 ≤ Ideal.div (∑ i, (h i - Ideal.div (∑ j, h j) (N : EReal)) * (h i - Ideal.div (∑ j, h j) (N : EReal))) (N : EReal) := by
  obtain ⟨w, hw, hr⟩ := var_finite_nonneg h hfin hN hpos
  rw [hr]; exact EReal.coe_nonneg.mpr hw

/-! ## The reciprocal square root -/

/-- At a positive real the reciprocal square root is the real one. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- … and positive. -/
theorem inv_sqrt_pos {r : ℝ} (hr : 0 < r) : 0 < (Real.sqrt r)⁻¹ := inv_pos.mpr (Real.sqrt_pos.mpr hr)

/-- A nonnegative real plus a positive one: the reciprocal square root is a positive real. -/
theorem rsqrt_add_pos {w e : ℝ} (hw : 0 ≤ w) (he : 0 < e) :
    ∃ r : ℝ, 0 < r ∧ Ideal.rsqrt ((w : EReal) + (e : EReal)) = (r : EReal) := by
  have hpos : 0 < w + e := by linarith
  exact ⟨_, inv_sqrt_pos hpos, by rw [← EReal.coe_add]; exact rsqrt_coe_pos hpos⟩

/-- The reciprocal square root of "variance plus a positive real" is a positive finite number. -/
theorem rsqrt_var_finite (h : ι → EReal) (hfin : ∀ i, ∃ r : ℝ, h i = (r : EReal)) {N : ℝ}
    (hN : (Fintype.card ι : ℝ) = N) (hpos : 0 < N) {eps : ℝ} (heps : 0 < eps) :
    ∃ r : ℝ, 0 < r ∧
      Ideal.rsqrt (Ideal.div (∑ i, (h i - Ideal.div (∑ j, h j) (N : EReal)) * (h i - Ideal.div (∑ j, h j) (N : EReal)))
          (N : EReal) + (eps : EReal)) = (r : EReal) := by
  obtain ⟨w, hw, hr⟩ := var_finite_nonneg h hfin hN hpos
  rw [hr]; exact rsqrt_add_pos hw heps

end Stats

/-! ## The real numbers some f32 words denote -/

/-- `0x39800000` is 2⁻¹², the reciprocal of 4096. -/
theorem ofBits_inv_4096 : Ideal.ofBits .f32 0x39800000#32 = ((1 / 4096 : ℝ) : EReal) := by
  simp [Ideal.ofBits, Ideal.ieee, -EReal.coe_mul]; norm_num

/-- `0x45800000` is 2¹² = 4096. -/
theorem ofBits_4096 : Ideal.ofBits .f32 0x45800000#32 = ((4096 : ℝ) : EReal) := by
  simp [Ideal.ofBits, Ideal.ieee, -EReal.coe_mul]; norm_num

/-- `0x3727C5AC` (the f32 nearest 10⁻⁵) is the dyadic 10995116 · 2⁻⁴⁰. -/
theorem ofBits_eps_val : Ideal.ofBits .f32 0x3727C5AC#32 = ((10995116 / 2 ^ 40 : ℝ) : EReal) := by
  simp [Ideal.ofBits, Ideal.ieee, -EReal.coe_mul]; norm_num

/-- … a positive real. -/
theorem ofBits_eps : ∃ e : ℝ, 0 < e ∧ Ideal.ofBits .f32 0x3727C5AC#32 = (e : EReal) :=
  ⟨10995116 / 2 ^ 40, by positivity, ofBits_eps_val⟩

/-- `0x00000000` is zero (the library's lemma, restated beside the others). -/
theorem ofBits_zero : Ideal.ofBits .f32 0x00000000#32 = 0 := Ideal.ofBits_zero_f32

end Cert.LibBatchVar

end
-- ==== Proof.Spec.Words.lean ====
/-
  The real numbers that five f32 words denote as extended reals.

    0x47435000  is  50000            (2²³ + 4411392) · 2⁻⁸
    0x3727C5AC  is  10995116 · 2⁻⁴⁰  (the f32 nearest 10⁻⁵), a positive real
    0x3D2F8D5C  is  11504988 · 2⁻²⁸  (the f32 nearest 0.0428594…), a positive real
    0x3F800000  is  1
    0x00000000  is  0

  Also: the signed reading of the 32-bit zero word, converted to a float, is 0; and 50000 − 0 is a real
  above 0, so the comparison "50000 − 0 > 0" is the bit 1.
-/
import Idealize.ShloMosaic.PureOps.Ideal
import Idealize.ShloMosaic.PureOps.Ideal.Laws

noncomputable section

namespace Cert.Spec

open Idealize.ShloMosaic

/-- The word 0x47435000 denotes 50000. -/
theorem w50000 : Ideal.ofBits .f32 0x47435000#32 = ((50000 : ℝ) : EReal) := by
  simp [Ideal.ofBits, Ideal.ieee, -EReal.coe_mul]; norm_num

/-- The real the word 0x3727C5AC denotes. -/
def epsR : ℝ := 10995116 / 2 ^ 40

theorem epsR_pos : 0 < epsR := by unfold epsR; positivity

/-- The word 0x3727C5AC denotes the dyadic 10995116 · 2⁻⁴⁰. -/
theorem wEps : Ideal.ofBits .f32 0x3727C5AC#32 = ((epsR : ℝ) : EReal) := by
  unfold epsR
  simp [Ideal.ofBits, Ideal.ieee, -EReal.coe_mul]; norm_num

/-- The real the word 0x3D2F8D5C denotes. -/
def slopeR : ℝ := 11504988 / 2 ^ 28

theorem slopeR_pos : 0 < slopeR := by unfold slopeR; positivity

/-- The word 0x3D2F8D5C denotes the dyadic 11504988 · 2⁻²⁸. -/
theorem wSlope : Ideal.ofBits .f32 0x3D2F8D5C#32 = ((slopeR : ℝ) : EReal) := by
  unfold slopeR
  simp [Ideal.ofBits, Ideal.ieee, -EReal.coe_mul]; norm_num

/-- The word 0x3F800000 denotes 1. -/
theorem wOne : Ideal.ofBits .f32 0x3F800000#32 = 1 := by
  simp [Ideal.ofBits, Ideal.ieee, -EReal.coe_mul]; norm_num

theorem wOne_coe : Ideal.ofBits .f32 0x3F800000#32 = ((1 : ℝ) : EReal) := by
  rw [wOne, EReal.coe_one]

/-- The word 0x00000000 denotes 0. -/
theorem wZero : Ideal.ofBits .f32 0x00000000#32 = 0 := Ideal.ofBits_zero_f32

theorem wZero_coe : Ideal.ofBits .f32 0x00000000#32 = ((0 : ℝ) : EReal) := by
  rw [wZero, EReal.coe_zero]

/-- The 32-bit zero word, read as a signed integer and converted to a float, is 0. -/
theorem sitofp_zero : (((0#32 : BitVec 32).toInt : ℝ) : EReal) = 0 := by
  simp

/-- The same, of the conversion as a program spells it. -/
theorem sitofp_zero_ops : FloatOps.sitofp (F := Ideal) .f32 (0#32 : BitVec 32) = 0 := sitofp_zero

/-- 50000 less a zero is 50000: the divisor "count minus the correction 0" of a biased variance. -/
theorem w50000_sub_zero {z : EReal} (hz : z = 0) : Ideal.ofBits .f32 0x47435000#32 - z = ((50000 : ℝ) : EReal) := by
  rw [hz, sub_zero, w50000]

/-- … and it is above 0, so the ordered comparison "greater than" against the zero word is the bit 1. -/
theorem cmp_count_pos {z : EReal} (hz : z = 0) :
    Ideal.cmp .ogt (Ideal.ofBits .f32 0x47435000#32 - z) (Ideal.ofBits .f32 0x00000000#32) = 1#1 := by
  rw [w50000_sub_zero hz, wZero]
  have h : (0 : EReal) < ((50000 : ℝ) : EReal) := by exact_mod_cast (by norm_num : (0 : ℝ) < 50000)
  simp [Ideal.cmp, h]

end Cert.Spec

end
-- ==== Proof.Spec.Variance.lean ====
/-
  Batch statistics over 50000 rows, the way each program spells them, and the proof that the spellings agree.

  For a family x of real numbers indexed by a finite type with N > 0 elements, with μ = (∑ x) / N:
      (∑ x²) / N − μ²  =  (∑ (x − μ)²) / N  ≥  0 ,
  because ∑ (x − μ)² = ∑ x² − 2 μ ∑ x + N μ² and ∑ x = N μ. One program computes the left side (the mean of the
  squares less the squared mean), the other the right side (the mean of the squared deviations); both divide
  by the count — neither multiplies by a reciprocal and neither clamps at zero. The identity is carried from the
  reals to the extended reals through the coercion, which commutes with finite sums, products and differences;
  division by a nonzero real is the product with its reciprocal there.

  The reference adds each sum onto an initial zero and divides the squared deviations by "the count less a
  correction" whose correction is zero; it then keeps the quotient where that divisor is positive, which it is.
-/
import Idealize.ShloMosaic.PureOps.Ideal
import Idealize.ShloMosaic.PureOps.Ideal.Laws
import Idealize.ShloMosaic.Lib.ValueIdx
import proofs.«144042_j23673859736035_1_alg».proof.Proof.LibBatchVar
import proofs.«144042_j23673859736035_1_alg».proof.Proof.Spec.Words

noncomputable section

namespace Cert.Spec

open Idealize.ShloMosaic
open Cert.LibBatchVar (IsFinite coe_sum exists_real_family)
open scoped BigOperators

section Stats

variable {ι : Type*} [Fintype ι]

/-- Over a real count N: the mean is a real m, and both spellings of the variance — the mean of the squares less
    m², and the mean of the squared deviations from m — are one nonnegative real w. -/
theorem stats_real (x : ι → EReal) (hfin : ∀ i, ∃ r : ℝ, x i = (r : EReal)) {N : ℝ}
    (hN : (Fintype.card ι : ℝ) = N) (hpos : 0 < N) :
    ∃ m w : ℝ, 0 ≤ w
      ∧ Ideal.div (∑ i, x i) (N : EReal) = (m : EReal)
      ∧ Ideal.div (∑ i, x i * x i) (N : EReal) - (m : EReal) * (m : EReal) = (w : EReal)
      ∧ Ideal.div (∑ i, (x i - (m : EReal)) * (x i - (m : EReal))) (N : EReal) = (w : EReal) := by
  obtain ⟨g, rfl⟩ := exists_real_family x hfin
  have hNne : N ≠ 0 := hpos.ne'
  refine ⟨(∑ i, g i) * (1 / N), (∑ i, (g i - (∑ j, g j) * (1 / N)) * (g i - (∑ j, g j) * (1 / N))) * (1 / N),
    LibBatchVar.real_var_nonneg g _ hpos, ?_, ?_, ?_⟩
  · rw [Ideal.div_coe hNne, ← coe_sum, ← EReal.coe_mul]
  · simp only [Ideal.div_coe hNne, ← EReal.coe_mul, ← coe_sum, ← EReal.coe_sub]
    rw [LibBatchVar.real_var_identity g hN hpos]
  · simp only [Ideal.div_coe hNne, ← EReal.coe_mul, ← coe_sum, ← EReal.coe_sub]

/-- The statistics with every sum, divisor and initial value NAMED, for a goal in which they are not spelt out:
    whatever S and Q are, if they are the sum and the sum of squares; whatever the four divisors are, if each is the
    count N; and whatever the two initial values are, if each is zero — then there are a real m and a real w ≥ 0
    with: the first program's mean S / n₁ is m and its variance Q / n₂ − mean² is w; the second program's mean
    (z₁ + ∑ x) / n₃ is m and its variance (z₂ + ∑ (x − mean)²) / n₄ is w. -/
theorem stats_of_eq (x : ι → EReal) (hfin : ∀ i, ∃ r : ℝ, x i = (r : EReal)) {N : ℝ}
    (hN : (Fintype.card ι : ℝ) = N) (hpos : 0 < N) {S Q n₁ n₂ n₃ n₄ z₁ z₂ : EReal}
    (hS : S = ∑ i, x i) (hQ : Q = ∑ i, x i * x i)
    (h₁ : n₁ = (N : EReal)) (h₂ : n₂ = (N : EReal)) (h₃ : n₃ = (N : EReal)) (h₄ : n₄ = (N : EReal))
    (hz₁ : z₁ = 0) (hz₂ : z₂ = 0) :
    ∃ m w : ℝ, 0 ≤ w
      ∧ Ideal.div S n₁ = (m : EReal)
      ∧ Ideal.div Q n₂ - Ideal.div S n₁ * Ideal.div S n₁ = (w : EReal)
      ∧ Ideal.div (z₁ + ∑ i, x i) n₃ = (m : EReal)
      ∧ Ideal.div (z₂ + ∑ i, (x i - Ideal.div (z₁ + ∑ j, x j) n₃) * (x i - Ideal.div (z₁ + ∑ j, x j) n₃)) n₄ = (w : EReal) := by
  subst hS hQ h₁ h₂ h₃ h₄ hz₁ hz₂
  obtain ⟨m, w, hw, hm, hk, hr⟩ := stats_real x hfin hN hpos
  refine ⟨m, w, hw, hm, ?_, ?_, ?_⟩
  · rw [hm]; exact hk
  · rw [zero_add]; exact hm
  · simp only [zero_add]; rw [hm]; exact hr

end Stats

/-! ## Over 50000 rows, with the programs' f32 words -/

section Words

variable {ι : Type*} [Fintype ι]

/-- A type with 50000 elements has the real count 50000. -/
theorem card_real (hcard : Fintype.card ι = 50000) : ((Fintype.card ι : ℝ)) = 50000 := by
  rw [hcard]; norm_num

/-- EVERYTHING AT ONCE, over 50000 rows and with the divisors and initial values the words the programs hold:
    there are a real m and a real w ≥ 0 such that
      • the first program's mean, (∑ x) / 50000, is m;
      • its variance, (∑ x·x) / 50000 − mean · mean, is w;
      • the second program's mean, (0 + ∑ x) / 50000, is m;
      • its variance, (0 + ∑ (x − mean)·(x − mean)) / (50000 − z) with the correction z = 0, is w. -/
theorem stats_words (x : ι → EReal) (hfin : ∀ i, ∃ r : ℝ, x i = (r : EReal)) (hcard : Fintype.card ι = 50000)
    {z : EReal} (hz : z = 0) :
    ∃ m w : ℝ, 0 ≤ w
      ∧ Ideal.div (∑ i, x i) (Ideal.ofBits .f32 0x47435000#32) = (m : EReal)
      ∧ Ideal.div (∑ i, x i * x i) (Ideal.ofBits .f32 0x47435000#32)
          - Ideal.div (∑ i, x i) (Ideal.ofBits .f32 0x47435000#32) * Ideal.div (∑ i, x i) (Ideal.ofBits .f32 0x47435000#32)
          = (w : EReal)
      ∧ Ideal.div (Ideal.ofBits .f32 0x00000000#32 + ∑ i, x i) (Ideal.ofBits .f32 0x47435000#32) = (m : EReal)
      ∧ Ideal.div (Ideal.ofBits .f32 0x00000000#32
            + ∑ i, (x i - Ideal.div (Ideal.ofBits .f32 0x00000000#32 + ∑ j, x j) (Ideal.ofBits .f32 0x47435000#32))
                * (x i - Ideal.div (Ideal.ofBits .f32 0x00000000#32 + ∑ j, x j) (Ideal.ofBits .f32 0x47435000#32)))
          (Ideal.ofBits .f32 0x47435000#32 - z) = (w : EReal) :=
  stats_of_eq x hfin (card_real hcard) (by norm_num) rfl rfl w50000 w50000 w50000 (w50000_sub_zero hz) wZero wZero

/-- The two means agree. -/
theorem mean_eq_words (x : ι → EReal) (hfin : ∀ i, ∃ r : ℝ, x i = (r : EReal)) (hcard : Fintype.card ι = 50000) :
    Ideal.div (∑ i, x i) (Ideal.ofBits .f32 0x47435000#32)
      = Ideal.div (Ideal.ofBits .f32 0x00000000#32 + ∑ i, x i) (Ideal.ofBits .f32 0x47435000#32) := by
  obtain ⟨m, w, _, h1, _, h3, _⟩ := stats_words x hfin hcard (z := 0) rfl
  rw [h1, h3]

/-- The mean is a real. -/
theorem mean_finite_words (x : ι → EReal) (hfin : ∀ i, ∃ r : ℝ, x i = (r : EReal)) (hcard : Fintype.card ι = 50000) :
    IsFinite (Ideal.div (∑ i, x i) (Ideal.ofBits .f32 0x47435000#32)) := by
  obtain ⟨m, w, _, h1, _, _, _⟩ := stats_words x hfin hcard (z := 0) rfl
  exact ⟨m, h1⟩

/-- The two variances agree. -/
theorem var_eq_words (x : ι → EReal) (hfin : ∀ i, ∃ r : ℝ, x i = (r : EReal)) (hcard : Fintype.card ι = 50000)
    {z : EReal} (hz : z = 0) :
    Ideal.div (∑ i, x i * x i) (Ideal.ofBits .f32 0x47435000#32)
        - Ideal.div (∑ i, x i) (Ideal.ofBits .f32 0x47435000#32) * Ideal.div (∑ i, x i) (Ideal.ofBits .f32 0x47435000#32)
      = Ideal.div (Ideal.ofBits .f32 0x00000000#32
            + ∑ i, (x i - Ideal.div (Ideal.ofBits .f32 0x00000000#32 + ∑ j, x j) (Ideal.ofBits .f32 0x47435000#32))
                * (x i - Ideal.div (Ideal.ofBits .f32 0x00000000#32 + ∑ j, x j) (Ideal.ofBits .f32 0x47435000#32)))
          (Ideal.ofBits .f32 0x47435000#32 - z) := by
  obtain ⟨m, w, _, _, h2, _, h4⟩ := stats_words x hfin hcard hz
  rw [h2, h4]

/-- The variance (the first program's spelling) is a nonnegative real. -/
theorem var_real_words (x : ι → EReal) (hfin : ∀ i, ∃ r : ℝ, x i = (r : EReal)) (hcard : Fintype.card ι = 50000) :
    ∃ w : ℝ, 0 ≤ w ∧
      Ideal.div (∑ i, x i * x i) (Ideal.ofBits .f32 0x47435000#32)
        - Ideal.div (∑ i, x i) (Ideal.ofBits .f32 0x47435000#32) * Ideal.div (∑ i, x i) (Ideal.ofBits .f32 0x47435000#32)
        = (w : EReal) := by
  obtain ⟨m, w, hw, _, h2, _, _⟩ := stats_words x hfin hcard (z := 0) rfl
  exact ⟨w, hw, h2⟩

/-- The variance (the second program's spelling) is a nonnegative real. -/
theorem var_ref_real_words (x : ι → EReal) (hfin : ∀ i, ∃ r : ℝ, x i = (r : EReal)) (hcard : Fintype.card ι = 50000)
    {z : EReal} (hz : z = 0) :
    ∃ w : ℝ, 0 ≤ w ∧
      Ideal.div (Ideal.ofBits .f32 0x00000000#32
            + ∑ i, (x i - Ideal.div (Ideal.ofBits .f32 0x00000000#32 + ∑ j, x j) (Ideal.ofBits .f32 0x47435000#32))
                * (x i - Ideal.div (Ideal.ofBits .f32 0x00000000#32 + ∑ j, x j) (Ideal.ofBits .f32 0x47435000#32)))
          (Ideal.ofBits .f32 0x47435000#32 - z) = (w : EReal) := by
  obtain ⟨m, w, hw, _, _, _, h4⟩ := stats_words x hfin hcard hz
  exact ⟨w, hw, h4⟩

/-- … so it is at least zero. -/
theorem var_ref_nonneg_words (x : ι → EReal) (hfin : ∀ i, ∃ r : ℝ, x i = (r : EReal)) (hcard : Fintype.card ι = 50000)
    {z : EReal} (hz : z = 0) :
    0 ≤ Ideal.div (Ideal.ofBits .f32 0x00000000#32
            + ∑ i, (x i - Ideal.div (Ideal.ofBits .f32 0x00000000#32 + ∑ j, x j) (Ideal.ofBits .f32 0x47435000#32))
                * (x i - Ideal.div (Ideal.ofBits .f32 0x00000000#32 + ∑ j, x j) (Ideal.ofBits .f32 0x47435000#32)))
          (Ideal.ofBits .f32 0x47435000#32 - z) := by
  obtain ⟨w, hw, h⟩ := var_ref_real_words x hfin hcard hz
  rw [h]; exact EReal.coe_nonneg.mpr hw

end Words

/-- The reference keeps its quotient where the divisor "50000 − z" is above zero and answers a fixed word elsewhere;
    with the correction z = 0 the divisor is 50000, so it keeps the quotient. -/
theorem where_count_pos {α : Type} {z : EReal} (hz : z = 0) (a b : α) :
    Scalar.select (Ideal.cmp .ogt (Ideal.ofBits .f32 0x47435000#32 - z) (Ideal.ofBits .f32 0x00000000#32)) a b = a := by
  rw [cmp_count_pos hz]; exact ValueIdx.select_one a b

end Cert.Spec

end
-- ==== Proof.Spec.Scale.lean ====
/-
  The normalisation scale, spelt two ways.

  One program multiplies gamma by the reciprocal square root of "variance plus epsilon"; the other divides gamma
  by the square root of the same number. For a variance that is a nonnegative real and a positive real epsilon
  the argument p = variance + epsilon is a positive real, and there
      rsqrt p = (√p)⁻¹,      sqrt p = √p ≠ 0,      g / √p = g · (√p)⁻¹,
  so the two scales are one extended real, at every g; and it is a real when g is.
-/
import Idealize.ShloMosaic.PureOps.Ideal
import Idealize.ShloMosaic.PureOps.Ideal.Laws
import proofs.«144042_j23673859736035_1_alg».proof.Proof.LibBatchVar
import proofs.«144042_j23673859736035_1_alg».proof.Proof.Spec.Words

noncomputable section

namespace Cert.Spec

open Idealize.ShloMosaic
open Cert.LibBatchVar (IsFinite)

/-- At a positive real the square root is the real one. -/
theorem sqrt_coe_pos {p : ℝ} (hp : 0 < p) : Ideal.sqrt (p : EReal) = ((Real.sqrt p : ℝ) : EReal) := by
  rw [Ideal.sqrt_coe, if_neg (not_lt.mpr hp.le)]

/-- At a positive real: g · rsqrt p = g / sqrt p, at every extended real g. -/
theorem mul_rsqrt_eq_div_sqrt (g : EReal) {p : ℝ} (hp : 0 < p) :
    g * Ideal.rsqrt (p : EReal) = Ideal.div g (Ideal.sqrt (p : EReal)) := by
  rw [LibBatchVar.rsqrt_coe_pos hp, sqrt_coe_pos hp, Ideal.div_coe (Real.sqrt_pos.mpr hp).ne', one_div]

/-- A finite nonnegative extended real is a nonnegative real. -/
theorem nonneg_real {v : EReal} (hv : IsFinite v) (h0 : 0 ≤ v) : ∃ w : ℝ, 0 ≤ w ∧ v = (w : EReal) := by
  obtain ⟨w, rfl⟩ := hv
  exact ⟨w, EReal.coe_nonneg.mp h0, rfl⟩

/-- A nonnegative real plus a positive real is a positive real. -/
theorem add_eps_pos {v e : EReal} (hv : ∃ w : ℝ, 0 ≤ w ∧ v = (w : EReal)) (he : ∃ r : ℝ, 0 < r ∧ e = (r : EReal)) :
    ∃ p : ℝ, 0 < p ∧ v + e = (p : EReal) := by
  obtain ⟨w, hw, rfl⟩ := hv; obtain ⟨r, hr, rfl⟩ := he
  exact ⟨w + r, by linarith, (EReal.coe_add w r).symm⟩

/-- THE SCALE: gamma times the reciprocal square root of "variance plus epsilon" is gamma divided by the square
    root of it, for a variance that is a nonnegative real and a positive real epsilon. -/
theorem scale_eq (g : EReal) {v e : EReal} (hv : ∃ w : ℝ, 0 ≤ w ∧ v = (w : EReal)) (he : ∃ r : ℝ, 0 < r ∧ e = (r : EReal)) :
    g * Ideal.rsqrt (v + e) = Ideal.div g (Ideal.sqrt (v + e)) := by
  obtain ⟨p, hp, h⟩ := add_eps_pos hv he
  rw [h]; exact mul_rsqrt_eq_div_sqrt g hp

/-- The reciprocal square root of "variance plus epsilon" is a positive real. -/
theorem rsqrt_add_eps_real {v e : EReal} (hv : ∃ w : ℝ, 0 ≤ w ∧ v = (w : EReal)) (he : ∃ r : ℝ, 0 < r ∧ e = (r : EReal)) :
    ∃ q : ℝ, 0 < q ∧ Ideal.rsqrt (v + e) = (q : EReal) := by
  obtain ⟨p, hp, h⟩ := add_eps_pos hv he
  exact ⟨_, LibBatchVar.inv_sqrt_pos hp, by rw [h]; exact LibBatchVar.rsqrt_coe_pos hp⟩

/-- … so the scale is a real when gamma is. -/
theorem scale_finite {g v e : EReal} (hg : IsFinite g) (hv : ∃ w : ℝ, 0 ≤ w ∧ v = (w : EReal))
    (he : ∃ r : ℝ, 0 < r ∧ e = (r : EReal)) : IsFinite (g * Ideal.rsqrt (v + e)) := by
  obtain ⟨q, _, h⟩ := rsqrt_add_eps_real hv he
  rw [h]; exact LibBatchVar.finite_mul hg ⟨q, rfl⟩

/-! ## With epsilon the f32 word 0x3727C5AC -/

/-- The epsilon word is a positive real. -/
theorem wEps_pos_real : ∃ r : ℝ, 0 < r ∧ Ideal.ofBits .f32 0x3727C5AC#32 = (r : EReal) := ⟨epsR, epsR_pos, wEps⟩

/-- The scale at the epsilon word, for a finite nonnegative variance. -/
theorem scale_eq_wEps (g : EReal) {v : EReal} (hv : IsFinite v) (h0 : 0 ≤ v) :
    g * Ideal.rsqrt (v + Ideal.ofBits .f32 0x3727C5AC#32)
      = Ideal.div g (Ideal.sqrt (v + Ideal.ofBits .f32 0x3727C5AC#32)) :=
  scale_eq g (nonneg_real hv h0) wEps_pos_real

theorem scale_finite_wEps {g v : EReal} (hg : IsFinite g) (hv : IsFinite v) (h0 : 0 ≤ v) :
    IsFinite (g * Ideal.rsqrt (v + Ideal.ofBits .f32 0x3727C5AC#32)) :=
  scale_finite hg (nonneg_real hv h0) wEps_pos_real

/-- The same equation between the two programs' operations on one element: the product with the reciprocal square
    root on one side, the host's quotient by the host's square root on the other. -/
theorem scale_eq_ops (g v : Ideal .f32) (hv : IsFinite v) (h0 : 0 ≤ v) :
    FloatOps.mulf g (FloatOps.rsqrt (FloatOps.addf v (FloatOps.ofBits (F := Ideal) .f32 0x3727C5AC#32)))
      = FloatOps.hostDivf g (FloatOps.hostUnary .sqrt (FloatOps.addf v (FloatOps.ofBits (F := Ideal) .f32 0x3727C5AC#32))) :=
  scale_eq_wEps g hv h0

end Cert.Spec

end
-- ==== Proof.Spec.Norm.lean ====
/-
  The normalised value of one entry, spelt two ways, over 50000 rows.

  With μ the mean and σ² the variance of a column x of real numbers, one program computes
      (x i − μ) · (γ · rsqrt (σ² + ε)) + β        with σ² = (∑ x²)/N − μ²,
  the other
      (x i − μ) · (γ / sqrt (σ² + ε)) + β         with σ² = (∑ (x − μ)²)/N.
  The means agree, the variances agree and are a nonnegative real, ε is a positive real, so the two scales
  agree; hence the two values are one extended real, and it is a real when γ and β are.
-/
import proofs.«144042_j23673859736035_1_alg».proof.Proof.Spec.Variance
import proofs.«144042_j23673859736035_1_alg».proof.Proof.Spec.Scale

noncomputable section

namespace Cert.Spec

open Idealize.ShloMosaic
open Cert.LibBatchVar (IsFinite)
open scoped BigOperators

variable {ι : Type*} [Fintype ι]

/-- The two scales agree: γ times the reciprocal square root of the first program's "variance plus ε" is γ divided
    by the square root of the second program's. -/
theorem inv_std_eq_words (x : ι → EReal) (hfin : ∀ i, ∃ r : ℝ, x i = (r : EReal)) (hcard : Fintype.card ι = 50000)
    {z : EReal} (hz : z = 0) (g : EReal) :
    g * Ideal.rsqrt (Ideal.div (∑ i, x i * x i) (Ideal.ofBits .f32 0x47435000#32) - Ideal.div (∑ i, x i) (Ideal.ofBits .f32 0x47435000#32) * Ideal.div (∑ i, x i) (Ideal.ofBits .f32 0x47435000#32) + (Ideal.ofBits .f32 0x3727C5AC#32))
      = Ideal.div g (Ideal.sqrt (Ideal.div ((Ideal.ofBits .f32 0x00000000#32) + ∑ i, (x i - Ideal.div ((Ideal.ofBits .f32 0x00000000#32) + ∑ j, x j) (Ideal.ofBits .f32 0x47435000#32)) * (x i - Ideal.div ((Ideal.ofBits .f32 0x00000000#32) + ∑ j, x j) (Ideal.ofBits .f32 0x47435000#32)))
          ((Ideal.ofBits .f32 0x47435000#32) - z) + (Ideal.ofBits .f32 0x3727C5AC#32))) := by
  rw [← var_eq_words x hfin hcard hz]
  exact scale_eq g (var_real_words x hfin hcard) wEps_pos_real

/-- The first program's scale is a real when γ is. -/
theorem inv_std_finite_words (x : ι → EReal) (hfin : ∀ i, ∃ r : ℝ, x i = (r : EReal)) (hcard : Fintype.card ι = 50000)
    {g : EReal} (hg : IsFinite g) :
    IsFinite (g * Ideal.rsqrt (Ideal.div (∑ i, x i * x i) (Ideal.ofBits .f32 0x47435000#32) - Ideal.div (∑ i, x i) (Ideal.ofBits .f32 0x47435000#32) * Ideal.div (∑ i, x i) (Ideal.ofBits .f32 0x47435000#32) + (Ideal.ofBits .f32 0x3727C5AC#32))) :=
  scale_finite hg (var_real_words x hfin hcard) wEps_pos_real

/-- THE NORMALISED ENTRY: the two programs' values at one row agree. -/
theorem normalise_eq_words (x : ι → EReal) (hfin : ∀ i, ∃ r : ℝ, x i = (r : EReal)) (hcard : Fintype.card ι = 50000)
    {z : EReal} (hz : z = 0) (g b : EReal) (i₀ : ι) :
    (x i₀ - Ideal.div (∑ i, x i) (Ideal.ofBits .f32 0x47435000#32))
        * (g * Ideal.rsqrt (Ideal.div (∑ i, x i * x i) (Ideal.ofBits .f32 0x47435000#32) - Ideal.div (∑ i, x i) (Ideal.ofBits .f32 0x47435000#32) * Ideal.div (∑ i, x i) (Ideal.ofBits .f32 0x47435000#32) + (Ideal.ofBits .f32 0x3727C5AC#32))) + b
      = (x i₀ - Ideal.div ((Ideal.ofBits .f32 0x00000000#32) + ∑ i, x i) (Ideal.ofBits .f32 0x47435000#32))
        * Ideal.div g (Ideal.sqrt (Ideal.div ((Ideal.ofBits .f32 0x00000000#32) + ∑ i, (x i - Ideal.div ((Ideal.ofBits .f32 0x00000000#32) + ∑ j, x j) (Ideal.ofBits .f32 0x47435000#32)) * (x i - Ideal.div ((Ideal.ofBits .f32 0x00000000#32) + ∑ j, x j) (Ideal.ofBits .f32 0x47435000#32)))
            ((Ideal.ofBits .f32 0x47435000#32) - z) + (Ideal.ofBits .f32 0x3727C5AC#32))) + b := by
  rw [inv_std_eq_words x hfin hcard hz g, ← mean_eq_words x hfin hcard]

/-- … and that value is a real when γ and β are. -/
theorem normalise_finite_words (x : ι → EReal) (hfin : ∀ i, ∃ r : ℝ, x i = (r : EReal)) (hcard : Fintype.card ι = 50000)
    {g b : EReal} (hg : IsFinite g) (hb : IsFinite b) (i₀ : ι) :
    IsFinite ((x i₀ - Ideal.div (∑ i, x i) (Ideal.ofBits .f32 0x47435000#32))
        * (g * Ideal.rsqrt (Ideal.div (∑ i, x i * x i) (Ideal.ofBits .f32 0x47435000#32) - Ideal.div (∑ i, x i) (Ideal.ofBits .f32 0x47435000#32) * Ideal.div (∑ i, x i) (Ideal.ofBits .f32 0x47435000#32) + (Ideal.ofBits .f32 0x3727C5AC#32))) + b) :=
  LibBatchVar.finite_add
    (LibBatchVar.finite_mul (LibBatchVar.finite_sub (hfin i₀) (mean_finite_words x hfin hcard))
      (inv_std_finite_words x hfin hcard hg)) hb

end Cert.Spec

end
-- ==== Proof.Bridge.LayerLaw.lean ====
/-
  One entry of a normalised layer, the two spellings joined.

  For a column x of 50000 real numbers, the first program normalises entry R with the statistics
  μ = (∑ x)/N and σ² = (∑ x²)/N − μ², scaling by γ · rsqrt (σ² + ε); the second with μ = (0 + ∑ x)/N and the centred
  σ² = (0 + ∑ (x − μ)²)/(N − 0), scaling by γ / sqrt (σ² + ε). Both then apply the same leaky rectifier. The affine
  values agree entry by entry (the variance identity needs every x real), so the rectified values agree.
-/
import proofs.«144042_j23673859736035_1_alg».proof.Proof.KI.NormElt
import proofs.«144042_j23673859736035_1_alg».proof.Proof.Spec.Norm

noncomputable section

namespace Cert.Bridge

open Idealize.ShloMosaic Cert.KernelIdeal.Hand
open scoped BigOperators

/-- The leaky rectifier at the extended reals: v where v > 0, slope · v elsewhere. -/
def leaky (v : EReal) : EReal :=
  Scalar.select (Ideal.cmp .ogt v (Ideal.ofBits .f32 0x00000000#32)) v (Ideal.ofBits .f32 0x3D2F8D5C#32 * v)

/-- The first program's element, at the extended reals: the leaky rectifier of (x − μ) · (γ · rsqrt (v + ε)) + β. -/
theorem normElt_ideal (x μ v γ β : EReal) :
    normElt (F := Ideal) x μ v γ β = leaky ((x - μ) * (γ * Ideal.rsqrt (v + (Ideal.ofBits .f32 0x3727C5AC#32))) + β) := rfl

/-- One entry of the layer: the first program's element over its own statistics of the column is the leaky
    rectifier of the second program's affine value over its own. -/
theorem layer_entry (x : Fin 50000 → EReal) (hfin : ∀ i, ∃ r : ℝ, x i = (r : EReal)) {z : EReal} (hz : z = 0)
    (g b : EReal) (R : Fin 50000) :
    normElt (F := Ideal) (x R) (Ideal.div (∑ i, x i) (Ideal.ofBits .f32 0x47435000#32))
        (Ideal.div (∑ i, x i * x i) (Ideal.ofBits .f32 0x47435000#32) - Ideal.div (∑ i, x i) (Ideal.ofBits .f32 0x47435000#32) * Ideal.div (∑ i, x i) (Ideal.ofBits .f32 0x47435000#32)) g b
      = leaky ((x R - Ideal.div ((Ideal.ofBits .f32 0x00000000#32) + ∑ i, x i) (Ideal.ofBits .f32 0x47435000#32))
          * Ideal.div g (Ideal.sqrt (Ideal.div ((Ideal.ofBits .f32 0x00000000#32) + ∑ i, (x i - Ideal.div ((Ideal.ofBits .f32 0x00000000#32) + ∑ j, x j) (Ideal.ofBits .f32 0x47435000#32)) * (x i - Ideal.div ((Ideal.ofBits .f32 0x00000000#32) + ∑ j, x j) (Ideal.ofBits .f32 0x47435000#32)))
              ((Ideal.ofBits .f32 0x47435000#32) - z) + (Ideal.ofBits .f32 0x3727C5AC#32))) + b) := by
  rw [normElt_ideal, Cert.Spec.normalise_eq_words x hfin (by simp) hz g b R]

end Cert.Bridge

end
-- ==== Proof.PreFinite.lean ====
/-
  The precondition read as mathematics. `finite_inputs` says, for each of the sixteen float arrays, that every
  entry's absolute value is below the infinity word; at the extended reals that is exactly "every entry is a real
  number" (neither infinity nor the junk value). The two integer arrays (edge list, graph ids) are not constrained.
-/
import proofs.«144042_j23673859736035_1_alg».proof.Pre_finite_inputs
import proofs.«144042_j23673859736035_1_alg».proof.Proof.Gen.Pre_finite_inputs
import Idealize.ShloMosaic.PureOps.Ideal
import Idealize.ShloMosaic.PureOps.Ideal.Laws
import Idealize.ShloMosaic.Lib.ReduceAll

noncomputable section

namespace Cert.PreFinite

open Idealize.ShloMosaic Cert.Pre_finite_inputs

/-- Every entry of the array is a real number. -/
def IsReal {s : Shape} (x : FVec Ideal s .f32) : Prop := ∀ i, ∃ r : ℝ, x i = (r : EReal)

/-- The f32 infinity word denotes +∞. -/
theorem inf_word : Ideal.ofBits .f32 0x7F800000#32 = (⊤ : EReal) := by
  simp [Ideal.ofBits, Ideal.ieee]

/-- An extended real whose absolute value max(x, −x) is below +∞ is a real: +∞ fails by x, −∞ by −x. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, for an array of any shape: if the conjunction over all entries of
    "|x| < the infinity word" is 1, every entry is a real number. -/
theorem entries_real {s t u : Shape} {axes : List (Fin s.rank)} [Subsingleton t.Idx]
    (x : FVec Ideal s .f32) (y : FVec Ideal s .f32) (hy : ∀ i, y i = Ideal.ofBits .f32 0x7F800000#32)
    (init : IVec u 1) (h : s.ReducesTo axes t) (hu : 0 < u.numel) (j : t.Idx)
    (e : Host.reduce IntOp.andi (cmpf .olt (Host.absf x) y) init h hu j = 1#1) : IsReal x := by
  intro i
  have h1 := Host.reduce_andi_all (cmpf .olt (Host.absf x) y) init h hu j e i
  simp only [cmpf, Host.absf, Ideal.hostAbsf_def, Ideal.cmpf_def, Ideal.absf_def, hy, inf_word, Ideal.cmp] at h1
  apply real_of_abs_lt_top
  have h2 : decide (max (x i) (-x i) < ⊤) = true := by
    rcases hb : decide (max (x i) (-x i) < ⊤) with _ | _
    · rw [hb] at h1; exact absurd h1 (by decide)
    · rfl
  exact of_decide_eq_true h2

instance : Subsingleton S_.Idx := ⟨fun a b => funext fun d => d.elim0⟩

/-- The precondition of this certificate: each of the sixteen float argument arrays has only real entries. -/
theorem pre_real [hP : Cert.Pre_finite_inputs.Facts]
    (a0 : FVec Ideal S50000x128 .f32) (a1 : IVec S2x800000 32) (a2 : IVec S50000 32) (a3 : FVec Ideal S64x32 .f32) (a4 : FVec Ideal S128x256 .f32) (a5 : FVec Ideal S128x256 .f32) (a6 : FVec Ideal S256 .f32) (a7 : FVec Ideal S2x256x256 .f32) (a8 : FVec Ideal S2x256x256 .f32) (a9 : FVec Ideal S2x256 .f32) (a10 : FVec Ideal S3x256 .f32) (a11 : FVec Ideal S3x256 .f32) (a12 : FVec Ideal S288x512 .f32) (a13 : FVec Ideal S512 .f32) (a14 : FVec Ideal S512x512 .f32) (a15 : FVec Ideal S512 .f32) (a16 : FVec Ideal S512x10 .f32) (a17 : FVec Ideal S10 .f32)
    (h : Cert.Pre_finite_inputs.fn (F := Ideal) a0 a1 a2 a3 a4 a5 a6 a7 a8 a9 a10 a11 a12 a13 a14 a15 a16 a17 = fun _ => 1#1) :
    IsReal a0 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 := by
  have h0 := congrFun h (fun d => d.elim0)
  dsimp only [Cert.Pre_finite_inputs.fn, fn_part1, fn_part2, fn_part3, fn_part4] at h0
  simp only [andi, IntOp.andi_eq_one] at h0
  obtain ⟨⟨⟨⟨⟨⟨⟨⟨⟨⟨⟨⟨⟨⟨⟨c0, c3⟩, c4⟩, c5⟩, c6⟩, c7⟩, c8⟩, c9⟩, c10⟩, c11⟩, c12⟩, c13⟩, c14⟩, c15⟩, c16⟩, c17⟩ := h0
  exact ⟨entries_real a0 _ (fun _ => rfl) _ _ _ _ c0,
    entries_real a3 _ (fun _ => rfl) _ _ _ _ c3,
    entries_real a4 _ (fun _ => rfl) _ _ _ _ c4,
    entries_real a5 _ (fun _ => rfl) _ _ _ _ c5,
    entries_real a6 _ (fun _ => rfl) _ _ _ _ c6,
    entries_real a7 _ (fun _ => rfl) _ _ _ _ c7,
    entries_real a8 _ (fun _ => rfl) _ _ _ _ c8,
    entries_real a9 _ (fun _ => rfl) _ _ _ _ c9,
    entries_real a10 _ (fun _ => rfl) _ _ _ _ c10,
    entries_real a11 _ (fun _ => rfl) _ _ _ _ c11,
    entries_real a12 _ (fun _ => rfl) _ _ _ _ c12,
    entries_real a13 _ (fun _ => rfl) _ _ _ _ c13,
    entries_real a14 _ (fun _ => rfl) _ _ _ _ c14,
    entries_real a15 _ (fun _ => rfl) _ _ _ _ c15,
    entries_real a16 _ (fun _ => rfl) _ _ _ _ c16,
    entries_real a17 _ (fun _ => rfl) _ _ _ _ c17⟩

end Cert.PreFinite

end
-- ==== Proof.Bridge.LayerBridge.lean ====
/-
  One layer of the network, the two programs' spellings equal as whole arrays.

  A layer takes the aggregated features X, the features Y, two weight matrices, a bias and the scale and shift
  vectors. Both programs form the same linear map L = X · Wl + bl + Y · Wr, entry by entry the same sums; the first
  then normalises L with the column means and the uncentred variances E[L²] − E[L]², the second with the centred
  variances; on real columns the two variances agree, so the two normalised, rectified arrays are equal. The
  normalised array is again real, which is what the next layer needs.
-/
import proofs.«144042_j23673859736035_1_alg».proof.Proof.Bridge.LayerLaw
import proofs.«144042_j23673859736035_1_alg».proof.Proof.KI.LinStatsSpec
import proofs.«144042_j23673859736035_1_alg».proof.Proof.Bridge.Stages
import proofs.«144042_j23673859736035_1_alg».proof.Proof.Ref.OwnStages
import proofs.«144042_j23673859736035_1_alg».proof.Proof.PreFinite

noncomputable section

namespace Cert.Bridge

open Idealize.ShloMosaic Idealize.ShloMosaic.ValueIdx
open Cert.KernelIdeal Cert.KernelIdeal.Gen Cert.KernelIdeal.Hand
open Cert.PreFinite (IsReal)
open Cert.Stages (Arr agg128 agg256 asRow256)
open scoped BigOperators

/-- The second program's affine value at entry R of a column x: (x R − μ) · (γ / sqrt (σ² + ε)) + β with μ = (0 + Σ x)/N
    and the centred σ² = (0 + Σ (x − μ)²)/(N − z), z the correction of the divisor. -/
abbrev refAffine (x : Fin 50000 → EReal) (z g b : EReal) (R : Fin 50000) : EReal :=
  (x R - Ideal.div ((Ideal.ofBits .f32 0x00000000#32) + ∑ i, x i) (Ideal.ofBits .f32 0x47435000#32))
    * Ideal.div g (Ideal.sqrt (Ideal.div ((Ideal.ofBits .f32 0x00000000#32) + ∑ i, (x i - Ideal.div ((Ideal.ofBits .f32 0x00000000#32) + ∑ j, x j) (Ideal.ofBits .f32 0x47435000#32)) * (x i - Ideal.div ((Ideal.ofBits .f32 0x00000000#32) + ∑ j, x j) (Ideal.ofBits .f32 0x47435000#32)))
        ((Ideal.ofBits .f32 0x47435000#32) - z) + (Ideal.ofBits .f32 0x3727C5AC#32))) + b

/-! ## The linear map: the same sums on both sides -/

/-- For inner width 128: the first program's linear output, with the bias laid out as a row, is the second's. -/
theorem lin128_eq
    (hlin128 : ∀ (X Y : Cert.RefStages.A Cert.ReferenceIdeal.S50000x128) (Wl Wr : Cert.RefStages.A Cert.ReferenceIdeal.S128x256)
      (bl : Cert.RefStages.A Cert.ReferenceIdeal.S256) (i : Cert.ReferenceIdeal.S50000x256.Idx),
      Cert.RefStages.linRef128 X Y Wl bl Wr i
        = (∑ k : Fin 128, X (ix2 (i 0) k) * Wl (ix2 k (i 1))) + bl (ix1 (i 1)) + ∑ k : Fin 128, Y (ix2 (i 0) k) * Wr (ix2 k (i 1)))
    (hrow : ∀ (v : Arr S256 .f32) (u : Fin 1) (j : Fin 256), asRow256 v (ix2 u j) = v (ix1 j))
    (X Y : Arr S50000x128 .f32) (Wl Wr : Arr S128x256 .f32) (bl : Arr S256 .f32) :
    linArr128 X Y Wl Wr (asRow256 bl) = Cert.RefStages.linRef128 X Y Wl bl Wr := by
  funext i
  refine Eq.trans ?_ (hlin128 X Y Wl Wr bl i).symm
  show (∑ k : Fin 128, X (ix2 (n0 := 50000) (n1 := 128) (i 0) k) * Wl (ix2 (n0 := 128) (n1 := 256) k (i 1)))
      + asRow256 bl (ix2 (n0 := 1) (n1 := 256) 0 (i 1))
      + (∑ k : Fin 128, Y (ix2 (n0 := 50000) (n1 := 128) (i 0) k) * Wr (ix2 (n0 := 128) (n1 := 256) k (i 1))) = _
  rw [hrow bl 0 (i 1)]

/-- For inner width 256 likewise. -/
theorem lin256_eq
    (hlin256 : ∀ (X Y : Cert.RefStages.A Cert.ReferenceIdeal.S50000x256) (Wl Wr : Cert.RefStages.A Cert.ReferenceIdeal.S256x256)
      (bl : Cert.RefStages.A Cert.ReferenceIdeal.S256) (i : Cert.ReferenceIdeal.S50000x256.Idx),
      Cert.RefStages.linRef256 X Y Wl bl Wr i
        = (∑ k : Fin 256, X (ix2 (i 0) k) * Wl (ix2 k (i 1))) + bl (ix1 (i 1)) + ∑ k : Fin 256, Y (ix2 (i 0) k) * Wr (ix2 k (i 1)))
    (hrow : ∀ (v : Arr S256 .f32) (u : Fin 1) (j : Fin 256), asRow256 v (ix2 u j) = v (ix1 j))
    (X Y : Arr S50000x256 .f32) (Wl Wr : Arr S256x256 .f32) (bl : Arr S256 .f32) :
    linArr256 X Y Wl Wr (asRow256 bl) = Cert.RefStages.linRef256 X Y Wl bl Wr := by
  funext i
  refine Eq.trans ?_ (hlin256 X Y Wl Wr bl i).symm
  show (∑ k : Fin 256, X (ix2 (n0 := 50000) (n1 := 256) (i 0) k) * Wl (ix2 (n0 := 256) (n1 := 256) k (i 1)))
      + asRow256 bl (ix2 (n0 := 1) (n1 := 256) 0 (i 1))
      + (∑ k : Fin 256, Y (ix2 (n0 := 50000) (n1 := 256) (i 0) k) * Wr (ix2 (n0 := 256) (n1 := 256) k (i 1))) = _
  rw [hrow bl 0 (i 1)]

/-! ## The normalisation: on a real array the two spellings agree -/

/-- Normalising a real array L by its own mean and uncentred-variance rows, then rectifying, gives the second
    program's normalised, rectified array of L: at entry (R, j) both are the rectifier of the same affine value of
    column j (the variance identity needs column j real). -/
theorem norm_eq (z : EReal) (hz : z = 0)
    (hbn : ∀ (L : Cert.RefStages.A Cert.ReferenceIdeal.S50000x256) (g b : Cert.RefStages.A Cert.ReferenceIdeal.S256)
      (i : Cert.ReferenceIdeal.S50000x256.Idx),
      Cert.RefStages.bnLeaky L g b i
        = leaky (refAffine (fun R : Fin 50000 => L (ix2 (n0 := 50000) (n1 := 256) R (i 1))) z (g (ix1 (i 1))) (b (ix1 (i 1))) (i 0)))
    (hrow : ∀ (v : Arr S256 .f32) (u : Fin 1) (j : Fin 256), asRow256 v (ix2 u j) = v (ix1 j))
    (L : S50000x256.Idx → EReal) (hL : IsReal (s := S50000x256) L) (g b : Arr S256 .f32) :
    normG (F := Ideal) L (meanRow L) (varRow L) (asRow256 g) (asRow256 b) = Cert.RefStages.bnLeaky L g b := by
  funext i
  refine Eq.trans ?_ (hbn L g b i).symm
  have e := layer_entry (fun R : Fin 50000 => L (ix2 (n0 := 50000) (n1 := 256) R (i 1))) (fun R => hL _) hz
    (g (ix1 (i 1))) (b (ix1 (i 1))) (i 0)
  have e1 : L i = L (ix2 (n0 := 50000) (n1 := 256) (i 0) (i 1)) := congrArg L (eq_ix2 i)
  show normElt (F := Ideal) (L i) (meanRow L (ix2 (n0 := 1) (n1 := 256) 0 (i 1))) (varRow L (ix2 (n0 := 1) (n1 := 256) 0 (i 1)))
      (asRow256 g (ix2 (n0 := 1) (n1 := 256) 0 (i 1))) (asRow256 b (ix2 (n0 := 1) (n1 := 256) 0 (i 1))) = _
  rw [e1, hrow g 0 (i 1), hrow b 0 (i 1)]
  exact e

/-! ## One layer -/

/-- THE FIRST LAYER. On real inputs (features, inverse degrees, weights, bias, scale, shift — the edge list is unconstrained) the first program's layer — mean aggregation, linear map on 128 features, normalisation by the uncentred variance, rectifier — is the second program's, and the result is a real array. -/
theorem first_eq
    (hlin128 : ∀ (X Y : Cert.RefStages.A Cert.ReferenceIdeal.S50000x128) (Wl Wr : Cert.RefStages.A Cert.ReferenceIdeal.S128x256)
      (bl : Cert.RefStages.A Cert.ReferenceIdeal.S256) (i : Cert.ReferenceIdeal.S50000x256.Idx),
      Cert.RefStages.linRef128 X Y Wl bl Wr i
        = (∑ k : Fin 128, X (ix2 (i 0) k) * Wl (ix2 k (i 1))) + bl (ix1 (i 1)) + ∑ k : Fin 128, Y (ix2 (i 0) k) * Wr (ix2 k (i 1)))
    (hrow : ∀ (v : Arr S256 .f32) (u : Fin 1) (j : Fin 256), asRow256 v (ix2 u j) = v (ix1 j))
    (z : EReal) (hz : z = 0)
    (hbn : ∀ (L : Cert.RefStages.A Cert.ReferenceIdeal.S50000x256) (g b : Cert.RefStages.A Cert.ReferenceIdeal.S256)
      (i : Cert.ReferenceIdeal.S50000x256.Idx),
      Cert.RefStages.bnLeaky L g b i
        = leaky (refAffine (fun R : Fin 50000 => L (ix2 (n0 := 50000) (n1 := 256) R (i 1))) z (g (ix1 (i 1))) (b (ix1 (i 1))) (i 0)))
    (hagg : ∀ (src dst : Arr S800000 .i32) {invdeg : Arr S50000x1 .f32} {x : Arr S50000x128 .f32},
      IsReal x → IsReal invdeg → IsReal (agg128 src dst invdeg x))
    (hlinreal : ∀ {X Y : S50000x128.Idx → EReal} {Wl Wr : S128x256.Idx → EReal} {bl : S1x256.Idx → EReal},
      IsReal (s := S50000x128) X → IsReal (s := S50000x128) Y → IsReal (s := S128x256) Wl → IsReal (s := S128x256) Wr → IsReal (s := S1x256) bl →
      IsReal (s := S50000x256) (linArr128 X Y Wl Wr bl))
    (hrowreal : ∀ {v : Arr S256 .f32}, IsReal v → IsReal (asRow256 v))
    (hnorm : ∀ {L : S50000x256.Idx → EReal} {γ β : Arr S256 .f32}, IsReal (s := S50000x256) L → IsReal γ → IsReal β →
      IsReal (s := S50000x256) (normG (F := Ideal) L (meanRow L) (varRow L) (asRow256 γ) (asRow256 β)))
    (src dst : Arr S800000 .i32) (idg : Arr S50000x1 .f32) (x : Arr S50000x128 .f32) (Wl Wr : Arr S128x256 .f32) (bl g b : Arr S256 .f32)
    (hx : IsReal x) (hidg : IsReal idg) (hWl : IsReal Wl) (hWr : IsReal Wr) (hbl : IsReal bl) (hg : IsReal g) (hb : IsReal b) :
    normG (F := Ideal) (linArr128 (agg128 src dst idg x) x Wl Wr (asRow256 bl)) (meanRow (linArr128 (agg128 src dst idg x) x Wl Wr (asRow256 bl))) (varRow (linArr128 (agg128 src dst idg x) x Wl Wr (asRow256 bl))) (asRow256 g) (asRow256 b)
        = Cert.RefStages.bnLeaky (Cert.RefStages.linRef128 (agg128 src dst idg x) x Wl bl Wr) g b
      ∧ IsReal (s := S50000x256) (normG (F := Ideal) (linArr128 (agg128 src dst idg x) x Wl Wr (asRow256 bl)) (meanRow (linArr128 (agg128 src dst idg x) x Wl Wr (asRow256 bl))) (varRow (linArr128 (agg128 src dst idg x) x Wl Wr (asRow256 bl))) (asRow256 g) (asRow256 b)) := by
  have hL : IsReal (s := S50000x256) (linArr128 (agg128 src dst idg x) x Wl Wr (asRow256 bl)) :=
    hlinreal (hagg src dst hx hidg) hx hWl hWr (hrowreal hbl)
  refine ⟨?_, hnorm hL hg hb⟩
  rw [← lin128_eq hlin128 hrow (agg128 src dst idg x) x Wl Wr bl]
  exact norm_eq z hz hbn hrow _ hL g b

/-- A LATER LAYER: the same on 256 input features. -/
theorem next_eq
    (hlin256 : ∀ (X Y : Cert.RefStages.A Cert.ReferenceIdeal.S50000x256) (Wl Wr : Cert.RefStages.A Cert.ReferenceIdeal.S256x256)
      (bl : Cert.RefStages.A Cert.ReferenceIdeal.S256) (i : Cert.ReferenceIdeal.S50000x256.Idx),
      Cert.RefStages.linRef256 X Y Wl bl Wr i
        = (∑ k : Fin 256, X (ix2 (i 0) k) * Wl (ix2 k (i 1))) + bl (ix1 (i 1)) + ∑ k : Fin 256, Y (ix2 (i 0) k) * Wr (ix2 k (i 1)))
    (hrow : ∀ (v : Arr S256 .f32) (u : Fin 1) (j : Fin 256), asRow256 v (ix2 u j) = v (ix1 j))
    (z : EReal) (hz : z = 0)
    (hbn : ∀ (L : Cert.RefStages.A Cert.ReferenceIdeal.S50000x256) (g b : Cert.RefStages.A Cert.ReferenceIdeal.S256)
      (i : Cert.ReferenceIdeal.S50000x256.Idx),
      Cert.RefStages.bnLeaky L g b i
        = leaky (refAffine (fun R : Fin 50000 => L (ix2 (n0 := 50000) (n1 := 256) R (i 1))) z (g (ix1 (i 1))) (b (ix1 (i 1))) (i 0)))
    (hagg : ∀ (src dst : Arr S800000 .i32) {invdeg : Arr S50000x1 .f32} {x : Arr S50000x256 .f32},
      IsReal x → IsReal invdeg → IsReal (agg256 src dst invdeg x))
    (hlinreal : ∀ {X Y : S50000x256.Idx → EReal} {Wl Wr : S256x256.Idx → EReal} {bl : S1x256.Idx → EReal},
      IsReal (s := S50000x256) X → IsReal (s := S50000x256) Y → IsReal (s := S256x256) Wl → IsReal (s := S256x256) Wr → IsReal (s := S1x256) bl →
      IsReal (s := S50000x256) (linArr256 X Y Wl Wr bl))
    (hrowreal : ∀ {v : Arr S256 .f32}, IsReal v → IsReal (asRow256 v))
    (hnorm : ∀ {L : S50000x256.Idx → EReal} {γ β : Arr S256 .f32}, IsReal (s := S50000x256) L → IsReal γ → IsReal β →
      IsReal (s := S50000x256) (normG (F := Ideal) L (meanRow L) (varRow L) (asRow256 γ) (asRow256 β)))
    (src dst : Arr S800000 .i32) (idg : Arr S50000x1 .f32) (x : Arr S50000x256 .f32) (Wl Wr : Arr S256x256 .f32) (bl g b : Arr S256 .f32)
    (hx : IsReal x) (hidg : IsReal idg) (hWl : IsReal Wl) (hWr : IsReal Wr) (hbl : IsReal bl) (hg : IsReal g) (hb : IsReal b) :
    normG (F := Ideal) (linArr256 (agg256 src dst idg x) x Wl Wr (asRow256 bl)) (meanRow (linArr256 (agg256 src dst idg x) x Wl Wr (asRow256 bl))) (varRow (linArr256 (agg256 src dst idg x) x Wl Wr (asRow256 bl))) (asRow256 g) (asRow256 b)
        = Cert.RefStages.bnLeaky (Cert.RefStages.linRef256 (agg256 src dst idg x) x Wl bl Wr) g b
      ∧ IsReal (s := S50000x256) (normG (F := Ideal) (linArr256 (agg256 src dst idg x) x Wl Wr (asRow256 bl)) (meanRow (linArr256 (agg256 src dst idg x) x Wl Wr (asRow256 bl))) (varRow (linArr256 (agg256 src dst idg x) x Wl Wr (asRow256 bl))) (asRow256 g) (asRow256 b)) := by
  have hL : IsReal (s := S50000x256) (linArr256 (agg256 src dst idg x) x Wl Wr (asRow256 bl)) :=
    hlinreal (hagg src dst hx hidg) hx hWl hWr (hrowreal hbl)
  refine ⟨?_, hnorm hL hg hb⟩
  rw [← lin256_eq hlin256 hrow (agg256 src dst idg x) x Wl Wr bl]
  exact norm_eq z hz hbn hrow _ hL g b

end Cert.Bridge

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.Bridge.LinBridge.lean ====
import proofs.«144042_j23673859736035_1_alg».proof.Proof.Ref.OwnStages
import proofs.«144042_j23673859736035_1_alg».proof.Proof.Bridge.Stages
import proofs.«144042_j23673859736035_1_alg».proof.Proof.LibHostReads
import proofs.«144042_j23673859736035_1_alg».proof.Proof.KI.LinSum0
import proofs.«144042_j23673859736035_1_alg».proof.Proof.KI.LinSum2
import proofs.«144042_j23673859736035_1_alg».proof.Proof.KI.LinSum4
import Idealize.ShloMosaic.Lib.ValueLayout

/-! # The linear map of a layer on the reference's side, read entry by entry

The reference computes a layer's linear map on the whole [50000, w] arrays at once: `X · Wl + bl + Y · Wr`, where `X` holds
the aggregated rows, `Y` the rows themselves, and the bias vector `bl` of 256 entries is added to every row. At the exact
values the entry at row `r`, column `j` is

    Σₖ X(r,k)·Wl(k,j) + bl(j) + Σₖ Y(r,k)·Wr(k,j)

— the same expression the kernel's grid points compute row block by row block, once the kernel's bias ROW [1,256] is seen
to be the bias vector [256] laid out as one row. Only `+` and `·` of extended reals occur, term by term; nothing has to be
finite. -/

open scoped BigOperators

noncomputable section

namespace Cert.LinBridge

open Idealize.ShloMosaic Idealize.ShloMosaic.ValueIdx

/-- The reference's linear map on 128 input features — the product of the aggregated rows with `Wl`, the bias vector made
    one row and repeated down the 50000 rows, the product of the rows themselves with `Wr`, and the two sums — read at row
    `r` and column `j`:  Σₖ X(r,k)·Wl(k,j) + bl(j) + Σₖ Y(r,k)·Wr(k,j). Both products are plain ones, so each is the sum
    over the contracted coordinate; the bias broadcast reads the vector at the column. -/
theorem linRef128_apply (X Y : Cert.RefStages.A Cert.ReferenceIdeal.S50000x128) (Wl Wr : Cert.RefStages.A Cert.ReferenceIdeal.S128x256) (bl : Cert.RefStages.A Cert.ReferenceIdeal.S256)
    (r : Fin 50000) (j : Fin 256) :
    Cert.RefStages.linRef128 X Y Wl bl Wr (ix2 r j)
      = (∑ k : Fin 128, X (ix2 r k) * Wl (ix2 k j)) + bl (ix1 j) + ∑ k : Fin 128, Y (ix2 r k) * Wr (ix2 k j) := by
  unfold Cert.RefStages.linRef128 Cert.RefStages.rows256
  rw [addf_apply, addf_apply,
    Cert.LibHostReads.dot_apply Cert.ReferenceIdeal.dot_S50000x128_S128x256_S50000x256_1_0_0_1_n_n rfl X Wl r j,
    Cert.LibHostReads.dot_apply Cert.ReferenceIdeal.dot_S50000x128_S128x256_S50000x256_1_0_0_1_n_n rfl Y Wr r j,
    Cert.LibHostReads.rowBias_apply (by decide) _ _ bl r j]

/-- The same at any index `i` of the [50000,256] result, by its two coordinates. -/
theorem linRef128_apply_idx (X Y : Cert.RefStages.A Cert.ReferenceIdeal.S50000x128) (Wl Wr : Cert.RefStages.A Cert.ReferenceIdeal.S128x256) (bl : Cert.RefStages.A Cert.ReferenceIdeal.S256)
    (i : Cert.ReferenceIdeal.S50000x256.Idx) :
    Cert.RefStages.linRef128 X Y Wl bl Wr i
      = (∑ k : Fin 128, X (ix2 (i 0) k) * Wl (ix2 k (i 1))) + bl (ix1 (i 1)) + ∑ k : Fin 128, Y (ix2 (i 0) k) * Wr (ix2 k (i 1)) := by
  conv_lhs => rw [eq_ix2 i]
  exact linRef128_apply X Y Wl Wr bl (i 0) (i 1)

/-- The reference's linear map on 256 input features — the product of the aggregated rows with `Wl`, the bias vector made
    one row and repeated down the 50000 rows, the product of the rows themselves with `Wr`, and the two sums — read at row
    `r` and column `j`:  Σₖ X(r,k)·Wl(k,j) + bl(j) + Σₖ Y(r,k)·Wr(k,j). Both products are plain ones, so each is the sum
    over the contracted coordinate; the bias broadcast reads the vector at the column. -/
theorem linRef256_apply (X Y : Cert.RefStages.A Cert.ReferenceIdeal.S50000x256) (Wl Wr : Cert.RefStages.A Cert.ReferenceIdeal.S256x256) (bl : Cert.RefStages.A Cert.ReferenceIdeal.S256)
    (r : Fin 50000) (j : Fin 256) :
    Cert.RefStages.linRef256 X Y Wl bl Wr (ix2 r j)
      = (∑ k : Fin 256, X (ix2 r k) * Wl (ix2 k j)) + bl (ix1 j) + ∑ k : Fin 256, Y (ix2 r k) * Wr (ix2 k j) := by
  unfold Cert.RefStages.linRef256 Cert.RefStages.rows256
  rw [addf_apply, addf_apply,
    Cert.LibHostReads.dot_apply Cert.ReferenceIdeal.dot_S50000x256_S256x256_S50000x256_1_0_0_1_n_n rfl X Wl r j,
    Cert.LibHostReads.dot_apply Cert.ReferenceIdeal.dot_S50000x256_S256x256_S50000x256_1_0_0_1_n_n rfl Y Wr r j,
    Cert.LibHostReads.rowBias_apply (by decide) _ _ bl r j]

/-- The same at any index `i` of the [50000,256] result, by its two coordinates. -/
theorem linRef256_apply_idx (X Y : Cert.RefStages.A Cert.ReferenceIdeal.S50000x256) (Wl Wr : Cert.RefStages.A Cert.ReferenceIdeal.S256x256) (bl : Cert.RefStages.A Cert.ReferenceIdeal.S256)
    (i : Cert.ReferenceIdeal.S50000x256.Idx) :
    Cert.RefStages.linRef256 X Y Wl bl Wr i
      = (∑ k : Fin 256, X (ix2 (i 0) k) * Wl (ix2 k (i 1))) + bl (ix1 (i 1)) + ∑ k : Fin 256, Y (ix2 (i 0) k) * Wr (ix2 k (i 1)) := by
  conv_lhs => rw [eq_ix2 i]
  exact linRef256_apply X Y Wl Wr bl (i 0) (i 1)

/-- The bias vector of 256 entries laid out as one row reads, at column `j` of that row, the vector at `j`: the kernel's
    bias row meets the reference's bias vector. -/
theorem asRow256_apply (bl : Cert.Stages.Arr Cert.KernelIdeal.S256 .f32) (u : Fin 1) (j : Fin 256) :
    Cert.Stages.asRow256 bl (ix2 u j) = bl (ix1 j) := by
  unfold Cert.Stages.asRow256
  exact shapeCast_a_1a_apply _ _ u j

/-- Region 0's side meets the reference's: when the ten blocks the grid points see are the consecutive row blocks of
    the whole arrays `X` (aggregated) and `Y` (features), and the kernel's bias row is the bias vector laid out as one
    row, the linear value of row `R` in column `j` on the kernel's side is the reference's linear map at (R, j). -/
theorem lin0_eq_linRef128 (A H : Fin 10 → Vec Ideal Cert.KernelIdeal.S5000x128 .f32) (X Y : Vec Ideal Cert.KernelIdeal.S50000x128 .f32)
    (Wl Wr : Vec Ideal Cert.KernelIdeal.S128x256 .f32) (bl : Vec Ideal Cert.KernelIdeal.S256 .f32)
    (hA : ∀ (t : Fin 10) (q : Fin 5000) (k : Fin 128), A t (ix2 q k) = X (ix2 (Cert.KernelIdeal.LinVal.rowOf t q) k))
    (hH : ∀ (t : Fin 10) (q : Fin 5000) (k : Fin 128), H t (ix2 q k) = Y (ix2 (Cert.KernelIdeal.LinVal.rowOf t q) k))
    (R : Fin 50000) (j : Fin 256) :
    Cert.KernelIdeal.LinVal.lin0 A H Wl (Cert.Stages.asRow256 bl) Wr R j
      = Cert.RefStages.linRef128 X Y Wl bl Wr (ix2 R j) := by
  rw [Cert.KernelIdeal.LinVal.lin0_of_rows A H Wl (Cert.Stages.asRow256 bl) Wr X Y hA hH R j, asRow256_apply]
  exact (linRef128_apply X Y Wl Wr bl R j).symm

/-- Region 2's side meets the reference's: when the ten blocks the grid points see are the consecutive row blocks of
    the whole arrays `X` (aggregated) and `Y` (features), and the kernel's bias row is the bias vector laid out as one
    row, the linear value of row `R` in column `j` on the kernel's side is the reference's linear map at (R, j). -/
theorem lin2_eq_linRef256 (A H : Fin 10 → Vec Ideal Cert.KernelIdeal.S5000x256 .f32) (X Y : Vec Ideal Cert.KernelIdeal.S50000x256 .f32)
    (Wl Wr : Vec Ideal Cert.KernelIdeal.S256x256 .f32) (bl : Vec Ideal Cert.KernelIdeal.S256 .f32)
    (hA : ∀ (t : Fin 10) (q : Fin 5000) (k : Fin 256), A t (ix2 q k) = X (ix2 (Cert.KernelIdeal.LinVal.rowOf t q) k))
    (hH : ∀ (t : Fin 10) (q : Fin 5000) (k : Fin 256), H t (ix2 q k) = Y (ix2 (Cert.KernelIdeal.LinVal.rowOf t q) k))
    (R : Fin 50000) (j : Fin 256) :
    Cert.KernelIdeal.LinVal.lin2 A H Wl (Cert.Stages.asRow256 bl) Wr R j
      = Cert.RefStages.linRef256 X Y Wl bl Wr (ix2 R j) := by
  rw [Cert.KernelIdeal.LinVal.lin2_of_rows A H Wl (Cert.Stages.asRow256 bl) Wr X Y hA hH R j, asRow256_apply]
  exact (linRef256_apply X Y Wl Wr bl R j).symm

/-- Region 4's side meets the reference's: when the ten blocks the grid points see are the consecutive row blocks of
    the whole arrays `X` (aggregated) and `Y` (features), and the kernel's bias row is the bias vector laid out as one
    row, the linear value of row `R` in column `j` on the kernel's side is the reference's linear map at (R, j). -/
theorem lin4_eq_linRef256 (A H : Fin 10 → Vec Ideal Cert.KernelIdeal.S5000x256 .f32) (X Y : Vec Ideal Cert.KernelIdeal.S50000x256 .f32)
    (Wl Wr : Vec Ideal Cert.KernelIdeal.S256x256 .f32) (bl : Vec Ideal Cert.KernelIdeal.S256 .f32)
    (hA : ∀ (t : Fin 10) (q : Fin 5000) (k : Fin 256), A t (ix2 q k) = X (ix2 (Cert.KernelIdeal.LinVal.rowOf t q) k))
    (hH : ∀ (t : Fin 10) (q : Fin 5000) (k : Fin 256), H t (ix2 q k) = Y (ix2 (Cert.KernelIdeal.LinVal.rowOf t q) k))
    (R : Fin 50000) (j : Fin 256) :
    Cert.KernelIdeal.LinVal.lin4 A H Wl (Cert.Stages.asRow256 bl) Wr R j
      = Cert.RefStages.linRef256 X Y Wl bl Wr (ix2 R j) := by
  rw [Cert.KernelIdeal.LinVal.lin4_of_rows A H Wl (Cert.Stages.asRow256 bl) Wr X Y hA hH R j, asRow256_apply]
  exact (linRef256_apply X Y Wl Wr bl R j).symm

end Cert.LinBridge
-- ==== Proof.Spec.Finite.lean ====
/-
  Closure of "is a real number" among the extended reals under every operation the two programs apply
  to their values, so that no value either program computes from real inputs is an infinity.

  An extended real is FINITE when it is the coercion of a real. Finite values are closed under sum,
  difference, product, negation and maximum, under finite sums and finite sums of products (an entry of a
  matrix product: the accumulator's entry plus the contraction), under the maximum with 1 — which is
  moreover at least 1 —, under the quotient of 1 by a real that is at least 1, under a choice between two
  finite values by a bit, and under the conversion of an integer. An entry of an accumulating scatter is
  the operand's entry plus the sum of the updates that land on it, a finite sum: finite when the operand's
  and the updates' entries are. An entry of a gather is an entry of its operand. A sum along one axis is
  its initial value plus a finite sum.
-/
import Idealize.ShloMosaic.PureOps.Ideal
import Idealize.ShloMosaic.PureOps.Ideal.Laws
import Idealize.ShloMosaic.Lib.ValueIdx
import proofs.«144042_j23673859736035_1_alg».proof.Proof.LibBatchVar
import proofs.«144042_j23673859736035_1_alg».proof.Proof.Spec.Words

noncomputable section

namespace Cert.Spec

open Idealize.ShloMosaic
open scoped BigOperators

export Cert.LibBatchVar (IsFinite finite_coe finite_zero finite_one finite_add finite_neg finite_sub finite_mul
  finite_max finite_sign finite_div_coe finite_sum finite_univ_sum finite_sum_mul coe_sum coe_max exists_real_family)

/-! ## The words -/

theorem finite_w50000 : IsFinite (Ideal.ofBits .f32 0x47435000#32) := ⟨_, w50000⟩
theorem finite_wEps : IsFinite (Ideal.ofBits .f32 0x3727C5AC#32) := ⟨_, wEps⟩
theorem finite_wSlope : IsFinite (Ideal.ofBits .f32 0x3D2F8D5C#32) := ⟨_, wSlope⟩
theorem finite_wOne : IsFinite (Ideal.ofBits .f32 0x3F800000#32) := ⟨_, wOne_coe⟩
theorem finite_wZero : IsFinite (Ideal.ofBits .f32 0x00000000#32) := ⟨_, wZero_coe⟩

/-- An integer converted to a float is a real. -/
theorem finite_sitofp {w : Nat} (b : BitVec w) : IsFinite (((b.toInt : ℝ)) : EReal) := ⟨_, rfl⟩

/-! ## The maximum with 1, and the quotient of 1 by it -/

/-- The maximum of a finite value with 1 is a real that is at least 1. -/
theorem max_one_real {x : EReal} (hx : IsFinite x) : ∃ r : ℝ, 1 ≤ r ∧ max x 1 = (r : EReal) := by
  obtain ⟨a, rfl⟩ := hx
  exact ⟨max a 1, le_max_right a 1, by rw [coe_max, EReal.coe_one]⟩

theorem finite_max_one {x : EReal} (hx : IsFinite x) : IsFinite (max x 1) := by
  obtain ⟨r, _, h⟩ := max_one_real hx; exact ⟨r, h⟩

/-- The quotient of 1 by a real that is at least 1 is a real in (0, 1]. -/
theorem one_div_real {r : ℝ} (hr : 1 ≤ r) : ∃ q : ℝ, 0 < q ∧ q ≤ 1 ∧ Ideal.div 1 (r : EReal) = (q : EReal) := by
  have hpos : 0 < r := lt_of_lt_of_le one_pos hr
  refine ⟨1 / r, by positivity, by rw [div_le_one hpos]; exact hr, ?_⟩
  rw [Ideal.div_coe hpos.ne', one_mul]

theorem finite_one_div {r : ℝ} (hr : 1 ≤ r) : IsFinite (Ideal.div 1 (r : EReal)) := by
  obtain ⟨q, _, _, h⟩ := one_div_real hr; exact ⟨q, h⟩

/-- The reciprocal of "the maximum of a finite count with 1": a real in (0, 1]. -/
theorem finite_one_div_max_one {x : EReal} (hx : IsFinite x) : IsFinite (Ideal.div 1 (max x 1)) := by
  obtain ⟨r, hr, h⟩ := max_one_real hx
  rw [h]; exact finite_one_div hr

/-- The same with both ones spelt as the f32 word of 1. -/
theorem finite_wOne_div_max_wOne {x : EReal} (hx : IsFinite x) :
    IsFinite (Ideal.div (Ideal.ofBits .f32 0x3F800000#32) (max x (Ideal.ofBits .f32 0x3F800000#32))) := by
  rw [wOne]; exact finite_one_div_max_one hx

/-- A finite value divided by "the maximum of a finite count with 1" (a mean over a group that may be empty). -/
theorem finite_div_max_one {y x : EReal} (hy : IsFinite y) (hx : IsFinite x) : IsFinite (Ideal.div y (max x 1)) := by
  obtain ⟨r, hr, h⟩ := max_one_real hx
  rw [h]; exact finite_div_coe hy (lt_of_lt_of_le one_pos hr).ne'

theorem finite_div_max_wOne {y x : EReal} (hy : IsFinite y) (hx : IsFinite x) :
    IsFinite (Ideal.div y (max x (Ideal.ofBits .f32 0x3F800000#32))) := by
  rw [wOne]; exact finite_div_max_one hy hx

/-! ## A choice by a bit -/

/-- A choice between two finite values is finite, whatever the bit. -/
theorem finite_select (c : BitVec 1) {a b : EReal} (ha : IsFinite a) (hb : IsFinite b) :
    IsFinite (Scalar.select c a b) := by
  unfold Scalar.select; split
  · exact ha
  · exact hb

/-- The leaky rectifier of a finite value — the value where it is positive, a finite multiple of it elsewhere — is finite. -/
theorem finite_leaky {v k z : EReal} (hv : IsFinite v) (hk : IsFinite k) (p : CmpFPredicate) :
    IsFinite (Scalar.select (Ideal.cmp p v z) v (k * v)) :=
  finite_select _ hv (finite_mul hk hv)

/-! ## Entries of the array operations -/

/-- An entry of a matrix product onto an accumulator: the accumulator's entry plus the contraction. -/
theorem finite_matmul {sl sr so : Shape} (d : DotDims sl sr so) (lhs : sl.Idx → EReal) (rhs : sr.Idx → EReal)
    (acc : so.Idx → EReal) (hl : ∀ i, IsFinite (lhs i)) (hr : ∀ i, IsFinite (rhs i)) (ha : ∀ j, IsFinite (acc j))
    (j : so.Idx) : IsFinite (Ideal.matmul d lhs rhs acc j) :=
  finite_add (ha j) (finite_sum_mul _ _ (fun _ => hl _) (fun _ => hr _))

/-- An entry of the host's matrix product: the contraction alone. -/
theorem finite_dotGeneral {sl sr so : Shape} {φ₁ φ₂ : FTy} (d : DotDims sl sr so) (prec : Option ContractPrecision)
    (sched : HostSchedule) (lhs : FVec Ideal sl φ₁) (rhs : FVec Ideal sr φ₂) (hl : ∀ i, IsFinite (lhs i))
    (hr : ∀ i, IsFinite (rhs i)) (j : so.Idx) : IsFinite (FloatOps.dotGeneral d prec sched lhs rhs j) := by
  rw [Ideal.dotGeneral_apply]
  exact finite_sum_mul _ _ (fun _ => hl _) (fun _ => hr _)

/-- An entry of the host's sum along axes: the initial value plus a finite sum of entries. -/
theorem finite_hostReduceAdd {s : Shape} {axes : List (Fin s.rank)} {t : Shape} (h : s.ReducesTo axes t) (x : s.Idx → EReal)
    (init : EReal) (hx : ∀ i, IsFinite (x i)) (hi : IsFinite init) (j : t.Idx) :
    IsFinite (Ideal.hostReduceAdd h x init j) :=
  finite_add hi (finite_sum _ _ fun i _ => hx i)

/-- An entry of a kernel's sum along axes: a finite sum of entries. -/
theorem finite_reduceAdd {s : Shape} {axes : List (Fin s.rank)} {t : Shape} (h : s.Reduces axes t) (x : s.Idx → EReal)
    (hx : ∀ i, IsFinite (x i)) (j : t.Idx) : IsFinite (Ideal.reduceAdd h x j) :=
  finite_sum _ _ fun i _ => hx i

/-- An entry of the accumulating scatter: the operand's entry plus the sum of the updates that land on it. -/
theorem finite_hostScatterAdd {s si su : Shape} (d : ScatterDims s si su) {w : Nat} (x : s.Idx → EReal) (idx : IVec si w)
    (upd : su.Idx → EReal) (hx : ∀ i, IsFinite (x i)) (hu : ∀ j, IsFinite (upd j)) (i : s.Idx) :
    IsFinite (Ideal.hostScatterAdd d x idx upd i) :=
  finite_add (hx i) (finite_sum _ _ fun j _ => hu j)

/-- The same, of the host operation as a program spells it. -/
theorem finite_scatterAdd {s si su : Shape} {φ : FTy} (d : ScatterDims s si su) {w : Nat} (x : FVec Ideal s φ)
    (idx : IVec si w) (upd : FVec Ideal su φ) (hx : ∀ i, IsFinite (x i)) (hu : ∀ j, IsFinite (upd j)) (i : s.Idx) :
    IsFinite (Host.scatterAdd d x idx upd i) :=
  finite_hostScatterAdd d x idx upd hx hu i

/-- An entry of a gather is an entry of its operand. -/
theorem finite_gather {s si t : Shape} {w : Nat} (d : GatherDims s si t) (x : s.Idx → EReal) (idx : IVec si w)
    (hx : ∀ i, IsFinite (x i)) (j : t.Idx) : IsFinite (Host.gather d x idx j) :=
  hx _

end Cert.Spec

end
-- ==== Proof.Bridge.FiniteStages.lean ====
/-
  Every intermediate array of the graph network has only real entries when the inputs do.

  An array is REAL when each of its entries is a real number among the extended reals. Re-indexings (a broadcast, a
  reshape, a slice, a gather) only repeat entries of their operand, so they keep an array real, for any integer
  indices whatever. Entrywise sums, differences and products of real arrays are real. An entry of an accumulating
  scatter is the operand's entry plus a finite sum of update entries, whichever updates land there — none, when an
  index falls outside —, so scattering real updates into a real operand is real, again for any indices.

  The in-degree of a node is a scatter of ones into zeros, a real; its maximum with 1 is a real that is at least 1;
  so the inverse degree 1 / max(deg, 1) is a real. The mean aggregation is a product of a scatter of a gather with
  a broadcast of the inverse degrees. An entry of a dense layer is a finite sum of products plus a bias entry plus a
  finite sum of products. A column of 50000 reals has a real mean and a real nonnegative variance, so the reciprocal
  square root of "variance plus a positive ε" is a real, the normalised affine value is a real, and the leaky
  rectifier of it — a choice between it and a real multiple of it — is a real.
-/
import proofs.«144042_j23673859736035_1_alg».proof.Proof.Bridge.Stages
import proofs.«144042_j23673859736035_1_alg».proof.Proof.PreFinite
import proofs.«144042_j23673859736035_1_alg».proof.Proof.KI.NormElt
import proofs.«144042_j23673859736035_1_alg».proof.Proof.KI.LinStatsSpec
import proofs.«144042_j23673859736035_1_alg».proof.Proof.Spec.Finite
import proofs.«144042_j23673859736035_1_alg».proof.Proof.Spec.Norm

noncomputable section

namespace Cert.Bridge

open Idealize.ShloMosaic Idealize.ShloMosaic.ValueIdx
open Cert.KernelIdeal Cert.KernelIdeal.Gen Cert.KernelIdeal.Hand
open Cert.PreFinite (IsReal)
open Cert.Spec
open Cert.Stages (Arr)
open scoped BigOperators

/-! ## Re-indexings and entrywise arithmetic keep an array real -/

section Toolkit
variable {s t : Shape}

theorem real_broadcastInDim (dims : Fin s.rank → Fin t.rank) (h : s.BroadcastsInDim t dims) {x : FVec Ideal s .f32}
    (hx : IsReal x) : IsReal (broadcastInDim t dims h x) := fun _ => hx _

theorem real_broadcastTo {x : FVec Ideal s .f32} (h : s.Broadcasts t) (hx : IsReal x) : IsReal (broadcastTo t x h) :=
  fun _ => hx _

theorem real_shapeCast {x : FVec Ideal s .f32} (h : s.ShapeCasts t) (hx : IsReal x) : IsReal (shapeCast t x h) :=
  fun _ => hx _

theorem real_slice (off : Fin s.rank → Nat) {x : FVec Ideal s .f32} (h : s.Slices off t) (hx : IsReal x) :
    IsReal (extractStridedSlice t off x h) := fun _ => hx _

/-- A splat of a word that denotes a real. -/
theorem real_constant (s : Shape) {b : BitVec 32} (hb : IsFinite (Ideal.ofBits .f32 b)) :
    IsReal (constant (F := Ideal) s .f32 b) := fun _ => hb

theorem real_addf {x y : FVec Ideal s .f32} (hx : IsReal x) (hy : IsReal y) : IsReal (addf x y) :=
  fun i => finite_add (hx i) (hy i)

theorem real_subf {x y : FVec Ideal s .f32} (hx : IsReal x) (hy : IsReal y) : IsReal (subf x y) :=
  fun i => finite_sub (hx i) (hy i)

theorem real_mulf {x y : FVec Ideal s .f32} (hx : IsReal x) (hy : IsReal y) : IsReal (mulf x y) :=
  fun i => finite_mul (hx i) (hy i)

/-- A gather only repeats entries of its operand, at any indices. -/
theorem real_gather {si : Shape} {w : Nat} (d : GatherDims s si t) {x : FVec Ideal s .f32} (idx : IVec si w)
    (hx : IsReal x) : IsReal (Host.gather d x idx) := fun _ => hx _

/-- An accumulating scatter of real updates into a real operand, at any indices. -/
theorem real_scatterAdd {si su : Shape} {w : Nat} (d : ScatterDims s si su) {x : FVec Ideal s .f32} (idx : IVec si w)
    {upd : FVec Ideal su .f32} (hx : IsReal x) (hu : IsReal upd) : IsReal (Host.scatterAdd d x idx upd) :=
  fun i => finite_scatterAdd d x idx upd hx hu i

/-- A quotient of arrays whose divisor is an entrywise maximum, read at an entry. -/
theorem divf_maximumf_apply (a x c : FVec Ideal s .f32) (i : s.Idx) :
    Host.divf a (maximumf x c) i = Ideal.div (a i) (max (x i) (c i)) := rfl

/-- A broadcast scalar splat reads the word's value at every entry. -/
theorem bcast_constant_apply (dims : Fin S_.rank → Fin t.rank) (h : S_.BroadcastsInDim t dims) (b : BitVec 32) (j : t.Idx) :
    broadcastInDim t dims h (constant (F := Ideal) S_ .f32 b) j = Ideal.ofBits .f32 b := rfl

end Toolkit

/-! ## The host stages -/

/-- The inverse in-degree column is real, for any destinations. -/
theorem invDeg_real (dst : Arr S800000 .i32) : IsReal (Cert.Stages.invDeg dst) := by
  unfold Cert.Stages.invDeg
  refine real_broadcastInDim _ _ ?_
  intro i
  rw [divf_maximumf_apply, bcast_constant_apply]
  exact finite_wOne_div_max_wOne
    (real_scatterAdd _ _ (real_broadcastInDim _ _ (real_constant _ finite_wZero))
      (real_broadcastInDim _ _ (real_constant _ finite_wOne)) i)

/-- The mean aggregation of 128 features is real, for any sources and destinations. -/
theorem agg128_real (src dst : Arr S800000 .i32) {invdeg : Arr S50000x1 .f32} {x : Arr S50000x128 .f32}
    (hx : IsReal x) (hi : IsReal invdeg) : IsReal (Cert.Stages.agg128 src dst invdeg x) := by
  unfold Cert.Stages.agg128
  exact real_mulf
    (real_scatterAdd _ _ (real_broadcastInDim _ _ (real_constant _ finite_wZero)) (real_gather _ _ hx))
    (real_broadcastInDim _ _ hi)

/-- The mean aggregation of 256 features is real, for any sources and destinations. -/
theorem agg256_real (src dst : Arr S800000 .i32) {invdeg : Arr S50000x1 .f32} {h : Arr S50000x256 .f32}
    (hh : IsReal h) (hi : IsReal invdeg) : IsReal (Cert.Stages.agg256 src dst invdeg h) := by
  unfold Cert.Stages.agg256
  exact real_mulf
    (real_scatterAdd _ _ (real_broadcastInDim _ _ (real_constant _ finite_wZero)) (real_gather _ _ hh))
    (real_broadcastInDim _ _ hi)

/-- A row of a stack of three rows. -/
theorem row3_real (k : ℕ) {a : Arr S3x256 .f32} (h : S3x256.Slices ![k, 0] S1x256) (ha : IsReal a) :
    IsReal (Cert.Stages.row3 k a h) := by
  unfold Cert.Stages.row3; exact real_shapeCast _ (real_slice _ _ ha)

/-- A row of a stack of two rows. -/
theorem row2_real (k : ℕ) {a : Arr S2x256 .f32} (h : S2x256.Slices ![k, 0] S1x256) (ha : IsReal a) :
    IsReal (Cert.Stages.row2 k a h) := by
  unfold Cert.Stages.row2; exact real_shapeCast _ (real_slice _ _ ha)

/-- A slab of a stack of two matrices. -/
theorem mat2_real (k : ℕ) {a : Arr S2x256x256 .f32} (h : S2x256x256.Slices ![k, 0, 0] S1x256x256) (ha : IsReal a) :
    IsReal (Cert.Stages.mat2 k a h) := by
  unfold Cert.Stages.mat2; exact real_shapeCast _ (real_slice _ _ ha)

theorem asRow256_real {v : Arr S256 .f32} (hv : IsReal v) : IsReal (Cert.Stages.asRow256 v) := by
  unfold Cert.Stages.asRow256; exact real_shapeCast _ hv

theorem asRow512_real {v : Arr S512 .f32} (hv : IsReal v) : IsReal (Cert.Stages.asRow512 v) := by
  unfold Cert.Stages.asRow512; exact real_shapeCast _ hv

theorem asRow10_real {v : Arr S10 .f32} (hv : IsReal v) : IsReal (Cert.Stages.asRow10 v) := by
  unfold Cert.Stages.asRow10; exact real_shapeCast _ hv

/-! ## A dense layer's entry -/

/-- Over any finite contraction index: a sum of products, plus a bias, plus a sum of products, of reals. -/
theorem lin_entry_finite {κ κ' : Type*} [Fintype κ] [Fintype κ'] (a b : κ → EReal) (c d : κ' → EReal) (β : EReal)
    (ha : ∀ k, IsFinite (a k)) (hb : ∀ k, IsFinite (b k)) (hc : ∀ k, IsFinite (c k)) (hd : ∀ k, IsFinite (d k))
    (hβ : IsFinite β) : IsFinite ((∑ k, a k * b k) + β + ∑ k, c k * d k) :=
  finite_add (finite_add (finite_sum_mul a b ha hb) hβ) (finite_sum_mul c d hc hd)

/-- Entry (r, j) of X·Wl + bl + Y·Wr for real matrices X, Y : [M, K], Wl, Wr : [K, N] and a real row bl : [1, N]. -/
theorem lin_real {M K N : ℕ} (X Y : FVec Ideal ⟨2, ![M, K]⟩ .f32) (Wl Wr : FVec Ideal ⟨2, ![K, N]⟩ .f32)
    (bl : FVec Ideal ⟨2, ![1, N]⟩ .f32) (hX : IsReal X) (hY : IsReal Y) (hWl : IsReal Wl) (hWr : IsReal Wr)
    (hbl : IsReal bl) (r : Fin M) (j : Fin N) :
    IsFinite ((∑ k : Fin K, X (ix2 r k) * Wl (ix2 k j)) + bl (ix2 (0 : Fin 1) j) + ∑ k : Fin K, Y (ix2 r k) * Wr (ix2 k j)) :=
  lin_entry_finite _ _ _ _ _ (fun _ => hX _) (fun _ => hWl _) (fun _ => hY _) (fun _ => hWr _) (hbl _)

/-! ## The normalised layer -/

/-- One element: for a column x of 50000 reals and real γ, β, the leaky rectifier of the affine value over the
    column's own mean and variance is a real. -/
theorem normElt_finite (x : Fin 50000 → EReal) (hfin : ∀ i, ∃ r : ℝ, x i = (r : EReal)) {g b : EReal}
    (hg : IsFinite g) (hb : IsFinite b) (R : Fin 50000) :
    IsFinite (normElt (F := Ideal) (x R) (Ideal.div (∑ i, x i) (Ideal.ofBits .f32 0x47435000#32))
        (Ideal.div (∑ i, x i * x i) (Ideal.ofBits .f32 0x47435000#32)
          - Ideal.div (∑ i, x i) (Ideal.ofBits .f32 0x47435000#32) * Ideal.div (∑ i, x i) (Ideal.ofBits .f32 0x47435000#32))
        g b) :=
  finite_leaky (normalise_finite_words x hfin (by simp) hg hb R) finite_wSlope .ogt

/-- THE NORMALISED ARRAY IS REAL: for a real array L : [50000, 256], real rows γ, β : [1, 256], and rows a1, a2 that
    hold each column's mean (∑ L)/50000 and variance (∑ L·L)/50000 − mean². -/
theorem normG_real {L : S50000x256.Idx → EReal} {a1 a2 a3 a4 : S1x256.Idx → EReal} (hL : IsReal (s := S50000x256) L)
    (h3 : IsReal (s := S1x256) a3) (h4 : IsReal (s := S1x256) a4)
    (h1 : ∀ j : Fin 256, a1 (ix2 (n0 := 1) (n1 := 256) 0 j)
        = Ideal.div (∑ R : Fin 50000, L (ix2 R j)) (Ideal.ofBits .f32 0x47435000#32))
    (h2 : ∀ j : Fin 256, a2 (ix2 (n0 := 1) (n1 := 256) 0 j)
        = Ideal.div (∑ R : Fin 50000, L (ix2 R j) * L (ix2 R j)) (Ideal.ofBits .f32 0x47435000#32)
          - Ideal.div (∑ R : Fin 50000, L (ix2 R j)) (Ideal.ofBits .f32 0x47435000#32)
            * Ideal.div (∑ R : Fin 50000, L (ix2 R j)) (Ideal.ofBits .f32 0x47435000#32)) :
    IsReal (s := S50000x256) (normG (F := Ideal) L a1 a2 a3 a4) := by
  intro i
  have hi : L i = L (ix2 (i 0) (i 1)) := congrArg L (eq_ix2 i)
  show IsFinite (normElt (F := Ideal) (L i) (a1 _) (a2 _) (a3 _) (a4 _))
  rw [h1 (i 1), h2 (i 1), hi]
  exact normElt_finite (fun R : Fin 50000 => L (ix2 R (i 1))) (fun R => hL _) (h3 _) (h4 _) (i 0)

/-! ## On the named arrays -/

/-- The dense layer of inner width 128 is real. -/
theorem linArr128_real {X Y : S50000x128.Idx → EReal} {Wl Wr : S128x256.Idx → EReal} {bl : S1x256.Idx → EReal}
    (hX : IsReal (s := S50000x128) X) (hY : IsReal (s := S50000x128) Y) (hWl : IsReal (s := S128x256) Wl)
    (hWr : IsReal (s := S128x256) Wr) (hbl : IsReal (s := S1x256) bl) :
    IsReal (s := S50000x256) (linArr128 X Y Wl Wr bl) :=
  fun _ => lin_entry_finite _ _ _ _ _ (fun _ => hX _) (fun _ => hWl _) (fun _ => hY _) (fun _ => hWr _) (hbl _)

/-- The dense layer of inner width 256 is real. -/
theorem linArr256_real {X Y : S50000x256.Idx → EReal} {Wl Wr : S256x256.Idx → EReal} {bl : S1x256.Idx → EReal}
    (hX : IsReal (s := S50000x256) X) (hY : IsReal (s := S50000x256) Y) (hWl : IsReal (s := S256x256) Wl)
    (hWr : IsReal (s := S256x256) Wr) (hbl : IsReal (s := S1x256) bl) :
    IsReal (s := S50000x256) (linArr256 X Y Wl Wr bl) :=
  fun _ => lin_entry_finite _ _ _ _ _ (fun _ => hX _) (fun _ => hWl _) (fun _ => hY _) (fun _ => hWr _) (hbl _)

/-- The mean row of a real array is real. -/
theorem meanRow_real {L : S50000x256.Idx → EReal} (hL : IsReal (s := S50000x256) L) : IsReal (s := S1x256) (meanRow L) :=
  fun i => mean_finite_words (fun R : Fin 50000 => L (ix2 R (i 1))) (fun _ => hL _) (by simp)

/-- The variance row of a real array is a nonnegative real at every column. -/
theorem varRow_nonneg_real {L : S50000x256.Idx → EReal} (hL : IsReal (s := S50000x256) L) (i : S1x256.Idx) :
    ∃ w : ℝ, 0 ≤ w ∧ varRow L i = (w : EReal) :=
  var_real_words (fun R : Fin 50000 => L (ix2 R (i 1))) (fun _ => hL _) (by simp)

theorem varRow_real {L : S50000x256.Idx → EReal} (hL : IsReal (s := S50000x256) L) : IsReal (s := S1x256) (varRow L) :=
  fun i => by obtain ⟨w, _, h⟩ := varRow_nonneg_real hL i; exact ⟨w, h⟩

/-- THE NORMALISED LAYER IS REAL: the normalisation of a real array by its own mean and variance rows, with real
    scale and shift vectors. -/
theorem norm_real {L : S50000x256.Idx → EReal} {γ β : Arr S256 .f32} (hL : IsReal (s := S50000x256) L)
    (hγ : IsReal γ) (hβ : IsReal β) :
    IsReal (s := S50000x256)
      (normG (F := Ideal) L (meanRow L) (varRow L) (Cert.Stages.asRow256 γ) (Cert.Stages.asRow256 β)) :=
  normG_real hL (asRow256_real hγ) (asRow256_real hβ) (fun _ => rfl) (fun _ => rfl)

/-! ## The mean pool -/

/-- Every entry is a real that is at least 1. -/
def GeOne {s : Shape} (y : FVec Ideal s .f32) : Prop := ∀ i, ∃ r : ℝ, 1 ≤ r ∧ y i = (r : EReal)

theorem geOne_broadcastInDim {s t : Shape} (dims : Fin s.rank → Fin t.rank) (h : s.BroadcastsInDim t dims)
    {y : FVec Ideal s .f32} (hy : GeOne y) : GeOne (broadcastInDim t dims h y) := fun _ => hy _

/-- The entrywise maximum of a real array with an array of ones. -/
theorem geOne_maximumf_one {s : Shape} {x c : FVec Ideal s .f32} (hx : IsReal x)
    (hc : ∀ i, c i = Ideal.ofBits .f32 0x3F800000#32) : GeOne (maximumf x c) := fun i => by
  show ∃ r : ℝ, 1 ≤ r ∧ max (x i) (c i) = (r : EReal)
  rw [hc i, wOne]; exact max_one_real (hx i)

/-- A real array divided entrywise by an array of reals that are at least 1. -/
theorem real_hostDivf {s : Shape} {x y : FVec Ideal s .f32} (hx : IsReal x) (hy : GeOne y) : IsReal (Host.divf x y) :=
  fun i => by
    obtain ⟨r, hr, h⟩ := hy i
    show IsFinite (Ideal.div (x i) (y i))
    rw [h]; exact finite_div_coe (hx i) (lt_of_lt_of_le one_pos hr).ne'

/-- An entry of a concatenation is an entry of one of the pieces. -/
theorem real_concatenate (t : Shape) (a : Fin t.rank) (xs : List ((s : Shape) × (s.Idx → EReal)))
    (h : Shape.Concatenates (xs.map (·.1)) t a) (hxs : ∀ p ∈ xs, ∀ i, IsFinite (p.2 i)) (j : t.Idx) :
    IsFinite (concatenate t a xs h j) := by
  unfold concatenate
  exact hxs _ (List.getElem_mem _) _

/-- The pooled features joined with the graph features are real, for any graph ids. -/
theorem poolCat_real {h : Arr S50000x256 .f32} (batch : Arr S50000 .i32) {gf : Arr S64x32 .f32} (hh : IsReal h)
    (hg : IsReal gf) : IsReal (Cert.Stages.poolCat h batch gf) := by
  unfold Cert.Stages.poolCat
  refine real_concatenate _ _ _ _ ?_
  intro p hp
  simp only [List.mem_cons, List.not_mem_nil, or_false] at hp
  rcases hp with rfl | rfl
  · exact real_hostDivf
      (real_scatterAdd _ _ (real_broadcastInDim _ _ (real_constant _ finite_wZero)) hh)
      (geOne_broadcastInDim _ _ (geOne_broadcastInDim _ _
        (geOne_maximumf_one
          (real_scatterAdd _ _ (real_broadcastInDim _ _ (real_constant _ finite_wZero))
            (real_broadcastInDim _ _ (real_constant _ finite_wOne)))
          (fun i => bcast_constant_apply _ _ _ i))))
  · exact hg

end Cert.Bridge

end
-- ==== Proof.Ref.BnEntry.lean ====
import proofs.«144042_j23673859736035_1_alg».proof.Proof.Ref.OwnStages
import proofs.«144042_j23673859736035_1_alg».proof.Proof.LibHostReads
import proofs.«144042_j23673859736035_1_alg».proof.Proof.LibBatchVar
import proofs.«144042_j23673859736035_1_alg».proof.Proof.Bridge.LayerLaw
import Idealize.ShloMosaic.PureOps.Ideal.Laws

noncomputable section
namespace Cert.RefStages
open Cert.ReferenceIdeal Cert.ReferenceIdeal.Gen Idealize.ShloMosaic Idealize.ShloMosaic.ValueIdx Cert.LibHostReads
open scoped BigOperators

variable {α : Type}

/-! One entry of the reference's batch normalisation, read through its whole-array operations over the exact reals:
    every broadcast reads the entry it repeats, every sum over the nodes is the initial value plus the sum of the
    column, and the guard on the variance's divisor holds because the divisor is fifty thousand less zero. What is left
    is the leaky rectifier of `(x - μ) · γ / sqrt (σ² + ε) + β` with `μ = (0 + Σ x) / N` and the centred
    `σ² = (0 + Σ (x - μ)²) / (N - z)`, entry by entry. -/

/-- A scalar constant at its one index is the real its word denotes. -/
theorem const_apply (w : BitVec 32) : (constant (F := Ideal) S_ .f32 w) ix0 = Ideal.ofBits .f32 w := rfl

/-- Inserting the row coordinate `R` into the column index `c` gives the entry `(R, c)`. -/
theorem lift_col (h : S50000x256.Reduces [0] S256) (c : Fin 256) (R : Fin 50000) : h.lift (ix1 c) R = ix2 R c := by
  funext d; match d with
  | ⟨0, _⟩ => exact Fin.ext rfl
  | ⟨1, _⟩ => exact Fin.ext rfl

/-- A vector viewed as one row reads, at `(0, c)`, the vector at `c`. -/
theorem row_apply {n : Nat} (hn : n ≠ 1) (h1 : (⟨1, ![n]⟩ : Shape).BroadcastsInDim ⟨2, ![1, n]⟩ ![1])
    (b : (⟨1, ![n]⟩ : Shape).Idx → α) (c : Fin n) :
    broadcastInDim ⟨2, ![1, n]⟩ ![1] h1 b (ix2 (0 : Fin 1) c) = b (ix1 c) :=
  broadcastInDim_apply _ h1 b (ix2 (0 : Fin 1) c) (ix1 c) (fun a => match a with
    | ⟨0, _⟩ => by show c.val = if n = 1 then 0 else c.val; rw [if_neg hn])

/-- One row repeated down `m` rows reads, at `(r, c)`, the row at `(0, c)`. -/
theorem rowBcast_apply {m n : Nat} (hn : n ≠ 1) (h2 : (⟨2, ![1, n]⟩ : Shape).BroadcastsInDim ⟨2, ![m, n]⟩ ![0, 1])
    (Y : (⟨2, ![1, n]⟩ : Shape).Idx → α) (r : Fin m) (c : Fin n) :
    broadcastInDim ⟨2, ![m, n]⟩ ![0, 1] h2 Y (ix2 r c) = Y (ix2 (0 : Fin 1) c) :=
  broadcastInDim_apply _ h2 Y (ix2 r c) (ix2 (0 : Fin 1) c) (fun a => match a with
    | ⟨0, _⟩ => by show 0 = if (1 : Nat) = 1 then 0 else r.val; rw [if_pos rfl]
    | ⟨1, _⟩ => by show c.val = if n = 1 then 0 else c.val; rw [if_neg hn])

/-- A vector repeated down the nodes reads, at `(R, c)`, the vector at `c`. -/
theorem rows256_apply (r : A S256) (R : Fin 50000) (c : Fin 256) : rows256 r (ix2 R c) = r (ix1 c) :=
  rowBias_apply (by decide) bcast_S256_S1x256_1 bcast_S1x256_S50000x256_0_1 r R c

/-- A column's sum over the nodes: the initial zero word plus the sum of the column's entries. -/
theorem colSum_apply (x : A S50000x256) (c : Fin 256) :
    colSum x (ix1 c) = Ideal.ofBits .f32 0x00000000#32 + ∑ R : Fin 50000, (x (ix2 R c) : EReal) := by
  have h : S50000x256.Reduces [0] S256 := by decide
  show Ideal.hostReduceAdd reducesTo_S50000x256_S256_d0 x (Ideal.ofBits .f32 0x00000000#32) (ix1 c) = _
  rw [Ideal.hostReduceAdd_single reducesTo_S50000x256_S256_d0 h]
  exact congrArg _ (Finset.sum_congr rfl fun R _ => congrArg x (lift_col h c R))

/-- A column's mean: that sum over the word for fifty thousand. -/
theorem colMean_apply (x : A S50000x256) (c : Fin 256) : colMean x (ix1 c) = Ideal.div (Ideal.ofBits .f32 0x00000000#32 + ∑ R : Fin 50000, (x (ix2 R c) : EReal)) (Ideal.ofBits .f32 0x47435000#32) := by
  show Ideal.div (colSum x (ix1 c)) (broadcastInDim S256 ![] bcast_S_S256 (constant (F := Ideal) S_ .f32 0x47435000#32) (ix1 c)) = _
  rw [colSum_apply, splat_apply]; rfl

/-- The mean kept as a row reads the same quotient. -/
theorem rowMean_apply (x : A S50000x256) (c : Fin 256) : rowMean x (ix2 (0 : Fin 1) c) = Ideal.div (Ideal.ofBits .f32 0x00000000#32 + ∑ R : Fin 50000, (x (ix2 R c) : EReal)) (Ideal.ofBits .f32 0x47435000#32) := by
  show Ideal.div (broadcastInDim S1x256 ![1] bcast_S256_S1x256_1 (colSum x) (ix2 (0 : Fin 1) c))
      (broadcastInDim S1x256 ![] bcast_S_S1x256 (constant (F := Ideal) S_ .f32 0x47435000#32) (ix2 (0 : Fin 1) c)) = _
  rw [row_apply (by decide), colSum_apply, splat_apply]; rfl

/-- An entry less its column's mean. -/
theorem centred_apply (x : A S50000x256) (R : Fin 50000) (c : Fin 256) :
    centred x (ix2 R c) = (x (ix2 R c) : EReal) - Ideal.div (Ideal.ofBits .f32 0x00000000#32 + ∑ R : Fin 50000, (x (ix2 R c) : EReal)) (Ideal.ofBits .f32 0x47435000#32) := by
  show (x (ix2 R c) : EReal) - broadcastInDim S50000x256 ![0, 1] bcast_S1x256_S50000x256_0_1 (rowMean x) (ix2 R c) = _
  rw [rowBcast_apply (by decide), rowMean_apply]

/-- The correction of the variance's divisor as a real: the integer word zero. -/
def zWord : EReal := (((0#32 : BitVec 32).toInt : ℝ) : EReal)

/-- The integer word zero is the real zero. -/
theorem zWord_eq : zWord = 0 := by simp [zWord]

/-- The divisor at its one index: the word for fifty thousand less the correction. -/
theorem divisor_apply : divisor ix0 = Ideal.ofBits .f32 0x47435000#32 - zWord := rfl

/-- `0x47435000` is fifty thousand. -/
theorem ofBits_50000 : Ideal.ofBits .f32 0x47435000#32 = ((50000 : ℝ) : EReal) := by
  simp [Ideal.ofBits, Ideal.ieee, -EReal.coe_mul]; norm_num

/-- The divisor is positive, so the variance's guard holds. -/
theorem guard_true : Ideal.cmp .ogt (Ideal.ofBits .f32 0x47435000#32 - zWord) (Ideal.ofBits .f32 0x00000000#32) = 1 := by
  rw [zWord_eq, ofBits_50000, Cert.LibBatchVar.ofBits_zero, sub_zero]
  have : (0 : EReal) < ((50000 : ℝ) : EReal) := by exact_mod_cast (by norm_num : (0 : ℝ) < 50000)
  simp [Ideal.cmp, this]

/-- A column's centred variance: the guard holds, so it is the sum of squared deviations over the divisor. -/
theorem colVar_apply (x : A S50000x256) (c : Fin 256) : colVar x (ix1 c) = Ideal.div (Ideal.ofBits .f32 0x00000000#32 + ∑ R : Fin 50000, ((x (ix2 R c) : EReal) - Ideal.div (Ideal.ofBits .f32 0x00000000#32 + ∑ R : Fin 50000, (x (ix2 R c) : EReal)) (Ideal.ofBits .f32 0x47435000#32)) * ((x (ix2 R c) : EReal) - Ideal.div (Ideal.ofBits .f32 0x00000000#32 + ∑ R : Fin 50000, (x (ix2 R c) : EReal)) (Ideal.ofBits .f32 0x47435000#32))) (Ideal.ofBits .f32 0x47435000#32 - zWord) := by
  have hg : (broadcastInDim S256 ![] bcast_S_S256 (cmpf .ogt divisor (constant (F := Ideal) S_ .f32 0x00000000#32)) (ix1 c) : BitVec 1) = 1 := by
    rw [splat_apply]; exact guard_true
  have hd : (broadcastInDim S256 ![] bcast_S_S256 divisor (ix1 c) : EReal) = Ideal.ofBits .f32 0x47435000#32 - zWord := by rw [splat_apply]; rfl
  have hs : (colSum (mulf (F := Ideal) (φ := .f32) (centred x) (centred x)) (ix1 c) : EReal)
      = Ideal.ofBits .f32 0x00000000#32 + ∑ R : Fin 50000, ((x (ix2 R c) : EReal) - Ideal.div (Ideal.ofBits .f32 0x00000000#32 + ∑ R : Fin 50000, (x (ix2 R c) : EReal)) (Ideal.ofBits .f32 0x47435000#32)) * ((x (ix2 R c) : EReal) - Ideal.div (Ideal.ofBits .f32 0x00000000#32 + ∑ R : Fin 50000, (x (ix2 R c) : EReal)) (Ideal.ofBits .f32 0x47435000#32)) := by
    rw [colSum_apply]
    exact congrArg _ (Finset.sum_congr rfl fun R _ => by
      show (centred x (ix2 R c) : EReal) * (centred x (ix2 R c) : EReal) = _
      rw [centred_apply])
  show Scalar.select (broadcastInDim S256 ![] bcast_S_S256 (cmpf .ogt divisor (constant (F := Ideal) S_ .f32 0x00000000#32)) (ix1 c))
      (Ideal.div (colSum (mulf (F := Ideal) (φ := .f32) (centred x) (centred x)) (ix1 c)) (broadcastInDim S256 ![] bcast_S_S256 divisor (ix1 c)))
      (broadcastInDim S256 ![] bcast_S_S256 (constant (F := Ideal) S_ .f32 0x7FC00000#32) (ix1 c)) = _
  rw [hg, hd, hs]; rfl

/-- The scale at a column: `γ / sqrt (σ² + ε)`. -/
theorem bnScale_apply (x : A S50000x256) (g : A S256) (c : Fin 256) :
    bnScale x g (ix1 c) = Ideal.div (g (ix1 c)) (Ideal.sqrt (Ideal.div (Ideal.ofBits .f32 0x00000000#32 + ∑ R : Fin 50000, ((x (ix2 R c) : EReal) - Ideal.div (Ideal.ofBits .f32 0x00000000#32 + ∑ R : Fin 50000, (x (ix2 R c) : EReal)) (Ideal.ofBits .f32 0x47435000#32)) * ((x (ix2 R c) : EReal) - Ideal.div (Ideal.ofBits .f32 0x00000000#32 + ∑ R : Fin 50000, (x (ix2 R c) : EReal)) (Ideal.ofBits .f32 0x47435000#32))) (Ideal.ofBits .f32 0x47435000#32 - zWord) + Ideal.ofBits .f32 0x3727C5AC#32)) := by
  show Ideal.div (g (ix1 c)) (Ideal.sqrt ((colVar x (ix1 c) : EReal)
      + broadcastInDim S256 ![] bcast_S_S256 (constant (F := Ideal) S_ .f32 0x3727C5AC#32) (ix1 c))) = _
  rw [colVar_apply, splat_apply]; rfl

/-- The leaky rectifier acts entry by entry. -/
theorem leaky256_apply (y : A S50000x256) (i : S50000x256.Idx) : leaky256 y i = Cert.Bridge.leaky (y i) := by
  show Scalar.select (Ideal.cmp .ogt (y i) (broadcastInDim S50000x256 ![] bcast_S_S50000x256 (constant (F := Ideal) S_ .f32 0x00000000#32) i)) (y i)
      ((broadcastInDim S50000x256 ![] bcast_S_S50000x256 (constant (F := Ideal) S_ .f32 0x3D2F8D5C#32) i : EReal) * y i) = _
  rw [splat_apply, splat_apply]; rfl

/-- One entry of the normalised layer: the leaky rectifier of the affine value over the column's own statistics. -/
theorem bnLeaky_at (L : A S50000x256) (g b : A S256) (R : Fin 50000) (c : Fin 256) :
    bnLeaky L g b (ix2 R c) = Cert.Bridge.leaky (((L (ix2 R c) : EReal) - Ideal.div (Ideal.ofBits .f32 0x00000000#32 + ∑ R : Fin 50000, (L (ix2 R c) : EReal)) (Ideal.ofBits .f32 0x47435000#32)) * Ideal.div (g (ix1 c)) (Ideal.sqrt (Ideal.div (Ideal.ofBits .f32 0x00000000#32 + ∑ R : Fin 50000, ((L (ix2 R c) : EReal) - Ideal.div (Ideal.ofBits .f32 0x00000000#32 + ∑ R : Fin 50000, (L (ix2 R c) : EReal)) (Ideal.ofBits .f32 0x47435000#32)) * ((L (ix2 R c) : EReal) - Ideal.div (Ideal.ofBits .f32 0x00000000#32 + ∑ R : Fin 50000, (L (ix2 R c) : EReal)) (Ideal.ofBits .f32 0x47435000#32))) (Ideal.ofBits .f32 0x47435000#32 - zWord) + Ideal.ofBits .f32 0x3727C5AC#32)) + b (ix1 c)) := by
  rw [show bnLeaky L g b = leaky256 (addf (F := Ideal) (φ := .f32) (bnScaled L g) (rows256 b)) from rfl, leaky256_apply]
  refine congrArg Cert.Bridge.leaky ?_
  show ((L (ix2 R c) : EReal) - rows256 (colMean L) (ix2 R c)) * rows256 (bnScale L g) (ix2 R c) + rows256 b (ix2 R c) = _
  rw [rows256_apply, rows256_apply, rows256_apply, colMean_apply, bnScale_apply]

/-- The same entry as the other program computes it: over a column of real numbers the centred variance is the mean of squares less the squared mean, so the two normalisations agree. -/
theorem bnLeaky_entry (L : A S50000x256) (g b : A S256) (R : Fin 50000) (c : Fin 256)
    (hfin : ∀ R' : Fin 50000, ∃ r : ℝ, (L (ix2 R' c) : EReal) = (r : EReal)) :
    bnLeaky L g b (ix2 R c)
      = Cert.KernelIdeal.Hand.normElt (F := Ideal) (L (ix2 R c) : EReal)
          (Ideal.div (∑ i : Fin 50000, (L (ix2 i c) : EReal)) (Ideal.ofBits .f32 0x47435000#32))
          (Ideal.div (∑ i : Fin 50000, (L (ix2 i c) : EReal) * (L (ix2 i c) : EReal)) (Ideal.ofBits .f32 0x47435000#32)
            - Ideal.div (∑ i : Fin 50000, (L (ix2 i c) : EReal)) (Ideal.ofBits .f32 0x47435000#32) * Ideal.div (∑ i : Fin 50000, (L (ix2 i c) : EReal)) (Ideal.ofBits .f32 0x47435000#32))
          (g (ix1 c)) (b (ix1 c)) :=
  (bnLeaky_at L g b R c).trans (Cert.Bridge.layer_entry (fun R' : Fin 50000 => (L (ix2 R' c) : EReal)) hfin zWord_eq (g (ix1 c)) (b (ix1 c)) R).symm

/-- The entry at any index, through its two coordinates. -/
theorem bnLeaky_at_idx (L : A S50000x256) (g b : A S256) (i : S50000x256.Idx) :
    bnLeaky L g b i = Cert.Bridge.leaky (((L (ix2 (i 0) (i 1)) : EReal) - Ideal.div (Ideal.ofBits .f32 0x00000000#32 + ∑ R : Fin 50000, (L (ix2 R (i 1)) : EReal)) (Ideal.ofBits .f32 0x47435000#32)) * Ideal.div (g (ix1 (i 1))) (Ideal.sqrt (Ideal.div (Ideal.ofBits .f32 0x00000000#32 + ∑ R : Fin 50000, ((L (ix2 R (i 1)) : EReal) - Ideal.div (Ideal.ofBits .f32 0x00000000#32 + ∑ R : Fin 50000, (L (ix2 R (i 1)) : EReal)) (Ideal.ofBits .f32 0x47435000#32)) * ((L (ix2 R (i 1)) : EReal) - Ideal.div (Ideal.ofBits .f32 0x00000000#32 + ∑ R : Fin 50000, (L (ix2 R (i 1)) : EReal)) (Ideal.ofBits .f32 0x47435000#32))) (Ideal.ofBits .f32 0x47435000#32 - zWord) + Ideal.ofBits .f32 0x3727C5AC#32)) + b (ix1 (i 1))) :=
  (congrArg (bnLeaky L g b) (eq_ix2 i)).trans (bnLeaky_at L g b (i 0) (i 1))

end Cert.RefStages
end
-- ==== Proof.Ref.BnRead.lean ====
import proofs.«144042_j23673859736035_1_alg».proof.Proof.Ref.BnEntry
import proofs.«144042_j23673859736035_1_alg».proof.Proof.Bridge.LayerBridge

noncomputable section

namespace Cert.RefStages

open Cert.ReferenceIdeal Idealize.ShloMosaic Idealize.ShloMosaic.ValueIdx

/-- One entry of the reference's normalised layer is the leaky rectifier of its affine value over the entry's column:
    `(x R - μ) · γ / sqrt (σ² + ε) + β`, the column `x` being the array's column through the entry, `μ` and the centred
    `σ²` that column's own, and the divisor's correction the converted integer word. -/
theorem bnLeaky_apply (L : A S50000x256) (g b : A S256) (i : S50000x256.Idx) :
    bnLeaky L g b i
      = Cert.Bridge.leaky (Cert.Bridge.refAffine (fun R : Fin 50000 => L (ix2 (n0 := 50000) (n1 := 256) R (i 1))) zWord
          (g (ix1 (i 1))) (b (ix1 (i 1))) (i 0)) :=
  bnLeaky_at_idx L g b i

/-- The divisor's correction is zero. -/
theorem ddof_zero : zWord = 0 := zWord_eq

end Cert.RefStages

end
-- ==== Proof.KI.MlpHost6.lean ====
/- The reference's last stretch — three host layers with the rectifier between them, on the pooled features and the
   perceptron's weights and rank-1 biases — written in the reference program's own operations, is the specification
   `mlpG` over the biases cast to rows. -/
import proofs.«144042_j23673859736035_1_alg».proof.Proof.Gen.ReferenceIdeal
import proofs.«144042_j23673859736035_1_alg».proof.Proof.KI.MlpSpec6

noncomputable section

namespace Cert.KernelIdeal.Hand.Mlp

open Cert.ReferenceIdeal Cert.ReferenceIdeal.Gen
open Idealize.ShloMosaic Idealize.ShloMosaic.ValueIdx
open scoped BigOperators

/-- Each of the reference's three dimension records is the plain one. -/
theorem rdot1_eq : Cert.ReferenceIdeal.dot_S64x288_S288x512_S64x512_1_0_0_1_n_n = DotDims.plain 64 288 512 := rfl
theorem rdot2_eq : Cert.ReferenceIdeal.dot_S64x512_S512x512_S64x512_1_0_0_1_n_n = DotDims.plain 64 512 512 := rfl
theorem rdot3_eq : Cert.ReferenceIdeal.dot_S64x512_S512x10_S64x10_1_0_0_1_n_n = DotDims.plain 64 512 10 := rfl

/-- The rectifier in the reference's operations: the comparison with the scalar zero spread over the shape, and the
    select (the reference's outlined `where`) between the value and the scalar slope spread over the shape times it. -/
def refLeaky (h : FVec Ideal S64x512 .f32) : FVec Ideal S64x512 .f32 :=
  select (cmpf .ogt h (broadcastInDim S64x512 ![] bcast_S_S64x512 (constant (F := Ideal) S_ .f32 0x00000000#32))) h
    (mulf (broadcastInDim S64x512 ![] bcast_S_S64x512 (constant (F := Ideal) S_ .f32 0x3D2F8D5C#32)) h)

/-- The reference's perceptron in its own operations, from the features `z`, the weights and the rank-1 biases. -/
def refMlp (z : FVec Ideal S64x288 .f32) (W1 : FVec Ideal S288x512 .f32) (b1 : FVec Ideal S512 .f32)
    (W2 : FVec Ideal S512x512 .f32) (b2 : FVec Ideal S512 .f32) (W3 : FVec Ideal S512x10 .f32) (b3 : FVec Ideal S10 .f32) :
    FVec Ideal S64x10 .f32 :=
  addf (Host.dotGeneral dot_S64x512_S512x10_S64x10_1_0_0_1_n_n none
      (refLeaky (addf (Host.dotGeneral dot_S64x512_S512x512_S64x512_1_0_0_1_n_n none
          (refLeaky (addf (Host.dotGeneral dot_S64x288_S288x512_S64x512_1_0_0_1_n_n none z W1)
            (broadcastInDim S64x512 ![0, 1] bcast_S1x512_S64x512_0_1 (broadcastInDim S1x512 ![1] bcast_S512_S1x512_1 b1))))
          W2)
        (broadcastInDim S64x512 ![0, 1] bcast_S1x512_S64x512_0_1 (broadcastInDim S1x512 ![1] bcast_S512_S1x512_1 b2))))
      W3)
    (broadcastInDim S64x10 ![0, 1] bcast_S1x10_S64x10_0_1 (broadcastInDim S1x10 ![1] bcast_S10_S1x10_1 b3))

/-- THE REFERENCE'S PERCEPTRON IS THE SPECIFICATION over the biases cast to rows, whatever the proofs that the casts are
    casts. -/
theorem refMlp_eq (z : FVec Ideal S64x288 .f32) (W1 : FVec Ideal S288x512 .f32) (b1 : FVec Ideal S512 .f32)
    (W2 : FVec Ideal S512x512 .f32) (b2 : FVec Ideal S512 .f32) (W3 : FVec Ideal S512x10 .f32) (b3 : FVec Ideal S10 .f32)
    (c512 : S512.ShapeCasts S1x512) (c10 : S10.ShapeCasts S1x10) :
    refMlp z W1 b1 W2 b2 W3 b3
      = mlpG z W1 (shapeCast S1x512 b1 c512) W2 (shapeCast S1x512 b2 c512) W3 (shapeCast S1x10 b3 c10) :=
  (show refMlp z W1 b1 W2 b2 W3 b3
      = hpre (hact bcast_S_S64x512 (hpre (hact bcast_S_S64x512 (hpre z W1 b1 bcast_S512_S1x512_1 bcast_S1x512_S64x512_0_1))
          W2 b2 bcast_S512_S1x512_1 bcast_S1x512_S64x512_0_1)) W3 b3 bcast_S10_S1x10_1 bcast_S1x10_S64x10_0_1 from rfl).trans
    (host_eq_mlpG z W1 b1 W2 b2 W3 b3 bcast_S512_S1x512_1 bcast_S1x512_S64x512_0_1 bcast_S10_S1x10_1 bcast_S1x10_S64x10_0_1
      bcast_S_S64x512 c512 c10)

end Cert.KernelIdeal.Hand.Mlp

end
-- ==== Proof.Bridge.Final.lean ====
/-
  The whole network, the two programs' spellings equal.

  Both programs are the same composition: three graph layers (mean aggregation over the incoming edges, linear map,
  normalisation over the nodes, leaky rectifier), the mean pool per graph beside the graph features, and a perceptron of
  three dense layers. They differ in one place only: the first normalises with the uncentred variance E[L²] − E[L]² and
  a reciprocal square root, the second with the centred variance and a quotient by the square root. On real inputs the
  linear map of the first layer is real, so the two variances of each column agree and the first layers are equal — and
  real, so the second layers are equal and real, and so the third. From there on both apply the same functions to equal
  arrays; no finiteness is needed past the third layer.
-/
import proofs.«144042_j23673859736035_1_alg».proof.Proof.Bridge.LayerBridge
import proofs.«144042_j23673859736035_1_alg».proof.Proof.Bridge.LinBridge
import proofs.«144042_j23673859736035_1_alg».proof.Proof.Bridge.FiniteStages
import proofs.«144042_j23673859736035_1_alg».proof.Proof.Ref.BnRead
import proofs.«144042_j23673859736035_1_alg».proof.Proof.Bridge.KernelOutDef
import proofs.«144042_j23673859736035_1_alg».proof.Proof.Ref.RefOut
import proofs.«144042_j23673859736035_1_alg».proof.Proof.KI.MlpHost6

noncomputable section

namespace Cert.Bridge

open Idealize.ShloMosaic Idealize.ShloMosaic.ValueIdx
open Cert.KernelIdeal Cert.KernelIdeal.Gen Cert.KernelIdeal.Hand Cert.KernelIdeal.Hand.Mlp
open Cert.PreFinite (IsReal)
open Cert.Stages
open Cert.KernelIdeal.Hand.KOut (sageFirst sageNext kOut)
open Cert.RefOut (refFirst refNext rOut)
open scoped BigOperators

/-! ## One layer, nothing assumed but real inputs -/

/-- THE FIRST LAYER: on real features, inverse degrees, weights, bias, scale and shift the two programs' first layers
    are equal, and the result is real. -/
theorem first_eq' (src dst : Arr S800000 .i32) (idg : Arr S50000x1 .f32) (x : Arr S50000x128 .f32) (Wl Wr : Arr S128x256 .f32)
    (bl g b : Arr S256 .f32) (hx : IsReal x) (hidg : IsReal idg) (hWl : IsReal Wl) (hWr : IsReal Wr) (hbl : IsReal bl)
    (hg : IsReal g) (hb : IsReal b) :
    sageFirst src dst idg x Wl Wr bl g b = refFirst src dst idg x Wl Wr bl g b
      ∧ IsReal (s := S50000x256) (sageFirst src dst idg x Wl Wr bl g b) :=
  first_eq Cert.LinBridge.linRef128_apply_idx Cert.LinBridge.asRow256_apply Cert.RefStages.zWord Cert.RefStages.ddof_zero
    Cert.RefStages.bnLeaky_apply (@agg128_real) (@linArr128_real) (@asRow256_real) (@norm_real)
    src dst idg x Wl Wr bl g b hx hidg hWl hWr hbl hg hb

/-- A LATER LAYER: the same on 256 input features. -/
theorem next_eq' (src dst : Arr S800000 .i32) (idg : Arr S50000x1 .f32) (h : Arr S50000x256 .f32) (Wl Wr : Arr S256x256 .f32)
    (bl g b : Arr S256 .f32) (hh : IsReal h) (hidg : IsReal idg) (hWl : IsReal Wl) (hWr : IsReal Wr) (hbl : IsReal bl)
    (hg : IsReal g) (hb : IsReal b) :
    sageNext src dst idg h Wl Wr bl g b = refNext src dst idg h Wl Wr bl g b
      ∧ IsReal (s := S50000x256) (sageNext src dst idg h Wl Wr bl g b) :=
  next_eq Cert.LinBridge.linRef256_apply_idx Cert.LinBridge.asRow256_apply Cert.RefStages.zWord Cert.RefStages.ddof_zero
    Cert.RefStages.bnLeaky_apply (@agg256_real) (@linArr256_real) (@asRow256_real) (@norm_real)
    src dst idg h Wl Wr bl g b hh hidg hWl hWr hbl hg hb

/-! ## The perceptron -/

/-- The second program's three dense layers are the first program's perceptron over the biases laid out as rows:
    layer by layer the same products, the same bias added to every row, the same rectifier. -/
theorem dense_eq_mlpG (z : Arr S64x288 .f32) (W1 : Arr S288x512 .f32) (b1 : Arr S512 .f32) (W2 : Arr S512x512 .f32)
    (b2 : Arr S512 .f32) (W3 : Arr S512x10 .f32) (b3 : Arr S10 .f32) :
    Cert.RefStages.dense3 (Cert.RefStages.dense2 (Cert.RefStages.dense1 z W1 b1) W2 b2) W3 b3
      = mlpG z W1 (asRow512 b1) W2 (asRow512 b2) W3 (asRow10 b3) :=
  (show Cert.RefStages.dense3 (Cert.RefStages.dense2 (Cert.RefStages.dense1 z W1 b1) W2 b2) W3 b3
      = refMlp z W1 b1 W2 b2 W3 b3 from rfl).trans
    (refMlp_eq z W1 b1 W2 b2 W3 b3 shapeCasts_S512_S1x512 shapeCasts_S10_S1x10)

/-! ## The whole network -/

/-- THE TWO NETWORKS ARE EQUAL on real float arguments (the edge list and the graph ids are unconstrained; the graph
    features and the perceptron's parameters need not even be real). -/
theorem out_eq (x : Arr S50000x128 .f32) (ei : Arr S2x800000 .i32) (batch : Arr S50000 .i32) (gf : Arr S64x32 .f32)
    (Wl0 Wr0 : Arr S128x256 .f32) (bl0 : Arr S256 .f32) (Wl Wr : Arr S2x256x256 .f32) (bl : Arr S2x256 .f32)
    (gamma beta : Arr S3x256 .f32) (W1 : Arr S288x512 .f32) (b1 : Arr S512 .f32) (W2 : Arr S512x512 .f32)
    (b2 : Arr S512 .f32) (W3 : Arr S512x10 .f32) (b3 : Arr S10 .f32)
    (hx : IsReal x) (hWl0 : IsReal Wl0) (hWr0 : IsReal Wr0) (hbl0 : IsReal bl0) (hWl : IsReal Wl) (hWr : IsReal Wr)
    (hbl : IsReal bl) (hgamma : IsReal gamma) (hbeta : IsReal beta) :
    kOut x ei batch gf Wl0 Wr0 bl0 Wl Wr bl gamma beta W1 b1 W2 b2 W3 b3 = rOut x ei batch gf Wl0 Wr0 bl0 Wl Wr bl gamma beta W1 b1 W2 b2 W3 b3 := by
  have hi : IsReal (invDeg (dstOf ei)) := invDeg_real (dstOf ei)
  -- the first layer
  obtain ⟨e1, r1⟩ := first_eq' (srcOf ei) (dstOf ei) (invDeg (dstOf ei)) x Wl0 Wr0 bl0 (row3 0 gamma) (row3 0 beta)
    hx hi hWl0 hWr0 hbl0 (row3_real 0 _ hgamma) (row3_real 0 _ hbeta)
  have E1 : (sageFirst (srcOf ei) (dstOf ei) (invDeg (dstOf ei)) x Wl0 Wr0 bl0 (row3 0 gamma) (row3 0 beta)) = (refFirst (srcOf ei) (dstOf ei) (invDeg (dstOf ei)) x Wl0 Wr0 bl0 (row3 0 gamma) (row3 0 beta)) := e1
  have R1 : IsReal (s := S50000x256) (sageFirst (srcOf ei) (dstOf ei) (invDeg (dstOf ei)) x Wl0 Wr0 bl0 (row3 0 gamma) (row3 0 beta)) := r1
  -- the second
  obtain ⟨e2, r2⟩ := next_eq' (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)
    R1 hi (mat2_real 0 _ hWl) (mat2_real 0 _ hWr) (row2_real 0 _ hbl) (row3_real 1 _ hgamma) (row3_real 1 _ hbeta)
  have E2 : (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) = (refNext (srcOf ei) (dstOf ei) (invDeg (dstOf ei)) (refFirst (srcOf ei) (dstOf ei) (invDeg (dstOf ei)) x Wl0 Wr0 bl0 (row3 0 gamma) (row3 0 beta)) (mat2 0 Wl) (mat2 0 Wr) (row2 0 bl) (row3 1 gamma) (row3 1 beta)) :=
    (show (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) = refNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta) from e2).trans
      (congrArg (fun h => refNext (srcOf ei) (dstOf ei) (invDeg (dstOf ei)) h (mat2 0 Wl) (mat2 0 Wr) (row2 0 bl) (row3 1 gamma) (row3 1 beta)) E1)
  have R2 : IsReal (s := S50000x256) (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) := r2
  -- the third
  obtain ⟨e3, _⟩ := next_eq' (srcOf ei) (dstOf ei) (invDeg (dstOf ei)) (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) (mat2 1 Wl) (mat2 1 Wr) (row2 1 bl) (row3 2 gamma) (row3 2 beta)
    R2 hi (mat2_real 1 _ hWl) (mat2_real 1 _ hWr) (row2_real 1 _ hbl) (row3_real 2 _ hgamma) (row3_real 2 _ hbeta)
  have E3 : (sageNext (srcOf ei) (dstOf ei) (invDeg (dstOf ei)) (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) (mat2 1 Wl) (mat2 1 Wr) (row2 1 bl) (row3 2 gamma) (row3 2 beta)) = (refNext (srcOf ei) (dstOf ei) (invDeg (dstOf ei)) (refNext (srcOf ei) (dstOf ei) (invDeg (dstOf ei)) (refFirst (srcOf ei) (dstOf ei) (invDeg (dstOf ei)) x Wl0 Wr0 bl0 (row3 0 gamma) (row3 0 beta)) (mat2 0 Wl) (mat2 0 Wr) (row2 0 bl) (row3 1 gamma) (row3 1 beta)) (mat2 1 Wl) (mat2 1 Wr) (row2 1 bl) (row3 2 gamma) (row3 2 beta)) :=
    (show (sageNext (srcOf ei) (dstOf ei) (invDeg (dstOf ei)) (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) (mat2 1 Wl) (mat2 1 Wr) (row2 1 bl) (row3 2 gamma) (row3 2 beta)) = refNext (srcOf ei) (dstOf ei) (invDeg (dstOf ei)) (sageNext (srcOf ei) (dstOf ei) (invDeg (dstOf ei)) (sageFirst (srcOf ei) (dstOf ei) (invDeg (dstOf ei)) x Wl0 Wr0 bl0 (row3 0 gamma) (row3 0 beta)) (mat2 0 Wl) (mat2 0 Wr) (row2 0 bl) (row3 1 gamma) (row3 1 beta)) (mat2 1 Wl) (mat2 1 Wr) (row2 1 bl) (row3 2 gamma) (row3 2 beta) from e3).trans
      (congrArg (fun h => refNext (srcOf ei) (dstOf ei) (invDeg (dstOf ei)) h (mat2 1 Wl) (mat2 1 Wr) (row2 1 bl) (row3 2 gamma) (row3 2 beta)) E2)
  -- the pool is the same function of equal arrays; the perceptron is the same function of its arguments
  unfold kOut rOut
  rw [dense_eq_mlpG, E3]

end Cert.Bridge

end
-- ==== Proof.Bridge.Algebraic.lean ====
/-
  The two idealized programs end with equal results.

  The kernel program's result buffer holds, after its run, the fold of its seven host stretches and seven kernel
  regions from the launch memory; read back stage by stage that is the network `kOut` of the eighteen argument
  arrays. The reference's result buffer holds, after its run, its operations' composed term, which is the network
  `rOut` of its arguments. The arguments agree, the precondition makes every float argument real, and for real
  arguments the two networks are one function: layer by layer the dense layers agree term by term, the batch
  statistics agree by the variance identity E[x²] − E[x]² = E[(x − E[x])²] over the reals, the two scalings agree
  because that variance plus ε is a positive real, and the pool and the perceptron are spelt alike.
-/
import proofs.«144042_j23673859736035_1_alg».proof.Defs
import proofs.«144042_j23673859736035_1_alg».proof.Proof.Gen.KernelIdeal
import proofs.«144042_j23673859736035_1_alg».proof.Proof.Gen.ReferenceIdeal
import proofs.«144042_j23673859736035_1_alg».proof.Proof.Gen.Pre_finite_inputs
import proofs.«144042_j23673859736035_1_alg».proof.Proof.KI.RunAll
import proofs.«144042_j23673859736035_1_alg».proof.Proof.Bridge.KernelOutAll
import proofs.«144042_j23673859736035_1_alg».proof.Proof.Ref.Run
import proofs.«144042_j23673859736035_1_alg».proof.Proof.Ref.RefOut
import proofs.«144042_j23673859736035_1_alg».proof.Proof.Bridge.Final
import proofs.«144042_j23673859736035_1_alg».proof.Proof.PreFinite

noncomputable section

namespace Cert.Bridge

open Idealize.ShloMosaic Idealize.SL.Sem

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Hand.W14 m Cert.KernelIdeal.Hand.regData0 Cert.KernelIdeal.Hand.regData1 Cert.KernelIdeal.Hand.regData2 Cert.KernelIdeal.Hand.regData3 Cert.KernelIdeal.Hand.regData4 Cert.KernelIdeal.Hand.regData5 Cert.KernelIdeal.Hand.regData6 c (Proc.devRef .tc Cert.KernelIdeal.main_v104), ?_, ?_⟩
  · exact Cert.KernelIdeal.Hand.run_valued (F := Ideal) m ρ
  · refine (θ_run Cert.ReferenceIdeal.defs _ _).mono (fun r h c => ⟨(h c).1.trans ?_, (h c).2⟩)
      (Cert.ReferenceIdeal.RefRun.run (F := Ideal) m' ρ')
    obtain ⟨r0, r3, r4, r5, r6, r7, r8, r9, r10, r11, r12, r13, r14, r15, r16, r17⟩ :=
      Cert.PreFinite.pre_real (hP := Cert.Pre_finite_inputs.Gen.facts) _ _ _ _ _ _ _ _ _ _ _ _ _ _ _ _ _ _ (hpre c)
    show StableHlo.after (Cert.ReferenceIdeal.RefRun.ops (F := Ideal)) (fun b => m' (c, b)) (Proc.devRef .tc Cert.ReferenceIdeal.main_v191) = Cert.KernelIdeal.Hand.W14 m Cert.KernelIdeal.Hand.regData0 Cert.KernelIdeal.Hand.regData1 Cert.KernelIdeal.Hand.regData2 Cert.KernelIdeal.Hand.regData3 Cert.KernelIdeal.Hand.regData4 Cert.KernelIdeal.Hand.regData5 Cert.KernelIdeal.Hand.regData6 c (Proc.devRef .tc Cert.KernelIdeal.main_v104)
    rw [Cert.RefOut.ref_out, Cert.KernelIdeal.Hand.KOut.kernel_out_all m c]
    show Cert.RefOut.rOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    exact (out_eq _ _ _ _ _ _ _ _ _ _ _ _ _ _ _ _ _ _ r0 r4 r5 r6 r7 r8 r9 r10 r11).symm

end Cert.Bridge

end
-- ==== Proof.lean ====
/-
  The certificate of a three-layer graph network (neighbour-mean aggregation, a dense layer with batch
  statistics, normalisation with a leaky rectifier; then a mean pool per graph and a three-layer perceptron), its
  kernel program against a plain reference.

  Frames. The kernel program is seven host stretches alternating with seven kernel regions. Its frame is assembled
  from one record per region: three regions normalise a row block pointwise (one control case), one runs the
  perceptron on a single block, and three compute the dense layer on ten row blocks while two scratch rows carry
  the running column sums and sums of squares from the first grid point (which zeroes them) to the last (which
  writes mean and variance). The same text, read at the word level, is the word-level program's frame. The
  reference is a straight line of host operations: its run is read off its operation list.

  Values. Read back through its stretches and regions, the kernel program's result is one function of the eighteen
  arguments; so is the reference's. For real arguments — which the precondition gives — the two functions agree:
  the dense layers term by term, the batch statistics by E[x²] − E[x]² = E[(x − E[x])²] over the reals, the scalings
  γ · rsqrt(σ² + ε) = γ / sqrt(σ² + ε) because σ² + ε is a positive real, and every stage keeps its entries real.
  No rewrite was applied in idealizing the kernel, so nothing is owed for it.
-/
import proofs.«144042_j23673859736035_1_alg».proof.Defs
import proofs.«144042_j23673859736035_1_alg».proof.Proof.Gen.Kernel
import proofs.«144042_j23673859736035_1_alg».proof.Proof.Gen.KernelIdeal
import proofs.«144042_j23673859736035_1_alg».proof.Proof.Gen.ReferenceIdeal
import proofs.«144042_j23673859736035_1_alg».proof.Proof.Gen.Pre_finite_inputs
import proofs.«144042_j23673859736035_1_alg».proof.Proof.K.RunAll
import proofs.«144042_j23673859736035_1_alg».proof.Proof.KI.RunAll
import proofs.«144042_j23673859736035_1_alg».proof.Proof.Ref.Frame
import proofs.«144042_j23673859736035_1_alg».proof.Proof.Bridge.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefRun.frame_ri,
    trivial,
    Cert.Bridge.algebraic⟩

end Cert.Proof

end
